-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x7 : Shape := ⟨2, ![50000, 7]⟩
abbrev S1000000x5 : Shape := ⟨2, ![1000000, 5]⟩
abbrev S2x1000000 : Shape := ⟨2, ![2, 1000000]⟩
abbrev S250 : Shape := ⟨1, ![250]⟩
abbrev S7x64 : Shape := ⟨2, ![7, 64]⟩
abbrev S64 : Shape := ⟨1, ![64]⟩
abbrev S3x5x64 : Shape := ⟨3, ![3, 5, 64]⟩
abbrev S3x64 : Shape := ⟨2, ![3, 64]⟩
abbrev S3x64x128 : Shape := ⟨3, ![3, 64, 128]⟩
abbrev S3x128 : Shape := ⟨2, ![3, 128]⟩
abbrev S3x128x64 : Shape := ⟨3, ![3, 128, 64]⟩
abbrev S_ : Shape := ⟨0, ![]⟩

class Facts : Prop where
  bcast_S_S50000x7 : S_.BroadcastsInDim S50000x7 (![] : Fin 0 → Fin S50000x7.rank)
  reducesTo_S50000x7_S_d0_1 : S50000x7.ReducesTo [0, 1] S_
  h_S_ : 0 < S_.numel
  bcast_S_S1000000x5 : S_.BroadcastsInDim S1000000x5 (![] : Fin 0 → Fin S1000000x5.rank)
  reducesTo_S1000000x5_S_d0_1 : S1000000x5.ReducesTo [0, 1] S_
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S3x5x64 : S_.BroadcastsInDim S3x5x64 (![] : Fin 0 → Fin S3x5x64.rank)
  reducesTo_S3x5x64_S_d0_1_2 : S3x5x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x128 : S_.BroadcastsInDim S3x64x128 (![] : Fin 0 → Fin S3x64x128.rank)
  reducesTo_S3x64x128_S_d0_1_2 : S3x64x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_

variable [Facts]

def fn_part3 {F : FTy → Type} [FloatOps F] (main_arg13 : FVec F S3x64 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  main_v58

def fn_part2 {F : FTy → Type} [FloatOps F] (main_arg9 : FVec F S3x128 .f32) (main_arg10 : FVec F S3x128x64 .f32) (main_arg11 : FVec F S3x64 .f32) (main_arg12 : FVec F S3x64 .f32) (main_arg13 : FVec F S3x64 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x64 .f32 := Host.absf main_arg10
  let main_cst_14 : FVec F S_ .f32 := constant S_ .f32 0x7F800000#32
  let main_v40 : FVec F S3x128x64 .f32 := broadcastInDim S3x128x64 ![] bcast_S_S3x128x64 main_cst_14
  let main_v41 : IVec S3x128x64 1 := cmpf .olt main_v39 main_v40
  let main_c_15 : IVec S_ 1 := constantI S_ 1 1#1
  let main_v42 : IVec S_ 1 := (fun x v => Host.reduce IntOp.andi x v reducesTo_S3x128x64_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_v48 main_v49 main_v50

def fn_part1 {F : FTy → Type} [FloatOps F] (main_arg6 : FVec F S3x5x64 .f32) (main_arg7 : FVec F S3x64 .f32) (main_arg8 : FVec F S3x64x128 .f32) (main_arg9 : FVec F S3x128 .f32) (main_arg10 : FVec F S3x128x64 .f32) (main_arg11 : FVec F S3x64 .f32) (main_arg12 : FVec F S3x64 .f32) (main_arg13 : FVec F S3x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x5x64 .f32 := Host.absf main_arg6
  let main_cst_6 : FVec F S_ .f32 := constant S_ .f32 0x7F800000#32
  let main_v20 : FVec F S3x5x64 .f32 := broadcastInDim S3x5x64 ![] bcast_S_S3x5x64 main_cst_6
  let main_v21 : IVec S3x5x64 1 := cmpf .olt main_v19 main_v20
  let main_c_7 : IVec S_ 1 := constantI S_ 1 1#1
  let main_v22 : IVec S_ 1 := (fun x v => Host.reduce IntOp.andi x v reducesTo_S3x5x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64x128 .f32 := Host.absf main_arg8
  let main_cst_10 : FVec F S_ .f32 := constant S_ .f32 0x7F800000#32
  let main_v30 : FVec F S3x64x128 .f32 := broadcastInDim S3x64x128 ![] bcast_S_S3x64x128 main_cst_10
  let main_v31 : IVec S3x64x128 1 := cmpf .olt main_v29 main_v30
  let main_c_11 : IVec S_ 1 := constantI S_ 1 1#1
  let main_v32 : IVec S_ 1 := (fun x v => Host.reduce IntOp.andi x v reducesTo_S3x64x128_S_d0_1_2 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x7 .f32) (main_arg1 : FVec F S1000000x5 .f32) (main_arg2 : IVec S2x1000000 32) (main_arg3 : IVec S250 32) (main_arg4 : FVec F S7x64 .f32) (main_arg5 : FVec F S64 .f32) (main_arg6 : FVec F S3x5x64 .f32) (main_arg7 : FVec F S3x64 .f32) (main_arg8 : FVec F S3x64x128 .f32) (main_arg9 : FVec F S3x128 .f32) (main_arg10 : FVec F S3x128x64 .f32) (main_arg11 : FVec F S3x64 .f32) (main_arg12 : FVec F S3x64 .f32) (main_arg13 : FVec F S3x64 .f32) : IVec S_ 1 :=
  let main_v0 : FVec F S50000x7 .f32 := Host.absf main_arg0
  let main_cst : FVec F S_ .f32 := constant S_ .f32 0x7F800000#32
  let main_v1 : FVec F S50000x7 .f32 := broadcastInDim S50000x7 ![] bcast_S_S50000x7 main_cst
  let main_v2 : IVec S50000x7 1 := cmpf .olt main_v0 main_v1
  let main_c : IVec S_ 1 := constantI S_ 1 1#1
  let main_v3 : IVec S_ 1 := (fun x v => Host.reduce IntOp.andi x v reducesTo_S50000x7_S_d0_1 h_S_) main_v2 main_c
  let main_v4 : FVec F S1000000x5 .f32 := Host.absf main_arg1
  let main_cst_0 : FVec F S_ .f32 := constant S_ .f32 0x7F800000#32
  let main_v5 : FVec F S1000000x5 .f32 := broadcastInDim S1000000x5 ![] bcast_S_S1000000x5 main_cst_0
  let main_v6 : IVec S1000000x5 1 := cmpf .olt main_v4 main_v5
  let main_c_1 : IVec S_ 1 := constantI S_ 1 1#1
  let main_v7 : IVec S_ 1 := (fun x v => Host.reduce IntOp.andi x v reducesTo_S1000000x5_S_d0_1 h_S_) main_v6 main_c_1
  let main_v8 : IVec S_ 1 := andi main_v3 main_v7
  let main_v9 : FVec F S7x64 .f32 := Host.absf main_arg4
  let main_cst_2 : FVec F S_ .f32 := constant S_ .f32 0x7F800000#32
  let main_v10 : FVec F S7x64 .f32 := broadcastInDim S7x64 ![] bcast_S_S7x64 main_cst_2
  let main_v11 : IVec S7x64 1 := cmpf .olt main_v9 main_v10
  let main_c_3 : IVec S_ 1 := constantI S_ 1 1#1
  let main_v12 : IVec S_ 1 := (fun x v => Host.reduce IntOp.andi x v reducesTo_S7x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S50000x7 : Shape := ⟨2, ![50000, 7]⟩
abbrev S1000000x5 : Shape := ⟨2, ![1000000, 5]⟩
abbrev S2x1000000 : Shape := ⟨2, ![2, 1000000]⟩
abbrev S250 : Shape := ⟨1, ![250]⟩
abbrev S7x64 : Shape := ⟨2, ![7, 64]⟩
abbrev S64 : Shape := ⟨1, ![64]⟩
abbrev S3x5x64 : Shape := ⟨3, ![3, 5, 64]⟩
abbrev S3x64 : Shape := ⟨2, ![3, 64]⟩
abbrev S3x64x128 : Shape := ⟨3, ![3, 64, 128]⟩
abbrev S3x128 : Shape := ⟨2, ![3, 128]⟩
abbrev S3x128x64 : Shape := ⟨3, ![3, 128, 64]⟩
abbrev S_ : Shape := ⟨0, ![]⟩
abbrev S50000x5 : Shape := ⟨2, ![50000, 5]⟩
abbrev S1 : Shape := ⟨1, ![1]⟩
abbrev S50000 : Shape := ⟨1, ![50000]⟩
abbrev S1050000x5 : Shape := ⟨2, ![1050000, 5]⟩
abbrev S1x1000000 : Shape := ⟨2, ![1, 1000000]⟩
abbrev S1000000 : Shape := ⟨1, ![1000000]⟩
abbrev S1050000 : Shape := ⟨1, ![1050000]⟩
abbrev S1x64 : Shape := ⟨2, ![1, 64]⟩
abbrev S50000x64 : Shape := ⟨2, ![50000, 64]⟩
abbrev S10000x7 : Shape := ⟨2, ![10000, 7]⟩
abbrev S10000x64 : Shape := ⟨2, ![10000, 64]⟩
abbrev S1x5x64 : Shape := ⟨3, ![1, 5, 64]⟩
abbrev S5x64 : Shape := ⟨2, ![5, 64]⟩
abbrev S1050000x64 : Shape := ⟨2, ![1050000, 64]⟩
abbrev S10000x5 : Shape := ⟨2, ![10000, 5]⟩
abbrev S1050000x1 : Shape := ⟨2, ![1050000, 1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S10000x128 : Shape := ⟨2, ![10000, 128]⟩
abbrev S250x1 : Shape := ⟨2, ![250, 1]⟩
abbrev S250x64 : Shape := ⟨2, ![250, 64]⟩

abbrev nBuf : Space → Nat
  | .hbm => 193
  | .vmem => 84
  | .smem => 0
  | _ => 0

abbrev hbmTy0_0 (i : Nat) : BufTy := match i % 128 with
  | 0 => ⟨S50000x7, .f32⟩
  | 1 => ⟨S1000000x5, .f32⟩
  | 2 => ⟨S2x1000000, .i32⟩
  | 3 => ⟨S250, .i32⟩
  | 4 => ⟨S7x64, .f32⟩
  | 5 => ⟨S64, .f32⟩
  | 6 => ⟨S3x5x64, .f32⟩
  | 7 => ⟨S3x64, .f32⟩
  | 8 => ⟨S3x64x128, .f32⟩
  | 9 => ⟨S3x128, .f32⟩
  | 10 => ⟨S3x128x64, .f32⟩
  | 11 => ⟨S3x64, .f32⟩
  | 12 => ⟨S3x64, .f32⟩
  | 13 => ⟨S3x64, .f32⟩
  | 14 => ⟨S_, .f32⟩
  | 15 => ⟨S50000x5, .f32⟩
  | 16 => ⟨S_, .i32⟩
  | 17 => ⟨S1, .i32⟩
  | 18 => ⟨S_, .f32⟩
  | 19 => ⟨S50000, .f32⟩
  | 20 => ⟨S50000x5, .f32⟩
  | 21 => ⟨S1050000x5, .f32⟩
  | 22 => ⟨S50000, .i32⟩
  | 23 => ⟨S1x1000000, .i32⟩
  | 24 => ⟨S1000000, .i32⟩
  | 25 => ⟨S1050000, .i32⟩
  | 26 => ⟨S1x1000000, .i32⟩
  | 27 => ⟨S1000000, .i32⟩
  | 28 => ⟨S1050000, .i32⟩
  | 29 => ⟨S1x64, .f32⟩
  | 30 => ⟨S50000x64, .f32⟩
  | 31 => ⟨S1x5x64, .f32⟩
  | 32 => ⟨S5x64, .f32⟩
  | 33 => ⟨S1x64, .f32⟩
  | 34 => ⟨S64, .f32⟩
  | 35 => ⟨S1x64, .f32⟩
  | 36 => ⟨S1050000x64, .f32⟩
  | 37 => ⟨S_, .i32⟩
  | 38 => ⟨S1050000, .i32⟩
  | 39 => ⟨S1050000, .i1⟩
  | 40 => ⟨S_, .i32⟩
  | 41 => ⟨S1050000, .i32⟩
  | 42 => ⟨S1050000, .i32⟩
  | 43 => ⟨S1050000, .i32⟩
  | 44 => ⟨S1050000x1, .i32⟩
  | 45 => ⟨S1050000x64, .f32⟩
  | 46 => ⟨S1050000x64, .f32⟩
  | 47 => ⟨S_, .f32⟩
  | 48 => ⟨S50000x64, .f32⟩
  | 49 => ⟨S1050000x1, .i32⟩
  | 50 => ⟨S50000x64, .f32⟩
  | 51 => ⟨S1x64x128, .f32⟩
  | 52 => ⟨S64x128, .f32⟩
  | 53 => ⟨S1x128, .f32⟩
  | 54 => ⟨S128, .f32⟩
  | 55 => ⟨S1x128, .f32⟩
  | 56 => ⟨S1x128x64, .f32⟩
  | 57 => ⟨S128x64, .f32⟩
  | 58 => ⟨S1x64, .f32⟩
  | 59 => ⟨S64, .f32⟩
  | 60 => ⟨S1x64, .f32⟩
  | 61 => ⟨S50000x64, .f32⟩
  | 62 => ⟨S1x64, .f32⟩
  | 63 => ⟨S1x64, .f32⟩
  | 64 => ⟨S_, .f32⟩
  | 65 => ⟨S1x64, .f32⟩
  | 66 => ⟨S1x64, .f32⟩
  | 67 => ⟨S_, .f32⟩
  | 68 => ⟨S1x64, .f32⟩
  | 69 => ⟨S1x64, .f32⟩
  | 70 => ⟨S1x64, .f32⟩
  | 71 => ⟨S1x64, .f32⟩
  | 72 => ⟨S_, .f32⟩
  | 73 => ⟨S1x64, .f32⟩
  | 74 => ⟨S1x64, .f32⟩
  | 75 => ⟨S1x64, .f32⟩
  | 76 => ⟨S64, .f32⟩
  | 77 => ⟨S1x64, .f32⟩
  | 78 => ⟨S1x64, .f32⟩
  | 79 => ⟨S64, .f32⟩
  | 80 => ⟨S1x64, .f32⟩
  | 81 => ⟨S50000x64, .f32⟩
  | 82 => ⟨S1x5x64, .f32⟩
  | 83 => ⟨S5x64, .f32⟩
  | 84 => ⟨S1x64, .f32⟩
  | 85 => ⟨S64, .f32⟩
  | 86 => ⟨S1x64, .f32⟩
  | 87 => ⟨S1050000x64, .f32⟩
  | 88 => ⟨S_, .i32⟩
  | 89 => ⟨S1050000, .i32⟩
  | 90 => ⟨S1050000, .i1⟩
  | 91 => ⟨S_, .i32⟩
  | 92 => ⟨S1050000, .i32⟩
  | 93 => ⟨S1050000, .i32⟩
  | 94 => ⟨S1050000, .i32⟩
  | 95 => ⟨S1050000x1, .i32⟩
  | 96 => ⟨S1050000x64, .f32⟩
  | 97 => ⟨S1050000x64, .f32⟩
  | 98 => ⟨S_, .f32⟩
  | 99 => ⟨S50000x64, .f32⟩
  | 100 => ⟨S1050000x1, .i32⟩
  | 101 => ⟨S50000x64, .f32⟩
  | 102 => ⟨S1x64x128, .f32⟩
  | 103 => ⟨S64x128, .f32⟩
  | 104 => ⟨S1x128, .f32⟩
  | 105 => ⟨S128, .f32⟩
  | 106 => ⟨S1x128, .f32⟩
  | 107 => ⟨S1x128x64, .f32⟩
  | 108 => ⟨S128x64, .f32⟩
  | 109 => ⟨S1x64, .f32⟩
  | 110 => ⟨S64, .f32⟩
  | 111 => ⟨S1x64, .f32⟩
  | 112 => ⟨S50000x64, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S1x64, .f32⟩
  | 122 => ⟨S1x64, .f32⟩
  | 123 => ⟨S_, .f32⟩
  | 124 => ⟨S1x64, .f32⟩
  | 125 => ⟨S1x64, .f32⟩
  | 126 => ⟨S1x64, .f32⟩
  | 127 => ⟨S64, .f32⟩
  | _ => ⟨S50000x7, .f32⟩

abbrev hbmTy0_1 (i : Nat) : BufTy := match i % 128 with
  | 0 => ⟨S1x64, .f32⟩
  | 1 => ⟨S1x64, .f32⟩
  | 2 => ⟨S64, .f32⟩
  | 3 => ⟨S1x64, .f32⟩
  | 4 => ⟨S50000x64, .f32⟩
  | 5 => ⟨S1x5x64, .f32⟩
  | 6 => ⟨S5x64, .f32⟩
  | 7 => ⟨S1x64, .f32⟩
  | 8 => ⟨S64, .f32⟩
  | 9 => ⟨S1x64, .f32⟩
  | 10 => ⟨S1050000x64, .f32⟩
  | 11 => ⟨S_, .i32⟩
  | 12 => ⟨S1050000, .i32⟩
  | 13 => ⟨S1050000, .i1⟩
  | 14 => ⟨S_, .i32⟩
  | 15 => ⟨S1050000, .i32⟩
  | 16 => ⟨S1050000, .i32⟩
  | 17 => ⟨S1050000, .i32⟩
  | 18 => ⟨S1050000x1, .i32⟩
  | 19 => ⟨S1050000x64, .f32⟩
  | 20 => ⟨S1050000x64, .f32⟩
  | 21 => ⟨S_, .f32⟩
  | 22 => ⟨S50000x64, .f32⟩
  | 23 => ⟨S1050000x1, .i32⟩
  | 24 => ⟨S50000x64, .f32⟩
  | 25 => ⟨S1x64x128, .f32⟩
  | 26 => ⟨S64x128, .f32⟩
  | 27 => ⟨S1x128, .f32⟩
  | 28 => ⟨S128, .f32⟩
  | 29 => ⟨S1x128, .f32⟩
  | 30 => ⟨S1x128x64, .f32⟩
  | 31 => ⟨S128x64, .f32⟩
  | 32 => ⟨S1x64, .f32⟩
  | 33 => ⟨S64, .f32⟩
  | 34 => ⟨S1x64, .f32⟩
  | 35 => ⟨S50000x64, .f32⟩
  | 36 => ⟨S1x64, .f32⟩
  | 37 => ⟨S1x64, .f32⟩
  | 38 => ⟨S_, .f32⟩
  | 39 => ⟨S1x64, .f32⟩
  | 40 => ⟨S1x64, .f32⟩
  | 41 => ⟨S_, .f32⟩
  | 42 => ⟨S1x64, .f32⟩
  | 43 => ⟨S1x64, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S64, .f32⟩
  | 51 => ⟨S1x64, .f32⟩
  | 52 => ⟨S1x64, .f32⟩
  | 53 => ⟨S64, .f32⟩
  | 54 => ⟨S1x64, .f32⟩
  | 55 => ⟨S50000x64, .f32⟩
  | 56 => ⟨S_, .i32⟩
  | 57 => ⟨S250, .i32⟩
  | 58 => ⟨S250, .i1⟩
  | 59 => ⟨S_, .i32⟩
  | 60 => ⟨S250, .i32⟩
  | 61 => ⟨S250, .i32⟩
  | 62 => ⟨S250, .i32⟩
  | 63 => ⟨S250x1, .i32⟩
  | 64 => ⟨S250x64, .f32⟩
  | _ => ⟨S50000x7, .f32⟩

abbrev hbmTy (i : Nat) : BufTy := match i / 128 with
  | 0 => hbmTy0_0 i
  | 1 => hbmTy0_1 i
  | _ => ⟨S50000x7, .f32⟩

abbrev bufTy : (tb : Table) → Fin (tcTables nBuf tb) → BufTy
  | .hbm, ⟨i, _⟩ => hbmTy i
  | .local _ .vmem, ⟨0, _⟩ => ⟨S10000x7, .f32⟩
  | .local _ .vmem, ⟨1, _⟩ => ⟨S10000x7, .f32⟩
  | .local _ .vmem, ⟨2, _⟩ => ⟨S7x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x5, .f32⟩
  | .local _ .vmem, ⟨7, _⟩ => ⟨S10000x5, .f32⟩
  | .local _ .vmem, ⟨8, _⟩ => ⟨S5x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S10000x5, .f32⟩
  | .local _ .vmem, ⟨33, _⟩ => ⟨S10000x5, .f32⟩
  | .local _ .vmem, ⟨34, _⟩ => ⟨S5x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S64x128, .f32⟩
  | .local _ .vmem, ⟨41, _⟩ => ⟨S1x128, .f32⟩
  | .local _ .vmem, ⟨42, _⟩ => ⟨S128x64, .f32⟩
  | .local _ .vmem, ⟨43, _⟩ => ⟨S1x64, .f32⟩
  | .local _ .vmem, ⟨44, _⟩ => ⟨S10000x64, .f32⟩
  | .local _ .vmem, ⟨45, _⟩ => ⟨S10000x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S10000x64, .f32⟩
  | .local _ .vmem, ⟨57, _⟩ => ⟨S10000x64, .f32⟩
  | .local _ .vmem, ⟨58, _⟩ => ⟨S10000x5, .f32⟩
  | .local _ .vmem, ⟨59, _⟩ => ⟨S10000x5, .f32⟩
  | .local _ .vmem, ⟨60, _⟩ => ⟨S5x64, .f32⟩
  | .local _ .vmem, ⟨61, _⟩ => ⟨S1x64, .f32⟩
  | .local _ .vmem, ⟨62, _⟩ => ⟨S10000x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S64x128, .f32⟩
  | .local _ .vmem, ⟨67, _⟩ => ⟨S1x128, .f32⟩
  | .local _ .vmem, ⟨68, _⟩ => ⟨S128x64, .f32⟩
  | .local _ .vmem, ⟨69, _⟩ => ⟨S1x64, .f32⟩
  | .local _ .vmem, ⟨70, _⟩ => ⟨S10000x64, .f32⟩
  | .local _ .vmem, ⟨71, _⟩ => ⟨S10000x64, .f32⟩
  | .local _ .vmem, ⟨72, _⟩ => ⟨S1x64, .f32⟩
  | .local _ .vmem, ⟨73, _⟩ => ⟨S1x64, .f32⟩
  | .local _ .vmem, ⟨74, _⟩ => ⟨S1x64, .f32⟩
  | .local _ .vmem, ⟨75, _⟩ => ⟨S1x64, .f32⟩
  | .local _ .vmem, ⟨76, _⟩ => ⟨S10000x64, .f32⟩
  | .local _ .vmem, ⟨77, _⟩ => ⟨S10000x64, .f32⟩
  | .local _ .vmem, ⟨78, _⟩ => ⟨S1x64, .f32⟩
  | .local _ .vmem, ⟨79, _⟩ => ⟨S1x64, .f32⟩
  | .local _ .vmem, ⟨80, _⟩ => ⟨S1x64, .f32⟩
  | .local _ .vmem, ⟨81, _⟩ => ⟨S1x64, .f32⟩
  | .local _ .vmem, ⟨82, _⟩ => ⟨S10000x64, .f32⟩
  | .local _ .vmem, ⟨83, _⟩ => ⟨S10000x64, .f32⟩
  | _, _ => ⟨S50000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41_0 : Ref sig .tc := ⟨.hbm, 61, rfl⟩
abbrev main_v41_1 : Ref sig .tc := ⟨.hbm, 62, rfl⟩
abbrev main_v41_2 : Ref sig .tc := ⟨.hbm, 63, rfl⟩
abbrev main_cst_4 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_7 : Ref sig .tc := ⟨.hbm, 88, rfl⟩
abbrev main_v63 : Ref sig .tc := ⟨.hbm, 89, rfl⟩
abbrev main_v64 : Ref sig .tc := ⟨.hbm, 90, rfl⟩
abbrev main_c_8 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_9 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84_0 : Ref sig .tc := ⟨.hbm, 112, rfl⟩
abbrev main_v84_1 : Ref sig .tc := ⟨.hbm, 113, rfl⟩
abbrev main_v84_2 : Ref sig .tc := ⟨.hbm, 114, rfl⟩
abbrev main_cst_10 : Ref sig .tc := ⟨.hbm, 115, rfl⟩
abbrev main_v85 : Ref sig .tc := ⟨.hbm, 116, rfl⟩
abbrev main_v86 : Ref sig .tc := ⟨.hbm, 117, rfl⟩
abbrev main_cst_11 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_12 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_c_13 : Ref sig .tc := ⟨.hbm, 139, rfl⟩
abbrev main_v106 : Ref sig .tc := ⟨.hbm, 140, rfl⟩
abbrev main_v107 : Ref sig .tc := ⟨.hbm, 141, rfl⟩
abbrev main_c_14 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_15 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127_0 : Ref sig .tc := ⟨.hbm, 163, rfl⟩
abbrev main_v127_1 : Ref sig .tc := ⟨.hbm, 164, rfl⟩
abbrev main_v127_2 : Ref sig .tc := ⟨.hbm, 165, rfl⟩
abbrev main_cst_16 : Ref sig .tc := ⟨.hbm, 166, rfl⟩
abbrev main_v128 : Ref sig .tc := ⟨.hbm, 167, rfl⟩
abbrev main_v129 : Ref sig .tc := ⟨.hbm, 168, rfl⟩
abbrev main_cst_17 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_18 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_c_19 : Ref sig .tc := ⟨.hbm, 184, rfl⟩
abbrev main_v143 : Ref sig .tc := ⟨.hbm, 185, rfl⟩
abbrev main_v144 : Ref sig .tc := ⟨.hbm, 186, rfl⟩
abbrev main_c_20 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg7_0 : Ref sig .tc := ⟨.vmem, 21, rfl⟩
abbrev cc2_scratch0 : Ref sig .tc := ⟨.vmem, 22, rfl⟩
abbrev cc2_scratch1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg5_0 : Ref sig .tc := ⟨.vmem, 44, rfl⟩
abbrev cc5_stg5_1 : Ref sig .tc := ⟨.vmem, 45, rfl⟩
abbrev cc5_stg6_0 : Ref sig .tc := ⟨.vmem, 46, rfl⟩
abbrev cc5_stg7_0 : Ref sig .tc := ⟨.vmem, 47, rfl⟩
abbrev cc5_scratch0 : Ref sig .tc := ⟨.vmem, 48, rfl⟩
abbrev cc5_scratch1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg5_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg3_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc8_stg6_0 : Ref sig .tc := ⟨.vmem, 72, rfl⟩
abbrev cc8_stg7_0 : Ref sig .tc := ⟨.vmem, 73, rfl⟩
abbrev cc8_scratch0 : Ref sig .tc := ⟨.vmem, 74, rfl⟩
abbrev cc8_scratch1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg4_0 : Ref sig .tc := ⟨.vmem, 81, rfl⟩
abbrev cc9_stg5_0 : Ref sig .tc := ⟨.vmem, 82, rfl⟩
abbrev cc9_stg5_1 : Ref sig .tc := ⟨.vmem, 83, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc2_sem6_0 : DmaSem sig := 20
abbrev cc2_sem7_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc5_sem6_0 : DmaSem sig := 44
abbrev cc5_sem7_0 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem5_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem3_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem3_0 : DmaSem sig := 64
abbrev cc8_sem4_0 : DmaSem sig := 65
abbrev cc8_sem5_0 : DmaSem sig := 66
abbrev cc8_sem5_1 : DmaSem sig := 67
abbrev cc8_sem6_0 : DmaSem sig := 68
abbrev cc8_sem7_0 : DmaSem sig := 69
abbrev cc9_sem0_0 : DmaSem sig := 70
abbrev cc9_sem0_1 : DmaSem sig := 71
abbrev cc9_sem1_0 : DmaSem sig := 72
abbrev cc9_sem2_0 : DmaSem sig := 73
abbrev cc9_sem3_0 : DmaSem sig := 74
abbrev cc9_sem4_0 : DmaSem sig := 75
abbrev cc9_sem5_0 : DmaSem sig := 76
abbrev cc9_sem5_1 : DmaSem sig := 77

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![105], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def k2_cond2 (i : grid2.Coords) : BitVec 1 :=
  let arg0 : BitVec 32 := BitVec.ofNat 32 (i 0).val
  let c4_i32 : BitVec 32 := 4#32
  let v41 : BitVec 1 := Scalar.cmpi .eq arg0 c4_i32
  let v42 : BitVec 32 := Scalar.extui v41
  let c0_i32_24 : BitVec 32 := 0#32
  let v43 : BitVec 1 := Scalar.cmpi .ne v42 c0_i32_24
  v43

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![105], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x5 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S5x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![5], ![false]⟩

def k5_cond2 (i : grid5.Coords) : BitVec 1 :=
  let arg0 : BitVec 32 := BitVec.ofNat 32 (i 0).val
  let c4_i32 : BitVec 32 := 4#32
  let v41 : BitVec 1 := Scalar.cmpi .eq arg0 c4_i32
  let v42 : BitVec 32 := Scalar.extui v41
  let c0_i32_24 : BitVec 32 := 0#32
  let v43 : BitVec 1 := Scalar.cmpi .ne v42 c0_i32_24
  v43

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![105], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x5 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S5x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![5], ![false]⟩

def k8_cond2 (i : grid8.Coords) : BitVec 1 :=
  let arg0 : BitVec 32 := BitVec.ofNat 32 (i 0).val
  let c4_i32 : BitVec 32 := 4#32
  let v41 : BitVec 1 := Scalar.cmpi .eq arg0 c4_i32
  let v42 : BitVec 32 := Scalar.extui v41
  let c0_i32_24 : BitVec 32 := 0#32
  let v43 : BitVec 1 := Scalar.cmpi .ne v42 c0_i32_24
  v43

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S128x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  bcast_S_S50000x5 : S_.BroadcastsInDim S50000x5 (![] : Fin 0 → Fin S50000x5.rank)
  bcast_S_S1 : S_.BroadcastsInDim S1 (![] : Fin 0 → Fin S1.rank)
  bcast_S_S50000 : S_.BroadcastsInDim S50000 (![] : Fin 0 → Fin S50000.rank)
  concatenates_S1000000x5_S50000x5_S1050000x5_d0 : Shape.Concatenates [S1000000x5, S50000x5] S1050000x5 0
  slices_S2x1000000_S1x1000000_0_0 : S2x1000000.Slices ![0, 0] S1x1000000
  shapeCasts_S1x1000000_S1000000 : S1x1000000.ShapeCasts S1000000
  concatenates_S1000000_S50000_S1050000_d0 : Shape.Concatenates [S1000000, S50000] S1050000 0
  slices_S2x1000000_S1x1000000_1_0 : S2x1000000.Slices ![1, 0] S1x1000000
  shapeCasts_S64_S1x64 : S64.ShapeCasts S1x64
  inb_S10000x7_S10000x7_0_0 : ∀ a, (![0, 0] : Fin 2 → Nat) a + S10000x7.size a ≤ S10000x7.size a
  h_S10000x7 : 0 < S10000x7.numel
  bitsLt_bf16_f32 : FTy.bits .bf16 < FTy.bits .f32
  inb_S7x64_S7x64_0_0 : ∀ a, (![0, 0] : Fin 2 → Nat) a + S7x64.size a ≤ S7x64.size a
  h_S7x64 : 0 < S7x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S3x5x64_S1x5x64_0_0_0 : S3x5x64.Slices ![0, 0, 0] S1x5x64
  shapeCasts_S1x5x64_S5x64 : S1x5x64.ShapeCasts S5x64
  slices_S3x64_S1x64_0_0 : S3x64.Slices ![0, 0] S1x64
  shapeCasts_S1x64_S64 : S1x64.ShapeCasts S64
  inb_S10000x5_S10000x5_0_0 : ∀ a, (![0, 0] : Fin 2 → Nat) a + S10000x5.size a ≤ S10000x5.size a
  h_S10000x5 : 0 < S10000x5.numel
  shapeCasts_S10000x5_S10000x5 : S10000x5.ShapeCasts S10000x5
  inb_S5x64_S5x64_0_0 : ∀ a, (![0, 0] : Fin 2 → Nat) a + S5x64.size a ≤ S5x64.size a
  h_S5x64 : 0 < S5x64.numel
  shapeCasts_S5x64_S5x64 : S5x64.ShapeCasts S5x64
  bcast_S_S1050000 : S_.BroadcastsInDim S1050000 (![] : Fin 0 → Fin S1050000.rank)
  bcast_S1050000_S1050000x1_0 : S1050000.BroadcastsInDim S1050000x1 (![0] : Fin 1 → Fin S1050000x1.rank)
  bcast_S_S50000x64 : S_.BroadcastsInDim S50000x64 (![] : Fin 0 → Fin S50000x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  shapeCasts_S128_S1x128 : S128.ShapeCasts S1x128
  slices_S3x128x64_S1x128x64_0_0_0 : S3x128x64.Slices ![0, 0, 0] S1x128x64
  shapeCasts_S1x128x64_S128x64 : S1x128x64.ShapeCasts S128x64
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reduces_S10000x64_S64 : S10000x64.Reduces [0] S64
  bcast_S_S1x64 : S_.BroadcastsInDim S1x64 (![] : Fin 0 → Fin S1x64.rank)
  slices_S3x5x64_S1x5x64_1_0_0 : S3x5x64.Slices ![1, 0, 0] S1x5x64
  slices_S3x64_S1x64_1_0 : S3x64.Slices ![1, 0] S1x64
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3x5x64_S1x5x64_2_0_0 : S3x5x64.Slices ![2, 0, 0] S1x5x64
  slices_S3x64_S1x64_2_0 : S3x64.Slices ![2, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  bcast_S_S250 : S_.BroadcastsInDim S250 (![] : Fin 0 → Fin S250.rank)
  bcast_S250_S250x1_0 : S250.BroadcastsInDim S250x1 (![0] : Fin 1 → Fin S250x1.rank)
  scatter_S50000x5_S1_S50000_0_1_1_0_wf : ScatterDims.WF S50000x5 S1 S50000 [0] [1] [1] 0
  dot_S10000x7_S7x64_S10000x64_1_0_0_1_n_n_wf : DotDims.WF S10000x7 S7x64 S10000x64 [1] [0] [0] [1] [] []
  dot_S10000x5_S5x64_S10000x64_1_0_0_1_n_n_wf : DotDims.WF S10000x5 S5x64 S10000x64 [1] [0] [0] [1] [] []
  gather_S50000x64_S1050000x1_S1050000x64_1_0_n_n_0_1_164_wf : GatherDims.WF S50000x64 S1050000x1 S1050000x64 [1] [0] [] [0] [] 1 ![1, 64]
  scatter_S50000x64_S1050000x1_S1050000x64_1_0_0_1_wf : ScatterDims.WF S50000x64 S1050000x1 S1050000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  gather_S50000x64_S250x1_S250x64_1_0_n_n_0_1_164_wf : GatherDims.WF S50000x64 S250x1 S250x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x7.size a ≤ S50000x7.size a
  hwx0_0 : ∀ i : grid0.Coords, EltTy.bits .f32 = 32 ∨ (Rect.block (s := S50000x7) S10000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x5.size a ≤ S1050000x5.size a
  hwx1_0 : ∀ i : grid1.Coords, EltTy.bits .f32 = 32 ∨ (Rect.block (s := S1050000x5) S10000x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x64.size a ≤ S5x64.size a
  hwx1_1 : ∀ i : grid1.Coords, EltTy.bits .f32 = 32 ∨ (Rect.block (s := S5x64) S5x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S1050000x64.size a
  hwx1_3 : ∀ i : grid1.Coords, EltTy.bits .f32 = 32 ∨ (Rect.block (s := S1050000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S50000x64.size a
  hwx2_5 : ∀ i : grid2.Coords, EltTy.bits .f32 = 32 ∨ (Rect.block (s := S50000x64) S10000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S50000x64.size a
  hwx3_5 : ∀ i : grid3.Coords, EltTy.bits .f32 = 32 ∨ (Rect.block (s := S50000x64) S10000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x5.size a ≤ S1050000x5.size a
  hwx4_0 : ∀ i : grid4.Coords, EltTy.bits .f32 = 32 ∨ (Rect.block (s := S1050000x5) S10000x5.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S5x64.size a ≤ S5x64.size a
  hwx4_1 : ∀ i : grid4.Coords, EltTy.bits .f32 = 32 ∨ (Rect.block (s := S5x64) S5x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S1050000x64.size a
  hwx4_3 : ∀ i : grid4.Coords, EltTy.bits .f32 = 32 ∨ (Rect.block (s := S1050000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x64.size a ≤ S128x64.size a
  hwx5_3 : ∀ i : grid5.Coords, EltTy.bits .f32 = 32 ∨ (Rect.block (s := S128x64) S128x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S50000x64.size a
  hwx5_5 : ∀ i : grid5.Coords, EltTy.bits .f32 = 32 ∨ (Rect.block (s := S50000x64) S10000x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x64.size a ≤ S50000x64.size a
  hwx6_5 : ∀ i : grid6.Coords, EltTy.bits .f32 = 32 ∨ (Rect.block (s := S50000x64) S10000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x5.size a ≤ S1050000x5.size a
  hwx7_0 : ∀ i : grid7.Coords, EltTy.bits .f32 = 32 ∨ (Rect.block (s := S1050000x5) S10000x5.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S5x64.size a ≤ S5x64.size a
  hwx7_1 : ∀ i : grid7.Coords, EltTy.bits .f32 = 32 ∨ (Rect.block (s := S5x64) S5x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S1050000x64.size a
  hwx7_3 : ∀ i : grid7.Coords, EltTy.bits .f32 = 32 ∨ (Rect.block (s := S1050000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x128.size a ≤ S64x128.size a
  hwx8_1 : ∀ i : grid8.Coords, EltTy.bits .f32 = 32 ∨ (Rect.block (s := S64x128) S64x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x64.size a ≤ S128x64.size a
  hwx8_3 : ∀ i : grid8.Coords, EltTy.bits .f32 = 32 ∨ (Rect.block (s := S128x64) S128x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S50000x64.size a
  hwx8_5 : ∀ i : grid8.Coords, EltTy.bits .f32 = 32 ∨ (Rect.block (s := S50000x64) S10000x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x64.size a ≤ S1x64.size a
  hwx8_7 : ∀ i : grid8.Coords, EltTy.bits .f32 = 32 ∨ (Rect.block (s := S1x64) S1x64.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x64.size a ≤ S50000x64.size a
  hwx9_5 : ∀ i : grid9.Coords, EltTy.bits .f32 = 32 ∨ (Rect.block (s := S50000x64) S10000x64.size (cc9_transform_5 i) (hinb9_5 i)).WholeWords (EltTy.packing .f32)

variable [Facts₀]

def scatter_S50000x5_S1_S50000_0_1_1_0 : ScatterDims S50000x5 S1 S50000 where
  updateWindowDims := [0]
  insertedWindowDims := [1]
  scatterDimsToOperandDims := [1]
  indexVectorDim := 0
  wf := scatter_S50000x5_S1_S50000_0_1_1_0_wf
def dot_S10000x7_S7x64_S10000x64_1_0_0_1_n_n : DotDims S10000x7 S7x64 S10000x64 where
  lhsContracting := [1]
  rhsContracting := [0]
  lhsNonContracting := [0]
  rhsNonContracting := [1]
  lhsBatch := []
  rhsBatch := []
  wf := dot_S10000x7_S7x64_S10000x64_1_0_0_1_n_n_wf
def dot_S10000x5_S5x64_S10000x64_1_0_0_1_n_n : DotDims S10000x5 S5x64 S10000x64 where
  lhsContracting := [1]
  rhsContracting := [0]
  lhsNonContracting := [0]
  rhsNonContracting := [1]
  lhsBatch := []
  rhsBatch := []
  wf := dot_S10000x5_S5x64_S10000x64_1_0_0_1_n_n_wf
def gather_S50000x64_S1050000x1_S1050000x64_1_0_n_n_0_1_164 : GatherDims S50000x64 S1050000x1 S1050000x64 where
  offsetDims := [1]
  collapsedSliceDims := [0]
  operandBatchingDims := []
  startIndicesBatchingDims := []
  startIndexMap := [0]
  indexVectorDim := 1
  sliceSizes := ![1, 64]
  wf := gather_S50000x64_S1050000x1_S1050000x64_1_0_n_n_0_1_164_wf
def scatter_S50000x64_S1050000x1_S1050000x64_1_0_0_1 : ScatterDims S50000x64 S1050000x1 S1050000x64 where
  updateWindowDims := [1]
  insertedWindowDims := [0]
  scatterDimsToOperandDims := [0]
  indexVectorDim := 1
  wf := scatter_S50000x64_S1050000x1_S1050000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S250x1_S250x64_1_0_n_n_0_1_164 : GatherDims S50000x64 S250x1 S250x64 where
  offsetDims := [1]
  collapsedSliceDims := [0]
  operandBatchingDims := []
  startIndicesBatchingDims := []
  startIndexMap := [0]
  indexVectorDim := 1
  sliceSizes := ![1, 64]
  wf := gather_S50000x64_S250x1_S250x64_1_0_n_n_0_1_164_wf

abbrev win0_0 : Pipeline.Window sig grid0 :=
  Pipeline.Window.ofSpec (Memref.whole main_arg0) S10000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S10000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41_0) S10000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41_1) S1x64.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41_2) S1x64.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v41_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v4) S10000x5.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S5x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S128x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84_0) S10000x64.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v84_1) S1x64.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v84_2) S1x64.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev idle5 : Fin 8 → grid5.Coords → Bool := fun | 0 => fun _ => false | 1 => fun _ => false | 2 => fun _ => false | 3 => fun _ => false | 4 => fun _ => false | 5 => fun _ => false | 6 => fun i => !(k5_cond2 i == 1#1) | 7 => fun i => !(k5_cond2 i == 1#1) | ⟨_ + 8, h⟩ => absurd h (Nat.not_lt.2 (Nat.le_add_left _ _))

abbrev win6_0 : Pipeline.Window sig grid6 :=
  Pipeline.Window.ofSpec (Memref.whole main_v84_0) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v95) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v98) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v99) S10000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v4) S10000x5.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S5x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v104) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v105) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v116) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v118) S64x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v121) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v123) S128x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v126) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v127_0) S10000x64.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v127_1) S1x64.size cc8_transform_6 reads8_6 true true 1 stage8_6 sem8_6
    hrank8 hreads8_6 hinb8_6 nbuf8_6 (Memref.isWhole_whole _) hwx8_6 hstage8_6

abbrev win8_7 : Pipeline.Window sig grid8 :=
  Pipeline.Window.ofSpec (Memref.whole main_v127_2) S1x64.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev idle8 : Fin 8 → grid8.Coords → Bool := fun | 0 => fun _ => false | 1 => fun _ => false | 2 => fun _ => false | 3 => fun _ => false | 4 => fun _ => false | 5 => fun _ => false | 6 => fun i => !(k8_cond2 i == 1#1) | 7 => fun i => !(k8_cond2 i == 1#1) | ⟨_ + 8, h⟩ => absurd h (Nat.not_lt.2 (Nat.le_add_left _ _))

abbrev win9_0 : Pipeline.Window sig grid9 :=
  Pipeline.Window.ofSpec (Memref.whole main_v127_0) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v129) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v135) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v138) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v141) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v142) S10000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S50000x7 : Shape := ⟨2, ![50000, 7]⟩
abbrev S1000000x5 : Shape := ⟨2, ![1000000, 5]⟩
abbrev S2x1000000 : Shape := ⟨2, ![2, 1000000]⟩
abbrev S250 : Shape := ⟨1, ![250]⟩
abbrev S7x64 : Shape := ⟨2, ![7, 64]⟩
abbrev S64 : Shape := ⟨1, ![64]⟩
abbrev S3x5x64 : Shape := ⟨3, ![3, 5, 64]⟩
abbrev S3x64 : Shape := ⟨2, ![3, 64]⟩
abbrev S3x64x128 : Shape := ⟨3, ![3, 64, 128]⟩
abbrev S3x128 : Shape := ⟨2, ![3, 128]⟩
abbrev S3x128x64 : Shape := ⟨3, ![3, 128, 64]⟩
abbrev S_ : Shape := ⟨0, ![]⟩
abbrev S50000x5 : Shape := ⟨2, ![50000, 5]⟩
abbrev S1 : Shape := ⟨1, ![1]⟩
abbrev S50000 : Shape := ⟨1, ![50000]⟩
abbrev S1050000x5 : Shape := ⟨2, ![1050000, 5]⟩
abbrev S1x1000000 : Shape := ⟨2, ![1, 1000000]⟩
abbrev S1000000 : Shape := ⟨1, ![1000000]⟩
abbrev S1050000 : Shape := ⟨1, ![1050000]⟩
abbrev S50000x64 : Shape := ⟨2, ![50000, 64]⟩
abbrev S1x64 : Shape := ⟨2, ![1, 64]⟩
abbrev S1x5x64 : Shape := ⟨3, ![1, 5, 64]⟩
abbrev S5x64 : Shape := ⟨2, ![5, 64]⟩
abbrev S1050000x64 : Shape := ⟨2, ![1050000, 64]⟩
abbrev S1050000x1 : Shape := ⟨2, ![1050000, 1]⟩
abbrev S1x64x128 : Shape := ⟨3, ![1, 64, 128]⟩
abbrev S64x128 : Shape := ⟨2, ![64, 128]⟩
abbrev S50000x128 : Shape := ⟨2, ![50000, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S250x1 : Shape := ⟨2, ![250, 1]⟩
abbrev S250x64 : Shape := ⟨2, ![250, 64]⟩

abbrev nBuf : Space → Nat
  | .hbm => 297
  | .vmem => 0
  | .smem => 0
  | _ => 0

abbrev hbmTy0_0 (i : Nat) : BufTy := match i % 128 with
  | 0 => ⟨S50000x7, .f32⟩
  | 1 => ⟨S1000000x5, .f32⟩
  | 2 => ⟨S2x1000000, .i32⟩
  | 3 => ⟨S250, .i32⟩
  | 4 => ⟨S7x64, .f32⟩
  | 5 => ⟨S64, .f32⟩
  | 6 => ⟨S3x5x64, .f32⟩
  | 7 => ⟨S3x64, .f32⟩
  | 8 => ⟨S3x64x128, .f32⟩
  | 9 => ⟨S3x128, .f32⟩
  | 10 => ⟨S3x128x64, .f32⟩
  | 11 => ⟨S3x64, .f32⟩
  | 12 => ⟨S3x64, .f32⟩
  | 13 => ⟨S3x64, .f32⟩
  | 14 => ⟨S_, .f32⟩
  | 15 => ⟨S50000x5, .f32⟩
  | 16 => ⟨S_, .i32⟩
  | 17 => ⟨S1, .i32⟩
  | 18 => ⟨S_, .f32⟩
  | 19 => ⟨S50000, .f32⟩
  | 20 => ⟨S50000x5, .f32⟩
  | 21 => ⟨S1050000x5, .f32⟩
  | 22 => ⟨S50000, .i32⟩
  | 23 => ⟨S1x1000000, .i32⟩
  | 24 => ⟨S1000000, .i32⟩
  | 25 => ⟨S1050000, .i32⟩
  | 26 => ⟨S1x1000000, .i32⟩
  | 27 => ⟨S1000000, .i32⟩
  | 28 => ⟨S1050000, .i32⟩
  | 29 => ⟨S50000x64, .f32⟩
  | 30 => ⟨S1x64, .f32⟩
  | 31 => ⟨S50000x64, .f32⟩
  | 32 => ⟨S50000x64, .f32⟩
  | 33 => ⟨S1x5x64, .f32⟩
  | 34 => ⟨S5x64, .f32⟩
  | 35 => ⟨S1050000x64, .f32⟩
  | 36 => ⟨S1x64, .f32⟩
  | 37 => ⟨S64, .f32⟩
  | 38 => ⟨S1x64, .f32⟩
  | 39 => ⟨S1050000x64, .f32⟩
  | 40 => ⟨S1050000x64, .f32⟩
  | 41 => ⟨S_, .i32⟩
  | 42 => ⟨S1050000, .i32⟩
  | 43 => ⟨S1050000, .i1⟩
  | 44 => ⟨S_, .i32⟩
  | 45 => ⟨S1050000, .i32⟩
  | 46 => ⟨S1050000, .i32⟩
  | 47 => ⟨S1050000, .i32⟩
  | 48 => ⟨S1050000x1, .i32⟩
  | 49 => ⟨S1050000x64, .f32⟩
  | 50 => ⟨S1050000x64, .f32⟩
  | 51 => ⟨S_, .f32⟩
  | 52 => ⟨S50000x64, .f32⟩
  | 53 => ⟨S1050000x1, .i32⟩
  | 54 => ⟨S50000x64, .f32⟩
  | 55 => ⟨S1x64x128, .f32⟩
  | 56 => ⟨S64x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S1x128x64, .f32⟩
  | 67 => ⟨S128x64, .f32⟩
  | 68 => ⟨S50000x64, .f32⟩
  | 69 => ⟨S1x64, .f32⟩
  | 70 => ⟨S64, .f32⟩
  | 71 => ⟨S1x64, .f32⟩
  | 72 => ⟨S50000x64, .f32⟩
  | 73 => ⟨S50000x64, .f32⟩
  | 74 => ⟨S_, .f32⟩
  | 75 => ⟨S64, .f32⟩
  | 76 => ⟨S_, .f32⟩
  | 77 => ⟨S64, .f32⟩
  | 78 => ⟨S64, .f32⟩
  | 79 => ⟨S1x64, .f32⟩
  | 80 => ⟨S50000x64, .f32⟩
  | 81 => ⟨S50000x64, .f32⟩
  | 82 => ⟨S50000x64, .f32⟩
  | 83 => ⟨S_, .f32⟩
  | 84 => ⟨S64, .f32⟩
  | 85 => ⟨S_, .f32⟩
  | 86 => ⟨S64, .f32⟩
  | 87 => ⟨S64, .f32⟩
  | 88 => ⟨S1x64, .f32⟩
  | 89 => ⟨S50000x64, .f32⟩
  | 90 => ⟨S50000x64, .f32⟩
  | 91 => ⟨S_, .f32⟩
  | 92 => ⟨S64, .f32⟩
  | 93 => ⟨S64, .f32⟩
  | 94 => ⟨S64, .f32⟩
  | 95 => ⟨S1x64, .f32⟩
  | 96 => ⟨S50000x64, .f32⟩
  | 97 => ⟨S50000x64, .f32⟩
  | 98 => ⟨S1x64, .f32⟩
  | 99 => ⟨S64, .f32⟩
  | 100 => ⟨S1x64, .f32⟩
  | 101 => ⟨S50000x64, .f32⟩
  | 102 => ⟨S50000x64, .f32⟩
  | 103 => ⟨S1x64, .f32⟩
  | 104 => ⟨S64, .f32⟩
  | 105 => ⟨S1x64, .f32⟩
  | 106 => ⟨S50000x64, .f32⟩
  | 107 => ⟨S50000x64, .f32⟩
  | 108 => ⟨S_, .f32⟩
  | 109 => ⟨S50000x64, .f32⟩
  | 110 => ⟨S50000x64, .i1⟩
  | 111 => ⟨S_, .f32⟩
  | 112 => ⟨S50000x64, .f32⟩
  | 113 => ⟨S50000x64, .i1⟩
  | 114 => ⟨S_, .f32⟩
  | 115 => ⟨S_, .f32⟩
  | 116 => ⟨S50000x64, .f32⟩
  | 117 => ⟨S50000x64, .f32⟩
  | 118 => ⟨S50000x64, .f32⟩
  | 119 => ⟨S_, .f32⟩
  | 120 => ⟨S50000x64, .f32⟩
  | 121 => ⟨S50000x64, .f32⟩
  | 122 => ⟨S50000x64, .f32⟩
  | 123 => ⟨S1x5x64, .f32⟩
  | 124 => ⟨S5x64, .f32⟩
  | 125 => ⟨S1050000x64, .f32⟩
  | 126 => ⟨S1x64, .f32⟩
  | 127 => ⟨S64, .f32⟩
  | _ => ⟨S50000x7, .f32⟩

abbrev hbmTy0_1 (i : Nat) : BufTy := match i % 128 with
  | 0 => ⟨S1x64, .f32⟩
  | 1 => ⟨S1050000x64, .f32⟩
  | 2 => ⟨S1050000x64, .f32⟩
  | 3 => ⟨S_, .i32⟩
  | 4 => ⟨S1050000, .i32⟩
  | 5 => ⟨S1050000, .i1⟩
  | 6 => ⟨S_, .i32⟩
  | 7 => ⟨S1050000, .i32⟩
  | 8 => ⟨S1050000, .i32⟩
  | 9 => ⟨S1050000, .i32⟩
  | 10 => ⟨S1050000x1, .i32⟩
  | 11 => ⟨S1050000x64, .f32⟩
  | 12 => ⟨S1050000x64, .f32⟩
  | 13 => ⟨S_, .f32⟩
  | 14 => ⟨S50000x64, .f32⟩
  | 15 => ⟨S1050000x1, .i32⟩
  | 16 => ⟨S50000x64, .f32⟩
  | 17 => ⟨S1x64x128, .f32⟩
  | 18 => ⟨S64x128, .f32⟩
  | 19 => ⟨S50000x128, .f32⟩
  | 20 => ⟨S1x128, .f32⟩
  | 21 => ⟨S128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S1x128x64, .f32⟩
  | 29 => ⟨S128x64, .f32⟩
  | 30 => ⟨S50000x64, .f32⟩
  | 31 => ⟨S1x64, .f32⟩
  | 32 => ⟨S64, .f32⟩
  | 33 => ⟨S1x64, .f32⟩
  | 34 => ⟨S50000x64, .f32⟩
  | 35 => ⟨S50000x64, .f32⟩
  | 36 => ⟨S_, .f32⟩
  | 37 => ⟨S64, .f32⟩
  | 38 => ⟨S_, .f32⟩
  | 39 => ⟨S64, .f32⟩
  | 40 => ⟨S64, .f32⟩
  | 41 => ⟨S1x64, .f32⟩
  | 42 => ⟨S50000x64, .f32⟩
  | 43 => ⟨S50000x64, .f32⟩
  | 44 => ⟨S50000x64, .f32⟩
  | 45 => ⟨S_, .f32⟩
  | 46 => ⟨S64, .f32⟩
  | 47 => ⟨S_, .f32⟩
  | 48 => ⟨S64, .f32⟩
  | 49 => ⟨S64, .f32⟩
  | 50 => ⟨S1x64, .f32⟩
  | 51 => ⟨S50000x64, .f32⟩
  | 52 => ⟨S50000x64, .f32⟩
  | 53 => ⟨S_, .f32⟩
  | 54 => ⟨S64, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S1x64, .f32⟩
  | 61 => ⟨S64, .f32⟩
  | 62 => ⟨S1x64, .f32⟩
  | 63 => ⟨S50000x64, .f32⟩
  | 64 => ⟨S50000x64, .f32⟩
  | 65 => ⟨S1x64, .f32⟩
  | 66 => ⟨S64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .i1⟩
  | 73 => ⟨S_, .f32⟩
  | 74 => ⟨S50000x64, .f32⟩
  | 75 => ⟨S50000x64, .i1⟩
  | 76 => ⟨S_, .f32⟩
  | 77 => ⟨S_, .f32⟩
  | 78 => ⟨S50000x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S1x5x64, .f32⟩
  | 86 => ⟨S5x64, .f32⟩
  | 87 => ⟨S1050000x64, .f32⟩
  | 88 => ⟨S1x64, .f32⟩
  | 89 => ⟨S64, .f32⟩
  | 90 => ⟨S1x64, .f32⟩
  | 91 => ⟨S1050000x64, .f32⟩
  | 92 => ⟨S1050000x64, .f32⟩
  | 93 => ⟨S_, .i32⟩
  | 94 => ⟨S1050000, .i32⟩
  | 95 => ⟨S1050000, .i1⟩
  | 96 => ⟨S_, .i32⟩
  | 97 => ⟨S1050000, .i32⟩
  | 98 => ⟨S1050000, .i32⟩
  | 99 => ⟨S1050000, .i32⟩
  | 100 => ⟨S1050000x1, .i32⟩
  | 101 => ⟨S1050000x64, .f32⟩
  | 102 => ⟨S1050000x64, .f32⟩
  | 103 => ⟨S_, .f32⟩
  | 104 => ⟨S50000x64, .f32⟩
  | 105 => ⟨S1050000x1, .i32⟩
  | 106 => ⟨S50000x64, .f32⟩
  | 107 => ⟨S1x64x128, .f32⟩
  | 108 => ⟨S64x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S1x128x64, .f32⟩
  | 119 => ⟨S128x64, .f32⟩
  | 120 => ⟨S50000x64, .f32⟩
  | 121 => ⟨S1x64, .f32⟩
  | 122 => ⟨S64, .f32⟩
  | 123 => ⟨S1x64, .f32⟩
  | 124 => ⟨S50000x64, .f32⟩
  | 125 => ⟨S50000x64, .f32⟩
  | 126 => ⟨S_, .f32⟩
  | 127 => ⟨S64, .f32⟩
  | _ => ⟨S50000x7, .f32⟩

abbrev hbmTy0_2 (i : Nat) : BufTy := match i % 128 with
  | 0 => ⟨S_, .f32⟩
  | 1 => ⟨S64, .f32⟩
  | 2 => ⟨S64, .f32⟩
  | 3 => ⟨S1x64, .f32⟩
  | 4 => ⟨S50000x64, .f32⟩
  | 5 => ⟨S50000x64, .f32⟩
  | 6 => ⟨S50000x64, .f32⟩
  | 7 => ⟨S_, .f32⟩
  | 8 => ⟨S64, .f32⟩
  | 9 => ⟨S_, .f32⟩
  | 10 => ⟨S64, .f32⟩
  | 11 => ⟨S64, .f32⟩
  | 12 => ⟨S1x64, .f32⟩
  | 13 => ⟨S50000x64, .f32⟩
  | 14 => ⟨S50000x64, .f32⟩
  | 15 => ⟨S_, .f32⟩
  | 16 => ⟨S64, .f32⟩
  | 17 => ⟨S64, .f32⟩
  | 18 => ⟨S64, .f32⟩
  | 19 => ⟨S1x64, .f32⟩
  | 20 => ⟨S50000x64, .f32⟩
  | 21 => ⟨S50000x64, .f32⟩
  | 22 => ⟨S1x64, .f32⟩
  | 23 => ⟨S64, .f32⟩
  | 24 => ⟨S1x64, .f32⟩
  | 25 => ⟨S50000x64, .f32⟩
  | 26 => ⟨S50000x64, .f32⟩
  | 27 => ⟨S1x64, .f32⟩
  | 28 => ⟨S64, .f32⟩
  | 29 => ⟨S1x64, .f32⟩
  | 30 => ⟨S50000x64, .f32⟩
  | 31 => ⟨S50000x64, .f32⟩
  | 32 => ⟨S_, .i32⟩
  | 33 => ⟨S250, .i32⟩
  | 34 => ⟨S250, .i1⟩
  | 35 => ⟨S_, .i32⟩
  | 36 => ⟨S250, .i32⟩
  | 37 => ⟨S250, .i32⟩
  | 38 => ⟨S250, .i32⟩
  | 39 => ⟨S250x1, .i32⟩
  | 40 => ⟨S250x64, .f32⟩
  | _ => ⟨S50000x7, .f32⟩

abbrev hbmTy (i : Nat) : BufTy := match i / 128 with
  | 0 => hbmTy0_0 i
  | 1 => hbmTy0_1 i
  | 2 => hbmTy0_2 i
  | _ => ⟨S50000x7, .f32⟩

abbrev bufTy : (tb : Table) → Fin (tcTables nBuf tb) → BufTy
  | .hbm, ⟨i, _⟩ => hbmTy i
  | _, _ => ⟨S50000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call0_cst : Ref sig .tc := ⟨.hbm, 63, rfl⟩
abbrev main_call0_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_cst_5 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_6 : Ref sig .tc := ⟨.hbm, 83, rfl⟩
abbrev main_v59 : Ref sig .tc := ⟨.hbm, 84, rfl⟩
abbrev main_cst_7 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_8 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_call1_cst : Ref sig .tc := ⟨.hbm, 108, rfl⟩
abbrev main_call1_v0 : Ref sig .tc := ⟨.hbm, 109, rfl⟩
abbrev main_call1_v1 : Ref sig .tc := ⟨.hbm, 110, rfl⟩
abbrev main_call1_cst_0 : Ref sig .tc := ⟨.hbm, 111, rfl⟩
abbrev main_call1_v2 : Ref sig .tc := ⟨.hbm, 112, rfl⟩
abbrev main_call1_v3 : Ref sig .tc := ⟨.hbm, 113, rfl⟩
abbrev main_call1_cst_1 : Ref sig .tc := ⟨.hbm, 114, rfl⟩
abbrev main_call1_call0_v0 : Ref sig .tc := ⟨.hbm, 115, rfl⟩
abbrev main_call1_call0_v1 : Ref sig .tc := ⟨.hbm, 116, rfl⟩
abbrev main_call1_v4 : Ref sig .tc := ⟨.hbm, 117, rfl⟩
abbrev main_call1_v5 : Ref sig .tc := ⟨.hbm, 118, rfl⟩
abbrev main_call1_cst_2 : Ref sig .tc := ⟨.hbm, 119, rfl⟩
abbrev main_call1_v6 : Ref sig .tc := ⟨.hbm, 120, rfl⟩
abbrev main_call1_v7 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_9 : Ref sig .tc := ⟨.hbm, 131, rfl⟩
abbrev main_v90 : Ref sig .tc := ⟨.hbm, 132, rfl⟩
abbrev main_v91 : Ref sig .tc := ⟨.hbm, 133, rfl⟩
abbrev main_c_10 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_11 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_call2_cst : Ref sig .tc := ⟨.hbm, 153, rfl⟩
abbrev main_call2_v0 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_12 : Ref sig .tc := ⟨.hbm, 164, rfl⟩
abbrev main_v118 : Ref sig .tc := ⟨.hbm, 165, rfl⟩
abbrev main_cst_13 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_14 : Ref sig .tc := ⟨.hbm, 173, rfl⟩
abbrev main_v125 : Ref sig .tc := ⟨.hbm, 174, rfl⟩
abbrev main_cst_15 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_16 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_call3_cst : Ref sig .tc := ⟨.hbm, 198, rfl⟩
abbrev main_call3_v0 : Ref sig .tc := ⟨.hbm, 199, rfl⟩
abbrev main_call3_v1 : Ref sig .tc := ⟨.hbm, 200, rfl⟩
abbrev main_call3_cst_0 : Ref sig .tc := ⟨.hbm, 201, rfl⟩
abbrev main_call3_v2 : Ref sig .tc := ⟨.hbm, 202, rfl⟩
abbrev main_call3_v3 : Ref sig .tc := ⟨.hbm, 203, rfl⟩
abbrev main_call3_cst_1 : Ref sig .tc := ⟨.hbm, 204, rfl⟩
abbrev main_call3_call0_v0 : Ref sig .tc := ⟨.hbm, 205, rfl⟩
abbrev main_call3_call0_v1 : Ref sig .tc := ⟨.hbm, 206, rfl⟩
abbrev main_call3_v4 : Ref sig .tc := ⟨.hbm, 207, rfl⟩
abbrev main_call3_v5 : Ref sig .tc := ⟨.hbm, 208, rfl⟩
abbrev main_call3_cst_2 : Ref sig .tc := ⟨.hbm, 209, rfl⟩
abbrev main_call3_v6 : Ref sig .tc := ⟨.hbm, 210, rfl⟩
abbrev main_call3_v7 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_c_17 : Ref sig .tc := ⟨.hbm, 221, rfl⟩
abbrev main_v156 : Ref sig .tc := ⟨.hbm, 222, rfl⟩
abbrev main_v157 : Ref sig .tc := ⟨.hbm, 223, rfl⟩
abbrev main_c_18 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_cst_19 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_call4_cst : Ref sig .tc := ⟨.hbm, 243, rfl⟩
abbrev main_call4_v0 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_v183 : Ref sig .tc := ⟨.hbm, 253, rfl⟩
abbrev main_cst_20 : Ref sig .tc := ⟨.hbm, 254, rfl⟩
abbrev main_v184 : Ref sig .tc := ⟨.hbm, 255, rfl⟩
abbrev main_cst_21 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_cst_22 : Ref sig .tc := ⟨.hbm, 263, rfl⟩
abbrev main_v191 : Ref sig .tc := ⟨.hbm, 264, rfl⟩
abbrev main_cst_23 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_cst_24 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_c_25 : Ref sig .tc := ⟨.hbm, 288, rfl⟩
abbrev main_v213 : Ref sig .tc := ⟨.hbm, 289, rfl⟩
abbrev main_v214 : Ref sig .tc := ⟨.hbm, 290, rfl⟩
abbrev main_c_26 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩

abbrev nD : Nat := 1
abbrev τ : Topo := Topo.v7x

variable {F : FTy → Type} [FloatOps F]

class Facts₀ : Prop where
  bcast_S_S50000x5 : S_.BroadcastsInDim S50000x5 (![] : Fin 0 → Fin S50000x5.rank)
  bcast_S_S1 : S_.BroadcastsInDim S1 (![] : Fin 0 → Fin S1.rank)
  bcast_S_S50000 : S_.BroadcastsInDim S50000 (![] : Fin 0 → Fin S50000.rank)
  concatenates_S1000000x5_S50000x5_S1050000x5_d0 : Shape.Concatenates [S1000000x5, S50000x5] S1050000x5 0
  slices_S2x1000000_S1x1000000_0_0 : S2x1000000.Slices ![0, 0] S1x1000000
  shapeCasts_S1x1000000_S1000000 : S1x1000000.ShapeCasts S1000000
  concatenates_S1000000_S50000_S1050000_d0 : Shape.Concatenates [S1000000, S50000] S1050000 0
  slices_S2x1000000_S1x1000000_1_0 : S2x1000000.Slices ![1, 0] S1x1000000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x5x64_S1x5x64_0_0_0 : S3x5x64.Slices ![0, 0, 0] S1x5x64
  shapeCasts_S1x5x64_S5x64 : S1x5x64.ShapeCasts S5x64
  slices_S3x64_S1x64_0_0 : S3x64.Slices ![0, 0] S1x64
  shapeCasts_S1x64_S64 : S1x64.ShapeCasts S64
  bcast_S1x64_S1050000x64_0_1 : S1x64.BroadcastsInDim S1050000x64 (![0, 1] : Fin 2 → Fin S1050000x64.rank)
  bcast_S_S1050000 : S_.BroadcastsInDim S1050000 (![] : Fin 0 → Fin S1050000.rank)
  bcast_S1050000_S1050000x1_0 : S1050000.BroadcastsInDim S1050000x1 (![0] : Fin 1 → Fin S1050000x1.rank)
  bcast_S_S50000x64 : S_.BroadcastsInDim S50000x64 (![] : Fin 0 → Fin S50000x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x64_S1x128x64_0_0_0 : S3x128x64.Slices ![0, 0, 0] S1x128x64
  shapeCasts_S1x128x64_S128x64 : S1x128x64.ShapeCasts S128x64
  reducesTo_S50000x64_S64_d0 : S50000x64.ReducesTo [0] S64
  h_S_ : 0 < S_.numel
  bcast_S_S64 : S_.BroadcastsInDim S64 (![] : Fin 0 → Fin S64.rank)
  slices_S3x5x64_S1x5x64_1_0_0 : S3x5x64.Slices ![1, 0, 0] S1x5x64
  slices_S3x64_S1x64_1_0 : S3x64.Slices ![1, 0] S1x64
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3x5x64_S1x5x64_2_0_0 : S3x5x64.Slices ![2, 0, 0] S1x5x64
  slices_S3x64_S1x64_2_0 : S3x64.Slices ![2, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  bcast_S_S250 : S_.BroadcastsInDim S250 (![] : Fin 0 → Fin S250.rank)
  bcast_S250_S250x1_0 : S250.BroadcastsInDim S250x1 (![0] : Fin 1 → Fin S250x1.rank)
  scatter_S50000x5_S1_S50000_0_1_1_0_wf : ScatterDims.WF S50000x5 S1 S50000 [0] [1] [1] 0
  dot_S50000x7_S7x64_S50000x64_1_0_0_1_n_n_wf : DotDims.WF S50000x7 S7x64 S50000x64 [1] [0] [0] [1] [] []
  dot_S1050000x5_S5x64_S1050000x64_1_0_0_1_n_n_wf : DotDims.WF S1050000x5 S5x64 S1050000x64 [1] [0] [0] [1] [] []
  gather_S50000x64_S1050000x1_S1050000x64_1_0_n_n_0_1_164_wf : GatherDims.WF S50000x64 S1050000x1 S1050000x64 [1] [0] [] [0] [] 1 ![1, 64]
  scatter_S50000x64_S1050000x1_S1050000x64_1_0_0_1_wf : ScatterDims.WF S50000x64 S1050000x1 S1050000x64 [1] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []
  gather_S50000x64_S250x1_S250x64_1_0_n_n_0_1_164_wf : GatherDims.WF S50000x64 S250x1 S250x64 [1] [0] [] [0] [] 1 ![1, 64]

variable [Facts₀]

def scatter_S50000x5_S1_S50000_0_1_1_0 : ScatterDims S50000x5 S1 S50000 where
  updateWindowDims := [0]
  insertedWindowDims := [1]
  scatterDimsToOperandDims := [1]
  indexVectorDim := 0
  wf := scatter_S50000x5_S1_S50000_0_1_1_0_wf
def dot_S50000x7_S7x64_S50000x64_1_0_0_1_n_n : DotDims S50000x7 S7x64 S50000x64 where
  lhsContracting := [1]
  rhsContracting := [0]
  lhsNonContracting := [0]
  rhsNonContracting := [1]
  lhsBatch := []
  rhsBatch := []
  wf := dot_S50000x7_S7x64_S50000x64_1_0_0_1_n_n_wf
def dot_S1050000x5_S5x64_S1050000x64_1_0_0_1_n_n : DotDims S1050000x5 S5x64 S1050000x64 where
  lhsContracting := [1]
  rhsContracting := [0]
  lhsNonContracting := [0]
  rhsNonContracting := [1]
  lhsBatch := []
  rhsBatch := []
  wf := dot_S1050000x5_S5x64_S1050000x64_1_0_0_1_n_n_wf
def gather_S50000x64_S1050000x1_S1050000x64_1_0_n_n_0_1_164 : GatherDims S50000x64 S1050000x1 S1050000x64 where
  offsetDims := [1]
  collapsedSliceDims := [0]
  operandBatchingDims := []
  startIndicesBatchingDims := []
  startIndexMap := [0]
  indexVectorDim := 1
  sliceSizes := ![1, 64]
  wf := gather_S50000x64_S1050000x1_S1050000x64_1_0_n_n_0_1_164_wf
def scatter_S50000x64_S1050000x1_S1050000x64_1_0_0_1 : ScatterDims S50000x64 S1050000x1 S1050000x64 where
  updateWindowDims := [1]
  insertedWindowDims := [0]
  scatterDimsToOperandDims := [0]
  indexVectorDim := 1
  wf := scatter_S50000x64_S1050000x1_S1050000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S250x1_S250x64_1_0_n_n_0_1_164 : GatherDims S50000x64 S250x1 S250x64 where
  offsetDims := [1]
  collapsedSliceDims := [0]
  operandBatchingDims := []
  startIndicesBatchingDims := []
  startIndexMap := [0]
  indexVectorDim := 1
  sliceSizes := ![1, 64]
  wf := gather_S50000x64_S250x1_S250x64_1_0_n_n_0_1_164_wf

class Facts : Prop extends Facts₀ where

variable [Facts]
-- ==== Proof.BodyA0.lean ====
/- The class-A half of region 0 of @main, the linear layer's kernel `cc0__linear_kernel`, at a PARAMETER `V` — the TensorCore's buffer contents when the
   region is entered —, generic in the float model: each window's block at a point (`iblk0`), the output buffer after
   the body as the canonical contents of its one whole-block store (`out0_3`), the body's triple (`sound_kernel0`),
   the proof data (`dat0`) and the body obligation (`body_obligation0`). The 3 inputs are read whole; inputs 1..2
   have a constant block index, so their buffers hold at every point the block fetched at the first. -/
import proofs.«172917_j75840532513057_2_alg».proof.Proof.Gen.KernelIdeal.Launch
import proofs.«172917_j75840532513057_2_alg».proof.Proof.Gen.KernelIdeal.Skeleton
import proofs.«172917_j75840532513057_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 0 of @main: the linear layer's kernel `cc0__linear_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each staging buffer is read, and the output's stored, whole -/
abbrev r0_0 : Rect S10000x7 := Rect.unit (s := S10000x7) ![0, 0] S10000x7.size inb_S10000x7_S10000x7_0_0
abbrev r0_1 : Rect S7x64 := Rect.unit (s := S7x64) ![0, 0] S7x64.size inb_S7x64_S7x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-- Window 3's staging buffer after the body, from the input windows' blocks: its one store, of the whole block. -/
def out0_3 (x0 : Vec F S10000x7 .f32) (x1 : Vec F S7x64 .f32) (x2 : Vec F S1x64 .f32) : Vec F S10000x64 .f32 :=
  View.canon [⟨r0_3, k0_pay1 (View.ld x0 r0_0) (View.ld x1 r0_1) (View.ld x2 r0_2)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s (`hA`) and whose body leaves the block in place (`hafter`): unfetched, the block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s (`hA`) and whose body leaves the block in place (`hafter`): unfetched, the block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Its one store is of the whole buffer, so it covers it (checked by evaluation). -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 1000000 in
/-- The kernel body on whole staging memrefs, the inputs' at read contents `xW` and the output's at anything, runs to
    the continuation holding the inputs' as they were and the output's at `out0_3` of the inputs': the printed function
    is its skeleton, which runs load by load (the output's buffer is loaded once, the value unused) to the one store. -/
theorem sound_kernel0 (c : Dev nD) (E : Set ℕ) (i : grid0.Coords) (arg1 : Memref sig .tc .vmem S10000x7 .f32) (harg1 : arg1.IsWhole) (arg2 : Memref sig .tc .vmem S7x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x7 .f32) (x1 : Vec F S7x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand
-- ==== Proof.RunW0.lean ====
/- The buffer contents at the boundaries W0..W2 of @main's items, at any float model: a fold from the launch memory
   (a host stretch's `StableHlo.after`; a region's arrays at what its write-backs leave, every other buffer as
   entered), the two facts per region the exit rule takes, and what each item keeps. -/
import proofs.«172917_j75840532513057_2_alg».proof.Proof.Gen.KernelIdeal.Launch
import proofs.«172917_j75840532513057_2_alg».proof.Proof.Gen.KernelIdeal.Skeleton
import proofs.«172917_j75840532513057_2_alg».proof.Proof.Gen.KernelIdeal.Points
import proofs.«172917_j75840532513057_2_alg».proof.Proof.Gen.KernelIdeal.Regions
import proofs.«172917_j75840532513057_2_alg».proof.Proof.BodyA0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary: a fold through @main -/

/-- Core `c`'s buffers at launch. -/
abbrev W0 (ρ : Dev nD → PrngReg) : Dev nD → Valuation τ sig (Elt F) := fun c b => m (c, b)

variable (ρ : Dev nD → PrngReg)

/-- After `hostOps0` (region 0's entry). -/
abbrev W1 : Dev nD → Valuation τ sig (Elt F) := fun c => StableHlo.after hostOps0 (W0 m ρ c)
/-- The same read at the TensorCore's references (what region 0's proof data take). -/
abbrev WV1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (WV1 m ρ) c).arrAt w cfg0.N
theorem W2_arr (c : Dev nD) (w : Fin cfg0.W) :
    W2 m ρ c (Proc.devRef .tc (Pipeline.arrRef spec0 w)) = (dat0 (WV1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev WV2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (WV1 m ρ) c).arrAt w cfg0.N = WV2 m ρ c (Pipeline.arrRef spec0 w) :=
  (W2_arr m ρ c w).symm
theorem hrest0 (c : Dev nD) : ∀ b, b ∉ Finset.univ.image (Pipeline.arrRef spec0) → WV2 m ρ c b = WV1 m ρ c b :=
  fun b hb => W2_of_ne m ρ c b fun w e => hb (Finset.mem_image.mpr ⟨w, Finset.mem_univ _, e⟩)

/-! ## What each item keeps: a buffer a host stretch does not write, an input array of a region (a buffer that is no
    array of a region: `W_of_ne` above) -/

/-- `hostOps0` keeps every buffer outside the list of those it writes. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- Region 0 keeps each of its input arrays. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (WV1 m ρ) c).arrAt_in w hin _).trans (A_eq0 (WV1 m ρ) c w))

end Cert.KernelIdeal.Hand

end
-- ==== Proof.BodyA1.lean ====
/- The class-A half of region 1 of @main, the linear layer's kernel `cc1__linear_kernel`, at a PARAMETER `V` — the TensorCore's buffer contents when the
   region is entered —, generic in the float model: each window's block at a point (`iblk1`), the output buffer after
   the body as the canonical contents of its one whole-block store (`out1_3`), the body's triple (`sound_kernel1`),
   the proof data (`dat1`) and the body obligation (`body_obligation1`). The 3 inputs are read whole; inputs 1..2
   have a constant block index, so their buffers hold at every point the block fetched at the first. -/
import proofs.«172917_j75840532513057_2_alg».proof.Proof.Gen.KernelIdeal.Launch
import proofs.«172917_j75840532513057_2_alg».proof.Proof.Gen.KernelIdeal.Skeleton
import proofs.«172917_j75840532513057_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 1 of @main: the linear layer's kernel `cc1__linear_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each staging buffer is read, and the output's stored, whole -/
abbrev r1_0 : Rect S10000x5 := Rect.unit (s := S10000x5) ![0, 0] S10000x5.size inb_S10000x5_S10000x5_0_0
abbrev r1_1 : Rect S5x64 := Rect.unit (s := S5x64) ![0, 0] S5x64.size inb_S5x64_S5x64_0_0
abbrev r1_2 : Rect S1x64 := Rect.unit (s := S1x64) ![0, 0] S1x64.size inb_S1x64_S1x64_0_0
abbrev r1_3 : Rect S10000x64 := Rect.unit (s := S10000x64) ![0, 0] S10000x64.size inb_S10000x64_S10000x64_0_0

/-- Window 3's staging buffer after the body, from the input windows' blocks: its one store, of the whole block. -/
def out1_3 (x0 : Vec F S10000x5 .f32) (x1 : Vec F S5x64 .f32) (x2 : Vec F S1x64 .f32) : Vec F S10000x64 .f32 :=
  View.canon [⟨r1_3, k1_pay1 (View.ld x0 r1_0) (View.ld x1 r1_1) (View.ld x2 r1_2)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s (`hA`) and whose body leaves the block in place (`hafter`): unfetched, the block index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s (`hA`) and whose body leaves the block in place (`hafter`): unfetched, the block index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Its one store is of the whole buffer, so it covers it (checked by evaluation). -/
theorem cover1_3 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The kernel body on whole staging memrefs, the inputs' at read contents `xW` and the output's at anything, runs to
    the continuation holding the inputs' as they were and the output's at `out1_3` of the inputs': the printed function
    is its skeleton, which runs load by load (the output's buffer is loaded once, the value unused) to the one store. -/
theorem sound_kernel1 (c : Dev nD) (E : Set ℕ) (i : grid1.Coords) (arg1 : Memref sig .tc .vmem S10000x5 .f32) (harg1 : arg1.IsWhole) (arg2 : Memref sig .tc .vmem S5x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x5 .f32) (x1 : Vec F S5x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand
-- ==== Proof.BodyR2Runs.lean ====
import proofs.«172917_j75840532513057_2_alg».proof.Proof.Gen.KernelIdeal.Launch
import proofs.«172917_j75840532513057_2_alg».proof.Proof.Gen.KernelIdeal.Skeleton
import proofs.«172917_j75840532513057_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loads and stores through the whole of a rank-two buffer

Stated over an arbitrary extent vector: nothing here depends on the extents. -/

section Whole
variable {Val : EltTy → Type} [∀ e, Nonempty (Val e)] {sig' : RefSig} {κ' : Kind} {sp' : Space} {e : EltTy} {sz : Fin 2 → ℕ}

/-- The zero offsets of a whole-buffer access, as the constant function. -/
theorem b_zeros2 : (![0, 0] : Fin 2 → ℕ) = fun _ => 0 := by
  funext a; fin_cases a <;> rfl

/-- A piece through the whole buffer, first in a list of pieces, covers every index. -/
theorem b_cover (inb : ∀ a, (![0, 0] : Fin 2 → ℕ) a + sz a ≤ sz a) (w : (⟨2, sz⟩ : Shape).Idx → Val e)
    (L : List (View.Piece Val (⟨2, sz⟩ : Shape) e)) (y : (⟨2, sz⟩ : Shape).Idx) :
    ∃ p ∈ ((⟨Rect.unit (s := (⟨2, sz⟩ : Shape)) ![0, 0] sz inb, w⟩ : View.Piece Val (⟨2, sz⟩ : Shape) e) :: L), y ∈ p.1.set :=
  ⟨⟨Rect.unit (s := (⟨2, sz⟩ : Shape)) ![0, 0] sz inb, w⟩, List.mem_cons.mpr (Or.inl rfl),
    View.mem_set_unit_zero (S := (⟨2, sz⟩ : Shape)) b_zeros2 inb y⟩

/-- A load of the whole buffer reads its contents. -/
theorem b_ld (v : View sig' κ' sp' (⟨2, sz⟩ : Shape) e) (f : v.ty.Contents Val) (inb : ∀ a, (![0, 0] : Fin 2 → ℕ) a + sz a ≤ sz a) :
    v.readAt Val (Rect.unit (s := (⟨2, sz⟩ : Shape)) ![0, 0] sz inb).toLoadRect f = v.read Val f :=
  (View.readAt_eq_ld v f (Rect.unit (s := (⟨2, sz⟩ : Shape)) ![0, 0] sz inb)).trans
    (View.ld_unit_zero (S := (⟨2, sz⟩ : Shape)) b_zeros2 inb _)

/-- After a last store of the whole buffer it reads the stored value, whatever was stored before. -/
theorem b_st (v : View sig' κ' sp' (⟨2, sz⟩ : Shape) e) (f : v.ty.Contents Val) (inb : ∀ a, (![0, 0] : Fin 2 → ℕ) a + sz a ≤ sz a)
    (w : (⟨2, sz⟩ : Shape).Idx → Val e) (L : List (View.Piece Val (⟨2, sz⟩ : Shape) e)) :
    v.read Val (v.writes Val f ((⟨Rect.unit (s := (⟨2, sz⟩ : Shape)) ![0, 0] sz inb, w⟩ : View.Piece Val (⟨2, sz⟩ : Shape) e) :: L)) = w :=
  (View.read_writes_eq_canon v f _ (b_cover inb w L)).trans
    (View.canon_cons_unit_zero (S := (⟨2, sz⟩ : Shape)) b_zeros2 inb w L)

/-- A load of the whole buffer after a last store of the whole of it reads the stored value. -/
theorem b_rc (v : View sig' κ' sp' (⟨2, sz⟩ : Shape) e) (inb : ∀ a, (![0, 0] : Fin 2 → ℕ) a + sz a ≤ sz a)
    (w : (⟨2, sz⟩ : Shape).Idx → Val e) (L : List (View.Piece Val (⟨2, sz⟩ : Shape) e)) :
    v.readCov ((⟨Rect.unit (s := (⟨2, sz⟩ : Shape)) ![0, 0] sz inb, w⟩ : View.Piece Val (⟨2, sz⟩ : Shape) e) :: L)
        (Rect.unit (s := (⟨2, sz⟩ : Shape)) ![0, 0] sz inb).toLoadRect = w :=
  (View.readCov_eq_canon_ld v _ (Rect.unit (s := (⟨2, sz⟩ : Shape)) ![0, 0] sz inb) (b_cover inb w L)).trans
    ((congrArg (fun X => View.ld X (Rect.unit (s := (⟨2, sz⟩ : Shape)) ![0, 0] sz inb))
        (View.canon_cons_unit_zero (S := (⟨2, sz⟩ : Shape)) b_zeros2 inb w L)).trans
      (View.ld_unit_zero (S := (⟨2, sz⟩ : Shape)) b_zeros2 inb w))

end Whole

/-! ## The body's two conditions, in closed form over the grid -/

/-- The condition under which the accumulators are zeroed. -/
abbrev b_cond2_0 (i : grid2.Coords) : Prop := (Scalar.cmpi .ne (Scalar.extui (Scalar.cmpi .eq (BitVec.ofNat 32 (i 0).val) 0#32)) 0#32) = 1#1
/-- It holds at the first point only. -/
theorem b_hcond2_0 : ∀ t : Fin cfg2.N, b_cond2_0 (grid2.coords t) ↔ t.val = 0 :=
  (by decide +kernel : ∀ t : Fin grid2.N, b_cond2_0 (grid2.coords t) ↔ t.val = 0)
/-- The condition under which the accumulators are copied out. -/
abbrev b_cond2_1 (i : grid2.Coords) : Prop := k2_cond2 i = 1#1
/-- It holds at the last point only. -/
theorem b_hcond2_1 : ∀ t : Fin cfg2.N, b_cond2_1 (grid2.coords t) ↔ t.val = 4 :=
  (by decide +kernel : ∀ t : Fin grid2.N, b_cond2_1 (grid2.coords t) ↔ t.val = 4)

/-! ## Where the windows are idle -/

theorem b_live2_0 : ∀ t : Fin cfg2.N, cfg2.idle 0 (grid2.coords t) = false := by decide +kernel
theorem b_live2_1 : ∀ t : Fin cfg2.N, cfg2.idle 1 (grid2.coords t) = false := by decide +kernel
theorem b_live2_2 : ∀ t : Fin cfg2.N, cfg2.idle 2 (grid2.coords t) = false := by decide +kernel
theorem b_live2_3 : ∀ t : Fin cfg2.N, cfg2.idle 3 (grid2.coords t) = false := by decide +kernel
theorem b_live2_4 : ∀ t : Fin cfg2.N, cfg2.idle 4 (grid2.coords t) = false := by decide +kernel
theorem b_live2_5 : ∀ t : Fin cfg2.N, cfg2.idle 5 (grid2.coords t) = false := by decide +kernel
/-- Away from the last point output 6 is idle and not written back; at the last point it is live. -/
theorem b_idle2_6 : ∀ t : Fin cfg2.N, ¬b_cond2_1 (grid2.coords t) → cfg2.idle 6 (grid2.coords t) = true := by decide +kernel
theorem b_noFlush2_6 : ∀ t : Fin cfg2.N, ¬b_cond2_1 (grid2.coords t) → (cfg2.win 6).flush t = false := by decide +kernel
theorem b_live2_6 : ∀ t : Fin cfg2.N, b_cond2_1 (grid2.coords t) → cfg2.idle 6 (grid2.coords t) = false := by decide +kernel
/-- Away from the last point output 7 is idle and not written back; at the last point it is live. -/
theorem b_idle2_7 : ∀ t : Fin cfg2.N, ¬b_cond2_1 (grid2.coords t) → cfg2.idle 7 (grid2.coords t) = true := by decide +kernel
theorem b_noFlush2_7 : ∀ t : Fin cfg2.N, ¬b_cond2_1 (grid2.coords t) → (cfg2.win 7).flush t = false := by decide +kernel
theorem b_live2_7 : ∀ t : Fin cfg2.N, b_cond2_1 (grid2.coords t) → cfg2.idle 7 (grid2.coords t) = false := by decide +kernel

/-! ## The kernel body on any whole memrefs, case by case -/

set_option maxHeartbeats 1000000 in
/-- At the first point: the accumulators, at anything, are zeroed, and each then takes the block's column sums; the
    block of output 5 is stored whole; outputs 6 and 7 are not touched. -/
theorem b_run2_first (c : Dev nD) (E : Set ℕ) (i : grid2.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : b_cond2_0 i) (hc1 : ¬b_cond2_1 i) (x0 : Vec F S10000x64 .f32) (x1 : Vec F S64x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4)
            ∗ owns (c : Thread nD τ) arg9 fullShare (k2_pay5 x0 x1 x2 x3 x4 k2_pay2) ∗ owns (c : Thread nD τ) arg10 fullShare (k2_pay1 (k2_pay4 x0 x1 x2 x3 x4) k2_pay3)) -∗ K ⟨⟩))
      ⊢ wp frame (wpE (defs₀ (F := F)) Variants.none c none) E (cc2__mlp_pass1_kernel i arg1 harg1 arg2 harg2 arg3 harg3 arg4 harg4 arg5 harg5 arg6 harg6 arg7 harg7 arg8 harg8 arg9 harg9 arg10 harg10) K := by
  simp only [cc2__mlp_pass1_kernel_eq_skeleton]; unfold cc2__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At a middle point: each accumulator, at what the points before left, takes the block's column sums; the block of
    output 5 is stored whole; outputs 6 and 7 are not touched. -/
theorem b_run2_mid (c : Dev nD) (E : Set ℕ) (i : grid2.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond2_0 i) (hc1 : ¬b_cond2_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4)
            ∗ owns (c : Thread nD τ) arg9 fullShare (k2_pay5 x0 x1 x2 x3 x4 xs9) ∗ owns (c : Thread nD τ) arg10 fullShare (k2_pay1 (k2_pay4 x0 x1 x2 x3 x4) xs10)) -∗ K ⟨⟩))
      ⊢ wp frame (wpE (defs₀ (F := F)) Variants.none c none) E (cc2__mlp_pass1_kernel i arg1 harg1 arg2 harg2 arg3 harg3 arg4 harg4 arg5 harg5 arg6 harg6 arg7 harg7 arg8 harg8 arg9 harg9 arg10 harg10) K := by
  simp only [cc2__mlp_pass1_kernel_eq_skeleton]; unfold cc2__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At the last point: as at a middle point, and then the two accumulators are copied whole into outputs 6 and 7. -/
theorem b_run2_last (c : Dev nD) (E : Set ℕ) (i : grid2.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond2_0 i) (hc1 : b_cond2_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4)
            ∗ owns (c : Thread nD τ) arg7 fullShare (k2_pay5 x0 x1 x2 x3 x4 xs9) ∗ owns (c : Thread nD τ) arg8 fullShare (k2_pay1 (k2_pay4 x0 x1 x2 x3 x4) xs10)
            ∗ owns (c : Thread nD τ) arg9 fullShare (k2_pay5 x0 x1 x2 x3 x4 xs9) ∗ owns (c : Thread nD τ) arg10 fullShare (k2_pay1 (k2_pay4 x0 x1 x2 x3 x4) xs10)) -∗ K ⟨⟩))
      ⊢ wp frame (wpE (defs₀ (F := F)) Variants.none c none) E (cc2__mlp_pass1_kernel i arg1 harg1 arg2 harg2 arg3 harg3 arg4 harg4 arg5 harg5 arg6 harg6 arg7 harg7 arg8 harg8 arg9 harg9 arg10 harg10) K := by
  simp only [cc2__mlp_pass1_kernel_eq_skeleton]; unfold cc2__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%d8, %f8, -, H8⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H7]
  · iexists _; isplitr
    swap; · iexact H7
    ipureintro; sl_unfold_run_names
    simp only [b_ld, b_st, b_rc]
  isplitl [H8]
  · iexists _; isplitr
    swap; · iexact H8
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

end Cert.KernelIdeal.Hand

end
-- ==== Proof.BodyR2.lean ====
import proofs.«172917_j75840532513057_2_alg».proof.Proof.BodyR2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 2: the windows' blocks, the two accumulators point by point, the proof data -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators (column sums, column sums of squares) after `n` points: zero before the first, then each
    point adds its block's column sums. -/
def scr2 (c : Dev nD) : (n : ℕ) → n ≤ cfg2.N → Vec F S1x64 .f32 × Vec F S1x64 .f32
  | 0, _ => (k2_pay2, k2_pay3)
  | n + 1, hn =>
    (k2_pay5 (iblk2 V c 0 ⟨n, hn⟩) (iblk2 V c 1 ⟨n, hn⟩) (iblk2 V c 2 ⟨n, hn⟩) (iblk2 V c 3 ⟨n, hn⟩) (iblk2 V c 4 ⟨n, hn⟩) (scr2 c n (Nat.le_of_succ_le hn)).1,
     k2_pay1 (k2_pay4 (iblk2 V c 0 ⟨n, hn⟩) (iblk2 V c 1 ⟨n, hn⟩) (iblk2 V c 2 ⟨n, hn⟩) (iblk2 V c 3 ⟨n, hn⟩) (iblk2 V c 4 ⟨n, hn⟩)) (scr2 c n (Nat.le_of_succ_le hn)).2)

theorem scr2_zero (c : Dev nD) (h : 0 ≤ cfg2.N) : scr2 V c 0 h = (k2_pay2, k2_pay3) := rfl

theorem scr2_succ (c : Dev nD) (n : ℕ) (hn : n + 1 ≤ cfg2.N) :
    scr2 V c (n + 1) hn =
      (k2_pay5 (iblk2 V c 0 ⟨n, hn⟩) (iblk2 V c 1 ⟨n, hn⟩) (iblk2 V c 2 ⟨n, hn⟩) (iblk2 V c 3 ⟨n, hn⟩) (iblk2 V c 4 ⟨n, hn⟩) (scr2 V c n (Nat.le_of_succ_le hn)).1,
       k2_pay1 (k2_pay4 (iblk2 V c 0 ⟨n, hn⟩) (iblk2 V c 1 ⟨n, hn⟩) (iblk2 V c 2 ⟨n, hn⟩) (iblk2 V c 3 ⟨n, hn⟩) (iblk2 V c 4 ⟨n, hn⟩)) (scr2 V c n (Nat.le_of_succ_le hn)).2) := rfl

/-- The two scratch operands, whole scoped buffers of the kernel's own. -/
abbrev scM2_0 : Memref sig .tc .vmem S1x64 .f32 := Memref.whole cc2_scratch0
abbrev scM2_1 : Memref sig .tc .vmem S1x64 .f32 := Memref.whole cc2_scratch1

/-- The region invariant before position `n`: before the first point the class's; afterwards the two accumulators
    at what the points so far left in them, the other scoped buffers unopened, the generator register at some state. -/
def b_PhiS2 (c : Dev nD) : (n : ℕ) → n ≤ cfg2.N → sProp 𝕄
  | 0, _ => Pipeline.ΦA spec2 c
  | n + 1, hn => iprop(iprop(iprop(owns (c : Thread nD τ) scM2_0 fullShare (scr2 V c (n + 1) hn).1 ∗ owns (c : Thread nD τ) scM2_1 fullShare (scr2 V c (n + 1) hn).2)
      ∗ Pipeline.scopedRestBut (Ix := Unit) (Name := ℕ) (U := UR sig nD τ) (Lvl := ℕ) (Val := Elt F) spec2 c [cc2_scratch0, cc2_scratch1]) ∗ (∃ r, prngReg c r))

/-- The proof data of the region's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay4 (iblk2 V c 0 t) (iblk2 V c 1 t) (iblk2 V c 2 t) (iblk2 V c 3 t) (iblk2 V c 4 t)
    | ⟨6, _⟩ => (scr2 V c (t.val + 1) t.isLt).1
    | ⟨7, _⟩ => (scr2 V c (t.val + 1) t.isLt).2
  Φ t := b_PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = k2_pay4 (iblk2 V c 0 t) (iblk2 V c 1 t) (iblk2 V c 2 t) (iblk2 V c 3 t) (iblk2 V c 4 t) := by dsimp only [dat2]
/-- At every point, what the proof data names for windows 6 and 7 is the accumulators' contents after it. -/
theorem b_after2_6 (c : Dev nD) (t : Fin cfg2.N) : (dat2 V c).after 6 t = (scr2 V c (t.val + 1) t.isLt).1 := by dsimp only [dat2]
theorem b_after2_7 (c : Dev nD) (t : Fin cfg2.N) : (dat2 V c).after 7 t = (scr2 V c (t.val + 1) t.isLt).2 := by dsimp only [dat2]
/-- At the last point (the one that stores them) they are the accumulators after all five points. -/
theorem after2_6 (c : Dev nD) (t : Fin cfg2.N) (h : t.val = 4) : (dat2 V c).after 6 t = (scr2 V c 5 (le_of_eq N_2.symm)).1 := by
  rw [b_after2_6]; obtain ⟨n, hn⟩ := t; dsimp only at h; subst h; rfl
theorem after2_7 (c : Dev nD) (t : Fin cfg2.N) (h : t.val = 4) : (dat2 V c).after 7 t = (scr2 V c 5 (le_of_eq N_2.symm)).2 := by
  rw [b_after2_7]; obtain ⟨n, hn⟩ := t; dsimp only at h; subst h; rfl

/-! ## What the inputs' staging buffers hold -/

theorem b_before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem b_before2_0 (c : Dev nD) (t : Fin cfg2.N) (d) : (dat2 V c).before 0 t d = iblk2 V c 0 t :=
  b_before2_0_of V (dat2 V c) (A_eq2 V c 0) (after2_0 V c) t d

theorem b_before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem b_before2_1 (c : Dev nD) (t : Fin cfg2.N) (d) : (dat2 V c).before 1 t d = iblk2 V c 1 t :=
  b_before2_1_of V (dat2 V c) (A_eq2 V c 1) (after2_1 V c) t d

theorem b_before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem b_before2_2 (c : Dev nD) (t : Fin cfg2.N) (d) : (dat2 V c).before 2 t d = iblk2 V c 2 t :=
  b_before2_2_of V (dat2 V c) (A_eq2 V c 2) (after2_2 V c) t d

theorem b_before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem b_before2_3 (c : Dev nD) (t : Fin cfg2.N) (d) : (dat2 V c).before 3 t d = iblk2 V c 3 t :=
  b_before2_3_of V (dat2 V c) (A_eq2 V c 3) (after2_3 V c) t d

theorem b_before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem b_before2_4 (c : Dev nD) (t : Fin cfg2.N) (d) : (dat2 V c).before 4 t d = iblk2 V c 4 t :=
  b_before2_4_of V (dat2 V c) (A_eq2 V c 4) (after2_4 V c) t d

/-! ## The region invariant, opened -/

/-- The class's invariant with the two accumulators as memrefs owned at some contents, the other scoped buffers unopened. -/
theorem b_PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem b_PhiS2_zero (c : Dev nD) (n : ℕ) (h : n ≤ cfg2.N) (hz : n = 0) : b_PhiS2 V c n h = Pipeline.ΦA spec2 c := by
  subst hz; rfl

/-- Before a point that is not the first: the accumulators at what the points before left. -/
theorem b_PhiS2_pos (c : Dev nD) (n : ℕ) (h : n ≤ cfg2.N) (hz : n ≠ 0) :
    b_PhiS2 V c n h = iprop(iprop(iprop(owns (c : Thread nD τ) scM2_0 fullShare (scr2 V c n h).1 ∗ owns (c : Thread nD τ) scM2_1 fullShare (scr2 V c n h).2)
        ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- After point `n` (before point `n + 1`): the accumulators at that point's contents. -/
theorem b_PhiS2_succ (c : Dev nD) (n : ℕ) (hn : n + 1 ≤ cfg2.N) :
    b_PhiS2 V c (n + 1) hn = iprop(iprop(iprop(owns (c : Thread nD τ) scM2_0 fullShare (scr2 V c (n + 1) hn).1 ∗ owns (c : Thread nD τ) scM2_1 fullShare (scr2 V c (n + 1) hn).2)
        ∗ Pipeline.scopedRestBut (Ix := Unit) (Name := ℕ) (U := UR sig nD τ) (Lvl := ℕ) (Val := Elt F) spec2 c [cc2_scratch0, cc2_scratch1]) ∗ (∃ r, prngReg c r)) := rfl

theorem b_PhiS2_castSucc (c : Dev nD) (t : Fin cfg2.N) :
    (dat2 V c).Φ t.castSucc = b_PhiS2 V c t.val (Nat.le_of_lt t.isLt) := by
  dsimp only [dat2]; simp only [Fin.coe_castSucc]

/-- The accumulators after point `t`, from what they held before it. -/
theorem b_scr2_at (c : Dev nD) (t : Fin cfg2.N) :
    scr2 V c (t.val + 1) t.isLt
      = (k2_pay5 (iblk2 V c 0 t) (iblk2 V c 1 t) (iblk2 V c 2 t) (iblk2 V c 3 t) (iblk2 V c 4 t) (scr2 V c t.val (Nat.le_of_lt t.isLt)).1,
         k2_pay1 (k2_pay4 (iblk2 V c 0 t) (iblk2 V c 1 t) (iblk2 V c 2 t) (iblk2 V c 3 t) (iblk2 V c 4 t)) (scr2 V c t.val (Nat.le_of_lt t.isLt)).2) := rfl

/-- After the first point: from zero. -/
theorem b_scr2_at_first (c : Dev nD) (t : Fin cfg2.N) (h0 : t.val = 0) :
    scr2 V c (t.val + 1) t.isLt
      = (k2_pay5 (iblk2 V c 0 t) (iblk2 V c 1 t) (iblk2 V c 2 t) (iblk2 V c 3 t) (iblk2 V c 4 t) k2_pay2, k2_pay1 (k2_pay4 (iblk2 V c 0 t) (iblk2 V c 1 t) (iblk2 V c 2 t) (iblk2 V c 3 t) (iblk2 V c 4 t)) k2_pay3) := by
  obtain ⟨n, hn⟩ := t; dsimp only at h0; subst h0; rfl

/-! ## The body obligation, at a generic point -/

/-- What the body is called with at point `t`, -/
def b_bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def b_bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' memrefs hold their blocks; the closed forms say which of the three cases the point is
    in; the invariant hands the body the accumulators at what the points before left (at anything at the first point) and
    takes them back at this point's contents; outputs 6 and 7 are handed back untouched except at the last point. -/
theorem b_sound_body2 (c : Dev nD) (t : Fin cfg2.N) :
    b_bodyPre2 V c t ⊢ wp frame (wpE (defs₀ (F := F)) Variants.none c none) Set.univ (bodyAt2 t) (fun _ => b_bodyPost2 V c t) := by
  unfold b_bodyPre2 b_bodyPost2 bodyAt2
  simp only [b_before2_0, b_before2_1, b_before2_2, b_before2_3, b_before2_4]
  rw [show (dat2 V c).owesAt () t.succ = (dat2 V c).owesAt () t.castSucc from rfl]
  rw [show (dat2 V c).Φ t.succ = b_PhiS2 V c (t.val + 1) t.isLt from rfl, b_PhiS2_succ]
  rw [show (dat2 V c).leavesExact 0 t = owns (c : Thread nD τ) (st2_0 t) fullShare ((dat2 V c).after 0 t) from by
    unfold Dat.leavesExact; rw [b_live2_0 t], after2_0]
  rw [show (dat2 V c).leavesExact 1 t = owns (c : Thread nD τ) (st2_1 t) fullShare ((dat2 V c).after 1 t) from by
    unfold Dat.leavesExact; rw [b_live2_1 t], after2_1]
  rw [show (dat2 V c).leavesExact 2 t = owns (c : Thread nD τ) (st2_2 t) fullShare ((dat2 V c).after 2 t) from by
    unfold Dat.leavesExact; rw [b_live2_2 t], after2_2]
  rw [show (dat2 V c).leavesExact 3 t = owns (c : Thread nD τ) (st2_3 t) fullShare ((dat2 V c).after 3 t) from by
    unfold Dat.leavesExact; rw [b_live2_3 t], after2_3]
  rw [show (dat2 V c).leavesExact 4 t = owns (c : Thread nD τ) (st2_4 t) fullShare ((dat2 V c).after 4 t) from by
    unfold Dat.leavesExact; rw [b_live2_4 t], after2_4]
  rw [show (dat2 V c).leavesExact 5 t = owns (c : Thread nD τ) (st2_5 t) fullShare ((dat2 V c).after 5 t) from by
    unfold Dat.leavesExact; rw [b_live2_5 t], after2_5]
  by_cases h0 : t.val = 0
  · have h1 : ¬t.val = 4 := by omega
    rw [Dat.leavesExact_idle (dat2 V c) 6 t (b_idle2_6 t (fun h => h1 ((b_hcond2_1 t).mp h))) (b_noFlush2_6 t (fun h => h1 ((b_hcond2_1 t).mp h)))]
    rw [Dat.leavesExact_idle (dat2 V c) 7 t (b_idle2_7 t (fun h => h1 ((b_hcond2_1 t).mp h))) (b_noFlush2_7 t (fun h => h1 ((b_hcond2_1 t).mp h)))]
    rw [b_scr2_at_first V c t h0]; (try dsimp only)
    rw [b_PhiS2_castSucc V c t, b_PhiS2_zero V c _ _ h0, b_PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
    iapply (b_run2_first c Set.univ (grid2.coords t) _ _ _ _ _ _ _ _ _ _ _ _ _ _ _ _ _ _ _ _ ((b_hcond2_0 t).mpr h0) (fun h => h1 ((b_hcond2_1 t).mp h))
      (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val = 4
    · rw [show (dat2 V c).leavesExact 6 t = owns (c : Thread nD τ) (st2_6 t) fullShare ((dat2 V c).after 6 t) from by
        unfold Dat.leavesExact; rw [b_live2_6 t ((b_hcond2_1 t).mpr h1)], b_after2_6]
      rw [show (dat2 V c).leavesExact 7 t = owns (c : Thread nD τ) (st2_7 t) fullShare ((dat2 V c).after 7 t) from by
        unfold Dat.leavesExact; rw [b_live2_7 t ((b_hcond2_1 t).mpr h1)], b_after2_7]
      rw [b_scr2_at V c t]; (try dsimp only)
      rw [b_PhiS2_castSucc V c t, b_PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (b_run2_last c Set.univ (grid2.coords t) _ _ _ _ _ _ _ _ _ _ _ _ _ _ _ _ _ _ _ _ (fun h => h0 ((b_hcond2_0 t).mp h)) ((b_hcond2_1 t).mpr h1)
        (iblk2 V c 0 t) (iblk2 V c 1 t) (iblk2 V c 2 t) (iblk2 V c 3 t) (iblk2 V c 4 t) (scr2 V c t.val (Nat.le_of_lt t.isLt)).1 (scr2 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat2 V c) 6 t (b_idle2_6 t (fun h => h1 ((b_hcond2_1 t).mp h))) (b_noFlush2_6 t (fun h => h1 ((b_hcond2_1 t).mp h)))]
      rw [Dat.leavesExact_idle (dat2 V c) 7 t (b_idle2_7 t (fun h => h1 ((b_hcond2_1 t).mp h))) (b_noFlush2_7 t (fun h => h1 ((b_hcond2_1 t).mp h)))]
      rw [b_scr2_at V c t]; (try dsimp only)
      rw [b_PhiS2_castSucc V c t, b_PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
      iapply (b_run2_mid c Set.univ (grid2.coords t) _ _ _ _ _ _ _ _ _ _ _ _ _ _ _ _ _ _ _ _ (fun h => h0 ((b_hcond2_0 t).mp h)) (fun h => h1 ((b_hcond2_1 t).mp h))
        (iblk2 V c 0 t) (iblk2 V c 1 t) (iblk2 V c 2 t) (iblk2 V c 3 t) (iblk2 V c 4 t) (scr2 V c t.val (Nat.le_of_lt t.isLt)).1 (scr2 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation2 (c : Dev nD) : BodyObligation (dat2 (F := F) V c) (defs₀ (F := F)) Variants.none () Set.univ := fun t => by
  rw [bigSep_W2, bigSep_W2]
  exact b_sound_body2 V c t

/-- What the launch hands the region is the invariant before the first point. -/
theorem enter2 (c : Dev nD) : Pipeline.ΦA spec2 c ⊢ (dat2 V c).Φ 0 := by
  rw [show (dat2 V c).Φ 0 = b_PhiS2 V c 0 (Nat.zero_le _) from rfl, b_PhiS2_zero V c 0 _ rfl]
  try exact Idealize.SL.BI.Entails.refl _

/-- After the last point the invariant gives the class's back: the accumulators' named contents are forgotten. -/
theorem leave2 (c : Dev nD) : (dat2 V c).Φ (Fin.last cfg2.N) ⊢ Pipeline.ΦA spec2 c := by
  rw [show (dat2 V c).Φ (Fin.last cfg2.N) = b_PhiS2 V c (Fin.last cfg2.N).val (Nat.le_of_lt_succ (Fin.last cfg2.N).isLt) from rfl,
    b_PhiS2_pos V c _ _ (by rw [Fin.val_last]; have : cfg2.N = 5 := N_2; omega), b_PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.Hand

end
-- ==== Proof.BodyA3.lean ====
/- The class-A half of region 3 of @main, the batch-normalisation kernel `cc3__bn_act_kernel`, at a PARAMETER `V` — the TensorCore's buffer contents when the
   region is entered —, generic in the float model: each window's block at a point (`iblk3`), the output buffer after
   the body as the canonical contents of its one whole-block store (`out3_5`), the body's triple (`sound_kernel3`),
   the proof data (`dat3`) and the body obligation (`body_obligation3`). The 5 inputs are read whole; inputs 1..4
   have a constant block index, so their buffers hold at every point the block fetched at the first. -/
import proofs.«172917_j75840532513057_2_alg».proof.Proof.Gen.KernelIdeal.Launch
import proofs.«172917_j75840532513057_2_alg».proof.Proof.Gen.KernelIdeal.Skeleton
import proofs.«172917_j75840532513057_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 3 of @main: the batch-normalisation kernel `cc3__bn_act_kernel` (pipeline 3), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each staging buffer is read, and the output's stored, whole -/
abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0
abbrev r3_2 : Rect S1x64 := Rect.unit (s := S1x64) ![0, 0] S1x64.size inb_S1x64_S1x64_0_0
abbrev r3_3 : Rect S1x64 := Rect.unit (s := S1x64) ![0, 0] S1x64.size inb_S1x64_S1x64_0_0
abbrev r3_4 : Rect S1x64 := Rect.unit (s := S1x64) ![0, 0] S1x64.size inb_S1x64_S1x64_0_0
abbrev r3_5 : Rect S10000x64 := Rect.unit (s := S10000x64) ![0, 0] S10000x64.size inb_S10000x64_S10000x64_0_0

/-- Window 5's staging buffer after the body, from the input windows' blocks: its one store, of the whole block. -/
def out3_5 (x0 : Vec F S10000x64 .f32) (x1 : Vec F S1x64 .f32) (x2 : Vec F S1x64 .f32) (x3 : Vec F S1x64 .f32) (x4 : Vec F S1x64 .f32) : Vec F S10000x64 .f32 :=
  View.canon [⟨r3_5, k3_pay1 (View.ld x0 r3_0) (View.ld x1 r3_1) (View.ld x2 r3_2) (View.ld x3 r3_3) (View.ld x4 r3_4)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s (`hA`) and whose body leaves the block in place (`hafter`): unfetched, the block index has
    not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s (`hA`) and whose body leaves the block in place (`hafter`): unfetched, the block index has
    not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s (`hA`) and whose body leaves the block in place (`hafter`): unfetched, the block index has
    not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is `V`'s (`hA`) and whose body leaves the block in place (`hafter`): unfetched, the block index has
    not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Its one store is of the whole buffer, so it covers it (checked by evaluation). -/
theorem cover3_5 (p0 : Vec F S10000x64 .f32) (y : S10000x64.Idx) :
    ∃ pc ∈ ([⟨r3_5, p0⟩] : List (View.Piece (Elt F) S10000x64 .f32)), y ∈ pc.1.set :=
  View.cover_of_tiled [⟨r3_5, p0⟩] S10000x64.size (by rfl) y

/-! ## The body's triple -/

set_option maxHeartbeats 1000000 in
/-- The kernel body on whole staging memrefs, the inputs' at read contents `xW` and the output's at anything, runs to
    the continuation holding the inputs' as they were and the output's at `out3_5` of the inputs': the printed function
    is its skeleton, which runs load by load (the output's buffer is loaded once, the value unused) to the one store. -/
theorem sound_kernel3 (c : Dev nD) (E : Set ℕ) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_act_kernel i arg1 harg1 arg2 harg2 arg3 harg3 arg4 harg4 arg5 harg5 arg6 harg6) K := by
  simp only [cc3__bn_act_kernel_eq_skeleton]; unfold cc3__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point `t`
    each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand
-- ==== Proof.RunW1.lean ====
/- The buffer contents at the boundaries W3..W8 of @main's items, at any float model: a fold from the launch memory
   (a host stretch's `StableHlo.after`; a region's arrays at what its write-backs leave, every other buffer as
   entered), the two facts per region the exit rule takes, and what each item keeps. -/
import proofs.«172917_j75840532513057_2_alg».proof.Proof.RunW0
import proofs.«172917_j75840532513057_2_alg».proof.Proof.BodyA1
import proofs.«172917_j75840532513057_2_alg».proof.Proof.BodyR2
import proofs.«172917_j75840532513057_2_alg».proof.Proof.BodyA3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- After `hostOps1` (region 1's entry). -/
abbrev W3 : Dev nD → Valuation τ sig (Elt F) := fun c => StableHlo.after hostOps1 (W2 m ρ c)
/-- The same read at the TensorCore's references (what region 1's proof data take). -/
abbrev WV3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (WV3 m ρ) c).arrAt w cfg1.N
theorem W4_arr (c : Dev nD) (w : Fin cfg1.W) :
    W4 m ρ c (Proc.devRef .tc (Pipeline.arrRef spec1 w)) = (dat1 (WV3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev WV4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (WV3 m ρ) c).arrAt w cfg1.N = WV4 m ρ c (Pipeline.arrRef spec1 w) :=
  (W4_arr m ρ c w).symm
theorem hrest1 (c : Dev nD) : ∀ b, b ∉ Finset.univ.image (Pipeline.arrRef spec1) → WV4 m ρ c b = WV3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev WV5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (WV5 m ρ) c).arrAt w cfg2.N
theorem W6_arr (c : Dev nD) (w : Fin cfg2.W) :
    W6 m ρ c (Proc.devRef .tc (Pipeline.arrRef spec2 w)) = (dat2 (WV5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev WV6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (WV5 m ρ) c).arrAt w cfg2.N = WV6 m ρ c (Pipeline.arrRef spec2 w) :=
  (W6_arr m ρ c w).symm
theorem hrest2 (c : Dev nD) : ∀ b, b ∉ Finset.univ.image (Pipeline.arrRef spec2) → WV6 m ρ c b = WV5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev WV7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (WV7 m ρ) c).arrAt w cfg3.N
theorem W8_arr (c : Dev nD) (w : Fin cfg3.W) :
    W8 m ρ c (Proc.devRef .tc (Pipeline.arrRef spec3 w)) = (dat3 (WV7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev WV8 : (c : Dev nD) → (b : Ref sig .tc) → Buf (Elt F) ((c : Thread nD τ).loc b) := fun c b => W8 m ρ c b
/-- At region 3's exit each of its arrays holds what the pipeline leaves and every other buffer what it held at entry. -/
theorem hF3 (c : Dev nD) (w : Fin cfg3.W) : (dat3 (WV7 m ρ) c).arrAt w cfg3.N = WV8 m ρ c (Pipeline.arrRef spec3 w) :=
  (W8_arr m ρ c w).symm
theorem hrest3 (c : Dev nD) : ∀ b, b ∉ Finset.univ.image (Pipeline.arrRef spec3) → WV8 m ρ c b = WV7 m ρ c b :=
  fun b hb => W8_of_ne m ρ c b fun w e => hb (Finset.mem_image.mpr ⟨w, Finset.mem_univ _, e⟩)

/-! ## What each item keeps: a buffer a host stretch does not write, an input array of a region (a buffer that is no
    array of a region: `W_of_ne` above) -/

/-- `hostOps1` keeps every buffer outside the list of those it writes. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- Region 1 keeps each of its input arrays. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (WV3 m ρ) c).arrAt_in w hin _).trans (A_eq1 (WV3 m ρ) c w))

/-- `hostOps2` keeps every buffer outside the list of those it writes. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- Region 2 keeps each of its input arrays. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (WV5 m ρ) c).arrAt_in w hin _).trans (A_eq2 (WV5 m ρ) c w))

/-- `hostOps3` keeps every buffer outside the list of those it writes. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
/-- Region 3 keeps each of its input arrays. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (WV7 m ρ) c).arrAt_in w hin _).trans (A_eq3 (WV7 m ρ) c w))

end Cert.KernelIdeal.Hand

end
-- ==== Proof.BodyA4.lean ====
/- The class-A half of region 4 of @main, the linear layer's kernel `cc4__linear_kernel`, at a PARAMETER `V` — the TensorCore's buffer contents when the
   region is entered —, generic in the float model: each window's block at a point (`iblk4`), the output buffer after
   the body as the canonical contents of its one whole-block store (`out4_3`), the body's triple (`sound_kernel4`),
   the proof data (`dat4`) and the body obligation (`body_obligation4`). The 3 inputs are read whole; inputs 1..2
   have a constant block index, so their buffers hold at every point the block fetched at the first. -/
import proofs.«172917_j75840532513057_2_alg».proof.Proof.Gen.KernelIdeal.Launch
import proofs.«172917_j75840532513057_2_alg».proof.Proof.Gen.KernelIdeal.Skeleton
import proofs.«172917_j75840532513057_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 4 of @main: the linear layer's kernel `cc4__linear_kernel` (pipeline 4), at the entry contents `V` -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: each staging buffer is read, and the output's stored, whole -/
abbrev r4_0 : Rect S10000x5 := Rect.unit (s := S10000x5) ![0, 0] S10000x5.size inb_S10000x5_S10000x5_0_0
abbrev r4_1 : Rect S5x64 := Rect.unit (s := S5x64) ![0, 0] S5x64.size inb_S5x64_S5x64_0_0
abbrev r4_2 : Rect S1x64 := Rect.unit (s := S1x64) ![0, 0] S1x64.size inb_S1x64_S1x64_0_0
abbrev r4_3 : Rect S10000x64 := Rect.unit (s := S10000x64) ![0, 0] S10000x64.size inb_S10000x64_S10000x64_0_0

/-- Window 3's staging buffer after the body, from the input windows' blocks: its one store, of the whole block. -/
def out4_3 (x0 : Vec F S10000x5 .f32) (x1 : Vec F S5x64 .f32) (x2 : Vec F S1x64 .f32) : Vec F S10000x64 .f32 :=
  View.canon [⟨r4_3, k4_pay1 (View.ld x0 r4_0) (View.ld x1 r4_1) (View.ld x2 r4_2)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is `V`'s (`hA`) and whose body leaves the block in place (`hafter`): unfetched, the block index has
    not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is `V`'s (`hA`) and whose body leaves the block in place (`hafter`): unfetched, the block index has
    not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Its one store is of the whole buffer, so it covers it (checked by evaluation). -/
theorem cover4_3 (p0 : Vec F S10000x64 .f32) (y : S10000x64.Idx) :
    ∃ pc ∈ ([⟨r4_3, p0⟩] : List (View.Piece (Elt F) S10000x64 .f32)), y ∈ pc.1.set :=
  View.cover_of_tiled [⟨r4_3, p0⟩] S10000x64.size (by rfl) y

/-! ## The body's triple -/

set_option maxHeartbeats 1000000 in
/-- The kernel body on whole staging memrefs, the inputs' at read contents `xW` and the output's at anything, runs to
    the continuation holding the inputs' as they were and the output's at `out4_3` of the inputs': the printed function
    is its skeleton, which runs load by load (the output's buffer is loaded once, the value unused) to the one store. -/
theorem sound_kernel4 (c : Dev nD) (E : Set ℕ) (i : grid4.Coords) (arg1 : Memref sig .tc .vmem S10000x5 .f32) (harg1 : arg1.IsWhole) (arg2 : Memref sig .tc .vmem S5x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x5 .f32) (x1 : Vec F S5x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.KernelIdeal.Hand
-- ==== Proof.BodyR5Runs.lean ====
import proofs.«172917_j75840532513057_2_alg».proof.Proof.BodyR2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The condition under which the accumulators are zeroed. -/
abbrev b_cond5_0 (i : grid5.Coords) : Prop := (Scalar.cmpi .ne (Scalar.extui (Scalar.cmpi .eq (BitVec.ofNat 32 (i 0).val) 0#32)) 0#32) = 1#1
/-- It holds at the first point only. -/
theorem b_hcond5_0 : ∀ t : Fin cfg5.N, b_cond5_0 (grid5.coords t) ↔ t.val = 0 :=
  (by decide +kernel : ∀ t : Fin grid5.N, b_cond5_0 (grid5.coords t) ↔ t.val = 0)
/-- The condition under which the accumulators are copied out. -/
abbrev b_cond5_1 (i : grid5.Coords) : Prop := k5_cond2 i = 1#1
/-- It holds at the last point only. -/
theorem b_hcond5_1 : ∀ t : Fin cfg5.N, b_cond5_1 (grid5.coords t) ↔ t.val = 4 :=
  (by decide +kernel : ∀ t : Fin grid5.N, b_cond5_1 (grid5.coords t) ↔ t.val = 4)

/-! ## Where the windows are idle -/

theorem b_live5_0 : ∀ t : Fin cfg5.N, cfg5.idle 0 (grid5.coords t) = false := by decide +kernel
theorem b_live5_1 : ∀ t : Fin cfg5.N, cfg5.idle 1 (grid5.coords t) = false := by decide +kernel
theorem b_live5_2 : ∀ t : Fin cfg5.N, cfg5.idle 2 (grid5.coords t) = false := by decide +kernel
theorem b_live5_3 : ∀ t : Fin cfg5.N, cfg5.idle 3 (grid5.coords t) = false := by decide +kernel
theorem b_live5_4 : ∀ t : Fin cfg5.N, cfg5.idle 4 (grid5.coords t) = false := by decide +kernel
theorem b_live5_5 : ∀ t : Fin cfg5.N, cfg5.idle 5 (grid5.coords t) = false := by decide +kernel
/-- Away from the last point output 6 is idle and not written back; at the last point it is live. -/
theorem b_idle5_6 : ∀ t : Fin cfg5.N, ¬b_cond5_1 (grid5.coords t) → cfg5.idle 6 (grid5.coords t) = true := by decide +kernel
theorem b_noFlush5_6 : ∀ t : Fin cfg5.N, ¬b_cond5_1 (grid5.coords t) → (cfg5.win 6).flush t = false := by decide +kernel
theorem b_live5_6 : ∀ t : Fin cfg5.N, b_cond5_1 (grid5.coords t) → cfg5.idle 6 (grid5.coords t) = false := by decide +kernel
/-- Away from the last point output 7 is idle and not written back; at the last point it is live. -/
theorem b_idle5_7 : ∀ t : Fin cfg5.N, ¬b_cond5_1 (grid5.coords t) → cfg5.idle 7 (grid5.coords t) = true := by decide +kernel
theorem b_noFlush5_7 : ∀ t : Fin cfg5.N, ¬b_cond5_1 (grid5.coords t) → (cfg5.win 7).flush t = false := by decide +kernel
theorem b_live5_7 : ∀ t : Fin cfg5.N, b_cond5_1 (grid5.coords t) → cfg5.idle 7 (grid5.coords t) = false := by decide +kernel

/-! ## The kernel body on any whole memrefs, case by case -/

set_option maxHeartbeats 1000000 in
/-- At the first point: the accumulators, at anything, are zeroed, and each then takes the block's column sums; the
    block of output 5 is stored whole; outputs 6 and 7 are not touched. -/
theorem b_run5_first (c : Dev nD) (E : Set ℕ) (i : grid5.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : b_cond5_0 i) (hc1 : ¬b_cond5_1 i) (x0 : Vec F S10000x64 .f32) (x1 : Vec F S64x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k5_pay4 x0 x1 x2 x3 x4)
            ∗ owns (c : Thread nD τ) arg9 fullShare (k5_pay5 x0 x1 x2 x3 x4 k5_pay2) ∗ owns (c : Thread nD τ) arg10 fullShare (k5_pay1 (k5_pay4 x0 x1 x2 x3 x4) k5_pay3)) -∗ K ⟨⟩))
      ⊢ wp frame (wpE (defs₀ (F := F)) Variants.none c none) E (cc5__mlp_pass1_kernel i arg1 harg1 arg2 harg2 arg3 harg3 arg4 harg4 arg5 harg5 arg6 harg6 arg7 harg7 arg8 harg8 arg9 harg9 arg10 harg10) K := by
  simp only [cc5__mlp_pass1_kernel_eq_skeleton]; unfold cc5__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At a middle point: each accumulator, at what the points before left, takes the block's column sums; the block of
    output 5 is stored whole; outputs 6 and 7 are not touched. -/
theorem b_run5_mid (c : Dev nD) (E : Set ℕ) (i : grid5.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond5_0 i) (hc1 : ¬b_cond5_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k5_pay4 x0 x1 x2 x3 x4)
            ∗ owns (c : Thread nD τ) arg9 fullShare (k5_pay5 x0 x1 x2 x3 x4 xs9) ∗ owns (c : Thread nD τ) arg10 fullShare (k5_pay1 (k5_pay4 x0 x1 x2 x3 x4) xs10)) -∗ K ⟨⟩))
      ⊢ wp frame (wpE (defs₀ (F := F)) Variants.none c none) E (cc5__mlp_pass1_kernel i arg1 harg1 arg2 harg2 arg3 harg3 arg4 harg4 arg5 harg5 arg6 harg6 arg7 harg7 arg8 harg8 arg9 harg9 arg10 harg10) K := by
  simp only [cc5__mlp_pass1_kernel_eq_skeleton]; unfold cc5__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At the last point: as at a middle point, and then the two accumulators are copied whole into outputs 6 and 7. -/
theorem b_run5_last (c : Dev nD) (E : Set ℕ) (i : grid5.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond5_0 i) (hc1 : b_cond5_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k5_pay4 x0 x1 x2 x3 x4)
            ∗ owns (c : Thread nD τ) arg7 fullShare (k5_pay5 x0 x1 x2 x3 x4 xs9) ∗ owns (c : Thread nD τ) arg8 fullShare (k5_pay1 (k5_pay4 x0 x1 x2 x3 x4) xs10)
            ∗ owns (c : Thread nD τ) arg9 fullShare (k5_pay5 x0 x1 x2 x3 x4 xs9) ∗ owns (c : Thread nD τ) arg10 fullShare (k5_pay1 (k5_pay4 x0 x1 x2 x3 x4) xs10)) -∗ K ⟨⟩))
      ⊢ wp frame (wpE (defs₀ (F := F)) Variants.none c none) E (cc5__mlp_pass1_kernel i arg1 harg1 arg2 harg2 arg3 harg3 arg4 harg4 arg5 harg5 arg6 harg6 arg7 harg7 arg8 harg8 arg9 harg9 arg10 harg10) K := by
  simp only [cc5__mlp_pass1_kernel_eq_skeleton]; unfold cc5__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%d8, %f8, -, H8⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H7]
  · iexists _; isplitr
    swap; · iexact H7
    ipureintro; sl_unfold_run_names
    simp only [b_ld, b_st, b_rc]
  isplitl [H8]
  · iexists _; isplitr
    swap; · iexact H8
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

end Cert.KernelIdeal.Hand

end
-- ==== Proof.BodyR5.lean ====
import proofs.«172917_j75840532513057_2_alg».proof.Proof.BodyR5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 5: the windows' blocks, the two accumulators point by point, the proof data -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The two accumulators (column sums, column sums of squares) after `n` points: zero before the first, then each
    point adds its block's column sums. -/
def scr5 (c : Dev nD) : (n : ℕ) → n ≤ cfg5.N → Vec F S1x64 .f32 × Vec F S1x64 .f32
  | 0, _ => (k5_pay2, k5_pay3)
  | n + 1, hn =>
    (k5_pay5 (iblk5 V c 0 ⟨n, hn⟩) (iblk5 V c 1 ⟨n, hn⟩) (iblk5 V c 2 ⟨n, hn⟩) (iblk5 V c 3 ⟨n, hn⟩) (iblk5 V c 4 ⟨n, hn⟩) (scr5 c n (Nat.le_of_succ_le hn)).1,
     k5_pay1 (k5_pay4 (iblk5 V c 0 ⟨n, hn⟩) (iblk5 V c 1 ⟨n, hn⟩) (iblk5 V c 2 ⟨n, hn⟩) (iblk5 V c 3 ⟨n, hn⟩) (iblk5 V c 4 ⟨n, hn⟩)) (scr5 c n (Nat.le_of_succ_le hn)).2)

theorem scr5_zero (c : Dev nD) (h : 0 ≤ cfg5.N) : scr5 V c 0 h = (k5_pay2, k5_pay3) := rfl

theorem scr5_succ (c : Dev nD) (n : ℕ) (hn : n + 1 ≤ cfg5.N) :
    scr5 V c (n + 1) hn =
      (k5_pay5 (iblk5 V c 0 ⟨n, hn⟩) (iblk5 V c 1 ⟨n, hn⟩) (iblk5 V c 2 ⟨n, hn⟩) (iblk5 V c 3 ⟨n, hn⟩) (iblk5 V c 4 ⟨n, hn⟩) (scr5 V c n (Nat.le_of_succ_le hn)).1,
       k5_pay1 (k5_pay4 (iblk5 V c 0 ⟨n, hn⟩) (iblk5 V c 1 ⟨n, hn⟩) (iblk5 V c 2 ⟨n, hn⟩) (iblk5 V c 3 ⟨n, hn⟩) (iblk5 V c 4 ⟨n, hn⟩)) (scr5 V c n (Nat.le_of_succ_le hn)).2) := rfl

/-- The two scratch operands, whole scoped buffers of the kernel's own. -/
abbrev scM5_0 : Memref sig .tc .vmem S1x64 .f32 := Memref.whole cc5_scratch0
abbrev scM5_1 : Memref sig .tc .vmem S1x64 .f32 := Memref.whole cc5_scratch1

/-- The region invariant before position `n`: before the first point the class's; afterwards the two accumulators
    at what the points so far left in them, the other scoped buffers unopened, the generator register at some state. -/
def b_PhiS5 (c : Dev nD) : (n : ℕ) → n ≤ cfg5.N → sProp 𝕄
  | 0, _ => Pipeline.ΦA spec5 c
  | n + 1, hn => iprop(iprop(iprop(owns (c : Thread nD τ) scM5_0 fullShare (scr5 V c (n + 1) hn).1 ∗ owns (c : Thread nD τ) scM5_1 fullShare (scr5 V c (n + 1) hn).2)
      ∗ Pipeline.scopedRestBut (Ix := Unit) (Name := ℕ) (U := UR sig nD τ) (Lvl := ℕ) (Val := Elt F) spec5 c [cc5_scratch0, cc5_scratch1]) ∗ (∃ r, prngReg c r))

/-- The proof data of the region's pipeline on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => k5_pay4 (iblk5 V c 0 t) (iblk5 V c 1 t) (iblk5 V c 2 t) (iblk5 V c 3 t) (iblk5 V c 4 t)
    | ⟨6, _⟩ => (scr5 V c (t.val + 1) t.isLt).1
    | ⟨7, _⟩ => (scr5 V c (t.val + 1) t.isLt).2
  Φ t := b_PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = k5_pay4 (iblk5 V c 0 t) (iblk5 V c 1 t) (iblk5 V c 2 t) (iblk5 V c 3 t) (iblk5 V c 4 t) := by dsimp only [dat5]
/-- At every point, what the proof data names for windows 6 and 7 is the accumulators' contents after it. -/
theorem b_after5_6 (c : Dev nD) (t : Fin cfg5.N) : (dat5 V c).after 6 t = (scr5 V c (t.val + 1) t.isLt).1 := by dsimp only [dat5]
theorem b_after5_7 (c : Dev nD) (t : Fin cfg5.N) : (dat5 V c).after 7 t = (scr5 V c (t.val + 1) t.isLt).2 := by dsimp only [dat5]
/-- At the last point (the one that stores them) they are the accumulators after all five points. -/
theorem after5_6 (c : Dev nD) (t : Fin cfg5.N) (h : t.val = 4) : (dat5 V c).after 6 t = (scr5 V c 5 (le_of_eq N_5.symm)).1 := by
  rw [b_after5_6]; obtain ⟨n, hn⟩ := t; dsimp only at h; subst h; rfl
theorem after5_7 (c : Dev nD) (t : Fin cfg5.N) (h : t.val = 4) : (dat5 V c).after 7 t = (scr5 V c 5 (le_of_eq N_5.symm)).2 := by
  rw [b_after5_7]; obtain ⟨n, hn⟩ := t; dsimp only at h; subst h; rfl

/-! ## What the inputs' staging buffers hold -/

theorem b_before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem b_before5_0 (c : Dev nD) (t : Fin cfg5.N) (d) : (dat5 V c).before 0 t d = iblk5 V c 0 t :=
  b_before5_0_of V (dat5 V c) (A_eq5 V c 0) (after5_0 V c) t d

theorem b_before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem b_before5_1 (c : Dev nD) (t : Fin cfg5.N) (d) : (dat5 V c).before 1 t d = iblk5 V c 1 t :=
  b_before5_1_of V (dat5 V c) (A_eq5 V c 1) (after5_1 V c) t d

theorem b_before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem b_before5_2 (c : Dev nD) (t : Fin cfg5.N) (d) : (dat5 V c).before 2 t d = iblk5 V c 2 t :=
  b_before5_2_of V (dat5 V c) (A_eq5 V c 2) (after5_2 V c) t d

theorem b_before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem b_before5_3 (c : Dev nD) (t : Fin cfg5.N) (d) : (dat5 V c).before 3 t d = iblk5 V c 3 t :=
  b_before5_3_of V (dat5 V c) (A_eq5 V c 3) (after5_3 V c) t d

theorem b_before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem b_before5_4 (c : Dev nD) (t : Fin cfg5.N) (d) : (dat5 V c).before 4 t d = iblk5 V c 4 t :=
  b_before5_4_of V (dat5 V c) (A_eq5 V c 4) (after5_4 V c) t d

/-! ## The region invariant, opened -/

/-- The class's invariant with the two accumulators as memrefs owned at some contents, the other scoped buffers unopened. -/
theorem b_PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

theorem b_PhiS5_zero (c : Dev nD) (n : ℕ) (h : n ≤ cfg5.N) (hz : n = 0) : b_PhiS5 V c n h = Pipeline.ΦA spec5 c := by
  subst hz; rfl

/-- Before a point that is not the first: the accumulators at what the points before left. -/
theorem b_PhiS5_pos (c : Dev nD) (n : ℕ) (h : n ≤ cfg5.N) (hz : n ≠ 0) :
    b_PhiS5 V c n h = iprop(iprop(iprop(owns (c : Thread nD τ) scM5_0 fullShare (scr5 V c n h).1 ∗ owns (c : Thread nD τ) scM5_1 fullShare (scr5 V c n h).2)
        ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

/-- After point `n` (before point `n + 1`): the accumulators at that point's contents. -/
theorem b_PhiS5_succ (c : Dev nD) (n : ℕ) (hn : n + 1 ≤ cfg5.N) :
    b_PhiS5 V c (n + 1) hn = iprop(iprop(iprop(owns (c : Thread nD τ) scM5_0 fullShare (scr5 V c (n + 1) hn).1 ∗ owns (c : Thread nD τ) scM5_1 fullShare (scr5 V c (n + 1) hn).2)
        ∗ Pipeline.scopedRestBut (Ix := Unit) (Name := ℕ) (U := UR sig nD τ) (Lvl := ℕ) (Val := Elt F) spec5 c [cc5_scratch0, cc5_scratch1]) ∗ (∃ r, prngReg c r)) := rfl

theorem b_PhiS5_castSucc (c : Dev nD) (t : Fin cfg5.N) :
    (dat5 V c).Φ t.castSucc = b_PhiS5 V c t.val (Nat.le_of_lt t.isLt) := by
  dsimp only [dat5]; simp only [Fin.coe_castSucc]

/-- The accumulators after point `t`, from what they held before it. -/
theorem b_scr5_at (c : Dev nD) (t : Fin cfg5.N) :
    scr5 V c (t.val + 1) t.isLt
      = (k5_pay5 (iblk5 V c 0 t) (iblk5 V c 1 t) (iblk5 V c 2 t) (iblk5 V c 3 t) (iblk5 V c 4 t) (scr5 V c t.val (Nat.le_of_lt t.isLt)).1,
         k5_pay1 (k5_pay4 (iblk5 V c 0 t) (iblk5 V c 1 t) (iblk5 V c 2 t) (iblk5 V c 3 t) (iblk5 V c 4 t)) (scr5 V c t.val (Nat.le_of_lt t.isLt)).2) := rfl

/-- After the first point: from zero. -/
theorem b_scr5_at_first (c : Dev nD) (t : Fin cfg5.N) (h0 : t.val = 0) :
    scr5 V c (t.val + 1) t.isLt
      = (k5_pay5 (iblk5 V c 0 t) (iblk5 V c 1 t) (iblk5 V c 2 t) (iblk5 V c 3 t) (iblk5 V c 4 t) k5_pay2, k5_pay1 (k5_pay4 (iblk5 V c 0 t) (iblk5 V c 1 t) (iblk5 V c 2 t) (iblk5 V c 3 t) (iblk5 V c 4 t)) k5_pay3) := by
  obtain ⟨n, hn⟩ := t; dsimp only at h0; subst h0; rfl

/-! ## The body obligation, at a generic point -/

/-- What the body is called with at point `t`, -/
def b_bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def b_bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t)

set_option maxHeartbeats 4800000 in
/-- The body at any point: the inputs' memrefs hold their blocks; the closed forms say which of the three cases the point is
    in; the invariant hands the body the accumulators at what the points before left (at anything at the first point) and
    takes them back at this point's contents; outputs 6 and 7 are handed back untouched except at the last point. -/
theorem b_sound_body5 (c : Dev nD) (t : Fin cfg5.N) :
    b_bodyPre5 V c t ⊢ wp frame (wpE (defs₀ (F := F)) Variants.none c none) Set.univ (bodyAt5 t) (fun _ => b_bodyPost5 V c t) := by
  unfold b_bodyPre5 b_bodyPost5 bodyAt5
  simp only [b_before5_0, b_before5_1, b_before5_2, b_before5_3, b_before5_4]
  rw [show (dat5 V c).owesAt () t.succ = (dat5 V c).owesAt () t.castSucc from rfl]
  rw [show (dat5 V c).Φ t.succ = b_PhiS5 V c (t.val + 1) t.isLt from rfl, b_PhiS5_succ]
  rw [show (dat5 V c).leavesExact 0 t = owns (c : Thread nD τ) (st5_0 t) fullShare ((dat5 V c).after 0 t) from by
    unfold Dat.leavesExact; rw [b_live5_0 t], after5_0]
  rw [show (dat5 V c).leavesExact 1 t = owns (c : Thread nD τ) (st5_1 t) fullShare ((dat5 V c).after 1 t) from by
    unfold Dat.leavesExact; rw [b_live5_1 t], after5_1]
  rw [show (dat5 V c).leavesExact 2 t = owns (c : Thread nD τ) (st5_2 t) fullShare ((dat5 V c).after 2 t) from by
    unfold Dat.leavesExact; rw [b_live5_2 t], after5_2]
  rw [show (dat5 V c).leavesExact 3 t = owns (c : Thread nD τ) (st5_3 t) fullShare ((dat5 V c).after 3 t) from by
    unfold Dat.leavesExact; rw [b_live5_3 t], after5_3]
  rw [show (dat5 V c).leavesExact 4 t = owns (c : Thread nD τ) (st5_4 t) fullShare ((dat5 V c).after 4 t) from by
    unfold Dat.leavesExact; rw [b_live5_4 t], after5_4]
  rw [show (dat5 V c).leavesExact 5 t = owns (c : Thread nD τ) (st5_5 t) fullShare ((dat5 V c).after 5 t) from by
    unfold Dat.leavesExact; rw [b_live5_5 t], after5_5]
  by_cases h0 : t.val = 0
  · have h1 : ¬t.val = 4 := by omega
    rw [Dat.leavesExact_idle (dat5 V c) 6 t (b_idle5_6 t (fun h => h1 ((b_hcond5_1 t).mp h))) (b_noFlush5_6 t (fun h => h1 ((b_hcond5_1 t).mp h)))]
    rw [Dat.leavesExact_idle (dat5 V c) 7 t (b_idle5_7 t (fun h => h1 ((b_hcond5_1 t).mp h))) (b_noFlush5_7 t (fun h => h1 ((b_hcond5_1 t).mp h)))]
    rw [b_scr5_at_first V c t h0]; (try dsimp only)
    rw [b_PhiS5_castSucc V c t, b_PhiS5_zero V c _ _ h0, b_PhiA5_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
    iapply (b_run5_first c Set.univ (grid5.coords t) _ _ _ _ _ _ _ _ _ _ _ _ _ _ _ _ _ _ _ _ ((b_hcond5_0 t).mpr h0) (fun h => h1 ((b_hcond5_1 t).mp h))
      (iblk5 V c 0 t) (iblk5 V c 1 t) (iblk5 V c 2 t) (iblk5 V c 3 t) (iblk5 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val = 4
    · rw [show (dat5 V c).leavesExact 6 t = owns (c : Thread nD τ) (st5_6 t) fullShare ((dat5 V c).after 6 t) from by
        unfold Dat.leavesExact; rw [b_live5_6 t ((b_hcond5_1 t).mpr h1)], b_after5_6]
      rw [show (dat5 V c).leavesExact 7 t = owns (c : Thread nD τ) (st5_7 t) fullShare ((dat5 V c).after 7 t) from by
        unfold Dat.leavesExact; rw [b_live5_7 t ((b_hcond5_1 t).mpr h1)], b_after5_7]
      rw [b_scr5_at V c t]; (try dsimp only)
      rw [b_PhiS5_castSucc V c t, b_PhiS5_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (b_run5_last c Set.univ (grid5.coords t) _ _ _ _ _ _ _ _ _ _ _ _ _ _ _ _ _ _ _ _ (fun h => h0 ((b_hcond5_0 t).mp h)) ((b_hcond5_1 t).mpr h1)
        (iblk5 V c 0 t) (iblk5 V c 1 t) (iblk5 V c 2 t) (iblk5 V c 3 t) (iblk5 V c 4 t) (scr5 V c t.val (Nat.le_of_lt t.isLt)).1 (scr5 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat5 V c) 6 t (b_idle5_6 t (fun h => h1 ((b_hcond5_1 t).mp h))) (b_noFlush5_6 t (fun h => h1 ((b_hcond5_1 t).mp h)))]
      rw [Dat.leavesExact_idle (dat5 V c) 7 t (b_idle5_7 t (fun h => h1 ((b_hcond5_1 t).mp h))) (b_noFlush5_7 t (fun h => h1 ((b_hcond5_1 t).mp h)))]
      rw [b_scr5_at V c t]; (try dsimp only)
      rw [b_PhiS5_castSucc V c t, b_PhiS5_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
      iapply (b_run5_mid c Set.univ (grid5.coords t) _ _ _ _ _ _ _ _ _ _ _ _ _ _ _ _ _ _ _ _ (fun h => h0 ((b_hcond5_0 t).mp h)) (fun h => h1 ((b_hcond5_1 t).mp h))
        (iblk5 V c 0 t) (iblk5 V c 1 t) (iblk5 V c 2 t) (iblk5 V c 3 t) (iblk5 V c 4 t) (scr5 V c t.val (Nat.le_of_lt t.isLt)).1 (scr5 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation5 (c : Dev nD) : BodyObligation (dat5 (F := F) V c) (defs₀ (F := F)) Variants.none () Set.univ := fun t => by
  rw [bigSep_W5, bigSep_W5]
  exact b_sound_body5 V c t

/-- What the launch hands the region is the invariant before the first point. -/
theorem enter5 (c : Dev nD) : Pipeline.ΦA spec5 c ⊢ (dat5 V c).Φ 0 := by
  rw [show (dat5 V c).Φ 0 = b_PhiS5 V c 0 (Nat.zero_le _) from rfl, b_PhiS5_zero V c 0 _ rfl]
  try exact Idealize.SL.BI.Entails.refl _

/-- After the last point the invariant gives the class's back: the accumulators' named contents are forgotten. -/
theorem leave5 (c : Dev nD) : (dat5 V c).Φ (Fin.last cfg5.N) ⊢ Pipeline.ΦA spec5 c := by
  rw [show (dat5 V c).Φ (Fin.last cfg5.N) = b_PhiS5 V c (Fin.last cfg5.N).val (Nat.le_of_lt_succ (Fin.last cfg5.N).isLt) from rfl,
    b_PhiS5_pos V c _ _ (by rw [Fin.val_last]; have : cfg5.N = 5 := N_5; omega), b_PhiA5_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.Hand

end
-- ==== Proof.BodyA6.lean ====
/- The class-A half of region 6 of @main, the batch-normalisation kernel `cc6__bn_act_kernel`, at a PARAMETER `V` — the TensorCore's buffer contents when the
   region is entered —, generic in the float model: each window's block at a point (`iblk6`), the output buffer after
   the body as the canonical contents of its one whole-block store (`out6_5`), the body's triple (`sound_kernel6`),
   the proof data (`dat6`) and the body obligation (`body_obligation6`). The 5 inputs are read whole; inputs 1..4
   have a constant block index, so their buffers hold at every point the block fetched at the first. -/
import proofs.«172917_j75840532513057_2_alg».proof.Proof.Gen.KernelIdeal.Launch
import proofs.«172917_j75840532513057_2_alg».proof.Proof.Gen.KernelIdeal.Skeleton
import proofs.«172917_j75840532513057_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 6 of @main: the batch-normalisation kernel `cc6__bn_act_kernel` (pipeline 6), at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: each staging buffer is read, and the output's stored, whole -/
abbrev r6_0 : Rect S10000x64 := Rect.unit (s := S10000x64) ![0, 0] S10000x64.size inb_S10000x64_S10000x64_0_0
abbrev r6_1 : Rect S1x64 := Rect.unit (s := S1x64) ![0, 0] S1x64.size inb_S1x64_S1x64_0_0
abbrev r6_2 : Rect S1x64 := Rect.unit (s := S1x64) ![0, 0] S1x64.size inb_S1x64_S1x64_0_0
abbrev r6_3 : Rect S1x64 := Rect.unit (s := S1x64) ![0, 0] S1x64.size inb_S1x64_S1x64_0_0
abbrev r6_4 : Rect S1x64 := Rect.unit (s := S1x64) ![0, 0] S1x64.size inb_S1x64_S1x64_0_0
abbrev r6_5 : Rect S10000x64 := Rect.unit (s := S10000x64) ![0, 0] S10000x64.size inb_S10000x64_S10000x64_0_0

/-- Window 5's staging buffer after the body, from the input windows' blocks: its one store, of the whole block. -/
def out6_5 (x0 : Vec F S10000x64 .f32) (x1 : Vec F S1x64 .f32) (x2 : Vec F S1x64 .f32) (x3 : Vec F S1x64 .f32) (x4 : Vec F S1x64 .f32) : Vec F S10000x64 .f32 :=
  View.canon [⟨r6_5, k6_pay1 (View.ld x0 r6_0) (View.ld x1 r6_1) (View.ld x2 r6_2) (View.ld x3 r6_3) (View.ld x4 r6_4)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is `V`'s (`hA`) and whose body leaves the block in place (`hafter`): unfetched, the block index has
    not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is `V`'s (`hA`) and whose body leaves the block in place (`hafter`): unfetched, the block index has
    not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is `V`'s (`hA`) and whose body leaves the block in place (`hafter`): unfetched, the block index has
    not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof data
    whose array is `V`'s (`hA`) and whose body leaves the block in place (`hafter`): unfetched, the block index has
    not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Its one store is of the whole buffer, so it covers it (checked by evaluation). -/
theorem cover6_5 (p0 : Vec F S10000x64 .f32) (y : S10000x64.Idx) :
    ∃ pc ∈ ([⟨r6_5, p0⟩] : List (View.Piece (Elt F) S10000x64 .f32)), y ∈ pc.1.set :=
  View.cover_of_tiled [⟨r6_5, p0⟩] S10000x64.size (by rfl) y

/-! ## The body's triple -/

set_option maxHeartbeats 1000000 in
/-- The kernel body on whole staging memrefs, the inputs' at read contents `xW` and the output's at anything, runs to
    the continuation holding the inputs' as they were and the output's at `out6_5` of the inputs': the printed function
    is its skeleton, which runs load by load (the output's buffer is loaded once, the value unused) to the one store. -/
theorem sound_kernel6 (c : Dev nD) (E : Set ℕ) (i : grid6.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__bn_act_kernel i arg1 harg1 arg2 harg2 arg3 harg3 arg4 harg4 arg5 harg5 arg6 harg6) K := by
  simp only [cc6__bn_act_kernel_eq_skeleton]; unfold cc6__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at point `t`
    each input's buffer at its block and the output's at `out6_5` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.KernelIdeal.Hand
-- ==== Proof.RunW2.lean ====
/- The buffer contents at the boundaries W9..W14 of @main's items, at any float model: a fold from the launch memory
   (a host stretch's `StableHlo.after`; a region's arrays at what its write-backs leave, every other buffer as
   entered), the two facts per region the exit rule takes, and what each item keeps. -/
import proofs.«172917_j75840532513057_2_alg».proof.Proof.RunW1
import proofs.«172917_j75840532513057_2_alg».proof.Proof.BodyA4
import proofs.«172917_j75840532513057_2_alg».proof.Proof.BodyR5
import proofs.«172917_j75840532513057_2_alg».proof.Proof.BodyA6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- After `hostOps4` (region 4's entry). -/
abbrev W9 : Dev nD → Valuation τ sig (Elt F) := fun c => StableHlo.after hostOps4 (W8 m ρ c)
/-- The same read at the TensorCore's references (what region 4's proof data take). -/
abbrev WV9 : (c : Dev nD) → (b : Ref sig .tc) → Buf (Elt F) ((c : Thread nD τ).loc b) := fun c b => W9 m ρ c b
/-- At region 4's exit: its arrays at what the pipeline leaves (the inputs as entered, each output's write-backs
    folded), every other buffer as entered. -/
def W10 (c : Dev nD) : Valuation τ sig (Elt F) :=
  Pipeline.withArrays spec4 c (W9 m ρ c) fun w => (dat4 (WV9 m ρ) c).arrAt w cfg4.N
theorem W10_arr (c : Dev nD) (w : Fin cfg4.W) :
    W10 m ρ c (Proc.devRef .tc (Pipeline.arrRef spec4 w)) = (dat4 (WV9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev WV10 : (c : Dev nD) → (b : Ref sig .tc) → Buf (Elt F) ((c : Thread nD τ).loc b) := fun c b => W10 m ρ c b
/-- At region 4's exit each of its arrays holds what the pipeline leaves and every other buffer what it held at entry. -/
theorem hF4 (c : Dev nD) (w : Fin cfg4.W) : (dat4 (WV9 m ρ) c).arrAt w cfg4.N = WV10 m ρ c (Pipeline.arrRef spec4 w) :=
  (W10_arr m ρ c w).symm
theorem hrest4 (c : Dev nD) : ∀ b, b ∉ Finset.univ.image (Pipeline.arrRef spec4) → WV10 m ρ c b = WV9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- The same read at the TensorCore's references (what region 5's proof data take). -/
abbrev WV11 : (c : Dev nD) → (b : Ref sig .tc) → Buf (Elt F) ((c : Thread nD τ).loc b) := fun c b => W11 m ρ c b
/-- At region 5's exit: its arrays at what the pipeline leaves (the inputs as entered, each output's write-backs
    folded), every other buffer as entered. -/
def W12 (c : Dev nD) : Valuation τ sig (Elt F) :=
  Pipeline.withArrays spec5 c (W11 m ρ c) fun w => (dat5 (WV11 m ρ) c).arrAt w cfg5.N
theorem W12_arr (c : Dev nD) (w : Fin cfg5.W) :
    W12 m ρ c (Proc.devRef .tc (Pipeline.arrRef spec5 w)) = (dat5 (WV11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev WV12 : (c : Dev nD) → (b : Ref sig .tc) → Buf (Elt F) ((c : Thread nD τ).loc b) := fun c b => W12 m ρ c b
/-- At region 5's exit each of its arrays holds what the pipeline leaves and every other buffer what it held at entry. -/
theorem hF5 (c : Dev nD) (w : Fin cfg5.W) : (dat5 (WV11 m ρ) c).arrAt w cfg5.N = WV12 m ρ c (Pipeline.arrRef spec5 w) :=
  (W12_arr m ρ c w).symm
theorem hrest5 (c : Dev nD) : ∀ b, b ∉ Finset.univ.image (Pipeline.arrRef spec5) → WV12 m ρ c b = WV11 m ρ c b :=
  fun b hb => W12_of_ne m ρ c b fun w e => hb (Finset.mem_image.mpr ⟨w, Finset.mem_univ _, e⟩)

/-- After `hostOps6` (region 6's entry). -/
abbrev W13 : Dev nD → Valuation τ sig (Elt F) := fun c => StableHlo.after hostOps6 (W12 m ρ c)
/-- The same read at the TensorCore's references (what region 6's proof data take). -/
abbrev WV13 : (c : Dev nD) → (b : Ref sig .tc) → Buf (Elt F) ((c : Thread nD τ).loc b) := fun c b => W13 m ρ c b
/-- At region 6's exit: its arrays at what the pipeline leaves (the inputs as entered, each output's write-backs
    folded), every other buffer as entered. -/
def W14 (c : Dev nD) : Valuation τ sig (Elt F) :=
  Pipeline.withArrays spec6 c (W13 m ρ c) fun w => (dat6 (WV13 m ρ) c).arrAt w cfg6.N
theorem W14_arr (c : Dev nD) (w : Fin cfg6.W) :
    W14 m ρ c (Proc.devRef .tc (Pipeline.arrRef spec6 w)) = (dat6 (WV13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev WV14 : (c : Dev nD) → (b : Ref sig .tc) → Buf (Elt F) ((c : Thread nD τ).loc b) := fun c b => W14 m ρ c b
/-- At region 6's exit each of its arrays holds what the pipeline leaves and every other buffer what it held at entry. -/
theorem hF6 (c : Dev nD) (w : Fin cfg6.W) : (dat6 (WV13 m ρ) c).arrAt w cfg6.N = WV14 m ρ c (Pipeline.arrRef spec6 w) :=
  (W14_arr m ρ c w).symm
theorem hrest6 (c : Dev nD) : ∀ b, b ∉ Finset.univ.image (Pipeline.arrRef spec6) → WV14 m ρ c b = WV13 m ρ c b :=
  fun b hb => W14_of_ne m ρ c b fun w e => hb (Finset.mem_image.mpr ⟨w, Finset.mem_univ _, e⟩)

/-! ## What each item keeps: a buffer a host stretch does not write, an input array of a region (a buffer that is no
    array of a region: `W_of_ne` above) -/

/-- `hostOps4` keeps every buffer outside the list of those it writes. -/
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h
/-- Region 4 keeps each of its input arrays. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (WV9 m ρ) c).arrAt_in w hin _).trans (A_eq4 (WV9 m ρ) c w))

/-- `hostOps5` keeps every buffer outside the list of those it writes. -/
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h
/-- Region 5 keeps each of its input arrays. -/
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (WV11 m ρ) c).arrAt_in w hin _).trans (A_eq5 (WV11 m ρ) c w))

/-- `hostOps6` keeps every buffer outside the list of those it writes. -/
theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h
/-- Region 6 keeps each of its input arrays. -/
theorem W14_in (c : Dev nD) (w : Fin cfg6.W) (hin : (cfg6.win w).isOut = false) :
    W14 m ρ c (Proc.devRef .tc (Pipeline.arrRef spec6 w)) = W13 m ρ c (Proc.devRef .tc (Pipeline.arrRef spec6 w)) :=
  (W14_arr m ρ c w).trans (((dat6 (WV13 m ρ) c).arrAt_in w hin _).trans (A_eq6 (WV13 m ρ) c w))

end Cert.KernelIdeal.Hand

end
-- ==== Proof.BodyA7.lean ====
/- The class-A half of region 7 of @main, the linear layer's kernel `cc7__linear_kernel`, at a PARAMETER `V` — the TensorCore's buffer contents when the
   region is entered —, generic in the float model: each window's block at a point (`iblk7`), the output buffer after
   the body as the canonical contents of its one whole-block store (`out7_3`), the body's triple (`sound_kernel7`),
   the proof data (`dat7`) and the body obligation (`body_obligation7`). The 3 inputs are read whole; inputs 1..2
   have a constant block index, so their buffers hold at every point the block fetched at the first. -/
import proofs.«172917_j75840532513057_2_alg».proof.Proof.Gen.KernelIdeal.Launch
import proofs.«172917_j75840532513057_2_alg».proof.Proof.Gen.KernelIdeal.Skeleton
import proofs.«172917_j75840532513057_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 7 of @main: the linear layer's kernel `cc7__linear_kernel` (pipeline 7), at the entry contents `V` -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: each staging buffer is read, and the output's stored, whole -/
abbrev r7_0 : Rect S10000x5 := Rect.unit (s := S10000x5) ![0, 0] S10000x5.size inb_S10000x5_S10000x5_0_0
abbrev r7_1 : Rect S5x64 := Rect.unit (s := S5x64) ![0, 0] S5x64.size inb_S5x64_S5x64_0_0
abbrev r7_2 : Rect S1x64 := Rect.unit (s := S1x64) ![0, 0] S1x64.size inb_S1x64_S1x64_0_0
abbrev r7_3 : Rect S10000x64 := Rect.unit (s := S10000x64) ![0, 0] S10000x64.size inb_S10000x64_S10000x64_0_0

/-- Window 3's staging buffer after the body, from the input windows' blocks: its one store, of the whole block. -/
def out7_3 (x0 : Vec F S10000x5 .f32) (x1 : Vec F S5x64 .f32) (x2 : Vec F S1x64 .f32) : Vec F S10000x64 .f32 :=
  View.canon [⟨r7_3, k7_pay1 (View.ld x0 r7_0) (View.ld x1 r7_1) (View.ld x2 r7_2)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is `V`'s (`hA`) and whose body leaves the block in place (`hafter`): unfetched, the block index has
    not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is `V`'s (`hA`) and whose body leaves the block in place (`hafter`): unfetched, the block index has
    not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Its one store is of the whole buffer, so it covers it (checked by evaluation). -/
theorem cover7_3 (p0 : Vec F S10000x64 .f32) (y : S10000x64.Idx) :
    ∃ pc ∈ ([⟨r7_3, p0⟩] : List (View.Piece (Elt F) S10000x64 .f32)), y ∈ pc.1.set :=
  View.cover_of_tiled [⟨r7_3, p0⟩] S10000x64.size (by rfl) y

/-! ## The body's triple -/

set_option maxHeartbeats 1000000 in
/-- The kernel body on whole staging memrefs, the inputs' at read contents `xW` and the output's at anything, runs to
    the continuation holding the inputs' as they were and the output's at `out7_3` of the inputs': the printed function
    is its skeleton, which runs load by load (the output's buffer is loaded once, the value unused) to the one store. -/
theorem sound_kernel7 (c : Dev nD) (E : Set ℕ) (i : grid7.Coords) (arg1 : Memref sig .tc .vmem S10000x5 .f32) (harg1 : arg1.IsWhole) (arg2 : Memref sig .tc .vmem S5x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x5 .f32) (x1 : Vec F S5x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point `t`
    each input's buffer at its block and the output's at `out7_3` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Regions

end Cert.KernelIdeal.Hand
-- ==== Proof.BodyR8Runs.lean ====
import proofs.«172917_j75840532513057_2_alg».proof.Proof.BodyR2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The condition under which the accumulators are zeroed. -/
abbrev b_cond8_0 (i : grid8.Coords) : Prop := (Scalar.cmpi .ne (Scalar.extui (Scalar.cmpi .eq (BitVec.ofNat 32 (i 0).val) 0#32)) 0#32) = 1#1
/-- It holds at the first point only. -/
theorem b_hcond8_0 : ∀ t : Fin cfg8.N, b_cond8_0 (grid8.coords t) ↔ t.val = 0 :=
  (by decide +kernel : ∀ t : Fin grid8.N, b_cond8_0 (grid8.coords t) ↔ t.val = 0)
/-- The condition under which the accumulators are copied out. -/
abbrev b_cond8_1 (i : grid8.Coords) : Prop := k8_cond2 i = 1#1
/-- It holds at the last point only. -/
theorem b_hcond8_1 : ∀ t : Fin cfg8.N, b_cond8_1 (grid8.coords t) ↔ t.val = 4 :=
  (by decide +kernel : ∀ t : Fin grid8.N, b_cond8_1 (grid8.coords t) ↔ t.val = 4)

/-! ## Where the windows are idle -/

theorem b_live8_0 : ∀ t : Fin cfg8.N, cfg8.idle 0 (grid8.coords t) = false := by decide +kernel
theorem b_live8_1 : ∀ t : Fin cfg8.N, cfg8.idle 1 (grid8.coords t) = false := by decide +kernel
theorem b_live8_2 : ∀ t : Fin cfg8.N, cfg8.idle 2 (grid8.coords t) = false := by decide +kernel
theorem b_live8_3 : ∀ t : Fin cfg8.N, cfg8.idle 3 (grid8.coords t) = false := by decide +kernel
theorem b_live8_4 : ∀ t : Fin cfg8.N, cfg8.idle 4 (grid8.coords t) = false := by decide +kernel
theorem b_live8_5 : ∀ t : Fin cfg8.N, cfg8.idle 5 (grid8.coords t) = false := by decide +kernel
/-- Away from the last point output 6 is idle and not written back; at the last point it is live. -/
theorem b_idle8_6 : ∀ t : Fin cfg8.N, ¬b_cond8_1 (grid8.coords t) → cfg8.idle 6 (grid8.coords t) = true := by decide +kernel
theorem b_noFlush8_6 : ∀ t : Fin cfg8.N, ¬b_cond8_1 (grid8.coords t) → (cfg8.win 6).flush t = false := by decide +kernel
theorem b_live8_6 : ∀ t : Fin cfg8.N, b_cond8_1 (grid8.coords t) → cfg8.idle 6 (grid8.coords t) = false := by decide +kernel
/-- Away from the last point output 7 is idle and not written back; at the last point it is live. -/
theorem b_idle8_7 : ∀ t : Fin cfg8.N, ¬b_cond8_1 (grid8.coords t) → cfg8.idle 7 (grid8.coords t) = true := by decide +kernel
theorem b_noFlush8_7 : ∀ t : Fin cfg8.N, ¬b_cond8_1 (grid8.coords t) → (cfg8.win 7).flush t = false := by decide +kernel
theorem b_live8_7 : ∀ t : Fin cfg8.N, b_cond8_1 (grid8.coords t) → cfg8.idle 7 (grid8.coords t) = false := by decide +kernel

/-! ## The kernel body on any whole memrefs, case by case -/

set_option maxHeartbeats 1000000 in
/-- At the first point: the accumulators, at anything, are zeroed, and each then takes the block's column sums; the
    block of output 5 is stored whole; outputs 6 and 7 are not touched. -/
theorem b_run8_first (c : Dev nD) (E : Set ℕ) (i : grid8.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : b_cond8_0 i) (hc1 : ¬b_cond8_1 i) (x0 : Vec F S10000x64 .f32) (x1 : Vec F S64x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4)
            ∗ owns (c : Thread nD τ) arg9 fullShare (k8_pay5 x0 x1 x2 x3 x4 k8_pay2) ∗ owns (c : Thread nD τ) arg10 fullShare (k8_pay1 (k8_pay4 x0 x1 x2 x3 x4) k8_pay3)) -∗ K ⟨⟩))
      ⊢ wp frame (wpE (defs₀ (F := F)) Variants.none c none) E (cc8__mlp_pass1_kernel i arg1 harg1 arg2 harg2 arg3 harg3 arg4 harg4 arg5 harg5 arg6 harg6 arg7 harg7 arg8 harg8 arg9 harg9 arg10 harg10) K := by
  simp only [cc8__mlp_pass1_kernel_eq_skeleton]; unfold cc8__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At a middle point: each accumulator, at what the points before left, takes the block's column sums; the block of
    output 5 is stored whole; outputs 6 and 7 are not touched. -/
theorem b_run8_mid (c : Dev nD) (E : Set ℕ) (i : grid8.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond8_0 i) (hc1 : ¬b_cond8_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4)
            ∗ owns (c : Thread nD τ) arg9 fullShare (k8_pay5 x0 x1 x2 x3 x4 xs9) ∗ owns (c : Thread nD τ) arg10 fullShare (k8_pay1 (k8_pay4 x0 x1 x2 x3 x4) xs10)) -∗ K ⟨⟩))
      ⊢ wp frame (wpE (defs₀ (F := F)) Variants.none c none) E (cc8__mlp_pass1_kernel i arg1 harg1 arg2 harg2 arg3 harg3 arg4 harg4 arg5 harg5 arg6 harg6 arg7 harg7 arg8 harg8 arg9 harg9 arg10 harg10) K := by
  simp only [cc8__mlp_pass1_kernel_eq_skeleton]; unfold cc8__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At the last point: as at a middle point, and then the two accumulators are copied whole into outputs 6 and 7. -/
theorem b_run8_last (c : Dev nD) (E : Set ℕ) (i : grid8.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond8_0 i) (hc1 : b_cond8_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4)
            ∗ owns (c : Thread nD τ) arg7 fullShare (k8_pay5 x0 x1 x2 x3 x4 xs9) ∗ owns (c : Thread nD τ) arg8 fullShare (k8_pay1 (k8_pay4 x0 x1 x2 x3 x4) xs10)
            ∗ owns (c : Thread nD τ) arg9 fullShare (k8_pay5 x0 x1 x2 x3 x4 xs9) ∗ owns (c : Thread nD τ) arg10 fullShare (k8_pay1 (k8_pay4 x0 x1 x2 x3 x4) xs10)) -∗ K ⟨⟩))
      ⊢ wp frame (wpE (defs₀ (F := F)) Variants.none c none) E (cc8__mlp_pass1_kernel i arg1 harg1 arg2 harg2 arg3 harg3 arg4 harg4 arg5 harg5 arg6 harg6 arg7 harg7 arg8 harg8 arg9 harg9 arg10 harg10) K := by
  simp only [cc8__mlp_pass1_kernel_eq_skeleton]; unfold cc8__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%d8, %f8, -, H8⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H7]
  · iexists _; isplitr
    swap; · iexact H7
    ipureintro; sl_unfold_run_names
    simp only [b_ld, b_st, b_rc]
  isplitl [H8]
  · iexists _; isplitr
    swap; · iexact H8
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

end Cert.KernelIdeal.Hand

end
-- ==== Proof.BodyR8.lean ====
import proofs.«172917_j75840532513057_2_alg».proof.Proof.BodyR8Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 8: the windows' blocks, the two accumulators point by point, the proof data -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The two accumulators (column sums, column sums of squares) after `n` points: zero before the first, then each
    point adds its block's column sums. -/
def scr8 (c : Dev nD) : (n : ℕ) → n ≤ cfg8.N → Vec F S1x64 .f32 × Vec F S1x64 .f32
  | 0, _ => (k8_pay2, k8_pay3)
  | n + 1, hn =>
    (k8_pay5 (iblk8 V c 0 ⟨n, hn⟩) (iblk8 V c 1 ⟨n, hn⟩) (iblk8 V c 2 ⟨n, hn⟩) (iblk8 V c 3 ⟨n, hn⟩) (iblk8 V c 4 ⟨n, hn⟩) (scr8 c n (Nat.le_of_succ_le hn)).1,
     k8_pay1 (k8_pay4 (iblk8 V c 0 ⟨n, hn⟩) (iblk8 V c 1 ⟨n, hn⟩) (iblk8 V c 2 ⟨n, hn⟩) (iblk8 V c 3 ⟨n, hn⟩) (iblk8 V c 4 ⟨n, hn⟩)) (scr8 c n (Nat.le_of_succ_le hn)).2)

theorem scr8_zero (c : Dev nD) (h : 0 ≤ cfg8.N) : scr8 V c 0 h = (k8_pay2, k8_pay3) := rfl

theorem scr8_succ (c : Dev nD) (n : ℕ) (hn : n + 1 ≤ cfg8.N) :
    scr8 V c (n + 1) hn =
      (k8_pay5 (iblk8 V c 0 ⟨n, hn⟩) (iblk8 V c 1 ⟨n, hn⟩) (iblk8 V c 2 ⟨n, hn⟩) (iblk8 V c 3 ⟨n, hn⟩) (iblk8 V c 4 ⟨n, hn⟩) (scr8 V c n (Nat.le_of_succ_le hn)).1,
       k8_pay1 (k8_pay4 (iblk8 V c 0 ⟨n, hn⟩) (iblk8 V c 1 ⟨n, hn⟩) (iblk8 V c 2 ⟨n, hn⟩) (iblk8 V c 3 ⟨n, hn⟩) (iblk8 V c 4 ⟨n, hn⟩)) (scr8 V c n (Nat.le_of_succ_le hn)).2) := rfl

/-- The two scratch operands, whole scoped buffers of the kernel's own. -/
abbrev scM8_0 : Memref sig .tc .vmem S1x64 .f32 := Memref.whole cc8_scratch0
abbrev scM8_1 : Memref sig .tc .vmem S1x64 .f32 := Memref.whole cc8_scratch1

/-- The region invariant before position `n`: before the first point the class's; afterwards the two accumulators
    at what the points so far left in them, the other scoped buffers unopened, the generator register at some state. -/
def b_PhiS8 (c : Dev nD) : (n : ℕ) → n ≤ cfg8.N → sProp 𝕄
  | 0, _ => Pipeline.ΦA spec8 c
  | n + 1, hn => iprop(iprop(iprop(owns (c : Thread nD τ) scM8_0 fullShare (scr8 V c (n + 1) hn).1 ∗ owns (c : Thread nD τ) scM8_1 fullShare (scr8 V c (n + 1) hn).2)
      ∗ Pipeline.scopedRestBut (Ix := Unit) (Name := ℕ) (U := UR sig nD τ) (Lvl := ℕ) (Val := Elt F) spec8 c [cc8_scratch0, cc8_scratch1]) ∗ (∃ r, prngReg c r))

/-- The proof data of the region's pipeline on core `c`. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => k8_pay4 (iblk8 V c 0 t) (iblk8 V c 1 t) (iblk8 V c 2 t) (iblk8 V c 3 t) (iblk8 V c 4 t)
    | ⟨6, _⟩ => (scr8 V c (t.val + 1) t.isLt).1
    | ⟨7, _⟩ => (scr8 V c (t.val + 1) t.isLt).2
  Φ t := b_PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t
    = k8_pay4 (iblk8 V c 0 t) (iblk8 V c 1 t) (iblk8 V c 2 t) (iblk8 V c 3 t) (iblk8 V c 4 t) := by dsimp only [dat8]
/-- At every point, what the proof data names for windows 6 and 7 is the accumulators' contents after it. -/
theorem b_after8_6 (c : Dev nD) (t : Fin cfg8.N) : (dat8 V c).after 6 t = (scr8 V c (t.val + 1) t.isLt).1 := by dsimp only [dat8]
theorem b_after8_7 (c : Dev nD) (t : Fin cfg8.N) : (dat8 V c).after 7 t = (scr8 V c (t.val + 1) t.isLt).2 := by dsimp only [dat8]
/-- At the last point (the one that stores them) they are the accumulators after all five points. -/
theorem after8_6 (c : Dev nD) (t : Fin cfg8.N) (h : t.val = 4) : (dat8 V c).after 6 t = (scr8 V c 5 (le_of_eq N_8.symm)).1 := by
  rw [b_after8_6]; obtain ⟨n, hn⟩ := t; dsimp only at h; subst h; rfl
theorem after8_7 (c : Dev nD) (t : Fin cfg8.N) (h : t.val = 4) : (dat8 V c).after 7 t = (scr8 V c 5 (le_of_eq N_8.symm)).2 := by
  rw [b_after8_7]; obtain ⟨n, hn⟩ := t; dsimp only at h; subst h; rfl

/-! ## What the inputs' staging buffers hold -/

theorem b_before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem b_before8_0 (c : Dev nD) (t : Fin cfg8.N) (d) : (dat8 V c).before 0 t d = iblk8 V c 0 t :=
  b_before8_0_of V (dat8 V c) (A_eq8 V c 0) (after8_0 V c) t d

theorem b_before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem b_before8_1 (c : Dev nD) (t : Fin cfg8.N) (d) : (dat8 V c).before 1 t d = iblk8 V c 1 t :=
  b_before8_1_of V (dat8 V c) (A_eq8 V c 1) (after8_1 V c) t d

theorem b_before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem b_before8_2 (c : Dev nD) (t : Fin cfg8.N) (d) : (dat8 V c).before 2 t d = iblk8 V c 2 t :=
  b_before8_2_of V (dat8 V c) (A_eq8 V c 2) (after8_2 V c) t d

theorem b_before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem b_before8_3 (c : Dev nD) (t : Fin cfg8.N) (d) : (dat8 V c).before 3 t d = iblk8 V c 3 t :=
  b_before8_3_of V (dat8 V c) (A_eq8 V c 3) (after8_3 V c) t d

theorem b_before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem b_before8_4 (c : Dev nD) (t : Fin cfg8.N) (d) : (dat8 V c).before 4 t d = iblk8 V c 4 t :=
  b_before8_4_of V (dat8 V c) (A_eq8 V c 4) (after8_4 V c) t d

/-! ## The region invariant, opened -/

/-- The class's invariant with the two accumulators as memrefs owned at some contents, the other scoped buffers unopened. -/
theorem b_PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

theorem b_PhiS8_zero (c : Dev nD) (n : ℕ) (h : n ≤ cfg8.N) (hz : n = 0) : b_PhiS8 V c n h = Pipeline.ΦA spec8 c := by
  subst hz; rfl

/-- Before a point that is not the first: the accumulators at what the points before left. -/
theorem b_PhiS8_pos (c : Dev nD) (n : ℕ) (h : n ≤ cfg8.N) (hz : n ≠ 0) :
    b_PhiS8 V c n h = iprop(iprop(iprop(owns (c : Thread nD τ) scM8_0 fullShare (scr8 V c n h).1 ∗ owns (c : Thread nD τ) scM8_1 fullShare (scr8 V c n h).2)
        ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-- After point `n` (before point `n + 1`): the accumulators at that point's contents. -/
theorem b_PhiS8_succ (c : Dev nD) (n : ℕ) (hn : n + 1 ≤ cfg8.N) :
    b_PhiS8 V c (n + 1) hn = iprop(iprop(iprop(owns (c : Thread nD τ) scM8_0 fullShare (scr8 V c (n + 1) hn).1 ∗ owns (c : Thread nD τ) scM8_1 fullShare (scr8 V c (n + 1) hn).2)
        ∗ Pipeline.scopedRestBut (Ix := Unit) (Name := ℕ) (U := UR sig nD τ) (Lvl := ℕ) (Val := Elt F) spec8 c [cc8_scratch0, cc8_scratch1]) ∗ (∃ r, prngReg c r)) := rfl

theorem b_PhiS8_castSucc (c : Dev nD) (t : Fin cfg8.N) :
    (dat8 V c).Φ t.castSucc = b_PhiS8 V c t.val (Nat.le_of_lt t.isLt) := by
  dsimp only [dat8]; simp only [Fin.coe_castSucc]

/-- The accumulators after point `t`, from what they held before it. -/
theorem b_scr8_at (c : Dev nD) (t : Fin cfg8.N) :
    scr8 V c (t.val + 1) t.isLt
      = (k8_pay5 (iblk8 V c 0 t) (iblk8 V c 1 t) (iblk8 V c 2 t) (iblk8 V c 3 t) (iblk8 V c 4 t) (scr8 V c t.val (Nat.le_of_lt t.isLt)).1,
         k8_pay1 (k8_pay4 (iblk8 V c 0 t) (iblk8 V c 1 t) (iblk8 V c 2 t) (iblk8 V c 3 t) (iblk8 V c 4 t)) (scr8 V c t.val (Nat.le_of_lt t.isLt)).2) := rfl

/-- After the first point: from zero. -/
theorem b_scr8_at_first (c : Dev nD) (t : Fin cfg8.N) (h0 : t.val = 0) :
    scr8 V c (t.val + 1) t.isLt
      = (k8_pay5 (iblk8 V c 0 t) (iblk8 V c 1 t) (iblk8 V c 2 t) (iblk8 V c 3 t) (iblk8 V c 4 t) k8_pay2, k8_pay1 (k8_pay4 (iblk8 V c 0 t) (iblk8 V c 1 t) (iblk8 V c 2 t) (iblk8 V c 3 t) (iblk8 V c 4 t)) k8_pay3) := by
  obtain ⟨n, hn⟩ := t; dsimp only at h0; subst h0; rfl

/-! ## The body obligation, at a generic point -/

/-- What the body is called with at point `t`, -/
def b_bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def b_bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t)

set_option maxHeartbeats 4800000 in
/-- The body at any point: the inputs' memrefs hold their blocks; the closed forms say which of the three cases the point is
    in; the invariant hands the body the accumulators at what the points before left (at anything at the first point) and
    takes them back at this point's contents; outputs 6 and 7 are handed back untouched except at the last point. -/
theorem b_sound_body8 (c : Dev nD) (t : Fin cfg8.N) :
    b_bodyPre8 V c t ⊢ wp frame (wpE (defs₀ (F := F)) Variants.none c none) Set.univ (bodyAt8 t) (fun _ => b_bodyPost8 V c t) := by
  unfold b_bodyPre8 b_bodyPost8 bodyAt8
  simp only [b_before8_0, b_before8_1, b_before8_2, b_before8_3, b_before8_4]
  rw [show (dat8 V c).owesAt () t.succ = (dat8 V c).owesAt () t.castSucc from rfl]
  rw [show (dat8 V c).Φ t.succ = b_PhiS8 V c (t.val + 1) t.isLt from rfl, b_PhiS8_succ]
  rw [show (dat8 V c).leavesExact 0 t = owns (c : Thread nD τ) (st8_0 t) fullShare ((dat8 V c).after 0 t) from by
    unfold Dat.leavesExact; rw [b_live8_0 t], after8_0]
  rw [show (dat8 V c).leavesExact 1 t = owns (c : Thread nD τ) (st8_1 t) fullShare ((dat8 V c).after 1 t) from by
    unfold Dat.leavesExact; rw [b_live8_1 t], after8_1]
  rw [show (dat8 V c).leavesExact 2 t = owns (c : Thread nD τ) (st8_2 t) fullShare ((dat8 V c).after 2 t) from by
    unfold Dat.leavesExact; rw [b_live8_2 t], after8_2]
  rw [show (dat8 V c).leavesExact 3 t = owns (c : Thread nD τ) (st8_3 t) fullShare ((dat8 V c).after 3 t) from by
    unfold Dat.leavesExact; rw [b_live8_3 t], after8_3]
  rw [show (dat8 V c).leavesExact 4 t = owns (c : Thread nD τ) (st8_4 t) fullShare ((dat8 V c).after 4 t) from by
    unfold Dat.leavesExact; rw [b_live8_4 t], after8_4]
  rw [show (dat8 V c).leavesExact 5 t = owns (c : Thread nD τ) (st8_5 t) fullShare ((dat8 V c).after 5 t) from by
    unfold Dat.leavesExact; rw [b_live8_5 t], after8_5]
  by_cases h0 : t.val = 0
  · have h1 : ¬t.val = 4 := by omega
    rw [Dat.leavesExact_idle (dat8 V c) 6 t (b_idle8_6 t (fun h => h1 ((b_hcond8_1 t).mp h))) (b_noFlush8_6 t (fun h => h1 ((b_hcond8_1 t).mp h)))]
    rw [Dat.leavesExact_idle (dat8 V c) 7 t (b_idle8_7 t (fun h => h1 ((b_hcond8_1 t).mp h))) (b_noFlush8_7 t (fun h => h1 ((b_hcond8_1 t).mp h)))]
    rw [b_scr8_at_first V c t h0]; (try dsimp only)
    rw [b_PhiS8_castSucc V c t, b_PhiS8_zero V c _ _ h0, b_PhiA8_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
    iapply (b_run8_first c Set.univ (grid8.coords t) _ _ _ _ _ _ _ _ _ _ _ _ _ _ _ _ _ _ _ _ ((b_hcond8_0 t).mpr h0) (fun h => h1 ((b_hcond8_1 t).mp h))
      (iblk8 V c 0 t) (iblk8 V c 1 t) (iblk8 V c 2 t) (iblk8 V c 3 t) (iblk8 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val = 4
    · rw [show (dat8 V c).leavesExact 6 t = owns (c : Thread nD τ) (st8_6 t) fullShare ((dat8 V c).after 6 t) from by
        unfold Dat.leavesExact; rw [b_live8_6 t ((b_hcond8_1 t).mpr h1)], b_after8_6]
      rw [show (dat8 V c).leavesExact 7 t = owns (c : Thread nD τ) (st8_7 t) fullShare ((dat8 V c).after 7 t) from by
        unfold Dat.leavesExact; rw [b_live8_7 t ((b_hcond8_1 t).mpr h1)], b_after8_7]
      rw [b_scr8_at V c t]; (try dsimp only)
      rw [b_PhiS8_castSucc V c t, b_PhiS8_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (b_run8_last c Set.univ (grid8.coords t) _ _ _ _ _ _ _ _ _ _ _ _ _ _ _ _ _ _ _ _ (fun h => h0 ((b_hcond8_0 t).mp h)) ((b_hcond8_1 t).mpr h1)
        (iblk8 V c 0 t) (iblk8 V c 1 t) (iblk8 V c 2 t) (iblk8 V c 3 t) (iblk8 V c 4 t) (scr8 V c t.val (Nat.le_of_lt t.isLt)).1 (scr8 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat8 V c) 6 t (b_idle8_6 t (fun h => h1 ((b_hcond8_1 t).mp h))) (b_noFlush8_6 t (fun h => h1 ((b_hcond8_1 t).mp h)))]
      rw [Dat.leavesExact_idle (dat8 V c) 7 t (b_idle8_7 t (fun h => h1 ((b_hcond8_1 t).mp h))) (b_noFlush8_7 t (fun h => h1 ((b_hcond8_1 t).mp h)))]
      rw [b_scr8_at V c t]; (try dsimp only)
      rw [b_PhiS8_castSucc V c t, b_PhiS8_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
      iapply (b_run8_mid c Set.univ (grid8.coords t) _ _ _ _ _ _ _ _ _ _ _ _ _ _ _ _ _ _ _ _ (fun h => h0 ((b_hcond8_0 t).mp h)) (fun h => h1 ((b_hcond8_1 t).mp h))
        (iblk8 V c 0 t) (iblk8 V c 1 t) (iblk8 V c 2 t) (iblk8 V c 3 t) (iblk8 V c 4 t) (scr8 V c t.val (Nat.le_of_lt t.isLt)).1 (scr8 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation8 (c : Dev nD) : BodyObligation (dat8 (F := F) V c) (defs₀ (F := F)) Variants.none () Set.univ := fun t => by
  rw [bigSep_W8, bigSep_W8]
  exact b_sound_body8 V c t

/-- What the launch hands the region is the invariant before the first point. -/
theorem enter8 (c : Dev nD) : Pipeline.ΦA spec8 c ⊢ (dat8 V c).Φ 0 := by
  rw [show (dat8 V c).Φ 0 = b_PhiS8 V c 0 (Nat.zero_le _) from rfl, b_PhiS8_zero V c 0 _ rfl]
  try exact Idealize.SL.BI.Entails.refl _

/-- After the last point the invariant gives the class's back: the accumulators' named contents are forgotten. -/
theorem leave8 (c : Dev nD) : (dat8 V c).Φ (Fin.last cfg8.N) ⊢ Pipeline.ΦA spec8 c := by
  rw [show (dat8 V c).Φ (Fin.last cfg8.N) = b_PhiS8 V c (Fin.last cfg8.N).val (Nat.le_of_lt_succ (Fin.last cfg8.N).isLt) from rfl,
    b_PhiS8_pos V c _ _ (by rw [Fin.val_last]; have : cfg8.N = 5 := N_8; omega), b_PhiA8_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.KernelIdeal.Hand

end
-- ==== Proof.BodyA9.lean ====
/- The class-A half of region 9 of @main, the batch-normalisation kernel `cc9__bn_act_kernel`, at a PARAMETER `V` — the TensorCore's buffer contents when the
   region is entered —, generic in the float model: each window's block at a point (`iblk9`), the output buffer after
   the body as the canonical contents of its one whole-block store (`out9_5`), the body's triple (`sound_kernel9`),
   the proof data (`dat9`) and the body obligation (`body_obligation9`). The 5 inputs are read whole; inputs 1..4
   have a constant block index, so their buffers hold at every point the block fetched at the first. -/
import proofs.«172917_j75840532513057_2_alg».proof.Proof.Gen.KernelIdeal.Launch
import proofs.«172917_j75840532513057_2_alg».proof.Proof.Gen.KernelIdeal.Skeleton
import proofs.«172917_j75840532513057_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 9 of @main: the batch-normalisation kernel `cc9__bn_act_kernel` (pipeline 9), at the entry contents `V` -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The body's accesses: each staging buffer is read, and the output's stored, whole -/
abbrev r9_0 : Rect S10000x64 := Rect.unit (s := S10000x64) ![0, 0] S10000x64.size inb_S10000x64_S10000x64_0_0
abbrev r9_1 : Rect S1x64 := Rect.unit (s := S1x64) ![0, 0] S1x64.size inb_S1x64_S1x64_0_0
abbrev r9_2 : Rect S1x64 := Rect.unit (s := S1x64) ![0, 0] S1x64.size inb_S1x64_S1x64_0_0
abbrev r9_3 : Rect S1x64 := Rect.unit (s := S1x64) ![0, 0] S1x64.size inb_S1x64_S1x64_0_0
abbrev r9_4 : Rect S1x64 := Rect.unit (s := S1x64) ![0, 0] S1x64.size inb_S1x64_S1x64_0_0
abbrev r9_5 : Rect S10000x64 := Rect.unit (s := S10000x64) ![0, 0] S10000x64.size inb_S10000x64_S10000x64_0_0

/-- Window 5's staging buffer after the body, from the input windows' blocks: its one store, of the whole block. -/
def out9_5 (x0 : Vec F S10000x64 .f32) (x1 : Vec F S1x64 .f32) (x2 : Vec F S1x64 .f32) (x3 : Vec F S1x64 .f32) (x4 : Vec F S1x64 .f32) : Vec F S10000x64 .f32 :=
  View.canon [⟨r9_5, k9_pay1 (View.ld x0 r9_0) (View.ld x1 r9_1) (View.ld x2 r9_2) (View.ld x3 r9_3) (View.ld x4 r9_4)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof data
    whose array is `V`'s (`hA`) and whose body leaves the block in place (`hafter`): unfetched, the block index has
    not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof data
    whose array is `V`'s (`hA`) and whose body leaves the block in place (`hafter`): unfetched, the block index has
    not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof data
    whose array is `V`'s (`hA`) and whose body leaves the block in place (`hafter`): unfetched, the block index has
    not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof data
    whose array is `V`'s (`hA`) and whose body leaves the block in place (`hafter`): unfetched, the block index has
    not moved; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Its one store is of the whole buffer, so it covers it (checked by evaluation). -/
theorem cover9_5 (p0 : Vec F S10000x64 .f32) (y : S10000x64.Idx) :
    ∃ pc ∈ ([⟨r9_5, p0⟩] : List (View.Piece (Elt F) S10000x64 .f32)), y ∈ pc.1.set :=
  View.cover_of_tiled [⟨r9_5, p0⟩] S10000x64.size (by rfl) y

/-! ## The body's triple -/

set_option maxHeartbeats 1000000 in
/-- The kernel body on whole staging memrefs, the inputs' at read contents `xW` and the output's at anything, runs to
    the continuation holding the inputs' as they were and the output's at `out9_5` of the inputs': the printed function
    is its skeleton, which runs load by load (the output's buffer is loaded once, the value unused) to the one store. -/
theorem sound_kernel9 (c : Dev nD) (E : Set ℕ) (i : grid9.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__bn_act_kernel i arg1 harg1 arg2 harg2 arg3 harg3 arg4 harg4 arg5 harg5 arg6 harg6) K := by
  simp only [cc9__bn_act_kernel_eq_skeleton]; unfold cc9__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them (`V`); after the body at point `t`
    each input's buffer at its block and the output's at `out9_5` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Regions

end Cert.KernelIdeal.Hand
-- ==== Proof.RunW3.lean ====
/- The buffer contents at the boundaries W15..W21 of @main's items, at any float model: a fold from the launch memory
   (a host stretch's `StableHlo.after`; a region's arrays at what its write-backs leave, every other buffer as
   entered), the two facts per region the exit rule takes, and what each item keeps. -/
import proofs.«172917_j75840532513057_2_alg».proof.Proof.RunW2
import proofs.«172917_j75840532513057_2_alg».proof.Proof.BodyA7
import proofs.«172917_j75840532513057_2_alg».proof.Proof.BodyR8
import proofs.«172917_j75840532513057_2_alg».proof.Proof.BodyA9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- After `hostOps7` (region 7's entry). -/
abbrev W15 : Dev nD → Valuation τ sig (Elt F) := fun c => StableHlo.after hostOps7 (W14 m ρ c)
/-- The same read at the TensorCore's references (what region 7's proof data take). -/
abbrev WV15 : (c : Dev nD) → (b : Ref sig .tc) → Buf (Elt F) ((c : Thread nD τ).loc b) := fun c b => W15 m ρ c b
/-- At region 7's exit: its arrays at what the pipeline leaves (the inputs as entered, each output's write-backs
    folded), every other buffer as entered. -/
def W16 (c : Dev nD) : Valuation τ sig (Elt F) :=
  Pipeline.withArrays spec7 c (W15 m ρ c) fun w => (dat7 (WV15 m ρ) c).arrAt w cfg7.N
theorem W16_arr (c : Dev nD) (w : Fin cfg7.W) :
    W16 m ρ c (Proc.devRef .tc (Pipeline.arrRef spec7 w)) = (dat7 (WV15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev WV16 : (c : Dev nD) → (b : Ref sig .tc) → Buf (Elt F) ((c : Thread nD τ).loc b) := fun c b => W16 m ρ c b
/-- At region 7's exit each of its arrays holds what the pipeline leaves and every other buffer what it held at entry. -/
theorem hF7 (c : Dev nD) (w : Fin cfg7.W) : (dat7 (WV15 m ρ) c).arrAt w cfg7.N = WV16 m ρ c (Pipeline.arrRef spec7 w) :=
  (W16_arr m ρ c w).symm
theorem hrest7 (c : Dev nD) : ∀ b, b ∉ Finset.univ.image (Pipeline.arrRef spec7) → WV16 m ρ c b = WV15 m ρ c b :=
  fun b hb => W16_of_ne m ρ c b fun w e => hb (Finset.mem_image.mpr ⟨w, Finset.mem_univ _, e⟩)

/-- After `hostOps8` (region 8's entry). -/
abbrev W17 : Dev nD → Valuation τ sig (Elt F) := fun c => StableHlo.after hostOps8 (W16 m ρ c)
/-- The same read at the TensorCore's references (what region 8's proof data take). -/
abbrev WV17 : (c : Dev nD) → (b : Ref sig .tc) → Buf (Elt F) ((c : Thread nD τ).loc b) := fun c b => W17 m ρ c b
/-- At region 8's exit: its arrays at what the pipeline leaves (the inputs as entered, each output's write-backs
    folded), every other buffer as entered. -/
def W18 (c : Dev nD) : Valuation τ sig (Elt F) :=
  Pipeline.withArrays spec8 c (W17 m ρ c) fun w => (dat8 (WV17 m ρ) c).arrAt w cfg8.N
theorem W18_arr (c : Dev nD) (w : Fin cfg8.W) :
    W18 m ρ c (Proc.devRef .tc (Pipeline.arrRef spec8 w)) = (dat8 (WV17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev WV18 : (c : Dev nD) → (b : Ref sig .tc) → Buf (Elt F) ((c : Thread nD τ).loc b) := fun c b => W18 m ρ c b
/-- At region 8's exit each of its arrays holds what the pipeline leaves and every other buffer what it held at entry. -/
theorem hF8 (c : Dev nD) (w : Fin cfg8.W) : (dat8 (WV17 m ρ) c).arrAt w cfg8.N = WV18 m ρ c (Pipeline.arrRef spec8 w) :=
  (W18_arr m ρ c w).symm
theorem hrest8 (c : Dev nD) : ∀ b, b ∉ Finset.univ.image (Pipeline.arrRef spec8) → WV18 m ρ c b = WV17 m ρ c b :=
  fun b hb => W18_of_ne m ρ c b fun w e => hb (Finset.mem_image.mpr ⟨w, Finset.mem_univ _, e⟩)

/-- After `hostOps9` (region 9's entry). -/
abbrev W19 : Dev nD → Valuation τ sig (Elt F) := fun c => StableHlo.after hostOps9 (W18 m ρ c)
/-- The same read at the TensorCore's references (what region 9's proof data take). -/
abbrev WV19 : (c : Dev nD) → (b : Ref sig .tc) → Buf (Elt F) ((c : Thread nD τ).loc b) := fun c b => W19 m ρ c b
/-- At region 9's exit: its arrays at what the pipeline leaves (the inputs as entered, each output's write-backs
    folded), every other buffer as entered. -/
def W20 (c : Dev nD) : Valuation τ sig (Elt F) :=
  Pipeline.withArrays spec9 c (W19 m ρ c) fun w => (dat9 (WV19 m ρ) c).arrAt w cfg9.N
theorem W20_arr (c : Dev nD) (w : Fin cfg9.W) :
    W20 m ρ c (Proc.devRef .tc (Pipeline.arrRef spec9 w)) = (dat9 (WV19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev WV20 : (c : Dev nD) → (b : Ref sig .tc) → Buf (Elt F) ((c : Thread nD τ).loc b) := fun c b => W20 m ρ c b
/-- At region 9's exit each of its arrays holds what the pipeline leaves and every other buffer what it held at entry. -/
theorem hF9 (c : Dev nD) (w : Fin cfg9.W) : (dat9 (WV19 m ρ) c).arrAt w cfg9.N = WV20 m ρ c (Pipeline.arrRef spec9 w) :=
  (W20_arr m ρ c w).symm
theorem hrest9 (c : Dev nD) : ∀ b, b ∉ Finset.univ.image (Pipeline.arrRef spec9) → WV20 m ρ c b = WV19 m ρ c b :=
  fun b hb => W20_of_ne m ρ c b fun w e => hb (Finset.mem_image.mpr ⟨w, Finset.mem_univ _, e⟩)

/-- After `hostOps10` (the return). -/
abbrev W21 : Dev nD → Valuation τ sig (Elt F) := fun c => StableHlo.after hostOps10 (W20 m ρ c)

/-! ## What each item keeps: a buffer a host stretch does not write, an input array of a region (a buffer that is no
    array of a region: `W_of_ne` above) -/

/-- `hostOps7` keeps every buffer outside the list of those it writes. -/
theorem W15_keep (c : Dev nD) (r : Ref sig .tc) (h : r ∉ hostOps7_W) :
    W15 m ρ c (Proc.devRef .tc r) = W14 m ρ c (Proc.devRef .tc r) :=
  StableHlo.after_of_writes_sub hostOps7 _ hostOps7_writes h
/-- Region 7 keeps each of its input arrays. -/
theorem W16_in (c : Dev nD) (w : Fin cfg7.W) (hin : (cfg7.win w).isOut = false) :
    W16 m ρ c (Proc.devRef .tc (Pipeline.arrRef spec7 w)) = W15 m ρ c (Proc.devRef .tc (Pipeline.arrRef spec7 w)) :=
  (W16_arr m ρ c w).trans (((dat7 (WV15 m ρ) c).arrAt_in w hin _).trans (A_eq7 (WV15 m ρ) c w))

/-- `hostOps8` keeps every buffer outside the list of those it writes. -/
theorem W17_keep (c : Dev nD) (r : Ref sig .tc) (h : r ∉ hostOps8_W) :
    W17 m ρ c (Proc.devRef .tc r) = W16 m ρ c (Proc.devRef .tc r) :=
  StableHlo.after_of_writes_sub hostOps8 _ hostOps8_writes h
/-- Region 8 keeps each of its input arrays. -/
theorem W18_in (c : Dev nD) (w : Fin cfg8.W) (hin : (cfg8.win w).isOut = false) :
    W18 m ρ c (Proc.devRef .tc (Pipeline.arrRef spec8 w)) = W17 m ρ c (Proc.devRef .tc (Pipeline.arrRef spec8 w)) :=
  (W18_arr m ρ c w).trans (((dat8 (WV17 m ρ) c).arrAt_in w hin _).trans (A_eq8 (WV17 m ρ) c w))

/-- `hostOps9` keeps every buffer outside the list of those it writes. -/
theorem W19_keep (c : Dev nD) (r : Ref sig .tc) (h : r ∉ hostOps9_W) :
    W19 m ρ c (Proc.devRef .tc r) = W18 m ρ c (Proc.devRef .tc r) :=
  StableHlo.after_of_writes_sub hostOps9 _ hostOps9_writes h
/-- Region 9 keeps each of its input arrays. -/
theorem W20_in (c : Dev nD) (w : Fin cfg9.W) (hin : (cfg9.win w).isOut = false) :
    W20 m ρ c (Proc.devRef .tc (Pipeline.arrRef spec9 w)) = W19 m ρ c (Proc.devRef .tc (Pipeline.arrRef spec9 w)) :=
  (W20_arr m ρ c w).trans (((dat9 (WV19 m ρ) c).arrAt_in w hin _).trans (A_eq9 (WV19 m ρ) c w))

/-- `hostOps10` keeps every buffer outside the list of those it writes. -/
theorem W21_keep (c : Dev nD) (r : Ref sig .tc) (h : r ∉ hostOps10_W) :
    W21 m ρ c (Proc.devRef .tc r) = W20 m ρ c (Proc.devRef .tc r) :=
  StableHlo.after_of_writes_sub hostOps10 _ hostOps10_writes h

end Cert.KernelIdeal.Hand

end
-- ==== Proof.Spec.lean ====
/-
  The mathematics both programs compute, stated once over curried arrays of extended reals
  (`Fin M → Fin N → EReal`), free of any program's shapes or buffers.

  One message-passing layer takes node features `h : N × 64` and computes
    e    = ea · eW + eb                                  (an affine map of the edge attributes, row by row)
    agg  = the scatter-add over destination nodes of (h gathered at source nodes) + e   (shared host operations)
    h2   = max(agg · W1 + b1, 0) · W2 + b2               (a two-layer perceptron, row by row)
    mean = (Σ_i h2 i j) / c,   var = the biased variance of column j,
    out  = (h2 − mean) · (var + ε)^(-1/2) · γ + β,  followed by ELU on all but the last layer.
  The two programs differ only in how the variance is spelt: one as the mean of squared deviations,
  the other as max(E[x²] − E[x]², 0); over real numbers, with c the number of rows, these agree.
-/
import Idealize.ShloMosaic.PureOps.Ideal
import Idealize.ShloMosaic.Lib.ValueIdx

noncomputable section

open scoped BigOperators

namespace Cert.Spec

open Idealize.ShloMosaic Idealize.ShloMosaic.ValueIdx

/-- An extended real that is a real number (neither infinity). -/
def IsReal (x : EReal) : Prop := ∃ r : ℝ, x = (r : EReal)

/-- Every entry of a matrix is a real number. -/
def IsReal2 {M N : Nat} (f : Fin M → Fin N → EReal) : Prop := ∀ i j, IsReal (f i j)

/-- Every entry of a row is a real number. -/
def IsReal1 {N : Nat} (f : Fin N → EReal) : Prop := ∀ j, IsReal (f j)

/-! ## Arrays over a literal rank-2 shape, curried and back -/

/-- A rank-2 array read by its two coordinates. -/
def ofVec2 {M N : Nat} (x : (⟨2, ![M, N]⟩ : Shape).Idx → EReal) : Fin M → Fin N → EReal := fun i j => x (ix2 i j)
/-- The rank-2 array of a function of two coordinates. -/
def toVec2 {M N : Nat} (f : Fin M → Fin N → EReal) : (⟨2, ![M, N]⟩ : Shape).Idx → EReal := fun y => f (y 0) (y 1)
/-- The one row of a 1 × N array. -/
def ofRow {N : Nat} (x : (⟨2, ![1, N]⟩ : Shape).Idx → EReal) : Fin N → EReal := fun j => x (ix2 0 j)
/-- The 1 × N array of a row. -/
def toRow {N : Nat} (f : Fin N → EReal) : (⟨2, ![1, N]⟩ : Shape).Idx → EReal := fun y => f (y 1)
/-- A rank-1 array read by its coordinate. -/
def ofVec1 {N : Nat} (x : (⟨1, ![N]⟩ : Shape).Idx → EReal) : Fin N → EReal := fun j => x (ix1 j)
/-- The rank-1 array of a row. -/
def toVec1 {N : Nat} (f : Fin N → EReal) : (⟨1, ![N]⟩ : Shape).Idx → EReal := fun y => f (y 0)

theorem ofVec2_toVec2 {M N : Nat} (f : Fin M → Fin N → EReal) : ofVec2 (toVec2 f) = f := rfl
theorem toVec2_ofVec2 {M N : Nat} (x : (⟨2, ![M, N]⟩ : Shape).Idx → EReal) : toVec2 (ofVec2 x) = x := by
  funext y; exact congrArg x (eq_ix2 y).symm
theorem ofRow_toRow {N : Nat} (f : Fin N → EReal) : ofRow (toRow f) = f := rfl

/-! ## The stages -/

section
variable {M K N : Nat}

/-- An affine map applied to every row: `(a · w) i j + b j`. -/
def lin (a : Fin M → Fin K → EReal) (w : Fin K → Fin N → EReal) (b : Fin N → EReal) : Fin M → Fin N → EReal :=
  fun i j => (∑ k, a i k * w k j) + b j

/-- The two-layer perceptron applied to every row: `max(a · w1 + b1, 0) · w2 + b2`. -/
def mlp {H : Nat} (a : Fin M → Fin K → EReal) (w1 : Fin K → Fin H → EReal) (b1 : Fin H → EReal)
    (w2 : Fin H → Fin N → EReal) (b2 : Fin N → EReal) : Fin M → Fin N → EReal :=
  lin (fun i k => max (lin a w1 b1 i k) 0) w2 b2

/-- The sum of each column. -/
def colsum (h : Fin M → Fin N → EReal) : Fin N → EReal := fun j => ∑ i, h i j
/-- The sum of the squares of each column. -/
def colsumsq (h : Fin M → Fin N → EReal) : Fin N → EReal := fun j => ∑ i, h i j * h i j

/-- A column statistic divided by the row count `c`, as both programs divide (`Ideal.div`). -/
def over (c : EReal) (s : Fin N → EReal) : Fin N → EReal := fun j => Ideal.div (s j) c

/-- The variance from the two running sums: `max(E[x²] − E[x]², 0)`. -/
def varOfSums (c : EReal) (s ss : Fin N → EReal) : Fin N → EReal :=
  fun j => max (over c ss j - over c s j * over c s j) 0

/-- The variance as the mean of the squared deviations from the mean. -/
def varOfDev (c : EReal) (h : Fin M → Fin N → EReal) : Fin N → EReal :=
  over c (fun j => ∑ i, (h i j - over c (colsum h) j) * (h i j - over c (colsum h) j))

/-- The normalisation of every entry by its column's mean and variance, scaled and shifted:
    `(h − mean) · (var + ε)^(-1/2) · γ + β`, in that order of operations. -/
def norm (eps : EReal) (h : Fin M → Fin N → EReal) (mean var gamma beta : Fin N → EReal) : Fin M → Fin N → EReal :=
  fun i j => (h i j - mean j) * Ideal.rsqrt (var j + eps) * gamma j + beta j

/-- ELU with the exponential's argument clamped at zero: `x` for `x > 0`, else `exp(min(x, 0)) − 1`. -/
def eluMin (x : EReal) : EReal := if 0 < x then x else Ideal.exp (min x 0) - 1
/-- ELU with the exponential's argument selected: `x` for `x > 0`, else `exp(x') − 1` at `x' = 0` for `x > 0`, else `x`. -/
def eluSel (x : EReal) : EReal := if 0 < x then x else Ideal.exp (if 0 < x then 0 else x) - 1

/-- The two ELU spellings are one function: where `x ≤ 0` both exponentials are taken at `x`. -/
theorem eluMin_eq_eluSel (x : EReal) : eluMin x = eluSel x := by
  unfold eluMin eluSel
  by_cases h : 0 < x
  · rw [if_pos h, if_pos h]
  · rw [if_neg h, if_neg h, if_neg h, min_eq_left (not_lt.mp h)]

/-- Batch normalisation as the kernel program computes it: statistics from the two column sums. -/
def bnOfSums (c eps : EReal) (h : Fin M → Fin N → EReal) (s ss gamma beta : Fin N → EReal) : Fin M → Fin N → EReal :=
  norm eps h (over c s) (varOfSums c s ss) gamma beta

/-- Batch normalisation as the reference computes it: the mean, then the mean squared deviation. -/
def bnOfDev (c eps : EReal) (h : Fin M → Fin N → EReal) (gamma beta : Fin N → EReal) : Fin M → Fin N → EReal :=
  norm eps h (over c (colsum h)) (varOfDev c h) gamma beta

end

end Cert.Spec

end
-- ==== Proof.PayA.lean ====
/-
  The class-A payloads read at an index, at the ideal values: the affine maps' payloads are
  `Spec.lin` of their three operands, and the batch-norm payloads are `Spec.norm` of theirs
  (followed by `Spec.eluMin` in all but the last layer), entry by entry.
-/
import proofs.«172917_j75840532513057_2_alg».proof.Proof.Gen.KernelIdeal.Skeleton
import proofs.«172917_j75840532513057_2_alg».proof.Proof.Spec
import Idealize.ShloMosaic.Lib.ValueLayout
import Idealize.ShloMosaic.PureOps.Ideal.Laws
import Idealize.ShloMosaic.PureOps.IdealRules

noncomputable section

open scoped BigOperators

namespace Cert.KernelIdeal.Hand

open Idealize.ShloMosaic Idealize.ShloMosaic.ValueIdx
open Cert.KernelIdeal Cert.KernelIdeal.Gen

/-! ## The literals -/

/-- The word `0x3F800000` denotes one. -/
theorem g_ofBits_one : Ideal.ofBits .f32 0x3F800000#32 = 1 := IdealRules.sign_bit.ideal_onePat .f32

/-! ## A product of a matrix by a matrix, contracted over one axis, at an index -/

/-- The 10000 × 7 by 7 × 64 product into the zero accumulator, at `(p, q)`, is `∑ k, a (p, k) * w (k, q)`. -/
theorem g_matmul7_at (a : FVec Ideal S10000x7 .bf16) (w : FVec Ideal S7x64 .bf16) (p : Fin 10000) (q : Fin 64) :
    matmul dot_S10000x7_S7x64_S10000x64_1_0_0_1_n_n none a w (constant (F := Ideal) S10000x64 .f32 0x00000000#32) (ix2 p q)
      = ∑ k : Fin 7, a (ix2 p k) * w (ix2 k q) := by
  refine (Ideal.matmul_constant_zero_apply dot_S10000x7_S7x64_S10000x64_1_0_0_1_n_n none a w (ix2 p q)).trans ?_
  rw [← Equiv.sum_comp (contrEquiv1 dot_S10000x7_S7x64_S10000x64_1_0_0_1_n_n 7 rfl rfl).symm]
  refine Finset.sum_congr rfl fun k _ => ?_
  have c2 := contrEquiv1_symm_val dot_S10000x7_S7x64_S10000x64_1_0_0_1_n_n 7 rfl rfl k
  have l2 : dot_S10000x7_S7x64_S10000x64_1_0_0_1_n_n.lhsIdx (ix2 p q)
      ((contrEquiv1 dot_S10000x7_S7x64_S10000x64_1_0_0_1_n_n 7 rfl rfl).symm k) = ix2 p k := by
    funext ax; apply Fin.ext
    match ax with
    | ⟨0, _⟩ => simp [DotDims.lhsIdx, dot_S10000x7_S7x64_S10000x64_1_0_0_1_n_n]; rfl
    | ⟨1, _⟩ =>
      exact (dot_S10000x7_S7x64_S10000x64_1_0_0_1_n_n.lhsIdx_val_of_single (cl := 1) rfl (ix2 p q) _).trans c2
  have r2 : dot_S10000x7_S7x64_S10000x64_1_0_0_1_n_n.rhsIdx (ix2 p q)
      ((contrEquiv1 dot_S10000x7_S7x64_S10000x64_1_0_0_1_n_n 7 rfl rfl).symm k) = ix2 k q := by
    funext ax; apply Fin.ext
    match ax with
    | ⟨0, _⟩ =>
      exact (dot_S10000x7_S7x64_S10000x64_1_0_0_1_n_n.rhsIdx_val_of_single (cr := 0) rfl (ix2 p q) _).trans c2
    | ⟨1, _⟩ => simp [DotDims.rhsIdx, dot_S10000x7_S7x64_S10000x64_1_0_0_1_n_n]; rfl
  rw [l2, r2]

/-- The 10000 × 5 by 5 × 64 product into the zero accumulator, at `(p, q)`, is `∑ k, a (p, k) * w (k, q)`. -/
theorem g_matmul5_at (a : FVec Ideal S10000x5 .bf16) (w : FVec Ideal S5x64 .bf16) (p : Fin 10000) (q : Fin 64) :
    matmul dot_S10000x5_S5x64_S10000x64_1_0_0_1_n_n none a w (constant (F := Ideal) S10000x64 .f32 0x00000000#32) (ix2 p q)
      = ∑ k : Fin 5, a (ix2 p k) * w (ix2 k q) := by
  refine (Ideal.matmul_constant_zero_apply dot_S10000x5_S5x64_S10000x64_1_0_0_1_n_n none a w (ix2 p q)).trans ?_
  rw [← Equiv.sum_comp (contrEquiv1 dot_S10000x5_S5x64_S10000x64_1_0_0_1_n_n 5 rfl rfl).symm]
  refine Finset.sum_congr rfl fun k _ => ?_
  have c2 := contrEquiv1_symm_val dot_S10000x5_S5x64_S10000x64_1_0_0_1_n_n 5 rfl rfl k
  have l2 : dot_S10000x5_S5x64_S10000x64_1_0_0_1_n_n.lhsIdx (ix2 p q)
      ((contrEquiv1 dot_S10000x5_S5x64_S10000x64_1_0_0_1_n_n 5 rfl rfl).symm k) = ix2 p k := by
    funext ax; apply Fin.ext
    match ax with
    | ⟨0, _⟩ => simp [DotDims.lhsIdx, dot_S10000x5_S5x64_S10000x64_1_0_0_1_n_n]; rfl
    | ⟨1, _⟩ =>
      exact (dot_S10000x5_S5x64_S10000x64_1_0_0_1_n_n.lhsIdx_val_of_single (cl := 1) rfl (ix2 p q) _).trans c2
  have r2 : dot_S10000x5_S5x64_S10000x64_1_0_0_1_n_n.rhsIdx (ix2 p q)
      ((contrEquiv1 dot_S10000x5_S5x64_S10000x64_1_0_0_1_n_n 5 rfl rfl).symm k) = ix2 k q := by
    funext ax; apply Fin.ext
    match ax with
    | ⟨0, _⟩ =>
      exact (dot_S10000x5_S5x64_S10000x64_1_0_0_1_n_n.rhsIdx_val_of_single (cr := 0) rfl (ix2 p q) _).trans c2
    | ⟨1, _⟩ => simp [DotDims.rhsIdx, dot_S10000x5_S5x64_S10000x64_1_0_0_1_n_n]; rfl
  rw [l2, r2]

/-! ## One row laid along every row -/

/-- A 1 × 64 row, cast to its own shape and broadcast over 10000 rows, reads at `(p, q)` the row's entry `q`. -/
theorem g_row_at (b : Vec Ideal S1x64 .f32) (p : Fin 10000) (q : Fin 64) :
    broadcastTo S10000x64 (shapeCast S1x64 b shapeCasts_S1x64_S1x64) broadcasts_S1x64_S10000x64 (ix2 p q)
      = b (ix2 (0 : Fin 1) q) := by
  rw [shapeCast_self]
  exact broadcastTo_1b_ab_apply b broadcasts_S1x64_S10000x64 p q

/-! ## The affine maps -/

/-- Region 0's payload at `(p, q)`: `(x · w) p q + b q`. -/
theorem lin0_at (x : Vec Ideal S10000x7 .f32) (w : Vec Ideal S7x64 .f32) (b : Vec Ideal S1x64 .f32)
    (p : Fin 10000) (q : Fin 64) :
    k0_pay1 (F := Ideal) x w b (ix2 p q)
      = Cert.Spec.lin (Cert.Spec.ofVec2 x) (Cert.Spec.ofVec2 w) (Cert.Spec.ofRow b) p q := by
  unfold k0_pay1
  refine (addf_apply _ _ (ix2 p q)).trans ?_
  exact congrArg₂ (· + ·)
    (g_matmul7_at (truncf .bf16 x bitsLt_bf16_f32) (truncf .bf16 w bitsLt_bf16_f32) p q)
    (g_row_at b p q)

/-- Regions 1, 4 and 7's payload at `(p, q)`: `(x · w) p q + b q`. -/
theorem lin1_at (x : Vec Ideal S10000x5 .f32) (w : Vec Ideal S5x64 .f32) (b : Vec Ideal S1x64 .f32)
    (p : Fin 10000) (q : Fin 64) :
    k1_pay1 (F := Ideal) x w b (ix2 p q)
      = Cert.Spec.lin (Cert.Spec.ofVec2 x) (Cert.Spec.ofVec2 w) (Cert.Spec.ofRow b) p q := by
  unfold k1_pay1
  refine (addf_apply _ _ (ix2 p q)).trans ?_
  refine congrArg₂ (· + ·) ?_ (g_row_at b p q)
  rw [shapeCast_self, shapeCast_self]
  exact g_matmul5_at (truncf .bf16 x bitsLt_bf16_f32) (truncf .bf16 w bitsLt_bf16_f32) p q

/-- Regions 4 and 7 have region 1's payload. -/
theorem k4_pay1_eq : @k4_pay1 = @k1_pay1 := rfl
theorem k7_pay1_eq : @k7_pay1 = @k1_pay1 := rfl

/-! ## The batch normalisations -/

/-- The normalisation shared by the three batch-norm payloads, at `(p, q)`. -/
theorem g_norm_at (h : Vec Ideal S10000x64 .f32) (mean var gamma beta : Vec Ideal S1x64 .f32)
    (p : Fin 10000) (q : Fin 64) :
    k9_pay1 (F := Ideal) h mean var gamma beta (ix2 p q)
      = Cert.Spec.norm (Ideal.ofBits .f32 0x3727C5AC#32) (Cert.Spec.ofVec2 h) (Cert.Spec.ofRow mean)
          (Cert.Spec.ofRow var) (Cert.Spec.ofRow gamma) (Cert.Spec.ofRow beta) p q := by
  unfold k9_pay1
  simp only [shapeCast_self]
  show (h (ix2 p q) - broadcastTo S10000x64 mean broadcasts_S1x64_S10000x64 (ix2 p q))
        * broadcastTo S10000x64 (rsqrt (addf var (broadcast S1x64 (Scalar.ofBits (F := Ideal) .f32 0x3727C5AC#32))))
            broadcasts_S1x64_S10000x64 (ix2 p q)
        * broadcastTo S10000x64 gamma broadcasts_S1x64_S10000x64 (ix2 p q)
        + broadcastTo S10000x64 beta broadcasts_S1x64_S10000x64 (ix2 p q) = _
  rw [broadcastTo_1b_ab_apply mean, broadcastTo_1b_ab_apply gamma, broadcastTo_1b_ab_apply beta,
    broadcastTo_1b_ab_apply (rsqrt (addf var (broadcast S1x64 (Scalar.ofBits (F := Ideal) .f32 0x3727C5AC#32))))]
  rfl

/-- Region 9's payload at `(p, q)`: the normalisation, no activation. -/
theorem bn9_at (h : Vec Ideal S10000x64 .f32) (mean var gamma beta : Vec Ideal S1x64 .f32)
    (p : Fin 10000) (q : Fin 64) :
    k9_pay1 (F := Ideal) h mean var gamma beta (ix2 p q)
      = Cert.Spec.norm (Ideal.ofBits .f32 0x3727C5AC#32) (Cert.Spec.ofVec2 h) (Cert.Spec.ofRow mean)
          (Cert.Spec.ofRow var) (Cert.Spec.ofRow gamma) (Cert.Spec.ofRow beta) p q :=
  g_norm_at h mean var gamma beta p q

/-- The activation at one element: the selected form is `Spec.eluMin`. -/
theorem g_elu_at (x : EReal) :
    Scalar.select (FloatOps.cmpf (F := Ideal) (φ := .f32) .ogt x (Scalar.ofBits (F := Ideal) .f32 0x00000000#32)) x
        (Ideal.exp (min x (Scalar.ofBits (F := Ideal) .f32 0x00000000#32)) - Scalar.ofBits (F := Ideal) .f32 0x3F800000#32)
      = Cert.Spec.eluMin x := by
  have h0 : Scalar.ofBits (F := Ideal) .f32 0x00000000#32 = (0 : EReal) := Ideal.ofBits_zero_f32
  have h1 : Scalar.ofBits (F := Ideal) .f32 0x3F800000#32 = (1 : EReal) := g_ofBits_one
  rw [h0, h1]
  unfold Cert.Spec.eluMin
  show Scalar.select (Ideal.cmp .ogt x 0) x (Ideal.exp (min x 0) - 1) = _
  by_cases hx : (0 : EReal) < x
  · have : Ideal.cmp .ogt x 0 = 1#1 := by simp [Ideal.cmp, hx]
    rw [this, select_one, if_pos hx]
  · have : Ideal.cmp .ogt x 0 = 0#1 := by simp [Ideal.cmp, hx]
    rw [this, select_zero, if_neg hx]

/-- Region 3's payload is region 9's followed by the activation. -/
theorem g_k3_eq (h : Vec Ideal S10000x64 .f32) (mean var gamma beta : Vec Ideal S1x64 .f32) (i : S10000x64.Idx) :
    k3_pay1 (F := Ideal) h mean var gamma beta i
      = Scalar.select (FloatOps.cmpf (F := Ideal) (φ := .f32) .ogt (k9_pay1 (F := Ideal) h mean var gamma beta i)
            (Scalar.ofBits (F := Ideal) .f32 0x00000000#32))
          (k9_pay1 (F := Ideal) h mean var gamma beta i)
          (Ideal.exp (min (k9_pay1 (F := Ideal) h mean var gamma beta i) (Scalar.ofBits (F := Ideal) .f32 0x00000000#32))
            - Scalar.ofBits (F := Ideal) .f32 0x3F800000#32) := rfl

/-- Region 3's payload at `(p, q)`: the normalisation, then the activation. -/
theorem bn3_at (h : Vec Ideal S10000x64 .f32) (mean var gamma beta : Vec Ideal S1x64 .f32)
    (p : Fin 10000) (q : Fin 64) :
    k3_pay1 (F := Ideal) h mean var gamma beta (ix2 p q)
      = Cert.Spec.eluMin (Cert.Spec.norm (Ideal.ofBits .f32 0x3727C5AC#32) (Cert.Spec.ofVec2 h) (Cert.Spec.ofRow mean)
          (Cert.Spec.ofRow var) (Cert.Spec.ofRow gamma) (Cert.Spec.ofRow beta) p q) := by
  refine (g_k3_eq h mean var gamma beta (ix2 p q)).trans ?_
  refine (g_elu_at _).trans ?_
  exact congrArg Cert.Spec.eluMin (g_norm_at h mean var gamma beta p q)

/-- Region 6 has region 3's payload. -/
theorem k6_pay1_eq : @k6_pay1 = @k3_pay1 := rfl

end Cert.KernelIdeal.Hand

end
-- ==== Proof.ValA0.lean ====
/-
  The value of region 0 at the ideal values: after the region, its output array is the affine map
  `Spec.lin` of its three operand arrays as the region finds them, entry by entry. Each grid point
  writes back rows `10000 t … 10000 t + 9999` of that function (its payload at an index, read through
  the blocks of the 50000 × 7 operand and the two whole operands), and those row blocks cover the array.
-/
import proofs.«172917_j75840532513057_2_alg».proof.Proof.BodyA0
import proofs.«172917_j75840532513057_2_alg».proof.Proof.PayA
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window BodyObligation cellOf)

/-! ## The affine map of blocks is the affine map of the arrays -/

/-- The affine map of three blocks at `(p, q)` is the affine map of the whole arrays at `i`, when the blocks'
    entries that row `p` and column `q` read are the arrays' entries that row `i 0` and column `i 1` read. -/
theorem g_lin_blk0 (X0 : S10000x7.Idx → EReal) (X1 : S7x64.Idx → EReal) (X2 : S1x64.Idx → EReal)
    (A : S50000x7.Idx → EReal) (W : S7x64.Idx → EReal) (B : S1x64.Idx → EReal)
    (p : Fin 10000) (q : Fin 64) (i : S50000x64.Idx)
    (h0 : ∀ k : Fin 7, X0 (ix2 p k) = A (ix2 (i 0 : Fin 50000) k))
    (h1 : ∀ k : Fin 7, X1 (ix2 k q) = W (ix2 k (i 1 : Fin 64)))
    (h2 : X2 (ix2 (0 : Fin 1) q) = B (ix2 (0 : Fin 1) (i 1 : Fin 64))) :
    Cert.Spec.lin (Cert.Spec.ofVec2 X0) (Cert.Spec.ofVec2 X1) (Cert.Spec.ofRow X2) p q
      = Cert.Spec.toVec2 (Cert.Spec.lin (Cert.Spec.ofVec2 A) (Cert.Spec.ofVec2 W) (Cert.Spec.ofRow B)) i := by
  show (∑ k : Fin 7, X0 (ix2 p k) * X1 (ix2 k q)) + X2 (ix2 (0 : Fin 1) q)
      = (∑ k : Fin 7, A (ix2 (i 0 : Fin 50000) k) * W (ix2 k (i 1 : Fin 64))) + B (ix2 (0 : Fin 1) (i 1 : Fin 64))
  rw [h2]
  exact congrArg (· + B (ix2 (0 : Fin 1) (i 1 : Fin 64))) (Finset.sum_congr rfl fun k _ => by rw [h0 k, h1 k])

section Val
variable (V : (c : Dev nD) → (b : Ref sig .tc) → Buf (Elt Ideal) ((c : Thread nD τ).loc b))

theorem g_hz0 : (![0, 0] : Fin 2 → Nat) = fun _ => 0 := funext fun a => by fin_cases a <;> rfl

/-- Region 0's output array as one function of its three operand arrays. -/
def g_G0 (c : Dev nD) : S50000x64.Idx → EReal :=
  Cert.Spec.toVec2 (Cert.Spec.lin
    (Cert.Spec.ofVec2 (V c (Pipeline.arrRef spec0 0) : S50000x7.Idx → EReal))
    (Cert.Spec.ofVec2 (V c (Pipeline.arrRef spec0 1) : S7x64.Idx → EReal))
    (Cert.Spec.ofRow (V c (Pipeline.arrRef spec0 2) : S1x64.Idx → EReal)))

/-- The block index maps over the grid: windows 0 and 3 step by rows, windows 1 and 2 stay. -/
theorem g_idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 400000 in
/-- Window 0's block at point `t` is rows `10000 t …` of its array. -/
theorem g_blk0_0 (c : Dev nD) (t : Fin cfg0.N) (x : S10000x7.Idx) (k : S50000x7.Idx)
    (hk0 : (k 0).val = 10000 * t.val + (x 0).val) (hk1 : (k 1).val = (x 1).val) :
    (iblk0 V c 0 t : Vec Ideal S10000x7 .f32) x = (V c (Pipeline.arrRef spec0 0) : S50000x7.Idx → EReal) k := by
  obtain ⟨e0, e1, -⟩ := g_idx0 t
  unfold iblk0
  rw [View.read_apply]
  refine congrArg (V c (Pipeline.arrRef spec0 0) : S50000x7.Idx → EReal) ?_
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 7 + 1 * (x 1).val = (k 1).val; rw [e1, hk1]; omega

set_option maxHeartbeats 400000 in
/-- Window 1's block at every point is its whole array. -/
theorem g_blk0_1 (c : Dev nD) (t : Fin cfg0.N) (x k : S7x64.Idx)
    (hk0 : (k 0).val = (x 0).val) (hk1 : (k 1).val = (x 1).val) :
    (iblk0 V c 1 t : Vec Ideal S7x64 .f32) x = (V c (Pipeline.arrRef spec0 1) : S7x64.Idx → EReal) k := by
  obtain ⟨-, -, e2, e3, -⟩ := g_idx0 t
  unfold iblk0
  rw [View.read_apply]
  refine congrArg (V c (Pipeline.arrRef spec0 1) : S7x64.Idx → EReal) ?_
  funext a
  apply Fin.ext
  match a with
  | ⟨0, _⟩ => show win0_1.index t (0 : Fin 2) * 7 + 1 * (x 0).val = (k 0).val; rw [e2, hk0]; omega
  | ⟨1, _⟩ => show win0_1.index t (1 : Fin 2) * 64 + 1 * (x 1).val = (k 1).val; rw [e3, hk1]; omega

set_option maxHeartbeats 400000 in
/-- Window 2's block at every point is its whole array. -/
theorem g_blk0_2 (c : Dev nD) (t : Fin cfg0.N) (x k : S1x64.Idx)
    (hk0 : (k 0).val = (x 0).val) (hk1 : (k 1).val = (x 1).val) :
    (iblk0 V c 2 t : Vec Ideal S1x64 .f32) x = (V c (Pipeline.arrRef spec0 2) : S1x64.Idx → EReal) k := by
  obtain ⟨-, -, -, -, e4, e5, -⟩ := g_idx0 t
  unfold iblk0
  rw [View.read_apply]
  refine congrArg (V c (Pipeline.arrRef spec0 2) : S1x64.Idx → EReal) ?_
  funext a
  apply Fin.ext
  match a with
  | ⟨0, _⟩ => show win0_2.index t (0 : Fin 2) * 1 + 1 * (x 0).val = (k 0).val; rw [e4, hk0]; omega
  | ⟨1, _⟩ => show win0_2.index t (1 : Fin 2) * 64 + 1 * (x 1).val = (k 1).val; rw [e5, hk1]; omega

set_option maxHeartbeats 400000 in
/-- The payload of point `t`'s blocks at `(p, q)` is the output function at row `10000 t + p`, column `q`. -/
theorem g_pt0 (c : Dev nD) (t : Fin cfg0.N) (p : Fin 10000) (q : Fin 64) (i : S50000x64.Idx)
    (hi0 : (i 0).val = 10000 * t.val + p.val) (hi1 : (i 1).val = q.val) :
    k0_pay1 (F := Ideal) (iblk0 V c 0 t) (iblk0 V c 1 t) (iblk0 V c 2 t) (ix2 p q) = g_G0 V c i := by
  refine (lin0_at (iblk0 V c 0 t) (iblk0 V c 1 t) (iblk0 V c 2 t) p q).trans ?_
  exact g_lin_blk0 (iblk0 V c 0 t) (iblk0 V c 1 t) (iblk0 V c 2 t)
    (V c (Pipeline.arrRef spec0 0)) (V c (Pipeline.arrRef spec0 1)) (V c (Pipeline.arrRef spec0 2)) p q i
    (fun k => g_blk0_0 V c t (ix2 p k) (ix2 (i 0 : Fin 50000) k) hi0 rfl)
    (fun k => g_blk0_1 V c t (ix2 k q) (ix2 k (i 1 : Fin 64)) rfl hi1)
    (g_blk0_2 V c t (ix2 (0 : Fin 1) q) (ix2 (0 : Fin 1) (i 1 : Fin 64)) rfl hi1)

set_option maxHeartbeats 400000 in
/-- What point `t` writes back is block `t` of the output function. -/
theorem g_flushed0 (c : Dev nD) (t : Fin cfg0.N) :
    (dat0 V c).flushed 3 t = ((cfg0.win 3).blk t).view.read (Elt Ideal) (g_G0 V c) := by
  show (cfg0.win 3).cut (grid0.coords t) ((dat0 V c).after 3 t) = _
  rw [after0_3]
  unfold out0_3
  rw [View.canon_unit_zero g_hz0]
  simp only [View.ld_unit_zero (S := S10000x7) g_hz0, View.ld_unit_zero (S := S7x64) g_hz0,
    View.ld_unit_zero (S := S1x64) g_hz0]
  obtain ⟨-, -, -, -, -, -, e6, e7⟩ := g_idx0 t
  refine funext fun (j : S10000x64.Idx) => ?_
  obtain ⟨p, q, rfl⟩ : ∃ (p : Fin 10000) (q : Fin 64), j = ix2 p q := ⟨j 0, j 1, eq_ix2 j⟩
  refine g_pt0 V c t p q (((cfg0.win 3).blk t).view.emb (ix2 p q)) ?_ ?_
  · show win0_3.index t (0 : Fin 2) * 10000 + 1 * p.val = 10000 * t.val + p.val
    rw [e6]; omega
  · show win0_3.index t (1 : Fin 2) * 64 + 1 * q.val = q.val
    rw [e7]; omega

/-- An index is in point `t`'s output block iff each coordinate is in the block's range. -/
theorem g_mem0 (t : Fin cfg0.N) (i : S50000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v13).slice (win0_3.rect t)).set ↔ _
  rw [View.set_slice_whole, Rect.mem_set_unit]
  exact Iff.rfl

set_option maxHeartbeats 400000 in
/-- Every index of the output array is in the block of the point `row / 10000`. -/
theorem g_cover0 (i : S50000x64.Idx) :
    ∃ t : Fin cfg0.N, (cfg0.win 3).flush t = true ∧ i ∈ ((cfg0.win 3).blk t).view.set := by
  have hN : cfg0.N = 5 := N_0
  have hi0 : (i 0).val < 50000 := (i 0).isLt
  have hi1 : (i 1).val < 64 := (i 1).isLt
  obtain ⟨t, ht⟩ : ∃ t : Fin cfg0.N, t.val = (i 0).val / 10000 :=
    ⟨⟨(i 0).val / 10000, lt_of_lt_of_eq (by omega : (i 0).val / 10000 < 5) hN.symm⟩, rfl⟩
  obtain ⟨-, -, -, -, -, -, e6, e7⟩ := g_idx0 t
  refine ⟨t, flush0_3 t, ?_⟩
  rw [g_mem0]
  intro a
  match a with
  | ⟨0, _⟩ =>
    show win0_3.index t (0 : Fin 2) * 10000 ≤ (i 0).val ∧ (i 0).val < win0_3.index t (0 : Fin 2) * 10000 + 10000
    rw [e6, ht]; omega
  | ⟨1, _⟩ =>
    show win0_3.index t (1 : Fin 2) * 64 ≤ (i 1).val ∧ (i 1).val < win0_3.index t (1 : Fin 2) * 64 + 64
    rw [e7]; omega

set_option maxHeartbeats 400000 in
/-- Region 0's output array after the region: the affine map of its three operand arrays. -/
theorem val0 (c : Dev nD) :
    (dat0 V c).arrAt 3 cfg0.N
      = Cert.Spec.toVec2 (Cert.Spec.lin
          (Cert.Spec.ofVec2 (V c (Pipeline.arrRef spec0 0) : S50000x7.Idx → EReal))
          (Cert.Spec.ofVec2 (V c (Pipeline.arrRef spec0 1) : S7x64.Idx → EReal))
          (Cert.Spec.ofRow (V c (Pipeline.arrRef spec0 2) : S1x64.Idx → EReal))) :=
  (dat0 V c).arrAt_eq_of_cover 3 (g_G0 V c) (fun t _ => g_flushed0 V c t) g_cover0

end Val

end Cert.KernelIdeal.Hand

end
-- ==== Proof.ValA1.lean ====
/-
  The value of region 1 at the ideal values: after the region, its output array is the affine map
  `Spec.lin` of its three operand arrays as the region finds them, entry by entry. Each grid point
  writes back rows `10000 t … 10000 t + 9999` of that function (its payload at an index, read through
  the blocks of the 1050000 × 5 operand and the two whole operands), and those row blocks cover the array.
-/
import proofs.«172917_j75840532513057_2_alg».proof.Proof.BodyA1
import proofs.«172917_j75840532513057_2_alg».proof.Proof.PayA
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window BodyObligation cellOf)

/-! ## The affine map of blocks is the affine map of the arrays -/

/-- The affine map of three blocks at `(p, q)` is the affine map of the whole arrays at `i`, when the blocks'
    entries that row `p` and column `q` read are the arrays' entries that row `i 0` and column `i 1` read. -/
theorem g_lin_blk1 (X0 : S10000x5.Idx → EReal) (X1 : S5x64.Idx → EReal) (X2 : S1x64.Idx → EReal)
    (A : S1050000x5.Idx → EReal) (W : S5x64.Idx → EReal) (B : S1x64.Idx → EReal)
    (p : Fin 10000) (q : Fin 64) (i : S1050000x64.Idx)
    (h0 : ∀ k : Fin 5, X0 (ix2 p k) = A (ix2 (i 0 : Fin 1050000) k))
    (h1 : ∀ k : Fin 5, X1 (ix2 k q) = W (ix2 k (i 1 : Fin 64)))
    (h2 : X2 (ix2 (0 : Fin 1) q) = B (ix2 (0 : Fin 1) (i 1 : Fin 64))) :
    Cert.Spec.lin (Cert.Spec.ofVec2 X0) (Cert.Spec.ofVec2 X1) (Cert.Spec.ofRow X2) p q
      = Cert.Spec.toVec2 (Cert.Spec.lin (Cert.Spec.ofVec2 A) (Cert.Spec.ofVec2 W) (Cert.Spec.ofRow B)) i := by
  show (∑ k : Fin 5, X0 (ix2 p k) * X1 (ix2 k q)) + X2 (ix2 (0 : Fin 1) q)
      = (∑ k : Fin 5, A (ix2 (i 0 : Fin 1050000) k) * W (ix2 k (i 1 : Fin 64))) + B (ix2 (0 : Fin 1) (i 1 : Fin 64))
  rw [h2]
  exact congrArg (· + B (ix2 (0 : Fin 1) (i 1 : Fin 64))) (Finset.sum_congr rfl fun k _ => by rw [h0 k, h1 k])

section Val
variable (V : (c : Dev nD) → (b : Ref sig .tc) → Buf (Elt Ideal) ((c : Thread nD τ).loc b))

theorem g_hz1 : (![0, 0] : Fin 2 → Nat) = fun _ => 0 := funext fun a => by fin_cases a <;> rfl

/-- Region 1's output array as one function of its three operand arrays. -/
def g_G1 (c : Dev nD) : S1050000x64.Idx → EReal :=
  Cert.Spec.toVec2 (Cert.Spec.lin
    (Cert.Spec.ofVec2 (V c (Pipeline.arrRef spec1 0) : S1050000x5.Idx → EReal))
    (Cert.Spec.ofVec2 (V c (Pipeline.arrRef spec1 1) : S5x64.Idx → EReal))
    (Cert.Spec.ofRow (V c (Pipeline.arrRef spec1 2) : S1x64.Idx → EReal)))

/-- The block index maps over the grid: windows 0 and 3 step by rows, windows 1 and 2 stay. -/
theorem g_idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

set_option maxHeartbeats 400000 in
/-- Window 0's block at point `t` is rows `10000 t …` of its array. -/
theorem g_blk1_0 (c : Dev nD) (t : Fin cfg1.N) (x : S10000x5.Idx) (k : S1050000x5.Idx)
    (hk0 : (k 0).val = 10000 * t.val + (x 0).val) (hk1 : (k 1).val = (x 1).val) :
    (iblk1 V c 0 t : Vec Ideal S10000x5 .f32) x = (V c (Pipeline.arrRef spec1 0) : S1050000x5.Idx → EReal) k := by
  obtain ⟨e0, e1, -⟩ := g_idx1 t
  unfold iblk1
  rw [View.read_apply]
  refine congrArg (V c (Pipeline.arrRef spec1 0) : S1050000x5.Idx → EReal) ?_
  funext a
  apply Fin.ext
  match a with
  | ⟨0, _⟩ => show win1_0.index t (0 : Fin 2) * 10000 + 1 * (x 0).val = (k 0).val; rw [e0, hk0]; omega
  | ⟨1, _⟩ => show win1_0.index t (1 : Fin 2) * 5 + 1 * (x 1).val = (k 1).val; rw [e1, hk1]; omega

set_option maxHeartbeats 400000 in
/-- Window 1's block at every point is its whole array. -/
theorem g_blk1_1 (c : Dev nD) (t : Fin cfg1.N) (x k : S5x64.Idx)
    (hk0 : (k 0).val = (x 0).val) (hk1 : (k 1).val = (x 1).val) :
    (iblk1 V c 1 t : Vec Ideal S5x64 .f32) x = (V c (Pipeline.arrRef spec1 1) : S5x64.Idx → EReal) k := by
  obtain ⟨-, -, e2, e3, -⟩ := g_idx1 t
  unfold iblk1
  rw [View.read_apply]
  refine congrArg (V c (Pipeline.arrRef spec1 1) : S5x64.Idx → EReal) ?_
  funext a
  apply Fin.ext
  match a with
  | ⟨0, _⟩ => show win1_1.index t (0 : Fin 2) * 5 + 1 * (x 0).val = (k 0).val; rw [e2, hk0]; omega
  | ⟨1, _⟩ => show win1_1.index t (1 : Fin 2) * 64 + 1 * (x 1).val = (k 1).val; rw [e3, hk1]; omega

set_option maxHeartbeats 400000 in
/-- Window 2's block at every point is its whole array. -/
theorem g_blk1_2 (c : Dev nD) (t : Fin cfg1.N) (x k : S1x64.Idx)
    (hk0 : (k 0).val = (x 0).val) (hk1 : (k 1).val = (x 1).val) :
    (iblk1 V c 2 t : Vec Ideal S1x64 .f32) x = (V c (Pipeline.arrRef spec1 2) : S1x64.Idx → EReal) k := by
  obtain ⟨-, -, -, -, e4, e5, -⟩ := g_idx1 t
  unfold iblk1
  rw [View.read_apply]
  refine congrArg (V c (Pipeline.arrRef spec1 2) : S1x64.Idx → EReal) ?_
  funext a
  apply Fin.ext
  match a with
  | ⟨0, _⟩ => show win1_2.index t (0 : Fin 2) * 1 + 1 * (x 0).val = (k 0).val; rw [e4, hk0]; omega
  | ⟨1, _⟩ => show win1_2.index t (1 : Fin 2) * 64 + 1 * (x 1).val = (k 1).val; rw [e5, hk1]; omega

set_option maxHeartbeats 400000 in
/-- The payload of point `t`'s blocks at `(p, q)` is the output function at row `10000 t + p`, column `q`. -/
theorem g_pt1 (c : Dev nD) (t : Fin cfg1.N) (p : Fin 10000) (q : Fin 64) (i : S1050000x64.Idx)
    (hi0 : (i 0).val = 10000 * t.val + p.val) (hi1 : (i 1).val = q.val) :
    k1_pay1 (F := Ideal) (iblk1 V c 0 t) (iblk1 V c 1 t) (iblk1 V c 2 t) (ix2 p q) = g_G1 V c i := by
  refine (lin1_at (iblk1 V c 0 t) (iblk1 V c 1 t) (iblk1 V c 2 t) p q).trans ?_
  exact g_lin_blk1 (iblk1 V c 0 t) (iblk1 V c 1 t) (iblk1 V c 2 t)
    (V c (Pipeline.arrRef spec1 0)) (V c (Pipeline.arrRef spec1 1)) (V c (Pipeline.arrRef spec1 2)) p q i
    (fun k => g_blk1_0 V c t (ix2 p k) (ix2 (i 0 : Fin 1050000) k) hi0 rfl)
    (fun k => g_blk1_1 V c t (ix2 k q) (ix2 k (i 1 : Fin 64)) rfl hi1)
    (g_blk1_2 V c t (ix2 (0 : Fin 1) q) (ix2 (0 : Fin 1) (i 1 : Fin 64)) rfl hi1)

set_option maxHeartbeats 400000 in
/-- What point `t` writes back is block `t` of the output function. -/
theorem g_flushed1 (c : Dev nD) (t : Fin cfg1.N) :
    (dat1 V c).flushed 3 t = ((cfg1.win 3).blk t).view.read (Elt Ideal) (g_G1 V c) := by
  show (cfg1.win 3).cut (grid1.coords t) ((dat1 V c).after 3 t) = _
  rw [after1_3]
  unfold out1_3
  rw [View.canon_unit_zero g_hz1]
  simp only [View.ld_unit_zero (S := S10000x5) g_hz1, View.ld_unit_zero (S := S5x64) g_hz1,
    View.ld_unit_zero (S := S1x64) g_hz1]
  obtain ⟨-, -, -, -, -, -, e6, e7⟩ := g_idx1 t
  refine funext fun (j : S10000x64.Idx) => ?_
  obtain ⟨p, q, rfl⟩ : ∃ (p : Fin 10000) (q : Fin 64), j = ix2 p q := ⟨j 0, j 1, eq_ix2 j⟩
  refine g_pt1 V c t p q (((cfg1.win 3).blk t).view.emb (ix2 p q)) ?_ ?_
  · show win1_3.index t (0 : Fin 2) * 10000 + 1 * p.val = 10000 * t.val + p.val
    rw [e6]; omega
  · show win1_3.index t (1 : Fin 2) * 64 + 1 * q.val = q.val
    rw [e7]; omega

/-- An index is in point `t`'s output block iff each coordinate is in the block's range. -/
theorem g_mem1 (t : Fin cfg1.N) (i : S1050000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v19).slice (win1_3.rect t)).set ↔ _
  rw [View.set_slice_whole, Rect.mem_set_unit]
  exact Iff.rfl

set_option maxHeartbeats 400000 in
/-- Every index of the output array is in the block of the point `row / 10000`. -/
theorem g_cover1 (i : S1050000x64.Idx) :
    ∃ t : Fin cfg1.N, (cfg1.win 3).flush t = true ∧ i ∈ ((cfg1.win 3).blk t).view.set := by
  have hN : cfg1.N = 105 := N_1
  have hi0 : (i 0).val < 1050000 := (i 0).isLt
  have hi1 : (i 1).val < 64 := (i 1).isLt
  obtain ⟨t, ht⟩ : ∃ t : Fin cfg1.N, t.val = (i 0).val / 10000 :=
    ⟨⟨(i 0).val / 10000, lt_of_lt_of_eq (by omega : (i 0).val / 10000 < 105) hN.symm⟩, rfl⟩
  obtain ⟨-, -, -, -, -, -, e6, e7⟩ := g_idx1 t
  refine ⟨t, flush1_3 t, ?_⟩
  rw [g_mem1]
  intro a
  match a with
  | ⟨0, _⟩ =>
    show win1_3.index t (0 : Fin 2) * 10000 ≤ (i 0).val ∧ (i 0).val < win1_3.index t (0 : Fin 2) * 10000 + 10000
    rw [e6, ht]; omega
  | ⟨1, _⟩ =>
    show win1_3.index t (1 : Fin 2) * 64 ≤ (i 1).val ∧ (i 1).val < win1_3.index t (1 : Fin 2) * 64 + 64
    rw [e7]; omega

set_option maxHeartbeats 400000 in
/-- Region 1's output array after the region: the affine map of its three operand arrays. -/
theorem val1 (c : Dev nD) :
    (dat1 V c).arrAt 3 cfg1.N
      = Cert.Spec.toVec2 (Cert.Spec.lin
          (Cert.Spec.ofVec2 (V c (Pipeline.arrRef spec1 0) : S1050000x5.Idx → EReal))
          (Cert.Spec.ofVec2 (V c (Pipeline.arrRef spec1 1) : S5x64.Idx → EReal))
          (Cert.Spec.ofRow (V c (Pipeline.arrRef spec1 2) : S1x64.Idx → EReal))) :=
  (dat1 V c).arrAt_eq_of_cover 3 (g_G1 V c) (fun t _ => g_flushed1 V c t) g_cover1

end Val

end Cert.KernelIdeal.Hand

end
-- ==== Proof.ValA3.lean ====
/-
  The value of region 3 at the ideal values: after the region, its output array is the batch
  normalisation `Spec.norm` of its five operand arrays as the region finds them, followed by the
  activation `Spec.eluMin`, entry by entry. Each grid point writes back rows `10000 t … 10000 t + 9999`
  of that function (its payload at an index, read through the block of the 50000 × 64 operand and the
  four whole rows), and those row blocks cover the array.
-/
import proofs.«172917_j75840532513057_2_alg».proof.Proof.BodyA3
import proofs.«172917_j75840532513057_2_alg».proof.Proof.PayA
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window BodyObligation cellOf)

/-! ## The normalisation of blocks is the normalisation of the arrays -/

/-- The normalised entry of five blocks at `(p, q)` is the normalised entry of the whole arrays at `i`, when the
    blocks' entries that row `p` and column `q` read are the arrays' entries that row `i 0` and column `i 1` read. -/
theorem g_bn_blk3 (X0 : S10000x64.Idx → EReal) (X1 X2 X3 X4 : S1x64.Idx → EReal)
    (H : S50000x64.Idx → EReal) (Mn Vr Gm Bt : S1x64.Idx → EReal)
    (p : Fin 10000) (q : Fin 64) (i : S50000x64.Idx)
    (h0 : X0 (ix2 p q) = H (ix2 (i 0 : Fin 50000) (i 1 : Fin 64)))
    (h1 : X1 (ix2 (0 : Fin 1) q) = Mn (ix2 (0 : Fin 1) (i 1 : Fin 64)))
    (h2 : X2 (ix2 (0 : Fin 1) q) = Vr (ix2 (0 : Fin 1) (i 1 : Fin 64)))
    (h3 : X3 (ix2 (0 : Fin 1) q) = Gm (ix2 (0 : Fin 1) (i 1 : Fin 64)))
    (h4 : X4 (ix2 (0 : Fin 1) q) = Bt (ix2 (0 : Fin 1) (i 1 : Fin 64))) :
    Cert.Spec.eluMin (Cert.Spec.norm (Ideal.ofBits .f32 0x3727C5AC#32) (Cert.Spec.ofVec2 X0) (Cert.Spec.ofRow X1) (Cert.Spec.ofRow X2) (Cert.Spec.ofRow X3) (Cert.Spec.ofRow X4) p q)
      = Cert.Spec.toVec2 (fun a b => Cert.Spec.eluMin (Cert.Spec.norm (Ideal.ofBits .f32 0x3727C5AC#32) (Cert.Spec.ofVec2 H) (Cert.Spec.ofRow Mn) (Cert.Spec.ofRow Vr) (Cert.Spec.ofRow Gm) (Cert.Spec.ofRow Bt) a b)) i := by
  show Cert.Spec.eluMin ((X0 (ix2 p q) - X1 (ix2 (0 : Fin 1) q)) * Ideal.rsqrt (X2 (ix2 (0 : Fin 1) q) + Ideal.ofBits .f32 0x3727C5AC#32)
          * X3 (ix2 (0 : Fin 1) q) + X4 (ix2 (0 : Fin 1) q))
      = Cert.Spec.eluMin ((H (ix2 (i 0 : Fin 50000) (i 1 : Fin 64)) - Mn (ix2 (0 : Fin 1) (i 1 : Fin 64)))
          * Ideal.rsqrt (Vr (ix2 (0 : Fin 1) (i 1 : Fin 64)) + Ideal.ofBits .f32 0x3727C5AC#32)
          * Gm (ix2 (0 : Fin 1) (i 1 : Fin 64)) + Bt (ix2 (0 : Fin 1) (i 1 : Fin 64)))
  rw [h0, h1, h2, h3, h4]

section Val
variable (V : (c : Dev nD) → (b : Ref sig .tc) → Buf (Elt Ideal) ((c : Thread nD τ).loc b))

theorem g_hz3 : (![0, 0] : Fin 2 → Nat) = fun _ => 0 := funext fun a => by fin_cases a <;> rfl

/-- Region 3's output array as one function of its five operand arrays. -/
def g_G3 (c : Dev nD) : S50000x64.Idx → EReal :=
  Cert.Spec.toVec2 (fun a b => Cert.Spec.eluMin (Cert.Spec.norm (Ideal.ofBits .f32 0x3727C5AC#32)
        (Cert.Spec.ofVec2 (V c (Pipeline.arrRef spec3 0) : S50000x64.Idx → EReal))
        (Cert.Spec.ofRow (V c (Pipeline.arrRef spec3 1) : S1x64.Idx → EReal))
        (Cert.Spec.ofRow (V c (Pipeline.arrRef spec3 2) : S1x64.Idx → EReal))
        (Cert.Spec.ofRow (V c (Pipeline.arrRef spec3 3) : S1x64.Idx → EReal))
        (Cert.Spec.ofRow (V c (Pipeline.arrRef spec3 4) : S1x64.Idx → EReal)) a b))

/-- The block index maps over the grid: windows 0 and 5 step by rows, windows 1 to 4 stay. -/
theorem g_idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 400000 in
/-- Window 0's block at point `t` is rows `10000 t …` of its array. -/
theorem g_blk3_0 (c : Dev nD) (t : Fin cfg3.N) (x : S10000x64.Idx) (k : S50000x64.Idx)
    (hk0 : (k 0).val = 10000 * t.val + (x 0).val) (hk1 : (k 1).val = (x 1).val) :
    (iblk3 V c 0 t : Vec Ideal S10000x64 .f32) x = (V c (Pipeline.arrRef spec3 0) : S50000x64.Idx → EReal) k := by
  obtain ⟨e0, e1, e2, e3, e4, e5, e6, e7, e8, e9, e10, e11⟩ := g_idx3 t
  unfold iblk3
  rw [View.read_apply]
  refine congrArg (V c (Pipeline.arrRef spec3 0) : S50000x64.Idx → EReal) ?_
  funext a
  apply Fin.ext
  match a with
  | ⟨0, _⟩ => show win3_0.index t (0 : Fin 2) * 10000 + 1 * (x 0).val = (k 0).val; rw [e0, hk0]; omega
  | ⟨1, _⟩ => show win3_0.index t (1 : Fin 2) * 64 + 1 * (x 1).val = (k 1).val; rw [e1, hk1]; omega

set_option maxHeartbeats 400000 in
/-- Window 1's block at every point is its whole array. -/
theorem g_blk3_1 (c : Dev nD) (t : Fin cfg3.N) (x k : S1x64.Idx)
    (hk0 : (k 0).val = (x 0).val) (hk1 : (k 1).val = (x 1).val) :
    (iblk3 V c 1 t : Vec Ideal S1x64 .f32) x = (V c (Pipeline.arrRef spec3 1) : S1x64.Idx → EReal) k := by
  obtain ⟨e0, e1, e2, e3, e4, e5, e6, e7, e8, e9, e10, e11⟩ := g_idx3 t
  unfold iblk3
  rw [View.read_apply]
  refine congrArg (V c (Pipeline.arrRef spec3 1) : S1x64.Idx → EReal) ?_
  funext a
  apply Fin.ext
  match a with
  | ⟨0, _⟩ => show win3_1.index t (0 : Fin 2) * 1 + 1 * (x 0).val = (k 0).val; rw [e2, hk0]; omega
  | ⟨1, _⟩ => show win3_1.index t (1 : Fin 2) * 64 + 1 * (x 1).val = (k 1).val; rw [e3, hk1]; omega

set_option maxHeartbeats 400000 in
/-- Window 2's block at every point is its whole array. -/
theorem g_blk3_2 (c : Dev nD) (t : Fin cfg3.N) (x k : S1x64.Idx)
    (hk0 : (k 0).val = (x 0).val) (hk1 : (k 1).val = (x 1).val) :
    (iblk3 V c 2 t : Vec Ideal S1x64 .f32) x = (V c (Pipeline.arrRef spec3 2) : S1x64.Idx → EReal) k := by
  obtain ⟨e0, e1, e2, e3, e4, e5, e6, e7, e8, e9, e10, e11⟩ := g_idx3 t
  unfold iblk3
  rw [View.read_apply]
  refine congrArg (V c (Pipeline.arrRef spec3 2) : S1x64.Idx → EReal) ?_
  funext a
  apply Fin.ext
  match a with
  | ⟨0, _⟩ => show win3_2.index t (0 : Fin 2) * 1 + 1 * (x 0).val = (k 0).val; rw [e4, hk0]; omega
  | ⟨1, _⟩ => show win3_2.index t (1 : Fin 2) * 64 + 1 * (x 1).val = (k 1).val; rw [e5, hk1]; omega

set_option maxHeartbeats 400000 in
/-- Window 3's block at every point is its whole array. -/
theorem g_blk3_3 (c : Dev nD) (t : Fin cfg3.N) (x k : S1x64.Idx)
    (hk0 : (k 0).val = (x 0).val) (hk1 : (k 1).val = (x 1).val) :
    (iblk3 V c 3 t : Vec Ideal S1x64 .f32) x = (V c (Pipeline.arrRef spec3 3) : S1x64.Idx → EReal) k := by
  obtain ⟨e0, e1, e2, e3, e4, e5, e6, e7, e8, e9, e10, e11⟩ := g_idx3 t
  unfold iblk3
  rw [View.read_apply]
  refine congrArg (V c (Pipeline.arrRef spec3 3) : S1x64.Idx → EReal) ?_
  funext a
  apply Fin.ext
  match a with
  | ⟨0, _⟩ => show win3_3.index t (0 : Fin 2) * 1 + 1 * (x 0).val = (k 0).val; rw [e6, hk0]; omega
  | ⟨1, _⟩ => show win3_3.index t (1 : Fin 2) * 64 + 1 * (x 1).val = (k 1).val; rw [e7, hk1]; omega

set_option maxHeartbeats 400000 in
/-- Window 4's block at every point is its whole array. -/
theorem g_blk3_4 (c : Dev nD) (t : Fin cfg3.N) (x k : S1x64.Idx)
    (hk0 : (k 0).val = (x 0).val) (hk1 : (k 1).val = (x 1).val) :
    (iblk3 V c 4 t : Vec Ideal S1x64 .f32) x = (V c (Pipeline.arrRef spec3 4) : S1x64.Idx → EReal) k := by
  obtain ⟨e0, e1, e2, e3, e4, e5, e6, e7, e8, e9, e10, e11⟩ := g_idx3 t
  unfold iblk3
  rw [View.read_apply]
  refine congrArg (V c (Pipeline.arrRef spec3 4) : S1x64.Idx → EReal) ?_
  funext a
  apply Fin.ext
  match a with
  | ⟨0, _⟩ => show win3_4.index t (0 : Fin 2) * 1 + 1 * (x 0).val = (k 0).val; rw [e8, hk0]; omega
  | ⟨1, _⟩ => show win3_4.index t (1 : Fin 2) * 64 + 1 * (x 1).val = (k 1).val; rw [e9, hk1]; omega

set_option maxHeartbeats 400000 in
/-- The payload of point `t`'s blocks at `(p, q)` is the output function at row `10000 t + p`, column `q`. -/
theorem g_pt3 (c : Dev nD) (t : Fin cfg3.N) (p : Fin 10000) (q : Fin 64) (i : S50000x64.Idx)
    (hi0 : (i 0).val = 10000 * t.val + p.val) (hi1 : (i 1).val = q.val) :
    k3_pay1 (F := Ideal) (iblk3 V c 0 t) (iblk3 V c 1 t) (iblk3 V c 2 t) (iblk3 V c 3 t) (iblk3 V c 4 t) (ix2 p q) = g_G3 V c i := by
  refine (bn3_at (iblk3 V c 0 t) (iblk3 V c 1 t) (iblk3 V c 2 t) (iblk3 V c 3 t) (iblk3 V c 4 t) p q).trans ?_
  exact g_bn_blk3 (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) p q i
    (g_blk3_0 V c t (ix2 p q) (ix2 (i 0 : Fin 50000) (i 1 : Fin 64)) hi0 hi1)
    (g_blk3_1 V c t (ix2 (0 : Fin 1) q) (ix2 (0 : Fin 1) (i 1 : Fin 64)) rfl hi1)
    (g_blk3_2 V c t (ix2 (0 : Fin 1) q) (ix2 (0 : Fin 1) (i 1 : Fin 64)) rfl hi1)
    (g_blk3_3 V c t (ix2 (0 : Fin 1) q) (ix2 (0 : Fin 1) (i 1 : Fin 64)) rfl hi1)
    (g_blk3_4 V c t (ix2 (0 : Fin 1) q) (ix2 (0 : Fin 1) (i 1 : Fin 64)) rfl hi1)

set_option maxHeartbeats 400000 in
/-- What point `t` writes back is block `t` of the output function. -/
theorem g_flushed3 (c : Dev nD) (t : Fin cfg3.N) :
    (dat3 V c).flushed 5 t = ((cfg3.win 5).blk t).view.read (Elt Ideal) (g_G3 V c) := by
  show (cfg3.win 5).cut (grid3.coords t) ((dat3 V c).after 5 t) = _
  rw [after3_5]
  unfold out3_5
  rw [View.canon_unit_zero g_hz3]
  simp only [View.ld_unit_zero (S := S10000x64) g_hz3, View.ld_unit_zero (S := S1x64) g_hz3]
  obtain ⟨e0, e1, e2, e3, e4, e5, e6, e7, e8, e9, e10, e11⟩ := g_idx3 t
  refine funext fun (j : S10000x64.Idx) => ?_
  obtain ⟨p, q, rfl⟩ : ∃ (p : Fin 10000) (q : Fin 64), j = ix2 p q := ⟨j 0, j 1, eq_ix2 j⟩
  refine g_pt3 V c t p q (((cfg3.win 5).blk t).view.emb (ix2 p q)) ?_ ?_
  · show win3_5.index t (0 : Fin 2) * 10000 + 1 * p.val = 10000 * t.val + p.val
    rw [e10]; omega
  · show win3_5.index t (1 : Fin 2) * 64 + 1 * q.val = q.val
    rw [e11]; omega

/-- An index is in point `t`'s output block iff each coordinate is in the block's range. -/
theorem g_mem3 (t : Fin cfg3.N) (i : S50000x64.Idx) :
    i ∈ ((cfg3.win 5).blk t).view.set ↔ ∀ a : Fin 2, win3_5.index t a * S10000x64.size a ≤ (i a).val
      ∧ (i a).val < win3_5.index t a * S10000x64.size a + S10000x64.size a := by
  show i ∈ ((View.whole main_v56).slice (win3_5.rect t)).set ↔ _
  rw [View.set_slice_whole, Rect.mem_set_unit]
  exact Iff.rfl

set_option maxHeartbeats 400000 in
/-- Every index of the output array is in the block of the point `row / 10000`. -/
theorem g_cover3 (i : S50000x64.Idx) :
    ∃ t : Fin cfg3.N, (cfg3.win 5).flush t = true ∧ i ∈ ((cfg3.win 5).blk t).view.set := by
  have hN : cfg3.N = 5 := N_3
  have hi0 : (i 0).val < 50000 := (i 0).isLt
  have hi1 : (i 1).val < 64 := (i 1).isLt
  obtain ⟨t, ht⟩ : ∃ t : Fin cfg3.N, t.val = (i 0).val / 10000 :=
    ⟨⟨(i 0).val / 10000, lt_of_lt_of_eq (by omega : (i 0).val / 10000 < 5) hN.symm⟩, rfl⟩
  obtain ⟨e0, e1, e2, e3, e4, e5, e6, e7, e8, e9, e10, e11⟩ := g_idx3 t
  refine ⟨t, flush3_5 t, ?_⟩
  rw [g_mem3]
  intro a
  match a with
  | ⟨0, _⟩ =>
    show win3_5.index t (0 : Fin 2) * 10000 ≤ (i 0).val ∧ (i 0).val < win3_5.index t (0 : Fin 2) * 10000 + 10000
    rw [e10, ht]; omega
  | ⟨1, _⟩ =>
    show win3_5.index t (1 : Fin 2) * 64 ≤ (i 1).val ∧ (i 1).val < win3_5.index t (1 : Fin 2) * 64 + 64
    rw [e11]; omega

set_option maxHeartbeats 400000 in
/-- Region 3's output array after the region: the normalisation of its five operand arrays, then the activation. -/
theorem val3 (c : Dev nD) :
    (dat3 V c).arrAt 5 cfg3.N
      = Cert.Spec.toVec2 (fun a b => Cert.Spec.eluMin (Cert.Spec.norm (Ideal.ofBits .f32 0x3727C5AC#32)
        (Cert.Spec.ofVec2 (V c (Pipeline.arrRef spec3 0) : S50000x64.Idx → EReal))
        (Cert.Spec.ofRow (V c (Pipeline.arrRef spec3 1) : S1x64.Idx → EReal))
        (Cert.Spec.ofRow (V c (Pipeline.arrRef spec3 2) : S1x64.Idx → EReal))
        (Cert.Spec.ofRow (V c (Pipeline.arrRef spec3 3) : S1x64.Idx → EReal))
        (Cert.Spec.ofRow (V c (Pipeline.arrRef spec3 4) : S1x64.Idx → EReal)) a b)) :=
  (dat3 V c).arrAt_eq_of_cover 5 (g_G3 V c) (fun t _ => g_flushed3 V c t) g_cover3

end Val

end Cert.KernelIdeal.Hand

end
-- ==== Proof.ValA4.lean ====
/-
  The value of region 4 at the ideal values: after the region, its output array is the affine map
  `Spec.lin` of its three operand arrays as the region finds them, entry by entry. Each grid point
  writes back rows `10000 t … 10000 t + 9999` of that function (its payload at an index, read through
  the blocks of the 1050000 × 5 operand and the two whole operands), and those row blocks cover the array.
-/
import proofs.«172917_j75840532513057_2_alg».proof.Proof.BodyA4
import proofs.«172917_j75840532513057_2_alg».proof.Proof.PayA
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window BodyObligation cellOf)

/-! ## The affine map of blocks is the affine map of the arrays -/

/-- The affine map of three blocks at `(p, q)` is the affine map of the whole arrays at `i`, when the blocks'
    entries that row `p` and column `q` read are the arrays' entries that row `i 0` and column `i 1` read. -/
theorem g_lin_blk4 (X0 : S10000x5.Idx → EReal) (X1 : S5x64.Idx → EReal) (X2 : S1x64.Idx → EReal)
    (A : S1050000x5.Idx → EReal) (W : S5x64.Idx → EReal) (B : S1x64.Idx → EReal)
    (p : Fin 10000) (q : Fin 64) (i : S1050000x64.Idx)
    (h0 : ∀ k : Fin 5, X0 (ix2 p k) = A (ix2 (i 0 : Fin 1050000) k))
    (h1 : ∀ k : Fin 5, X1 (ix2 k q) = W (ix2 k (i 1 : Fin 64)))
    (h2 : X2 (ix2 (0 : Fin 1) q) = B (ix2 (0 : Fin 1) (i 1 : Fin 64))) :
    Cert.Spec.lin (Cert.Spec.ofVec2 X0) (Cert.Spec.ofVec2 X1) (Cert.Spec.ofRow X2) p q
      = Cert.Spec.toVec2 (Cert.Spec.lin (Cert.Spec.ofVec2 A) (Cert.Spec.ofVec2 W) (Cert.Spec.ofRow B)) i := by
  show (∑ k : Fin 5, X0 (ix2 p k) * X1 (ix2 k q)) + X2 (ix2 (0 : Fin 1) q)
      = (∑ k : Fin 5, A (ix2 (i 0 : Fin 1050000) k) * W (ix2 k (i 1 : Fin 64))) + B (ix2 (0 : Fin 1) (i 1 : Fin 64))
  rw [h2]
  exact congrArg (· + B (ix2 (0 : Fin 1) (i 1 : Fin 64))) (Finset.sum_congr rfl fun k _ => by rw [h0 k, h1 k])

section Val
variable (V : (c : Dev nD) → (b : Ref sig .tc) → Buf (Elt Ideal) ((c : Thread nD τ).loc b))

theorem g_hz4 : (![0, 0] : Fin 2 → Nat) = fun _ => 0 := funext fun a => by fin_cases a <;> rfl

/-- Region 4's output array as one function of its three operand arrays. -/
def g_G4 (c : Dev nD) : S1050000x64.Idx → EReal :=
  Cert.Spec.toVec2 (Cert.Spec.lin
    (Cert.Spec.ofVec2 (V c (Pipeline.arrRef spec4 0) : S1050000x5.Idx → EReal))
    (Cert.Spec.ofVec2 (V c (Pipeline.arrRef spec4 1) : S5x64.Idx → EReal))
    (Cert.Spec.ofRow (V c (Pipeline.arrRef spec4 2) : S1x64.Idx → EReal)))

/-- The block index maps over the grid: windows 0 and 3 step by rows, windows 1 and 2 stay. -/
theorem g_idx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

set_option maxHeartbeats 400000 in
/-- Window 0's block at point `t` is rows `10000 t …` of its array. -/
theorem g_blk4_0 (c : Dev nD) (t : Fin cfg4.N) (x : S10000x5.Idx) (k : S1050000x5.Idx)
    (hk0 : (k 0).val = 10000 * t.val + (x 0).val) (hk1 : (k 1).val = (x 1).val) :
    (iblk4 V c 0 t : Vec Ideal S10000x5 .f32) x = (V c (Pipeline.arrRef spec4 0) : S1050000x5.Idx → EReal) k := by
  obtain ⟨e0, e1, -⟩ := g_idx4 t
  unfold iblk4
  rw [View.read_apply]
  refine congrArg (V c (Pipeline.arrRef spec4 0) : S1050000x5.Idx → EReal) ?_
  funext a
  apply Fin.ext
  match a with
  | ⟨0, _⟩ => show win4_0.index t (0 : Fin 2) * 10000 + 1 * (x 0).val = (k 0).val; rw [e0, hk0]; omega
  | ⟨1, _⟩ => show win4_0.index t (1 : Fin 2) * 5 + 1 * (x 1).val = (k 1).val; rw [e1, hk1]; omega

set_option maxHeartbeats 400000 in
/-- Window 1's block at every point is its whole array. -/
theorem g_blk4_1 (c : Dev nD) (t : Fin cfg4.N) (x k : S5x64.Idx)
    (hk0 : (k 0).val = (x 0).val) (hk1 : (k 1).val = (x 1).val) :
    (iblk4 V c 1 t : Vec Ideal S5x64 .f32) x = (V c (Pipeline.arrRef spec4 1) : S5x64.Idx → EReal) k := by
  obtain ⟨-, -, e2, e3, -⟩ := g_idx4 t
  unfold iblk4
  rw [View.read_apply]
  refine congrArg (V c (Pipeline.arrRef spec4 1) : S5x64.Idx → EReal) ?_
  funext a
  apply Fin.ext
  match a with
  | ⟨0, _⟩ => show win4_1.index t (0 : Fin 2) * 5 + 1 * (x 0).val = (k 0).val; rw [e2, hk0]; omega
  | ⟨1, _⟩ => show win4_1.index t (1 : Fin 2) * 64 + 1 * (x 1).val = (k 1).val; rw [e3, hk1]; omega

set_option maxHeartbeats 400000 in
/-- Window 2's block at every point is its whole array. -/
theorem g_blk4_2 (c : Dev nD) (t : Fin cfg4.N) (x k : S1x64.Idx)
    (hk0 : (k 0).val = (x 0).val) (hk1 : (k 1).val = (x 1).val) :
    (iblk4 V c 2 t : Vec Ideal S1x64 .f32) x = (V c (Pipeline.arrRef spec4 2) : S1x64.Idx → EReal) k := by
  obtain ⟨-, -, -, -, e4, e5, -⟩ := g_idx4 t
  unfold iblk4
  rw [View.read_apply]
  refine congrArg (V c (Pipeline.arrRef spec4 2) : S1x64.Idx → EReal) ?_
  funext a
  apply Fin.ext
  match a with
  | ⟨0, _⟩ => show win4_2.index t (0 : Fin 2) * 1 + 1 * (x 0).val = (k 0).val; rw [e4, hk0]; omega
  | ⟨1, _⟩ => show win4_2.index t (1 : Fin 2) * 64 + 1 * (x 1).val = (k 1).val; rw [e5, hk1]; omega

set_option maxHeartbeats 400000 in
/-- The payload of point `t`'s blocks at `(p, q)` is the output function at row `10000 t + p`, column `q`. -/
theorem g_pt4 (c : Dev nD) (t : Fin cfg4.N) (p : Fin 10000) (q : Fin 64) (i : S1050000x64.Idx)
    (hi0 : (i 0).val = 10000 * t.val + p.val) (hi1 : (i 1).val = q.val) :
    k4_pay1 (F := Ideal) (iblk4 V c 0 t) (iblk4 V c 1 t) (iblk4 V c 2 t) (ix2 p q) = g_G4 V c i := by
  refine (show k4_pay1 (F := Ideal) (iblk4 V c 0 t) (iblk4 V c 1 t) (iblk4 V c 2 t) (ix2 p q)
      = k1_pay1 (F := Ideal) (iblk4 V c 0 t) (iblk4 V c 1 t) (iblk4 V c 2 t) (ix2 p q) from rfl).trans ?_
  refine (lin1_at (iblk4 V c 0 t) (iblk4 V c 1 t) (iblk4 V c 2 t) p q).trans ?_
  exact g_lin_blk4 (iblk4 V c 0 t) (iblk4 V c 1 t) (iblk4 V c 2 t)
    (V c (Pipeline.arrRef spec4 0)) (V c (Pipeline.arrRef spec4 1)) (V c (Pipeline.arrRef spec4 2)) p q i
    (fun k => g_blk4_0 V c t (ix2 p k) (ix2 (i 0 : Fin 1050000) k) hi0 rfl)
    (fun k => g_blk4_1 V c t (ix2 k q) (ix2 k (i 1 : Fin 64)) rfl hi1)
    (g_blk4_2 V c t (ix2 (0 : Fin 1) q) (ix2 (0 : Fin 1) (i 1 : Fin 64)) rfl hi1)

set_option maxHeartbeats 400000 in
/-- What point `t` writes back is block `t` of the output function. -/
theorem g_flushed4 (c : Dev nD) (t : Fin cfg4.N) :
    (dat4 V c).flushed 3 t = ((cfg4.win 3).blk t).view.read (Elt Ideal) (g_G4 V c) := by
  show (cfg4.win 3).cut (grid4.coords t) ((dat4 V c).after 3 t) = _
  rw [after4_3]
  unfold out4_3
  rw [View.canon_unit_zero g_hz4]
  simp only [View.ld_unit_zero (S := S10000x5) g_hz4, View.ld_unit_zero (S := S5x64) g_hz4,
    View.ld_unit_zero (S := S1x64) g_hz4]
  obtain ⟨-, -, -, -, -, -, e6, e7⟩ := g_idx4 t
  refine funext fun (j : S10000x64.Idx) => ?_
  obtain ⟨p, q, rfl⟩ : ∃ (p : Fin 10000) (q : Fin 64), j = ix2 p q := ⟨j 0, j 1, eq_ix2 j⟩
  refine g_pt4 V c t p q (((cfg4.win 3).blk t).view.emb (ix2 p q)) ?_ ?_
  · show win4_3.index t (0 : Fin 2) * 10000 + 1 * p.val = 10000 * t.val + p.val
    rw [e6]; omega
  · show win4_3.index t (1 : Fin 2) * 64 + 1 * q.val = q.val
    rw [e7]; omega

/-- An index is in point `t`'s output block iff each coordinate is in the block's range. -/
theorem g_mem4 (t : Fin cfg4.N) (i : S1050000x64.Idx) :
    i ∈ ((cfg4.win 3).blk t).view.set ↔ ∀ a : Fin 2, win4_3.index t a * S10000x64.size a ≤ (i a).val
      ∧ (i a).val < win4_3.index t a * S10000x64.size a + S10000x64.size a := by
  show i ∈ ((View.whole main_v62).slice (win4_3.rect t)).set ↔ _
  rw [View.set_slice_whole, Rect.mem_set_unit]
  exact Iff.rfl

set_option maxHeartbeats 400000 in
/-- Every index of the output array is in the block of the point `row / 10000`. -/
theorem g_cover4 (i : S1050000x64.Idx) :
    ∃ t : Fin cfg4.N, (cfg4.win 3).flush t = true ∧ i ∈ ((cfg4.win 3).blk t).view.set := by
  have hN : cfg4.N = 105 := N_4
  have hi0 : (i 0).val < 1050000 := (i 0).isLt
  have hi1 : (i 1).val < 64 := (i 1).isLt
  obtain ⟨t, ht⟩ : ∃ t : Fin cfg4.N, t.val = (i 0).val / 10000 :=
    ⟨⟨(i 0).val / 10000, lt_of_lt_of_eq (by omega : (i 0).val / 10000 < 105) hN.symm⟩, rfl⟩
  obtain ⟨-, -, -, -, -, -, e6, e7⟩ := g_idx4 t
  refine ⟨t, flush4_3 t, ?_⟩
  rw [g_mem4]
  intro a
  match a with
  | ⟨0, _⟩ =>
    show win4_3.index t (0 : Fin 2) * 10000 ≤ (i 0).val ∧ (i 0).val < win4_3.index t (0 : Fin 2) * 10000 + 10000
    rw [e6, ht]; omega
  | ⟨1, _⟩ =>
    show win4_3.index t (1 : Fin 2) * 64 ≤ (i 1).val ∧ (i 1).val < win4_3.index t (1 : Fin 2) * 64 + 64
    rw [e7]; omega

set_option maxHeartbeats 400000 in
/-- Region 4's output array after the region: the affine map of its three operand arrays. -/
theorem val4 (c : Dev nD) :
    (dat4 V c).arrAt 3 cfg4.N
      = Cert.Spec.toVec2 (Cert.Spec.lin
          (Cert.Spec.ofVec2 (V c (Pipeline.arrRef spec4 0) : S1050000x5.Idx → EReal))
          (Cert.Spec.ofVec2 (V c (Pipeline.arrRef spec4 1) : S5x64.Idx → EReal))
          (Cert.Spec.ofRow (V c (Pipeline.arrRef spec4 2) : S1x64.Idx → EReal))) :=
  (dat4 V c).arrAt_eq_of_cover 3 (g_G4 V c) (fun t _ => g_flushed4 V c t) g_cover4

end Val

end Cert.KernelIdeal.Hand

end
-- ==== Proof.ValA6.lean ====
/-
  The value of region 6 at the ideal values: after the region, its output array is the batch
  normalisation `Spec.norm` of its five operand arrays as the region finds them, followed by the
  activation `Spec.eluMin`, entry by entry. Each grid point writes back rows `10000 t … 10000 t + 9999`
  of that function (its payload at an index, read through the block of the 50000 × 64 operand and the
  four whole rows), and those row blocks cover the array.
-/
import proofs.«172917_j75840532513057_2_alg».proof.Proof.BodyA6
import proofs.«172917_j75840532513057_2_alg».proof.Proof.PayA
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window BodyObligation cellOf)

/-! ## The normalisation of blocks is the normalisation of the arrays -/

/-- The normalised entry of five blocks at `(p, q)` is the normalised entry of the whole arrays at `i`, when the
    blocks' entries that row `p` and column `q` read are the arrays' entries that row `i 0` and column `i 1` read. -/
theorem g_bn_blk6 (X0 : S10000x64.Idx → EReal) (X1 X2 X3 X4 : S1x64.Idx → EReal)
    (H : S50000x64.Idx → EReal) (Mn Vr Gm Bt : S1x64.Idx → EReal)
    (p : Fin 10000) (q : Fin 64) (i : S50000x64.Idx)
    (h0 : X0 (ix2 p q) = H (ix2 (i 0 : Fin 50000) (i 1 : Fin 64)))
    (h1 : X1 (ix2 (0 : Fin 1) q) = Mn (ix2 (0 : Fin 1) (i 1 : Fin 64)))
    (h2 : X2 (ix2 (0 : Fin 1) q) = Vr (ix2 (0 : Fin 1) (i 1 : Fin 64)))
    (h3 : X3 (ix2 (0 : Fin 1) q) = Gm (ix2 (0 : Fin 1) (i 1 : Fin 64)))
    (h4 : X4 (ix2 (0 : Fin 1) q) = Bt (ix2 (0 : Fin 1) (i 1 : Fin 64))) :
    Cert.Spec.eluMin (Cert.Spec.norm (Ideal.ofBits .f32 0x3727C5AC#32) (Cert.Spec.ofVec2 X0) (Cert.Spec.ofRow X1) (Cert.Spec.ofRow X2) (Cert.Spec.ofRow X3) (Cert.Spec.ofRow X4) p q)
      = Cert.Spec.toVec2 (fun a b => Cert.Spec.eluMin (Cert.Spec.norm (Ideal.ofBits .f32 0x3727C5AC#32) (Cert.Spec.ofVec2 H) (Cert.Spec.ofRow Mn) (Cert.Spec.ofRow Vr) (Cert.Spec.ofRow Gm) (Cert.Spec.ofRow Bt) a b)) i := by
  show Cert.Spec.eluMin ((X0 (ix2 p q) - X1 (ix2 (0 : Fin 1) q)) * Ideal.rsqrt (X2 (ix2 (0 : Fin 1) q) + Ideal.ofBits .f32 0x3727C5AC#32)
          * X3 (ix2 (0 : Fin 1) q) + X4 (ix2 (0 : Fin 1) q))
      = Cert.Spec.eluMin ((H (ix2 (i 0 : Fin 50000) (i 1 : Fin 64)) - Mn (ix2 (0 : Fin 1) (i 1 : Fin 64)))
          * Ideal.rsqrt (Vr (ix2 (0 : Fin 1) (i 1 : Fin 64)) + Ideal.ofBits .f32 0x3727C5AC#32)
          * Gm (ix2 (0 : Fin 1) (i 1 : Fin 64)) + Bt (ix2 (0 : Fin 1) (i 1 : Fin 64)))
  rw [h0, h1, h2, h3, h4]

section Val
variable (V : (c : Dev nD) → (b : Ref sig .tc) → Buf (Elt Ideal) ((c : Thread nD τ).loc b))

theorem g_hz6 : (![0, 0] : Fin 2 → Nat) = fun _ => 0 := funext fun a => by fin_cases a <;> rfl

/-- Region 6's output array as one function of its five operand arrays. -/
def g_G6 (c : Dev nD) : S50000x64.Idx → EReal :=
  Cert.Spec.toVec2 (fun a b => Cert.Spec.eluMin (Cert.Spec.norm (Ideal.ofBits .f32 0x3727C5AC#32)
        (Cert.Spec.ofVec2 (V c (Pipeline.arrRef spec6 0) : S50000x64.Idx → EReal))
        (Cert.Spec.ofRow (V c (Pipeline.arrRef spec6 1) : S1x64.Idx → EReal))
        (Cert.Spec.ofRow (V c (Pipeline.arrRef spec6 2) : S1x64.Idx → EReal))
        (Cert.Spec.ofRow (V c (Pipeline.arrRef spec6 3) : S1x64.Idx → EReal))
        (Cert.Spec.ofRow (V c (Pipeline.arrRef spec6 4) : S1x64.Idx → EReal)) a b))

/-- The block index maps over the grid: windows 0 and 5 step by rows, windows 1 to 4 stay. -/
theorem g_idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

set_option maxHeartbeats 400000 in
/-- Window 0's block at point `t` is rows `10000 t …` of its array. -/
theorem g_blk6_0 (c : Dev nD) (t : Fin cfg6.N) (x : S10000x64.Idx) (k : S50000x64.Idx)
    (hk0 : (k 0).val = 10000 * t.val + (x 0).val) (hk1 : (k 1).val = (x 1).val) :
    (iblk6 V c 0 t : Vec Ideal S10000x64 .f32) x = (V c (Pipeline.arrRef spec6 0) : S50000x64.Idx → EReal) k := by
  obtain ⟨e0, e1, e2, e3, e4, e5, e6, e7, e8, e9, e10, e11⟩ := g_idx6 t
  unfold iblk6
  rw [View.read_apply]
  refine congrArg (V c (Pipeline.arrRef spec6 0) : S50000x64.Idx → EReal) ?_
  funext a
  apply Fin.ext
  match a with
  | ⟨0, _⟩ => show win6_0.index t (0 : Fin 2) * 10000 + 1 * (x 0).val = (k 0).val; rw [e0, hk0]; omega
  | ⟨1, _⟩ => show win6_0.index t (1 : Fin 2) * 64 + 1 * (x 1).val = (k 1).val; rw [e1, hk1]; omega

set_option maxHeartbeats 400000 in
/-- Window 1's block at every point is its whole array. -/
theorem g_blk6_1 (c : Dev nD) (t : Fin cfg6.N) (x k : S1x64.Idx)
    (hk0 : (k 0).val = (x 0).val) (hk1 : (k 1).val = (x 1).val) :
    (iblk6 V c 1 t : Vec Ideal S1x64 .f32) x = (V c (Pipeline.arrRef spec6 1) : S1x64.Idx → EReal) k := by
  obtain ⟨e0, e1, e2, e3, e4, e5, e6, e7, e8, e9, e10, e11⟩ := g_idx6 t
  unfold iblk6
  rw [View.read_apply]
  refine congrArg (V c (Pipeline.arrRef spec6 1) : S1x64.Idx → EReal) ?_
  funext a
  apply Fin.ext
  match a with
  | ⟨0, _⟩ => show win6_1.index t (0 : Fin 2) * 1 + 1 * (x 0).val = (k 0).val; rw [e2, hk0]; omega
  | ⟨1, _⟩ => show win6_1.index t (1 : Fin 2) * 64 + 1 * (x 1).val = (k 1).val; rw [e3, hk1]; omega

set_option maxHeartbeats 400000 in
/-- Window 2's block at every point is its whole array. -/
theorem g_blk6_2 (c : Dev nD) (t : Fin cfg6.N) (x k : S1x64.Idx)
    (hk0 : (k 0).val = (x 0).val) (hk1 : (k 1).val = (x 1).val) :
    (iblk6 V c 2 t : Vec Ideal S1x64 .f32) x = (V c (Pipeline.arrRef spec6 2) : S1x64.Idx → EReal) k := by
  obtain ⟨e0, e1, e2, e3, e4, e5, e6, e7, e8, e9, e10, e11⟩ := g_idx6 t
  unfold iblk6
  rw [View.read_apply]
  refine congrArg (V c (Pipeline.arrRef spec6 2) : S1x64.Idx → EReal) ?_
  funext a
  apply Fin.ext
  match a with
  | ⟨0, _⟩ => show win6_2.index t (0 : Fin 2) * 1 + 1 * (x 0).val = (k 0).val; rw [e4, hk0]; omega
  | ⟨1, _⟩ => show win6_2.index t (1 : Fin 2) * 64 + 1 * (x 1).val = (k 1).val; rw [e5, hk1]; omega

set_option maxHeartbeats 400000 in
/-- Window 3's block at every point is its whole array. -/
theorem g_blk6_3 (c : Dev nD) (t : Fin cfg6.N) (x k : S1x64.Idx)
    (hk0 : (k 0).val = (x 0).val) (hk1 : (k 1).val = (x 1).val) :
    (iblk6 V c 3 t : Vec Ideal S1x64 .f32) x = (V c (Pipeline.arrRef spec6 3) : S1x64.Idx → EReal) k := by
  obtain ⟨e0, e1, e2, e3, e4, e5, e6, e7, e8, e9, e10, e11⟩ := g_idx6 t
  unfold iblk6
  rw [View.read_apply]
  refine congrArg (V c (Pipeline.arrRef spec6 3) : S1x64.Idx → EReal) ?_
  funext a
  apply Fin.ext
  match a with
  | ⟨0, _⟩ => show win6_3.index t (0 : Fin 2) * 1 + 1 * (x 0).val = (k 0).val; rw [e6, hk0]; omega
  | ⟨1, _⟩ => show win6_3.index t (1 : Fin 2) * 64 + 1 * (x 1).val = (k 1).val; rw [e7, hk1]; omega

set_option maxHeartbeats 400000 in
/-- Window 4's block at every point is its whole array. -/
theorem g_blk6_4 (c : Dev nD) (t : Fin cfg6.N) (x k : S1x64.Idx)
    (hk0 : (k 0).val = (x 0).val) (hk1 : (k 1).val = (x 1).val) :
    (iblk6 V c 4 t : Vec Ideal S1x64 .f32) x = (V c (Pipeline.arrRef spec6 4) : S1x64.Idx → EReal) k := by
  obtain ⟨e0, e1, e2, e3, e4, e5, e6, e7, e8, e9, e10, e11⟩ := g_idx6 t
  unfold iblk6
  rw [View.read_apply]
  refine congrArg (V c (Pipeline.arrRef spec6 4) : S1x64.Idx → EReal) ?_
  funext a
  apply Fin.ext
  match a with
  | ⟨0, _⟩ => show win6_4.index t (0 : Fin 2) * 1 + 1 * (x 0).val = (k 0).val; rw [e8, hk0]; omega
  | ⟨1, _⟩ => show win6_4.index t (1 : Fin 2) * 64 + 1 * (x 1).val = (k 1).val; rw [e9, hk1]; omega

set_option maxHeartbeats 400000 in
/-- The payload of point `t`'s blocks at `(p, q)` is the output function at row `10000 t + p`, column `q`. -/
theorem g_pt6 (c : Dev nD) (t : Fin cfg6.N) (p : Fin 10000) (q : Fin 64) (i : S50000x64.Idx)
    (hi0 : (i 0).val = 10000 * t.val + p.val) (hi1 : (i 1).val = q.val) :
    k6_pay1 (F := Ideal) (iblk6 V c 0 t) (iblk6 V c 1 t) (iblk6 V c 2 t) (iblk6 V c 3 t) (iblk6 V c 4 t) (ix2 p q) = g_G6 V c i := by
  refine (show k6_pay1 (F := Ideal) (iblk6 V c 0 t) (iblk6 V c 1 t) (iblk6 V c 2 t) (iblk6 V c 3 t) (iblk6 V c 4 t) (ix2 p q)
      = k3_pay1 (F := Ideal) (iblk6 V c 0 t) (iblk6 V c 1 t) (iblk6 V c 2 t) (iblk6 V c 3 t) (iblk6 V c 4 t) (ix2 p q) from rfl).trans ?_
  refine (bn3_at (iblk6 V c 0 t) (iblk6 V c 1 t) (iblk6 V c 2 t) (iblk6 V c 3 t) (iblk6 V c 4 t) p q).trans ?_
  exact g_bn_blk6 (iblk6 V c 0 t) (iblk6 V c 1 t) (iblk6 V c 2 t) (iblk6 V c 3 t) (iblk6 V c 4 t)
    (V c (Pipeline.arrRef spec6 0)) (V c (Pipeline.arrRef spec6 1)) (V c (Pipeline.arrRef spec6 2))
    (V c (Pipeline.arrRef spec6 3)) (V c (Pipeline.arrRef spec6 4)) p q i
    (g_blk6_0 V c t (ix2 p q) (ix2 (i 0 : Fin 50000) (i 1 : Fin 64)) hi0 hi1)
    (g_blk6_1 V c t (ix2 (0 : Fin 1) q) (ix2 (0 : Fin 1) (i 1 : Fin 64)) rfl hi1)
    (g_blk6_2 V c t (ix2 (0 : Fin 1) q) (ix2 (0 : Fin 1) (i 1 : Fin 64)) rfl hi1)
    (g_blk6_3 V c t (ix2 (0 : Fin 1) q) (ix2 (0 : Fin 1) (i 1 : Fin 64)) rfl hi1)
    (g_blk6_4 V c t (ix2 (0 : Fin 1) q) (ix2 (0 : Fin 1) (i 1 : Fin 64)) rfl hi1)

set_option maxHeartbeats 400000 in
/-- What point `t` writes back is block `t` of the output function. -/
theorem g_flushed6 (c : Dev nD) (t : Fin cfg6.N) :
    (dat6 V c).flushed 5 t = ((cfg6.win 5).blk t).view.read (Elt Ideal) (g_G6 V c) := by
  show (cfg6.win 5).cut (grid6.coords t) ((dat6 V c).after 5 t) = _
  rw [after6_5]
  unfold out6_5
  rw [View.canon_unit_zero g_hz6]
  simp only [View.ld_unit_zero (S := S10000x64) g_hz6, View.ld_unit_zero (S := S1x64) g_hz6]
  obtain ⟨e0, e1, e2, e3, e4, e5, e6, e7, e8, e9, e10, e11⟩ := g_idx6 t
  refine funext fun (j : S10000x64.Idx) => ?_
  obtain ⟨p, q, rfl⟩ : ∃ (p : Fin 10000) (q : Fin 64), j = ix2 p q := ⟨j 0, j 1, eq_ix2 j⟩
  refine g_pt6 V c t p q (((cfg6.win 5).blk t).view.emb (ix2 p q)) ?_ ?_
  · show win6_5.index t (0 : Fin 2) * 10000 + 1 * p.val = 10000 * t.val + p.val
    rw [e10]; omega
  · show win6_5.index t (1 : Fin 2) * 64 + 1 * q.val = q.val
    rw [e11]; omega

/-- An index is in point `t`'s output block iff each coordinate is in the block's range. -/
theorem g_mem6 (t : Fin cfg6.N) (i : S50000x64.Idx) :
    i ∈ ((cfg6.win 5).blk t).view.set ↔ ∀ a : Fin 2, win6_5.index t a * S10000x64.size a ≤ (i a).val
      ∧ (i a).val < win6_5.index t a * S10000x64.size a + S10000x64.size a := by
  show i ∈ ((View.whole main_v99).slice (win6_5.rect t)).set ↔ _
  rw [View.set_slice_whole, Rect.mem_set_unit]
  exact Iff.rfl

set_option maxHeartbeats 400000 in
/-- Every index of the output array is in the block of the point `row / 10000`. -/
theorem g_cover6 (i : S50000x64.Idx) :
    ∃ t : Fin cfg6.N, (cfg6.win 5).flush t = true ∧ i ∈ ((cfg6.win 5).blk t).view.set := by
  have hN : cfg6.N = 5 := N_6
  have hi0 : (i 0).val < 50000 := (i 0).isLt
  have hi1 : (i 1).val < 64 := (i 1).isLt
  obtain ⟨t, ht⟩ : ∃ t : Fin cfg6.N, t.val = (i 0).val / 10000 :=
    ⟨⟨(i 0).val / 10000, lt_of_lt_of_eq (by omega : (i 0).val / 10000 < 5) hN.symm⟩, rfl⟩
  obtain ⟨e0, e1, e2, e3, e4, e5, e6, e7, e8, e9, e10, e11⟩ := g_idx6 t
  refine ⟨t, flush6_5 t, ?_⟩
  rw [g_mem6]
  intro a
  match a with
  | ⟨0, _⟩ =>
    show win6_5.index t (0 : Fin 2) * 10000 ≤ (i 0).val ∧ (i 0).val < win6_5.index t (0 : Fin 2) * 10000 + 10000
    rw [e10, ht]; omega
  | ⟨1, _⟩ =>
    show win6_5.index t (1 : Fin 2) * 64 ≤ (i 1).val ∧ (i 1).val < win6_5.index t (1 : Fin 2) * 64 + 64
    rw [e11]; omega

set_option maxHeartbeats 400000 in
/-- Region 6's output array after the region: the normalisation of its five operand arrays, then the activation. -/
theorem val6 (c : Dev nD) :
    (dat6 V c).arrAt 5 cfg6.N
      = Cert.Spec.toVec2 (fun a b => Cert.Spec.eluMin (Cert.Spec.norm (Ideal.ofBits .f32 0x3727C5AC#32)
        (Cert.Spec.ofVec2 (V c (Pipeline.arrRef spec6 0) : S50000x64.Idx → EReal))
        (Cert.Spec.ofRow (V c (Pipeline.arrRef spec6 1) : S1x64.Idx → EReal))
        (Cert.Spec.ofRow (V c (Pipeline.arrRef spec6 2) : S1x64.Idx → EReal))
        (Cert.Spec.ofRow (V c (Pipeline.arrRef spec6 3) : S1x64.Idx → EReal))
        (Cert.Spec.ofRow (V c (Pipeline.arrRef spec6 4) : S1x64.Idx → EReal)) a b)) :=
  (dat6 V c).arrAt_eq_of_cover 5 (g_G6 V c) (fun t _ => g_flushed6 V c t) g_cover6

end Val

end Cert.KernelIdeal.Hand

end
-- ==== Proof.ValA7.lean ====
/-
  The value of region 7 at the ideal values: after the region, its output array is the affine map
  `Spec.lin` of its three operand arrays as the region finds them, entry by entry. Each grid point
  writes back rows `10000 t … 10000 t + 9999` of that function (its payload at an index, read through
  the blocks of the 1050000 × 5 operand and the two whole operands), and those row blocks cover the array.
-/
import proofs.«172917_j75840532513057_2_alg».proof.Proof.BodyA7
import proofs.«172917_j75840532513057_2_alg».proof.Proof.PayA
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window BodyObligation cellOf)

/-! ## The affine map of blocks is the affine map of the arrays -/

/-- The affine map of three blocks at `(p, q)` is the affine map of the whole arrays at `i`, when the blocks'
    entries that row `p` and column `q` read are the arrays' entries that row `i 0` and column `i 1` read. -/
theorem g_lin_blk7 (X0 : S10000x5.Idx → EReal) (X1 : S5x64.Idx → EReal) (X2 : S1x64.Idx → EReal)
    (A : S1050000x5.Idx → EReal) (W : S5x64.Idx → EReal) (B : S1x64.Idx → EReal)
    (p : Fin 10000) (q : Fin 64) (i : S1050000x64.Idx)
    (h0 : ∀ k : Fin 5, X0 (ix2 p k) = A (ix2 (i 0 : Fin 1050000) k))
    (h1 : ∀ k : Fin 5, X1 (ix2 k q) = W (ix2 k (i 1 : Fin 64)))
    (h2 : X2 (ix2 (0 : Fin 1) q) = B (ix2 (0 : Fin 1) (i 1 : Fin 64))) :
    Cert.Spec.lin (Cert.Spec.ofVec2 X0) (Cert.Spec.ofVec2 X1) (Cert.Spec.ofRow X2) p q
      = Cert.Spec.toVec2 (Cert.Spec.lin (Cert.Spec.ofVec2 A) (Cert.Spec.ofVec2 W) (Cert.Spec.ofRow B)) i := by
  show (∑ k : Fin 5, X0 (ix2 p k) * X1 (ix2 k q)) + X2 (ix2 (0 : Fin 1) q)
      = (∑ k : Fin 5, A (ix2 (i 0 : Fin 1050000) k) * W (ix2 k (i 1 : Fin 64))) + B (ix2 (0 : Fin 1) (i 1 : Fin 64))
  rw [h2]
  exact congrArg (· + B (ix2 (0 : Fin 1) (i 1 : Fin 64))) (Finset.sum_congr rfl fun k _ => by rw [h0 k, h1 k])

section Val
variable (V : (c : Dev nD) → (b : Ref sig .tc) → Buf (Elt Ideal) ((c : Thread nD τ).loc b))

theorem g_hz7 : (![0, 0] : Fin 2 → Nat) = fun _ => 0 := funext fun a => by fin_cases a <;> rfl

/-- Region 7's output array as one function of its three operand arrays. -/
def g_G7 (c : Dev nD) : S1050000x64.Idx → EReal :=
  Cert.Spec.toVec2 (Cert.Spec.lin
    (Cert.Spec.ofVec2 (V c (Pipeline.arrRef spec7 0) : S1050000x5.Idx → EReal))
    (Cert.Spec.ofVec2 (V c (Pipeline.arrRef spec7 1) : S5x64.Idx → EReal))
    (Cert.Spec.ofRow (V c (Pipeline.arrRef spec7 2) : S1x64.Idx → EReal)))

/-- The block index maps over the grid: windows 0 and 3 step by rows, windows 1 and 2 stay. -/
theorem g_idx7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

set_option maxHeartbeats 400000 in
/-- Window 0's block at point `t` is rows `10000 t …` of its array. -/
theorem g_blk7_0 (c : Dev nD) (t : Fin cfg7.N) (x : S10000x5.Idx) (k : S1050000x5.Idx)
    (hk0 : (k 0).val = 10000 * t.val + (x 0).val) (hk1 : (k 1).val = (x 1).val) :
    (iblk7 V c 0 t : Vec Ideal S10000x5 .f32) x = (V c (Pipeline.arrRef spec7 0) : S1050000x5.Idx → EReal) k := by
  obtain ⟨e0, e1, -⟩ := g_idx7 t
  unfold iblk7
  rw [View.read_apply]
  refine congrArg (V c (Pipeline.arrRef spec7 0) : S1050000x5.Idx → EReal) ?_
  funext a
  apply Fin.ext
  match a with
  | ⟨0, _⟩ => show win7_0.index t (0 : Fin 2) * 10000 + 1 * (x 0).val = (k 0).val; rw [e0, hk0]; omega
  | ⟨1, _⟩ => show win7_0.index t (1 : Fin 2) * 5 + 1 * (x 1).val = (k 1).val; rw [e1, hk1]; omega

set_option maxHeartbeats 400000 in
/-- Window 1's block at every point is its whole array. -/
theorem g_blk7_1 (c : Dev nD) (t : Fin cfg7.N) (x k : S5x64.Idx)
    (hk0 : (k 0).val = (x 0).val) (hk1 : (k 1).val = (x 1).val) :
    (iblk7 V c 1 t : Vec Ideal S5x64 .f32) x = (V c (Pipeline.arrRef spec7 1) : S5x64.Idx → EReal) k := by
  obtain ⟨-, -, e2, e3, -⟩ := g_idx7 t
  unfold iblk7
  rw [View.read_apply]
  refine congrArg (V c (Pipeline.arrRef spec7 1) : S5x64.Idx → EReal) ?_
  funext a
  apply Fin.ext
  match a with
  | ⟨0, _⟩ => show win7_1.index t (0 : Fin 2) * 5 + 1 * (x 0).val = (k 0).val; rw [e2, hk0]; omega
  | ⟨1, _⟩ => show win7_1.index t (1 : Fin 2) * 64 + 1 * (x 1).val = (k 1).val; rw [e3, hk1]; omega

set_option maxHeartbeats 400000 in
/-- Window 2's block at every point is its whole array. -/
theorem g_blk7_2 (c : Dev nD) (t : Fin cfg7.N) (x k : S1x64.Idx)
    (hk0 : (k 0).val = (x 0).val) (hk1 : (k 1).val = (x 1).val) :
    (iblk7 V c 2 t : Vec Ideal S1x64 .f32) x = (V c (Pipeline.arrRef spec7 2) : S1x64.Idx → EReal) k := by
  obtain ⟨-, -, -, -, e4, e5, -⟩ := g_idx7 t
  unfold iblk7
  rw [View.read_apply]
  refine congrArg (V c (Pipeline.arrRef spec7 2) : S1x64.Idx → EReal) ?_
  funext a
  apply Fin.ext
  match a with
  | ⟨0, _⟩ => show win7_2.index t (0 : Fin 2) * 1 + 1 * (x 0).val = (k 0).val; rw [e4, hk0]; omega
  | ⟨1, _⟩ => show win7_2.index t (1 : Fin 2) * 64 + 1 * (x 1).val = (k 1).val; rw [e5, hk1]; omega

set_option maxHeartbeats 400000 in
/-- The payload of point `t`'s blocks at `(p, q)` is the output function at row `10000 t + p`, column `q`. -/
theorem g_pt7 (c : Dev nD) (t : Fin cfg7.N) (p : Fin 10000) (q : Fin 64) (i : S1050000x64.Idx)
    (hi0 : (i 0).val = 10000 * t.val + p.val) (hi1 : (i 1).val = q.val) :
    k7_pay1 (F := Ideal) (iblk7 V c 0 t) (iblk7 V c 1 t) (iblk7 V c 2 t) (ix2 p q) = g_G7 V c i := by
  refine (show k7_pay1 (F := Ideal) (iblk7 V c 0 t) (iblk7 V c 1 t) (iblk7 V c 2 t) (ix2 p q)
      = k1_pay1 (F := Ideal) (iblk7 V c 0 t) (iblk7 V c 1 t) (iblk7 V c 2 t) (ix2 p q) from rfl).trans ?_
  refine (lin1_at (iblk7 V c 0 t) (iblk7 V c 1 t) (iblk7 V c 2 t) p q).trans ?_
  exact g_lin_blk7 (iblk7 V c 0 t) (iblk7 V c 1 t) (iblk7 V c 2 t)
    (V c (Pipeline.arrRef spec7 0)) (V c (Pipeline.arrRef spec7 1)) (V c (Pipeline.arrRef spec7 2)) p q i
    (fun k => g_blk7_0 V c t (ix2 p k) (ix2 (i 0 : Fin 1050000) k) hi0 rfl)
    (fun k => g_blk7_1 V c t (ix2 k q) (ix2 k (i 1 : Fin 64)) rfl hi1)
    (g_blk7_2 V c t (ix2 (0 : Fin 1) q) (ix2 (0 : Fin 1) (i 1 : Fin 64)) rfl hi1)

set_option maxHeartbeats 400000 in
/-- What point `t` writes back is block `t` of the output function. -/
theorem g_flushed7 (c : Dev nD) (t : Fin cfg7.N) :
    (dat7 V c).flushed 3 t = ((cfg7.win 3).blk t).view.read (Elt Ideal) (g_G7 V c) := by
  show (cfg7.win 3).cut (grid7.coords t) ((dat7 V c).after 3 t) = _
  rw [after7_3]
  unfold out7_3
  rw [View.canon_unit_zero g_hz7]
  simp only [View.ld_unit_zero (S := S10000x5) g_hz7, View.ld_unit_zero (S := S5x64) g_hz7,
    View.ld_unit_zero (S := S1x64) g_hz7]
  obtain ⟨-, -, -, -, -, -, e6, e7⟩ := g_idx7 t
  refine funext fun (j : S10000x64.Idx) => ?_
  obtain ⟨p, q, rfl⟩ : ∃ (p : Fin 10000) (q : Fin 64), j = ix2 p q := ⟨j 0, j 1, eq_ix2 j⟩
  refine g_pt7 V c t p q (((cfg7.win 3).blk t).view.emb (ix2 p q)) ?_ ?_
  · show win7_3.index t (0 : Fin 2) * 10000 + 1 * p.val = 10000 * t.val + p.val
    rw [e6]; omega
  · show win7_3.index t (1 : Fin 2) * 64 + 1 * q.val = q.val
    rw [e7]; omega

/-- An index is in point `t`'s output block iff each coordinate is in the block's range. -/
theorem g_mem7 (t : Fin cfg7.N) (i : S1050000x64.Idx) :
    i ∈ ((cfg7.win 3).blk t).view.set ↔ ∀ a : Fin 2, win7_3.index t a * S10000x64.size a ≤ (i a).val
      ∧ (i a).val < win7_3.index t a * S10000x64.size a + S10000x64.size a := by
  show i ∈ ((View.whole main_v105).slice (win7_3.rect t)).set ↔ _
  rw [View.set_slice_whole, Rect.mem_set_unit]
  exact Iff.rfl

set_option maxHeartbeats 400000 in
/-- Every index of the output array is in the block of the point `row / 10000`. -/
theorem g_cover7 (i : S1050000x64.Idx) :
    ∃ t : Fin cfg7.N, (cfg7.win 3).flush t = true ∧ i ∈ ((cfg7.win 3).blk t).view.set := by
  have hN : cfg7.N = 105 := N_7
  have hi0 : (i 0).val < 1050000 := (i 0).isLt
  have hi1 : (i 1).val < 64 := (i 1).isLt
  obtain ⟨t, ht⟩ : ∃ t : Fin cfg7.N, t.val = (i 0).val / 10000 :=
    ⟨⟨(i 0).val / 10000, lt_of_lt_of_eq (by omega : (i 0).val / 10000 < 105) hN.symm⟩, rfl⟩
  obtain ⟨-, -, -, -, -, -, e6, e7⟩ := g_idx7 t
  refine ⟨t, flush7_3 t, ?_⟩
  rw [g_mem7]
  intro a
  match a with
  | ⟨0, _⟩ =>
    show win7_3.index t (0 : Fin 2) * 10000 ≤ (i 0).val ∧ (i 0).val < win7_3.index t (0 : Fin 2) * 10000 + 10000
    rw [e6, ht]; omega
  | ⟨1, _⟩ =>
    show win7_3.index t (1 : Fin 2) * 64 ≤ (i 1).val ∧ (i 1).val < win7_3.index t (1 : Fin 2) * 64 + 64
    rw [e7]; omega

set_option maxHeartbeats 400000 in
/-- Region 7's output array after the region: the affine map of its three operand arrays. -/
theorem val7 (c : Dev nD) :
    (dat7 V c).arrAt 3 cfg7.N
      = Cert.Spec.toVec2 (Cert.Spec.lin
          (Cert.Spec.ofVec2 (V c (Pipeline.arrRef spec7 0) : S1050000x5.Idx → EReal))
          (Cert.Spec.ofVec2 (V c (Pipeline.arrRef spec7 1) : S5x64.Idx → EReal))
          (Cert.Spec.ofRow (V c (Pipeline.arrRef spec7 2) : S1x64.Idx → EReal))) :=
  (dat7 V c).arrAt_eq_of_cover 3 (g_G7 V c) (fun t _ => g_flushed7 V c t) g_cover7

end Val

end Cert.KernelIdeal.Hand

end
-- ==== Proof.ValA9.lean ====
/-
  The value of region 9 at the ideal values: after the region, its output array is the batch
  normalisation `Spec.norm` of its five operand arrays as the region finds them, entry by entry. Each grid point writes back rows `10000 t … 10000 t + 9999`
  of that function (its payload at an index, read through the block of the 50000 × 64 operand and the
  four whole rows), and those row blocks cover the array.
-/
import proofs.«172917_j75840532513057_2_alg».proof.Proof.BodyA9
import proofs.«172917_j75840532513057_2_alg».proof.Proof.PayA
import Idealize.ShloMosaic.Lib.Pipeline.Value
import Idealize.ShloMosaic.Lib.ValueLayout

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window BodyObligation cellOf)

/-! ## The normalisation of blocks is the normalisation of the arrays -/

/-- The normalised entry of five blocks at `(p, q)` is the normalised entry of the whole arrays at `i`, when the
    blocks' entries that row `p` and column `q` read are the arrays' entries that row `i 0` and column `i 1` read. -/
theorem g_bn_blk9 (X0 : S10000x64.Idx → EReal) (X1 X2 X3 X4 : S1x64.Idx → EReal)
    (H : S50000x64.Idx → EReal) (Mn Vr Gm Bt : S1x64.Idx → EReal)
    (p : Fin 10000) (q : Fin 64) (i : S50000x64.Idx)
    (h0 : X0 (ix2 p q) = H (ix2 (i 0 : Fin 50000) (i 1 : Fin 64)))
    (h1 : X1 (ix2 (0 : Fin 1) q) = Mn (ix2 (0 : Fin 1) (i 1 : Fin 64)))
    (h2 : X2 (ix2 (0 : Fin 1) q) = Vr (ix2 (0 : Fin 1) (i 1 : Fin 64)))
    (h3 : X3 (ix2 (0 : Fin 1) q) = Gm (ix2 (0 : Fin 1) (i 1 : Fin 64)))
    (h4 : X4 (ix2 (0 : Fin 1) q) = Bt (ix2 (0 : Fin 1) (i 1 : Fin 64))) :
    Cert.Spec.norm (Ideal.ofBits .f32 0x3727C5AC#32) (Cert.Spec.ofVec2 X0) (Cert.Spec.ofRow X1) (Cert.Spec.ofRow X2) (Cert.Spec.ofRow X3) (Cert.Spec.ofRow X4) p q
      = Cert.Spec.toVec2 (Cert.Spec.norm (Ideal.ofBits .f32 0x3727C5AC#32) (Cert.Spec.ofVec2 H) (Cert.Spec.ofRow Mn) (Cert.Spec.ofRow Vr) (Cert.Spec.ofRow Gm) (Cert.Spec.ofRow Bt)) i := by
  show (X0 (ix2 p q) - X1 (ix2 (0 : Fin 1) q)) * Ideal.rsqrt (X2 (ix2 (0 : Fin 1) q) + Ideal.ofBits .f32 0x3727C5AC#32)
          * X3 (ix2 (0 : Fin 1) q) + X4 (ix2 (0 : Fin 1) q)
      = (H (ix2 (i 0 : Fin 50000) (i 1 : Fin 64)) - Mn (ix2 (0 : Fin 1) (i 1 : Fin 64)))
          * Ideal.rsqrt (Vr (ix2 (0 : Fin 1) (i 1 : Fin 64)) + Ideal.ofBits .f32 0x3727C5AC#32)
          * Gm (ix2 (0 : Fin 1) (i 1 : Fin 64)) + Bt (ix2 (0 : Fin 1) (i 1 : Fin 64))
  rw [h0, h1, h2, h3, h4]

section Val
variable (V : (c : Dev nD) → (b : Ref sig .tc) → Buf (Elt Ideal) ((c : Thread nD τ).loc b))

theorem g_hz9 : (![0, 0] : Fin 2 → Nat) = fun _ => 0 := funext fun a => by fin_cases a <;> rfl

/-- Region 9's output array as one function of its five operand arrays. -/
def g_G9 (c : Dev nD) : S50000x64.Idx → EReal :=
  Cert.Spec.toVec2 (Cert.Spec.norm (Ideal.ofBits .f32 0x3727C5AC#32)
        (Cert.Spec.ofVec2 (V c (Pipeline.arrRef spec9 0) : S50000x64.Idx → EReal))
        (Cert.Spec.ofRow (V c (Pipeline.arrRef spec9 1) : S1x64.Idx → EReal))
        (Cert.Spec.ofRow (V c (Pipeline.arrRef spec9 2) : S1x64.Idx → EReal))
        (Cert.Spec.ofRow (V c (Pipeline.arrRef spec9 3) : S1x64.Idx → EReal))
        (Cert.Spec.ofRow (V c (Pipeline.arrRef spec9 4) : S1x64.Idx → EReal)))

/-- The block index maps over the grid: windows 0 and 5 step by rows, windows 1 to 4 stay. -/
theorem g_idx9 : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

set_option maxHeartbeats 400000 in
/-- Window 0's block at point `t` is rows `10000 t …` of its array. -/
theorem g_blk9_0 (c : Dev nD) (t : Fin cfg9.N) (x : S10000x64.Idx) (k : S50000x64.Idx)
    (hk0 : (k 0).val = 10000 * t.val + (x 0).val) (hk1 : (k 1).val = (x 1).val) :
    (iblk9 V c 0 t : Vec Ideal S10000x64 .f32) x = (V c (Pipeline.arrRef spec9 0) : S50000x64.Idx → EReal) k := by
  obtain ⟨e0, e1, e2, e3, e4, e5, e6, e7, e8, e9, e10, e11⟩ := g_idx9 t
  unfold iblk9
  rw [View.read_apply]
  refine congrArg (V c (Pipeline.arrRef spec9 0) : S50000x64.Idx → EReal) ?_
  funext a
  apply Fin.ext
  match a with
  | ⟨0, _⟩ => show win9_0.index t (0 : Fin 2) * 10000 + 1 * (x 0).val = (k 0).val; rw [e0, hk0]; omega
  | ⟨1, _⟩ => show win9_0.index t (1 : Fin 2) * 64 + 1 * (x 1).val = (k 1).val; rw [e1, hk1]; omega

set_option maxHeartbeats 400000 in
/-- Window 1's block at every point is its whole array. -/
theorem g_blk9_1 (c : Dev nD) (t : Fin cfg9.N) (x k : S1x64.Idx)
    (hk0 : (k 0).val = (x 0).val) (hk1 : (k 1).val = (x 1).val) :
    (iblk9 V c 1 t : Vec Ideal S1x64 .f32) x = (V c (Pipeline.arrRef spec9 1) : S1x64.Idx → EReal) k := by
  obtain ⟨e0, e1, e2, e3, e4, e5, e6, e7, e8, e9, e10, e11⟩ := g_idx9 t
  unfold iblk9
  rw [View.read_apply]
  refine congrArg (V c (Pipeline.arrRef spec9 1) : S1x64.Idx → EReal) ?_
  funext a
  apply Fin.ext
  match a with
  | ⟨0, _⟩ => show win9_1.index t (0 : Fin 2) * 1 + 1 * (x 0).val = (k 0).val; rw [e2, hk0]; omega
  | ⟨1, _⟩ => show win9_1.index t (1 : Fin 2) * 64 + 1 * (x 1).val = (k 1).val; rw [e3, hk1]; omega

set_option maxHeartbeats 400000 in
/-- Window 2's block at every point is its whole array. -/
theorem g_blk9_2 (c : Dev nD) (t : Fin cfg9.N) (x k : S1x64.Idx)
    (hk0 : (k 0).val = (x 0).val) (hk1 : (k 1).val = (x 1).val) :
    (iblk9 V c 2 t : Vec Ideal S1x64 .f32) x = (V c (Pipeline.arrRef spec9 2) : S1x64.Idx → EReal) k := by
  obtain ⟨e0, e1, e2, e3, e4, e5, e6, e7, e8, e9, e10, e11⟩ := g_idx9 t
  unfold iblk9
  rw [View.read_apply]
  refine congrArg (V c (Pipeline.arrRef spec9 2) : S1x64.Idx → EReal) ?_
  funext a
  apply Fin.ext
  match a with
  | ⟨0, _⟩ => show win9_2.index t (0 : Fin 2) * 1 + 1 * (x 0).val = (k 0).val; rw [e4, hk0]; omega
  | ⟨1, _⟩ => show win9_2.index t (1 : Fin 2) * 64 + 1 * (x 1).val = (k 1).val; rw [e5, hk1]; omega

set_option maxHeartbeats 400000 in
/-- Window 3's block at every point is its whole array. -/
theorem g_blk9_3 (c : Dev nD) (t : Fin cfg9.N) (x k : S1x64.Idx)
    (hk0 : (k 0).val = (x 0).val) (hk1 : (k 1).val = (x 1).val) :
    (iblk9 V c 3 t : Vec Ideal S1x64 .f32) x = (V c (Pipeline.arrRef spec9 3) : S1x64.Idx → EReal) k := by
  obtain ⟨e0, e1, e2, e3, e4, e5, e6, e7, e8, e9, e10, e11⟩ := g_idx9 t
  unfold iblk9
  rw [View.read_apply]
  refine congrArg (V c (Pipeline.arrRef spec9 3) : S1x64.Idx → EReal) ?_
  funext a
  apply Fin.ext
  match a with
  | ⟨0, _⟩ => show win9_3.index t (0 : Fin 2) * 1 + 1 * (x 0).val = (k 0).val; rw [e6, hk0]; omega
  | ⟨1, _⟩ => show win9_3.index t (1 : Fin 2) * 64 + 1 * (x 1).val = (k 1).val; rw [e7, hk1]; omega

set_option maxHeartbeats 400000 in
/-- Window 4's block at every point is its whole array. -/
theorem g_blk9_4 (c : Dev nD) (t : Fin cfg9.N) (x k : S1x64.Idx)
    (hk0 : (k 0).val = (x 0).val) (hk1 : (k 1).val = (x 1).val) :
    (iblk9 V c 4 t : Vec Ideal S1x64 .f32) x = (V c (Pipeline.arrRef spec9 4) : S1x64.Idx → EReal) k := by
  obtain ⟨e0, e1, e2, e3, e4, e5, e6, e7, e8, e9, e10, e11⟩ := g_idx9 t
  unfold iblk9
  rw [View.read_apply]
  refine congrArg (V c (Pipeline.arrRef spec9 4) : S1x64.Idx → EReal) ?_
  funext a
  apply Fin.ext
  match a with
  | ⟨0, _⟩ => show win9_4.index t (0 : Fin 2) * 1 + 1 * (x 0).val = (k 0).val; rw [e8, hk0]; omega
  | ⟨1, _⟩ => show win9_4.index t (1 : Fin 2) * 64 + 1 * (x 1).val = (k 1).val; rw [e9, hk1]; omega

set_option maxHeartbeats 400000 in
/-- The payload of point `t`'s blocks at `(p, q)` is the output function at row `10000 t + p`, column `q`. -/
theorem g_pt9 (c : Dev nD) (t : Fin cfg9.N) (p : Fin 10000) (q : Fin 64) (i : S50000x64.Idx)
    (hi0 : (i 0).val = 10000 * t.val + p.val) (hi1 : (i 1).val = q.val) :
    k9_pay1 (F := Ideal) (iblk9 V c 0 t) (iblk9 V c 1 t) (iblk9 V c 2 t) (iblk9 V c 3 t) (iblk9 V c 4 t) (ix2 p q) = g_G9 V c i := by
  refine (bn9_at (iblk9 V c 0 t) (iblk9 V c 1 t) (iblk9 V c 2 t) (iblk9 V c 3 t) (iblk9 V c 4 t) p q).trans ?_
  exact g_bn_blk9 (iblk9 V c 0 t) (iblk9 V c 1 t) (iblk9 V c 2 t) (iblk9 V c 3 t) (iblk9 V c 4 t)
    (V c (Pipeline.arrRef spec9 0)) (V c (Pipeline.arrRef spec9 1)) (V c (Pipeline.arrRef spec9 2))
    (V c (Pipeline.arrRef spec9 3)) (V c (Pipeline.arrRef spec9 4)) p q i
    (g_blk9_0 V c t (ix2 p q) (ix2 (i 0 : Fin 50000) (i 1 : Fin 64)) hi0 hi1)
    (g_blk9_1 V c t (ix2 (0 : Fin 1) q) (ix2 (0 : Fin 1) (i 1 : Fin 64)) rfl hi1)
    (g_blk9_2 V c t (ix2 (0 : Fin 1) q) (ix2 (0 : Fin 1) (i 1 : Fin 64)) rfl hi1)
    (g_blk9_3 V c t (ix2 (0 : Fin 1) q) (ix2 (0 : Fin 1) (i 1 : Fin 64)) rfl hi1)
    (g_blk9_4 V c t (ix2 (0 : Fin 1) q) (ix2 (0 : Fin 1) (i 1 : Fin 64)) rfl hi1)

set_option maxHeartbeats 400000 in
/-- What point `t` writes back is block `t` of the output function. -/
theorem g_flushed9 (c : Dev nD) (t : Fin cfg9.N) :
    (dat9 V c).flushed 5 t = ((cfg9.win 5).blk t).view.read (Elt Ideal) (g_G9 V c) := by
  show (cfg9.win 5).cut (grid9.coords t) ((dat9 V c).after 5 t) = _
  rw [after9_5]
  unfold out9_5
  rw [View.canon_unit_zero g_hz9]
  simp only [View.ld_unit_zero (S := S10000x64) g_hz9, View.ld_unit_zero (S := S1x64) g_hz9]
  obtain ⟨e0, e1, e2, e3, e4, e5, e6, e7, e8, e9, e10, e11⟩ := g_idx9 t
  refine funext fun (j : S10000x64.Idx) => ?_
  obtain ⟨p, q, rfl⟩ : ∃ (p : Fin 10000) (q : Fin 64), j = ix2 p q := ⟨j 0, j 1, eq_ix2 j⟩
  refine g_pt9 V c t p q (((cfg9.win 5).blk t).view.emb (ix2 p q)) ?_ ?_
  · show win9_5.index t (0 : Fin 2) * 10000 + 1 * p.val = 10000 * t.val + p.val
    rw [e10]; omega
  · show win9_5.index t (1 : Fin 2) * 64 + 1 * q.val = q.val
    rw [e11]; omega

/-- An index is in point `t`'s output block iff each coordinate is in the block's range. -/
theorem g_mem9 (t : Fin cfg9.N) (i : S50000x64.Idx) :
    i ∈ ((cfg9.win 5).blk t).view.set ↔ ∀ a : Fin 2, win9_5.index t a * S10000x64.size a ≤ (i a).val
      ∧ (i a).val < win9_5.index t a * S10000x64.size a + S10000x64.size a := by
  show i ∈ ((View.whole main_v142).slice (win9_5.rect t)).set ↔ _
  rw [View.set_slice_whole, Rect.mem_set_unit]
  exact Iff.rfl

set_option maxHeartbeats 400000 in
/-- Every index of the output array is in the block of the point `row / 10000`. -/
theorem g_cover9 (i : S50000x64.Idx) :
    ∃ t : Fin cfg9.N, (cfg9.win 5).flush t = true ∧ i ∈ ((cfg9.win 5).blk t).view.set := by
  have hN : cfg9.N = 5 := N_9
  have hi0 : (i 0).val < 50000 := (i 0).isLt
  have hi1 : (i 1).val < 64 := (i 1).isLt
  obtain ⟨t, ht⟩ : ∃ t : Fin cfg9.N, t.val = (i 0).val / 10000 :=
    ⟨⟨(i 0).val / 10000, lt_of_lt_of_eq (by omega : (i 0).val / 10000 < 5) hN.symm⟩, rfl⟩
  obtain ⟨e0, e1, e2, e3, e4, e5, e6, e7, e8, e9, e10, e11⟩ := g_idx9 t
  refine ⟨t, flush9_5 t, ?_⟩
  rw [g_mem9]
  intro a
  match a with
  | ⟨0, _⟩ =>
    show win9_5.index t (0 : Fin 2) * 10000 ≤ (i 0).val ∧ (i 0).val < win9_5.index t (0 : Fin 2) * 10000 + 10000
    rw [e10, ht]; omega
  | ⟨1, _⟩ =>
    show win9_5.index t (1 : Fin 2) * 64 ≤ (i 1).val ∧ (i 1).val < win9_5.index t (1 : Fin 2) * 64 + 64
    rw [e11]; omega

set_option maxHeartbeats 400000 in
/-- Region 9's output array after the region: the normalisation of its five operand arrays. -/
theorem val9 (c : Dev nD) :
    (dat9 V c).arrAt 5 cfg9.N
      = Cert.Spec.toVec2 (Cert.Spec.norm (Ideal.ofBits .f32 0x3727C5AC#32)
        (Cert.Spec.ofVec2 (V c (Pipeline.arrRef spec9 0) : S50000x64.Idx → EReal))
        (Cert.Spec.ofRow (V c (Pipeline.arrRef spec9 1) : S1x64.Idx → EReal))
        (Cert.Spec.ofRow (V c (Pipeline.arrRef spec9 2) : S1x64.Idx → EReal))
        (Cert.Spec.ofRow (V c (Pipeline.arrRef spec9 3) : S1x64.Idx → EReal))
        (Cert.Spec.ofRow (V c (Pipeline.arrRef spec9 4) : S1x64.Idx → EReal))) :=
  (dat9 V c).arrAt_eq_of_cover 5 (g_G9 V c) (fun t _ => g_flushed9 V c t) g_cover9

end Val

end Cert.KernelIdeal.Hand

end
-- ==== Proof.PayR.lean ====
/-
  The perceptron regions' payloads read at an index, at the ideal values: the block each point stores is
  `max(x · w1 + b1, 0) · w2 + b2` entry by entry, the two accumulators add the block's column sums and the column
  sums of its squares to what they held, and both start from zero. Stated over variable vectors with explicit
  coordinates, for each of the three regions that run the perceptron.
-/
import proofs.«172917_j75840532513057_2_alg».proof.Proof.Gen.KernelIdeal.Skeleton
import proofs.«172917_j75840532513057_2_alg».proof.Proof.Spec
import Idealize.ShloMosaic.Lib.ValueIdx
import Idealize.ShloMosaic.PureOps.Ideal.Laws
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-! ## The non-pointwise operations of the perceptron's payloads, read at an index -/

/-- The source index over column `q` with row `k` inserted is `(k, q)`. -/
theorem e_lift_col (q : Fin 64) (k : Fin 10000) :
    Shape.Reduces.lift (s := S10000x64) (t := S64) (a := 0) reduces_S10000x64_S64 (ix1 q) k = ix2 k q := by
  funext c; apply Fin.ext
  match c with
  | ⟨0, _⟩ => rfl
  | ⟨1, _⟩ => rfl

/-- The sum over the rows of a 10000 × 64 block, read at column `q`. -/
theorem e_colsum_at (src : FVec Ideal S10000x64 .f32) (hacc : (0x00000000#32 : BitVec 32) = 0x00000000#32) (q : Fin 64) :
    multiReduction (F := Ideal) .add [0] S64 src 0x00000000#32 reduces_S10000x64_S64 (.inl rfl) hacc (ix1 q)
      = ∑ p : Fin 10000, src (ix2 p q) := by
  refine (Ideal.multiReduction_add_single src 0x00000000#32 reduces_S10000x64_S64 (.inl rfl) hacc (ix1 q)).trans ?_
  exact Finset.sum_congr rfl fun k _ => congrArg src (e_lift_col q k)

/-- The first product, 10000 × 64 by 64 × 128 into the zero accumulator, read at `(p, j)`. -/
theorem e_matmul1_at (a : FVec Ideal S10000x64 .bf16) (w : FVec Ideal S64x128 .bf16) (p : Fin 10000) (j : Fin 128) :
    matmul (F := Ideal) dot_S10000x64_S64x128_S10000x128_1_0_0_1_n_n none a w (constant S10000x128 .f32 0x00000000#32) (ix2 p j)
      = ∑ k : Fin 64, a (ix2 p k) * w (ix2 k j) := by
  show FloatOps.matmul _ none a w _ (ix2 p j) = _
  rw [Ideal.matmul_constant_zero_apply,
    ← Equiv.sum_comp (contrEquiv1 dot_S10000x64_S64x128_S10000x128_1_0_0_1_n_n 64 rfl rfl).symm]
  refine Finset.sum_congr rfl fun c _ => ?_
  have c2 := contrEquiv1_symm_val dot_S10000x64_S64x128_S10000x128_1_0_0_1_n_n 64 rfl rfl c
  have l2 : dot_S10000x64_S64x128_S10000x128_1_0_0_1_n_n.lhsIdx (ix2 p j) ((contrEquiv1 _ 64 rfl rfl).symm c) = ix2 p c := by
    funext ax; apply Fin.ext
    match ax with
    | ⟨0, _⟩ => simp [DotDims.lhsIdx, dot_S10000x64_S64x128_S10000x128_1_0_0_1_n_n]; rfl
    | ⟨1, _⟩ => simp [DotDims.lhsIdx, dot_S10000x64_S64x128_S10000x128_1_0_0_1_n_n]; exact c2
  have r2 : dot_S10000x64_S64x128_S10000x128_1_0_0_1_n_n.rhsIdx (ix2 p j) ((contrEquiv1 _ 64 rfl rfl).symm c) = ix2 c j := by
    funext ax; apply Fin.ext
    match ax with
    | ⟨0, _⟩ => simp [DotDims.rhsIdx, dot_S10000x64_S64x128_S10000x128_1_0_0_1_n_n]; exact c2
    | ⟨1, _⟩ => simp [DotDims.rhsIdx, dot_S10000x64_S64x128_S10000x128_1_0_0_1_n_n]; rfl
  rw [l2, r2]

/-- The second product, 10000 × 128 by 128 × 64 into the zero accumulator, read at `(p, q)`. -/
theorem e_matmul2_at (a : FVec Ideal S10000x128 .bf16) (w : FVec Ideal S128x64 .bf16) (p : Fin 10000) (q : Fin 64) :
    matmul (F := Ideal) dot_S10000x128_S128x64_S10000x64_1_0_0_1_n_n none a w (constant S10000x64 .f32 0x00000000#32) (ix2 p q)
      = ∑ k : Fin 128, a (ix2 p k) * w (ix2 k q) := by
  show FloatOps.matmul _ none a w _ (ix2 p q) = _
  rw [Ideal.matmul_constant_zero_apply,
    ← Equiv.sum_comp (contrEquiv1 dot_S10000x128_S128x64_S10000x64_1_0_0_1_n_n 128 rfl rfl).symm]
  refine Finset.sum_congr rfl fun c _ => ?_
  have c2 := contrEquiv1_symm_val dot_S10000x128_S128x64_S10000x64_1_0_0_1_n_n 128 rfl rfl c
  have l2 : dot_S10000x128_S128x64_S10000x64_1_0_0_1_n_n.lhsIdx (ix2 p q) ((contrEquiv1 _ 128 rfl rfl).symm c) = ix2 p c := by
    funext ax; apply Fin.ext
    match ax with
    | ⟨0, _⟩ => simp [DotDims.lhsIdx, dot_S10000x128_S128x64_S10000x64_1_0_0_1_n_n]; rfl
    | ⟨1, _⟩ => simp [DotDims.lhsIdx, dot_S10000x128_S128x64_S10000x64_1_0_0_1_n_n]; exact c2
  have r2 : dot_S10000x128_S128x64_S10000x64_1_0_0_1_n_n.rhsIdx (ix2 p q) ((contrEquiv1 _ 128 rfl rfl).symm c) = ix2 c q := by
    funext ax; apply Fin.ext
    match ax with
    | ⟨0, _⟩ => simp [DotDims.rhsIdx, dot_S10000x128_S128x64_S10000x64_1_0_0_1_n_n]; exact c2
    | ⟨1, _⟩ => simp [DotDims.rhsIdx, dot_S10000x128_S128x64_S10000x64_1_0_0_1_n_n]; rfl
  rw [l2, r2]

/-- The zero word read as an ideal value is zero. -/
theorem e_zero_word : (Scalar.ofBits .f32 0x00000000#32 : Ideal .f32) = 0 := Ideal.ofBits_zero_f32

/-- An accumulator row plus a 64-vector laid out as a row, read at column `q`. -/
theorem e_acc_at (acc : Vec Ideal S1x64 .f32) (r : FVec Ideal S64 .f32) (q : Fin 64) :
    shapeCast S1x64 (addf acc (shapeCast S1x64 r shapeCasts_S64_S1x64)) shapeCasts_S1x64_S1x64 (ix2 (0 : Fin 1) q)
      = acc (ix2 (0 : Fin 1) q) + r (ix1 q) := by
  rw [shapeCast_self, addf_apply]
  exact congrArg (acc (ix2 (0 : Fin 1) q) + ·) (shapeCast_a_1a_apply r shapeCasts_S64_S1x64 (0 : Fin 1) q)

/-! ## Region 2's payloads at an index -/

set_option maxHeartbeats 400000 in
/-- The block the perceptron stores, at row `p` and column `q`: `max(x · w1 + b1, 0) · w2 + b2` there. -/
theorem k2_pay4_at (x : Vec Ideal S10000x64 .f32) (w1 : Vec Ideal S64x128 .f32) (b1 : Vec Ideal S1x128 .f32)
    (w2 : Vec Ideal S128x64 .f32) (b2 : Vec Ideal S1x64 .f32) (p : Fin 10000) (q : Fin 64) :
    k2_pay4 x w1 b1 w2 b2 (ix2 p q)
      = Spec.mlp (Spec.ofVec2 x) (Spec.ofVec2 w1) (Spec.ofRow b1) (Spec.ofVec2 w2) (Spec.ofRow b2) p q := by
  unfold k2_pay4
  simp only [shapeCast_self, addf_apply, e_matmul2_at, truncf_apply, maximumf_apply, e_matmul1_at, broadcast_apply,
    broadcastTo_1b_ab_apply, e_zero_word]
  rfl

/-- The column-sum accumulator after a point: what it held plus the block's column sums. -/
theorem k2_pay5_at (x : Vec Ideal S10000x64 .f32) (w1 : Vec Ideal S64x128 .f32) (b1 : Vec Ideal S1x128 .f32)
    (w2 : Vec Ideal S128x64 .f32) (b2 : Vec Ideal S1x64 .f32) (acc : Vec Ideal S1x64 .f32) (q : Fin 64) :
    k2_pay5 x w1 b1 w2 b2 acc (ix2 (0 : Fin 1) q)
      = acc (ix2 (0 : Fin 1) q) + ∑ p : Fin 10000, k2_pay4 x w1 b1 w2 b2 (ix2 p q) := by
  unfold k2_pay5
  exact (e_acc_at acc _ q).trans (congrArg (acc (ix2 (0 : Fin 1) q) + ·) (e_colsum_at _ rfl q))

/-- The accumulator of squares after a point: what it held plus the column sums of the block's squares. -/
theorem k2_pay1_at (v : FVec Ideal S10000x64 .f32) (acc : Vec Ideal S1x64 .f32) (q : Fin 64) :
    k2_pay1 v acc (ix2 (0 : Fin 1) q) = acc (ix2 (0 : Fin 1) q) + ∑ p : Fin 10000, v (ix2 p q) * v (ix2 p q) := by
  unfold k2_pay1
  exact (e_acc_at acc _ q).trans (congrArg (acc (ix2 (0 : Fin 1) q) + ·) (e_colsum_at (mulf v v) rfl q))

/-- The two accumulators start from zero. -/
theorem k2_pay2_at (q : Fin 64) : k2_pay2 (F := Ideal) (ix2 (0 : Fin 1) q) = 0 := by
  unfold k2_pay2
  rw [shapeCast_self]
  exact e_zero_word

theorem k2_pay3_at (q : Fin 64) : k2_pay3 (F := Ideal) (ix2 (0 : Fin 1) q) = 0 := by
  unfold k2_pay3
  rw [shapeCast_self]
  exact e_zero_word

/-! ## Region 5's payloads at an index: the same perceptron, so the same values -/

theorem k5_pay4_at (x : Vec Ideal S10000x64 .f32) (w1 : Vec Ideal S64x128 .f32) (b1 : Vec Ideal S1x128 .f32)
    (w2 : Vec Ideal S128x64 .f32) (b2 : Vec Ideal S1x64 .f32) (p : Fin 10000) (q : Fin 64) :
    k5_pay4 x w1 b1 w2 b2 (ix2 p q)
      = Spec.mlp (Spec.ofVec2 x) (Spec.ofVec2 w1) (Spec.ofRow b1) (Spec.ofVec2 w2) (Spec.ofRow b2) p q :=
  k2_pay4_at x w1 b1 w2 b2 p q

theorem k5_pay5_at (x : Vec Ideal S10000x64 .f32) (w1 : Vec Ideal S64x128 .f32) (b1 : Vec Ideal S1x128 .f32)
    (w2 : Vec Ideal S128x64 .f32) (b2 : Vec Ideal S1x64 .f32) (acc : Vec Ideal S1x64 .f32) (q : Fin 64) :
    k5_pay5 x w1 b1 w2 b2 acc (ix2 (0 : Fin 1) q)
      = acc (ix2 (0 : Fin 1) q) + ∑ p : Fin 10000, k5_pay4 x w1 b1 w2 b2 (ix2 p q) :=
  k2_pay5_at x w1 b1 w2 b2 acc q

theorem k5_pay1_at (v : FVec Ideal S10000x64 .f32) (acc : Vec Ideal S1x64 .f32) (q : Fin 64) :
    k5_pay1 v acc (ix2 (0 : Fin 1) q) = acc (ix2 (0 : Fin 1) q) + ∑ p : Fin 10000, v (ix2 p q) * v (ix2 p q) :=
  k2_pay1_at v acc q

theorem k5_pay2_at (q : Fin 64) : k5_pay2 (F := Ideal) (ix2 (0 : Fin 1) q) = 0 := k2_pay2_at q

theorem k5_pay3_at (q : Fin 64) : k5_pay3 (F := Ideal) (ix2 (0 : Fin 1) q) = 0 := k2_pay3_at q

/-! ## Region 8's payloads at an index: the same perceptron, so the same values -/

theorem k8_pay4_at (x : Vec Ideal S10000x64 .f32) (w1 : Vec Ideal S64x128 .f32) (b1 : Vec Ideal S1x128 .f32)
    (w2 : Vec Ideal S128x64 .f32) (b2 : Vec Ideal S1x64 .f32) (p : Fin 10000) (q : Fin 64) :
    k8_pay4 x w1 b1 w2 b2 (ix2 p q)
      = Spec.mlp (Spec.ofVec2 x) (Spec.ofVec2 w1) (Spec.ofRow b1) (Spec.ofVec2 w2) (Spec.ofRow b2) p q :=
  k2_pay4_at x w1 b1 w2 b2 p q

theorem k8_pay5_at (x : Vec Ideal S10000x64 .f32) (w1 : Vec Ideal S64x128 .f32) (b1 : Vec Ideal S1x128 .f32)
    (w2 : Vec Ideal S128x64 .f32) (b2 : Vec Ideal S1x64 .f32) (acc : Vec Ideal S1x64 .f32) (q : Fin 64) :
    k8_pay5 x w1 b1 w2 b2 acc (ix2 (0 : Fin 1) q)
      = acc (ix2 (0 : Fin 1) q) + ∑ p : Fin 10000, k8_pay4 x w1 b1 w2 b2 (ix2 p q) :=
  k2_pay5_at x w1 b1 w2 b2 acc q

theorem k8_pay1_at (v : FVec Ideal S10000x64 .f32) (acc : Vec Ideal S1x64 .f32) (q : Fin 64) :
    k8_pay1 v acc (ix2 (0 : Fin 1) q) = acc (ix2 (0 : Fin 1) q) + ∑ p : Fin 10000, v (ix2 p q) * v (ix2 p q) :=
  k2_pay1_at v acc q

theorem k8_pay2_at (q : Fin 64) : k8_pay2 (F := Ideal) (ix2 (0 : Fin 1) q) = 0 := k2_pay2_at q

theorem k8_pay3_at (q : Fin 64) : k8_pay3 (F := Ideal) (ix2 (0 : Fin 1) q) = 0 := k2_pay3_at q

end Cert.KernelIdeal.Hand

end
-- ==== Proof.ValRSum.lean ====
/-
  Pure facts the perceptron regions' value proofs share: the perceptron's output at a row depends on its input
  only through that row; and a sum over the 50000 rows, taken over the naturals below 50000 with the summand
  continued by zero, grows tile by tile of 10000 rows.
-/
import proofs.«172917_j75840532513057_2_alg».proof.Proof.Spec
import Mathlib.Algebra.BigOperators.Fin
import Mathlib.Algebra.BigOperators.Intervals

noncomputable section

open scoped BigOperators

namespace Cert.KernelIdeal.Hand

open Cert

/-! ### Sums over the rows, and the perceptron row by row -/

/-- The perceptron's row `p` depends on its input only through the input's row. -/
theorem e_mlp_row {M M' K H N : Nat} (a : Fin M → Fin K → EReal) (a' : Fin M' → Fin K → EReal)
    (w1 : Fin K → Fin H → EReal) (b1 : Fin H → EReal) (w2 : Fin H → Fin N → EReal) (b2 : Fin N → EReal)
    (p : Fin M) (r : Fin M') (h : ∀ k, a p k = a' r k) (q : Fin N) :
    Spec.mlp a w1 b1 w2 b2 p q = Spec.mlp a' w1 b1 w2 b2 r q := by
  unfold Spec.mlp Spec.lin
  simp only [h]

/-- A function of the 50000 rows, continued by zero past them. -/
def e_ext (g : Fin 50000 → EReal) (r : ℕ) : EReal := if h : r < 50000 then g ⟨r, h⟩ else 0

theorem e_ext_of_lt (g : Fin 50000 → EReal) (r : ℕ) (h : r < 50000) : e_ext g r = g ⟨r, h⟩ := dif_pos h

/-- The sum over the first 50000 naturals is the sum over the rows. -/
theorem e_sum_ext (g : Fin 50000 → EReal) : ∑ r ∈ Finset.range 50000, e_ext g r = ∑ r : Fin 50000, g r := by
  rw [Finset.sum_range]
  exact Finset.sum_congr rfl fun r _ => e_ext_of_lt g r.val r.isLt

/-- One more tile of 10000 rows. -/
theorem e_sum_tile (g : Fin 50000 → EReal) (n : ℕ) :
    ∑ r ∈ Finset.range (10000 * (n + 1)), e_ext g r
      = ∑ r ∈ Finset.range (10000 * n), e_ext g r + ∑ p : Fin 10000, e_ext g (10000 * n + p.val) := by
  have e : 10000 * (n + 1) = 10000 * n + 10000 := by omega
  rw [e, Finset.sum_range_add]
  exact congrArg (∑ r ∈ Finset.range (10000 * n), e_ext g r + ·) (Finset.sum_range fun x => e_ext g (10000 * n + x))

end Cert.KernelIdeal.Hand

end
-- ==== Proof.ValR2.lean ====
/-
  Region 2's values at the ideal instance. The perceptron region stores, point by point, a block of 10000 rows of
  `max(x · w1 + b1, 0) · w2 + b2` and keeps two running rows, the column sums of what it has stored and the column
  sums of the squares, written back once after the last point. So the three output arrays end holding the
  perceptron's output over all 50000 rows, its column sums, and the column sums of its squares.
-/
import proofs.«172917_j75840532513057_2_alg».proof.Proof.BodyR2
import proofs.«172917_j75840532513057_2_alg».proof.Proof.PayR
import proofs.«172917_j75840532513057_2_alg».proof.Proof.ValRSum
import proofs.«172917_j75840532513057_2_alg».proof.Proof.Gen.KernelIdeal.Launch
import proofs.«172917_j75840532513057_2_alg».proof.Proof.Gen.KernelIdeal.Points
import Idealize.ShloMosaic.Lib.Pipeline.Value

set_option maxRecDepth 16384

noncomputable section

/-! ## Region 2's values at the ideal instance -/

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The perceptron's output over all 50000 rows of region 2's arrays, as the region finds them. -/
def e_mlp2 (c : Dev nD) : Fin 50000 → Fin 64 → EReal :=
  Spec.mlp (Spec.ofVec2 (M := 50000) (N := 64) (V c main_v30)) (Spec.ofVec2 (M := 64) (N := 128) (V c main_v32))
    (Spec.ofRow (N := 128) (V c main_v35)) (Spec.ofVec2 (M := 128) (N := 64) (V c main_v37)) (Spec.ofRow (N := 64) (V c main_v40))

/-! ### Region 2's index maps over the grid -/

/-- The two row windows move with the point; every other window stays at block (0, 0). -/
theorem e_idx2 : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0) :=
  (by decide +kernel : ∀ t : Fin grid2.N, _)

/-! ### The input blocks, read where the windows say -/

/-- Block `t` of the rows' window is rows `10000 t …` of its array. -/
theorem e_blk2_0 (c : Dev nD) (t : Fin cfg2.N) (p : Fin 10000) (k : Fin 64) (r : Fin 50000)
    (hr : r.val = 10000 * t.val + p.val) :
    (iblk2 V c 0 t : Vec Ideal S10000x64 .f32) (ix2 p k) = (V c main_v30 : S50000x64.Idx → EReal) (ix2 r k) := by
  have hi := (e_idx2 t).1
  unfold iblk2
  rw [View.read_apply]
  show V c main_v30 _ = V c main_v30 _
  congr 1
  funext a; apply Fin.ext
  match a with
  | ⟨0, _⟩ => show win2_0.index t (0 : Fin 2) * 10000 + 1 * p.val = r.val; rw [hi.1, hr]; omega
  | ⟨1, _⟩ => show win2_0.index t (1 : Fin 2) * 64 + 1 * k.val = k.val; rw [hi.2]; omega

/-- The first weights' window is its whole array at every point. -/
theorem e_blk2_1 (c : Dev nD) (t : Fin cfg2.N) (a : Fin 64) (b : Fin 128) :
    (iblk2 V c 1 t : Vec Ideal S64x128 .f32) (ix2 a b) = (V c main_v32 : S64x128.Idx → EReal) (ix2 a b) := by
  have hi := (e_idx2 t).2.1
  unfold iblk2
  rw [View.read_apply]
  show V c main_v32 _ = V c main_v32 _
  congr 1
  funext ax; apply Fin.ext
  match ax with
  | ⟨0, _⟩ => show win2_1.index t (0 : Fin 2) * 64 + 1 * a.val = a.val; rw [hi.1]; omega
  | ⟨1, _⟩ => show win2_1.index t (1 : Fin 2) * 128 + 1 * b.val = b.val; rw [hi.2]; omega

/-- So is the first bias's. -/
theorem e_blk2_2 (c : Dev nD) (t : Fin cfg2.N) (a : Fin 1) (b : Fin 128) :
    (iblk2 V c 2 t : Vec Ideal S1x128 .f32) (ix2 a b) = (V c main_v35 : S1x128.Idx → EReal) (ix2 a b) := by
  have hi := (e_idx2 t).2.2.1
  unfold iblk2
  rw [View.read_apply]
  show V c main_v35 _ = V c main_v35 _
  congr 1
  funext ax; apply Fin.ext
  match ax with
  | ⟨0, _⟩ => show win2_2.index t (0 : Fin 2) * 1 + 1 * a.val = a.val; rw [hi.1]; omega
  | ⟨1, _⟩ => show win2_2.index t (1 : Fin 2) * 128 + 1 * b.val = b.val; rw [hi.2]; omega

/-- So is the second weights'. -/
theorem e_blk2_3 (c : Dev nD) (t : Fin cfg2.N) (a : Fin 128) (b : Fin 64) :
    (iblk2 V c 3 t : Vec Ideal S128x64 .f32) (ix2 a b) = (V c main_v37 : S128x64.Idx → EReal) (ix2 a b) := by
  have hi := (e_idx2 t).2.2.2.1
  unfold iblk2
  rw [View.read_apply]
  show V c main_v37 _ = V c main_v37 _
  congr 1
  funext ax; apply Fin.ext
  match ax with
  | ⟨0, _⟩ => show win2_3.index t (0 : Fin 2) * 128 + 1 * a.val = a.val; rw [hi.1]; omega
  | ⟨1, _⟩ => show win2_3.index t (1 : Fin 2) * 64 + 1 * b.val = b.val; rw [hi.2]; omega

/-- So is the second bias's. -/
theorem e_blk2_4 (c : Dev nD) (t : Fin cfg2.N) (a : Fin 1) (b : Fin 64) :
    (iblk2 V c 4 t : Vec Ideal S1x64 .f32) (ix2 a b) = (V c main_v40 : S1x64.Idx → EReal) (ix2 a b) := by
  have hi := (e_idx2 t).2.2.2.2.1
  unfold iblk2
  rw [View.read_apply]
  show V c main_v40 _ = V c main_v40 _
  congr 1
  funext ax; apply Fin.ext
  match ax with
  | ⟨0, _⟩ => show win2_4.index t (0 : Fin 2) * 1 + 1 * a.val = a.val; rw [hi.1]; omega
  | ⟨1, _⟩ => show win2_4.index t (1 : Fin 2) * 64 + 1 * b.val = b.val; rw [hi.2]; omega

theorem e_w1_2 (c : Dev nD) (t : Fin cfg2.N) :
    Spec.ofVec2 (M := 64) (N := 128) (iblk2 V c 1 t) = Spec.ofVec2 (M := 64) (N := 128) (V c main_v32) :=
  funext fun a => funext fun b => e_blk2_1 V c t a b
theorem e_b1_2 (c : Dev nD) (t : Fin cfg2.N) :
    Spec.ofRow (N := 128) (iblk2 V c 2 t) = Spec.ofRow (N := 128) (V c main_v35) :=
  funext fun j => e_blk2_2 V c t (0 : Fin 1) j
theorem e_w2_2 (c : Dev nD) (t : Fin cfg2.N) :
    Spec.ofVec2 (M := 128) (N := 64) (iblk2 V c 3 t) = Spec.ofVec2 (M := 128) (N := 64) (V c main_v37) :=
  funext fun a => funext fun b => e_blk2_3 V c t a b
theorem e_b2_2 (c : Dev nD) (t : Fin cfg2.N) :
    Spec.ofRow (N := 64) (iblk2 V c 4 t) = Spec.ofRow (N := 64) (V c main_v40) :=
  funext fun j => e_blk2_4 V c t (0 : Fin 1) j

/-- What point `t` stores, at row `p` of its block: the perceptron's output at row `10000 t + p` of the arrays. -/
theorem e_pay4_2 (c : Dev nD) (t : Fin cfg2.N) (p : Fin 10000) (q : Fin 64) (r : Fin 50000)
    (hr : r.val = 10000 * t.val + p.val) :
    k2_pay4 (iblk2 V c 0 t) (iblk2 V c 1 t) (iblk2 V c 2 t) (iblk2 V c 3 t) (iblk2 V c 4 t) (ix2 p q) = e_mlp2 V c r q := by
  unfold e_mlp2
  refine (k2_pay4_at (iblk2 V c 0 t) (iblk2 V c 1 t) (iblk2 V c 2 t) (iblk2 V c 3 t) (iblk2 V c 4 t) p q).trans ?_
  rw [e_w1_2 V c t, e_b1_2 V c t, e_w2_2 V c t, e_b2_2 V c t]
  exact e_mlp_row _ _ _ _ _ _ p r (fun k => e_blk2_0 V c t p k r hr) q

/-! ### The rows' output array -/

/-- What point `t` writes back is block `t` of the perceptron's output. -/
theorem e_flushed2_5 (c : Dev nD) (t : Fin cfg2.N) :
    (dat2 V c).flushed 5 t = ((cfg2.win 5).blk t).view.read (Elt Ideal) (Spec.toVec2 (e_mlp2 V c)) := by
  have hi := (e_idx2 t).2.2.2.2.2.1
  have hN : cfg2.N = 5 := N_2
  have ht : t.val < 5 := by have := t.isLt; omega
  show (cfg2.win 5).cut (grid2.coords t) ((dat2 V c).after 5 t) = _
  rw [after2_5]
  funext j
  have hj0 : (j 0).val < 10000 := (j 0).isLt
  have hj1 : (j 1).val < 64 := (j 1).isLt
  have hx : (cfg2.win 5).xinj (grid2.coords t) j = ix2 (⟨(j 0).val, hj0⟩ : Fin 10000) (⟨(j 1).val, hj1⟩ : Fin 64) := by
    funext a
    match a with
    | ⟨0, _⟩ => rfl
    | ⟨1, _⟩ => rfl
  show k2_pay4 (iblk2 V c 0 t) (iblk2 V c 1 t) (iblk2 V c 2 t) (iblk2 V c 3 t) (iblk2 V c 4 t) ((cfg2.win 5).xinj (grid2.coords t) j)
      = Spec.toVec2 (e_mlp2 V c) (((cfg2.win 5).blk t).view.emb j)
  refine (congrArg (k2_pay4 (iblk2 V c 0 t) (iblk2 V c 1 t) (iblk2 V c 2 t) (iblk2 V c 3 t) (iblk2 V c 4 t)) hx).trans ?_
  refine (e_pay4_2 V c t ⟨(j 0).val, hj0⟩ ⟨(j 1).val, hj1⟩ ⟨10000 * t.val + (j 0).val, by omega⟩ rfl).trans ?_
  show _ = e_mlp2 V c ((((cfg2.win 5).blk t).view.emb j) (0 : Fin 2)) ((((cfg2.win 5).blk t).view.emb j) (1 : Fin 2))
  refine congrArg₂ (e_mlp2 V c) (Fin.ext ?_) (Fin.ext ?_)
  · show 10000 * t.val + (j 0).val = win2_5.index t (0 : Fin 2) * 10000 + 1 * (j 0).val
    rw [hi.1]; omega
  · show (j 1).val = win2_5.index t (1 : Fin 2) * 64 + 1 * (j 1).val
    rw [hi.2]; omega

/-- The rows' output array ends holding the perceptron's output: row `r` is written by point `r / 10000`. -/
theorem val2_5 (c : Dev nD) : (dat2 V c).arrAt 5 cfg2.N = Spec.toVec2 (e_mlp2 V c) :=
  (dat2 V c).arrAt_eq_of_cover 5 (Spec.toVec2 (e_mlp2 V c)) (fun t _ => e_flushed2_5 V c t) fun i => by
    have hi0 : (i 0).val < 50000 := (i 0).isLt
    have hi1 : (i 1).val < 64 := (i 1).isLt
    have hN : cfg2.N = 5 := N_2
    obtain ⟨t, ht⟩ : ∃ t : Fin cfg2.N, t.val = (i 0).val / 10000 := ⟨⟨(i 0).val / 10000, by omega⟩, rfl⟩
    have hi := (e_idx2 t).2.2.2.2.2.1
    refine ⟨t, flush2_5 t, ?_⟩
    show i ∈ ((View.whole main_v41_0).slice (win2_5.rect t)).set
    rw [View.set_slice_whole, Rect.mem_set_unit]
    intro a
    match a with
    | ⟨0, _⟩ =>
      show win2_5.index t (0 : Fin 2) * 10000 ≤ (i 0).val ∧ (i 0).val < win2_5.index t (0 : Fin 2) * 10000 + 10000
      rw [hi.1]; omega
    | ⟨1, _⟩ =>
      show win2_5.index t (1 : Fin 2) * 64 ≤ (i 1).val ∧ (i 1).val < win2_5.index t (1 : Fin 2) * 64 + 64
      rw [hi.2]; omega

/-! ### The two accumulators, point by point -/

/-- After `n` points the first accumulator holds the column sums of the output's first `10000 n` rows. -/
theorem e_scr2_1 (c : Dev nD) : ∀ (n : ℕ) (hn : n ≤ cfg2.N) (q : Fin 64),
    (scr2 V c n hn).1 (ix2 (0 : Fin 1) q) = ∑ r ∈ Finset.range (10000 * n), e_ext (fun r => e_mlp2 V c r q) r
  | 0, hn, q => by
    show k2_pay2 (F := Ideal) (ix2 (0 : Fin 1) q) = _
    rw [k2_pay2_at, Nat.mul_zero, Finset.range_zero, Finset.sum_empty]
  | n + 1, hn, q => by
    have hN : cfg2.N = 5 := N_2
    rw [scr2_succ]
    show k2_pay5 (iblk2 V c 0 ⟨n, hn⟩) (iblk2 V c 1 ⟨n, hn⟩) (iblk2 V c 2 ⟨n, hn⟩) (iblk2 V c 3 ⟨n, hn⟩) (iblk2 V c 4 ⟨n, hn⟩)
        (scr2 V c n (Nat.le_of_succ_le hn)).1 (ix2 (0 : Fin 1) q) = _
    refine (k2_pay5_at (iblk2 V c 0 ⟨n, hn⟩) (iblk2 V c 1 ⟨n, hn⟩) (iblk2 V c 2 ⟨n, hn⟩) (iblk2 V c 3 ⟨n, hn⟩) (iblk2 V c 4 ⟨n, hn⟩)
        (scr2 V c n (Nat.le_of_succ_le hn)).1 q).trans ?_
    rw [e_scr2_1 c n (Nat.le_of_succ_le hn) q, e_sum_tile]
    refine congrArg (∑ r ∈ Finset.range (10000 * n), e_ext (fun r => e_mlp2 V c r q) r + ·) (Finset.sum_congr rfl fun p _ => ?_)
    have hp : 10000 * n + p.val < 50000 := by have := p.isLt; omega
    exact (e_pay4_2 V c ⟨n, hn⟩ p q ⟨10000 * n + p.val, hp⟩ rfl).trans (e_ext_of_lt (fun r => e_mlp2 V c r q) _ hp).symm

/-- After `n` points the second holds the column sums of the squares of those rows. -/
theorem e_scr2_2 (c : Dev nD) : ∀ (n : ℕ) (hn : n ≤ cfg2.N) (q : Fin 64),
    (scr2 V c n hn).2 (ix2 (0 : Fin 1) q)
      = ∑ r ∈ Finset.range (10000 * n), e_ext (fun r => e_mlp2 V c r q * e_mlp2 V c r q) r
  | 0, hn, q => by
    show k2_pay3 (F := Ideal) (ix2 (0 : Fin 1) q) = _
    rw [k2_pay3_at, Nat.mul_zero, Finset.range_zero, Finset.sum_empty]
  | n + 1, hn, q => by
    have hN : cfg2.N = 5 := N_2
    rw [scr2_succ]
    show k2_pay1 (k2_pay4 (iblk2 V c 0 ⟨n, hn⟩) (iblk2 V c 1 ⟨n, hn⟩) (iblk2 V c 2 ⟨n, hn⟩) (iblk2 V c 3 ⟨n, hn⟩) (iblk2 V c 4 ⟨n, hn⟩))
        (scr2 V c n (Nat.le_of_succ_le hn)).2 (ix2 (0 : Fin 1) q) = _
    refine (k2_pay1_at (k2_pay4 (iblk2 V c 0 ⟨n, hn⟩) (iblk2 V c 1 ⟨n, hn⟩) (iblk2 V c 2 ⟨n, hn⟩) (iblk2 V c 3 ⟨n, hn⟩) (iblk2 V c 4 ⟨n, hn⟩))
        (scr2 V c n (Nat.le_of_succ_le hn)).2 q).trans ?_
    rw [e_scr2_2 c n (Nat.le_of_succ_le hn) q, e_sum_tile]
    refine congrArg (∑ r ∈ Finset.range (10000 * n), e_ext (fun r => e_mlp2 V c r q * e_mlp2 V c r q) r + ·)
      (Finset.sum_congr rfl fun p _ => ?_)
    have hp : 10000 * n + p.val < 50000 := by have := p.isLt; omega
    have h4 := e_pay4_2 V c ⟨n, hn⟩ p q ⟨10000 * n + p.val, hp⟩ rfl
    exact (congrArg₂ (fun a b : EReal => a * b) h4 h4).trans (e_ext_of_lt (fun r => e_mlp2 V c r q * e_mlp2 V c r q) _ hp).symm

/-- After all five points: the column sums, and the column sums of squares, of the whole output. -/
theorem e_scr2_1_last (c : Dev nD) (q : Fin 64) :
    (scr2 V c 5 (le_of_eq N_2.symm)).1 (ix2 (0 : Fin 1) q) = Spec.colsum (e_mlp2 V c) q :=
  (e_scr2_1 V c 5 (le_of_eq N_2.symm) q).trans (e_sum_ext fun r => e_mlp2 V c r q)
theorem e_scr2_2_last (c : Dev nD) (q : Fin 64) :
    (scr2 V c 5 (le_of_eq N_2.symm)).2 (ix2 (0 : Fin 1) q) = Spec.colsumsq (e_mlp2 V c) q :=
  (e_scr2_2 V c 5 (le_of_eq N_2.symm) q).trans (e_sum_ext fun r => e_mlp2 V c r q * e_mlp2 V c r q)

/-! ### The two statistics arrays: written back once, after the last point -/

theorem e_flushed2_6 (c : Dev nD) (t : Fin cfg2.N) (hf : (cfg2.win 6).flush t = true) :
    (dat2 V c).flushed 6 t = ((cfg2.win 6).blk t).view.read (Elt Ideal) (Spec.toRow (Spec.colsum (e_mlp2 V c))) := by
  have hN : cfg2.N = 5 := N_2
  have h4 : t.val = 4 := by have := (flush2_6 t).mp hf; have := t.isLt; omega
  have hi := (e_idx2 t).2.2.2.2.2.2.1
  show (cfg2.win 6).cut (grid2.coords t) ((dat2 V c).after 6 t) = _
  obtain ⟨acc, hacc⟩ : ∃ acc : Vec Ideal S1x64 .f32, acc = (dat2 V c).after 6 t := ⟨_, rfl⟩
  rw [← hacc]
  have key : ∀ q : Fin 64, acc (ix2 (0 : Fin 1) q) = Spec.colsum (e_mlp2 V c) q := by
    intro q; rw [hacc, after2_6 V c t h4]; exact e_scr2_1_last V c q
  clear hacc
  obtain ⟨G, hG⟩ : ∃ G : S1x64.Idx → EReal, G = Spec.toRow (Spec.colsum (e_mlp2 V c)) := ⟨_, rfl⟩
  rw [← hG]
  have hG' : ∀ y : S1x64.Idx, G y = Spec.colsum (e_mlp2 V c) (y (1 : Fin 2)) := by
    intro y; rw [hG]; unfold Spec.toRow; rfl
  clear hG
  funext j
  have hj0 : (j 0).val < 1 := (j 0).isLt
  have hj1 : (j 1).val < 64 := (j 1).isLt
  have hx : (cfg2.win 6).xinj (grid2.coords t) j = ix2 (0 : Fin 1) (⟨(j 1).val, hj1⟩ : Fin 64) := by
    funext a
    match a with
    | ⟨0, _⟩ => exact Fin.ext (by show (j 0).val = 0; omega)
    | ⟨1, _⟩ => rfl
  show acc ((cfg2.win 6).xinj (grid2.coords t) j) = G (((cfg2.win 6).blk t).view.emb j)
  refine (congrArg acc hx).trans ?_
  refine (key ⟨(j 1).val, hj1⟩).trans ?_
  refine Eq.trans ?_ (hG' (((cfg2.win 6).blk t).view.emb j)).symm
  refine congrArg (Spec.colsum (e_mlp2 V c)) (Fin.ext ?_)
  show (j 1).val = win2_6.index t (1 : Fin 2) * 64 + 1 * (j 1).val
  rw [hi.2]; omega

theorem e_flushed2_7 (c : Dev nD) (t : Fin cfg2.N) (hf : (cfg2.win 7).flush t = true) :
    (dat2 V c).flushed 7 t = ((cfg2.win 7).blk t).view.read (Elt Ideal) (Spec.toRow (Spec.colsumsq (e_mlp2 V c))) := by
  have hN : cfg2.N = 5 := N_2
  have h4 : t.val = 4 := by have := (flush2_7 t).mp hf; have := t.isLt; omega
  have hi := (e_idx2 t).2.2.2.2.2.2.2
  show (cfg2.win 7).cut (grid2.coords t) ((dat2 V c).after 7 t) = _
  obtain ⟨acc, hacc⟩ : ∃ acc : Vec Ideal S1x64 .f32, acc = (dat2 V c).after 7 t := ⟨_, rfl⟩
  rw [← hacc]
  have key : ∀ q : Fin 64, acc (ix2 (0 : Fin 1) q) = Spec.colsumsq (e_mlp2 V c) q := by
    intro q; rw [hacc, after2_7 V c t h4]; exact e_scr2_2_last V c q
  clear hacc
  obtain ⟨G, hG⟩ : ∃ G : S1x64.Idx → EReal, G = Spec.toRow (Spec.colsumsq (e_mlp2 V c)) := ⟨_, rfl⟩
  rw [← hG]
  have hG' : ∀ y : S1x64.Idx, G y = Spec.colsumsq (e_mlp2 V c) (y (1 : Fin 2)) := by
    intro y; rw [hG]; unfold Spec.toRow; rfl
  clear hG
  funext j
  have hj0 : (j 0).val < 1 := (j 0).isLt
  have hj1 : (j 1).val < 64 := (j 1).isLt
  have hx : (cfg2.win 7).xinj (grid2.coords t) j = ix2 (0 : Fin 1) (⟨(j 1).val, hj1⟩ : Fin 64) := by
    funext a
    match a with
    | ⟨0, _⟩ => exact Fin.ext (by show (j 0).val = 0; omega)
    | ⟨1, _⟩ => rfl
  show acc ((cfg2.win 7).xinj (grid2.coords t) j) = G (((cfg2.win 7).blk t).view.emb j)
  refine (congrArg acc hx).trans ?_
  refine (key ⟨(j 1).val, hj1⟩).trans ?_
  refine Eq.trans ?_ (hG' (((cfg2.win 7).blk t).view.emb j)).symm
  refine congrArg (Spec.colsumsq (e_mlp2 V c)) (Fin.ext ?_)
  show (j 1).val = win2_7.index t (1 : Fin 2) * 64 + 1 * (j 1).val
  rw [hi.2]; omega

/-- The sum array ends holding the output's column sums: the last point's block is the whole array. -/
theorem val2_6 (c : Dev nD) : (dat2 V c).arrAt 6 cfg2.N = Spec.toRow (Spec.colsum (e_mlp2 V c)) :=
  (dat2 V c).arrAt_eq_of_cover 6 (Spec.toRow (Spec.colsum (e_mlp2 V c))) (e_flushed2_6 V c) fun i => by
    have hi0 : (i 0).val < 1 := (i 0).isLt
    have hi1 : (i 1).val < 64 := (i 1).isLt
    have hi := (e_idx2 t2_4).2.2.2.2.2.2.1
    refine ⟨t2_4, (flush2_6 t2_4).mpr rfl, ?_⟩
    show i ∈ ((View.whole main_v41_1).slice (win2_6.rect t2_4)).set
    rw [View.set_slice_whole, Rect.mem_set_unit]
    intro a
    match a with
    | ⟨0, _⟩ =>
      show win2_6.index t2_4 (0 : Fin 2) * 1 ≤ (i 0).val ∧ (i 0).val < win2_6.index t2_4 (0 : Fin 2) * 1 + 1
      rw [hi.1]; omega
    | ⟨1, _⟩ =>
      show win2_6.index t2_4 (1 : Fin 2) * 64 ≤ (i 1).val ∧ (i 1).val < win2_6.index t2_4 (1 : Fin 2) * 64 + 64
      rw [hi.2]; omega

/-- The sum-of-squares array ends holding the column sums of the output's squares. -/
theorem val2_7 (c : Dev nD) : (dat2 V c).arrAt 7 cfg2.N = Spec.toRow (Spec.colsumsq (e_mlp2 V c)) :=
  (dat2 V c).arrAt_eq_of_cover 7 (Spec.toRow (Spec.colsumsq (e_mlp2 V c))) (e_flushed2_7 V c) fun i => by
    have hi0 : (i 0).val < 1 := (i 0).isLt
    have hi1 : (i 1).val < 64 := (i 1).isLt
    have hi := (e_idx2 t2_4).2.2.2.2.2.2.2
    refine ⟨t2_4, (flush2_7 t2_4).mpr rfl, ?_⟩
    show i ∈ ((View.whole main_v41_2).slice (win2_7.rect t2_4)).set
    rw [View.set_slice_whole, Rect.mem_set_unit]
    intro a
    match a with
    | ⟨0, _⟩ =>
      show win2_7.index t2_4 (0 : Fin 2) * 1 ≤ (i 0).val ∧ (i 0).val < win2_7.index t2_4 (0 : Fin 2) * 1 + 1
      rw [hi.1]; omega
    | ⟨1, _⟩ =>
      show win2_7.index t2_4 (1 : Fin 2) * 64 ≤ (i 1).val ∧ (i 1).val < win2_7.index t2_4 (1 : Fin 2) * 64 + 64
      rw [hi.2]; omega

end Cert.KernelIdeal.Hand

end
-- ==== Proof.ValR5.lean ====
/-
  Region 5's values at the ideal instance. The perceptron region stores, point by point, a block of 10000 rows of
  `max(x · w1 + b1, 0) · w2 + b2` and keeps two running rows, the column sums of what it has stored and the column
  sums of the squares, written back once after the last point. So the three output arrays end holding the
  perceptron's output over all 50000 rows, its column sums, and the column sums of its squares.
-/
import proofs.«172917_j75840532513057_2_alg».proof.Proof.BodyR5
import proofs.«172917_j75840532513057_2_alg».proof.Proof.PayR
import proofs.«172917_j75840532513057_2_alg».proof.Proof.ValRSum
import proofs.«172917_j75840532513057_2_alg».proof.Proof.Gen.KernelIdeal.Launch
import proofs.«172917_j75840532513057_2_alg».proof.Proof.Gen.KernelIdeal.Points
import Idealize.ShloMosaic.Lib.Pipeline.Value

set_option maxRecDepth 16384

noncomputable section

/-! ## Region 5's values at the ideal instance -/

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The perceptron's output over all 50000 rows of region 5's arrays, as the region finds them. -/
def e_mlp5 (c : Dev nD) : Fin 50000 → Fin 64 → EReal :=
  Spec.mlp (Spec.ofVec2 (M := 50000) (N := 64) (V c main_v73)) (Spec.ofVec2 (M := 64) (N := 128) (V c main_v75))
    (Spec.ofRow (N := 128) (V c main_v78)) (Spec.ofVec2 (M := 128) (N := 64) (V c main_v80)) (Spec.ofRow (N := 64) (V c main_v83))

/-! ### Region 5's index maps over the grid -/

/-- The two row windows move with the point; every other window stays at block (0, 0). -/
theorem e_idx5 : ∀ t : Fin cfg5.N,
    (win5_0.index t (0 : Fin 2) = t.val ∧ win5_0.index t (1 : Fin 2) = 0)
    ∧ (win5_1.index t (0 : Fin 2) = 0 ∧ win5_1.index t (1 : Fin 2) = 0)
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_5.index t (0 : Fin 2) = t.val ∧ win5_5.index t (1 : Fin 2) = 0)
    ∧ (win5_6.index t (0 : Fin 2) = 0 ∧ win5_6.index t (1 : Fin 2) = 0)
    ∧ (win5_7.index t (0 : Fin 2) = 0 ∧ win5_7.index t (1 : Fin 2) = 0) :=
  (by decide +kernel : ∀ t : Fin grid5.N, _)

/-! ### The input blocks, read where the windows say -/

/-- Block `t` of the rows' window is rows `10000 t …` of its array. -/
theorem e_blk5_0 (c : Dev nD) (t : Fin cfg5.N) (p : Fin 10000) (k : Fin 64) (r : Fin 50000)
    (hr : r.val = 10000 * t.val + p.val) :
    (iblk5 V c 0 t : Vec Ideal S10000x64 .f32) (ix2 p k) = (V c main_v73 : S50000x64.Idx → EReal) (ix2 r k) := by
  have hi := (e_idx5 t).1
  unfold iblk5
  rw [View.read_apply]
  show V c main_v73 _ = V c main_v73 _
  congr 1
  funext a; apply Fin.ext
  match a with
  | ⟨0, _⟩ => show win5_0.index t (0 : Fin 2) * 10000 + 1 * p.val = r.val; rw [hi.1, hr]; omega
  | ⟨1, _⟩ => show win5_0.index t (1 : Fin 2) * 64 + 1 * k.val = k.val; rw [hi.2]; omega

/-- The first weights' window is its whole array at every point. -/
theorem e_blk5_1 (c : Dev nD) (t : Fin cfg5.N) (a : Fin 64) (b : Fin 128) :
    (iblk5 V c 1 t : Vec Ideal S64x128 .f32) (ix2 a b) = (V c main_v75 : S64x128.Idx → EReal) (ix2 a b) := by
  have hi := (e_idx5 t).2.1
  unfold iblk5
  rw [View.read_apply]
  show V c main_v75 _ = V c main_v75 _
  congr 1
  funext ax; apply Fin.ext
  match ax with
  | ⟨0, _⟩ => show win5_1.index t (0 : Fin 2) * 64 + 1 * a.val = a.val; rw [hi.1]; omega
  | ⟨1, _⟩ => show win5_1.index t (1 : Fin 2) * 128 + 1 * b.val = b.val; rw [hi.2]; omega

/-- So is the first bias's. -/
theorem e_blk5_2 (c : Dev nD) (t : Fin cfg5.N) (a : Fin 1) (b : Fin 128) :
    (iblk5 V c 2 t : Vec Ideal S1x128 .f32) (ix2 a b) = (V c main_v78 : S1x128.Idx → EReal) (ix2 a b) := by
  have hi := (e_idx5 t).2.2.1
  unfold iblk5
  rw [View.read_apply]
  show V c main_v78 _ = V c main_v78 _
  congr 1
  funext ax; apply Fin.ext
  match ax with
  | ⟨0, _⟩ => show win5_2.index t (0 : Fin 2) * 1 + 1 * a.val = a.val; rw [hi.1]; omega
  | ⟨1, _⟩ => show win5_2.index t (1 : Fin 2) * 128 + 1 * b.val = b.val; rw [hi.2]; omega

/-- So is the second weights'. -/
theorem e_blk5_3 (c : Dev nD) (t : Fin cfg5.N) (a : Fin 128) (b : Fin 64) :
    (iblk5 V c 3 t : Vec Ideal S128x64 .f32) (ix2 a b) = (V c main_v80 : S128x64.Idx → EReal) (ix2 a b) := by
  have hi := (e_idx5 t).2.2.2.1
  unfold iblk5
  rw [View.read_apply]
  show V c main_v80 _ = V c main_v80 _
  congr 1
  funext ax; apply Fin.ext
  match ax with
  | ⟨0, _⟩ => show win5_3.index t (0 : Fin 2) * 128 + 1 * a.val = a.val; rw [hi.1]; omega
  | ⟨1, _⟩ => show win5_3.index t (1 : Fin 2) * 64 + 1 * b.val = b.val; rw [hi.2]; omega

/-- So is the second bias's. -/
theorem e_blk5_4 (c : Dev nD) (t : Fin cfg5.N) (a : Fin 1) (b : Fin 64) :
    (iblk5 V c 4 t : Vec Ideal S1x64 .f32) (ix2 a b) = (V c main_v83 : S1x64.Idx → EReal) (ix2 a b) := by
  have hi := (e_idx5 t).2.2.2.2.1
  unfold iblk5
  rw [View.read_apply]
  show V c main_v83 _ = V c main_v83 _
  congr 1
  funext ax; apply Fin.ext
  match ax with
  | ⟨0, _⟩ => show win5_4.index t (0 : Fin 2) * 1 + 1 * a.val = a.val; rw [hi.1]; omega
  | ⟨1, _⟩ => show win5_4.index t (1 : Fin 2) * 64 + 1 * b.val = b.val; rw [hi.2]; omega

theorem e_w1_5 (c : Dev nD) (t : Fin cfg5.N) :
    Spec.ofVec2 (M := 64) (N := 128) (iblk5 V c 1 t) = Spec.ofVec2 (M := 64) (N := 128) (V c main_v75) :=
  funext fun a => funext fun b => e_blk5_1 V c t a b
theorem e_b1_5 (c : Dev nD) (t : Fin cfg5.N) :
    Spec.ofRow (N := 128) (iblk5 V c 2 t) = Spec.ofRow (N := 128) (V c main_v78) :=
  funext fun j => e_blk5_2 V c t (0 : Fin 1) j
theorem e_w2_5 (c : Dev nD) (t : Fin cfg5.N) :
    Spec.ofVec2 (M := 128) (N := 64) (iblk5 V c 3 t) = Spec.ofVec2 (M := 128) (N := 64) (V c main_v80) :=
  funext fun a => funext fun b => e_blk5_3 V c t a b
theorem e_b2_5 (c : Dev nD) (t : Fin cfg5.N) :
    Spec.ofRow (N := 64) (iblk5 V c 4 t) = Spec.ofRow (N := 64) (V c main_v83) :=
  funext fun j => e_blk5_4 V c t (0 : Fin 1) j

/-- What point `t` stores, at row `p` of its block: the perceptron's output at row `10000 t + p` of the arrays. -/
theorem e_pay4_5 (c : Dev nD) (t : Fin cfg5.N) (p : Fin 10000) (q : Fin 64) (r : Fin 50000)
    (hr : r.val = 10000 * t.val + p.val) :
    k5_pay4 (iblk5 V c 0 t) (iblk5 V c 1 t) (iblk5 V c 2 t) (iblk5 V c 3 t) (iblk5 V c 4 t) (ix2 p q) = e_mlp5 V c r q := by
  unfold e_mlp5
  refine (k5_pay4_at (iblk5 V c 0 t) (iblk5 V c 1 t) (iblk5 V c 2 t) (iblk5 V c 3 t) (iblk5 V c 4 t) p q).trans ?_
  rw [e_w1_5 V c t, e_b1_5 V c t, e_w2_5 V c t, e_b2_5 V c t]
  exact e_mlp_row _ _ _ _ _ _ p r (fun k => e_blk5_0 V c t p k r hr) q

/-! ### The rows' output array -/

/-- What point `t` writes back is block `t` of the perceptron's output. -/
theorem e_flushed5_5 (c : Dev nD) (t : Fin cfg5.N) :
    (dat5 V c).flushed 5 t = ((cfg5.win 5).blk t).view.read (Elt Ideal) (Spec.toVec2 (e_mlp5 V c)) := by
  have hi := (e_idx5 t).2.2.2.2.2.1
  have hN : cfg5.N = 5 := N_5
  have ht : t.val < 5 := by have := t.isLt; omega
  show (cfg5.win 5).cut (grid5.coords t) ((dat5 V c).after 5 t) = _
  rw [after5_5]
  funext j
  have hj0 : (j 0).val < 10000 := (j 0).isLt
  have hj1 : (j 1).val < 64 := (j 1).isLt
  have hx : (cfg5.win 5).xinj (grid5.coords t) j = ix2 (⟨(j 0).val, hj0⟩ : Fin 10000) (⟨(j 1).val, hj1⟩ : Fin 64) := by
    funext a
    match a with
    | ⟨0, _⟩ => rfl
    | ⟨1, _⟩ => rfl
  show k5_pay4 (iblk5 V c 0 t) (iblk5 V c 1 t) (iblk5 V c 2 t) (iblk5 V c 3 t) (iblk5 V c 4 t) ((cfg5.win 5).xinj (grid5.coords t) j)
      = Spec.toVec2 (e_mlp5 V c) (((cfg5.win 5).blk t).view.emb j)
  refine (congrArg (k5_pay4 (iblk5 V c 0 t) (iblk5 V c 1 t) (iblk5 V c 2 t) (iblk5 V c 3 t) (iblk5 V c 4 t)) hx).trans ?_
  refine (e_pay4_5 V c t ⟨(j 0).val, hj0⟩ ⟨(j 1).val, hj1⟩ ⟨10000 * t.val + (j 0).val, by omega⟩ rfl).trans ?_
  show _ = e_mlp5 V c ((((cfg5.win 5).blk t).view.emb j) (0 : Fin 2)) ((((cfg5.win 5).blk t).view.emb j) (1 : Fin 2))
  refine congrArg₂ (e_mlp5 V c) (Fin.ext ?_) (Fin.ext ?_)
  · show 10000 * t.val + (j 0).val = win5_5.index t (0 : Fin 2) * 10000 + 1 * (j 0).val
    rw [hi.1]; omega
  · show (j 1).val = win5_5.index t (1 : Fin 2) * 64 + 1 * (j 1).val
    rw [hi.2]; omega

/-- The rows' output array ends holding the perceptron's output: row `r` is written by point `r / 10000`. -/
theorem val5_5 (c : Dev nD) : (dat5 V c).arrAt 5 cfg5.N = Spec.toVec2 (e_mlp5 V c) :=
  (dat5 V c).arrAt_eq_of_cover 5 (Spec.toVec2 (e_mlp5 V c)) (fun t _ => e_flushed5_5 V c t) fun i => by
    have hi0 : (i 0).val < 50000 := (i 0).isLt
    have hi1 : (i 1).val < 64 := (i 1).isLt
    have hN : cfg5.N = 5 := N_5
    obtain ⟨t, ht⟩ : ∃ t : Fin cfg5.N, t.val = (i 0).val / 10000 := ⟨⟨(i 0).val / 10000, by omega⟩, rfl⟩
    have hi := (e_idx5 t).2.2.2.2.2.1
    refine ⟨t, flush5_5 t, ?_⟩
    show i ∈ ((View.whole main_v84_0).slice (win5_5.rect t)).set
    rw [View.set_slice_whole, Rect.mem_set_unit]
    intro a
    match a with
    | ⟨0, _⟩ =>
      show win5_5.index t (0 : Fin 2) * 10000 ≤ (i 0).val ∧ (i 0).val < win5_5.index t (0 : Fin 2) * 10000 + 10000
      rw [hi.1]; omega
    | ⟨1, _⟩ =>
      show win5_5.index t (1 : Fin 2) * 64 ≤ (i 1).val ∧ (i 1).val < win5_5.index t (1 : Fin 2) * 64 + 64
      rw [hi.2]; omega

/-! ### The two accumulators, point by point -/

/-- After `n` points the first accumulator holds the column sums of the output's first `10000 n` rows. -/
theorem e_scr5_1 (c : Dev nD) : ∀ (n : ℕ) (hn : n ≤ cfg5.N) (q : Fin 64),
    (scr5 V c n hn).1 (ix2 (0 : Fin 1) q) = ∑ r ∈ Finset.range (10000 * n), e_ext (fun r => e_mlp5 V c r q) r
  | 0, hn, q => by
    show k5_pay2 (F := Ideal) (ix2 (0 : Fin 1) q) = _
    rw [k5_pay2_at, Nat.mul_zero, Finset.range_zero, Finset.sum_empty]
  | n + 1, hn, q => by
    have hN : cfg5.N = 5 := N_5
    rw [scr5_succ]
    show k5_pay5 (iblk5 V c 0 ⟨n, hn⟩) (iblk5 V c 1 ⟨n, hn⟩) (iblk5 V c 2 ⟨n, hn⟩) (iblk5 V c 3 ⟨n, hn⟩) (iblk5 V c 4 ⟨n, hn⟩)
        (scr5 V c n (Nat.le_of_succ_le hn)).1 (ix2 (0 : Fin 1) q) = _
    refine (k5_pay5_at (iblk5 V c 0 ⟨n, hn⟩) (iblk5 V c 1 ⟨n, hn⟩) (iblk5 V c 2 ⟨n, hn⟩) (iblk5 V c 3 ⟨n, hn⟩) (iblk5 V c 4 ⟨n, hn⟩)
        (scr5 V c n (Nat.le_of_succ_le hn)).1 q).trans ?_
    rw [e_scr5_1 c n (Nat.le_of_succ_le hn) q, e_sum_tile]
    refine congrArg (∑ r ∈ Finset.range (10000 * n), e_ext (fun r => e_mlp5 V c r q) r + ·) (Finset.sum_congr rfl fun p _ => ?_)
    have hp : 10000 * n + p.val < 50000 := by have := p.isLt; omega
    exact (e_pay4_5 V c ⟨n, hn⟩ p q ⟨10000 * n + p.val, hp⟩ rfl).trans (e_ext_of_lt (fun r => e_mlp5 V c r q) _ hp).symm

/-- After `n` points the second holds the column sums of the squares of those rows. -/
theorem e_scr5_2 (c : Dev nD) : ∀ (n : ℕ) (hn : n ≤ cfg5.N) (q : Fin 64),
    (scr5 V c n hn).2 (ix2 (0 : Fin 1) q)
      = ∑ r ∈ Finset.range (10000 * n), e_ext (fun r => e_mlp5 V c r q * e_mlp5 V c r q) r
  | 0, hn, q => by
    show k5_pay3 (F := Ideal) (ix2 (0 : Fin 1) q) = _
    rw [k5_pay3_at, Nat.mul_zero, Finset.range_zero, Finset.sum_empty]
  | n + 1, hn, q => by
    have hN : cfg5.N = 5 := N_5
    rw [scr5_succ]
    show k5_pay1 (k5_pay4 (iblk5 V c 0 ⟨n, hn⟩) (iblk5 V c 1 ⟨n, hn⟩) (iblk5 V c 2 ⟨n, hn⟩) (iblk5 V c 3 ⟨n, hn⟩) (iblk5 V c 4 ⟨n, hn⟩))
        (scr5 V c n (Nat.le_of_succ_le hn)).2 (ix2 (0 : Fin 1) q) = _
    refine (k5_pay1_at (k5_pay4 (iblk5 V c 0 ⟨n, hn⟩) (iblk5 V c 1 ⟨n, hn⟩) (iblk5 V c 2 ⟨n, hn⟩) (iblk5 V c 3 ⟨n, hn⟩) (iblk5 V c 4 ⟨n, hn⟩))
        (scr5 V c n (Nat.le_of_succ_le hn)).2 q).trans ?_
    rw [e_scr5_2 c n (Nat.le_of_succ_le hn) q, e_sum_tile]
    refine congrArg (∑ r ∈ Finset.range (10000 * n), e_ext (fun r => e_mlp5 V c r q * e_mlp5 V c r q) r + ·)
      (Finset.sum_congr rfl fun p _ => ?_)
    have hp : 10000 * n + p.val < 50000 := by have := p.isLt; omega
    have h4 := e_pay4_5 V c ⟨n, hn⟩ p q ⟨10000 * n + p.val, hp⟩ rfl
    exact (congrArg₂ (fun a b : EReal => a * b) h4 h4).trans (e_ext_of_lt (fun r => e_mlp5 V c r q * e_mlp5 V c r q) _ hp).symm

/-- After all five points: the column sums, and the column sums of squares, of the whole output. -/
theorem e_scr5_1_last (c : Dev nD) (q : Fin 64) :
    (scr5 V c 5 (le_of_eq N_5.symm)).1 (ix2 (0 : Fin 1) q) = Spec.colsum (e_mlp5 V c) q :=
  (e_scr5_1 V c 5 (le_of_eq N_5.symm) q).trans (e_sum_ext fun r => e_mlp5 V c r q)
theorem e_scr5_2_last (c : Dev nD) (q : Fin 64) :
    (scr5 V c 5 (le_of_eq N_5.symm)).2 (ix2 (0 : Fin 1) q) = Spec.colsumsq (e_mlp5 V c) q :=
  (e_scr5_2 V c 5 (le_of_eq N_5.symm) q).trans (e_sum_ext fun r => e_mlp5 V c r q * e_mlp5 V c r q)

/-! ### The two statistics arrays: written back once, after the last point -/

theorem e_flushed5_6 (c : Dev nD) (t : Fin cfg5.N) (hf : (cfg5.win 6).flush t = true) :
    (dat5 V c).flushed 6 t = ((cfg5.win 6).blk t).view.read (Elt Ideal) (Spec.toRow (Spec.colsum (e_mlp5 V c))) := by
  have hN : cfg5.N = 5 := N_5
  have h4 : t.val = 4 := by have := (flush5_6 t).mp hf; have := t.isLt; omega
  have hi := (e_idx5 t).2.2.2.2.2.2.1
  show (cfg5.win 6).cut (grid5.coords t) ((dat5 V c).after 6 t) = _
  obtain ⟨acc, hacc⟩ : ∃ acc : Vec Ideal S1x64 .f32, acc = (dat5 V c).after 6 t := ⟨_, rfl⟩
  rw [← hacc]
  have key : ∀ q : Fin 64, acc (ix2 (0 : Fin 1) q) = Spec.colsum (e_mlp5 V c) q := by
    intro q; rw [hacc, after5_6 V c t h4]; exact e_scr5_1_last V c q
  clear hacc
  obtain ⟨G, hG⟩ : ∃ G : S1x64.Idx → EReal, G = Spec.toRow (Spec.colsum (e_mlp5 V c)) := ⟨_, rfl⟩
  rw [← hG]
  have hG' : ∀ y : S1x64.Idx, G y = Spec.colsum (e_mlp5 V c) (y (1 : Fin 2)) := by
    intro y; rw [hG]; unfold Spec.toRow; rfl
  clear hG
  funext j
  have hj0 : (j 0).val < 1 := (j 0).isLt
  have hj1 : (j 1).val < 64 := (j 1).isLt
  have hx : (cfg5.win 6).xinj (grid5.coords t) j = ix2 (0 : Fin 1) (⟨(j 1).val, hj1⟩ : Fin 64) := by
    funext a
    match a with
    | ⟨0, _⟩ => exact Fin.ext (by show (j 0).val = 0; omega)
    | ⟨1, _⟩ => rfl
  show acc ((cfg5.win 6).xinj (grid5.coords t) j) = G (((cfg5.win 6).blk t).view.emb j)
  refine (congrArg acc hx).trans ?_
  refine (key ⟨(j 1).val, hj1⟩).trans ?_
  refine Eq.trans ?_ (hG' (((cfg5.win 6).blk t).view.emb j)).symm
  refine congrArg (Spec.colsum (e_mlp5 V c)) (Fin.ext ?_)
  show (j 1).val = win5_6.index t (1 : Fin 2) * 64 + 1 * (j 1).val
  rw [hi.2]; omega

theorem e_flushed5_7 (c : Dev nD) (t : Fin cfg5.N) (hf : (cfg5.win 7).flush t = true) :
    (dat5 V c).flushed 7 t = ((cfg5.win 7).blk t).view.read (Elt Ideal) (Spec.toRow (Spec.colsumsq (e_mlp5 V c))) := by
  have hN : cfg5.N = 5 := N_5
  have h4 : t.val = 4 := by have := (flush5_7 t).mp hf; have := t.isLt; omega
  have hi := (e_idx5 t).2.2.2.2.2.2.2
  show (cfg5.win 7).cut (grid5.coords t) ((dat5 V c).after 7 t) = _
  obtain ⟨acc, hacc⟩ : ∃ acc : Vec Ideal S1x64 .f32, acc = (dat5 V c).after 7 t := ⟨_, rfl⟩
  rw [← hacc]
  have key : ∀ q : Fin 64, acc (ix2 (0 : Fin 1) q) = Spec.colsumsq (e_mlp5 V c) q := by
    intro q; rw [hacc, after5_7 V c t h4]; exact e_scr5_2_last V c q
  clear hacc
  obtain ⟨G, hG⟩ : ∃ G : S1x64.Idx → EReal, G = Spec.toRow (Spec.colsumsq (e_mlp5 V c)) := ⟨_, rfl⟩
  rw [← hG]
  have hG' : ∀ y : S1x64.Idx, G y = Spec.colsumsq (e_mlp5 V c) (y (1 : Fin 2)) := by
    intro y; rw [hG]; unfold Spec.toRow; rfl
  clear hG
  funext j
  have hj0 : (j 0).val < 1 := (j 0).isLt
  have hj1 : (j 1).val < 64 := (j 1).isLt
  have hx : (cfg5.win 7).xinj (grid5.coords t) j = ix2 (0 : Fin 1) (⟨(j 1).val, hj1⟩ : Fin 64) := by
    funext a
    match a with
    | ⟨0, _⟩ => exact Fin.ext (by show (j 0).val = 0; omega)
    | ⟨1, _⟩ => rfl
  show acc ((cfg5.win 7).xinj (grid5.coords t) j) = G (((cfg5.win 7).blk t).view.emb j)
  refine (congrArg acc hx).trans ?_
  refine (key ⟨(j 1).val, hj1⟩).trans ?_
  refine Eq.trans ?_ (hG' (((cfg5.win 7).blk t).view.emb j)).symm
  refine congrArg (Spec.colsumsq (e_mlp5 V c)) (Fin.ext ?_)
  show (j 1).val = win5_7.index t (1 : Fin 2) * 64 + 1 * (j 1).val
  rw [hi.2]; omega

/-- The sum array ends holding the output's column sums: the last point's block is the whole array. -/
theorem val5_6 (c : Dev nD) : (dat5 V c).arrAt 6 cfg5.N = Spec.toRow (Spec.colsum (e_mlp5 V c)) :=
  (dat5 V c).arrAt_eq_of_cover 6 (Spec.toRow (Spec.colsum (e_mlp5 V c))) (e_flushed5_6 V c) fun i => by
    have hi0 : (i 0).val < 1 := (i 0).isLt
    have hi1 : (i 1).val < 64 := (i 1).isLt
    have hi := (e_idx5 t5_4).2.2.2.2.2.2.1
    refine ⟨t5_4, (flush5_6 t5_4).mpr rfl, ?_⟩
    show i ∈ ((View.whole main_v84_1).slice (win5_6.rect t5_4)).set
    rw [View.set_slice_whole, Rect.mem_set_unit]
    intro a
    match a with
    | ⟨0, _⟩ =>
      show win5_6.index t5_4 (0 : Fin 2) * 1 ≤ (i 0).val ∧ (i 0).val < win5_6.index t5_4 (0 : Fin 2) * 1 + 1
      rw [hi.1]; omega
    | ⟨1, _⟩ =>
      show win5_6.index t5_4 (1 : Fin 2) * 64 ≤ (i 1).val ∧ (i 1).val < win5_6.index t5_4 (1 : Fin 2) * 64 + 64
      rw [hi.2]; omega

/-- The sum-of-squares array ends holding the column sums of the output's squares. -/
theorem val5_7 (c : Dev nD) : (dat5 V c).arrAt 7 cfg5.N = Spec.toRow (Spec.colsumsq (e_mlp5 V c)) :=
  (dat5 V c).arrAt_eq_of_cover 7 (Spec.toRow (Spec.colsumsq (e_mlp5 V c))) (e_flushed5_7 V c) fun i => by
    have hi0 : (i 0).val < 1 := (i 0).isLt
    have hi1 : (i 1).val < 64 := (i 1).isLt
    have hi := (e_idx5 t5_4).2.2.2.2.2.2.2
    refine ⟨t5_4, (flush5_7 t5_4).mpr rfl, ?_⟩
    show i ∈ ((View.whole main_v84_2).slice (win5_7.rect t5_4)).set
    rw [View.set_slice_whole, Rect.mem_set_unit]
    intro a
    match a with
    | ⟨0, _⟩ =>
      show win5_7.index t5_4 (0 : Fin 2) * 1 ≤ (i 0).val ∧ (i 0).val < win5_7.index t5_4 (0 : Fin 2) * 1 + 1
      rw [hi.1]; omega
    | ⟨1, _⟩ =>
      show win5_7.index t5_4 (1 : Fin 2) * 64 ≤ (i 1).val ∧ (i 1).val < win5_7.index t5_4 (1 : Fin 2) * 64 + 64
      rw [hi.2]; omega

end Cert.KernelIdeal.Hand

end
-- ==== Proof.ValR8.lean ====
/-
  Region 8's values at the ideal instance. The perceptron region stores, point by point, a block of 10000 rows of
  `max(x · w1 + b1, 0) · w2 + b2` and keeps two running rows, the column sums of what it has stored and the column
  sums of the squares, written back once after the last point. So the three output arrays end holding the
  perceptron's output over all 50000 rows, its column sums, and the column sums of its squares.
-/
import proofs.«172917_j75840532513057_2_alg».proof.Proof.BodyR8
import proofs.«172917_j75840532513057_2_alg».proof.Proof.PayR
import proofs.«172917_j75840532513057_2_alg».proof.Proof.ValRSum
import proofs.«172917_j75840532513057_2_alg».proof.Proof.Gen.KernelIdeal.Launch
import proofs.«172917_j75840532513057_2_alg».proof.Proof.Gen.KernelIdeal.Points
import Idealize.ShloMosaic.Lib.Pipeline.Value

set_option maxRecDepth 16384

noncomputable section

/-! ## Region 8's values at the ideal instance -/

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The perceptron's output over all 50000 rows of region 8's arrays, as the region finds them. -/
def e_mlp8 (c : Dev nD) : Fin 50000 → Fin 64 → EReal :=
  Spec.mlp (Spec.ofVec2 (M := 50000) (N := 64) (V c main_v116)) (Spec.ofVec2 (M := 64) (N := 128) (V c main_v118))
    (Spec.ofRow (N := 128) (V c main_v121)) (Spec.ofVec2 (M := 128) (N := 64) (V c main_v123)) (Spec.ofRow (N := 64) (V c main_v126))

/-! ### Region 8's index maps over the grid -/

/-- The two row windows move with the point; every other window stays at block (0, 0). -/
theorem e_idx8 : ∀ t : Fin cfg8.N,
    (win8_0.index t (0 : Fin 2) = t.val ∧ win8_0.index t (1 : Fin 2) = 0)
    ∧ (win8_1.index t (0 : Fin 2) = 0 ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = 0 ∧ win8_4.index t (1 : Fin 2) = 0)
    ∧ (win8_5.index t (0 : Fin 2) = t.val ∧ win8_5.index t (1 : Fin 2) = 0)
    ∧ (win8_6.index t (0 : Fin 2) = 0 ∧ win8_6.index t (1 : Fin 2) = 0)
    ∧ (win8_7.index t (0 : Fin 2) = 0 ∧ win8_7.index t (1 : Fin 2) = 0) :=
  (by decide +kernel : ∀ t : Fin grid8.N, _)

/-! ### The input blocks, read where the windows say -/

/-- Block `t` of the rows' window is rows `10000 t …` of its array. -/
theorem e_blk8_0 (c : Dev nD) (t : Fin cfg8.N) (p : Fin 10000) (k : Fin 64) (r : Fin 50000)
    (hr : r.val = 10000 * t.val + p.val) :
    (iblk8 V c 0 t : Vec Ideal S10000x64 .f32) (ix2 p k) = (V c main_v116 : S50000x64.Idx → EReal) (ix2 r k) := by
  have hi := (e_idx8 t).1
  unfold iblk8
  rw [View.read_apply]
  show V c main_v116 _ = V c main_v116 _
  congr 1
  funext a; apply Fin.ext
  match a with
  | ⟨0, _⟩ => show win8_0.index t (0 : Fin 2) * 10000 + 1 * p.val = r.val; rw [hi.1, hr]; omega
  | ⟨1, _⟩ => show win8_0.index t (1 : Fin 2) * 64 + 1 * k.val = k.val; rw [hi.2]; omega

/-- The first weights' window is its whole array at every point. -/
theorem e_blk8_1 (c : Dev nD) (t : Fin cfg8.N) (a : Fin 64) (b : Fin 128) :
    (iblk8 V c 1 t : Vec Ideal S64x128 .f32) (ix2 a b) = (V c main_v118 : S64x128.Idx → EReal) (ix2 a b) := by
  have hi := (e_idx8 t).2.1
  unfold iblk8
  rw [View.read_apply]
  show V c main_v118 _ = V c main_v118 _
  congr 1
  funext ax; apply Fin.ext
  match ax with
  | ⟨0, _⟩ => show win8_1.index t (0 : Fin 2) * 64 + 1 * a.val = a.val; rw [hi.1]; omega
  | ⟨1, _⟩ => show win8_1.index t (1 : Fin 2) * 128 + 1 * b.val = b.val; rw [hi.2]; omega

/-- So is the first bias's. -/
theorem e_blk8_2 (c : Dev nD) (t : Fin cfg8.N) (a : Fin 1) (b : Fin 128) :
    (iblk8 V c 2 t : Vec Ideal S1x128 .f32) (ix2 a b) = (V c main_v121 : S1x128.Idx → EReal) (ix2 a b) := by
  have hi := (e_idx8 t).2.2.1
  unfold iblk8
  rw [View.read_apply]
  show V c main_v121 _ = V c main_v121 _
  congr 1
  funext ax; apply Fin.ext
  match ax with
  | ⟨0, _⟩ => show win8_2.index t (0 : Fin 2) * 1 + 1 * a.val = a.val; rw [hi.1]; omega
  | ⟨1, _⟩ => show win8_2.index t (1 : Fin 2) * 128 + 1 * b.val = b.val; rw [hi.2]; omega

/-- So is the second weights'. -/
theorem e_blk8_3 (c : Dev nD) (t : Fin cfg8.N) (a : Fin 128) (b : Fin 64) :
    (iblk8 V c 3 t : Vec Ideal S128x64 .f32) (ix2 a b) = (V c main_v123 : S128x64.Idx → EReal) (ix2 a b) := by
  have hi := (e_idx8 t).2.2.2.1
  unfold iblk8
  rw [View.read_apply]
  show V c main_v123 _ = V c main_v123 _
  congr 1
  funext ax; apply Fin.ext
  match ax with
  | ⟨0, _⟩ => show win8_3.index t (0 : Fin 2) * 128 + 1 * a.val = a.val; rw [hi.1]; omega
  | ⟨1, _⟩ => show win8_3.index t (1 : Fin 2) * 64 + 1 * b.val = b.val; rw [hi.2]; omega

/-- So is the second bias's. -/
theorem e_blk8_4 (c : Dev nD) (t : Fin cfg8.N) (a : Fin 1) (b : Fin 64) :
    (iblk8 V c 4 t : Vec Ideal S1x64 .f32) (ix2 a b) = (V c main_v126 : S1x64.Idx → EReal) (ix2 a b) := by
  have hi := (e_idx8 t).2.2.2.2.1
  unfold iblk8
  rw [View.read_apply]
  show V c main_v126 _ = V c main_v126 _
  congr 1
  funext ax; apply Fin.ext
  match ax with
  | ⟨0, _⟩ => show win8_4.index t (0 : Fin 2) * 1 + 1 * a.val = a.val; rw [hi.1]; omega
  | ⟨1, _⟩ => show win8_4.index t (1 : Fin 2) * 64 + 1 * b.val = b.val; rw [hi.2]; omega

theorem e_w1_8 (c : Dev nD) (t : Fin cfg8.N) :
    Spec.ofVec2 (M := 64) (N := 128) (iblk8 V c 1 t) = Spec.ofVec2 (M := 64) (N := 128) (V c main_v118) :=
  funext fun a => funext fun b => e_blk8_1 V c t a b
theorem e_b1_8 (c : Dev nD) (t : Fin cfg8.N) :
    Spec.ofRow (N := 128) (iblk8 V c 2 t) = Spec.ofRow (N := 128) (V c main_v121) :=
  funext fun j => e_blk8_2 V c t (0 : Fin 1) j
theorem e_w2_8 (c : Dev nD) (t : Fin cfg8.N) :
    Spec.ofVec2 (M := 128) (N := 64) (iblk8 V c 3 t) = Spec.ofVec2 (M := 128) (N := 64) (V c main_v123) :=
  funext fun a => funext fun b => e_blk8_3 V c t a b
theorem e_b2_8 (c : Dev nD) (t : Fin cfg8.N) :
    Spec.ofRow (N := 64) (iblk8 V c 4 t) = Spec.ofRow (N := 64) (V c main_v126) :=
  funext fun j => e_blk8_4 V c t (0 : Fin 1) j

/-- What point `t` stores, at row `p` of its block: the perceptron's output at row `10000 t + p` of the arrays. -/
theorem e_pay4_8 (c : Dev nD) (t : Fin cfg8.N) (p : Fin 10000) (q : Fin 64) (r : Fin 50000)
    (hr : r.val = 10000 * t.val + p.val) :
    k8_pay4 (iblk8 V c 0 t) (iblk8 V c 1 t) (iblk8 V c 2 t) (iblk8 V c 3 t) (iblk8 V c 4 t) (ix2 p q) = e_mlp8 V c r q := by
  unfold e_mlp8
  refine (k8_pay4_at (iblk8 V c 0 t) (iblk8 V c 1 t) (iblk8 V c 2 t) (iblk8 V c 3 t) (iblk8 V c 4 t) p q).trans ?_
  rw [e_w1_8 V c t, e_b1_8 V c t, e_w2_8 V c t, e_b2_8 V c t]
  exact e_mlp_row _ _ _ _ _ _ p r (fun k => e_blk8_0 V c t p k r hr) q

/-! ### The rows' output array -/

/-- What point `t` writes back is block `t` of the perceptron's output. -/
theorem e_flushed8_5 (c : Dev nD) (t : Fin cfg8.N) :
    (dat8 V c).flushed 5 t = ((cfg8.win 5).blk t).view.read (Elt Ideal) (Spec.toVec2 (e_mlp8 V c)) := by
  have hi := (e_idx8 t).2.2.2.2.2.1
  have hN : cfg8.N = 5 := N_8
  have ht : t.val < 5 := by have := t.isLt; omega
  show (cfg8.win 5).cut (grid8.coords t) ((dat8 V c).after 5 t) = _
  rw [after8_5]
  funext j
  have hj0 : (j 0).val < 10000 := (j 0).isLt
  have hj1 : (j 1).val < 64 := (j 1).isLt
  have hx : (cfg8.win 5).xinj (grid8.coords t) j = ix2 (⟨(j 0).val, hj0⟩ : Fin 10000) (⟨(j 1).val, hj1⟩ : Fin 64) := by
    funext a
    match a with
    | ⟨0, _⟩ => rfl
    | ⟨1, _⟩ => rfl
  show k8_pay4 (iblk8 V c 0 t) (iblk8 V c 1 t) (iblk8 V c 2 t) (iblk8 V c 3 t) (iblk8 V c 4 t) ((cfg8.win 5).xinj (grid8.coords t) j)
      = Spec.toVec2 (e_mlp8 V c) (((cfg8.win 5).blk t).view.emb j)
  refine (congrArg (k8_pay4 (iblk8 V c 0 t) (iblk8 V c 1 t) (iblk8 V c 2 t) (iblk8 V c 3 t) (iblk8 V c 4 t)) hx).trans ?_
  refine (e_pay4_8 V c t ⟨(j 0).val, hj0⟩ ⟨(j 1).val, hj1⟩ ⟨10000 * t.val + (j 0).val, by omega⟩ rfl).trans ?_
  show _ = e_mlp8 V c ((((cfg8.win 5).blk t).view.emb j) (0 : Fin 2)) ((((cfg8.win 5).blk t).view.emb j) (1 : Fin 2))
  refine congrArg₂ (e_mlp8 V c) (Fin.ext ?_) (Fin.ext ?_)
  · show 10000 * t.val + (j 0).val = win8_5.index t (0 : Fin 2) * 10000 + 1 * (j 0).val
    rw [hi.1]; omega
  · show (j 1).val = win8_5.index t (1 : Fin 2) * 64 + 1 * (j 1).val
    rw [hi.2]; omega

/-- The rows' output array ends holding the perceptron's output: row `r` is written by point `r / 10000`. -/
theorem val8_5 (c : Dev nD) : (dat8 V c).arrAt 5 cfg8.N = Spec.toVec2 (e_mlp8 V c) :=
  (dat8 V c).arrAt_eq_of_cover 5 (Spec.toVec2 (e_mlp8 V c)) (fun t _ => e_flushed8_5 V c t) fun i => by
    have hi0 : (i 0).val < 50000 := (i 0).isLt
    have hi1 : (i 1).val < 64 := (i 1).isLt
    have hN : cfg8.N = 5 := N_8
    obtain ⟨t, ht⟩ : ∃ t : Fin cfg8.N, t.val = (i 0).val / 10000 := ⟨⟨(i 0).val / 10000, by omega⟩, rfl⟩
    have hi := (e_idx8 t).2.2.2.2.2.1
    refine ⟨t, flush8_5 t, ?_⟩
    show i ∈ ((View.whole main_v127_0).slice (win8_5.rect t)).set
    rw [View.set_slice_whole, Rect.mem_set_unit]
    intro a
    match a with
    | ⟨0, _⟩ =>
      show win8_5.index t (0 : Fin 2) * 10000 ≤ (i 0).val ∧ (i 0).val < win8_5.index t (0 : Fin 2) * 10000 + 10000
      rw [hi.1]; omega
    | ⟨1, _⟩ =>
      show win8_5.index t (1 : Fin 2) * 64 ≤ (i 1).val ∧ (i 1).val < win8_5.index t (1 : Fin 2) * 64 + 64
      rw [hi.2]; omega

/-! ### The two accumulators, point by point -/

/-- After `n` points the first accumulator holds the column sums of the output's first `10000 n` rows. -/
theorem e_scr8_1 (c : Dev nD) : ∀ (n : ℕ) (hn : n ≤ cfg8.N) (q : Fin 64),
    (scr8 V c n hn).1 (ix2 (0 : Fin 1) q) = ∑ r ∈ Finset.range (10000 * n), e_ext (fun r => e_mlp8 V c r q) r
  | 0, hn, q => by
    show k8_pay2 (F := Ideal) (ix2 (0 : Fin 1) q) = _
    rw [k8_pay2_at, Nat.mul_zero, Finset.range_zero, Finset.sum_empty]
  | n + 1, hn, q => by
    have hN : cfg8.N = 5 := N_8
    rw [scr8_succ]
    show k8_pay5 (iblk8 V c 0 ⟨n, hn⟩) (iblk8 V c 1 ⟨n, hn⟩) (iblk8 V c 2 ⟨n, hn⟩) (iblk8 V c 3 ⟨n, hn⟩) (iblk8 V c 4 ⟨n, hn⟩)
        (scr8 V c n (Nat.le_of_succ_le hn)).1 (ix2 (0 : Fin 1) q) = _
    refine (k8_pay5_at (iblk8 V c 0 ⟨n, hn⟩) (iblk8 V c 1 ⟨n, hn⟩) (iblk8 V c 2 ⟨n, hn⟩) (iblk8 V c 3 ⟨n, hn⟩) (iblk8 V c 4 ⟨n, hn⟩)
        (scr8 V c n (Nat.le_of_succ_le hn)).1 q).trans ?_
    rw [e_scr8_1 c n (Nat.le_of_succ_le hn) q, e_sum_tile]
    refine congrArg (∑ r ∈ Finset.range (10000 * n), e_ext (fun r => e_mlp8 V c r q) r + ·) (Finset.sum_congr rfl fun p _ => ?_)
    have hp : 10000 * n + p.val < 50000 := by have := p.isLt; omega
    exact (e_pay4_8 V c ⟨n, hn⟩ p q ⟨10000 * n + p.val, hp⟩ rfl).trans (e_ext_of_lt (fun r => e_mlp8 V c r q) _ hp).symm

/-- After `n` points the second holds the column sums of the squares of those rows. -/
theorem e_scr8_2 (c : Dev nD) : ∀ (n : ℕ) (hn : n ≤ cfg8.N) (q : Fin 64),
    (scr8 V c n hn).2 (ix2 (0 : Fin 1) q)
      = ∑ r ∈ Finset.range (10000 * n), e_ext (fun r => e_mlp8 V c r q * e_mlp8 V c r q) r
  | 0, hn, q => by
    show k8_pay3 (F := Ideal) (ix2 (0 : Fin 1) q) = _
    rw [k8_pay3_at, Nat.mul_zero, Finset.range_zero, Finset.sum_empty]
  | n + 1, hn, q => by
    have hN : cfg8.N = 5 := N_8
    rw [scr8_succ]
    show k8_pay1 (k8_pay4 (iblk8 V c 0 ⟨n, hn⟩) (iblk8 V c 1 ⟨n, hn⟩) (iblk8 V c 2 ⟨n, hn⟩) (iblk8 V c 3 ⟨n, hn⟩) (iblk8 V c 4 ⟨n, hn⟩))
        (scr8 V c n (Nat.le_of_succ_le hn)).2 (ix2 (0 : Fin 1) q) = _
    refine (k8_pay1_at (k8_pay4 (iblk8 V c 0 ⟨n, hn⟩) (iblk8 V c 1 ⟨n, hn⟩) (iblk8 V c 2 ⟨n, hn⟩) (iblk8 V c 3 ⟨n, hn⟩) (iblk8 V c 4 ⟨n, hn⟩))
        (scr8 V c n (Nat.le_of_succ_le hn)).2 q).trans ?_
    rw [e_scr8_2 c n (Nat.le_of_succ_le hn) q, e_sum_tile]
    refine congrArg (∑ r ∈ Finset.range (10000 * n), e_ext (fun r => e_mlp8 V c r q * e_mlp8 V c r q) r + ·)
      (Finset.sum_congr rfl fun p _ => ?_)
    have hp : 10000 * n + p.val < 50000 := by have := p.isLt; omega
    have h4 := e_pay4_8 V c ⟨n, hn⟩ p q ⟨10000 * n + p.val, hp⟩ rfl
    exact (congrArg₂ (fun a b : EReal => a * b) h4 h4).trans (e_ext_of_lt (fun r => e_mlp8 V c r q * e_mlp8 V c r q) _ hp).symm

/-- After all five points: the column sums, and the column sums of squares, of the whole output. -/
theorem e_scr8_1_last (c : Dev nD) (q : Fin 64) :
    (scr8 V c 5 (le_of_eq N_8.symm)).1 (ix2 (0 : Fin 1) q) = Spec.colsum (e_mlp8 V c) q :=
  (e_scr8_1 V c 5 (le_of_eq N_8.symm) q).trans (e_sum_ext fun r => e_mlp8 V c r q)
theorem e_scr8_2_last (c : Dev nD) (q : Fin 64) :
    (scr8 V c 5 (le_of_eq N_8.symm)).2 (ix2 (0 : Fin 1) q) = Spec.colsumsq (e_mlp8 V c) q :=
  (e_scr8_2 V c 5 (le_of_eq N_8.symm) q).trans (e_sum_ext fun r => e_mlp8 V c r q * e_mlp8 V c r q)

/-! ### The two statistics arrays: written back once, after the last point -/

theorem e_flushed8_6 (c : Dev nD) (t : Fin cfg8.N) (hf : (cfg8.win 6).flush t = true) :
    (dat8 V c).flushed 6 t = ((cfg8.win 6).blk t).view.read (Elt Ideal) (Spec.toRow (Spec.colsum (e_mlp8 V c))) := by
  have hN : cfg8.N = 5 := N_8
  have h4 : t.val = 4 := by have := (flush8_6 t).mp hf; have := t.isLt; omega
  have hi := (e_idx8 t).2.2.2.2.2.2.1
  show (cfg8.win 6).cut (grid8.coords t) ((dat8 V c).after 6 t) = _
  obtain ⟨acc, hacc⟩ : ∃ acc : Vec Ideal S1x64 .f32, acc = (dat8 V c).after 6 t := ⟨_, rfl⟩
  rw [← hacc]
  have key : ∀ q : Fin 64, acc (ix2 (0 : Fin 1) q) = Spec.colsum (e_mlp8 V c) q := by
    intro q; rw [hacc, after8_6 V c t h4]; exact e_scr8_1_last V c q
  clear hacc
  obtain ⟨G, hG⟩ : ∃ G : S1x64.Idx → EReal, G = Spec.toRow (Spec.colsum (e_mlp8 V c)) := ⟨_, rfl⟩
  rw [← hG]
  have hG' : ∀ y : S1x64.Idx, G y = Spec.colsum (e_mlp8 V c) (y (1 : Fin 2)) := by
    intro y; rw [hG]; unfold Spec.toRow; rfl
  clear hG
  funext j
  have hj0 : (j 0).val < 1 := (j 0).isLt
  have hj1 : (j 1).val < 64 := (j 1).isLt
  have hx : (cfg8.win 6).xinj (grid8.coords t) j = ix2 (0 : Fin 1) (⟨(j 1).val, hj1⟩ : Fin 64) := by
    funext a
    match a with
    | ⟨0, _⟩ => exact Fin.ext (by show (j 0).val = 0; omega)
    | ⟨1, _⟩ => rfl
  show acc ((cfg8.win 6).xinj (grid8.coords t) j) = G (((cfg8.win 6).blk t).view.emb j)
  refine (congrArg acc hx).trans ?_
  refine (key ⟨(j 1).val, hj1⟩).trans ?_
  refine Eq.trans ?_ (hG' (((cfg8.win 6).blk t).view.emb j)).symm
  refine congrArg (Spec.colsum (e_mlp8 V c)) (Fin.ext ?_)
  show (j 1).val = win8_6.index t (1 : Fin 2) * 64 + 1 * (j 1).val
  rw [hi.2]; omega

theorem e_flushed8_7 (c : Dev nD) (t : Fin cfg8.N) (hf : (cfg8.win 7).flush t = true) :
    (dat8 V c).flushed 7 t = ((cfg8.win 7).blk t).view.read (Elt Ideal) (Spec.toRow (Spec.colsumsq (e_mlp8 V c))) := by
  have hN : cfg8.N = 5 := N_8
  have h4 : t.val = 4 := by have := (flush8_7 t).mp hf; have := t.isLt; omega
  have hi := (e_idx8 t).2.2.2.2.2.2.2
  show (cfg8.win 7).cut (grid8.coords t) ((dat8 V c).after 7 t) = _
  obtain ⟨acc, hacc⟩ : ∃ acc : Vec Ideal S1x64 .f32, acc = (dat8 V c).after 7 t := ⟨_, rfl⟩
  rw [← hacc]
  have key : ∀ q : Fin 64, acc (ix2 (0 : Fin 1) q) = Spec.colsumsq (e_mlp8 V c) q := by
    intro q; rw [hacc, after8_7 V c t h4]; exact e_scr8_2_last V c q
  clear hacc
  obtain ⟨G, hG⟩ : ∃ G : S1x64.Idx → EReal, G = Spec.toRow (Spec.colsumsq (e_mlp8 V c)) := ⟨_, rfl⟩
  rw [← hG]
  have hG' : ∀ y : S1x64.Idx, G y = Spec.colsumsq (e_mlp8 V c) (y (1 : Fin 2)) := by
    intro y; rw [hG]; unfold Spec.toRow; rfl
  clear hG
  funext j
  have hj0 : (j 0).val < 1 := (j 0).isLt
  have hj1 : (j 1).val < 64 := (j 1).isLt
  have hx : (cfg8.win 7).xinj (grid8.coords t) j = ix2 (0 : Fin 1) (⟨(j 1).val, hj1⟩ : Fin 64) := by
    funext a
    match a with
    | ⟨0, _⟩ => exact Fin.ext (by show (j 0).val = 0; omega)
    | ⟨1, _⟩ => rfl
  show acc ((cfg8.win 7).xinj (grid8.coords t) j) = G (((cfg8.win 7).blk t).view.emb j)
  refine (congrArg acc hx).trans ?_
  refine (key ⟨(j 1).val, hj1⟩).trans ?_
  refine Eq.trans ?_ (hG' (((cfg8.win 7).blk t).view.emb j)).symm
  refine congrArg (Spec.colsumsq (e_mlp8 V c)) (Fin.ext ?_)
  show (j 1).val = win8_7.index t (1 : Fin 2) * 64 + 1 * (j 1).val
  rw [hi.2]; omega

/-- The sum array ends holding the output's column sums: the last point's block is the whole array. -/
theorem val8_6 (c : Dev nD) : (dat8 V c).arrAt 6 cfg8.N = Spec.toRow (Spec.colsum (e_mlp8 V c)) :=
  (dat8 V c).arrAt_eq_of_cover 6 (Spec.toRow (Spec.colsum (e_mlp8 V c))) (e_flushed8_6 V c) fun i => by
    have hi0 : (i 0).val < 1 := (i 0).isLt
    have hi1 : (i 1).val < 64 := (i 1).isLt
    have hi := (e_idx8 t8_4).2.2.2.2.2.2.1
    refine ⟨t8_4, (flush8_6 t8_4).mpr rfl, ?_⟩
    show i ∈ ((View.whole main_v127_1).slice (win8_6.rect t8_4)).set
    rw [View.set_slice_whole, Rect.mem_set_unit]
    intro a
    match a with
    | ⟨0, _⟩ =>
      show win8_6.index t8_4 (0 : Fin 2) * 1 ≤ (i 0).val ∧ (i 0).val < win8_6.index t8_4 (0 : Fin 2) * 1 + 1
      rw [hi.1]; omega
    | ⟨1, _⟩ =>
      show win8_6.index t8_4 (1 : Fin 2) * 64 ≤ (i 1).val ∧ (i 1).val < win8_6.index t8_4 (1 : Fin 2) * 64 + 64
      rw [hi.2]; omega

/-- The sum-of-squares array ends holding the column sums of the output's squares. -/
theorem val8_7 (c : Dev nD) : (dat8 V c).arrAt 7 cfg8.N = Spec.toRow (Spec.colsumsq (e_mlp8 V c)) :=
  (dat8 V c).arrAt_eq_of_cover 7 (Spec.toRow (Spec.colsumsq (e_mlp8 V c))) (e_flushed8_7 V c) fun i => by
    have hi0 : (i 0).val < 1 := (i 0).isLt
    have hi1 : (i 1).val < 64 := (i 1).isLt
    have hi := (e_idx8 t8_4).2.2.2.2.2.2.2
    refine ⟨t8_4, (flush8_7 t8_4).mpr rfl, ?_⟩
    show i ∈ ((View.whole main_v127_2).slice (win8_7.rect t8_4)).set
    rw [View.set_slice_whole, Rect.mem_set_unit]
    intro a
    match a with
    | ⟨0, _⟩ =>
      show win8_7.index t8_4 (0 : Fin 2) * 1 ≤ (i 0).val ∧ (i 0).val < win8_7.index t8_4 (0 : Fin 2) * 1 + 1
      rw [hi.1]; omega
    | ⟨1, _⟩ =>
      show win8_7.index t8_4 (1 : Fin 2) * 64 ≤ (i 1).val ∧ (i 1).val < win8_7.index t8_4 (1 : Fin 2) * 64 + 64
      rw [hi.2]; omega

end Cert.KernelIdeal.Hand

end
-- ==== Proof.HostK.lean ====
/-
  The host operations between the kernel regions, read back as functions of the buffers they read, for any float
  instance and any contents `W` of the buffers before the stretch.

  Named here once: slab `l` of a stack of three matrices (a slice along the leading axis, then the unit axis dropped),
  row `l` of a stack of three vectors as a one-row matrix (a slice, flattened, then the unit axis put back), the row
  count as a one-row matrix, and the column means and variances computed from column sums `s` and sums of squares `ss`:
  mean = s / c, var = max(ss / c − mean · mean, 0).

  Then the three stretches that feed the edge-embedding layers: layer `l` reads slab `l` of the stacked edge weights
  and row `l` of the stacked edge biases (`l` = 0, 1, 2).
-/
import proofs.«172917_j75840532513057_2_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The slices of the stacked weights and the column statistics, named once -/

section Named
variable {α : Type}

/-- Slab `l` of a stack of three 5 × 64 matrices. -/
def hkSlab5x64 (l : Nat) (h : S3x5x64.Slices ![l, 0, 0] S1x5x64) (x : S3x5x64.Idx → α) : S5x64.Idx → α :=
  shapeCast S5x64 (extractStridedSlice S1x5x64 ![l, 0, 0] x h) shapeCasts_S1x5x64_S5x64
/-- Slab `l` of a stack of three 64 × 128 matrices. -/
def hkSlab64x128 (l : Nat) (h : S3x64x128.Slices ![l, 0, 0] S1x64x128) (x : S3x64x128.Idx → α) : S64x128.Idx → α :=
  shapeCast S64x128 (extractStridedSlice S1x64x128 ![l, 0, 0] x h) shapeCasts_S1x64x128_S64x128
/-- Slab `l` of a stack of three 128 × 64 matrices. -/
def hkSlab128x64 (l : Nat) (h : S3x128x64.Slices ![l, 0, 0] S1x128x64) (x : S3x128x64.Idx → α) : S128x64.Idx → α :=
  shapeCast S128x64 (extractStridedSlice S1x128x64 ![l, 0, 0] x h) shapeCasts_S1x128x64_S128x64
/-- Row `l` of a stack of three 64-vectors, as a 1 × 64 array (flattened, then given its unit axis back). -/
def hkRow64 (l : Nat) (h : S3x64.Slices ![l, 0] S1x64) (x : S3x64.Idx → α) : S1x64.Idx → α :=
  shapeCast S1x64 (shapeCast S64 (extractStridedSlice S1x64 ![l, 0] x h) shapeCasts_S1x64_S64) shapeCasts_S64_S1x64
/-- Row `l` of a stack of three 128-vectors, as a 1 × 128 array. -/
def hkRow128 (l : Nat) (h : S3x128.Slices ![l, 0] S1x128) (x : S3x128.Idx → α) : S1x128.Idx → α :=
  shapeCast S1x128 (shapeCast S128 (extractStridedSlice S1x128 ![l, 0] x h) shapeCasts_S1x128_S128) shapeCasts_S128_S1x128
end Named

/-- The row count 50000 as a 1 × 64 array of floats. -/
def hkCnt : FVec F S1x64 .f32 := broadcastInDim S1x64 ![] bcast_S_S1x64 (constant S_ .f32 0x47435000#32)
/-- A 1 × 64 array of zeros. -/
def hkZero : FVec F S1x64 .f32 := broadcastInDim S1x64 ![] bcast_S_S1x64 (constant S_ .f32 0x00000000#32)
/-- The column means from the column sums. -/
def hkMean (s : FVec F S1x64 .f32) : FVec F S1x64 .f32 := Host.divf s hkCnt
/-- The column variances from the column sums and sums of squares: max(E[x²] − E[x]², 0). -/
def hkVar (s ss : FVec F S1x64 .f32) : FVec F S1x64 .f32 :=
  maximumf (subf (Host.divf ss hkCnt) (mulf (hkMean s) (hkMean s))) hkZero

/-! ## The edge-embedding layers' weights: stretches 1, 4, 7 -/

theorem hostK1_v15 (W : Valuation τ sig (Elt F)) :
    StableHlo.after hostOps1 W (Proc.devRef .tc main_v15) = (hkSlab5x64 0 slices_S3x5x64_S1x5x64_0_0_0 (W (Proc.devRef .tc main_arg6)) : FVec F S5x64 .f32) := by
  after_results_simp <;> rfl

theorem hostK1_v18 (W : Valuation τ sig (Elt F)) :
    StableHlo.after hostOps1 W (Proc.devRef .tc main_v18) = (hkRow64 0 slices_S3x64_S1x64_0_0 (W (Proc.devRef .tc main_arg7)) : FVec F S1x64 .f32) := by
  after_results_simp <;> rfl

theorem hostK4_v58 (W : Valuation τ sig (Elt F)) :
    StableHlo.after hostOps4 W (Proc.devRef .tc main_v58) = (hkSlab5x64 1 slices_S3x5x64_S1x5x64_1_0_0 (W (Proc.devRef .tc main_arg6)) : FVec F S5x64 .f32) := by
  after_results_simp <;> rfl

theorem hostK4_v61 (W : Valuation τ sig (Elt F)) :
    StableHlo.after hostOps4 W (Proc.devRef .tc main_v61) = (hkRow64 1 slices_S3x64_S1x64_1_0 (W (Proc.devRef .tc main_arg7)) : FVec F S1x64 .f32) := by
  after_results_simp <;> rfl

theorem hostK7_v101 (W : Valuation τ sig (Elt F)) :
    StableHlo.after hostOps7 W (Proc.devRef .tc main_v101) = (hkSlab5x64 2 slices_S3x5x64_S1x5x64_2_0_0 (W (Proc.devRef .tc main_arg6)) : FVec F S5x64 .f32) := by
  after_results_simp <;> rfl

theorem hostK7_v104 (W : Valuation τ sig (Elt F)) :
    StableHlo.after hostOps7 W (Proc.devRef .tc main_v104) = (hkRow64 2 slices_S3x64_S1x64_2_0 (W (Proc.devRef .tc main_arg7)) : FVec F S1x64 .f32) := by
  after_results_simp <;> rfl

end Cert.KernelIdeal.Hand

end
-- ==== Proof.Net.lean ====
/-
  The host computations the two programs share, each named once as a function of the arrays it reads, for any
  float instance: the self-loop edge attributes (a row of zeros with 8 in column 0 per node) appended to the edge
  attributes, the source and destination node lists with the self-loops appended, one message-passing aggregation
  (gather the features at the source nodes, add the edge embedding, scatter-add at the destination nodes into zeros;
  a negative index is first shifted by the node count), the slices of the stacked weights, and the final pick of
  the last node of each graph.  Each is the literal composition of the printed host operations, over the reference
  program's dimension records; the other program's operations are the same terms.
-/
import proofs.«172917_j75840532513057_2_alg».proof.Proof.Gen.ReferenceIdeal

noncomputable section

namespace Cert.ReferenceIdeal.Net

open Idealize.ShloMosaic Cert.ReferenceIdeal Cert.ReferenceIdeal.Facts₀ Cert.ReferenceIdeal.Facts

variable {F : FTy → Type} [FloatOps F]

/-- The self-loop edge attributes: per node, 8 in column 0 and 0 elsewhere. -/
def selfAttr : FVec F S50000x5 .f32 :=
  Host.scatter scatter_S50000x5_S1_S50000_0_1_1_0 (fun _ b => b)
    (broadcastInDim S50000x5 ![] bcast_S_S50000x5 (constant S_ .f32 0x00000000#32))
    (broadcastInDim S1 ![] bcast_S_S1 (constantI S_ 32 0#32))
    (broadcastInDim S50000 ![] bcast_S_S50000 (constant S_ .f32 0x41000000#32))

/-- The edge attributes followed by the self-loops'. -/
def ea (edgeAttr : FVec F S1000000x5 .f32) : FVec F S1050000x5 .f32 :=
  concatenate S1050000x5 0 [⟨S1000000x5, edgeAttr⟩, ⟨S50000x5, selfAttr⟩] concatenates_S1000000x5_S50000x5_S1050000x5_d0

/-- The node numbers 0 … 49999. -/
def loop : IVec S50000 32 := iotaInDim S50000 32 0

/-- Row `r` of the edge list followed by the self-loops. -/
def srcOf (edgeIndex : IVec S2x1000000 32) : IVec S1050000 32 :=
  concatenate S1050000 0 [⟨S1000000, shapeCast S1000000 (extractStridedSlice S1x1000000 ![0, 0] edgeIndex slices_S2x1000000_S1x1000000_0_0) shapeCasts_S1x1000000_S1000000⟩, ⟨S50000, loop⟩]
    concatenates_S1000000_S50000_S1050000_d0
def dstOf (edgeIndex : IVec S2x1000000 32) : IVec S1050000 32 :=
  concatenate S1050000 0 [⟨S1000000, shapeCast S1000000 (extractStridedSlice S1x1000000 ![1, 0] edgeIndex slices_S2x1000000_S1x1000000_1_0) shapeCasts_S1x1000000_S1000000⟩, ⟨S50000, loop⟩]
    concatenates_S1000000_S50000_S1050000_d0

/-- A node list with negative entries shifted up by the node count, as a column of start indices. -/
def startsOf (idx : IVec S1050000 32) : IVec S1050000x1 32 :=
  broadcastInDim S1050000x1 ![0] bcast_S1050000_S1050000x1_0
    (select (cmpi .slt idx (broadcastInDim S1050000 ![] bcast_S_S1050000 (constantI S_ 32 0#32)))
      (addi idx (broadcastInDim S1050000 ![] bcast_S_S1050000 (constantI S_ 32 50000#32))) idx)

/-- One aggregation: the features gathered at the source nodes plus the edge embedding, summed per destination node. -/
def agg (h : FVec F S50000x64 .f32) (e : FVec F S1050000x64 .f32) (src dst : IVec S1050000 32) : FVec F S50000x64 .f32 :=
  Host.scatterAdd scatter_S50000x64_S1050000x1_S1050000x64_1_0_0_1
    (broadcastInDim S50000x64 ![] bcast_S_S50000x64 (constant S_ .f32 0x00000000#32))
    (broadcastInDim S1050000x1 ![0] bcast_S1050000_S1050000x1_0 dst)
    (addf (Host.gather gather_S50000x64_S1050000x1_S1050000x64_1_0_n_n_0_1_164 h (startsOf src)) e)

/-- The rows of the last layer's features at the given node numbers (negative entries shifted by the node count). -/
def pick (h : FVec F S50000x64 .f32) (lastIdx : IVec S250 32) : FVec F S250x64 .f32 :=
  Host.gather gather_S50000x64_S250x1_S250x64_1_0_n_n_0_1_164 h
    (broadcastInDim S250x1 ![0] bcast_S250_S250x1_0
      (select (cmpi .slt lastIdx (broadcastInDim S250 ![] bcast_S_S250 (constantI S_ 32 0#32)))
        (addi lastIdx (broadcastInDim S250 ![] bcast_S_S250 (constantI S_ 32 50000#32))) lastIdx))

end Cert.ReferenceIdeal.Net

end
-- ==== Proof.HostK0.lean ====
/-
  The first and the last host stretch, for any float instance and any contents `W` of the buffers before the stretch.

  The first stretch prepares the graph: the edge attributes followed by the self-loops' (per node, 8 in column 0 and 0
  elsewhere), the source and the destination node lists each followed by the node numbers 0 … 49999, and the input
  layer's bias as a one-row matrix. The last stretch picks, from the last layer's features, the row of each graph's
  last node. Each is the shared function of the arrays it reads.
-/
import proofs.«172917_j75840532513057_2_alg».proof.Proof.Gen.KernelIdeal.Launch
import Idealize.ShloMosaic.Lib.StableHlo.Run
import proofs.«172917_j75840532513057_2_alg».proof.Proof.Net

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The graph's arrays: stretch 0 -/

theorem hostK0_v4 (W : Valuation τ sig (Elt F)) :
    StableHlo.after hostOps0 W (Proc.devRef .tc main_v4) = (Cert.ReferenceIdeal.Net.ea (W (Proc.devRef .tc main_arg1)) : FVec F S1050000x5 .f32) := by
  after_results
  rfl

theorem hostK0_v8 (W : Valuation τ sig (Elt F)) :
    StableHlo.after hostOps0 W (Proc.devRef .tc main_v8) = (Cert.ReferenceIdeal.Net.srcOf (W (Proc.devRef .tc main_arg2)) : IVec S1050000 32) := by
  after_results
  rfl

theorem hostK0_v11 (W : Valuation τ sig (Elt F)) :
    StableHlo.after hostOps0 W (Proc.devRef .tc main_v11) = (Cert.ReferenceIdeal.Net.dstOf (W (Proc.devRef .tc main_arg2)) : IVec S1050000 32) := by
  after_results
  rfl

theorem hostK0_v12 (W : Valuation τ sig (Elt F)) :
    StableHlo.after hostOps0 W (Proc.devRef .tc main_v12) = (shapeCast S1x64 (W (Proc.devRef .tc main_arg5)) shapeCasts_S64_S1x64 : FVec F S1x64 .f32) := by
  after_results_simp <;> rfl

/-! ## The final pick: stretch 10 -/

theorem hostK10_v149 (W : Valuation τ sig (Elt F)) :
    StableHlo.after hostOps10 W (Proc.devRef .tc main_v149) = (Cert.ReferenceIdeal.Net.pick (W (Proc.devRef .tc main_v142)) (W (Proc.devRef .tc main_arg3)) : FVec F S250x64 .f32) := by
  after_results_simp <;> rfl

end Cert.KernelIdeal.Hand

end
-- ==== Proof.HostK2.lean ====
/-
  The stretches before the three perceptron regions, for any float instance and any contents `W` of the buffers before
  the stretch: one message-passing aggregation of the layer's node features `h` and edge embedding `e` over the graph's
  source and destination lists (the features gathered at the source nodes plus the edge embedding, summed per destination
  node), and slab or row `l` of each of the four stacked perceptron weights (`l` = 0, 1, 2).
-/
import proofs.«172917_j75840532513057_2_alg».proof.Proof.HostK
import proofs.«172917_j75840532513057_2_alg».proof.Proof.Net

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The aggregation and the perceptron's weights: stretches 2, 5, 8 -/

theorem hostK2_v30 (W : Valuation τ sig (Elt F)) :
    StableHlo.after hostOps2 W (Proc.devRef .tc main_v30) = (Cert.ReferenceIdeal.Net.agg (W (Proc.devRef .tc main_v13)) (W (Proc.devRef .tc main_v19)) (W (Proc.devRef .tc main_v8)) (W (Proc.devRef .tc main_v11)) : FVec F S50000x64 .f32) := by
  after_results_simp <;> rfl

theorem hostK2_v32 (W : Valuation τ sig (Elt F)) :
    StableHlo.after hostOps2 W (Proc.devRef .tc main_v32) = (hkSlab64x128 0 slices_S3x64x128_S1x64x128_0_0_0 (W (Proc.devRef .tc main_arg8)) : FVec F S64x128 .f32) := by
  after_results_simp <;> rfl

theorem hostK2_v35 (W : Valuation τ sig (Elt F)) :
    StableHlo.after hostOps2 W (Proc.devRef .tc main_v35) = (hkRow128 0 slices_S3x128_S1x128_0_0 (W (Proc.devRef .tc main_arg9)) : FVec F S1x128 .f32) := by
  after_results_simp <;> rfl

theorem hostK2_v37 (W : Valuation τ sig (Elt F)) :
    StableHlo.after hostOps2 W (Proc.devRef .tc main_v37) = (hkSlab128x64 0 slices_S3x128x64_S1x128x64_0_0_0 (W (Proc.devRef .tc main_arg10)) : FVec F S128x64 .f32) := by
  after_results_simp <;> rfl

theorem hostK2_v40 (W : Valuation τ sig (Elt F)) :
    StableHlo.after hostOps2 W (Proc.devRef .tc main_v40) = (hkRow64 0 slices_S3x64_S1x64_0_0 (W (Proc.devRef .tc main_arg11)) : FVec F S1x64 .f32) := by
  after_results_simp <;> rfl

theorem hostK5_v73 (W : Valuation τ sig (Elt F)) :
    StableHlo.after hostOps5 W (Proc.devRef .tc main_v73) = (Cert.ReferenceIdeal.Net.agg (W (Proc.devRef .tc main_v56)) (W (Proc.devRef .tc main_v62)) (W (Proc.devRef .tc main_v8)) (W (Proc.devRef .tc main_v11)) : FVec F S50000x64 .f32) := by
  after_results_simp <;> rfl

theorem hostK5_v75 (W : Valuation τ sig (Elt F)) :
    StableHlo.after hostOps5 W (Proc.devRef .tc main_v75) = (hkSlab64x128 1 slices_S3x64x128_S1x64x128_1_0_0 (W (Proc.devRef .tc main_arg8)) : FVec F S64x128 .f32) := by
  after_results_simp <;> rfl

theorem hostK5_v78 (W : Valuation τ sig (Elt F)) :
    StableHlo.after hostOps5 W (Proc.devRef .tc main_v78) = (hkRow128 1 slices_S3x128_S1x128_1_0 (W (Proc.devRef .tc main_arg9)) : FVec F S1x128 .f32) := by
  after_results_simp <;> rfl

theorem hostK5_v80 (W : Valuation τ sig (Elt F)) :
    StableHlo.after hostOps5 W (Proc.devRef .tc main_v80) = (hkSlab128x64 1 slices_S3x128x64_S1x128x64_1_0_0 (W (Proc.devRef .tc main_arg10)) : FVec F S128x64 .f32) := by
  after_results_simp <;> rfl

theorem hostK5_v83 (W : Valuation τ sig (Elt F)) :
    StableHlo.after hostOps5 W (Proc.devRef .tc main_v83) = (hkRow64 1 slices_S3x64_S1x64_1_0 (W (Proc.devRef .tc main_arg11)) : FVec F S1x64 .f32) := by
  after_results_simp <;> rfl

theorem hostK8_v116 (W : Valuation τ sig (Elt F)) :
    StableHlo.after hostOps8 W (Proc.devRef .tc main_v116) = (Cert.ReferenceIdeal.Net.agg (W (Proc.devRef .tc main_v99)) (W (Proc.devRef .tc main_v105)) (W (Proc.devRef .tc main_v8)) (W (Proc.devRef .tc main_v11)) : FVec F S50000x64 .f32) := by
  after_results_simp <;> rfl

theorem hostK8_v118 (W : Valuation τ sig (Elt F)) :
    StableHlo.after hostOps8 W (Proc.devRef .tc main_v118) = (hkSlab64x128 2 slices_S3x64x128_S1x64x128_2_0_0 (W (Proc.devRef .tc main_arg8)) : FVec F S64x128 .f32) := by
  after_results_simp <;> rfl

theorem hostK8_v121 (W : Valuation τ sig (Elt F)) :
    StableHlo.after hostOps8 W (Proc.devRef .tc main_v121) = (hkRow128 2 slices_S3x128_S1x128_2_0 (W (Proc.devRef .tc main_arg9)) : FVec F S1x128 .f32) := by
  after_results_simp <;> rfl

theorem hostK8_v123 (W : Valuation τ sig (Elt F)) :
    StableHlo.after hostOps8 W (Proc.devRef .tc main_v123) = (hkSlab128x64 2 slices_S3x128x64_S1x128x64_2_0_0 (W (Proc.devRef .tc main_arg10)) : FVec F S128x64 .f32) := by
  after_results_simp <;> rfl

theorem hostK8_v126 (W : Valuation τ sig (Elt F)) :
    StableHlo.after hostOps8 W (Proc.devRef .tc main_v126) = (hkRow64 2 slices_S3x64_S1x64_2_0 (W (Proc.devRef .tc main_arg11)) : FVec F S1x64 .f32) := by
  after_results_simp <;> rfl

end Cert.KernelIdeal.Hand

end
-- ==== Proof.HostK3.lean ====
/-
  The stretches before the three normalisation regions, for any float instance and any contents `W` of the buffers
  before the stretch: from the column sums `s` and sums of squares `ss` the perceptron region of layer `l` leaves, the
  column means s / c and variances max(ss / c − mean · mean, 0) at the row count c = 50000; and row `l` of the stacked
  scales and of the stacked shifts (`l` = 0, 1, 2).
-/
import proofs.«172917_j75840532513057_2_alg».proof.Proof.HostK

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The column statistics and the scale and shift rows: stretches 3, 6, 9 -/

theorem hostK3_v43 (W : Valuation τ sig (Elt F)) :
    StableHlo.after hostOps3 W (Proc.devRef .tc main_v43) = (hkMean (W (Proc.devRef .tc main_v41_1)) : FVec F S1x64 .f32) := by
  after_results_simp <;> rfl

theorem hostK3_v49 (W : Valuation τ sig (Elt F)) :
    StableHlo.after hostOps3 W (Proc.devRef .tc main_v49) = (hkVar (W (Proc.devRef .tc main_v41_1)) (W (Proc.devRef .tc main_v41_2)) : FVec F S1x64 .f32) := by
  after_results_simp <;> rfl

theorem hostK3_v52 (W : Valuation τ sig (Elt F)) :
    StableHlo.after hostOps3 W (Proc.devRef .tc main_v52) = (hkRow64 0 slices_S3x64_S1x64_0_0 (W (Proc.devRef .tc main_arg12)) : FVec F S1x64 .f32) := by
  after_results_simp <;> rfl

theorem hostK3_v55 (W : Valuation τ sig (Elt F)) :
    StableHlo.after hostOps3 W (Proc.devRef .tc main_v55) = (hkRow64 0 slices_S3x64_S1x64_0_0 (W (Proc.devRef .tc main_arg13)) : FVec F S1x64 .f32) := by
  after_results_simp <;> rfl

theorem hostK6_v86 (W : Valuation τ sig (Elt F)) :
    StableHlo.after hostOps6 W (Proc.devRef .tc main_v86) = (hkMean (W (Proc.devRef .tc main_v84_1)) : FVec F S1x64 .f32) := by
  after_results_simp <;> rfl

theorem hostK6_v92 (W : Valuation τ sig (Elt F)) :
    StableHlo.after hostOps6 W (Proc.devRef .tc main_v92) = (hkVar (W (Proc.devRef .tc main_v84_1)) (W (Proc.devRef .tc main_v84_2)) : FVec F S1x64 .f32) := by
  after_results_simp <;> rfl

theorem hostK6_v95 (W : Valuation τ sig (Elt F)) :
    StableHlo.after hostOps6 W (Proc.devRef .tc main_v95) = (hkRow64 1 slices_S3x64_S1x64_1_0 (W (Proc.devRef .tc main_arg12)) : FVec F S1x64 .f32) := by
  after_results_simp <;> rfl

theorem hostK6_v98 (W : Valuation τ sig (Elt F)) :
    StableHlo.after hostOps6 W (Proc.devRef .tc main_v98) = (hkRow64 1 slices_S3x64_S1x64_1_0 (W (Proc.devRef .tc main_arg13)) : FVec F S1x64 .f32) := by
  after_results_simp <;> rfl

theorem hostK9_v129 (W : Valuation τ sig (Elt F)) :
    StableHlo.after hostOps9 W (Proc.devRef .tc main_v129) = (hkMean (W (Proc.devRef .tc main_v127_1)) : FVec F S1x64 .f32) := by
  after_results_simp <;> rfl

theorem hostK9_v135 (W : Valuation τ sig (Elt F)) :
    StableHlo.after hostOps9 W (Proc.devRef .tc main_v135) = (hkVar (W (Proc.devRef .tc main_v127_1)) (W (Proc.devRef .tc main_v127_2)) : FVec F S1x64 .f32) := by
  after_results_simp <;> rfl

theorem hostK9_v138 (W : Valuation τ sig (Elt F)) :
    StableHlo.after hostOps9 W (Proc.devRef .tc main_v138) = (hkRow64 2 slices_S3x64_S1x64_2_0 (W (Proc.devRef .tc main_arg12)) : FVec F S1x64 .f32) := by
  after_results_simp <;> rfl

theorem hostK9_v141 (W : Valuation τ sig (Elt F)) :
    StableHlo.after hostOps9 W (Proc.devRef .tc main_v141) = (hkRow64 2 slices_S3x64_S1x64_2_0 (W (Proc.devRef .tc main_arg13)) : FVec F S1x64 .f32) := by
  after_results_simp <;> rfl

end Cert.KernelIdeal.Hand

end
-- ==== Proof.HostKIdx.lean ====
/-
  The named slices and column statistics of the host stretches, read as functions of coordinates.

  Slab l of a stack of three matrices, at (k, j), is the stack at (l, k, j); row l of a stack of three vectors, as a
  one-row matrix, is at column j the stack at (l, j); a vector given a leading unit axis reads the vector.  Over the
  extended reals, with c the float of the row count: the column means are the column sums over c, and the column
  variances are max(ss / c − (s / c) · (s / c), 0).
-/
import proofs.«172917_j75840532513057_2_alg».proof.Proof.HostK
import proofs.«172917_j75840532513057_2_alg».proof.Proof.Spec
import Idealize.ShloMosaic.Lib.ValueLayout
import Idealize.ShloMosaic.Lib.IdealHost

noncomputable section

namespace Cert.KernelIdeal.Hand

open Cert.KernelIdeal Cert.KernelIdeal.Gen
open Idealize.ShloMosaic Idealize.ShloMosaic.ValueIdx

/-! ## The slices at coordinates, for any element type -/

section Slices
variable {α : Type}

/-- A rank-3 array cut along its leading axis from `o` reads, at (j, b, e), the source at (o + j, b, e). -/
theorem h_slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Slab l of a stack of three 5 × 64 matrices, at (k, j), is the stack at (l, k, j). -/
theorem h_slab5x64_apply (l : Nat) (hl : l < 3) (hsl : S3x5x64.Slices ![l, 0, 0] S1x5x64) (x : S3x5x64.Idx → α)
    (k : Fin 5) (j : Fin 64) : hkSlab5x64 l hsl x (ix2 k j) = x (ix3 ⟨l, hl⟩ k j) := by
  unfold hkSlab5x64
  refine (shapeCast_1ab_ab_apply _ _ k j).trans ?_
  exact h_slice3_axis0_apply l x hsl (0 : Fin 1) k j ⟨l, hl⟩ rfl

/-- Slab l of a stack of three 64 × 128 matrices, at (k, j), is the stack at (l, k, j). -/
theorem h_slab64x128_apply (l : Nat) (hl : l < 3) (hsl : S3x64x128.Slices ![l, 0, 0] S1x64x128) (x : S3x64x128.Idx → α)
    (k : Fin 64) (j : Fin 128) : hkSlab64x128 l hsl x (ix2 k j) = x (ix3 ⟨l, hl⟩ k j) := by
  unfold hkSlab64x128
  refine (shapeCast_1ab_ab_apply _ _ k j).trans ?_
  exact h_slice3_axis0_apply l x hsl (0 : Fin 1) k j ⟨l, hl⟩ rfl

/-- Slab l of a stack of three 128 × 64 matrices, at (k, j), is the stack at (l, k, j). -/
theorem h_slab128x64_apply (l : Nat) (hl : l < 3) (hsl : S3x128x64.Slices ![l, 0, 0] S1x128x64) (x : S3x128x64.Idx → α)
    (k : Fin 128) (j : Fin 64) : hkSlab128x64 l hsl x (ix2 k j) = x (ix3 ⟨l, hl⟩ k j) := by
  unfold hkSlab128x64
  refine (shapeCast_1ab_ab_apply _ _ k j).trans ?_
  exact h_slice3_axis0_apply l x hsl (0 : Fin 1) k j ⟨l, hl⟩ rfl

/-- Row l of a stack of three 64-vectors, as a one-row matrix, at (u, j), is the stack at (l, j). -/
theorem h_row64_apply (l : Nat) (hl : l < 3) (hsl : S3x64.Slices ![l, 0] S1x64) (x : S3x64.Idx → α)
    (u : Fin 1) (j : Fin 64) : hkRow64 l hsl x (ix2 u j) = x (ix2 ⟨l, hl⟩ j) := by
  unfold hkRow64
  refine (shapeCast_a_1a_apply _ _ u j).trans ?_
  refine (shapeCast_1a_a_apply _ _ j).trans ?_
  exact slice2_axis0_apply l x hsl (0 : Fin 1) j ⟨l, hl⟩ rfl

/-- Row l of a stack of three 128-vectors, as a one-row matrix, at (u, j), is the stack at (l, j). -/
theorem h_row128_apply (l : Nat) (hl : l < 3) (hsl : S3x128.Slices ![l, 0] S1x128) (x : S3x128.Idx → α)
    (u : Fin 1) (j : Fin 128) : hkRow128 l hsl x (ix2 u j) = x (ix2 ⟨l, hl⟩ j) := by
  unfold hkRow128
  refine (shapeCast_a_1a_apply _ _ u j).trans ?_
  refine (shapeCast_1a_a_apply _ _ j).trans ?_
  exact slice2_axis0_apply l x hsl (0 : Fin 1) j ⟨l, hl⟩ rfl

end Slices

/-! ## The slices as curried functions, over the extended reals -/

/-- Slab l of the stack, curried: (k, j) ↦ the stack at (l, k, j). -/
theorem slab5x64_val (l : Fin 3) (hsl : S3x5x64.Slices ![l.val, 0, 0] S1x5x64) (x : FVec Ideal S3x5x64 .f32) :
    Cert.Spec.ofVec2 (hkSlab5x64 l.val hsl x) = fun (k : Fin 5) (j : Fin 64) => x (ix3 l k j) :=
  funext fun k => funext fun j => h_slab5x64_apply l.val l.isLt hsl x k j
theorem slab5x64_val_0 (hsl : S3x5x64.Slices ![0, 0, 0] S1x5x64) (x : FVec Ideal S3x5x64 .f32) :
    Cert.Spec.ofVec2 (hkSlab5x64 0 hsl x) = fun (k : Fin 5) (j : Fin 64) => x (ix3 (0 : Fin 3) k j) :=
  funext fun k => funext fun j => h_slab5x64_apply 0 (by decide) hsl x k j
theorem slab5x64_val_1 (hsl : S3x5x64.Slices ![1, 0, 0] S1x5x64) (x : FVec Ideal S3x5x64 .f32) :
    Cert.Spec.ofVec2 (hkSlab5x64 1 hsl x) = fun (k : Fin 5) (j : Fin 64) => x (ix3 (1 : Fin 3) k j) :=
  funext fun k => funext fun j => h_slab5x64_apply 1 (by decide) hsl x k j
theorem slab5x64_val_2 (hsl : S3x5x64.Slices ![2, 0, 0] S1x5x64) (x : FVec Ideal S3x5x64 .f32) :
    Cert.Spec.ofVec2 (hkSlab5x64 2 hsl x) = fun (k : Fin 5) (j : Fin 64) => x (ix3 (2 : Fin 3) k j) :=
  funext fun k => funext fun j => h_slab5x64_apply 2 (by decide) hsl x k j

/-- Slab l of the stack, curried: (k, j) ↦ the stack at (l, k, j). -/
theorem slab64x128_val (l : Fin 3) (hsl : S3x64x128.Slices ![l.val, 0, 0] S1x64x128) (x : FVec Ideal S3x64x128 .f32) :
    Cert.Spec.ofVec2 (hkSlab64x128 l.val hsl x) = fun (k : Fin 64) (j : Fin 128) => x (ix3 l k j) :=
  funext fun k => funext fun j => h_slab64x128_apply l.val l.isLt hsl x k j
theorem slab64x128_val_0 (hsl : S3x64x128.Slices ![0, 0, 0] S1x64x128) (x : FVec Ideal S3x64x128 .f32) :
    Cert.Spec.ofVec2 (hkSlab64x128 0 hsl x) = fun (k : Fin 64) (j : Fin 128) => x (ix3 (0 : Fin 3) k j) :=
  funext fun k => funext fun j => h_slab64x128_apply 0 (by decide) hsl x k j
theorem slab64x128_val_1 (hsl : S3x64x128.Slices ![1, 0, 0] S1x64x128) (x : FVec Ideal S3x64x128 .f32) :
    Cert.Spec.ofVec2 (hkSlab64x128 1 hsl x) = fun (k : Fin 64) (j : Fin 128) => x (ix3 (1 : Fin 3) k j) :=
  funext fun k => funext fun j => h_slab64x128_apply 1 (by decide) hsl x k j
theorem slab64x128_val_2 (hsl : S3x64x128.Slices ![2, 0, 0] S1x64x128) (x : FVec Ideal S3x64x128 .f32) :
    Cert.Spec.ofVec2 (hkSlab64x128 2 hsl x) = fun (k : Fin 64) (j : Fin 128) => x (ix3 (2 : Fin 3) k j) :=
  funext fun k => funext fun j => h_slab64x128_apply 2 (by decide) hsl x k j

/-- Slab l of the stack, curried: (k, j) ↦ the stack at (l, k, j). -/
theorem slab128x64_val (l : Fin 3) (hsl : S3x128x64.Slices ![l.val, 0, 0] S1x128x64) (x : FVec Ideal S3x128x64 .f32) :
    Cert.Spec.ofVec2 (hkSlab128x64 l.val hsl x) = fun (k : Fin 128) (j : Fin 64) => x (ix3 l k j) :=
  funext fun k => funext fun j => h_slab128x64_apply l.val l.isLt hsl x k j
theorem slab128x64_val_0 (hsl : S3x128x64.Slices ![0, 0, 0] S1x128x64) (x : FVec Ideal S3x128x64 .f32) :
    Cert.Spec.ofVec2 (hkSlab128x64 0 hsl x) = fun (k : Fin 128) (j : Fin 64) => x (ix3 (0 : Fin 3) k j) :=
  funext fun k => funext fun j => h_slab128x64_apply 0 (by decide) hsl x k j
theorem slab128x64_val_1 (hsl : S3x128x64.Slices ![1, 0, 0] S1x128x64) (x : FVec Ideal S3x128x64 .f32) :
    Cert.Spec.ofVec2 (hkSlab128x64 1 hsl x) = fun (k : Fin 128) (j : Fin 64) => x (ix3 (1 : Fin 3) k j) :=
  funext fun k => funext fun j => h_slab128x64_apply 1 (by decide) hsl x k j
theorem slab128x64_val_2 (hsl : S3x128x64.Slices ![2, 0, 0] S1x128x64) (x : FVec Ideal S3x128x64 .f32) :
    Cert.Spec.ofVec2 (hkSlab128x64 2 hsl x) = fun (k : Fin 128) (j : Fin 64) => x (ix3 (2 : Fin 3) k j) :=
  funext fun k => funext fun j => h_slab128x64_apply 2 (by decide) hsl x k j

/-- Row l of the stack, as a function of the column: j ↦ the stack at (l, j). -/
theorem row64_val (l : Fin 3) (hsl : S3x64.Slices ![l.val, 0] S1x64) (x : FVec Ideal S3x64 .f32) :
    Cert.Spec.ofRow (hkRow64 l.val hsl x) = fun (j : Fin 64) => x (ix2 l j) :=
  funext fun j => h_row64_apply l.val l.isLt hsl x 0 j
theorem row64_val_0 (hsl : S3x64.Slices ![0, 0] S1x64) (x : FVec Ideal S3x64 .f32) :
    Cert.Spec.ofRow (hkRow64 0 hsl x) = fun (j : Fin 64) => x (ix2 (0 : Fin 3) j) :=
  funext fun j => h_row64_apply 0 (by decide) hsl x 0 j
theorem row64_val_1 (hsl : S3x64.Slices ![1, 0] S1x64) (x : FVec Ideal S3x64 .f32) :
    Cert.Spec.ofRow (hkRow64 1 hsl x) = fun (j : Fin 64) => x (ix2 (1 : Fin 3) j) :=
  funext fun j => h_row64_apply 1 (by decide) hsl x 0 j
theorem row64_val_2 (hsl : S3x64.Slices ![2, 0] S1x64) (x : FVec Ideal S3x64 .f32) :
    Cert.Spec.ofRow (hkRow64 2 hsl x) = fun (j : Fin 64) => x (ix2 (2 : Fin 3) j) :=
  funext fun j => h_row64_apply 2 (by decide) hsl x 0 j

/-- Row l of the stack, as a function of the column: j ↦ the stack at (l, j). -/
theorem row128_val (l : Fin 3) (hsl : S3x128.Slices ![l.val, 0] S1x128) (x : FVec Ideal S3x128 .f32) :
    Cert.Spec.ofRow (hkRow128 l.val hsl x) = fun (j : Fin 128) => x (ix2 l j) :=
  funext fun j => h_row128_apply l.val l.isLt hsl x 0 j
theorem row128_val_0 (hsl : S3x128.Slices ![0, 0] S1x128) (x : FVec Ideal S3x128 .f32) :
    Cert.Spec.ofRow (hkRow128 0 hsl x) = fun (j : Fin 128) => x (ix2 (0 : Fin 3) j) :=
  funext fun j => h_row128_apply 0 (by decide) hsl x 0 j
theorem row128_val_1 (hsl : S3x128.Slices ![1, 0] S1x128) (x : FVec Ideal S3x128 .f32) :
    Cert.Spec.ofRow (hkRow128 1 hsl x) = fun (j : Fin 128) => x (ix2 (1 : Fin 3) j) :=
  funext fun j => h_row128_apply 1 (by decide) hsl x 0 j
theorem row128_val_2 (hsl : S3x128.Slices ![2, 0] S1x128) (x : FVec Ideal S3x128 .f32) :
    Cert.Spec.ofRow (hkRow128 2 hsl x) = fun (j : Fin 128) => x (ix2 (2 : Fin 3) j) :=
  funext fun j => h_row128_apply 2 (by decide) hsl x 0 j

/-- A 64-vector given a leading unit axis reads, as a row, the vector. -/
theorem xb_val (x : FVec Ideal S64 .f32) :
    Cert.Spec.ofRow (shapeCast S1x64 x shapeCasts_S64_S1x64) = Cert.Spec.ofVec1 x :=
  funext fun j => shapeCast_a_1a_apply x _ 0 j

/-! ## The column statistics over the extended reals -/

/-- The row count's float is read at every index of its one-row matrix. -/
theorem h_cnt_apply (i : S1x64.Idx) : hkCnt (F := Ideal) i = Ideal.ofBits .f32 0x47435000#32 := by
  unfold hkCnt
  exact (broadcastInDim_scalar_apply _ _ i).trans (constant_apply _ _)

/-- The one-row matrix of zeros reads the extended real zero. -/
theorem h_zero_apply (i : S1x64.Idx) : hkZero (F := Ideal) i = 0 := by
  unfold hkZero
  exact ((broadcastInDim_scalar_apply _ _ i).trans (constant_apply _ _)).trans Ideal.ofBits_zero_f32

/-- The column mean at an index: the column sum divided by the row count. -/
theorem h_mean_apply (s : FVec Ideal S1x64 .f32) (i : S1x64.Idx) :
    hkMean (F := Ideal) s i = Ideal.div (s i) (Ideal.ofBits .f32 0x47435000#32) := by
  unfold hkMean
  exact (hostDivf_apply _ _ i).trans (congrArg (Ideal.div (s i)) (h_cnt_apply i))

/-- The column variance at an index: max(ss / c − (s / c) · (s / c), 0). -/
theorem h_var_apply (s ss : FVec Ideal S1x64 .f32) (i : S1x64.Idx) :
    hkVar (F := Ideal) s ss i
      = max (Ideal.div (ss i) (Ideal.ofBits .f32 0x47435000#32)
          - Ideal.div (s i) (Ideal.ofBits .f32 0x47435000#32) * Ideal.div (s i) (Ideal.ofBits .f32 0x47435000#32)) 0 := by
  unfold hkVar
  rw [maximumf_apply, subf_apply, mulf_apply, hostDivf_apply, h_mean_apply, h_cnt_apply, h_zero_apply]

/-- The column means as a row: the column sums over the row count. -/
theorem mean_val (s : FVec Ideal S1x64 .f32) :
    Cert.Spec.ofRow (hkMean (F := Ideal) s) = Cert.Spec.over (Ideal.ofBits .f32 0x47435000#32) (Cert.Spec.ofRow s) :=
  funext fun j => h_mean_apply s (ix2 0 j)

/-- The column variances as a row: max(E[x²] − E[x]², 0) from the two column sums. -/
theorem var_val (s ss : FVec Ideal S1x64 .f32) :
    Cert.Spec.ofRow (hkVar (F := Ideal) s ss)
      = Cert.Spec.varOfSums (Ideal.ofBits .f32 0x47435000#32) (Cert.Spec.ofRow s) (Cert.Spec.ofRow ss) :=
  funext fun j => h_var_apply s ss (ix2 0 j)

end Cert.KernelIdeal.Hand

end
-- ==== Proof.AlgebraConsts.lean ====
/-
  The float constants the two programs spell, as the extended reals their bit patterns denote:
  the row count 50000, the numbers 1 and 8, and the normalisation's small positive constant
  (the pattern nearest 1e-5, whose exact value 10995116 / 2^40 is not used: only that it is a positive real).
  One module unfolds the patterns; the others read the constants here.
-/
import Idealize.ShloMosaic.PureOps.Ideal

noncomputable section

namespace Cert.Spec

open Idealize.ShloMosaic

/-- `50000.0` denotes the real `50000`: `(2^23 + 4411392) · 2^(142 - 150)`. -/
theorem ofBits_50000 : Ideal.ofBits .f32 0x47435000#32 = ((50000 : ℝ) : EReal) := by
  simp [Ideal.ofBits, Ideal.ieee, -EReal.coe_mul]; norm_num

/-- `50000.0` as a positive real. -/
theorem ofBits_50000_pos : ∃ r : ℝ, 0 < r ∧ Ideal.ofBits .f32 0x47435000#32 = (r : EReal) :=
  ⟨50000, by norm_num, ofBits_50000⟩

/-- `1.0` denotes the real `1`. -/
theorem ofBits_one : Ideal.ofBits .f32 0x3F800000#32 = ((1 : ℝ) : EReal) := by
  rw [EReal.coe_one]; simp [Ideal.ofBits, Ideal.ieee, -EReal.coe_mul]; norm_num

/-- `8.0` denotes the real `8`. -/
theorem ofBits_eight : Ideal.ofBits .f32 0x41000000#32 = ((8 : ℝ) : EReal) := by
  simp [Ideal.ofBits, Ideal.ieee, -EReal.coe_mul]; norm_num

/-- The small constant added to the variance denotes `10995116 / 2^40`. -/
theorem f_ofBits_eps_val : Ideal.ofBits .f32 0x3727C5AC#32 = ((10995116 / 2 ^ 40 : ℝ) : EReal) := by
  simp [Ideal.ofBits, Ideal.ieee, -EReal.coe_mul]; norm_num

/-- The small constant added to the variance denotes a positive real. -/
theorem ofBits_eps : ∃ r : ℝ, 0 < r ∧ Ideal.ofBits .f32 0x3727C5AC#32 = (r : EReal) :=
  ⟨10995116 / 2 ^ 40, by norm_num, f_ofBits_eps_val⟩

end Cert.Spec

end
-- ==== Proof.AlgebraReal.lean ====
/-
  Finiteness through the stages of Spec.lean: where every input is a real number (neither infinity),
  so is every stage's result. On real numbers the extended reals' sum, difference, product, maximum and
  minimum are the real ones; a division by a nonzero real is the product with its reciprocal; the
  exponential of a real is real; the reciprocal square root of a positive real is real. The variance
  of real data over a positive count is a nonnegative real, so that the normalisation's reciprocal
  square root is taken at a positive real.
-/
import proofs.«172917_j75840532513057_2_alg».proof.Proof.Spec
import Idealize.ShloMosaic.PureOps.Ideal
import Idealize.ShloMosaic.PureOps.Ideal.Laws

noncomputable section

open scoped BigOperators

namespace Cert.Spec

open Idealize.ShloMosaic

/-! ## Scalars -/

theorem f_isReal_coe (r : ℝ) : IsReal (r : EReal) := ⟨r, rfl⟩
theorem f_isReal_zero : IsReal 0 := ⟨0, EReal.coe_zero.symm⟩
theorem f_isReal_one : IsReal 1 := ⟨1, EReal.coe_one.symm⟩

/-- A real number given with a sign condition is a real number. -/
theorem f_isReal_of_pos {x : EReal} (hx : ∃ r : ℝ, 0 < r ∧ x = (r : EReal)) : IsReal x :=
  let ⟨r, _, h⟩ := hx; ⟨r, h⟩

theorem add_real {x y : EReal} (hx : IsReal x) (hy : IsReal y) : IsReal (x + y) := by
  obtain ⟨a, rfl⟩ := hx; obtain ⟨b, rfl⟩ := hy
  exact ⟨a + b, (EReal.coe_add a b).symm⟩

theorem mul_real {x y : EReal} (hx : IsReal x) (hy : IsReal y) : IsReal (x * y) := by
  obtain ⟨a, rfl⟩ := hx; obtain ⟨b, rfl⟩ := hy
  exact ⟨a * b, (EReal.coe_mul a b).symm⟩

theorem sub_real {x y : EReal} (hx : IsReal x) (hy : IsReal y) : IsReal (x - y) := by
  obtain ⟨a, rfl⟩ := hx; obtain ⟨b, rfl⟩ := hy
  exact ⟨a - b, (EReal.coe_sub a b).symm⟩

theorem max_real {x y : EReal} (hx : IsReal x) (hy : IsReal y) : IsReal (max x y) := by
  rcases le_total x y with h | h
  · rw [max_eq_right h]; exact hy
  · rw [max_eq_left h]; exact hx

theorem f_min_real {x y : EReal} (hx : IsReal x) (hy : IsReal y) : IsReal (min x y) := by
  rcases le_total x y with h | h
  · rw [min_eq_left h]; exact hx
  · rw [min_eq_right h]; exact hy

/-- A finite sum of coerced reals is the coerced sum. -/
theorem f_coe_sum {ι : Type*} (s : Finset ι) (r : ι → ℝ) :
    ∑ i ∈ s, ((r i : ℝ) : EReal) = ((∑ i ∈ s, r i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A finite sum of real numbers is a real number. -/
theorem sum_real {ι : Type*} (s : Finset ι) (f : ι → EReal) (hf : ∀ i ∈ s, IsReal (f i)) :
    IsReal (∑ i ∈ s, f i) := by
  classical
  induction s using Finset.induction_on with
  | empty => rw [Finset.sum_empty]; exact f_isReal_zero
  | insert a s ha ih =>
    rw [Finset.sum_insert ha]
    exact add_real (hf a (Finset.mem_insert_self a s)) (ih fun i hi => hf i (Finset.mem_insert_of_mem hi))

/-- The quotient of a real number by a nonzero real is a real number. -/
theorem f_div_real {x c : EReal} (hc : ∃ r : ℝ, r ≠ 0 ∧ c = (r : EReal)) (hx : IsReal x) : IsReal (Ideal.div x c) := by
  obtain ⟨r, hr, rfl⟩ := hc
  rw [Ideal.div_coe hr]
  exact mul_real hx (f_isReal_coe _)

/-- The exponential of a real number is a real number. -/
theorem f_exp_real {x : EReal} (hx : IsReal x) : IsReal (Ideal.exp x) := by
  obtain ⟨a, rfl⟩ := hx
  exact ⟨Real.exp a, Ideal.exp_coe a⟩

/-- The reciprocal square root of a positive real number is a real number. -/
theorem f_rsqrt_real {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact f_isReal_coe _

/-- A positive real is a nonzero real. -/
theorem f_ne_of_pos {c : EReal} (hc : ∃ r : ℝ, 0 < r ∧ c = (r : EReal)) : ∃ r : ℝ, r ≠ 0 ∧ c = (r : EReal) :=
  let ⟨r, hr, h⟩ := hc; ⟨r, hr.ne', h⟩

/-! ## The stages -/

section
variable {M K N : Nat}

theorem lin_real (a : Fin M → Fin K → EReal) (w : Fin K → Fin N → EReal) (b : Fin N → EReal)
    (ha : IsReal2 a) (hw : IsReal2 w) (hb : IsReal1 b) : IsReal2 (lin a w b) := by
  intro i j
  show IsReal ((∑ k, a i k * w k j) + b j)
  exact add_real (sum_real _ _ fun k _ => mul_real (ha i k) (hw k j)) (hb j)

theorem mlp_real {H : Nat} (a : Fin M → Fin K → EReal) (w1 : Fin K → Fin H → EReal) (b1 : Fin H → EReal)
    (w2 : Fin H → Fin N → EReal) (b2 : Fin N → EReal)
    (ha : IsReal2 a) (h1 : IsReal2 w1) (hb1 : IsReal1 b1) (h2 : IsReal2 w2) (hb2 : IsReal1 b2) :
    IsReal2 (mlp a w1 b1 w2 b2) :=
  lin_real _ w2 b2 (fun i k => max_real (lin_real a w1 b1 ha h1 hb1 i k) f_isReal_zero) h2 hb2

theorem colsum_real (h : Fin M → Fin N → EReal) (hh : IsReal2 h) : IsReal1 (colsum h) :=
  fun j => sum_real _ _ fun i _ => hh i j

theorem colsumsq_real (h : Fin M → Fin N → EReal) (hh : IsReal2 h) : IsReal1 (colsumsq h) :=
  fun j => sum_real _ _ fun i _ => mul_real (hh i j) (hh i j)

theorem over_real (c : EReal) (hc : ∃ r : ℝ, r ≠ 0 ∧ c = (r : EReal)) (s : Fin N → EReal) (hs : IsReal1 s) :
    IsReal1 (Cert.Spec.over c s) :=
  fun j => f_div_real hc (hs j)

theorem f_varOfSums_real (c : EReal) (hc : ∃ r : ℝ, r ≠ 0 ∧ c = (r : EReal)) (s ss : Fin N → EReal)
    (hs : IsReal1 s) (hss : IsReal1 ss) : IsReal1 (varOfSums c s ss) :=
  fun j => max_real (sub_real (over_real c hc ss hss j) (mul_real (over_real c hc s hs j) (over_real c hc s hs j)))
    f_isReal_zero

theorem f_varOfSums_nonneg (c : EReal) (s ss : Fin N → EReal) (j : Fin N) : 0 ≤ varOfSums c s ss j :=
  le_max_right _ _

theorem varOfDev_real (c : EReal) (hc : ∃ r : ℝ, 0 < r ∧ c = (r : EReal)) (h : Fin M → Fin N → EReal)
    (hh : IsReal2 h) : IsReal1 (varOfDev c h) :=
  over_real c (f_ne_of_pos hc) _ fun j => sum_real _ _ fun i _ =>
    mul_real (sub_real (hh i j) (over_real c (f_ne_of_pos hc) _ (colsum_real h hh) j))
      (sub_real (hh i j) (over_real c (f_ne_of_pos hc) _ (colsum_real h hh) j))

/-- A sum of squares of real numbers over a positive real is nonnegative. -/
theorem f_sumsq_div_nonneg (d : Fin M → EReal) (hd : ∀ i, IsReal (d i)) {r : ℝ} (hr : 0 < r) :
    0 ≤ Ideal.div (∑ i, d i * d i) (r : EReal) := by
  choose δ hδ using hd
  have hsum : ∑ i, d i * d i = ((∑ i, δ i * δ i : ℝ) : EReal) := by
    rw [← f_coe_sum]; exact Finset.sum_congr rfl fun i _ => by rw [hδ i, EReal.coe_mul]
  rw [Ideal.div_coe hr.ne', hsum, ← EReal.coe_mul]
  exact EReal.coe_nonneg.mpr
    (mul_nonneg (Finset.sum_nonneg fun i _ => mul_self_nonneg _) (one_div_pos.mpr hr).le)

theorem varOfDev_nonneg (c : EReal) (hc : ∃ r : ℝ, 0 < r ∧ c = (r : EReal)) (h : Fin M → Fin N → EReal)
    (hh : IsReal2 h) (j : Fin N) : 0 ≤ varOfDev c h j := by
  obtain ⟨r, hr, rfl⟩ := hc
  exact f_sumsq_div_nonneg _
    (fun i => sub_real (hh i j) (over_real _ ⟨r, hr.ne', rfl⟩ _ (colsum_real h hh) j)) hr

theorem norm_real (eps : EReal) (he : ∃ r : ℝ, 0 < r ∧ eps = (r : EReal))
    (h : Fin M → Fin N → EReal) (mean var gamma beta : Fin N → EReal)
    (hh : IsReal2 h) (hmean : IsReal1 mean) (hvar : IsReal1 var) (hvar0 : ∀ j, 0 ≤ var j)
    (hg : IsReal1 gamma) (hb : IsReal1 beta) : IsReal2 (norm eps h mean var gamma beta) := by
  intro i j
  show IsReal ((h i j - mean j) * Ideal.rsqrt (var j + eps) * gamma j + beta j)
  have hpos : 0 < var j + eps := by
    obtain ⟨e, hepos, rfl⟩ := he
    obtain ⟨v, hv⟩ := hvar j
    have hv0 : 0 ≤ v := EReal.coe_nonneg.mp (hv ▸ hvar0 j)
    rw [hv, ← EReal.coe_add]
    exact EReal.coe_pos.mpr (add_pos_of_nonneg_of_pos hv0 hepos)
  exact add_real (mul_real (mul_real (sub_real (hh i j) (hmean j))
    (f_rsqrt_real (add_real (hvar j) (f_isReal_of_pos he)) hpos)) (hg j)) (hb j)

theorem eluMin_real (x : EReal) (hx : IsReal x) : IsReal (eluMin x) := by
  unfold eluMin
  split_ifs
  · exact hx
  · exact sub_real (f_exp_real (f_min_real hx f_isReal_zero)) f_isReal_one

theorem bnOfDev_real (c eps : EReal) (hc : ∃ r : ℝ, 0 < r ∧ c = (r : EReal)) (he : ∃ r : ℝ, 0 < r ∧ eps = (r : EReal))
    (h : Fin M → Fin N → EReal) (hh : IsReal2 h) (gamma beta : Fin N → EReal) (hg : IsReal1 gamma) (hb : IsReal1 beta) :
    IsReal2 (bnOfDev c eps h gamma beta) :=
  norm_real eps he h _ _ gamma beta hh (over_real c (f_ne_of_pos hc) _ (colsum_real h hh)) (varOfDev_real c hc h hh)
    (varOfDev_nonneg c hc h hh) hg hb

theorem f_bnOfSums_real (c eps : EReal) (hc : ∃ r : ℝ, r ≠ 0 ∧ c = (r : EReal)) (he : ∃ r : ℝ, 0 < r ∧ eps = (r : EReal))
    (h : Fin M → Fin N → EReal) (hh : IsReal2 h) (s ss gamma beta : Fin N → EReal)
    (hs : IsReal1 s) (hss : IsReal1 ss) (hg : IsReal1 gamma) (hb : IsReal1 beta) :
    IsReal2 (bnOfSums c eps h s ss gamma beta) :=
  norm_real eps he h _ _ gamma beta hh (over_real c hc s hs) (f_varOfSums_real c hc s ss hs hss)
    (f_varOfSums_nonneg c s ss) hg hb

end

end Cert.Spec

end
-- ==== Proof.AlgebraVar.lean ====
/-
  The law joining the two spellings of the variance. For real data `x₁ … x_M` (`M > 0`) with mean
  `m = (Σ x) / M`:
      (Σ x²) / M − m²  =  (Σ (x − m)²) / M,
  since `Σ (x − m)² = Σ x² − 2 m Σ x + M m² = Σ x² − M m²`; and the right side is a sum of squares over a
  positive number, hence nonnegative, so the maximum with zero that one program takes changes nothing.
  Over the extended reals the same holds where every entry is a real number: every coercion moves outward
  (a division by the nonzero real `M` is the product with `1 / M`) and the identity is the real one.
-/
import proofs.«172917_j75840532513057_2_alg».proof.Proof.Spec
import proofs.«172917_j75840532513057_2_alg».proof.Proof.AlgebraReal
import Idealize.ShloMosaic.PureOps.Ideal
import Idealize.ShloMosaic.PureOps.Ideal.Laws

noncomputable section

open scoped BigOperators

namespace Cert.Spec

open Idealize.ShloMosaic

/-- The identity over the reals, with every division spelt as a product with `1 / M`. -/
theorem f_var_real {M : ℕ} (hM : 0 < M) (x : Fin M → ℝ) :
    (∑ i, x i * x i) * (1 / (M : ℝ)) - (∑ i, x i) * (1 / (M : ℝ)) * ((∑ i, x i) * (1 / (M : ℝ)))
      = (∑ i, (x i - (∑ i, x i) * (1 / (M : ℝ))) * (x i - (∑ i, x i) * (1 / (M : ℝ)))) * (1 / (M : ℝ)) := by
  have hM' : (M : ℝ) ≠ 0 := Nat.cast_ne_zero.mpr hM.ne'
  generalize hS : ∑ i, x i = S
  generalize hQ : ∑ i, x i * x i = Q
  have h1 : ∀ i, (x i - S * (1 / (M : ℝ))) * (x i - S * (1 / (M : ℝ)))
      = x i * x i - 2 * (S * (1 / (M : ℝ))) * x i + S * (1 / (M : ℝ)) * (S * (1 / (M : ℝ))) := fun i => by ring
  rw [Finset.sum_congr rfl fun i _ => h1 i, Finset.sum_add_distrib, Finset.sum_sub_distrib, ← Finset.mul_sum,
    Finset.sum_const, Finset.card_univ, Fintype.card_fin, nsmul_eq_mul, hS, hQ]
  field_simp
  ring

/-- The variance from the two column sums is the mean squared deviation, on real data over its row count. -/
theorem varOfSums_eq_varOfDev {M N : Nat} (c : EReal) (hc : c = ((M : ℝ) : EReal)) (hM : 0 < M)
    (h : Fin M → Fin N → EReal) (hh : IsReal2 h) :
    varOfSums c (colsum h) (colsumsq h) = varOfDev c h := by
  have hh' : ∀ i j, ∃ r : ℝ, h i j = (r : EReal) := hh
  choose r hr using hh'
  have hM' : (M : ℝ) ≠ 0 := Nat.cast_ne_zero.mpr hM.ne'
  have hMpos : (0 : ℝ) < M := Nat.cast_pos.mpr hM
  funext j
  have key := f_var_real hM (fun i => r i j)
  beta_reduce at key
  generalize hm : (∑ i, r i j) * (1 / (M : ℝ)) = m at key
  have hsum : ∑ i, h i j = ((∑ i, r i j : ℝ) : EReal) := by
    rw [← f_coe_sum]; exact Finset.sum_congr rfl fun i _ => hr i j
  have hsq : ∑ i, h i j * h i j = ((∑ i, r i j * r i j : ℝ) : EReal) := by
    rw [← f_coe_sum]; exact Finset.sum_congr rfl fun i _ => by rw [hr i j, EReal.coe_mul]
  have hmean : Cert.Spec.over c (colsum h) j = ((m : ℝ) : EReal) := by
    show Ideal.div (∑ i, h i j) c = _
    rw [hc, Ideal.div_coe hM', hsum, ← EReal.coe_mul, hm]
  have hmsq : Cert.Spec.over c (colsumsq h) j = (((∑ i, r i j * r i j) * (1 / (M : ℝ)) : ℝ) : EReal) := by
    show Ideal.div (∑ i, h i j * h i j) c = _
    rw [hc, Ideal.div_coe hM', hsq, ← EReal.coe_mul]
  have hD : ∑ i, (h i j - ((m : ℝ) : EReal)) * (h i j - ((m : ℝ) : EReal))
      = ((∑ i, (r i j - m) * (r i j - m) : ℝ) : EReal) := by
    rw [← f_coe_sum]
    exact Finset.sum_congr rfl fun i _ => by rw [hr i j, ← EReal.coe_sub, ← EReal.coe_mul]
  have hdev : varOfDev c h j = (((∑ i, (r i j - m) * (r i j - m)) * (1 / (M : ℝ)) : ℝ) : EReal) := by
    show Ideal.div (∑ i, (h i j - Cert.Spec.over c (colsum h) j) * (h i j - Cert.Spec.over c (colsum h) j)) c = _
    rw [hmean, hc, Ideal.div_coe hM', hD, ← EReal.coe_mul]
  show max (Cert.Spec.over c (colsumsq h) j - Cert.Spec.over c (colsum h) j * Cert.Spec.over c (colsum h) j) 0
    = varOfDev c h j
  rw [hdev, hmsq, hmean, ← EReal.coe_mul, ← EReal.coe_sub, key, max_eq_left]
  exact EReal.coe_nonneg.mpr
    (mul_nonneg (Finset.sum_nonneg fun i _ => mul_self_nonneg _) (one_div_pos.mpr hMpos).le)

/-- So the two batch normalisations agree on real data over its row count. -/
theorem bn_eq {M N : Nat} (c eps : EReal) (hc : c = ((M : ℝ) : EReal)) (hM : 0 < M)
    (h : Fin M → Fin N → EReal) (hh : IsReal2 h) (gamma beta : Fin N → EReal) :
    bnOfSums c eps h (colsum h) (colsumsq h) gamma beta = bnOfDev c eps h gamma beta := by
  unfold bnOfSums bnOfDev
  rw [varOfSums_eq_varOfDev c hc hM h hh]

end Cert.Spec

end
-- ==== Proof.NetReal.lean ====
/-
  Finiteness through the shared host computations, at the extended reals.  An entry of a slice, a reshape, a
  broadcast, a concatenation or a gather of arrays is an entry of one of the arrays; an overwriting scatter leaves at
  each index an entry of the operand or of the update; an adding scatter leaves the operand's entry plus a finite sum
  of update entries, and a finite sum of real numbers is a real number.  Hence the self-loop attributes (zeros and
  eights) are real, the appended edge attributes are real when the edge attributes are, and one aggregation of real
  features and real edge embeddings is real, whatever the index arrays hold.
-/
import proofs.«172917_j75840532513057_2_alg».proof.Proof.Spec
import proofs.«172917_j75840532513057_2_alg».proof.Proof.Net

noncomputable section

open scoped BigOperators
open Idealize.ShloMosaic

namespace Cert.Spec

/-- Zero is a real number. -/
theorem h_zero_real : IsReal (0 : EReal) := ⟨0, rfl⟩

/-- The sum of two real numbers is a real number. -/
theorem h_add_real {a b : EReal} (ha : IsReal a) (hb : IsReal b) : IsReal (a + b) := by
  obtain ⟨ra, rfl⟩ := ha
  obtain ⟨rb, rfl⟩ := hb
  exact ⟨ra + rb, (EReal.coe_add ra rb).symm⟩

/-- A finite sum of real numbers is a real number. -/
theorem h_sum_real {ι : Type} (s : Finset ι) (f : ι → EReal) (hf : ∀ i ∈ s, IsReal (f i)) : IsReal (∑ i ∈ s, f i) :=
  Finset.sum_induction f IsReal (fun _ _ => h_add_real) h_zero_real hf

/-- A pattern whose exponent field is not all ones denotes a real number. -/
theorem h_ieee_real (e m : Nat) {w : Nat} (b : BitVec w) (hex : (b.extractLsb' m e).toNat ≠ 2 ^ e - 1) :
    IsReal (Ideal.ieee e m b) := by
  simp only [Ideal.ieee]
  rw [if_neg hex]
  by_cases h0 : (b.extractLsb' m e).toNat = 0
  · rw [if_pos h0]; exact ⟨_, rfl⟩
  · rw [if_neg h0]; exact ⟨_, rfl⟩

variable {s t : Shape}

/-- An entry of a slice is an entry of the array. -/
theorem extractStridedSlice_real (off : Fin s.rank → Nat) (x : s.Idx → EReal) (h : s.Slices off t)
    (hx : ∀ i, IsReal (x i)) : ∀ j, IsReal (extractStridedSlice t off x h j) := fun _ => hx _
/-- An entry of a reshape is an entry of the array. -/
theorem shapeCast_real (x : s.Idx → EReal) (h : s.ShapeCasts t) (hx : ∀ i, IsReal (x i)) :
    ∀ j, IsReal (shapeCast t x h j) := fun _ => hx _
/-- An entry of a broadcast is an entry of the array. -/
theorem broadcastInDim_real (dims : Fin s.rank → Fin t.rank) (h : s.BroadcastsInDim t dims) (x : s.Idx → EReal)
    (hx : ∀ i, IsReal (x i)) : ∀ j, IsReal (broadcastInDim t dims h x j) := fun _ => hx _

/-- An entry of a concatenation is an entry of one of its pieces. -/
theorem h_concatenate_real (a : Fin t.rank) (xs : List ((s : Shape) × (s.Idx → EReal)))
    (h : Shape.Concatenates (xs.map (·.1)) t a) (hx : ∀ p ∈ xs, ∀ i, IsReal (p.2 i)) :
    ∀ j, IsReal (concatenate t a xs h j) := by
  intro j
  unfold concatenate
  exact hx _ (List.getElem_mem _) _

/-- An entry of a concatenation of two arrays is an entry of one of the two. -/
theorem h_concatenate_pair_real {s₁ s₂ : Shape} (a : Fin t.rank) (x₁ : s₁.Idx → EReal) (x₂ : s₂.Idx → EReal)
    (h : Shape.Concatenates (([⟨s₁, x₁⟩, ⟨s₂, x₂⟩] : List ((s : Shape) × (s.Idx → EReal))).map (·.1)) t a)
    (h1 : ∀ i, IsReal (x₁ i)) (h2 : ∀ i, IsReal (x₂ i)) :
    ∀ j, IsReal (concatenate t a [⟨s₁, x₁⟩, ⟨s₂, x₂⟩] h j) := by
  refine h_concatenate_real a _ h ?_
  intro p hp
  rcases List.mem_cons.1 hp with rfl | hp
  · exact h1
  · rcases List.mem_cons.1 hp with rfl | hp
    · exact h2
    · cases hp

/-- An entry of a gather is an entry of the operand. -/
theorem h_gather_real {si : Shape} {w : Nat} (d : GatherDims s si t) (x : s.Idx → EReal) (idx : IVec si w)
    (hx : ∀ i, IsReal (x i)) : ∀ j, IsReal (Host.gather d x idx j) := fun _ => hx _

/-- An overwriting scatter leaves at each index an entry of the operand or an entry of the update. -/
theorem h_scatter_set_real {si u : Shape} {w : Nat} (d : ScatterDims s si u) (x : s.Idx → EReal) (idx : IVec si w)
    (upd : u.Idx → EReal) (hx : ∀ i, IsReal (x i)) (hu : ∀ j, IsReal (upd j)) :
    ∀ i, IsReal (Host.scatter d (fun _ b => b) x idx upd i) := by
  unfold Host.scatter
  generalize List.finRange u.numel = l
  induction l generalizing x with
  | nil => exact hx
  | cons n l ih =>
    rw [List.foldl_cons]
    refine ih _ ?_
    intro i'
    generalize d.resultIdx? (u.rowMajor.symm n) idx = o
    cases o with
    | none => exact hx i'
    | some i =>
      show IsReal (@ite _ (i' = i) _ _ _)
      by_cases hi : i' = i
      · rw [if_pos hi]; exact hu _
      · rw [if_neg hi]; exact hx _

/-- An adding scatter leaves the operand's entry plus a finite sum of update entries. -/
theorem h_scatterAdd_real {si u : Shape} {w : Nat} (d : ScatterDims s si u) (x : FVec Ideal s .f32) (idx : IVec si w)
    (upd : FVec Ideal u .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact h_add_real (hx i) (h_sum_real _ _ (fun j _ => hu j))

/-- The entrywise sum of two real arrays is real. -/
theorem h_addf_real (x y : FVec Ideal s .f32) (hx : ∀ i, IsReal (x i)) (hy : ∀ i, IsReal (y i)) :
    ∀ i, IsReal (addf x y i) := fun i => h_add_real (hx i) (hy i)

/-- A constant array whose pattern has an exponent field not all ones is real. -/
theorem h_constant_real (b : BitVec 32) (hex : (b.extractLsb' 23 8).toNat ≠ 2 ^ 8 - 1) :
    ∀ i, IsReal (constant (F := Ideal) s .f32 b i) := fun _ => h_ieee_real 8 23 b hex

end Cert.Spec

namespace Cert.ReferenceIdeal.Net

open Cert.Spec Cert.ReferenceIdeal Cert.ReferenceIdeal.Facts₀ Cert.ReferenceIdeal.Facts

/-- The self-loop attributes are zeros and eights. -/
theorem selfAttr_real : ∀ i, IsReal (selfAttr (F := Ideal) i) := by
  unfold selfAttr
  exact h_scatter_set_real _ _ _ _
    (broadcastInDim_real _ _ _ (h_constant_real _ (by decide)))
    (broadcastInDim_real _ _ _ (h_constant_real _ (by decide)))

/-- The edge attributes followed by the self-loops' are real when the edge attributes are. -/
theorem ea_real (edgeAttr : FVec Ideal S1000000x5 .f32) (h : ∀ i, IsReal (edgeAttr i)) :
    ∀ i, IsReal (ea (F := Ideal) edgeAttr i) := by
  unfold ea
  exact h_concatenate_pair_real _ _ _ _ h selfAttr_real

/-- One aggregation of real features and real edge embeddings is real, whatever the index arrays hold. -/
theorem agg_real (h : FVec Ideal S50000x64 .f32) (e : FVec Ideal S1050000x64 .f32) (src dst : IVec S1050000 32)
    (hh : ∀ i, IsReal (h i)) (he : ∀ i, IsReal (e i)) : ∀ i, IsReal (agg (F := Ideal) h e src dst i) := by
  unfold agg
  exact h_scatterAdd_real _ _ _ _
    (broadcastInDim_real _ _ _ (h_constant_real _ (by decide)))
    (h_addf_real _ _ (h_gather_real _ _ _ hh) he)

/-- The picked rows of real features are real. -/
theorem pick_real (h : FVec Ideal S50000x64 .f32) (lastIdx : IVec S250 32) (hh : ∀ i, IsReal (h i)) :
    ∀ i, IsReal (pick (F := Ideal) h lastIdx i) := by
  unfold pick
  exact h_gather_real _ _ _ hh

end Cert.ReferenceIdeal.Net

end
-- ==== Proof.NetSpec.lean ====
/-
  The network both programs compute, at the extended reals, as one function of the fourteen argument arrays.
  A layer aggregates each node's neighbours (the shared host computation `Net.agg` over the edge embedding), applies the
  perceptron, normalises every column by its mean and variance, and applies ELU on all but the last layer.  The kernel
  program derives the variance from the two column sums, max(E[x²] − E[x]², 0); the reference takes the mean squared
  deviation.  Over real numbers, with the divisor equal to the row count 50000, these agree (the law is proved in the
  algebra modules), so the two spellings of a layer coincide wherever every entry going in is real; and a layer of real
  entries is real, so the agreement passes through all three layers.  The two ELU spellings (exponential of min(x, 0),
  or of x where x ≤ 0) are one function.
-/
import proofs.«172917_j75840532513057_2_alg».proof.Proof.Spec
import proofs.«172917_j75840532513057_2_alg».proof.Proof.Net
import proofs.«172917_j75840532513057_2_alg».proof.Proof.AlgebraConsts
import proofs.«172917_j75840532513057_2_alg».proof.Proof.AlgebraReal
import proofs.«172917_j75840532513057_2_alg».proof.Proof.AlgebraVar
import proofs.«172917_j75840532513057_2_alg».proof.Proof.NetReal

noncomputable section

open scoped BigOperators

namespace Cert.ReferenceIdeal.NetSpec

open Idealize.ShloMosaic Idealize.ShloMosaic.ValueIdx Cert.Spec Cert.ReferenceIdeal Cert.ReferenceIdeal.Net

/-- The row count both programs divide the column statistics by, and the variance's epsilon, as printed. -/
abbrev cN : EReal := Ideal.ofBits .f32 0x47435000#32
abbrev epsN : EReal := Ideal.ofBits .f32 0x3727C5AC#32

/-- One layer's weights, curried: the edge embedding, the perceptron, the normalisation's scale and shift. -/
structure LayerW where
  eW : Fin 5 → Fin 64 → EReal
  eb : Fin 64 → EReal
  W1 : Fin 64 → Fin 128 → EReal
  b1 : Fin 128 → EReal
  W2 : Fin 128 → Fin 64 → EReal
  b2 : Fin 64 → EReal
  gamma : Fin 64 → EReal
  beta : Fin 64 → EReal

/-- Every weight of a layer is a real number. -/
structure LayerW.Real (w : LayerW) : Prop where
  eW : IsReal2 w.eW
  eb : IsReal1 w.eb
  W1 : IsReal2 w.W1
  b1 : IsReal1 w.b1
  W2 : IsReal2 w.W2
  b2 : IsReal1 w.b2
  gamma : IsReal1 w.gamma
  beta : IsReal1 w.beta

variable (ea : FVec Ideal S1050000x5 .f32) (src dst : IVec S1050000 32)

/-- The edge embedding of a layer. -/
def emb (w : LayerW) : FVec Ideal S1050000x64 .f32 := toVec2 (lin (ofVec2 ea) w.eW w.eb)

/-- A layer up to the perceptron: aggregate the neighbours' features with the edge embedding, then the perceptron. -/
def pre (w : LayerW) (h : FVec Ideal S50000x64 .f32) : Fin 50000 → Fin 64 → EReal :=
  mlp (ofVec2 (Net.agg h (emb ea w) src dst)) w.W1 w.b1 w.W2 w.b2

/-- A layer with the statistics taken from the two column sums (the kernel program's spelling). -/
def layerK (act : EReal → EReal) (w : LayerW) (h : FVec Ideal S50000x64 .f32) : FVec Ideal S50000x64 .f32 :=
  toVec2 (fun i j => act (bnOfSums cN epsN (pre ea src dst w h) (colsum (pre ea src dst w h)) (colsumsq (pre ea src dst w h)) w.gamma w.beta i j))

/-- A layer with the variance as the mean squared deviation (the reference's spelling). -/
def layerR (act : EReal → EReal) (w : LayerW) (h : FVec Ideal S50000x64 .f32) : FVec Ideal S50000x64 .f32 :=
  toVec2 (fun i j => act (bnOfDev cN epsN (pre ea src dst w h) w.gamma w.beta i j))

/-- Every entry of a 50000 × 64 array is a real number. -/
def RealArr (h : FVec Ideal S50000x64 .f32) : Prop := ∀ i, IsReal (h i)

variable {ea src dst}

theorem pre_real (hea : ∀ i, IsReal (ea i)) (w : LayerW) (hw : w.Real) (h : FVec Ideal S50000x64 .f32) (hh : RealArr h) :
    IsReal2 (pre ea src dst w h) := by
  unfold pre
  refine mlp_real _ _ _ _ _ (fun i j => ?_) hw.W1 hw.b1 hw.W2 hw.b2
  refine Net.agg_real h (emb ea w) src dst hh (fun y => ?_) (ix2 i j)
  exact lin_real _ _ _ (fun i j => hea (ix2 i j)) hw.eW hw.eb (y 0) (y 1)

/-- The two spellings of a layer agree when everything going in is a real number. -/
theorem layerK_eq_layerR (act : EReal → EReal) (hea : ∀ i, IsReal (ea i)) (w : LayerW) (hw : w.Real)
    (h : FVec Ideal S50000x64 .f32) (hh : RealArr h) : layerK ea src dst act w h = layerR ea src dst act w h := by
  unfold layerK layerR
  rw [bn_eq cN epsN (ofBits_50000.trans (by norm_num)) (by norm_num) _ (pre_real hea w hw h hh)]

/-- A layer's output is real when the activation keeps reals real. -/
theorem layerR_real (act : EReal → EReal) (hact : ∀ x, IsReal x → IsReal (act x)) (hea : ∀ i, IsReal (ea i)) (w : LayerW) (hw : w.Real)
    (h : FVec Ideal S50000x64 .f32) (hh : RealArr h) : RealArr (layerR ea src dst act w h) := by
  intro y
  exact hact _ (bnOfDev_real cN epsN ofBits_50000_pos ofBits_eps _ (pre_real hea w hw h hh) _ _ hw.gamma hw.beta (y 0) (y 1))

/-- The whole network after the node embedding, in the kernel program's spelling: two layers with ELU (its exponential's
    argument clamped), a last one without, then the pick of the graphs' last nodes. -/
def netK (w0 w1 w2 : LayerW) (h0 : FVec Ideal S50000x64 .f32) (last : IVec S250 32) : FVec Ideal S250x64 .f32 :=
  Net.pick (layerK ea src dst id w2 (layerK ea src dst eluMin w1 (layerK ea src dst eluMin w0 h0))) last

/-- The same in the reference's spelling (its exponential's argument selected). -/
def netR (w0 w1 w2 : LayerW) (h0 : FVec Ideal S50000x64 .f32) (last : IVec S250 32) : FVec Ideal S250x64 .f32 :=
  Net.pick (layerR ea src dst id w2 (layerR ea src dst eluSel w1 (layerR ea src dst eluSel w0 h0))) last

/-- The two programs' networks are one function of real inputs. -/
theorem netK_eq_netR (hea : ∀ i, IsReal (ea i)) (w0 w1 w2 : LayerW) (hw0 : w0.Real) (hw1 : w1.Real) (hw2 : w2.Real)
    (h0 : FVec Ideal S50000x64 .f32) (hh0 : RealArr h0) (last : IVec S250 32) :
    netK (ea := ea) (src := src) (dst := dst) w0 w1 w2 h0 last = netR (ea := ea) (src := src) (dst := dst) w0 w1 w2 h0 last := by
  unfold netK netR
  have e : eluMin = eluSel := funext eluMin_eq_eluSel
  have h1 := layerR_real (ea := ea) (src := src) (dst := dst) eluSel (fun x hx => e ▸ eluMin_real x hx) hea w0 hw0 h0 hh0
  have h2 := layerR_real (ea := ea) (src := src) (dst := dst) eluSel (fun x hx => e ▸ eluMin_real x hx) hea w1 hw1 _ h1
  rw [layerK_eq_layerR eluMin hea w0 hw0 h0 hh0, e, layerK_eq_layerR eluSel hea w1 hw1 _ h1, layerK_eq_layerR id hea w2 hw2 _ h2]

end Cert.ReferenceIdeal.NetSpec

/-! ## The network as a function of the programs' fourteen arguments -/

namespace Cert.ReferenceIdeal.NetSpec

open Idealize.ShloMosaic Idealize.ShloMosaic.ValueIdx Cert.Spec Cert.ReferenceIdeal Cert.ReferenceIdeal.Net

/-- Layer `l`'s weights, read off the stacked argument arrays. -/
def layerW (l : Fin 3) (a6 : FVec Ideal S3x5x64 .f32) (a7 : FVec Ideal S3x64 .f32) (a8 : FVec Ideal S3x64x128 .f32)
    (a9 : FVec Ideal S3x128 .f32) (a10 : FVec Ideal S3x128x64 .f32) (a11 a12 a13 : FVec Ideal S3x64 .f32) : LayerW where
  eW k j := a6 (ix3 l k j)
  eb j := a7 (ix2 l j)
  W1 k j := a8 (ix3 l k j)
  b1 j := a9 (ix2 l j)
  W2 k j := a10 (ix3 l k j)
  b2 j := a11 (ix2 l j)
  gamma j := a12 (ix2 l j)
  beta j := a13 (ix2 l j)

theorem layerW_real (l : Fin 3) (a6 : FVec Ideal S3x5x64 .f32) (a7 : FVec Ideal S3x64 .f32) (a8 : FVec Ideal S3x64x128 .f32)
    (a9 : FVec Ideal S3x128 .f32) (a10 : FVec Ideal S3x128x64 .f32) (a11 a12 a13 : FVec Ideal S3x64 .f32)
    (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i)) (h12 : ∀ i, IsReal (a12 i)) (h13 : ∀ i, IsReal (a13 i)) :
    (layerW l a6 a7 a8 a9 a10 a11 a12 a13).Real :=
  ⟨fun _ _ => h6 _, fun _ => h7 _, fun _ _ => h8 _, fun _ => h9 _, fun _ _ => h10 _, fun _ => h11 _, fun _ => h12 _, fun _ => h13 _⟩

/-- The node embedding: an affine map of the node features. -/
def h0Of (a0 : FVec Ideal S50000x7 .f32) (a4 : FVec Ideal S7x64 .f32) (a5 : FVec Ideal S64 .f32) : FVec Ideal S50000x64 .f32 :=
  toVec2 (lin (ofVec2 a0) (ofVec2 a4) (ofVec1 a5))

section
variable (a0 : FVec Ideal S50000x7 .f32) (a1 : FVec Ideal S1000000x5 .f32) (a2 : IVec S2x1000000 32) (a3 : IVec S250 32)
  (a4 : FVec Ideal S7x64 .f32) (a5 : FVec Ideal S64 .f32) (a6 : FVec Ideal S3x5x64 .f32) (a7 : FVec Ideal S3x64 .f32)
  (a8 : FVec Ideal S3x64x128 .f32) (a9 : FVec Ideal S3x128 .f32) (a10 : FVec Ideal S3x128x64 .f32) (a11 a12 a13 : FVec Ideal S3x64 .f32)

/-- The result as the kernel program computes it, from the fourteen arguments. -/
def netOfK : FVec Ideal S250x64 .f32 :=
  netK (ea := Net.ea a1) (src := Net.srcOf a2) (dst := Net.dstOf a2) (layerW 0 a6 a7 a8 a9 a10 a11 a12 a13) (layerW 1 a6 a7 a8 a9 a10 a11 a12 a13)
    (layerW 2 a6 a7 a8 a9 a10 a11 a12 a13) (h0Of a0 a4 a5) a3
/-- The result as the reference computes it. -/
def netOfR : FVec Ideal S250x64 .f32 :=
  netR (ea := Net.ea a1) (src := Net.srcOf a2) (dst := Net.dstOf a2) (layerW 0 a6 a7 a8 a9 a10 a11 a12 a13) (layerW 1 a6 a7 a8 a9 a10 a11 a12 a13)
    (layerW 2 a6 a7 a8 a9 a10 a11 a12 a13) (h0Of a0 a4 a5) a3

/-- With every float argument real the two programs compute one result. -/
theorem netOfK_eq_netOfR (h0 : ∀ i, IsReal (a0 i)) (h1 : ∀ i, IsReal (a1 i)) (h4 : ∀ i, IsReal (a4 i)) (h5 : ∀ i, IsReal (a5 i))
    (h6 : ∀ i, IsReal (a6 i)) (h7 : ∀ i, IsReal (a7 i)) (h8 : ∀ i, IsReal (a8 i)) (h9 : ∀ i, IsReal (a9 i))
    (h10 : ∀ i, IsReal (a10 i)) (h11 : ∀ i, IsReal (a11 i)) (h12 : ∀ i, IsReal (a12 i)) (h13 : ∀ i, IsReal (a13 i)) :
    netOfK a0 a1 a2 a3 a4 a5 a6 a7 a8 a9 a10 a11 a12 a13 = netOfR a0 a1 a2 a3 a4 a5 a6 a7 a8 a9 a10 a11 a12 a13 := by
  unfold netOfK netOfR
  exact netK_eq_netR (Net.ea_real a1 h1) _ _ _ (layerW_real 0 _ _ _ _ _ _ _ _ h6 h7 h8 h9 h10 h11 h12 h13)
    (layerW_real 1 _ _ _ _ _ _ _ _ h6 h7 h8 h9 h10 h11 h12 h13) (layerW_real 2 _ _ _ _ _ _ _ _ h6 h7 h8 h9 h10 h11 h12 h13)
    _ (fun y => lin_real _ _ _ (fun i j => h0 (ix2 i j)) (fun i j => h4 (ix2 i j)) (fun j => h5 (ix1 j)) (y 0) (y 1)) a3
end

end Cert.ReferenceIdeal.NetSpec

/-! ## A layer assembled from what the kernel program's buffers hold -/

namespace Cert.ReferenceIdeal.NetSpec

open Idealize.ShloMosaic Idealize.ShloMosaic.ValueIdx Cert.Spec Cert.ReferenceIdeal Cert.ReferenceIdeal.Net

/-- If the buffers of one layer hold, in turn, the edge embedding, the aggregation, the perceptron's output, its two
    column sums, the mean and variance derived from the sums, and the normalised activation of these, then the last is
    the layer in the kernel program's spelling. -/
theorem layerK_of_parts (ea : FVec Ideal S1050000x5 .f32) (src dst : IVec S1050000 32) (act : EReal → EReal) (w : LayerW)
    (X : FVec Ideal S50000x64 .f32)
    (e : FVec Ideal S1050000x64 .f32) (he : e = emb ea w)
    (a : FVec Ideal S50000x64 .f32) (ha : a = Net.agg X e src dst)
    (h2 : Fin 50000 → Fin 64 → EReal) (hh2 : h2 = mlp (ofVec2 a) w.W1 w.b1 w.W2 w.b2)
    (s ss mean var : Fin 64 → EReal) (hs : s = colsum h2) (hss : ss = colsumsq h2)
    (hmean : mean = Cert.Spec.over cN s) (hvar : var = varOfSums cN s ss)
    (out : FVec Ideal S50000x64 .f32)
    (hout : out = toVec2 (fun i j => act (norm epsN h2 mean var w.gamma w.beta i j))) :
    out = layerK ea src dst act w X := by
  subst he ha hh2 hs hss hmean hvar hout
  rfl

end Cert.ReferenceIdeal.NetSpec

end
-- ==== Proof.ChainK.lean ====
/-
  What the kernel program's buffers hold at each boundary of its run, as functions of the fourteen arguments: the
  prefix (edge attributes with the self-loops, the two node lists, the node embedding), then layer by layer the edge
  embedding, the aggregation, the perceptron's output with its two column sums, the mean and variance derived from
  them, and the normalised activation — which is the layer in the kernel program's spelling; the last boundary's pick
  of the graphs' last nodes is the whole network.
-/
import proofs.«172917_j75840532513057_2_alg».proof.Proof.RunW3
import proofs.«172917_j75840532513057_2_alg».proof.Proof.ValA0
import proofs.«172917_j75840532513057_2_alg».proof.Proof.ValA1
import proofs.«172917_j75840532513057_2_alg».proof.Proof.ValA3
import proofs.«172917_j75840532513057_2_alg».proof.Proof.ValA4
import proofs.«172917_j75840532513057_2_alg».proof.Proof.ValA6
import proofs.«172917_j75840532513057_2_alg».proof.Proof.ValA7
import proofs.«172917_j75840532513057_2_alg».proof.Proof.ValA9
import proofs.«172917_j75840532513057_2_alg».proof.Proof.ValR2
import proofs.«172917_j75840532513057_2_alg».proof.Proof.ValR5
import proofs.«172917_j75840532513057_2_alg».proof.Proof.ValR8
import proofs.«172917_j75840532513057_2_alg».proof.Proof.HostK
import proofs.«172917_j75840532513057_2_alg».proof.Proof.HostK0
import proofs.«172917_j75840532513057_2_alg».proof.Proof.HostK2
import proofs.«172917_j75840532513057_2_alg».proof.Proof.HostK3
import proofs.«172917_j75840532513057_2_alg».proof.Proof.HostKIdx
import proofs.«172917_j75840532513057_2_alg».proof.Proof.NetSpec

noncomputable section

namespace Cert.KernelIdeal.Hand

open Idealize.ShloMosaic Idealize.ShloMosaic.TcCoe Idealize.ShloMosaic.ValueIdx Idealize.SL.Sem
open Cert.KernelIdeal Cert.KernelIdeal.Gen Cert.Spec
open Cert.ReferenceIdeal.NetSpec (LayerW layerW layerK emb pre h0Of netK netOfK cN epsN layerK_of_parts)

variable (m : (ℓ : Loc nD τ sig) → Buf (Elt Ideal) ℓ) (ρ : Dev nD → PrngReg) (c : Dev nD)

/-! ## The arguments as launched, and the network's intermediate values as functions of them -/
abbrev kA0 := W0 m ρ c (Proc.devRef .tc main_arg0)
abbrev kA1 := W0 m ρ c (Proc.devRef .tc main_arg1)
abbrev kA2 := W0 m ρ c (Proc.devRef .tc main_arg2)
abbrev kA3 := W0 m ρ c (Proc.devRef .tc main_arg3)
abbrev kA4 := W0 m ρ c (Proc.devRef .tc main_arg4)
abbrev kA5 := W0 m ρ c (Proc.devRef .tc main_arg5)
abbrev kA6 := W0 m ρ c (Proc.devRef .tc main_arg6)
abbrev kA7 := W0 m ρ c (Proc.devRef .tc main_arg7)
abbrev kA8 := W0 m ρ c (Proc.devRef .tc main_arg8)
abbrev kA9 := W0 m ρ c (Proc.devRef .tc main_arg9)
abbrev kA10 := W0 m ρ c (Proc.devRef .tc main_arg10)
abbrev kA11 := W0 m ρ c (Proc.devRef .tc main_arg11)
abbrev kA12 := W0 m ρ c (Proc.devRef .tc main_arg12)
abbrev kA13 := W0 m ρ c (Proc.devRef .tc main_arg13)

def kEA := Cert.ReferenceIdeal.Net.ea (F := Ideal) (kA1 m ρ c)
def kSRC := Cert.ReferenceIdeal.Net.srcOf (kA2 m ρ c)
def kDST := Cert.ReferenceIdeal.Net.dstOf (kA2 m ρ c)
def kLW (l : Fin 3) : LayerW := layerW l (kA6 m ρ c) (kA7 m ρ c) (kA8 m ρ c) (kA9 m ρ c) (kA10 m ρ c) (kA11 m ρ c) (kA12 m ρ c) (kA13 m ρ c)
def kX0 := h0Of (kA0 m ρ c) (kA4 m ρ c) (kA5 m ρ c)
def kX1 := layerK (kEA m ρ c) (kSRC m ρ c) (kDST m ρ c) eluMin (kLW m ρ c 0) (kX0 m ρ c)
def kX2 := layerK (kEA m ρ c) (kSRC m ρ c) (kDST m ρ c) eluMin (kLW m ρ c 1) (kX1 m ρ c)
def kX3 := layerK (kEA m ρ c) (kSRC m ρ c) (kDST m ρ c) id (kLW m ρ c 2) (kX2 m ρ c)

/-- Equal operands give equal affine maps. -/
theorem k_lin_congr {M K N : Nat} {a a' : (⟨2, ![M, K]⟩ : Shape).Idx → EReal} {w w' : (⟨2, ![K, N]⟩ : Shape).Idx → EReal}
    {b b' : (⟨2, ![1, N]⟩ : Shape).Idx → EReal} (ha : a = a') (hw : w = w') (hb : b = b') :
    toVec2 (lin (ofVec2 a) (ofVec2 w) (ofRow b)) = toVec2 (lin (ofVec2 a') (ofVec2 w') (ofRow b')) := by
  subst ha hw hb; rfl

/-- An activation that is the identity changes nothing. -/
theorem k_toVec2_id {M N : Nat} (f : Fin M → Fin N → EReal) : toVec2 (fun i j => id (f i j)) = toVec2 f := rfl

/-! ## The prefix: the first host stretch and the node embedding -/

theorem k1_v4 : W1 m ρ c (Proc.devRef .tc main_v4) = kEA m ρ c := hostK0_v4 (W0 m ρ c)
theorem k1_v8 : W1 m ρ c (Proc.devRef .tc main_v8) = kSRC m ρ c := hostK0_v8 (W0 m ρ c)
theorem k1_v11 : W1 m ρ c (Proc.devRef .tc main_v11) = kDST m ρ c := hostK0_v11 (W0 m ρ c)
theorem k1_v12 : W1 m ρ c (Proc.devRef .tc main_v12) = shapeCast S1x64 (kA5 m ρ c) shapeCasts_S64_S1x64 := hostK0_v12 (W0 m ρ c)

/-- The node embedding. -/
theorem k2_v13 : W2 m ρ c (Proc.devRef .tc main_v13) = kX0 m ρ c :=
  (W2_arr m ρ c 3).trans ((val0 (WV1 m ρ) c).trans ((k_lin_congr ((W1_keep m ρ c main_arg0 (by decide))) ((W1_keep m ρ c main_arg4 (by decide))) (k1_v12 m ρ c)).trans (by
    unfold kX0 h0Of; rw [xb_val])))

/-! ## Layer 0 -/

/-- The edge weights' slices. -/
theorem k3_v15 : W3 m ρ c (Proc.devRef .tc main_v15) = hkSlab5x64 0 slices_S3x5x64_S1x5x64_0_0_0 (kA6 m ρ c) :=
  (hostK1_v15 (W2 m ρ c)).trans (congrArg _ (((W2_of_ne m ρ c main_arg6 (by decide)).trans (W1_keep m ρ c main_arg6 (by decide)))))
theorem k3_v18 : W3 m ρ c (Proc.devRef .tc main_v18) = hkRow64 0 slices_S3x64_S1x64_0_0 (kA7 m ρ c) :=
  (hostK1_v18 (W2 m ρ c)).trans (congrArg _ (((W2_of_ne m ρ c main_arg7 (by decide)).trans (W1_keep m ρ c main_arg7 (by decide)))))

/-- The edge embedding. -/
theorem k4_v19 : W4 m ρ c (Proc.devRef .tc main_v19) = emb (kEA m ρ c) (kLW m ρ c 0) :=
  (W4_arr m ρ c 3).trans ((val1 (WV3 m ρ) c).trans ((k_lin_congr (((W3_keep m ρ c main_v4 (by decide)).trans (W2_of_ne m ρ c main_v4 (by decide))).trans (k1_v4 m ρ c)) (k3_v15 m ρ c) (k3_v18 m ρ c)).trans (by
    unfold emb kLW layerW; rw [slab5x64_val_0, row64_val_0])))

/-- The aggregation over the neighbours. -/
theorem k5_v30 : W5 m ρ c (Proc.devRef .tc main_v30) = Cert.ReferenceIdeal.Net.agg (F := Ideal) (kX0 m ρ c) (emb (kEA m ρ c) (kLW m ρ c 0)) (kSRC m ρ c) (kDST m ρ c) := by
  refine (hostK2_v30 (W4 m ρ c)).trans ?_
  rw [((W4_of_ne m ρ c main_v13 (by decide)).trans (W3_keep m ρ c main_v13 (by decide))), k2_v13 m ρ c, k4_v19 m ρ c,
    ((W4_of_ne m ρ c main_v8 (by decide)).trans ((W3_keep m ρ c main_v8 (by decide)).trans (W2_of_ne m ρ c main_v8 (by decide)))), k1_v8 m ρ c, ((W4_of_ne m ρ c main_v11 (by decide)).trans ((W3_keep m ρ c main_v11 (by decide)).trans (W2_of_ne m ρ c main_v11 (by decide)))), k1_v11 m ρ c]

/-- The perceptron's weights' slices. -/
theorem k5_v32 : W5 m ρ c (Proc.devRef .tc main_v32) = hkSlab64x128 0 slices_S3x64x128_S1x64x128_0_0_0 (kA8 m ρ c) :=
  (hostK2_v32 (W4 m ρ c)).trans (congrArg _ (((W4_of_ne m ρ c main_arg8 (by decide)).trans ((W3_keep m ρ c main_arg8 (by decide)).trans ((W2_of_ne m ρ c main_arg8 (by decide)).trans (W1_keep m ρ c main_arg8 (by decide)))))))
theorem k5_v35 : W5 m ρ c (Proc.devRef .tc main_v35) = hkRow128 0 slices_S3x128_S1x128_0_0 (kA9 m ρ c) :=
  (hostK2_v35 (W4 m ρ c)).trans (congrArg _ (((W4_of_ne m ρ c main_arg9 (by decide)).trans ((W3_keep m ρ c main_arg9 (by decide)).trans ((W2_of_ne m ρ c main_arg9 (by decide)).trans (W1_keep m ρ c main_arg9 (by decide)))))))
theorem k5_v37 : W5 m ρ c (Proc.devRef .tc main_v37) = hkSlab128x64 0 slices_S3x128x64_S1x128x64_0_0_0 (kA10 m ρ c) :=
  (hostK2_v37 (W4 m ρ c)).trans (congrArg _ (((W4_of_ne m ρ c main_arg10 (by decide)).trans ((W3_keep m ρ c main_arg10 (by decide)).trans ((W2_of_ne m ρ c main_arg10 (by decide)).trans (W1_keep m ρ c main_arg10 (by decide)))))))
theorem k5_v40 : W5 m ρ c (Proc.devRef .tc main_v40) = hkRow64 0 slices_S3x64_S1x64_0_0 (kA11 m ρ c) :=
  (hostK2_v40 (W4 m ρ c)).trans (congrArg _ (((W4_of_ne m ρ c main_arg11 (by decide)).trans ((W3_keep m ρ c main_arg11 (by decide)).trans ((W2_of_ne m ρ c main_arg11 (by decide)).trans (W1_keep m ρ c main_arg11 (by decide)))))))

/-- The perceptron block as the region's value lemma names it is the layer's perceptron of the aggregation. -/
theorem k5_mlp : e_mlp2 (WV5 m ρ) c = pre (kEA m ρ c) (kSRC m ρ c) (kDST m ρ c) (kLW m ρ c 0) (kX0 m ρ c) := by
  unfold e_mlp2 pre
  rw [show WV5 m ρ c main_v30 = _ from k5_v30 m ρ c, show WV5 m ρ c main_v32 = _ from k5_v32 m ρ c,
    show WV5 m ρ c main_v35 = _ from k5_v35 m ρ c, show WV5 m ρ c main_v37 = _ from k5_v37 m ρ c,
    show WV5 m ρ c main_v40 = _ from k5_v40 m ρ c, slab64x128_val_0, row128_val_0, slab128x64_val_0, row64_val_0]
  rfl

/-- The statistics' host stretch, and the scale and shift. -/
theorem k7_v43 : W7 m ρ c (Proc.devRef .tc main_v43) = hkMean (F := Ideal) (toRow (colsum (pre (kEA m ρ c) (kSRC m ρ c) (kDST m ρ c) (kLW m ρ c 0) (kX0 m ρ c)))) :=
  (hostK3_v43 (W6 m ρ c)).trans (congrArg (hkMean (F := Ideal)) (((W6_arr m ρ c 6).trans (val2_6 (WV5 m ρ) c)).trans (congrArg (fun h => toRow (colsum h)) (k5_mlp m ρ c))))
theorem k7_v49 : W7 m ρ c (Proc.devRef .tc main_v49) = hkVar (F := Ideal) (toRow (colsum (pre (kEA m ρ c) (kSRC m ρ c) (kDST m ρ c) (kLW m ρ c 0) (kX0 m ρ c)))) (toRow (colsumsq (pre (kEA m ρ c) (kSRC m ρ c) (kDST m ρ c) (kLW m ρ c 0) (kX0 m ρ c)))) :=
  (hostK3_v49 (W6 m ρ c)).trans (congrArg₂ (hkVar (F := Ideal))
    (((W6_arr m ρ c 6).trans (val2_6 (WV5 m ρ) c)).trans (congrArg (fun h => toRow (colsum h)) (k5_mlp m ρ c)))
    (((W6_arr m ρ c 7).trans (val2_7 (WV5 m ρ) c)).trans (congrArg (fun h => toRow (colsumsq h)) (k5_mlp m ρ c))))
theorem k7_v52 : W7 m ρ c (Proc.devRef .tc main_v52) = hkRow64 0 slices_S3x64_S1x64_0_0 (kA12 m ρ c) :=
  (hostK3_v52 (W6 m ρ c)).trans (congrArg _ (((W6_of_ne m ρ c main_arg12 (by decide)).trans ((W5_keep m ρ c main_arg12 (by decide)).trans ((W4_of_ne m ρ c main_arg12 (by decide)).trans ((W3_keep m ρ c main_arg12 (by decide)).trans ((W2_of_ne m ρ c main_arg12 (by decide)).trans (W1_keep m ρ c main_arg12 (by decide)))))))))
theorem k7_v55 : W7 m ρ c (Proc.devRef .tc main_v55) = hkRow64 0 slices_S3x64_S1x64_0_0 (kA13 m ρ c) :=
  (hostK3_v55 (W6 m ρ c)).trans (congrArg _ (((W6_of_ne m ρ c main_arg13 (by decide)).trans ((W5_keep m ρ c main_arg13 (by decide)).trans ((W4_of_ne m ρ c main_arg13 (by decide)).trans ((W3_keep m ρ c main_arg13 (by decide)).trans ((W2_of_ne m ρ c main_arg13 (by decide)).trans (W1_keep m ρ c main_arg13 (by decide)))))))))
theorem k7_v41_0 : W7 m ρ c (Proc.devRef .tc main_v41_0) = toVec2 (pre (kEA m ρ c) (kSRC m ρ c) (kDST m ρ c) (kLW m ρ c 0) (kX0 m ρ c)) := by
  rw [(W7_keep m ρ c main_v41_0 (by decide)), W6_arr m ρ c 5, val2_5 (WV5 m ρ) c, k5_mlp m ρ c]

/-- The layer's output: the normalised activation of these is the layer in the kernel program's spelling. -/
theorem k8_v56 : W8 m ρ c (Proc.devRef .tc main_v56) = kX1 m ρ c := by
  refine (W8_arr m ρ c 5).trans ((val3 (WV7 m ρ) c).trans ?_)
  refine layerK_of_parts (kEA m ρ c) (kSRC m ρ c) (kDST m ρ c) eluMin (kLW m ρ c 0) (kX0 m ρ c) _ rfl _ rfl
    (pre (kEA m ρ c) (kSRC m ρ c) (kDST m ρ c) (kLW m ρ c 0) (kX0 m ρ c)) rfl _ _ _ _ rfl rfl rfl rfl _ ?_
  rw [show WV7 m ρ c (Pipeline.arrRef spec3 0) = _ from k7_v41_0 m ρ c,
    show WV7 m ρ c (Pipeline.arrRef spec3 1) = _ from k7_v43 m ρ c,
    show WV7 m ρ c (Pipeline.arrRef spec3 2) = _ from k7_v49 m ρ c,
    show WV7 m ρ c (Pipeline.arrRef spec3 3) = _ from k7_v52 m ρ c,
    show WV7 m ρ c (Pipeline.arrRef spec3 4) = _ from k7_v55 m ρ c,
    mean_val, var_val, row64_val_0, row64_val_0]
  simp only [Cert.Spec.ofRow_toRow, Cert.Spec.ofVec2_toVec2]
  rfl

/-! ## Layer 1 -/

/-- The edge weights' slices. -/
theorem k9_v58 : W9 m ρ c (Proc.devRef .tc main_v58) = hkSlab5x64 1 slices_S3x5x64_S1x5x64_1_0_0 (kA6 m ρ c) :=
  (hostK4_v58 (W8 m ρ c)).trans (congrArg _ (((W8_of_ne m ρ c main_arg6 (by decide)).trans ((W7_keep m ρ c main_arg6 (by decide)).trans ((W6_of_ne m ρ c main_arg6 (by decide)).trans ((W5_keep m ρ c main_arg6 (by decide)).trans ((W4_of_ne m ρ c main_arg6 (by decide)).trans ((W3_keep m ρ c main_arg6 (by decide)).trans ((W2_of_ne m ρ c main_arg6 (by decide)).trans (W1_keep m ρ c main_arg6 (by decide)))))))))))
theorem k9_v61 : W9 m ρ c (Proc.devRef .tc main_v61) = hkRow64 1 slices_S3x64_S1x64_1_0 (kA7 m ρ c) :=
  (hostK4_v61 (W8 m ρ c)).trans (congrArg _ (((W8_of_ne m ρ c main_arg7 (by decide)).trans ((W7_keep m ρ c main_arg7 (by decide)).trans ((W6_of_ne m ρ c main_arg7 (by decide)).trans ((W5_keep m ρ c main_arg7 (by decide)).trans ((W4_of_ne m ρ c main_arg7 (by decide)).trans ((W3_keep m ρ c main_arg7 (by decide)).trans ((W2_of_ne m ρ c main_arg7 (by decide)).trans (W1_keep m ρ c main_arg7 (by decide)))))))))))

/-- The edge embedding. -/
theorem k10_v62 : W10 m ρ c (Proc.devRef .tc main_v62) = emb (kEA m ρ c) (kLW m ρ c 1) :=
  (W10_arr m ρ c 3).trans ((val4 (WV9 m ρ) c).trans ((k_lin_congr (((W9_keep m ρ c main_v4 (by decide)).trans ((W8_of_ne m ρ c main_v4 (by decide)).trans ((W7_keep m ρ c main_v4 (by decide)).trans ((W6_of_ne m ρ c main_v4 (by decide)).trans ((W5_keep m ρ c main_v4 (by decide)).trans ((W4_in m ρ c 0 rfl).trans ((W3_keep m ρ c main_v4 (by decide)).trans (W2_of_ne m ρ c main_v4 (by decide))))))))).trans (k1_v4 m ρ c)) (k9_v58 m ρ c) (k9_v61 m ρ c)).trans (by
    unfold emb kLW layerW; rw [slab5x64_val_1, row64_val_1])))

/-- The aggregation over the neighbours. -/
theorem k11_v73 : W11 m ρ c (Proc.devRef .tc main_v73) = Cert.ReferenceIdeal.Net.agg (F := Ideal) (kX1 m ρ c) (emb (kEA m ρ c) (kLW m ρ c 1)) (kSRC m ρ c) (kDST m ρ c) := by
  refine (hostK5_v73 (W10 m ρ c)).trans ?_
  rw [((W10_of_ne m ρ c main_v56 (by decide)).trans (W9_keep m ρ c main_v56 (by decide))), k8_v56 m ρ c, k10_v62 m ρ c,
    ((W10_of_ne m ρ c main_v8 (by decide)).trans ((W9_keep m ρ c main_v8 (by decide)).trans ((W8_of_ne m ρ c main_v8 (by decide)).trans ((W7_keep m ρ c main_v8 (by decide)).trans ((W6_of_ne m ρ c main_v8 (by decide)).trans ((W5_keep m ρ c main_v8 (by decide)).trans ((W4_of_ne m ρ c main_v8 (by decide)).trans ((W3_keep m ρ c main_v8 (by decide)).trans (W2_of_ne m ρ c main_v8 (by decide)))))))))), k1_v8 m ρ c, ((W10_of_ne m ρ c main_v11 (by decide)).trans ((W9_keep m ρ c main_v11 (by decide)).trans ((W8_of_ne m ρ c main_v11 (by decide)).trans ((W7_keep m ρ c main_v11 (by decide)).trans ((W6_of_ne m ρ c main_v11 (by decide)).trans ((W5_keep m ρ c main_v11 (by decide)).trans ((W4_of_ne m ρ c main_v11 (by decide)).trans ((W3_keep m ρ c main_v11 (by decide)).trans (W2_of_ne m ρ c main_v11 (by decide)))))))))), k1_v11 m ρ c]

/-- The perceptron's weights' slices. -/
theorem k11_v75 : W11 m ρ c (Proc.devRef .tc main_v75) = hkSlab64x128 1 slices_S3x64x128_S1x64x128_1_0_0 (kA8 m ρ c) :=
  (hostK5_v75 (W10 m ρ c)).trans (congrArg _ (((W10_of_ne m ρ c main_arg8 (by decide)).trans ((W9_keep m ρ c main_arg8 (by decide)).trans ((W8_of_ne m ρ c main_arg8 (by decide)).trans ((W7_keep m ρ c main_arg8 (by decide)).trans ((W6_of_ne m ρ c main_arg8 (by decide)).trans ((W5_keep m ρ c main_arg8 (by decide)).trans ((W4_of_ne m ρ c main_arg8 (by decide)).trans ((W3_keep m ρ c main_arg8 (by decide)).trans ((W2_of_ne m ρ c main_arg8 (by decide)).trans (W1_keep m ρ c main_arg8 (by decide)))))))))))))
theorem k11_v78 : W11 m ρ c (Proc.devRef .tc main_v78) = hkRow128 1 slices_S3x128_S1x128_1_0 (kA9 m ρ c) :=
  (hostK5_v78 (W10 m ρ c)).trans (congrArg _ (((W10_of_ne m ρ c main_arg9 (by decide)).trans ((W9_keep m ρ c main_arg9 (by decide)).trans ((W8_of_ne m ρ c main_arg9 (by decide)).trans ((W7_keep m ρ c main_arg9 (by decide)).trans ((W6_of_ne m ρ c main_arg9 (by decide)).trans ((W5_keep m ρ c main_arg9 (by decide)).trans ((W4_of_ne m ρ c main_arg9 (by decide)).trans ((W3_keep m ρ c main_arg9 (by decide)).trans ((W2_of_ne m ρ c main_arg9 (by decide)).trans (W1_keep m ρ c main_arg9 (by decide)))))))))))))
theorem k11_v80 : W11 m ρ c (Proc.devRef .tc main_v80) = hkSlab128x64 1 slices_S3x128x64_S1x128x64_1_0_0 (kA10 m ρ c) :=
  (hostK5_v80 (W10 m ρ c)).trans (congrArg _ (((W10_of_ne m ρ c main_arg10 (by decide)).trans ((W9_keep m ρ c main_arg10 (by decide)).trans ((W8_of_ne m ρ c main_arg10 (by decide)).trans ((W7_keep m ρ c main_arg10 (by decide)).trans ((W6_of_ne m ρ c main_arg10 (by decide)).trans ((W5_keep m ρ c main_arg10 (by decide)).trans ((W4_of_ne m ρ c main_arg10 (by decide)).trans ((W3_keep m ρ c main_arg10 (by decide)).trans ((W2_of_ne m ρ c main_arg10 (by decide)).trans (W1_keep m ρ c main_arg10 (by decide)))))))))))))
theorem k11_v83 : W11 m ρ c (Proc.devRef .tc main_v83) = hkRow64 1 slices_S3x64_S1x64_1_0 (kA11 m ρ c) :=
  (hostK5_v83 (W10 m ρ c)).trans (congrArg _ (((W10_of_ne m ρ c main_arg11 (by decide)).trans ((W9_keep m ρ c main_arg11 (by decide)).trans ((W8_of_ne m ρ c main_arg11 (by decide)).trans ((W7_keep m ρ c main_arg11 (by decide)).trans ((W6_of_ne m ρ c main_arg11 (by decide)).trans ((W5_keep m ρ c main_arg11 (by decide)).trans ((W4_of_ne m ρ c main_arg11 (by decide)).trans ((W3_keep m ρ c main_arg11 (by decide)).trans ((W2_of_ne m ρ c main_arg11 (by decide)).trans (W1_keep m ρ c main_arg11 (by decide)))))))))))))

/-- The perceptron block as the region's value lemma names it is the layer's perceptron of the aggregation. -/
theorem k11_mlp : e_mlp5 (WV11 m ρ) c = pre (kEA m ρ c) (kSRC m ρ c) (kDST m ρ c) (kLW m ρ c 1) (kX1 m ρ c) := by
  unfold e_mlp5 pre
  rw [show WV11 m ρ c main_v73 = _ from k11_v73 m ρ c, show WV11 m ρ c main_v75 = _ from k11_v75 m ρ c,
    show WV11 m ρ c main_v78 = _ from k11_v78 m ρ c, show WV11 m ρ c main_v80 = _ from k11_v80 m ρ c,
    show WV11 m ρ c main_v83 = _ from k11_v83 m ρ c, slab64x128_val_1, row128_val_1, slab128x64_val_1, row64_val_1]
  rfl

/-- The statistics' host stretch, and the scale and shift. -/
theorem k13_v86 : W13 m ρ c (Proc.devRef .tc main_v86) = hkMean (F := Ideal) (toRow (colsum (pre (kEA m ρ c) (kSRC m ρ c) (kDST m ρ c) (kLW m ρ c 1) (kX1 m ρ c)))) :=
  (hostK6_v86 (W12 m ρ c)).trans (congrArg (hkMean (F := Ideal)) (((W12_arr m ρ c 6).trans (val5_6 (WV11 m ρ) c)).trans (congrArg (fun h => toRow (colsum h)) (k11_mlp m ρ c))))
theorem k13_v92 : W13 m ρ c (Proc.devRef .tc main_v92) = hkVar (F := Ideal) (toRow (colsum (pre (kEA m ρ c) (kSRC m ρ c) (kDST m ρ c) (kLW m ρ c 1) (kX1 m ρ c)))) (toRow (colsumsq (pre (kEA m ρ c) (kSRC m ρ c) (kDST m ρ c) (kLW m ρ c 1) (kX1 m ρ c)))) :=
  (hostK6_v92 (W12 m ρ c)).trans (congrArg₂ (hkVar (F := Ideal))
    (((W12_arr m ρ c 6).trans (val5_6 (WV11 m ρ) c)).trans (congrArg (fun h => toRow (colsum h)) (k11_mlp m ρ c)))
    (((W12_arr m ρ c 7).trans (val5_7 (WV11 m ρ) c)).trans (congrArg (fun h => toRow (colsumsq h)) (k11_mlp m ρ c))))
theorem k13_v95 : W13 m ρ c (Proc.devRef .tc main_v95) = hkRow64 1 slices_S3x64_S1x64_1_0 (kA12 m ρ c) :=
  (hostK6_v95 (W12 m ρ c)).trans (congrArg _ (((W12_of_ne m ρ c main_arg12 (by decide)).trans ((W11_keep m ρ c main_arg12 (by decide)).trans ((W10_of_ne m ρ c main_arg12 (by decide)).trans ((W9_keep m ρ c main_arg12 (by decide)).trans ((W8_of_ne m ρ c main_arg12 (by decide)).trans ((W7_keep m ρ c main_arg12 (by decide)).trans ((W6_of_ne m ρ c main_arg12 (by decide)).trans ((W5_keep m ρ c main_arg12 (by decide)).trans ((W4_of_ne m ρ c main_arg12 (by decide)).trans ((W3_keep m ρ c main_arg12 (by decide)).trans ((W2_of_ne m ρ c main_arg12 (by decide)).trans (W1_keep m ρ c main_arg12 (by decide)))))))))))))))
theorem k13_v98 : W13 m ρ c (Proc.devRef .tc main_v98) = hkRow64 1 slices_S3x64_S1x64_1_0 (kA13 m ρ c) :=
  (hostK6_v98 (W12 m ρ c)).trans (congrArg _ (((W12_of_ne m ρ c main_arg13 (by decide)).trans ((W11_keep m ρ c main_arg13 (by decide)).trans ((W10_of_ne m ρ c main_arg13 (by decide)).trans ((W9_keep m ρ c main_arg13 (by decide)).trans ((W8_of_ne m ρ c main_arg13 (by decide)).trans ((W7_keep m ρ c main_arg13 (by decide)).trans ((W6_of_ne m ρ c main_arg13 (by decide)).trans ((W5_keep m ρ c main_arg13 (by decide)).trans ((W4_of_ne m ρ c main_arg13 (by decide)).trans ((W3_keep m ρ c main_arg13 (by decide)).trans ((W2_of_ne m ρ c main_arg13 (by decide)).trans (W1_keep m ρ c main_arg13 (by decide)))))))))))))))
theorem k13_v84_0 : W13 m ρ c (Proc.devRef .tc main_v84_0) = toVec2 (pre (kEA m ρ c) (kSRC m ρ c) (kDST m ρ c) (kLW m ρ c 1) (kX1 m ρ c)) := by
  rw [(W13_keep m ρ c main_v84_0 (by decide)), W12_arr m ρ c 5, val5_5 (WV11 m ρ) c, k11_mlp m ρ c]

/-- The layer's output: the normalised activation of these is the layer in the kernel program's spelling. -/
theorem k14_v99 : W14 m ρ c (Proc.devRef .tc main_v99) = kX2 m ρ c := by
  refine (W14_arr m ρ c 5).trans ((val6 (WV13 m ρ) c).trans ?_)
  refine layerK_of_parts (kEA m ρ c) (kSRC m ρ c) (kDST m ρ c) eluMin (kLW m ρ c 1) (kX1 m ρ c) _ rfl _ rfl
    (pre (kEA m ρ c) (kSRC m ρ c) (kDST m ρ c) (kLW m ρ c 1) (kX1 m ρ c)) rfl _ _ _ _ rfl rfl rfl rfl _ ?_
  rw [show WV13 m ρ c (Pipeline.arrRef spec6 0) = _ from k13_v84_0 m ρ c,
    show WV13 m ρ c (Pipeline.arrRef spec6 1) = _ from k13_v86 m ρ c,
    show WV13 m ρ c (Pipeline.arrRef spec6 2) = _ from k13_v92 m ρ c,
    show WV13 m ρ c (Pipeline.arrRef spec6 3) = _ from k13_v95 m ρ c,
    show WV13 m ρ c (Pipeline.arrRef spec6 4) = _ from k13_v98 m ρ c,
    mean_val, var_val, row64_val_1, row64_val_1]
  simp only [Cert.Spec.ofRow_toRow, Cert.Spec.ofVec2_toVec2]
  rfl

/-! ## Layer 2 -/

/-- The edge weights' slices. -/
theorem k15_v101 : W15 m ρ c (Proc.devRef .tc main_v101) = hkSlab5x64 2 slices_S3x5x64_S1x5x64_2_0_0 (kA6 m ρ c) :=
  (hostK7_v101 (W14 m ρ c)).trans (congrArg _ (((W14_of_ne m ρ c main_arg6 (by decide)).trans ((W13_keep m ρ c main_arg6 (by decide)).trans ((W12_of_ne m ρ c main_arg6 (by decide)).trans ((W11_keep m ρ c main_arg6 (by decide)).trans ((W10_of_ne m ρ c main_arg6 (by decide)).trans ((W9_keep m ρ c main_arg6 (by decide)).trans ((W8_of_ne m ρ c main_arg6 (by decide)).trans ((W7_keep m ρ c main_arg6 (by decide)).trans ((W6_of_ne m ρ c main_arg6 (by decide)).trans ((W5_keep m ρ c main_arg6 (by decide)).trans ((W4_of_ne m ρ c main_arg6 (by decide)).trans ((W3_keep m ρ c main_arg6 (by decide)).trans ((W2_of_ne m ρ c main_arg6 (by decide)).trans (W1_keep m ρ c main_arg6 (by decide)))))))))))))))))
theorem k15_v104 : W15 m ρ c (Proc.devRef .tc main_v104) = hkRow64 2 slices_S3x64_S1x64_2_0 (kA7 m ρ c) :=
  (hostK7_v104 (W14 m ρ c)).trans (congrArg _ (((W14_of_ne m ρ c main_arg7 (by decide)).trans ((W13_keep m ρ c main_arg7 (by decide)).trans ((W12_of_ne m ρ c main_arg7 (by decide)).trans ((W11_keep m ρ c main_arg7 (by decide)).trans ((W10_of_ne m ρ c main_arg7 (by decide)).trans ((W9_keep m ρ c main_arg7 (by decide)).trans ((W8_of_ne m ρ c main_arg7 (by decide)).trans ((W7_keep m ρ c main_arg7 (by decide)).trans ((W6_of_ne m ρ c main_arg7 (by decide)).trans ((W5_keep m ρ c main_arg7 (by decide)).trans ((W4_of_ne m ρ c main_arg7 (by decide)).trans ((W3_keep m ρ c main_arg7 (by decide)).trans ((W2_of_ne m ρ c main_arg7 (by decide)).trans (W1_keep m ρ c main_arg7 (by decide)))))))))))))))))

/-- The edge embedding. -/
theorem k16_v105 : W16 m ρ c (Proc.devRef .tc main_v105) = emb (kEA m ρ c) (kLW m ρ c 2) :=
  (W16_arr m ρ c 3).trans ((val7 (WV15 m ρ) c).trans ((k_lin_congr (((W15_keep m ρ c main_v4 (by decide)).trans ((W14_of_ne m ρ c main_v4 (by decide)).trans ((W13_keep m ρ c main_v4 (by decide)).trans ((W12_of_ne m ρ c main_v4 (by decide)).trans ((W11_keep m ρ c main_v4 (by decide)).trans ((W10_in m ρ c 0 rfl).trans ((W9_keep m ρ c main_v4 (by decide)).trans ((W8_of_ne m ρ c main_v4 (by decide)).trans ((W7_keep m ρ c main_v4 (by decide)).trans ((W6_of_ne m ρ c main_v4 (by decide)).trans ((W5_keep m ρ c main_v4 (by decide)).trans ((W4_in m ρ c 0 rfl).trans ((W3_keep m ρ c main_v4 (by decide)).trans (W2_of_ne m ρ c main_v4 (by decide))))))))))))))).trans (k1_v4 m ρ c)) (k15_v101 m ρ c) (k15_v104 m ρ c)).trans (by
    unfold emb kLW layerW; rw [slab5x64_val_2, row64_val_2])))

/-- The aggregation over the neighbours. -/
theorem k17_v116 : W17 m ρ c (Proc.devRef .tc main_v116) = Cert.ReferenceIdeal.Net.agg (F := Ideal) (kX2 m ρ c) (emb (kEA m ρ c) (kLW m ρ c 2)) (kSRC m ρ c) (kDST m ρ c) := by
  refine (hostK8_v116 (W16 m ρ c)).trans ?_
  rw [((W16_of_ne m ρ c main_v99 (by decide)).trans (W15_keep m ρ c main_v99 (by decide))), k14_v99 m ρ c, k16_v105 m ρ c,
    ((W16_of_ne m ρ c main_v8 (by decide)).trans ((W15_keep m ρ c main_v8 (by decide)).trans ((W14_of_ne m ρ c main_v8 (by decide)).trans ((W13_keep m ρ c main_v8 (by decide)).trans ((W12_of_ne m ρ c main_v8 (by decide)).trans ((W11_keep m ρ c main_v8 (by decide)).trans ((W10_of_ne m ρ c main_v8 (by decide)).trans ((W9_keep m ρ c main_v8 (by decide)).trans ((W8_of_ne m ρ c main_v8 (by decide)).trans ((W7_keep m ρ c main_v8 (by decide)).trans ((W6_of_ne m ρ c main_v8 (by decide)).trans ((W5_keep m ρ c main_v8 (by decide)).trans ((W4_of_ne m ρ c main_v8 (by decide)).trans ((W3_keep m ρ c main_v8 (by decide)).trans (W2_of_ne m ρ c main_v8 (by decide)))))))))))))))), k1_v8 m ρ c, ((W16_of_ne m ρ c main_v11 (by decide)).trans ((W15_keep m ρ c main_v11 (by decide)).trans ((W14_of_ne m ρ c main_v11 (by decide)).trans ((W13_keep m ρ c main_v11 (by decide)).trans ((W12_of_ne m ρ c main_v11 (by decide)).trans ((W11_keep m ρ c main_v11 (by decide)).trans ((W10_of_ne m ρ c main_v11 (by decide)).trans ((W9_keep m ρ c main_v11 (by decide)).trans ((W8_of_ne m ρ c main_v11 (by decide)).trans ((W7_keep m ρ c main_v11 (by decide)).trans ((W6_of_ne m ρ c main_v11 (by decide)).trans ((W5_keep m ρ c main_v11 (by decide)).trans ((W4_of_ne m ρ c main_v11 (by decide)).trans ((W3_keep m ρ c main_v11 (by decide)).trans (W2_of_ne m ρ c main_v11 (by decide)))))))))))))))), k1_v11 m ρ c]

/-- The perceptron's weights' slices. -/
theorem k17_v118 : W17 m ρ c (Proc.devRef .tc main_v118) = hkSlab64x128 2 slices_S3x64x128_S1x64x128_2_0_0 (kA8 m ρ c) :=
  (hostK8_v118 (W16 m ρ c)).trans (congrArg _ (((W16_of_ne m ρ c main_arg8 (by decide)).trans ((W15_keep m ρ c main_arg8 (by decide)).trans ((W14_of_ne m ρ c main_arg8 (by decide)).trans ((W13_keep m ρ c main_arg8 (by decide)).trans ((W12_of_ne m ρ c main_arg8 (by decide)).trans ((W11_keep m ρ c main_arg8 (by decide)).trans ((W10_of_ne m ρ c main_arg8 (by decide)).trans ((W9_keep m ρ c main_arg8 (by decide)).trans ((W8_of_ne m ρ c main_arg8 (by decide)).trans ((W7_keep m ρ c main_arg8 (by decide)).trans ((W6_of_ne m ρ c main_arg8 (by decide)).trans ((W5_keep m ρ c main_arg8 (by decide)).trans ((W4_of_ne m ρ c main_arg8 (by decide)).trans ((W3_keep m ρ c main_arg8 (by decide)).trans ((W2_of_ne m ρ c main_arg8 (by decide)).trans (W1_keep m ρ c main_arg8 (by decide)))))))))))))))))))
theorem k17_v121 : W17 m ρ c (Proc.devRef .tc main_v121) = hkRow128 2 slices_S3x128_S1x128_2_0 (kA9 m ρ c) :=
  (hostK8_v121 (W16 m ρ c)).trans (congrArg _ (((W16_of_ne m ρ c main_arg9 (by decide)).trans ((W15_keep m ρ c main_arg9 (by decide)).trans ((W14_of_ne m ρ c main_arg9 (by decide)).trans ((W13_keep m ρ c main_arg9 (by decide)).trans ((W12_of_ne m ρ c main_arg9 (by decide)).trans ((W11_keep m ρ c main_arg9 (by decide)).trans ((W10_of_ne m ρ c main_arg9 (by decide)).trans ((W9_keep m ρ c main_arg9 (by decide)).trans ((W8_of_ne m ρ c main_arg9 (by decide)).trans ((W7_keep m ρ c main_arg9 (by decide)).trans ((W6_of_ne m ρ c main_arg9 (by decide)).trans ((W5_keep m ρ c main_arg9 (by decide)).trans ((W4_of_ne m ρ c main_arg9 (by decide)).trans ((W3_keep m ρ c main_arg9 (by decide)).trans ((W2_of_ne m ρ c main_arg9 (by decide)).trans (W1_keep m ρ c main_arg9 (by decide)))))))))))))))))))
theorem k17_v123 : W17 m ρ c (Proc.devRef .tc main_v123) = hkSlab128x64 2 slices_S3x128x64_S1x128x64_2_0_0 (kA10 m ρ c) :=
  (hostK8_v123 (W16 m ρ c)).trans (congrArg _ (((W16_of_ne m ρ c main_arg10 (by decide)).trans ((W15_keep m ρ c main_arg10 (by decide)).trans ((W14_of_ne m ρ c main_arg10 (by decide)).trans ((W13_keep m ρ c main_arg10 (by decide)).trans ((W12_of_ne m ρ c main_arg10 (by decide)).trans ((W11_keep m ρ c main_arg10 (by decide)).trans ((W10_of_ne m ρ c main_arg10 (by decide)).trans ((W9_keep m ρ c main_arg10 (by decide)).trans ((W8_of_ne m ρ c main_arg10 (by decide)).trans ((W7_keep m ρ c main_arg10 (by decide)).trans ((W6_of_ne m ρ c main_arg10 (by decide)).trans ((W5_keep m ρ c main_arg10 (by decide)).trans ((W4_of_ne m ρ c main_arg10 (by decide)).trans ((W3_keep m ρ c main_arg10 (by decide)).trans ((W2_of_ne m ρ c main_arg10 (by decide)).trans (W1_keep m ρ c main_arg10 (by decide)))))))))))))))))))
theorem k17_v126 : W17 m ρ c (Proc.devRef .tc main_v126) = hkRow64 2 slices_S3x64_S1x64_2_0 (kA11 m ρ c) :=
  (hostK8_v126 (W16 m ρ c)).trans (congrArg _ (((W16_of_ne m ρ c main_arg11 (by decide)).trans ((W15_keep m ρ c main_arg11 (by decide)).trans ((W14_of_ne m ρ c main_arg11 (by decide)).trans ((W13_keep m ρ c main_arg11 (by decide)).trans ((W12_of_ne m ρ c main_arg11 (by decide)).trans ((W11_keep m ρ c main_arg11 (by decide)).trans ((W10_of_ne m ρ c main_arg11 (by decide)).trans ((W9_keep m ρ c main_arg11 (by decide)).trans ((W8_of_ne m ρ c main_arg11 (by decide)).trans ((W7_keep m ρ c main_arg11 (by decide)).trans ((W6_of_ne m ρ c main_arg11 (by decide)).trans ((W5_keep m ρ c main_arg11 (by decide)).trans ((W4_of_ne m ρ c main_arg11 (by decide)).trans ((W3_keep m ρ c main_arg11 (by decide)).trans ((W2_of_ne m ρ c main_arg11 (by decide)).trans (W1_keep m ρ c main_arg11 (by decide)))))))))))))))))))

/-- The perceptron block as the region's value lemma names it is the layer's perceptron of the aggregation. -/
theorem k17_mlp : e_mlp8 (WV17 m ρ) c = pre (kEA m ρ c) (kSRC m ρ c) (kDST m ρ c) (kLW m ρ c 2) (kX2 m ρ c) := by
  unfold e_mlp8 pre
  rw [show WV17 m ρ c main_v116 = _ from k17_v116 m ρ c, show WV17 m ρ c main_v118 = _ from k17_v118 m ρ c,
    show WV17 m ρ c main_v121 = _ from k17_v121 m ρ c, show WV17 m ρ c main_v123 = _ from k17_v123 m ρ c,
    show WV17 m ρ c main_v126 = _ from k17_v126 m ρ c, slab64x128_val_2, row128_val_2, slab128x64_val_2, row64_val_2]
  rfl

/-- The statistics' host stretch, and the scale and shift. -/
theorem k19_v129 : W19 m ρ c (Proc.devRef .tc main_v129) = hkMean (F := Ideal) (toRow (colsum (pre (kEA m ρ c) (kSRC m ρ c) (kDST m ρ c) (kLW m ρ c 2) (kX2 m ρ c)))) :=
  (hostK9_v129 (W18 m ρ c)).trans (congrArg (hkMean (F := Ideal)) (((W18_arr m ρ c 6).trans (val8_6 (WV17 m ρ) c)).trans (congrArg (fun h => toRow (colsum h)) (k17_mlp m ρ c))))
theorem k19_v135 : W19 m ρ c (Proc.devRef .tc main_v135) = hkVar (F := Ideal) (toRow (colsum (pre (kEA m ρ c) (kSRC m ρ c) (kDST m ρ c) (kLW m ρ c 2) (kX2 m ρ c)))) (toRow (colsumsq (pre (kEA m ρ c) (kSRC m ρ c) (kDST m ρ c) (kLW m ρ c 2) (kX2 m ρ c)))) :=
  (hostK9_v135 (W18 m ρ c)).trans (congrArg₂ (hkVar (F := Ideal))
    (((W18_arr m ρ c 6).trans (val8_6 (WV17 m ρ) c)).trans (congrArg (fun h => toRow (colsum h)) (k17_mlp m ρ c)))
    (((W18_arr m ρ c 7).trans (val8_7 (WV17 m ρ) c)).trans (congrArg (fun h => toRow (colsumsq h)) (k17_mlp m ρ c))))
theorem k19_v138 : W19 m ρ c (Proc.devRef .tc main_v138) = hkRow64 2 slices_S3x64_S1x64_2_0 (kA12 m ρ c) :=
  (hostK9_v138 (W18 m ρ c)).trans (congrArg _ (((W18_of_ne m ρ c main_arg12 (by decide)).trans ((W17_keep m ρ c main_arg12 (by decide)).trans ((W16_of_ne m ρ c main_arg12 (by decide)).trans ((W15_keep m ρ c main_arg12 (by decide)).trans ((W14_of_ne m ρ c main_arg12 (by decide)).trans ((W13_keep m ρ c main_arg12 (by decide)).trans ((W12_of_ne m ρ c main_arg12 (by decide)).trans ((W11_keep m ρ c main_arg12 (by decide)).trans ((W10_of_ne m ρ c main_arg12 (by decide)).trans ((W9_keep m ρ c main_arg12 (by decide)).trans ((W8_of_ne m ρ c main_arg12 (by decide)).trans ((W7_keep m ρ c main_arg12 (by decide)).trans ((W6_of_ne m ρ c main_arg12 (by decide)).trans ((W5_keep m ρ c main_arg12 (by decide)).trans ((W4_of_ne m ρ c main_arg12 (by decide)).trans ((W3_keep m ρ c main_arg12 (by decide)).trans ((W2_of_ne m ρ c main_arg12 (by decide)).trans (W1_keep m ρ c main_arg12 (by decide)))))))))))))))))))))
theorem k19_v141 : W19 m ρ c (Proc.devRef .tc main_v141) = hkRow64 2 slices_S3x64_S1x64_2_0 (kA13 m ρ c) :=
  (hostK9_v141 (W18 m ρ c)).trans (congrArg _ (((W18_of_ne m ρ c main_arg13 (by decide)).trans ((W17_keep m ρ c main_arg13 (by decide)).trans ((W16_of_ne m ρ c main_arg13 (by decide)).trans ((W15_keep m ρ c main_arg13 (by decide)).trans ((W14_of_ne m ρ c main_arg13 (by decide)).trans ((W13_keep m ρ c main_arg13 (by decide)).trans ((W12_of_ne m ρ c main_arg13 (by decide)).trans ((W11_keep m ρ c main_arg13 (by decide)).trans ((W10_of_ne m ρ c main_arg13 (by decide)).trans ((W9_keep m ρ c main_arg13 (by decide)).trans ((W8_of_ne m ρ c main_arg13 (by decide)).trans ((W7_keep m ρ c main_arg13 (by decide)).trans ((W6_of_ne m ρ c main_arg13 (by decide)).trans ((W5_keep m ρ c main_arg13 (by decide)).trans ((W4_of_ne m ρ c main_arg13 (by decide)).trans ((W3_keep m ρ c main_arg13 (by decide)).trans ((W2_of_ne m ρ c main_arg13 (by decide)).trans (W1_keep m ρ c main_arg13 (by decide)))))))))))))))))))))
theorem k19_v127_0 : W19 m ρ c (Proc.devRef .tc main_v127_0) = toVec2 (pre (kEA m ρ c) (kSRC m ρ c) (kDST m ρ c) (kLW m ρ c 2) (kX2 m ρ c)) := by
  rw [(W19_keep m ρ c main_v127_0 (by decide)), W18_arr m ρ c 5, val8_5 (WV17 m ρ) c, k17_mlp m ρ c]

/-- The layer's output: the normalised activation of these is the layer in the kernel program's spelling. -/
theorem k20_v142 : W20 m ρ c (Proc.devRef .tc main_v142) = kX3 m ρ c := by
  refine (W20_arr m ρ c 5).trans ((val9 (WV19 m ρ) c).trans ?_)
  refine layerK_of_parts (kEA m ρ c) (kSRC m ρ c) (kDST m ρ c) id (kLW m ρ c 2) (kX2 m ρ c) _ rfl _ rfl
    (pre (kEA m ρ c) (kSRC m ρ c) (kDST m ρ c) (kLW m ρ c 2) (kX2 m ρ c)) rfl _ _ _ _ rfl rfl rfl rfl _ ?_
  rw [show WV19 m ρ c (Pipeline.arrRef spec9 0) = _ from k19_v127_0 m ρ c,
    show WV19 m ρ c (Pipeline.arrRef spec9 1) = _ from k19_v129 m ρ c,
    show WV19 m ρ c (Pipeline.arrRef spec9 2) = _ from k19_v135 m ρ c,
    show WV19 m ρ c (Pipeline.arrRef spec9 3) = _ from k19_v138 m ρ c,
    show WV19 m ρ c (Pipeline.arrRef spec9 4) = _ from k19_v141 m ρ c,
    mean_val, var_val, row64_val_2, row64_val_2]
  simp only [Cert.Spec.ofRow_toRow, Cert.Spec.ofVec2_toVec2]
  exact (k_toVec2_id _).symm

/-! ## The result -/

/-- The kernel program's result buffer holds the network's value of the launch arguments. -/
theorem k21_v149 : W21 m ρ c (Proc.devRef .tc main_v149) = Cert.ReferenceIdeal.Net.pick (F := Ideal) (kX3 m ρ c) (kA3 m ρ c) := by
  refine (hostK10_v149 (W20 m ρ c)).trans ?_
  rw [k20_v142 m ρ c, ((W20_of_ne m ρ c main_arg3 (by decide)).trans ((W19_keep m ρ c main_arg3 (by decide)).trans ((W18_of_ne m ρ c main_arg3 (by decide)).trans ((W17_keep m ρ c main_arg3 (by decide)).trans ((W16_of_ne m ρ c main_arg3 (by decide)).trans ((W15_keep m ρ c main_arg3 (by decide)).trans ((W14_of_ne m ρ c main_arg3 (by decide)).trans ((W13_keep m ρ c main_arg3 (by decide)).trans ((W12_of_ne m ρ c main_arg3 (by decide)).trans ((W11_keep m ρ c main_arg3 (by decide)).trans ((W10_of_ne m ρ c main_arg3 (by decide)).trans ((W9_keep m ρ c main_arg3 (by decide)).trans ((W8_of_ne m ρ c main_arg3 (by decide)).trans ((W7_keep m ρ c main_arg3 (by decide)).trans ((W6_of_ne m ρ c main_arg3 (by decide)).trans ((W5_keep m ρ c main_arg3 (by decide)).trans ((W4_of_ne m ρ c main_arg3 (by decide)).trans ((W3_keep m ρ c main_arg3 (by decide)).trans ((W2_of_ne m ρ c main_arg3 (by decide)).trans (W1_keep m ρ c main_arg3 (by decide)))))))))))))))))))))]

theorem k21_net : W21 m ρ c (Proc.devRef .tc main_v149) = netOfK (kA0 m ρ c) (kA1 m ρ c) (kA2 m ρ c) (kA3 m ρ c) (kA4 m ρ c) (kA5 m ρ c) (kA6 m ρ c) (kA7 m ρ c)
    (kA8 m ρ c) (kA9 m ρ c) (kA10 m ρ c) (kA11 m ρ c) (kA12 m ρ c) (kA13 m ρ c) :=
  (k21_v149 m ρ c).trans (by unfold netOfK netK kX3 kX2 kX1 kX0 kLW kEA kSRC kDST; rfl)

end Cert.KernelIdeal.Hand

end
-- ==== Proof.RunK.lean ====
/- The run of @main over its 21 items, at any float model: every pipeline's proof data at its region's entry contents,
   each region as a segment between two boundaries of the fold, a host segment per stretch, and the whole run: every
   fair execution terminates and ends with every unscoped buffer at the last boundary's contents. -/
import proofs.«172917_j75840532513057_2_alg».proof.Proof.RunW3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- Every pipeline's proof data, each at its region's entry contents: a literal `match`, so that the family at a
    numeral reduces to the region's own data. -/
def pdats : (p : Fin 10) → (c : Dev nD) → Dat τ (Elt F) Unit ℕ (UR sig nD τ) ℕ (Pipeline.pin (pcfgs (F := F)) adm p) c
  | ⟨0, _⟩ => fun c => dat0 (WV1 m ρ) c
  | ⟨1, _⟩ => fun c => dat1 (WV3 m ρ) c
  | ⟨2, _⟩ => fun c => dat2 (WV5 m ρ) c
  | ⟨3, _⟩ => fun c => dat3 (WV7 m ρ) c
  | ⟨4, _⟩ => fun c => dat4 (WV9 m ρ) c
  | ⟨5, _⟩ => fun c => dat5 (WV11 m ρ) c
  | ⟨6, _⟩ => fun c => dat6 (WV13 m ρ) c
  | ⟨7, _⟩ => fun c => dat7 (WV15 m ρ) c
  | ⟨8, _⟩ => fun c => dat8 (WV17 m ρ) c
  | ⟨9, _⟩ => fun c => dat9 (WV19 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W21`, the
    generator register at some state. -/
abbrev Tₙ (c : Dev nD) : sProp 𝕄 := iprop(StableHlo.held (c : Thread nD τ) (Pipeline.ucRefs τ sig) (W21 m ρ c) ∗ ∃ r, prngReg c r)

/-- The last host stretch's thread state is the last thread state beside the core owing nothing (the same parts, regrouped). -/
theorem c_last (c : Dev nD) :
    iprop(StableHlo.held (c : Thread nD τ) (Pipeline.ucRefs τ sig) (W21 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The class invariant, in and out -/

/-- The class invariant from the generator register and the scoped rest (whatever else is offered is dropped). -/
theorem c_ΦA_in {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
/-- The class invariant gives back the generator register and the scoped rest. -/
theorem c_ΦA_out {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- REGION 0 over the thread state: entered from every unscoped buffer at `W1`, left at `W2`. Its arrays
    split out of the unscoped buffers and put back at the exit contents; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (WV1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (WV1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (WV1 m ρ c) fun w => A_eq0 (WV1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    exact c_ΦA_in spec0 c _
  hout c := by
    rw [Pipeline.ownSems0_none, show (pdats m ρ 0 c).Φ (Fin.last _) = Pipeline.ΦA spec0 c from rfl]
    exact c_ΦA_out spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (WV1 m ρ c) (WV2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays
    split out of the unscoped buffers and put back at the exit contents; the generator register into the invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (WV3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (WV3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (WV3 m ρ c) fun w => A_eq1 (WV3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    exact c_ΦA_in spec1 c _
  hout c := by
    rw [Pipeline.ownSems0_none, show (pdats m ρ 1 c).Φ (Fin.last _) = Pipeline.ΦA spec1 c from rfl]
    exact c_ΦA_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (WV3 m ρ c) (WV4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays
    split out of the unscoped buffers and put back at the exit contents; the generator register into the invariant
    and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (WV5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (WV5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (WV5 m ρ c) fun w => A_eq2 (WV5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (c_ΦA_in spec2 c _).trans (enter2 (WV5 m ρ) c)
  hout c := by
    rw [Pipeline.ownSems0_none]
    exact (leave2 (WV5 m ρ) c).trans (c_ΦA_out spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (WV5 m ρ c) (WV6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays
    split out of the unscoped buffers and put back at the exit contents; the generator register into the invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (WV7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (WV7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (WV7 m ρ c) fun w => A_eq3 (WV7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]
    exact c_ΦA_in spec3 c _
  hout c := by
    rw [Pipeline.ownSems0_none, show (pdats m ρ 3 c).Φ (Fin.last _) = Pipeline.ΦA spec3 c from rfl]
    exact c_ΦA_out spec3 c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (WV7 m ρ c) (WV8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays
    split out of the unscoped buffers and put back at the exit contents; the generator register into the invariant
    and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (WV9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (WV9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (WV9 m ρ c) fun w => A_eq4 (WV9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]
    exact c_ΦA_in spec4 c _
  hout c := by
    rw [Pipeline.ownSems0_none, show (pdats m ρ 4 c).Φ (Fin.last _) = Pipeline.ΦA spec4 c from rfl]
    exact c_ΦA_out spec4 c
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (WV9 m ρ c) (WV10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its arrays
    split out of the unscoped buffers and put back at the exit contents; the generator register into the invariant
    and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (WV11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (WV11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (WV11 m ρ c) fun w => A_eq5 (WV11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (c_ΦA_in spec5 c _).trans (enter5 (WV11 m ρ) c)
  hout c := by
    rw [Pipeline.ownSems0_none]
    exact (leave5 (WV11 m ρ) c).trans (c_ΦA_out spec5 c)
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (WV11 m ρ c) (WV12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W13`, left at `W14`. Its arrays
    split out of the unscoped buffers and put back at the exit contents; the generator register into the invariant
    and out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (WV13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (WV13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (WV13 m ρ c) fun w => A_eq6 (WV13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]
    exact c_ΦA_in spec6 c _
  hout c := by
    rw [Pipeline.ownSems0_none, show (pdats m ρ 6 c).Φ (Fin.last _) = Pipeline.ΦA spec6 c from rfl]
    exact c_ΦA_out spec6 c
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (WV13 m ρ c) (WV14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W15`, left at `W16`. Its arrays
    split out of the unscoped buffers and put back at the exit contents; the generator register into the invariant
    and out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (WV15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (WV15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (WV15 m ρ c) fun w => A_eq7 (WV15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]
    exact c_ΦA_in spec7 c _
  hout c := by
    rw [Pipeline.ownSems0_none, show (pdats m ρ 7 c).Φ (Fin.last _) = Pipeline.ΦA spec7 c from rfl]
    exact c_ΦA_out spec7 c
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (WV15 m ρ c) (WV16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W17`, left at `W18`. Its arrays
    split out of the unscoped buffers and put back at the exit contents; the generator register into the invariant
    and out; nothing owed; no semaphore of the kernel's own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (WV17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (WV17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (WV17 m ρ c) fun w => A_eq8 (WV17 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (c_ΦA_in spec8 c _).trans (enter8 (WV17 m ρ) c)
  hout c := by
    rw [Pipeline.ownSems0_none]
    exact (leave8 (WV17 m ρ) c).trans (c_ΦA_out spec8 c)
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (WV17 m ρ c) (WV18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W19`, left at `W20`. Its arrays
    split out of the unscoped buffers and put back at the exit contents; the generator register into the invariant
    and out; nothing owed; no semaphore of the kernel's own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (WV19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (WV19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (WV19 m ρ c) fun w => A_eq9 (WV19 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]
    exact c_ΦA_in spec9 c _
  hout c := by
    rw [Pipeline.ownSems0_none, show (pdats m ρ 9 c).Φ (Fin.last _) = Pipeline.ΦA spec9 c from rfl]
    exact c_ΦA_out spec9 c
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (WV19 m ρ c) (WV20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 21 segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)) ]

/-- @main is the run of the segments: both are the chain of the same 21 fragments. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10 ] from rfl]
  rfl

set_option backward.isDefEq.respectTransparency.types false in
/-- THE RUN: from any memory with zero counters, every weakly fair execution of @main on the TensorCores terminates,
    nothing faulting, and every final state holds every unscoped buffer at the last boundary's contents `W21`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => c_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun _ h => h)

/-- info: 'Cert.KernelIdeal.Hand.run_all' depends on axioms: [propext, Classical.choice, Quot.sound] -/
#guard_msgs in #print axioms run_all

end Cert.KernelIdeal.Hand

end
-- ==== Proof.RunArgs.lean ====
/-
  Every argument array is read by no host operation's write set and is at most an input window of a region, so each
  boundary's contents at an argument walk back to the launch memory.
-/
import proofs.«172917_j75840532513057_2_alg».proof.Proof.RunW3

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

theorem kW21_arg0 : W21 m ρ c (Proc.devRef .tc main_arg0) = m ((c.tc : Thread nD τ).loc main_arg0) :=
  (((W21_keep m ρ c main_arg0 (by decide)).trans ((W20_of_ne m ρ c main_arg0 (by decide)).trans ((W19_keep m ρ c main_arg0 (by decide)).trans ((W18_of_ne m ρ c main_arg0 (by decide)).trans ((W17_keep m ρ c main_arg0 (by decide)).trans ((W16_of_ne m ρ c main_arg0 (by decide)).trans ((W15_keep m ρ c main_arg0 (by decide)).trans ((W14_of_ne m ρ c main_arg0 (by decide)).trans ((W13_keep m ρ c main_arg0 (by decide)).trans ((W12_of_ne m ρ c main_arg0 (by decide)).trans ((W11_keep m ρ c main_arg0 (by decide)).trans ((W10_of_ne m ρ c main_arg0 (by decide)).trans ((W9_keep m ρ c main_arg0 (by decide)).trans ((W8_of_ne m ρ c main_arg0 (by decide)).trans ((W7_keep m ρ c main_arg0 (by decide)).trans ((W6_of_ne m ρ c main_arg0 (by decide)).trans ((W5_keep m ρ c main_arg0 (by decide)).trans ((W4_of_ne m ρ c main_arg0 (by decide)).trans ((W3_keep m ρ c main_arg0 (by decide)).trans ((W2_in m ρ c 0 rfl).trans (W1_keep m ρ c main_arg0 (by decide))))))))))))))))))))))).trans rfl
theorem kW21_arg1 : W21 m ρ c (Proc.devRef .tc main_arg1) = m ((c.tc : Thread nD τ).loc main_arg1) :=
  (((W21_keep m ρ c main_arg1 (by decide)).trans ((W20_of_ne m ρ c main_arg1 (by decide)).trans ((W19_keep m ρ c main_arg1 (by decide)).trans ((W18_of_ne m ρ c main_arg1 (by decide)).trans ((W17_keep m ρ c main_arg1 (by decide)).trans ((W16_of_ne m ρ c main_arg1 (by decide)).trans ((W15_keep m ρ c main_arg1 (by decide)).trans ((W14_of_ne m ρ c main_arg1 (by decide)).trans ((W13_keep m ρ c main_arg1 (by decide)).trans ((W12_of_ne m ρ c main_arg1 (by decide)).trans ((W11_keep m ρ c main_arg1 (by decide)).trans ((W10_of_ne m ρ c main_arg1 (by decide)).trans ((W9_keep m ρ c main_arg1 (by decide)).trans ((W8_of_ne m ρ c main_arg1 (by decide)).trans ((W7_keep m ρ c main_arg1 (by decide)).trans ((W6_of_ne m ρ c main_arg1 (by decide)).trans ((W5_keep m ρ c main_arg1 (by decide)).trans ((W4_of_ne m ρ c main_arg1 (by decide)).trans ((W3_keep m ρ c main_arg1 (by decide)).trans ((W2_of_ne m ρ c main_arg1 (by decide)).trans (W1_keep m ρ c main_arg1 (by decide))))))))))))))))))))))).trans rfl
theorem kW21_arg2 : W21 m ρ c (Proc.devRef .tc main_arg2) = m ((c.tc : Thread nD τ).loc main_arg2) :=
  (((W21_keep m ρ c main_arg2 (by decide)).trans ((W20_of_ne m ρ c main_arg2 (by decide)).trans ((W19_keep m ρ c main_arg2 (by decide)).trans ((W18_of_ne m ρ c main_arg2 (by decide)).trans ((W17_keep m ρ c main_arg2 (by decide)).trans ((W16_of_ne m ρ c main_arg2 (by decide)).trans ((W15_keep m ρ c main_arg2 (by decide)).trans ((W14_of_ne m ρ c main_arg2 (by decide)).trans ((W13_keep m ρ c main_arg2 (by decide)).trans ((W12_of_ne m ρ c main_arg2 (by decide)).trans ((W11_keep m ρ c main_arg2 (by decide)).trans ((W10_of_ne m ρ c main_arg2 (by decide)).trans ((W9_keep m ρ c main_arg2 (by decide)).trans ((W8_of_ne m ρ c main_arg2 (by decide)).trans ((W7_keep m ρ c main_arg2 (by decide)).trans ((W6_of_ne m ρ c main_arg2 (by decide)).trans ((W5_keep m ρ c main_arg2 (by decide)).trans ((W4_of_ne m ρ c main_arg2 (by decide)).trans ((W3_keep m ρ c main_arg2 (by decide)).trans ((W2_of_ne m ρ c main_arg2 (by decide)).trans (W1_keep m ρ c main_arg2 (by decide))))))))))))))))))))))).trans rfl
theorem kW21_arg3 : W21 m ρ c (Proc.devRef .tc main_arg3) = m ((c.tc : Thread nD τ).loc main_arg3) :=
  (((W21_keep m ρ c main_arg3 (by decide)).trans ((W20_of_ne m ρ c main_arg3 (by decide)).trans ((W19_keep m ρ c main_arg3 (by decide)).trans ((W18_of_ne m ρ c main_arg3 (by decide)).trans ((W17_keep m ρ c main_arg3 (by decide)).trans ((W16_of_ne m ρ c main_arg3 (by decide)).trans ((W15_keep m ρ c main_arg3 (by decide)).trans ((W14_of_ne m ρ c main_arg3 (by decide)).trans ((W13_keep m ρ c main_arg3 (by decide)).trans ((W12_of_ne m ρ c main_arg3 (by decide)).trans ((W11_keep m ρ c main_arg3 (by decide)).trans ((W10_of_ne m ρ c main_arg3 (by decide)).trans ((W9_keep m ρ c main_arg3 (by decide)).trans ((W8_of_ne m ρ c main_arg3 (by decide)).trans ((W7_keep m ρ c main_arg3 (by decide)).trans ((W6_of_ne m ρ c main_arg3 (by decide)).trans ((W5_keep m ρ c main_arg3 (by decide)).trans ((W4_of_ne m ρ c main_arg3 (by decide)).trans ((W3_keep m ρ c main_arg3 (by decide)).trans ((W2_of_ne m ρ c main_arg3 (by decide)).trans (W1_keep m ρ c main_arg3 (by decide))))))))))))))))))))))).trans rfl
theorem kW21_arg4 : W21 m ρ c (Proc.devRef .tc main_arg4) = m ((c.tc : Thread nD τ).loc main_arg4) :=
  (((W21_keep m ρ c main_arg4 (by decide)).trans ((W20_of_ne m ρ c main_arg4 (by decide)).trans ((W19_keep m ρ c main_arg4 (by decide)).trans ((W18_of_ne m ρ c main_arg4 (by decide)).trans ((W17_keep m ρ c main_arg4 (by decide)).trans ((W16_of_ne m ρ c main_arg4 (by decide)).trans ((W15_keep m ρ c main_arg4 (by decide)).trans ((W14_of_ne m ρ c main_arg4 (by decide)).trans ((W13_keep m ρ c main_arg4 (by decide)).trans ((W12_of_ne m ρ c main_arg4 (by decide)).trans ((W11_keep m ρ c main_arg4 (by decide)).trans ((W10_of_ne m ρ c main_arg4 (by decide)).trans ((W9_keep m ρ c main_arg4 (by decide)).trans ((W8_of_ne m ρ c main_arg4 (by decide)).trans ((W7_keep m ρ c main_arg4 (by decide)).trans ((W6_of_ne m ρ c main_arg4 (by decide)).trans ((W5_keep m ρ c main_arg4 (by decide)).trans ((W4_of_ne m ρ c main_arg4 (by decide)).trans ((W3_keep m ρ c main_arg4 (by decide)).trans ((W2_in m ρ c 1 rfl).trans (W1_keep m ρ c main_arg4 (by decide))))))))))))))))))))))).trans rfl
theorem kW21_arg5 : W21 m ρ c (Proc.devRef .tc main_arg5) = m ((c.tc : Thread nD τ).loc main_arg5) :=
  (((W21_keep m ρ c main_arg5 (by decide)).trans ((W20_of_ne m ρ c main_arg5 (by decide)).trans ((W19_keep m ρ c main_arg5 (by decide)).trans ((W18_of_ne m ρ c main_arg5 (by decide)).trans ((W17_keep m ρ c main_arg5 (by decide)).trans ((W16_of_ne m ρ c main_arg5 (by decide)).trans ((W15_keep m ρ c main_arg5 (by decide)).trans ((W14_of_ne m ρ c main_arg5 (by decide)).trans ((W13_keep m ρ c main_arg5 (by decide)).trans ((W12_of_ne m ρ c main_arg5 (by decide)).trans ((W11_keep m ρ c main_arg5 (by decide)).trans ((W10_of_ne m ρ c main_arg5 (by decide)).trans ((W9_keep m ρ c main_arg5 (by decide)).trans ((W8_of_ne m ρ c main_arg5 (by decide)).trans ((W7_keep m ρ c main_arg5 (by decide)).trans ((W6_of_ne m ρ c main_arg5 (by decide)).trans ((W5_keep m ρ c main_arg5 (by decide)).trans ((W4_of_ne m ρ c main_arg5 (by decide)).trans ((W3_keep m ρ c main_arg5 (by decide)).trans ((W2_of_ne m ρ c main_arg5 (by decide)).trans (W1_keep m ρ c main_arg5 (by decide))))))))))))))))))))))).trans rfl
theorem kW21_arg6 : W21 m ρ c (Proc.devRef .tc main_arg6) = m ((c.tc : Thread nD τ).loc main_arg6) :=
  (((W21_keep m ρ c main_arg6 (by decide)).trans ((W20_of_ne m ρ c main_arg6 (by decide)).trans ((W19_keep m ρ c main_arg6 (by decide)).trans ((W18_of_ne m ρ c main_arg6 (by decide)).trans ((W17_keep m ρ c main_arg6 (by decide)).trans ((W16_of_ne m ρ c main_arg6 (by decide)).trans ((W15_keep m ρ c main_arg6 (by decide)).trans ((W14_of_ne m ρ c main_arg6 (by decide)).trans ((W13_keep m ρ c main_arg6 (by decide)).trans ((W12_of_ne m ρ c main_arg6 (by decide)).trans ((W11_keep m ρ c main_arg6 (by decide)).trans ((W10_of_ne m ρ c main_arg6 (by decide)).trans ((W9_keep m ρ c main_arg6 (by decide)).trans ((W8_of_ne m ρ c main_arg6 (by decide)).trans ((W7_keep m ρ c main_arg6 (by decide)).trans ((W6_of_ne m ρ c main_arg6 (by decide)).trans ((W5_keep m ρ c main_arg6 (by decide)).trans ((W4_of_ne m ρ c main_arg6 (by decide)).trans ((W3_keep m ρ c main_arg6 (by decide)).trans ((W2_of_ne m ρ c main_arg6 (by decide)).trans (W1_keep m ρ c main_arg6 (by decide))))))))))))))))))))))).trans rfl
theorem kW21_arg7 : W21 m ρ c (Proc.devRef .tc main_arg7) = m ((c.tc : Thread nD τ).loc main_arg7) :=
  (((W21_keep m ρ c main_arg7 (by decide)).trans ((W20_of_ne m ρ c main_arg7 (by decide)).trans ((W19_keep m ρ c main_arg7 (by decide)).trans ((W18_of_ne m ρ c main_arg7 (by decide)).trans ((W17_keep m ρ c main_arg7 (by decide)).trans ((W16_of_ne m ρ c main_arg7 (by decide)).trans ((W15_keep m ρ c main_arg7 (by decide)).trans ((W14_of_ne m ρ c main_arg7 (by decide)).trans ((W13_keep m ρ c main_arg7 (by decide)).trans ((W12_of_ne m ρ c main_arg7 (by decide)).trans ((W11_keep m ρ c main_arg7 (by decide)).trans ((W10_of_ne m ρ c main_arg7 (by decide)).trans ((W9_keep m ρ c main_arg7 (by decide)).trans ((W8_of_ne m ρ c main_arg7 (by decide)).trans ((W7_keep m ρ c main_arg7 (by decide)).trans ((W6_of_ne m ρ c main_arg7 (by decide)).trans ((W5_keep m ρ c main_arg7 (by decide)).trans ((W4_of_ne m ρ c main_arg7 (by decide)).trans ((W3_keep m ρ c main_arg7 (by decide)).trans ((W2_of_ne m ρ c main_arg7 (by decide)).trans (W1_keep m ρ c main_arg7 (by decide))))))))))))))))))))))).trans rfl
theorem kW21_arg8 : W21 m ρ c (Proc.devRef .tc main_arg8) = m ((c.tc : Thread nD τ).loc main_arg8) :=
  (((W21_keep m ρ c main_arg8 (by decide)).trans ((W20_of_ne m ρ c main_arg8 (by decide)).trans ((W19_keep m ρ c main_arg8 (by decide)).trans ((W18_of_ne m ρ c main_arg8 (by decide)).trans ((W17_keep m ρ c main_arg8 (by decide)).trans ((W16_of_ne m ρ c main_arg8 (by decide)).trans ((W15_keep m ρ c main_arg8 (by decide)).trans ((W14_of_ne m ρ c main_arg8 (by decide)).trans ((W13_keep m ρ c main_arg8 (by decide)).trans ((W12_of_ne m ρ c main_arg8 (by decide)).trans ((W11_keep m ρ c main_arg8 (by decide)).trans ((W10_of_ne m ρ c main_arg8 (by decide)).trans ((W9_keep m ρ c main_arg8 (by decide)).trans ((W8_of_ne m ρ c main_arg8 (by decide)).trans ((W7_keep m ρ c main_arg8 (by decide)).trans ((W6_of_ne m ρ c main_arg8 (by decide)).trans ((W5_keep m ρ c main_arg8 (by decide)).trans ((W4_of_ne m ρ c main_arg8 (by decide)).trans ((W3_keep m ρ c main_arg8 (by decide)).trans ((W2_of_ne m ρ c main_arg8 (by decide)).trans (W1_keep m ρ c main_arg8 (by decide))))))))))))))))))))))).trans rfl
theorem kW21_arg9 : W21 m ρ c (Proc.devRef .tc main_arg9) = m ((c.tc : Thread nD τ).loc main_arg9) :=
  (((W21_keep m ρ c main_arg9 (by decide)).trans ((W20_of_ne m ρ c main_arg9 (by decide)).trans ((W19_keep m ρ c main_arg9 (by decide)).trans ((W18_of_ne m ρ c main_arg9 (by decide)).trans ((W17_keep m ρ c main_arg9 (by decide)).trans ((W16_of_ne m ρ c main_arg9 (by decide)).trans ((W15_keep m ρ c main_arg9 (by decide)).trans ((W14_of_ne m ρ c main_arg9 (by decide)).trans ((W13_keep m ρ c main_arg9 (by decide)).trans ((W12_of_ne m ρ c main_arg9 (by decide)).trans ((W11_keep m ρ c main_arg9 (by decide)).trans ((W10_of_ne m ρ c main_arg9 (by decide)).trans ((W9_keep m ρ c main_arg9 (by decide)).trans ((W8_of_ne m ρ c main_arg9 (by decide)).trans ((W7_keep m ρ c main_arg9 (by decide)).trans ((W6_of_ne m ρ c main_arg9 (by decide)).trans ((W5_keep m ρ c main_arg9 (by decide)).trans ((W4_of_ne m ρ c main_arg9 (by decide)).trans ((W3_keep m ρ c main_arg9 (by decide)).trans ((W2_of_ne m ρ c main_arg9 (by decide)).trans (W1_keep m ρ c main_arg9 (by decide))))))))))))))))))))))).trans rfl
theorem kW21_arg10 : W21 m ρ c (Proc.devRef .tc main_arg10) = m ((c.tc : Thread nD τ).loc main_arg10) :=
  (((W21_keep m ρ c main_arg10 (by decide)).trans ((W20_of_ne m ρ c main_arg10 (by decide)).trans ((W19_keep m ρ c main_arg10 (by decide)).trans ((W18_of_ne m ρ c main_arg10 (by decide)).trans ((W17_keep m ρ c main_arg10 (by decide)).trans ((W16_of_ne m ρ c main_arg10 (by decide)).trans ((W15_keep m ρ c main_arg10 (by decide)).trans ((W14_of_ne m ρ c main_arg10 (by decide)).trans ((W13_keep m ρ c main_arg10 (by decide)).trans ((W12_of_ne m ρ c main_arg10 (by decide)).trans ((W11_keep m ρ c main_arg10 (by decide)).trans ((W10_of_ne m ρ c main_arg10 (by decide)).trans ((W9_keep m ρ c main_arg10 (by decide)).trans ((W8_of_ne m ρ c main_arg10 (by decide)).trans ((W7_keep m ρ c main_arg10 (by decide)).trans ((W6_of_ne m ρ c main_arg10 (by decide)).trans ((W5_keep m ρ c main_arg10 (by decide)).trans ((W4_of_ne m ρ c main_arg10 (by decide)).trans ((W3_keep m ρ c main_arg10 (by decide)).trans ((W2_of_ne m ρ c main_arg10 (by decide)).trans (W1_keep m ρ c main_arg10 (by decide))))))))))))))))))))))).trans rfl
theorem kW21_arg11 : W21 m ρ c (Proc.devRef .tc main_arg11) = m ((c.tc : Thread nD τ).loc main_arg11) :=
  (((W21_keep m ρ c main_arg11 (by decide)).trans ((W20_of_ne m ρ c main_arg11 (by decide)).trans ((W19_keep m ρ c main_arg11 (by decide)).trans ((W18_of_ne m ρ c main_arg11 (by decide)).trans ((W17_keep m ρ c main_arg11 (by decide)).trans ((W16_of_ne m ρ c main_arg11 (by decide)).trans ((W15_keep m ρ c main_arg11 (by decide)).trans ((W14_of_ne m ρ c main_arg11 (by decide)).trans ((W13_keep m ρ c main_arg11 (by decide)).trans ((W12_of_ne m ρ c main_arg11 (by decide)).trans ((W11_keep m ρ c main_arg11 (by decide)).trans ((W10_of_ne m ρ c main_arg11 (by decide)).trans ((W9_keep m ρ c main_arg11 (by decide)).trans ((W8_of_ne m ρ c main_arg11 (by decide)).trans ((W7_keep m ρ c main_arg11 (by decide)).trans ((W6_of_ne m ρ c main_arg11 (by decide)).trans ((W5_keep m ρ c main_arg11 (by decide)).trans ((W4_of_ne m ρ c main_arg11 (by decide)).trans ((W3_keep m ρ c main_arg11 (by decide)).trans ((W2_of_ne m ρ c main_arg11 (by decide)).trans (W1_keep m ρ c main_arg11 (by decide))))))))))))))))))))))).trans rfl
theorem kW21_arg12 : W21 m ρ c (Proc.devRef .tc main_arg12) = m ((c.tc : Thread nD τ).loc main_arg12) :=
  (((W21_keep m ρ c main_arg12 (by decide)).trans ((W20_of_ne m ρ c main_arg12 (by decide)).trans ((W19_keep m ρ c main_arg12 (by decide)).trans ((W18_of_ne m ρ c main_arg12 (by decide)).trans ((W17_keep m ρ c main_arg12 (by decide)).trans ((W16_of_ne m ρ c main_arg12 (by decide)).trans ((W15_keep m ρ c main_arg12 (by decide)).trans ((W14_of_ne m ρ c main_arg12 (by decide)).trans ((W13_keep m ρ c main_arg12 (by decide)).trans ((W12_of_ne m ρ c main_arg12 (by decide)).trans ((W11_keep m ρ c main_arg12 (by decide)).trans ((W10_of_ne m ρ c main_arg12 (by decide)).trans ((W9_keep m ρ c main_arg12 (by decide)).trans ((W8_of_ne m ρ c main_arg12 (by decide)).trans ((W7_keep m ρ c main_arg12 (by decide)).trans ((W6_of_ne m ρ c main_arg12 (by decide)).trans ((W5_keep m ρ c main_arg12 (by decide)).trans ((W4_of_ne m ρ c main_arg12 (by decide)).trans ((W3_keep m ρ c main_arg12 (by decide)).trans ((W2_of_ne m ρ c main_arg12 (by decide)).trans (W1_keep m ρ c main_arg12 (by decide))))))))))))))))))))))).trans rfl
theorem kW21_arg13 : W21 m ρ c (Proc.devRef .tc main_arg13) = m ((c.tc : Thread nD τ).loc main_arg13) :=
  (((W21_keep m ρ c main_arg13 (by decide)).trans ((W20_of_ne m ρ c main_arg13 (by decide)).trans ((W19_keep m ρ c main_arg13 (by decide)).trans ((W18_of_ne m ρ c main_arg13 (by decide)).trans ((W17_keep m ρ c main_arg13 (by decide)).trans ((W16_of_ne m ρ c main_arg13 (by decide)).trans ((W15_keep m ρ c main_arg13 (by decide)).trans ((W14_of_ne m ρ c main_arg13 (by decide)).trans ((W13_keep m ρ c main_arg13 (by decide)).trans ((W12_of_ne m ρ c main_arg13 (by decide)).trans ((W11_keep m ρ c main_arg13 (by decide)).trans ((W10_of_ne m ρ c main_arg13 (by decide)).trans ((W9_keep m ρ c main_arg13 (by decide)).trans ((W8_of_ne m ρ c main_arg13 (by decide)).trans ((W7_keep m ρ c main_arg13 (by decide)).trans ((W6_of_ne m ρ c main_arg13 (by decide)).trans ((W5_keep m ρ c main_arg13 (by decide)).trans ((W4_of_ne m ρ c main_arg13 (by decide)).trans ((W3_keep m ρ c main_arg13 (by decide)).trans ((W2_of_ne m ρ c main_arg13 (by decide)).trans (W1_keep m ρ c main_arg13 (by decide))))))))))))))))))))))).trans rfl

end Cert.KernelIdeal.Hand

end
-- ==== Proof.KBodyA0.lean ====
/- The class-A half of region 0 of @main, the linear layer's kernel `cc0__linear_kernel`, at a PARAMETER `V` — the TensorCore's buffer contents when the
   region is entered —, generic in the float model: each window's block at a point (`iblk0`), the output buffer after
   the body as the canonical contents of its one whole-block store (`out0_3`), the body's triple (`sound_kernel0`),
   the proof data (`dat0`) and the body obligation (`body_obligation0`). The 3 inputs are read whole; inputs 1..2
   have a constant block index, so their buffers hold at every point the block fetched at the first. -/
import proofs.«172917_j75840532513057_2_alg».proof.Proof.Gen.Kernel.Launch
import proofs.«172917_j75840532513057_2_alg».proof.Proof.Gen.Kernel.Skeleton
import proofs.«172917_j75840532513057_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 0 of @main: the linear layer's kernel `cc0__linear_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each staging buffer is read, and the output's stored, whole -/
abbrev r0_0 : Rect S10000x7 := Rect.unit (s := S10000x7) ![0, 0] S10000x7.size inb_S10000x7_S10000x7_0_0
abbrev r0_1 : Rect S7x64 := Rect.unit (s := S7x64) ![0, 0] S7x64.size inb_S7x64_S7x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-- Window 3's staging buffer after the body, from the input windows' blocks: its one store, of the whole block. -/
def out0_3 (x0 : Vec F S10000x7 .f32) (x1 : Vec F S7x64 .f32) (x2 : Vec F S1x64 .f32) : Vec F S10000x64 .f32 :=
  View.canon [⟨r0_3, k0_pay1 (View.ld x0 r0_0) (View.ld x1 r0_1) (View.ld x2 r0_2)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s (`hA`) and whose body leaves the block in place (`hafter`): unfetched, the block index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s (`hA`) and whose body leaves the block in place (`hafter`): unfetched, the block index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Its one store is of the whole buffer, so it covers it (checked by evaluation). -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 1000000 in
/-- The kernel body on whole staging memrefs, the inputs' at read contents `xW` and the output's at anything, runs to
    the continuation holding the inputs' as they were and the output's at `out0_3` of the inputs': the printed function
    is its skeleton, which runs load by load (the output's buffer is loaded once, the value unused) to the one store. -/
theorem sound_kernel0 (c : Dev nD) (E : Set ℕ) (i : grid0.Coords) (arg1 : Memref sig .tc .vmem S10000x7 .f32) (harg1 : arg1.IsWhole) (arg2 : Memref sig .tc .vmem S7x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x7 .f32) (x1 : Vec F S7x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand
-- ==== Proof.KRunW0.lean ====
/- The buffer contents at the boundaries W0..W2 of @main's items, at any float model: a fold from the launch memory
   (a host stretch's `StableHlo.after`; a region's arrays at what its write-backs leave, every other buffer as
   entered), the two facts per region the exit rule takes, and what each item keeps. -/
import proofs.«172917_j75840532513057_2_alg».proof.Proof.Gen.Kernel.Launch
import proofs.«172917_j75840532513057_2_alg».proof.Proof.Gen.Kernel.Skeleton
import proofs.«172917_j75840532513057_2_alg».proof.Proof.Gen.Kernel.Points
import proofs.«172917_j75840532513057_2_alg».proof.Proof.Gen.Kernel.Regions
import proofs.«172917_j75840532513057_2_alg».proof.Proof.KBodyA0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The buffer contents at each boundary: a fold through @main -/

/-- Core `c`'s buffers at launch. -/
abbrev W0 (ρ : Dev nD → PrngReg) : Dev nD → Valuation τ sig (Elt F) := fun c b => m (c, b)

variable (ρ : Dev nD → PrngReg)

/-- After `hostOps0` (region 0's entry). -/
abbrev W1 : Dev nD → Valuation τ sig (Elt F) := fun c => StableHlo.after hostOps0 (W0 m ρ c)
/-- The same read at the TensorCore's references (what region 0's proof data take). -/
abbrev WV1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (WV1 m ρ) c).arrAt w cfg0.N
theorem W2_arr (c : Dev nD) (w : Fin cfg0.W) :
    W2 m ρ c (Proc.devRef .tc (Pipeline.arrRef spec0 w)) = (dat0 (WV1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev WV2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (WV1 m ρ) c).arrAt w cfg0.N = WV2 m ρ c (Pipeline.arrRef spec0 w) :=
  (W2_arr m ρ c w).symm
theorem hrest0 (c : Dev nD) : ∀ b, b ∉ Finset.univ.image (Pipeline.arrRef spec0) → WV2 m ρ c b = WV1 m ρ c b :=
  fun b hb => W2_of_ne m ρ c b fun w e => hb (Finset.mem_image.mpr ⟨w, Finset.mem_univ _, e⟩)

/-! ## What each item keeps: a buffer a host stretch does not write, an input array of a region (a buffer that is no
    array of a region: `W_of_ne` above) -/

/-- `hostOps0` keeps every buffer outside the list of those it writes. -/
theorem W1_keep (c : Dev nD) (r : Ref sig .tc) (h : r ∉ hostOps0_W) :
    W1 m ρ c (Proc.devRef .tc r) = W0 m ρ c (Proc.devRef .tc r) :=
  StableHlo.after_of_writes_sub hostOps0 _ hostOps0_writes h
/-- Region 0 keeps each of its input arrays. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (WV1 m ρ) c).arrAt_in w hin _).trans (A_eq0 (WV1 m ρ) c w))

end Cert.Kernel.Hand

end
-- ==== Proof.KBodyA1.lean ====
/- The class-A half of region 1 of @main, the linear layer's kernel `cc1__linear_kernel`, at a PARAMETER `V` — the TensorCore's buffer contents when the
   region is entered —, generic in the float model: each window's block at a point (`iblk1`), the output buffer after
   the body as the canonical contents of its one whole-block store (`out1_3`), the body's triple (`sound_kernel1`),
   the proof data (`dat1`) and the body obligation (`body_obligation1`). The 3 inputs are read whole; inputs 1..2
   have a constant block index, so their buffers hold at every point the block fetched at the first. -/
import proofs.«172917_j75840532513057_2_alg».proof.Proof.Gen.Kernel.Launch
import proofs.«172917_j75840532513057_2_alg».proof.Proof.Gen.Kernel.Skeleton
import proofs.«172917_j75840532513057_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 1 of @main: the linear layer's kernel `cc1__linear_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: each staging buffer is read, and the output's stored, whole -/
abbrev r1_0 : Rect S10000x5 := Rect.unit (s := S10000x5) ![0, 0] S10000x5.size inb_S10000x5_S10000x5_0_0
abbrev r1_1 : Rect S5x64 := Rect.unit (s := S5x64) ![0, 0] S5x64.size inb_S5x64_S5x64_0_0
abbrev r1_2 : Rect S1x64 := Rect.unit (s := S1x64) ![0, 0] S1x64.size inb_S1x64_S1x64_0_0
abbrev r1_3 : Rect S10000x64 := Rect.unit (s := S10000x64) ![0, 0] S10000x64.size inb_S10000x64_S10000x64_0_0

/-- Window 3's staging buffer after the body, from the input windows' blocks: its one store, of the whole block. -/
def out1_3 (x0 : Vec F S10000x5 .f32) (x1 : Vec F S5x64 .f32) (x2 : Vec F S1x64 .f32) : Vec F S10000x64 .f32 :=
  View.canon [⟨r1_3, k1_pay1 (View.ld x0 r1_0) (View.ld x1 r1_1) (View.ld x2 r1_2)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s (`hA`) and whose body leaves the block in place (`hafter`): unfetched, the block index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s (`hA`) and whose body leaves the block in place (`hafter`): unfetched, the block index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Its one store is of the whole buffer, so it covers it (checked by evaluation). -/
theorem cover1_3 (p0 : Vec F S10000x64 .f32) (y : S10000x64.Idx) :
    ∃ pc ∈ ([⟨r1_3, p0⟩] : List (View.Piece (Elt F) S10000x64 .f32)), y ∈ pc.1.set :=
  View.cover_of_tiled [⟨r1_3, p0⟩] S10000x64.size (by rfl) y

/-! ## The body's triple -/

set_option maxHeartbeats 1000000 in
/-- The kernel body on whole staging memrefs, the inputs' at read contents `xW` and the output's at anything, runs to
    the continuation holding the inputs' as they were and the output's at `out1_3` of the inputs': the printed function
    is its skeleton, which runs load by load (the output's buffer is loaded once, the value unused) to the one store. -/
theorem sound_kernel1 (c : Dev nD) (E : Set ℕ) (i : grid1.Coords) (arg1 : Memref sig .tc .vmem S10000x5 .f32) (harg1 : arg1.IsWhole) (arg2 : Memref sig .tc .vmem S5x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x5 .f32) (x1 : Vec F S5x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point `t`
    each input's buffer at its block and the output's at `out1_3` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand
-- ==== Proof.KBodyR2Runs.lean ====
import proofs.«172917_j75840532513057_2_alg».proof.Proof.Gen.Kernel.Launch
import proofs.«172917_j75840532513057_2_alg».proof.Proof.Gen.Kernel.Skeleton
import proofs.«172917_j75840532513057_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loads and stores through the whole of a rank-two buffer

Stated over an arbitrary extent vector: nothing here depends on the extents. -/

section Whole
variable {Val : EltTy → Type} [∀ e, Nonempty (Val e)] {sig' : RefSig} {κ' : Kind} {sp' : Space} {e : EltTy} {sz : Fin 2 → ℕ}

/-- The zero offsets of a whole-buffer access, as the constant function. -/
theorem b_zeros2 : (![0, 0] : Fin 2 → ℕ) = fun _ => 0 := by
  funext a; fin_cases a <;> rfl

/-- A piece through the whole buffer, first in a list of pieces, covers every index. -/
theorem b_cover (inb : ∀ a, (![0, 0] : Fin 2 → ℕ) a + sz a ≤ sz a) (w : (⟨2, sz⟩ : Shape).Idx → Val e)
    (L : List (View.Piece Val (⟨2, sz⟩ : Shape) e)) (y : (⟨2, sz⟩ : Shape).Idx) :
    ∃ p ∈ ((⟨Rect.unit (s := (⟨2, sz⟩ : Shape)) ![0, 0] sz inb, w⟩ : View.Piece Val (⟨2, sz⟩ : Shape) e) :: L), y ∈ p.1.set :=
  ⟨⟨Rect.unit (s := (⟨2, sz⟩ : Shape)) ![0, 0] sz inb, w⟩, List.mem_cons.mpr (Or.inl rfl),
    View.mem_set_unit_zero (S := (⟨2, sz⟩ : Shape)) b_zeros2 inb y⟩

/-- A load of the whole buffer reads its contents. -/
theorem b_ld (v : View sig' κ' sp' (⟨2, sz⟩ : Shape) e) (f : v.ty.Contents Val) (inb : ∀ a, (![0, 0] : Fin 2 → ℕ) a + sz a ≤ sz a) :
    v.readAt Val (Rect.unit (s := (⟨2, sz⟩ : Shape)) ![0, 0] sz inb).toLoadRect f = v.read Val f :=
  (View.readAt_eq_ld v f (Rect.unit (s := (⟨2, sz⟩ : Shape)) ![0, 0] sz inb)).trans
    (View.ld_unit_zero (S := (⟨2, sz⟩ : Shape)) b_zeros2 inb _)

/-- After a last store of the whole buffer it reads the stored value, whatever was stored before. -/
theorem b_st (v : View sig' κ' sp' (⟨2, sz⟩ : Shape) e) (f : v.ty.Contents Val) (inb : ∀ a, (![0, 0] : Fin 2 → ℕ) a + sz a ≤ sz a)
    (w : (⟨2, sz⟩ : Shape).Idx → Val e) (L : List (View.Piece Val (⟨2, sz⟩ : Shape) e)) :
    v.read Val (v.writes Val f ((⟨Rect.unit (s := (⟨2, sz⟩ : Shape)) ![0, 0] sz inb, w⟩ : View.Piece Val (⟨2, sz⟩ : Shape) e) :: L)) = w :=
  (View.read_writes_eq_canon v f _ (b_cover inb w L)).trans
    (View.canon_cons_unit_zero (S := (⟨2, sz⟩ : Shape)) b_zeros2 inb w L)

/-- A load of the whole buffer after a last store of the whole of it reads the stored value. -/
theorem b_rc (v : View sig' κ' sp' (⟨2, sz⟩ : Shape) e) (inb : ∀ a, (![0, 0] : Fin 2 → ℕ) a + sz a ≤ sz a)
    (w : (⟨2, sz⟩ : Shape).Idx → Val e) (L : List (View.Piece Val (⟨2, sz⟩ : Shape) e)) :
    v.readCov ((⟨Rect.unit (s := (⟨2, sz⟩ : Shape)) ![0, 0] sz inb, w⟩ : View.Piece Val (⟨2, sz⟩ : Shape) e) :: L)
        (Rect.unit (s := (⟨2, sz⟩ : Shape)) ![0, 0] sz inb).toLoadRect = w :=
  (View.readCov_eq_canon_ld v _ (Rect.unit (s := (⟨2, sz⟩ : Shape)) ![0, 0] sz inb) (b_cover inb w L)).trans
    ((congrArg (fun X => View.ld X (Rect.unit (s := (⟨2, sz⟩ : Shape)) ![0, 0] sz inb))
        (View.canon_cons_unit_zero (S := (⟨2, sz⟩ : Shape)) b_zeros2 inb w L)).trans
      (View.ld_unit_zero (S := (⟨2, sz⟩ : Shape)) b_zeros2 inb w))

end Whole

/-! ## The body's two conditions, in closed form over the grid -/

/-- The condition under which the accumulators are zeroed. -/
abbrev b_cond2_0 (i : grid2.Coords) : Prop := (Scalar.cmpi .ne (Scalar.extui (Scalar.cmpi .eq (BitVec.ofNat 32 (i 0).val) 0#32)) 0#32) = 1#1
/-- It holds at the first point only. -/
theorem b_hcond2_0 : ∀ t : Fin cfg2.N, b_cond2_0 (grid2.coords t) ↔ t.val = 0 :=
  (by decide +kernel : ∀ t : Fin grid2.N, b_cond2_0 (grid2.coords t) ↔ t.val = 0)
/-- The condition under which the accumulators are copied out. -/
abbrev b_cond2_1 (i : grid2.Coords) : Prop := k2_cond2 i = 1#1
/-- It holds at the last point only. -/
theorem b_hcond2_1 : ∀ t : Fin cfg2.N, b_cond2_1 (grid2.coords t) ↔ t.val = 4 :=
  (by decide +kernel : ∀ t : Fin grid2.N, b_cond2_1 (grid2.coords t) ↔ t.val = 4)

/-! ## Where the windows are idle -/

theorem b_live2_0 : ∀ t : Fin cfg2.N, cfg2.idle 0 (grid2.coords t) = false := by decide +kernel
theorem b_live2_1 : ∀ t : Fin cfg2.N, cfg2.idle 1 (grid2.coords t) = false := by decide +kernel
theorem b_live2_2 : ∀ t : Fin cfg2.N, cfg2.idle 2 (grid2.coords t) = false := by decide +kernel
theorem b_live2_3 : ∀ t : Fin cfg2.N, cfg2.idle 3 (grid2.coords t) = false := by decide +kernel
theorem b_live2_4 : ∀ t : Fin cfg2.N, cfg2.idle 4 (grid2.coords t) = false := by decide +kernel
theorem b_live2_5 : ∀ t : Fin cfg2.N, cfg2.idle 5 (grid2.coords t) = false := by decide +kernel
/-- Away from the last point output 6 is idle and not written back; at the last point it is live. -/
theorem b_idle2_6 : ∀ t : Fin cfg2.N, ¬b_cond2_1 (grid2.coords t) → cfg2.idle 6 (grid2.coords t) = true := by decide +kernel
theorem b_noFlush2_6 : ∀ t : Fin cfg2.N, ¬b_cond2_1 (grid2.coords t) → (cfg2.win 6).flush t = false := by decide +kernel
theorem b_live2_6 : ∀ t : Fin cfg2.N, b_cond2_1 (grid2.coords t) → cfg2.idle 6 (grid2.coords t) = false := by decide +kernel
/-- Away from the last point output 7 is idle and not written back; at the last point it is live. -/
theorem b_idle2_7 : ∀ t : Fin cfg2.N, ¬b_cond2_1 (grid2.coords t) → cfg2.idle 7 (grid2.coords t) = true := by decide +kernel
theorem b_noFlush2_7 : ∀ t : Fin cfg2.N, ¬b_cond2_1 (grid2.coords t) → (cfg2.win 7).flush t = false := by decide +kernel
theorem b_live2_7 : ∀ t : Fin cfg2.N, b_cond2_1 (grid2.coords t) → cfg2.idle 7 (grid2.coords t) = false := by decide +kernel

/-! ## The kernel body on any whole memrefs, case by case -/

set_option maxHeartbeats 1000000 in
/-- At the first point: the accumulators, at anything, are zeroed, and each then takes the block's column sums; the
    block of output 5 is stored whole; outputs 6 and 7 are not touched. -/
theorem b_run2_first (c : Dev nD) (E : Set ℕ) (i : grid2.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : b_cond2_0 i) (hc1 : ¬b_cond2_1 i) (x0 : Vec F S10000x64 .f32) (x1 : Vec F S64x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4)
            ∗ owns (c : Thread nD τ) arg9 fullShare (k2_pay5 x0 x1 x2 x3 x4 k2_pay2) ∗ owns (c : Thread nD τ) arg10 fullShare (k2_pay1 (k2_pay4 x0 x1 x2 x3 x4) k2_pay3)) -∗ K ⟨⟩))
      ⊢ wp frame (wpE (defs₀ (F := F)) Variants.none c none) E (cc2__mlp_pass1_kernel i arg1 harg1 arg2 harg2 arg3 harg3 arg4 harg4 arg5 harg5 arg6 harg6 arg7 harg7 arg8 harg8 arg9 harg9 arg10 harg10) K := by
  simp only [cc2__mlp_pass1_kernel_eq_skeleton]; unfold cc2__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At a middle point: each accumulator, at what the points before left, takes the block's column sums; the block of
    output 5 is stored whole; outputs 6 and 7 are not touched. -/
theorem b_run2_mid (c : Dev nD) (E : Set ℕ) (i : grid2.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond2_0 i) (hc1 : ¬b_cond2_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4)
            ∗ owns (c : Thread nD τ) arg9 fullShare (k2_pay5 x0 x1 x2 x3 x4 xs9) ∗ owns (c : Thread nD τ) arg10 fullShare (k2_pay1 (k2_pay4 x0 x1 x2 x3 x4) xs10)) -∗ K ⟨⟩))
      ⊢ wp frame (wpE (defs₀ (F := F)) Variants.none c none) E (cc2__mlp_pass1_kernel i arg1 harg1 arg2 harg2 arg3 harg3 arg4 harg4 arg5 harg5 arg6 harg6 arg7 harg7 arg8 harg8 arg9 harg9 arg10 harg10) K := by
  simp only [cc2__mlp_pass1_kernel_eq_skeleton]; unfold cc2__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At the last point: as at a middle point, and then the two accumulators are copied whole into outputs 6 and 7. -/
theorem b_run2_last (c : Dev nD) (E : Set ℕ) (i : grid2.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond2_0 i) (hc1 : b_cond2_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay4 x0 x1 x2 x3 x4)
            ∗ owns (c : Thread nD τ) arg7 fullShare (k2_pay5 x0 x1 x2 x3 x4 xs9) ∗ owns (c : Thread nD τ) arg8 fullShare (k2_pay1 (k2_pay4 x0 x1 x2 x3 x4) xs10)
            ∗ owns (c : Thread nD τ) arg9 fullShare (k2_pay5 x0 x1 x2 x3 x4 xs9) ∗ owns (c : Thread nD τ) arg10 fullShare (k2_pay1 (k2_pay4 x0 x1 x2 x3 x4) xs10)) -∗ K ⟨⟩))
      ⊢ wp frame (wpE (defs₀ (F := F)) Variants.none c none) E (cc2__mlp_pass1_kernel i arg1 harg1 arg2 harg2 arg3 harg3 arg4 harg4 arg5 harg5 arg6 harg6 arg7 harg7 arg8 harg8 arg9 harg9 arg10 harg10) K := by
  simp only [cc2__mlp_pass1_kernel_eq_skeleton]; unfold cc2__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%d8, %f8, -, H8⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H7]
  · iexists _; isplitr
    swap; · iexact H7
    ipureintro; sl_unfold_run_names
    simp only [b_ld, b_st, b_rc]
  isplitl [H8]
  · iexists _; isplitr
    swap; · iexact H8
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

end Cert.Kernel.Hand

end
-- ==== Proof.KBodyR2.lean ====
import proofs.«172917_j75840532513057_2_alg».proof.Proof.KBodyR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 2: the windows' blocks, the two accumulators point by point, the proof data -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators (column sums, column sums of squares) after `n` points: zero before the first, then each
    point adds its block's column sums. -/
def scr2 (c : Dev nD) : (n : ℕ) → n ≤ cfg2.N → Vec F S1x64 .f32 × Vec F S1x64 .f32
  | 0, _ => (k2_pay2, k2_pay3)
  | n + 1, hn =>
    (k2_pay5 (iblk2 V c 0 ⟨n, hn⟩) (iblk2 V c 1 ⟨n, hn⟩) (iblk2 V c 2 ⟨n, hn⟩) (iblk2 V c 3 ⟨n, hn⟩) (iblk2 V c 4 ⟨n, hn⟩) (scr2 c n (Nat.le_of_succ_le hn)).1,
     k2_pay1 (k2_pay4 (iblk2 V c 0 ⟨n, hn⟩) (iblk2 V c 1 ⟨n, hn⟩) (iblk2 V c 2 ⟨n, hn⟩) (iblk2 V c 3 ⟨n, hn⟩) (iblk2 V c 4 ⟨n, hn⟩)) (scr2 c n (Nat.le_of_succ_le hn)).2)

theorem scr2_zero (c : Dev nD) (h : 0 ≤ cfg2.N) : scr2 V c 0 h = (k2_pay2, k2_pay3) := rfl

theorem scr2_succ (c : Dev nD) (n : ℕ) (hn : n + 1 ≤ cfg2.N) :
    scr2 V c (n + 1) hn =
      (k2_pay5 (iblk2 V c 0 ⟨n, hn⟩) (iblk2 V c 1 ⟨n, hn⟩) (iblk2 V c 2 ⟨n, hn⟩) (iblk2 V c 3 ⟨n, hn⟩) (iblk2 V c 4 ⟨n, hn⟩) (scr2 V c n (Nat.le_of_succ_le hn)).1,
       k2_pay1 (k2_pay4 (iblk2 V c 0 ⟨n, hn⟩) (iblk2 V c 1 ⟨n, hn⟩) (iblk2 V c 2 ⟨n, hn⟩) (iblk2 V c 3 ⟨n, hn⟩) (iblk2 V c 4 ⟨n, hn⟩)) (scr2 V c n (Nat.le_of_succ_le hn)).2) := rfl

/-- The two scratch operands, whole scoped buffers of the kernel's own. -/
abbrev scM2_0 : Memref sig .tc .vmem S1x64 .f32 := Memref.whole cc2_scratch0
abbrev scM2_1 : Memref sig .tc .vmem S1x64 .f32 := Memref.whole cc2_scratch1

/-- The region invariant before position `n`: before the first point the class's; afterwards the two accumulators
    at what the points so far left in them, the other scoped buffers unopened, the generator register at some state. -/
def b_PhiS2 (c : Dev nD) : (n : ℕ) → n ≤ cfg2.N → sProp 𝕄
  | 0, _ => Pipeline.ΦA spec2 c
  | n + 1, hn => iprop(iprop(iprop(owns (c : Thread nD τ) scM2_0 fullShare (scr2 V c (n + 1) hn).1 ∗ owns (c : Thread nD τ) scM2_1 fullShare (scr2 V c (n + 1) hn).2)
      ∗ Pipeline.scopedRestBut (Ix := Unit) (Name := ℕ) (U := UR sig nD τ) (Lvl := ℕ) (Val := Elt F) spec2 c [cc2_scratch0, cc2_scratch1]) ∗ (∃ r, prngReg c r))

/-- The proof data of the region's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay4 (iblk2 V c 0 t) (iblk2 V c 1 t) (iblk2 V c 2 t) (iblk2 V c 3 t) (iblk2 V c 4 t)
    | ⟨6, _⟩ => (scr2 V c (t.val + 1) t.isLt).1
    | ⟨7, _⟩ => (scr2 V c (t.val + 1) t.isLt).2
  Φ t := b_PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = k2_pay4 (iblk2 V c 0 t) (iblk2 V c 1 t) (iblk2 V c 2 t) (iblk2 V c 3 t) (iblk2 V c 4 t) := by dsimp only [dat2]
/-- At every point, what the proof data names for windows 6 and 7 is the accumulators' contents after it. -/
theorem b_after2_6 (c : Dev nD) (t : Fin cfg2.N) : (dat2 V c).after 6 t = (scr2 V c (t.val + 1) t.isLt).1 := by dsimp only [dat2]
theorem b_after2_7 (c : Dev nD) (t : Fin cfg2.N) : (dat2 V c).after 7 t = (scr2 V c (t.val + 1) t.isLt).2 := by dsimp only [dat2]
/-- At the last point (the one that stores them) they are the accumulators after all five points. -/
theorem after2_6 (c : Dev nD) (t : Fin cfg2.N) (h : t.val = 4) : (dat2 V c).after 6 t = (scr2 V c 5 (le_of_eq N_2.symm)).1 := by
  rw [b_after2_6]; obtain ⟨n, hn⟩ := t; dsimp only at h; subst h; rfl
theorem after2_7 (c : Dev nD) (t : Fin cfg2.N) (h : t.val = 4) : (dat2 V c).after 7 t = (scr2 V c 5 (le_of_eq N_2.symm)).2 := by
  rw [b_after2_7]; obtain ⟨n, hn⟩ := t; dsimp only at h; subst h; rfl

/-! ## What the inputs' staging buffers hold -/

theorem b_before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem b_before2_0 (c : Dev nD) (t : Fin cfg2.N) (d) : (dat2 V c).before 0 t d = iblk2 V c 0 t :=
  b_before2_0_of V (dat2 V c) (A_eq2 V c 0) (after2_0 V c) t d

theorem b_before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem b_before2_1 (c : Dev nD) (t : Fin cfg2.N) (d) : (dat2 V c).before 1 t d = iblk2 V c 1 t :=
  b_before2_1_of V (dat2 V c) (A_eq2 V c 1) (after2_1 V c) t d

theorem b_before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem b_before2_2 (c : Dev nD) (t : Fin cfg2.N) (d) : (dat2 V c).before 2 t d = iblk2 V c 2 t :=
  b_before2_2_of V (dat2 V c) (A_eq2 V c 2) (after2_2 V c) t d

theorem b_before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem b_before2_3 (c : Dev nD) (t : Fin cfg2.N) (d) : (dat2 V c).before 3 t d = iblk2 V c 3 t :=
  b_before2_3_of V (dat2 V c) (A_eq2 V c 3) (after2_3 V c) t d

theorem b_before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem b_before2_4 (c : Dev nD) (t : Fin cfg2.N) (d) : (dat2 V c).before 4 t d = iblk2 V c 4 t :=
  b_before2_4_of V (dat2 V c) (A_eq2 V c 4) (after2_4 V c) t d

/-! ## The region invariant, opened -/

/-- The class's invariant with the two accumulators as memrefs owned at some contents, the other scoped buffers unopened. -/
theorem b_PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

theorem b_PhiS2_zero (c : Dev nD) (n : ℕ) (h : n ≤ cfg2.N) (hz : n = 0) : b_PhiS2 V c n h = Pipeline.ΦA spec2 c := by
  subst hz; rfl

/-- Before a point that is not the first: the accumulators at what the points before left. -/
theorem b_PhiS2_pos (c : Dev nD) (n : ℕ) (h : n ≤ cfg2.N) (hz : n ≠ 0) :
    b_PhiS2 V c n h = iprop(iprop(iprop(owns (c : Thread nD τ) scM2_0 fullShare (scr2 V c n h).1 ∗ owns (c : Thread nD τ) scM2_1 fullShare (scr2 V c n h).2)
        ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-- After point `n` (before point `n + 1`): the accumulators at that point's contents. -/
theorem b_PhiS2_succ (c : Dev nD) (n : ℕ) (hn : n + 1 ≤ cfg2.N) :
    b_PhiS2 V c (n + 1) hn = iprop(iprop(iprop(owns (c : Thread nD τ) scM2_0 fullShare (scr2 V c (n + 1) hn).1 ∗ owns (c : Thread nD τ) scM2_1 fullShare (scr2 V c (n + 1) hn).2)
        ∗ Pipeline.scopedRestBut (Ix := Unit) (Name := ℕ) (U := UR sig nD τ) (Lvl := ℕ) (Val := Elt F) spec2 c [cc2_scratch0, cc2_scratch1]) ∗ (∃ r, prngReg c r)) := rfl

theorem b_PhiS2_castSucc (c : Dev nD) (t : Fin cfg2.N) :
    (dat2 V c).Φ t.castSucc = b_PhiS2 V c t.val (Nat.le_of_lt t.isLt) := by
  dsimp only [dat2]; simp only [Fin.coe_castSucc]

/-- The accumulators after point `t`, from what they held before it. -/
theorem b_scr2_at (c : Dev nD) (t : Fin cfg2.N) :
    scr2 V c (t.val + 1) t.isLt
      = (k2_pay5 (iblk2 V c 0 t) (iblk2 V c 1 t) (iblk2 V c 2 t) (iblk2 V c 3 t) (iblk2 V c 4 t) (scr2 V c t.val (Nat.le_of_lt t.isLt)).1,
         k2_pay1 (k2_pay4 (iblk2 V c 0 t) (iblk2 V c 1 t) (iblk2 V c 2 t) (iblk2 V c 3 t) (iblk2 V c 4 t)) (scr2 V c t.val (Nat.le_of_lt t.isLt)).2) := rfl

/-- After the first point: from zero. -/
theorem b_scr2_at_first (c : Dev nD) (t : Fin cfg2.N) (h0 : t.val = 0) :
    scr2 V c (t.val + 1) t.isLt
      = (k2_pay5 (iblk2 V c 0 t) (iblk2 V c 1 t) (iblk2 V c 2 t) (iblk2 V c 3 t) (iblk2 V c 4 t) k2_pay2, k2_pay1 (k2_pay4 (iblk2 V c 0 t) (iblk2 V c 1 t) (iblk2 V c 2 t) (iblk2 V c 3 t) (iblk2 V c 4 t)) k2_pay3) := by
  obtain ⟨n, hn⟩ := t; dsimp only at h0; subst h0; rfl

/-! ## The body obligation, at a generic point -/

/-- What the body is called with at point `t`, -/
def b_bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def b_bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' memrefs hold their blocks; the closed forms say which of the three cases the point is
    in; the invariant hands the body the accumulators at what the points before left (at anything at the first point) and
    takes them back at this point's contents; outputs 6 and 7 are handed back untouched except at the last point. -/
theorem b_sound_body2 (c : Dev nD) (t : Fin cfg2.N) :
    b_bodyPre2 V c t ⊢ wp frame (wpE (defs₀ (F := F)) Variants.none c none) Set.univ (bodyAt2 t) (fun _ => b_bodyPost2 V c t) := by
  unfold b_bodyPre2 b_bodyPost2 bodyAt2
  simp only [b_before2_0, b_before2_1, b_before2_2, b_before2_3, b_before2_4]
  rw [show (dat2 V c).owesAt () t.succ = (dat2 V c).owesAt () t.castSucc from rfl]
  rw [show (dat2 V c).Φ t.succ = b_PhiS2 V c (t.val + 1) t.isLt from rfl, b_PhiS2_succ]
  rw [show (dat2 V c).leavesExact 0 t = owns (c : Thread nD τ) (st2_0 t) fullShare ((dat2 V c).after 0 t) from by
    unfold Dat.leavesExact; rw [b_live2_0 t], after2_0]
  rw [show (dat2 V c).leavesExact 1 t = owns (c : Thread nD τ) (st2_1 t) fullShare ((dat2 V c).after 1 t) from by
    unfold Dat.leavesExact; rw [b_live2_1 t], after2_1]
  rw [show (dat2 V c).leavesExact 2 t = owns (c : Thread nD τ) (st2_2 t) fullShare ((dat2 V c).after 2 t) from by
    unfold Dat.leavesExact; rw [b_live2_2 t], after2_2]
  rw [show (dat2 V c).leavesExact 3 t = owns (c : Thread nD τ) (st2_3 t) fullShare ((dat2 V c).after 3 t) from by
    unfold Dat.leavesExact; rw [b_live2_3 t], after2_3]
  rw [show (dat2 V c).leavesExact 4 t = owns (c : Thread nD τ) (st2_4 t) fullShare ((dat2 V c).after 4 t) from by
    unfold Dat.leavesExact; rw [b_live2_4 t], after2_4]
  rw [show (dat2 V c).leavesExact 5 t = owns (c : Thread nD τ) (st2_5 t) fullShare ((dat2 V c).after 5 t) from by
    unfold Dat.leavesExact; rw [b_live2_5 t], after2_5]
  by_cases h0 : t.val = 0
  · have h1 : ¬t.val = 4 := by omega
    rw [Dat.leavesExact_idle (dat2 V c) 6 t (b_idle2_6 t (fun h => h1 ((b_hcond2_1 t).mp h))) (b_noFlush2_6 t (fun h => h1 ((b_hcond2_1 t).mp h)))]
    rw [Dat.leavesExact_idle (dat2 V c) 7 t (b_idle2_7 t (fun h => h1 ((b_hcond2_1 t).mp h))) (b_noFlush2_7 t (fun h => h1 ((b_hcond2_1 t).mp h)))]
    rw [b_scr2_at_first V c t h0]; (try dsimp only)
    rw [b_PhiS2_castSucc V c t, b_PhiS2_zero V c _ _ h0, b_PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
    iapply (b_run2_first c Set.univ (grid2.coords t) _ _ _ _ _ _ _ _ _ _ _ _ _ _ _ _ _ _ _ _ ((b_hcond2_0 t).mpr h0) (fun h => h1 ((b_hcond2_1 t).mp h))
      (iblk2 V c 0 t) (iblk2 V c 1 t) (iblk2 V c 2 t) (iblk2 V c 3 t) (iblk2 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val = 4
    · rw [show (dat2 V c).leavesExact 6 t = owns (c : Thread nD τ) (st2_6 t) fullShare ((dat2 V c).after 6 t) from by
        unfold Dat.leavesExact; rw [b_live2_6 t ((b_hcond2_1 t).mpr h1)], b_after2_6]
      rw [show (dat2 V c).leavesExact 7 t = owns (c : Thread nD τ) (st2_7 t) fullShare ((dat2 V c).after 7 t) from by
        unfold Dat.leavesExact; rw [b_live2_7 t ((b_hcond2_1 t).mpr h1)], b_after2_7]
      rw [b_scr2_at V c t]; (try dsimp only)
      rw [b_PhiS2_castSucc V c t, b_PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (b_run2_last c Set.univ (grid2.coords t) _ _ _ _ _ _ _ _ _ _ _ _ _ _ _ _ _ _ _ _ (fun h => h0 ((b_hcond2_0 t).mp h)) ((b_hcond2_1 t).mpr h1)
        (iblk2 V c 0 t) (iblk2 V c 1 t) (iblk2 V c 2 t) (iblk2 V c 3 t) (iblk2 V c 4 t) (scr2 V c t.val (Nat.le_of_lt t.isLt)).1 (scr2 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat2 V c) 6 t (b_idle2_6 t (fun h => h1 ((b_hcond2_1 t).mp h))) (b_noFlush2_6 t (fun h => h1 ((b_hcond2_1 t).mp h)))]
      rw [Dat.leavesExact_idle (dat2 V c) 7 t (b_idle2_7 t (fun h => h1 ((b_hcond2_1 t).mp h))) (b_noFlush2_7 t (fun h => h1 ((b_hcond2_1 t).mp h)))]
      rw [b_scr2_at V c t]; (try dsimp only)
      rw [b_PhiS2_castSucc V c t, b_PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
      iapply (b_run2_mid c Set.univ (grid2.coords t) _ _ _ _ _ _ _ _ _ _ _ _ _ _ _ _ _ _ _ _ (fun h => h0 ((b_hcond2_0 t).mp h)) (fun h => h1 ((b_hcond2_1 t).mp h))
        (iblk2 V c 0 t) (iblk2 V c 1 t) (iblk2 V c 2 t) (iblk2 V c 3 t) (iblk2 V c 4 t) (scr2 V c t.val (Nat.le_of_lt t.isLt)).1 (scr2 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation2 (c : Dev nD) : BodyObligation (dat2 (F := F) V c) (defs₀ (F := F)) Variants.none () Set.univ := fun t => by
  rw [bigSep_W2, bigSep_W2]
  exact b_sound_body2 V c t

/-- What the launch hands the region is the invariant before the first point. -/
theorem enter2 (c : Dev nD) : Pipeline.ΦA spec2 c ⊢ (dat2 V c).Φ 0 := by
  rw [show (dat2 V c).Φ 0 = b_PhiS2 V c 0 (Nat.zero_le _) from rfl, b_PhiS2_zero V c 0 _ rfl]
  try exact Idealize.SL.BI.Entails.refl _

/-- After the last point the invariant gives the class's back: the accumulators' named contents are forgotten. -/
theorem leave2 (c : Dev nD) : (dat2 V c).Φ (Fin.last cfg2.N) ⊢ Pipeline.ΦA spec2 c := by
  rw [show (dat2 V c).Φ (Fin.last cfg2.N) = b_PhiS2 V c (Fin.last cfg2.N).val (Nat.le_of_lt_succ (Fin.last cfg2.N).isLt) from rfl,
    b_PhiS2_pos V c _ _ (by rw [Fin.val_last]; have : cfg2.N = 5 := N_2; omega), b_PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.Kernel.Hand

end
-- ==== Proof.KBodyA3.lean ====
/- The class-A half of region 3 of @main, the batch-normalisation kernel `cc3__bn_act_kernel`, at a PARAMETER `V` — the TensorCore's buffer contents when the
   region is entered —, generic in the float model: each window's block at a point (`iblk3`), the output buffer after
   the body as the canonical contents of its one whole-block store (`out3_5`), the body's triple (`sound_kernel3`),
   the proof data (`dat3`) and the body obligation (`body_obligation3`). The 5 inputs are read whole; inputs 1..4
   have a constant block index, so their buffers hold at every point the block fetched at the first. -/
import proofs.«172917_j75840532513057_2_alg».proof.Proof.Gen.Kernel.Launch
import proofs.«172917_j75840532513057_2_alg».proof.Proof.Gen.Kernel.Skeleton
import proofs.«172917_j75840532513057_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 3 of @main: the batch-normalisation kernel `cc3__bn_act_kernel` (pipeline 3), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each staging buffer is read, and the output's stored, whole -/
abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0
abbrev r3_2 : Rect S1x64 := Rect.unit (s := S1x64) ![0, 0] S1x64.size inb_S1x64_S1x64_0_0
abbrev r3_3 : Rect S1x64 := Rect.unit (s := S1x64) ![0, 0] S1x64.size inb_S1x64_S1x64_0_0
abbrev r3_4 : Rect S1x64 := Rect.unit (s := S1x64) ![0, 0] S1x64.size inb_S1x64_S1x64_0_0
abbrev r3_5 : Rect S10000x64 := Rect.unit (s := S10000x64) ![0, 0] S10000x64.size inb_S10000x64_S10000x64_0_0

/-- Window 5's staging buffer after the body, from the input windows' blocks: its one store, of the whole block. -/
def out3_5 (x0 : Vec F S10000x64 .f32) (x1 : Vec F S1x64 .f32) (x2 : Vec F S1x64 .f32) (x3 : Vec F S1x64 .f32) (x4 : Vec F S1x64 .f32) : Vec F S10000x64 .f32 :=
  View.canon [⟨r3_5, k3_pay1 (View.ld x0 r3_0) (View.ld x1 r3_1) (View.ld x2 r3_2) (View.ld x3 r3_3) (View.ld x4 r3_4)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data
    whose array is `V`'s (`hA`) and whose body leaves the block in place (`hafter`): unfetched, the block index has
    not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data
    whose array is `V`'s (`hA`) and whose body leaves the block in place (`hafter`): unfetched, the block index has
    not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data
    whose array is `V`'s (`hA`) and whose body leaves the block in place (`hafter`): unfetched, the block index has
    not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data
    whose array is `V`'s (`hA`) and whose body leaves the block in place (`hafter`): unfetched, the block index has
    not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Its one store is of the whole buffer, so it covers it (checked by evaluation). -/
theorem cover3_5 (p0 : Vec F S10000x64 .f32) (y : S10000x64.Idx) :
    ∃ pc ∈ ([⟨r3_5, p0⟩] : List (View.Piece (Elt F) S10000x64 .f32)), y ∈ pc.1.set :=
  View.cover_of_tiled [⟨r3_5, p0⟩] S10000x64.size (by rfl) y

/-! ## The body's triple -/

set_option maxHeartbeats 1000000 in
/-- The kernel body on whole staging memrefs, the inputs' at read contents `xW` and the output's at anything, runs to
    the continuation holding the inputs' as they were and the output's at `out3_5` of the inputs': the printed function
    is its skeleton, which runs load by load (the output's buffer is loaded once, the value unused) to the one store. -/
theorem sound_kernel3 (c : Dev nD) (E : Set ℕ) (i : grid3.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__bn_act_kernel i arg1 harg1 arg2 harg2 arg3 harg3 arg4 harg4 arg5 harg5 arg6 harg6) K := by
  simp only [cc3__bn_act_kernel_eq_skeleton]; unfold cc3__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at point `t`
    each input's buffer at its block and the output's at `out3_5` of the input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand
-- ==== Proof.KRunW1.lean ====
/- The buffer contents at the boundaries W3..W8 of @main's items, at any float model: a fold from the launch memory
   (a host stretch's `StableHlo.after`; a region's arrays at what its write-backs leave, every other buffer as
   entered), the two facts per region the exit rule takes, and what each item keeps. -/
import proofs.«172917_j75840532513057_2_alg».proof.Proof.KRunW0
import proofs.«172917_j75840532513057_2_alg».proof.Proof.KBodyA1
import proofs.«172917_j75840532513057_2_alg».proof.Proof.KBodyR2
import proofs.«172917_j75840532513057_2_alg».proof.Proof.KBodyA3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- After `hostOps1` (region 1's entry). -/
abbrev W3 : Dev nD → Valuation τ sig (Elt F) := fun c => StableHlo.after hostOps1 (W2 m ρ c)
/-- The same read at the TensorCore's references (what region 1's proof data take). -/
abbrev WV3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (WV3 m ρ) c).arrAt w cfg1.N
theorem W4_arr (c : Dev nD) (w : Fin cfg1.W) :
    W4 m ρ c (Proc.devRef .tc (Pipeline.arrRef spec1 w)) = (dat1 (WV3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev WV4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (WV3 m ρ) c).arrAt w cfg1.N = WV4 m ρ c (Pipeline.arrRef spec1 w) :=
  (W4_arr m ρ c w).symm
theorem hrest1 (c : Dev nD) : ∀ b, b ∉ Finset.univ.image (Pipeline.arrRef spec1) → WV4 m ρ c b = WV3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev WV5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (WV5 m ρ) c).arrAt w cfg2.N
theorem W6_arr (c : Dev nD) (w : Fin cfg2.W) :
    W6 m ρ c (Proc.devRef .tc (Pipeline.arrRef spec2 w)) = (dat2 (WV5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev WV6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (WV5 m ρ) c).arrAt w cfg2.N = WV6 m ρ c (Pipeline.arrRef spec2 w) :=
  (W6_arr m ρ c w).symm
theorem hrest2 (c : Dev nD) : ∀ b, b ∉ Finset.univ.image (Pipeline.arrRef spec2) → WV6 m ρ c b = WV5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev WV7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (WV7 m ρ) c).arrAt w cfg3.N
theorem W8_arr (c : Dev nD) (w : Fin cfg3.W) :
    W8 m ρ c (Proc.devRef .tc (Pipeline.arrRef spec3 w)) = (dat3 (WV7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev WV8 : (c : Dev nD) → (b : Ref sig .tc) → Buf (Elt F) ((c : Thread nD τ).loc b) := fun c b => W8 m ρ c b
/-- At region 3's exit each of its arrays holds what the pipeline leaves and every other buffer what it held at entry. -/
theorem hF3 (c : Dev nD) (w : Fin cfg3.W) : (dat3 (WV7 m ρ) c).arrAt w cfg3.N = WV8 m ρ c (Pipeline.arrRef spec3 w) :=
  (W8_arr m ρ c w).symm
theorem hrest3 (c : Dev nD) : ∀ b, b ∉ Finset.univ.image (Pipeline.arrRef spec3) → WV8 m ρ c b = WV7 m ρ c b :=
  fun b hb => W8_of_ne m ρ c b fun w e => hb (Finset.mem_image.mpr ⟨w, Finset.mem_univ _, e⟩)

/-! ## What each item keeps: a buffer a host stretch does not write, an input array of a region (a buffer that is no
    array of a region: `W_of_ne` above) -/

/-- `hostOps1` keeps every buffer outside the list of those it writes. -/
theorem W3_keep (c : Dev nD) (r : Ref sig .tc) (h : r ∉ hostOps1_W) :
    W3 m ρ c (Proc.devRef .tc r) = W2 m ρ c (Proc.devRef .tc r) :=
  StableHlo.after_of_writes_sub hostOps1 _ hostOps1_writes h
/-- Region 1 keeps each of its input arrays. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (WV3 m ρ) c).arrAt_in w hin _).trans (A_eq1 (WV3 m ρ) c w))

/-- `hostOps2` keeps every buffer outside the list of those it writes. -/
theorem W5_keep (c : Dev nD) (r : Ref sig .tc) (h : r ∉ hostOps2_W) :
    W5 m ρ c (Proc.devRef .tc r) = W4 m ρ c (Proc.devRef .tc r) :=
  StableHlo.after_of_writes_sub hostOps2 _ hostOps2_writes h
/-- Region 2 keeps each of its input arrays. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (WV5 m ρ) c).arrAt_in w hin _).trans (A_eq2 (WV5 m ρ) c w))

/-- `hostOps3` keeps every buffer outside the list of those it writes. -/
theorem W7_keep (c : Dev nD) (r : Ref sig .tc) (h : r ∉ hostOps3_W) :
    W7 m ρ c (Proc.devRef .tc r) = W6 m ρ c (Proc.devRef .tc r) :=
  StableHlo.after_of_writes_sub hostOps3 _ hostOps3_writes h
/-- Region 3 keeps each of its input arrays. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (WV7 m ρ) c).arrAt_in w hin _).trans (A_eq3 (WV7 m ρ) c w))

end Cert.Kernel.Hand

end
-- ==== Proof.KBodyA4.lean ====
/- The class-A half of region 4 of @main, the linear layer's kernel `cc4__linear_kernel`, at a PARAMETER `V` — the TensorCore's buffer contents when the
   region is entered —, generic in the float model: each window's block at a point (`iblk4`), the output buffer after
   the body as the canonical contents of its one whole-block store (`out4_3`), the body's triple (`sound_kernel4`),
   the proof data (`dat4`) and the body obligation (`body_obligation4`). The 3 inputs are read whole; inputs 1..2
   have a constant block index, so their buffers hold at every point the block fetched at the first. -/
import proofs.«172917_j75840532513057_2_alg».proof.Proof.Gen.Kernel.Launch
import proofs.«172917_j75840532513057_2_alg».proof.Proof.Gen.Kernel.Skeleton
import proofs.«172917_j75840532513057_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 4 of @main: the linear layer's kernel `cc4__linear_kernel` (pipeline 4), at the entry contents `V` -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: each staging buffer is read, and the output's stored, whole -/
abbrev r4_0 : Rect S10000x5 := Rect.unit (s := S10000x5) ![0, 0] S10000x5.size inb_S10000x5_S10000x5_0_0
abbrev r4_1 : Rect S5x64 := Rect.unit (s := S5x64) ![0, 0] S5x64.size inb_S5x64_S5x64_0_0
abbrev r4_2 : Rect S1x64 := Rect.unit (s := S1x64) ![0, 0] S1x64.size inb_S1x64_S1x64_0_0
abbrev r4_3 : Rect S10000x64 := Rect.unit (s := S10000x64) ![0, 0] S10000x64.size inb_S10000x64_S10000x64_0_0

/-- Window 3's staging buffer after the body, from the input windows' blocks: its one store, of the whole block. -/
def out4_3 (x0 : Vec F S10000x5 .f32) (x1 : Vec F S5x64 .f32) (x2 : Vec F S1x64 .f32) : Vec F S10000x64 .f32 :=
  View.canon [⟨r4_3, k4_pay1 (View.ld x0 r4_0) (View.ld x1 r4_1) (View.ld x2 r4_2)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is `V`'s (`hA`) and whose body leaves the block in place (`hafter`): unfetched, the block index has
    not moved; the window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is `V`'s (`hA`) and whose body leaves the block in place (`hafter`): unfetched, the block index has
    not moved; the window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Its one store is of the whole buffer, so it covers it (checked by evaluation). -/
theorem cover4_3 (p0 : Vec F S10000x64 .f32) (y : S10000x64.Idx) :
    ∃ pc ∈ ([⟨r4_3, p0⟩] : List (View.Piece (Elt F) S10000x64 .f32)), y ∈ pc.1.set :=
  View.cover_of_tiled [⟨r4_3, p0⟩] S10000x64.size (by rfl) y

/-! ## The body's triple -/

set_option maxHeartbeats 1000000 in
/-- The kernel body on whole staging memrefs, the inputs' at read contents `xW` and the output's at anything, runs to
    the continuation holding the inputs' as they were and the output's at `out4_3` of the inputs': the printed function
    is its skeleton, which runs load by load (the output's buffer is loaded once, the value unused) to the one store. -/
theorem sound_kernel4 (c : Dev nD) (E : Set ℕ) (i : grid4.Coords) (arg1 : Memref sig .tc .vmem S10000x5 .f32) (harg1 : arg1.IsWhole) (arg2 : Memref sig .tc .vmem S5x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x5 .f32) (x1 : Vec F S5x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point `t`
    each input's buffer at its block and the output's at `out4_3` of the input blocks; the invariant is the scoped
    rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.Kernel.Hand
-- ==== Proof.KBodyR5Runs.lean ====
import proofs.«172917_j75840532513057_2_alg».proof.Proof.KBodyR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The condition under which the accumulators are zeroed. -/
abbrev b_cond5_0 (i : grid5.Coords) : Prop := (Scalar.cmpi .ne (Scalar.extui (Scalar.cmpi .eq (BitVec.ofNat 32 (i 0).val) 0#32)) 0#32) = 1#1
/-- It holds at the first point only. -/
theorem b_hcond5_0 : ∀ t : Fin cfg5.N, b_cond5_0 (grid5.coords t) ↔ t.val = 0 :=
  (by decide +kernel : ∀ t : Fin grid5.N, b_cond5_0 (grid5.coords t) ↔ t.val = 0)
/-- The condition under which the accumulators are copied out. -/
abbrev b_cond5_1 (i : grid5.Coords) : Prop := k5_cond2 i = 1#1
/-- It holds at the last point only. -/
theorem b_hcond5_1 : ∀ t : Fin cfg5.N, b_cond5_1 (grid5.coords t) ↔ t.val = 4 :=
  (by decide +kernel : ∀ t : Fin grid5.N, b_cond5_1 (grid5.coords t) ↔ t.val = 4)

/-! ## Where the windows are idle -/

theorem b_live5_0 : ∀ t : Fin cfg5.N, cfg5.idle 0 (grid5.coords t) = false := by decide +kernel
theorem b_live5_1 : ∀ t : Fin cfg5.N, cfg5.idle 1 (grid5.coords t) = false := by decide +kernel
theorem b_live5_2 : ∀ t : Fin cfg5.N, cfg5.idle 2 (grid5.coords t) = false := by decide +kernel
theorem b_live5_3 : ∀ t : Fin cfg5.N, cfg5.idle 3 (grid5.coords t) = false := by decide +kernel
theorem b_live5_4 : ∀ t : Fin cfg5.N, cfg5.idle 4 (grid5.coords t) = false := by decide +kernel
theorem b_live5_5 : ∀ t : Fin cfg5.N, cfg5.idle 5 (grid5.coords t) = false := by decide +kernel
/-- Away from the last point output 6 is idle and not written back; at the last point it is live. -/
theorem b_idle5_6 : ∀ t : Fin cfg5.N, ¬b_cond5_1 (grid5.coords t) → cfg5.idle 6 (grid5.coords t) = true := by decide +kernel
theorem b_noFlush5_6 : ∀ t : Fin cfg5.N, ¬b_cond5_1 (grid5.coords t) → (cfg5.win 6).flush t = false := by decide +kernel
theorem b_live5_6 : ∀ t : Fin cfg5.N, b_cond5_1 (grid5.coords t) → cfg5.idle 6 (grid5.coords t) = false := by decide +kernel
/-- Away from the last point output 7 is idle and not written back; at the last point it is live. -/
theorem b_idle5_7 : ∀ t : Fin cfg5.N, ¬b_cond5_1 (grid5.coords t) → cfg5.idle 7 (grid5.coords t) = true := by decide +kernel
theorem b_noFlush5_7 : ∀ t : Fin cfg5.N, ¬b_cond5_1 (grid5.coords t) → (cfg5.win 7).flush t = false := by decide +kernel
theorem b_live5_7 : ∀ t : Fin cfg5.N, b_cond5_1 (grid5.coords t) → cfg5.idle 7 (grid5.coords t) = false := by decide +kernel

/-! ## The kernel body on any whole memrefs, case by case -/

set_option maxHeartbeats 1000000 in
/-- At the first point: the accumulators, at anything, are zeroed, and each then takes the block's column sums; the
    block of output 5 is stored whole; outputs 6 and 7 are not touched. -/
theorem b_run5_first (c : Dev nD) (E : Set ℕ) (i : grid5.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : b_cond5_0 i) (hc1 : ¬b_cond5_1 i) (x0 : Vec F S10000x64 .f32) (x1 : Vec F S64x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k5_pay4 x0 x1 x2 x3 x4)
            ∗ owns (c : Thread nD τ) arg9 fullShare (k5_pay5 x0 x1 x2 x3 x4 k5_pay2) ∗ owns (c : Thread nD τ) arg10 fullShare (k5_pay1 (k5_pay4 x0 x1 x2 x3 x4) k5_pay3)) -∗ K ⟨⟩))
      ⊢ wp frame (wpE (defs₀ (F := F)) Variants.none c none) E (cc5__mlp_pass1_kernel i arg1 harg1 arg2 harg2 arg3 harg3 arg4 harg4 arg5 harg5 arg6 harg6 arg7 harg7 arg8 harg8 arg9 harg9 arg10 harg10) K := by
  simp only [cc5__mlp_pass1_kernel_eq_skeleton]; unfold cc5__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At a middle point: each accumulator, at what the points before left, takes the block's column sums; the block of
    output 5 is stored whole; outputs 6 and 7 are not touched. -/
theorem b_run5_mid (c : Dev nD) (E : Set ℕ) (i : grid5.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond5_0 i) (hc1 : ¬b_cond5_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k5_pay4 x0 x1 x2 x3 x4)
            ∗ owns (c : Thread nD τ) arg9 fullShare (k5_pay5 x0 x1 x2 x3 x4 xs9) ∗ owns (c : Thread nD τ) arg10 fullShare (k5_pay1 (k5_pay4 x0 x1 x2 x3 x4) xs10)) -∗ K ⟨⟩))
      ⊢ wp frame (wpE (defs₀ (F := F)) Variants.none c none) E (cc5__mlp_pass1_kernel i arg1 harg1 arg2 harg2 arg3 harg3 arg4 harg4 arg5 harg5 arg6 harg6 arg7 harg7 arg8 harg8 arg9 harg9 arg10 harg10) K := by
  simp only [cc5__mlp_pass1_kernel_eq_skeleton]; unfold cc5__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At the last point: as at a middle point, and then the two accumulators are copied whole into outputs 6 and 7. -/
theorem b_run5_last (c : Dev nD) (E : Set ℕ) (i : grid5.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond5_0 i) (hc1 : b_cond5_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k5_pay4 x0 x1 x2 x3 x4)
            ∗ owns (c : Thread nD τ) arg7 fullShare (k5_pay5 x0 x1 x2 x3 x4 xs9) ∗ owns (c : Thread nD τ) arg8 fullShare (k5_pay1 (k5_pay4 x0 x1 x2 x3 x4) xs10)
            ∗ owns (c : Thread nD τ) arg9 fullShare (k5_pay5 x0 x1 x2 x3 x4 xs9) ∗ owns (c : Thread nD τ) arg10 fullShare (k5_pay1 (k5_pay4 x0 x1 x2 x3 x4) xs10)) -∗ K ⟨⟩))
      ⊢ wp frame (wpE (defs₀ (F := F)) Variants.none c none) E (cc5__mlp_pass1_kernel i arg1 harg1 arg2 harg2 arg3 harg3 arg4 harg4 arg5 harg5 arg6 harg6 arg7 harg7 arg8 harg8 arg9 harg9 arg10 harg10) K := by
  simp only [cc5__mlp_pass1_kernel_eq_skeleton]; unfold cc5__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%d8, %f8, -, H8⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H7]
  · iexists _; isplitr
    swap; · iexact H7
    ipureintro; sl_unfold_run_names
    simp only [b_ld, b_st, b_rc]
  isplitl [H8]
  · iexists _; isplitr
    swap; · iexact H8
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

end Cert.Kernel.Hand

end
-- ==== Proof.KBodyR5.lean ====
import proofs.«172917_j75840532513057_2_alg».proof.Proof.KBodyR5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 5: the windows' blocks, the two accumulators point by point, the proof data -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The two accumulators (column sums, column sums of squares) after `n` points: zero before the first, then each
    point adds its block's column sums. -/
def scr5 (c : Dev nD) : (n : ℕ) → n ≤ cfg5.N → Vec F S1x64 .f32 × Vec F S1x64 .f32
  | 0, _ => (k5_pay2, k5_pay3)
  | n + 1, hn =>
    (k5_pay5 (iblk5 V c 0 ⟨n, hn⟩) (iblk5 V c 1 ⟨n, hn⟩) (iblk5 V c 2 ⟨n, hn⟩) (iblk5 V c 3 ⟨n, hn⟩) (iblk5 V c 4 ⟨n, hn⟩) (scr5 c n (Nat.le_of_succ_le hn)).1,
     k5_pay1 (k5_pay4 (iblk5 V c 0 ⟨n, hn⟩) (iblk5 V c 1 ⟨n, hn⟩) (iblk5 V c 2 ⟨n, hn⟩) (iblk5 V c 3 ⟨n, hn⟩) (iblk5 V c 4 ⟨n, hn⟩)) (scr5 c n (Nat.le_of_succ_le hn)).2)

theorem scr5_zero (c : Dev nD) (h : 0 ≤ cfg5.N) : scr5 V c 0 h = (k5_pay2, k5_pay3) := rfl

theorem scr5_succ (c : Dev nD) (n : ℕ) (hn : n + 1 ≤ cfg5.N) :
    scr5 V c (n + 1) hn =
      (k5_pay5 (iblk5 V c 0 ⟨n, hn⟩) (iblk5 V c 1 ⟨n, hn⟩) (iblk5 V c 2 ⟨n, hn⟩) (iblk5 V c 3 ⟨n, hn⟩) (iblk5 V c 4 ⟨n, hn⟩) (scr5 V c n (Nat.le_of_succ_le hn)).1,
       k5_pay1 (k5_pay4 (iblk5 V c 0 ⟨n, hn⟩) (iblk5 V c 1 ⟨n, hn⟩) (iblk5 V c 2 ⟨n, hn⟩) (iblk5 V c 3 ⟨n, hn⟩) (iblk5 V c 4 ⟨n, hn⟩)) (scr5 V c n (Nat.le_of_succ_le hn)).2) := rfl

/-- The two scratch operands, whole scoped buffers of the kernel's own. -/
abbrev scM5_0 : Memref sig .tc .vmem S1x64 .f32 := Memref.whole cc5_scratch0
abbrev scM5_1 : Memref sig .tc .vmem S1x64 .f32 := Memref.whole cc5_scratch1

/-- The region invariant before position `n`: before the first point the class's; afterwards the two accumulators
    at what the points so far left in them, the other scoped buffers unopened, the generator register at some state. -/
def b_PhiS5 (c : Dev nD) : (n : ℕ) → n ≤ cfg5.N → sProp 𝕄
  | 0, _ => Pipeline.ΦA spec5 c
  | n + 1, hn => iprop(iprop(iprop(owns (c : Thread nD τ) scM5_0 fullShare (scr5 V c (n + 1) hn).1 ∗ owns (c : Thread nD τ) scM5_1 fullShare (scr5 V c (n + 1) hn).2)
      ∗ Pipeline.scopedRestBut (Ix := Unit) (Name := ℕ) (U := UR sig nD τ) (Lvl := ℕ) (Val := Elt F) spec5 c [cc5_scratch0, cc5_scratch1]) ∗ (∃ r, prngReg c r))

/-- The proof data of the region's pipeline on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => k5_pay4 (iblk5 V c 0 t) (iblk5 V c 1 t) (iblk5 V c 2 t) (iblk5 V c 3 t) (iblk5 V c 4 t)
    | ⟨6, _⟩ => (scr5 V c (t.val + 1) t.isLt).1
    | ⟨7, _⟩ => (scr5 V c (t.val + 1) t.isLt).2
  Φ t := b_PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = k5_pay4 (iblk5 V c 0 t) (iblk5 V c 1 t) (iblk5 V c 2 t) (iblk5 V c 3 t) (iblk5 V c 4 t) := by dsimp only [dat5]
/-- At every point, what the proof data names for windows 6 and 7 is the accumulators' contents after it. -/
theorem b_after5_6 (c : Dev nD) (t : Fin cfg5.N) : (dat5 V c).after 6 t = (scr5 V c (t.val + 1) t.isLt).1 := by dsimp only [dat5]
theorem b_after5_7 (c : Dev nD) (t : Fin cfg5.N) : (dat5 V c).after 7 t = (scr5 V c (t.val + 1) t.isLt).2 := by dsimp only [dat5]
/-- At the last point (the one that stores them) they are the accumulators after all five points. -/
theorem after5_6 (c : Dev nD) (t : Fin cfg5.N) (h : t.val = 4) : (dat5 V c).after 6 t = (scr5 V c 5 (le_of_eq N_5.symm)).1 := by
  rw [b_after5_6]; obtain ⟨n, hn⟩ := t; dsimp only at h; subst h; rfl
theorem after5_7 (c : Dev nD) (t : Fin cfg5.N) (h : t.val = 4) : (dat5 V c).after 7 t = (scr5 V c 5 (le_of_eq N_5.symm)).2 := by
  rw [b_after5_7]; obtain ⟨n, hn⟩ := t; dsimp only at h; subst h; rfl

/-! ## What the inputs' staging buffers hold -/

theorem b_before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem b_before5_0 (c : Dev nD) (t : Fin cfg5.N) (d) : (dat5 V c).before 0 t d = iblk5 V c 0 t :=
  b_before5_0_of V (dat5 V c) (A_eq5 V c 0) (after5_0 V c) t d

theorem b_before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem b_before5_1 (c : Dev nD) (t : Fin cfg5.N) (d) : (dat5 V c).before 1 t d = iblk5 V c 1 t :=
  b_before5_1_of V (dat5 V c) (A_eq5 V c 1) (after5_1 V c) t d

theorem b_before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem b_before5_2 (c : Dev nD) (t : Fin cfg5.N) (d) : (dat5 V c).before 2 t d = iblk5 V c 2 t :=
  b_before5_2_of V (dat5 V c) (A_eq5 V c 2) (after5_2 V c) t d

theorem b_before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem b_before5_3 (c : Dev nD) (t : Fin cfg5.N) (d) : (dat5 V c).before 3 t d = iblk5 V c 3 t :=
  b_before5_3_of V (dat5 V c) (A_eq5 V c 3) (after5_3 V c) t d

theorem b_before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem b_before5_4 (c : Dev nD) (t : Fin cfg5.N) (d) : (dat5 V c).before 4 t d = iblk5 V c 4 t :=
  b_before5_4_of V (dat5 V c) (A_eq5 V c 4) (after5_4 V c) t d

/-! ## The region invariant, opened -/

/-- The class's invariant with the two accumulators as memrefs owned at some contents, the other scoped buffers unopened. -/
theorem b_PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

theorem b_PhiS5_zero (c : Dev nD) (n : ℕ) (h : n ≤ cfg5.N) (hz : n = 0) : b_PhiS5 V c n h = Pipeline.ΦA spec5 c := by
  subst hz; rfl

/-- Before a point that is not the first: the accumulators at what the points before left. -/
theorem b_PhiS5_pos (c : Dev nD) (n : ℕ) (h : n ≤ cfg5.N) (hz : n ≠ 0) :
    b_PhiS5 V c n h = iprop(iprop(iprop(owns (c : Thread nD τ) scM5_0 fullShare (scr5 V c n h).1 ∗ owns (c : Thread nD τ) scM5_1 fullShare (scr5 V c n h).2)
        ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

/-- After point `n` (before point `n + 1`): the accumulators at that point's contents. -/
theorem b_PhiS5_succ (c : Dev nD) (n : ℕ) (hn : n + 1 ≤ cfg5.N) :
    b_PhiS5 V c (n + 1) hn = iprop(iprop(iprop(owns (c : Thread nD τ) scM5_0 fullShare (scr5 V c (n + 1) hn).1 ∗ owns (c : Thread nD τ) scM5_1 fullShare (scr5 V c (n + 1) hn).2)
        ∗ Pipeline.scopedRestBut (Ix := Unit) (Name := ℕ) (U := UR sig nD τ) (Lvl := ℕ) (Val := Elt F) spec5 c [cc5_scratch0, cc5_scratch1]) ∗ (∃ r, prngReg c r)) := rfl

theorem b_PhiS5_castSucc (c : Dev nD) (t : Fin cfg5.N) :
    (dat5 V c).Φ t.castSucc = b_PhiS5 V c t.val (Nat.le_of_lt t.isLt) := by
  dsimp only [dat5]; simp only [Fin.coe_castSucc]

/-- The accumulators after point `t`, from what they held before it. -/
theorem b_scr5_at (c : Dev nD) (t : Fin cfg5.N) :
    scr5 V c (t.val + 1) t.isLt
      = (k5_pay5 (iblk5 V c 0 t) (iblk5 V c 1 t) (iblk5 V c 2 t) (iblk5 V c 3 t) (iblk5 V c 4 t) (scr5 V c t.val (Nat.le_of_lt t.isLt)).1,
         k5_pay1 (k5_pay4 (iblk5 V c 0 t) (iblk5 V c 1 t) (iblk5 V c 2 t) (iblk5 V c 3 t) (iblk5 V c 4 t)) (scr5 V c t.val (Nat.le_of_lt t.isLt)).2) := rfl

/-- After the first point: from zero. -/
theorem b_scr5_at_first (c : Dev nD) (t : Fin cfg5.N) (h0 : t.val = 0) :
    scr5 V c (t.val + 1) t.isLt
      = (k5_pay5 (iblk5 V c 0 t) (iblk5 V c 1 t) (iblk5 V c 2 t) (iblk5 V c 3 t) (iblk5 V c 4 t) k5_pay2, k5_pay1 (k5_pay4 (iblk5 V c 0 t) (iblk5 V c 1 t) (iblk5 V c 2 t) (iblk5 V c 3 t) (iblk5 V c 4 t)) k5_pay3) := by
  obtain ⟨n, hn⟩ := t; dsimp only at h0; subst h0; rfl

/-! ## The body obligation, at a generic point -/

/-- What the body is called with at point `t`, -/
def b_bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d)))

/-- and what it returns. -/
def b_bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t
    ∗ (dat5 V c).leavesExact 7 t)

set_option maxHeartbeats 4800000 in
/-- The body at any point: the inputs' memrefs hold their blocks; the closed forms say which of the three cases the point is
    in; the invariant hands the body the accumulators at what the points before left (at anything at the first point) and
    takes them back at this point's contents; outputs 6 and 7 are handed back untouched except at the last point. -/
theorem b_sound_body5 (c : Dev nD) (t : Fin cfg5.N) :
    b_bodyPre5 V c t ⊢ wp frame (wpE (defs₀ (F := F)) Variants.none c none) Set.univ (bodyAt5 t) (fun _ => b_bodyPost5 V c t) := by
  unfold b_bodyPre5 b_bodyPost5 bodyAt5
  simp only [b_before5_0, b_before5_1, b_before5_2, b_before5_3, b_before5_4]
  rw [show (dat5 V c).owesAt () t.succ = (dat5 V c).owesAt () t.castSucc from rfl]
  rw [show (dat5 V c).Φ t.succ = b_PhiS5 V c (t.val + 1) t.isLt from rfl, b_PhiS5_succ]
  rw [show (dat5 V c).leavesExact 0 t = owns (c : Thread nD τ) (st5_0 t) fullShare ((dat5 V c).after 0 t) from by
    unfold Dat.leavesExact; rw [b_live5_0 t], after5_0]
  rw [show (dat5 V c).leavesExact 1 t = owns (c : Thread nD τ) (st5_1 t) fullShare ((dat5 V c).after 1 t) from by
    unfold Dat.leavesExact; rw [b_live5_1 t], after5_1]
  rw [show (dat5 V c).leavesExact 2 t = owns (c : Thread nD τ) (st5_2 t) fullShare ((dat5 V c).after 2 t) from by
    unfold Dat.leavesExact; rw [b_live5_2 t], after5_2]
  rw [show (dat5 V c).leavesExact 3 t = owns (c : Thread nD τ) (st5_3 t) fullShare ((dat5 V c).after 3 t) from by
    unfold Dat.leavesExact; rw [b_live5_3 t], after5_3]
  rw [show (dat5 V c).leavesExact 4 t = owns (c : Thread nD τ) (st5_4 t) fullShare ((dat5 V c).after 4 t) from by
    unfold Dat.leavesExact; rw [b_live5_4 t], after5_4]
  rw [show (dat5 V c).leavesExact 5 t = owns (c : Thread nD τ) (st5_5 t) fullShare ((dat5 V c).after 5 t) from by
    unfold Dat.leavesExact; rw [b_live5_5 t], after5_5]
  by_cases h0 : t.val = 0
  · have h1 : ¬t.val = 4 := by omega
    rw [Dat.leavesExact_idle (dat5 V c) 6 t (b_idle5_6 t (fun h => h1 ((b_hcond5_1 t).mp h))) (b_noFlush5_6 t (fun h => h1 ((b_hcond5_1 t).mp h)))]
    rw [Dat.leavesExact_idle (dat5 V c) 7 t (b_idle5_7 t (fun h => h1 ((b_hcond5_1 t).mp h))) (b_noFlush5_7 t (fun h => h1 ((b_hcond5_1 t).mp h)))]
    rw [b_scr5_at_first V c t h0]; (try dsimp only)
    rw [b_PhiS5_castSucc V c t, b_PhiS5_zero V c _ _ h0, b_PhiA5_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
    iapply (b_run5_first c Set.univ (grid5.coords t) _ _ _ _ _ _ _ _ _ _ _ _ _ _ _ _ _ _ _ _ ((b_hcond5_0 t).mpr h0) (fun h => h1 ((b_hcond5_1 t).mp h))
      (iblk5 V c 0 t) (iblk5 V c 1 t) (iblk5 V c 2 t) (iblk5 V c 3 t) (iblk5 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val = 4
    · rw [show (dat5 V c).leavesExact 6 t = owns (c : Thread nD τ) (st5_6 t) fullShare ((dat5 V c).after 6 t) from by
        unfold Dat.leavesExact; rw [b_live5_6 t ((b_hcond5_1 t).mpr h1)], b_after5_6]
      rw [show (dat5 V c).leavesExact 7 t = owns (c : Thread nD τ) (st5_7 t) fullShare ((dat5 V c).after 7 t) from by
        unfold Dat.leavesExact; rw [b_live5_7 t ((b_hcond5_1 t).mpr h1)], b_after5_7]
      rw [b_scr5_at V c t]; (try dsimp only)
      rw [b_PhiS5_castSucc V c t, b_PhiS5_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (b_run5_last c Set.univ (grid5.coords t) _ _ _ _ _ _ _ _ _ _ _ _ _ _ _ _ _ _ _ _ (fun h => h0 ((b_hcond5_0 t).mp h)) ((b_hcond5_1 t).mpr h1)
        (iblk5 V c 0 t) (iblk5 V c 1 t) (iblk5 V c 2 t) (iblk5 V c 3 t) (iblk5 V c 4 t) (scr5 V c t.val (Nat.le_of_lt t.isLt)).1 (scr5 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat5 V c) 6 t (b_idle5_6 t (fun h => h1 ((b_hcond5_1 t).mp h))) (b_noFlush5_6 t (fun h => h1 ((b_hcond5_1 t).mp h)))]
      rw [Dat.leavesExact_idle (dat5 V c) 7 t (b_idle5_7 t (fun h => h1 ((b_hcond5_1 t).mp h))) (b_noFlush5_7 t (fun h => h1 ((b_hcond5_1 t).mp h)))]
      rw [b_scr5_at V c t]; (try dsimp only)
      rw [b_PhiS5_castSucc V c t, b_PhiS5_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
      iapply (b_run5_mid c Set.univ (grid5.coords t) _ _ _ _ _ _ _ _ _ _ _ _ _ _ _ _ _ _ _ _ (fun h => h0 ((b_hcond5_0 t).mp h)) (fun h => h1 ((b_hcond5_1 t).mp h))
        (iblk5 V c 0 t) (iblk5 V c 1 t) (iblk5 V c 2 t) (iblk5 V c 3 t) (iblk5 V c 4 t) (scr5 V c t.val (Nat.le_of_lt t.isLt)).1 (scr5 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation5 (c : Dev nD) : BodyObligation (dat5 (F := F) V c) (defs₀ (F := F)) Variants.none () Set.univ := fun t => by
  rw [bigSep_W5, bigSep_W5]
  exact b_sound_body5 V c t

/-- What the launch hands the region is the invariant before the first point. -/
theorem enter5 (c : Dev nD) : Pipeline.ΦA spec5 c ⊢ (dat5 V c).Φ 0 := by
  rw [show (dat5 V c).Φ 0 = b_PhiS5 V c 0 (Nat.zero_le _) from rfl, b_PhiS5_zero V c 0 _ rfl]
  try exact Idealize.SL.BI.Entails.refl _

/-- After the last point the invariant gives the class's back: the accumulators' named contents are forgotten. -/
theorem leave5 (c : Dev nD) : (dat5 V c).Φ (Fin.last cfg5.N) ⊢ Pipeline.ΦA spec5 c := by
  rw [show (dat5 V c).Φ (Fin.last cfg5.N) = b_PhiS5 V c (Fin.last cfg5.N).val (Nat.le_of_lt_succ (Fin.last cfg5.N).isLt) from rfl,
    b_PhiS5_pos V c _ _ (by rw [Fin.val_last]; have : cfg5.N = 5 := N_5; omega), b_PhiA5_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.Kernel.Hand

end
-- ==== Proof.KBodyA6.lean ====
/- The class-A half of region 6 of @main, the batch-normalisation kernel `cc6__bn_act_kernel`, at a PARAMETER `V` — the TensorCore's buffer contents when the
   region is entered —, generic in the float model: each window's block at a point (`iblk6`), the output buffer after
   the body as the canonical contents of its one whole-block store (`out6_5`), the body's triple (`sound_kernel6`),
   the proof data (`dat6`) and the body obligation (`body_obligation6`). The 5 inputs are read whole; inputs 1..4
   have a constant block index, so their buffers hold at every point the block fetched at the first. -/
import proofs.«172917_j75840532513057_2_alg».proof.Proof.Gen.Kernel.Launch
import proofs.«172917_j75840532513057_2_alg».proof.Proof.Gen.Kernel.Skeleton
import proofs.«172917_j75840532513057_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 6 of @main: the batch-normalisation kernel `cc6__bn_act_kernel` (pipeline 6), at the entry contents `V` -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-! ## The body's accesses: each staging buffer is read, and the output's stored, whole -/
abbrev r6_0 : Rect S10000x64 := Rect.unit (s := S10000x64) ![0, 0] S10000x64.size inb_S10000x64_S10000x64_0_0
abbrev r6_1 : Rect S1x64 := Rect.unit (s := S1x64) ![0, 0] S1x64.size inb_S1x64_S1x64_0_0
abbrev r6_2 : Rect S1x64 := Rect.unit (s := S1x64) ![0, 0] S1x64.size inb_S1x64_S1x64_0_0
abbrev r6_3 : Rect S1x64 := Rect.unit (s := S1x64) ![0, 0] S1x64.size inb_S1x64_S1x64_0_0
abbrev r6_4 : Rect S1x64 := Rect.unit (s := S1x64) ![0, 0] S1x64.size inb_S1x64_S1x64_0_0
abbrev r6_5 : Rect S10000x64 := Rect.unit (s := S10000x64) ![0, 0] S10000x64.size inb_S10000x64_S10000x64_0_0

/-- Window 5's staging buffer after the body, from the input windows' blocks: its one store, of the whole block. -/
def out6_5 (x0 : Vec F S10000x64 .f32) (x1 : Vec F S1x64 .f32) (x2 : Vec F S1x64 .f32) (x3 : Vec F S1x64 .f32) (x4 : Vec F S1x64 .f32) : Vec F S10000x64 .f32 :=
  View.canon [⟨r6_5, k6_pay1 (View.ld x0 r6_0) (View.ld x1 r6_1) (View.ld x2 r6_2) (View.ld x3 r6_3) (View.ld x4 r6_4)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof data
    whose array is `V`'s (`hA`) and whose body leaves the block in place (`hafter`): unfetched, the block index has
    not moved; the window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof data
    whose array is `V`'s (`hA`) and whose body leaves the block in place (`hafter`): unfetched, the block index has
    not moved; the window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof data
    whose array is `V`'s (`hA`) and whose body leaves the block in place (`hafter`): unfetched, the block index has
    not moved; the window is uncut and never idle. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof data
    whose array is `V`'s (`hA`) and whose body leaves the block in place (`hafter`): unfetched, the block index has
    not moved; the window is uncut and never idle. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Its one store is of the whole buffer, so it covers it (checked by evaluation). -/
theorem cover6_5 (p0 : Vec F S10000x64 .f32) (y : S10000x64.Idx) :
    ∃ pc ∈ ([⟨r6_5, p0⟩] : List (View.Piece (Elt F) S10000x64 .f32)), y ∈ pc.1.set :=
  View.cover_of_tiled [⟨r6_5, p0⟩] S10000x64.size (by rfl) y

/-! ## The body's triple -/

set_option maxHeartbeats 1000000 in
/-- The kernel body on whole staging memrefs, the inputs' at read contents `xW` and the output's at anything, runs to
    the continuation holding the inputs' as they were and the output's at `out6_5` of the inputs': the printed function
    is its skeleton, which runs load by load (the output's buffer is loaded once, the value unused) to the one store. -/
theorem sound_kernel6 (c : Dev nD) (E : Set ℕ) (i : grid6.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__bn_act_kernel i arg1 harg1 arg2 harg2 arg3 harg3 arg4 harg4 arg5 harg5 arg6 harg6) K := by
  simp only [cc6__bn_act_kernel_eq_skeleton]; unfold cc6__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them (`V`); after the body at point `t`
    each input's buffer at its block and the output's at `out6_5` of the input blocks; the invariant is the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t` (the windows one by one), -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Regions

end Cert.Kernel.Hand
-- ==== Proof.KRunW2.lean ====
/- The buffer contents at the boundaries W9..W14 of @main's items, at any float model: a fold from the launch memory
   (a host stretch's `StableHlo.after`; a region's arrays at what its write-backs leave, every other buffer as
   entered), the two facts per region the exit rule takes, and what each item keeps. -/
import proofs.«172917_j75840532513057_2_alg».proof.Proof.KRunW1
import proofs.«172917_j75840532513057_2_alg».proof.Proof.KBodyA4
import proofs.«172917_j75840532513057_2_alg».proof.Proof.KBodyR5
import proofs.«172917_j75840532513057_2_alg».proof.Proof.KBodyA6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- After `hostOps4` (region 4's entry). -/
abbrev W9 : Dev nD → Valuation τ sig (Elt F) := fun c => StableHlo.after hostOps4 (W8 m ρ c)
/-- The same read at the TensorCore's references (what region 4's proof data take). -/
abbrev WV9 : (c : Dev nD) → (b : Ref sig .tc) → Buf (Elt F) ((c : Thread nD τ).loc b) := fun c b => W9 m ρ c b
/-- At region 4's exit: its arrays at what the pipeline leaves (the inputs as entered, each output's write-backs
    folded), every other buffer as entered. -/
def W10 (c : Dev nD) : Valuation τ sig (Elt F) :=
  Pipeline.withArrays spec4 c (W9 m ρ c) fun w => (dat4 (WV9 m ρ) c).arrAt w cfg4.N
theorem W10_arr (c : Dev nD) (w : Fin cfg4.W) :
    W10 m ρ c (Proc.devRef .tc (Pipeline.arrRef spec4 w)) = (dat4 (WV9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev WV10 : (c : Dev nD) → (b : Ref sig .tc) → Buf (Elt F) ((c : Thread nD τ).loc b) := fun c b => W10 m ρ c b
/-- At region 4's exit each of its arrays holds what the pipeline leaves and every other buffer what it held at entry. -/
theorem hF4 (c : Dev nD) (w : Fin cfg4.W) : (dat4 (WV9 m ρ) c).arrAt w cfg4.N = WV10 m ρ c (Pipeline.arrRef spec4 w) :=
  (W10_arr m ρ c w).symm
theorem hrest4 (c : Dev nD) : ∀ b, b ∉ Finset.univ.image (Pipeline.arrRef spec4) → WV10 m ρ c b = WV9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- The same read at the TensorCore's references (what region 5's proof data take). -/
abbrev WV11 : (c : Dev nD) → (b : Ref sig .tc) → Buf (Elt F) ((c : Thread nD τ).loc b) := fun c b => W11 m ρ c b
/-- At region 5's exit: its arrays at what the pipeline leaves (the inputs as entered, each output's write-backs
    folded), every other buffer as entered. -/
def W12 (c : Dev nD) : Valuation τ sig (Elt F) :=
  Pipeline.withArrays spec5 c (W11 m ρ c) fun w => (dat5 (WV11 m ρ) c).arrAt w cfg5.N
theorem W12_arr (c : Dev nD) (w : Fin cfg5.W) :
    W12 m ρ c (Proc.devRef .tc (Pipeline.arrRef spec5 w)) = (dat5 (WV11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- The same read at the TensorCore's references (region 5's exit contents). -/
abbrev WV12 : (c : Dev nD) → (b : Ref sig .tc) → Buf (Elt F) ((c : Thread nD τ).loc b) := fun c b => W12 m ρ c b
/-- At region 5's exit each of its arrays holds what the pipeline leaves and every other buffer what it held at entry. -/
theorem hF5 (c : Dev nD) (w : Fin cfg5.W) : (dat5 (WV11 m ρ) c).arrAt w cfg5.N = WV12 m ρ c (Pipeline.arrRef spec5 w) :=
  (W12_arr m ρ c w).symm
theorem hrest5 (c : Dev nD) : ∀ b, b ∉ Finset.univ.image (Pipeline.arrRef spec5) → WV12 m ρ c b = WV11 m ρ c b :=
  fun b hb => W12_of_ne m ρ c b fun w e => hb (Finset.mem_image.mpr ⟨w, Finset.mem_univ _, e⟩)

/-- After `hostOps6` (region 6's entry). -/
abbrev W13 : Dev nD → Valuation τ sig (Elt F) := fun c => StableHlo.after hostOps6 (W12 m ρ c)
/-- The same read at the TensorCore's references (what region 6's proof data take). -/
abbrev WV13 : (c : Dev nD) → (b : Ref sig .tc) → Buf (Elt F) ((c : Thread nD τ).loc b) := fun c b => W13 m ρ c b
/-- At region 6's exit: its arrays at what the pipeline leaves (the inputs as entered, each output's write-backs
    folded), every other buffer as entered. -/
def W14 (c : Dev nD) : Valuation τ sig (Elt F) :=
  Pipeline.withArrays spec6 c (W13 m ρ c) fun w => (dat6 (WV13 m ρ) c).arrAt w cfg6.N
theorem W14_arr (c : Dev nD) (w : Fin cfg6.W) :
    W14 m ρ c (Proc.devRef .tc (Pipeline.arrRef spec6 w)) = (dat6 (WV13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
/-- The same read at the TensorCore's references (region 6's exit contents). -/
abbrev WV14 : (c : Dev nD) → (b : Ref sig .tc) → Buf (Elt F) ((c : Thread nD τ).loc b) := fun c b => W14 m ρ c b
/-- At region 6's exit each of its arrays holds what the pipeline leaves and every other buffer what it held at entry. -/
theorem hF6 (c : Dev nD) (w : Fin cfg6.W) : (dat6 (WV13 m ρ) c).arrAt w cfg6.N = WV14 m ρ c (Pipeline.arrRef spec6 w) :=
  (W14_arr m ρ c w).symm
theorem hrest6 (c : Dev nD) : ∀ b, b ∉ Finset.univ.image (Pipeline.arrRef spec6) → WV14 m ρ c b = WV13 m ρ c b :=
  fun b hb => W14_of_ne m ρ c b fun w e => hb (Finset.mem_image.mpr ⟨w, Finset.mem_univ _, e⟩)

/-! ## What each item keeps: a buffer a host stretch does not write, an input array of a region (a buffer that is no
    array of a region: `W_of_ne` above) -/

/-- `hostOps4` keeps every buffer outside the list of those it writes. -/
theorem W9_keep (c : Dev nD) (r : Ref sig .tc) (h : r ∉ hostOps4_W) :
    W9 m ρ c (Proc.devRef .tc r) = W8 m ρ c (Proc.devRef .tc r) :=
  StableHlo.after_of_writes_sub hostOps4 _ hostOps4_writes h
/-- Region 4 keeps each of its input arrays. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (WV9 m ρ) c).arrAt_in w hin _).trans (A_eq4 (WV9 m ρ) c w))

/-- `hostOps5` keeps every buffer outside the list of those it writes. -/
theorem W11_keep (c : Dev nD) (r : Ref sig .tc) (h : r ∉ hostOps5_W) :
    W11 m ρ c (Proc.devRef .tc r) = W10 m ρ c (Proc.devRef .tc r) :=
  StableHlo.after_of_writes_sub hostOps5 _ hostOps5_writes h
/-- Region 5 keeps each of its input arrays. -/
theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (WV11 m ρ) c).arrAt_in w hin _).trans (A_eq5 (WV11 m ρ) c w))

/-- `hostOps6` keeps every buffer outside the list of those it writes. -/
theorem W13_keep (c : Dev nD) (r : Ref sig .tc) (h : r ∉ hostOps6_W) :
    W13 m ρ c (Proc.devRef .tc r) = W12 m ρ c (Proc.devRef .tc r) :=
  StableHlo.after_of_writes_sub hostOps6 _ hostOps6_writes h
/-- Region 6 keeps each of its input arrays. -/
theorem W14_in (c : Dev nD) (w : Fin cfg6.W) (hin : (cfg6.win w).isOut = false) :
    W14 m ρ c (Proc.devRef .tc (Pipeline.arrRef spec6 w)) = W13 m ρ c (Proc.devRef .tc (Pipeline.arrRef spec6 w)) :=
  (W14_arr m ρ c w).trans (((dat6 (WV13 m ρ) c).arrAt_in w hin _).trans (A_eq6 (WV13 m ρ) c w))

end Cert.Kernel.Hand

end
-- ==== Proof.KBodyA7.lean ====
/- The class-A half of region 7 of @main, the linear layer's kernel `cc7__linear_kernel`, at a PARAMETER `V` — the TensorCore's buffer contents when the
   region is entered —, generic in the float model: each window's block at a point (`iblk7`), the output buffer after
   the body as the canonical contents of its one whole-block store (`out7_3`), the body's triple (`sound_kernel7`),
   the proof data (`dat7`) and the body obligation (`body_obligation7`). The 3 inputs are read whole; inputs 1..2
   have a constant block index, so their buffers hold at every point the block fetched at the first. -/
import proofs.«172917_j75840532513057_2_alg».proof.Proof.Gen.Kernel.Launch
import proofs.«172917_j75840532513057_2_alg».proof.Proof.Gen.Kernel.Skeleton
import proofs.«172917_j75840532513057_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 7 of @main: the linear layer's kernel `cc7__linear_kernel` (pipeline 7), at the entry contents `V` -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-! ## The body's accesses: each staging buffer is read, and the output's stored, whole -/
abbrev r7_0 : Rect S10000x5 := Rect.unit (s := S10000x5) ![0, 0] S10000x5.size inb_S10000x5_S10000x5_0_0
abbrev r7_1 : Rect S5x64 := Rect.unit (s := S5x64) ![0, 0] S5x64.size inb_S5x64_S5x64_0_0
abbrev r7_2 : Rect S1x64 := Rect.unit (s := S1x64) ![0, 0] S1x64.size inb_S1x64_S1x64_0_0
abbrev r7_3 : Rect S10000x64 := Rect.unit (s := S10000x64) ![0, 0] S10000x64.size inb_S10000x64_S10000x64_0_0

/-- Window 3's staging buffer after the body, from the input windows' blocks: its one store, of the whole block. -/
def out7_3 (x0 : Vec F S10000x5 .f32) (x1 : Vec F S5x64 .f32) (x2 : Vec F S1x64 .f32) : Vec F S10000x64 .f32 :=
  View.canon [⟨r7_3, k7_pay1 (View.ld x0 r7_0) (View.ld x1 r7_1) (View.ld x2 r7_2)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is `V`'s (`hA`) and whose body leaves the block in place (`hafter`): unfetched, the block index has
    not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is `V`'s (`hA`) and whose body leaves the block in place (`hafter`): unfetched, the block index has
    not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Its one store is of the whole buffer, so it covers it (checked by evaluation). -/
theorem cover7_3 (p0 : Vec F S10000x64 .f32) (y : S10000x64.Idx) :
    ∃ pc ∈ ([⟨r7_3, p0⟩] : List (View.Piece (Elt F) S10000x64 .f32)), y ∈ pc.1.set :=
  View.cover_of_tiled [⟨r7_3, p0⟩] S10000x64.size (by rfl) y

/-! ## The body's triple -/

set_option maxHeartbeats 1000000 in
/-- The kernel body on whole staging memrefs, the inputs' at read contents `xW` and the output's at anything, runs to
    the continuation holding the inputs' as they were and the output's at `out7_3` of the inputs': the printed function
    is its skeleton, which runs load by load (the output's buffer is loaded once, the value unused) to the one store. -/
theorem sound_kernel7 (c : Dev nD) (E : Set ℕ) (i : grid7.Coords) (arg1 : Memref sig .tc .vmem S10000x5 .f32) (harg1 : arg1.IsWhole) (arg2 : Memref sig .tc .vmem S5x64 .f32) (harg2 : arg2.IsWhole) (arg3 : Memref sig .tc .vmem S1x64 .f32) (harg3 : arg3.IsWhole) (arg4 : Memref sig .tc .vmem S10000x64 .f32) (harg4 : arg4.IsWhole)
    (x0 : Vec F S10000x5 .f32) (x1 : Vec F S5x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7__linear_kernel i arg1 harg1 arg2 harg2 arg3 harg3 arg4 harg4) K := by
  simp only [cc7__linear_kernel_eq_skeleton]; unfold cc7__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point `t`
    each input's buffer at its block and the output's at `out7_3` of the input blocks; the invariant is the scoped
    rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Regions

end Cert.Kernel.Hand
-- ==== Proof.KBodyR8Runs.lean ====
import proofs.«172917_j75840532513057_2_alg».proof.Proof.KBodyR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two conditions, in closed form over the grid -/

/-- The condition under which the accumulators are zeroed. -/
abbrev b_cond8_0 (i : grid8.Coords) : Prop := (Scalar.cmpi .ne (Scalar.extui (Scalar.cmpi .eq (BitVec.ofNat 32 (i 0).val) 0#32)) 0#32) = 1#1
/-- It holds at the first point only. -/
theorem b_hcond8_0 : ∀ t : Fin cfg8.N, b_cond8_0 (grid8.coords t) ↔ t.val = 0 :=
  (by decide +kernel : ∀ t : Fin grid8.N, b_cond8_0 (grid8.coords t) ↔ t.val = 0)
/-- The condition under which the accumulators are copied out. -/
abbrev b_cond8_1 (i : grid8.Coords) : Prop := k8_cond2 i = 1#1
/-- It holds at the last point only. -/
theorem b_hcond8_1 : ∀ t : Fin cfg8.N, b_cond8_1 (grid8.coords t) ↔ t.val = 4 :=
  (by decide +kernel : ∀ t : Fin grid8.N, b_cond8_1 (grid8.coords t) ↔ t.val = 4)

/-! ## Where the windows are idle -/

theorem b_live8_0 : ∀ t : Fin cfg8.N, cfg8.idle 0 (grid8.coords t) = false := by decide +kernel
theorem b_live8_1 : ∀ t : Fin cfg8.N, cfg8.idle 1 (grid8.coords t) = false := by decide +kernel
theorem b_live8_2 : ∀ t : Fin cfg8.N, cfg8.idle 2 (grid8.coords t) = false := by decide +kernel
theorem b_live8_3 : ∀ t : Fin cfg8.N, cfg8.idle 3 (grid8.coords t) = false := by decide +kernel
theorem b_live8_4 : ∀ t : Fin cfg8.N, cfg8.idle 4 (grid8.coords t) = false := by decide +kernel
theorem b_live8_5 : ∀ t : Fin cfg8.N, cfg8.idle 5 (grid8.coords t) = false := by decide +kernel
/-- Away from the last point output 6 is idle and not written back; at the last point it is live. -/
theorem b_idle8_6 : ∀ t : Fin cfg8.N, ¬b_cond8_1 (grid8.coords t) → cfg8.idle 6 (grid8.coords t) = true := by decide +kernel
theorem b_noFlush8_6 : ∀ t : Fin cfg8.N, ¬b_cond8_1 (grid8.coords t) → (cfg8.win 6).flush t = false := by decide +kernel
theorem b_live8_6 : ∀ t : Fin cfg8.N, b_cond8_1 (grid8.coords t) → cfg8.idle 6 (grid8.coords t) = false := by decide +kernel
/-- Away from the last point output 7 is idle and not written back; at the last point it is live. -/
theorem b_idle8_7 : ∀ t : Fin cfg8.N, ¬b_cond8_1 (grid8.coords t) → cfg8.idle 7 (grid8.coords t) = true := by decide +kernel
theorem b_noFlush8_7 : ∀ t : Fin cfg8.N, ¬b_cond8_1 (grid8.coords t) → (cfg8.win 7).flush t = false := by decide +kernel
theorem b_live8_7 : ∀ t : Fin cfg8.N, b_cond8_1 (grid8.coords t) → cfg8.idle 7 (grid8.coords t) = false := by decide +kernel

/-! ## The kernel body on any whole memrefs, case by case -/

set_option maxHeartbeats 1000000 in
/-- At the first point: the accumulators, at anything, are zeroed, and each then takes the block's column sums; the
    block of output 5 is stored whole; outputs 6 and 7 are not touched. -/
theorem b_run8_first (c : Dev nD) (E : Set ℕ) (i : grid8.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : b_cond8_0 i) (hc1 : ¬b_cond8_1 i) (x0 : Vec F S10000x64 .f32) (x1 : Vec F S64x128 .f32) (x2 : Vec F S1x128 .f32) (x3 : Vec F S128x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4)
            ∗ owns (c : Thread nD τ) arg9 fullShare (k8_pay5 x0 x1 x2 x3 x4 k8_pay2) ∗ owns (c : Thread nD τ) arg10 fullShare (k8_pay1 (k8_pay4 x0 x1 x2 x3 x4) k8_pay3)) -∗ K ⟨⟩))
      ⊢ wp frame (wpE (defs₀ (F := F)) Variants.none c none) E (cc8__mlp_pass1_kernel i arg1 harg1 arg2 harg2 arg3 harg3 arg4 harg4 arg5 harg5 arg6 harg6 arg7 harg7 arg8 harg8 arg9 harg9 arg10 harg10) K := by
  simp only [cc8__mlp_pass1_kernel_eq_skeleton]; unfold cc8__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d9, %f9, -, H9⟩, ⟨%d10, %f10, -, H10⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At a middle point: each accumulator, at what the points before left, takes the block's column sums; the block of
    output 5 is stored whole; outputs 6 and 7 are not touched. -/
theorem b_run8_mid (c : Dev nD) (E : Set ℕ) (i : grid8.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond8_0 i) (hc1 : ¬b_cond8_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4)
            ∗ owns (c : Thread nD τ) arg9 fullShare (k8_pay5 x0 x1 x2 x3 x4 xs9) ∗ owns (c : Thread nD τ) arg10 fullShare (k8_pay1 (k8_pay4 x0 x1 x2 x3 x4) xs10)) -∗ K ⟨⟩))
      ⊢ wp frame (wpE (defs₀ (F := F)) Variants.none c none) E (cc8__mlp_pass1_kernel i arg1 harg1 arg2 harg2 arg3 harg3 arg4 harg4 arg5 harg5 arg6 harg6 arg7 harg7 arg8 harg8 arg9 harg9 arg10 harg10) K := by
  simp only [cc8__mlp_pass1_kernel_eq_skeleton]; unfold cc8__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

set_option maxHeartbeats 1000000 in
/-- At the last point: as at a middle point, and then the two accumulators are copied whole into outputs 6 and 7. -/
theorem b_run8_last (c : Dev nD) (E : Set ℕ) (i : grid8.Coords) (arg1 : Memref sig .tc .vmem S10000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S10000x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole)
    (hc0 : ¬b_cond8_0 i) (hc1 : b_cond8_1 i) (x0 : Vec F S10000x64 .f32) (x1 : Vec F S64x128 .f32) (x2 : Vec F S1x128 .f32) (x3 : Vec F S128x64 .f32) (x4 : Vec F S1x64 .f32) (xs9 xs10 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k8_pay4 x0 x1 x2 x3 x4)
            ∗ owns (c : Thread nD τ) arg7 fullShare (k8_pay5 x0 x1 x2 x3 x4 xs9) ∗ owns (c : Thread nD τ) arg8 fullShare (k8_pay1 (k8_pay4 x0 x1 x2 x3 x4) xs10)
            ∗ owns (c : Thread nD τ) arg9 fullShare (k8_pay5 x0 x1 x2 x3 x4 xs9) ∗ owns (c : Thread nD τ) arg10 fullShare (k8_pay1 (k8_pay4 x0 x1 x2 x3 x4) xs10)) -∗ K ⟨⟩))
      ⊢ wp frame (wpE (defs₀ (F := F)) Variants.none c none) E (cc8__mlp_pass1_kernel i arg1 harg1 arg2 harg2 arg3 harg3 arg4 harg4 arg5 harg5 arg6 harg6 arg7 harg7 arg8 harg8 arg9 harg9 arg10 harg10) K := by
  simp only [cc8__mlp_pass1_kernel_eq_skeleton]; unfold cc8__mlp_pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f7, -, H7⟩, ⟨%d8, %f8, -, H8⟩, ⟨%f9, %hf9, H9⟩, ⟨%f10, %hf10, H10⟩, Hk⟩
  subst hf0; subst hf1; subst hf2; subst hf3; subst hf4; subst hf9; subst hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro; sl_unfold_run_names
    simp only [b_ld, b_st, b_rc]
  isplitl [H7]
  · iexists _; isplitr
    swap; · iexact H7
    ipureintro; sl_unfold_run_names
    simp only [b_ld, b_st, b_rc]
  isplitl [H8]
  · iexists _; isplitr
    swap; · iexact H8
    ipureintro; sl_unfold_run_names
    simp only [b_ld, b_st, b_rc]
  isplitl [H9]
  · iexists _; isplitr
    swap; · iexact H9
    ipureintro; sl_unfold_run_names
    simp only [b_ld, b_st, b_rc]
  iexists _; isplitr
  swap; · iexact H10
  ipureintro; sl_unfold_run_names
  simp only [b_ld, b_st, b_rc]

end Cert.Kernel.Hand

end
-- ==== Proof.KBodyR8.lean ====
import proofs.«172917_j75840532513057_2_alg».proof.Proof.KBodyR8Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 8: the windows' blocks, the two accumulators point by point, the proof data -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The two accumulators (column sums, column sums of squares) after `n` points: zero before the first, then each
    point adds its block's column sums. -/
def scr8 (c : Dev nD) : (n : ℕ) → n ≤ cfg8.N → Vec F S1x64 .f32 × Vec F S1x64 .f32
  | 0, _ => (k8_pay2, k8_pay3)
  | n + 1, hn =>
    (k8_pay5 (iblk8 V c 0 ⟨n, hn⟩) (iblk8 V c 1 ⟨n, hn⟩) (iblk8 V c 2 ⟨n, hn⟩) (iblk8 V c 3 ⟨n, hn⟩) (iblk8 V c 4 ⟨n, hn⟩) (scr8 c n (Nat.le_of_succ_le hn)).1,
     k8_pay1 (k8_pay4 (iblk8 V c 0 ⟨n, hn⟩) (iblk8 V c 1 ⟨n, hn⟩) (iblk8 V c 2 ⟨n, hn⟩) (iblk8 V c 3 ⟨n, hn⟩) (iblk8 V c 4 ⟨n, hn⟩)) (scr8 c n (Nat.le_of_succ_le hn)).2)

theorem scr8_zero (c : Dev nD) (h : 0 ≤ cfg8.N) : scr8 V c 0 h = (k8_pay2, k8_pay3) := rfl

theorem scr8_succ (c : Dev nD) (n : ℕ) (hn : n + 1 ≤ cfg8.N) :
    scr8 V c (n + 1) hn =
      (k8_pay5 (iblk8 V c 0 ⟨n, hn⟩) (iblk8 V c 1 ⟨n, hn⟩) (iblk8 V c 2 ⟨n, hn⟩) (iblk8 V c 3 ⟨n, hn⟩) (iblk8 V c 4 ⟨n, hn⟩) (scr8 V c n (Nat.le_of_succ_le hn)).1,
       k8_pay1 (k8_pay4 (iblk8 V c 0 ⟨n, hn⟩) (iblk8 V c 1 ⟨n, hn⟩) (iblk8 V c 2 ⟨n, hn⟩) (iblk8 V c 3 ⟨n, hn⟩) (iblk8 V c 4 ⟨n, hn⟩)) (scr8 V c n (Nat.le_of_succ_le hn)).2) := rfl

/-- The two scratch operands, whole scoped buffers of the kernel's own. -/
abbrev scM8_0 : Memref sig .tc .vmem S1x64 .f32 := Memref.whole cc8_scratch0
abbrev scM8_1 : Memref sig .tc .vmem S1x64 .f32 := Memref.whole cc8_scratch1

/-- The region invariant before position `n`: before the first point the class's; afterwards the two accumulators
    at what the points so far left in them, the other scoped buffers unopened, the generator register at some state. -/
def b_PhiS8 (c : Dev nD) : (n : ℕ) → n ≤ cfg8.N → sProp 𝕄
  | 0, _ => Pipeline.ΦA spec8 c
  | n + 1, hn => iprop(iprop(iprop(owns (c : Thread nD τ) scM8_0 fullShare (scr8 V c (n + 1) hn).1 ∗ owns (c : Thread nD τ) scM8_1 fullShare (scr8 V c (n + 1) hn).2)
      ∗ Pipeline.scopedRestBut (Ix := Unit) (Name := ℕ) (U := UR sig nD τ) (Lvl := ℕ) (Val := Elt F) spec8 c [cc8_scratch0, cc8_scratch1]) ∗ (∃ r, prngReg c r))

/-- The proof data of the region's pipeline on core `c`. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => k8_pay4 (iblk8 V c 0 t) (iblk8 V c 1 t) (iblk8 V c 2 t) (iblk8 V c 3 t) (iblk8 V c 4 t)
    | ⟨6, _⟩ => (scr8 V c (t.val + 1) t.isLt).1
    | ⟨7, _⟩ => (scr8 V c (t.val + 1) t.isLt).2
  Φ t := b_PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t
    = k8_pay4 (iblk8 V c 0 t) (iblk8 V c 1 t) (iblk8 V c 2 t) (iblk8 V c 3 t) (iblk8 V c 4 t) := by dsimp only [dat8]
/-- At every point, what the proof data names for windows 6 and 7 is the accumulators' contents after it. -/
theorem b_after8_6 (c : Dev nD) (t : Fin cfg8.N) : (dat8 V c).after 6 t = (scr8 V c (t.val + 1) t.isLt).1 := by dsimp only [dat8]
theorem b_after8_7 (c : Dev nD) (t : Fin cfg8.N) : (dat8 V c).after 7 t = (scr8 V c (t.val + 1) t.isLt).2 := by dsimp only [dat8]
/-- At the last point (the one that stores them) they are the accumulators after all five points. -/
theorem after8_6 (c : Dev nD) (t : Fin cfg8.N) (h : t.val = 4) : (dat8 V c).after 6 t = (scr8 V c 5 (le_of_eq N_8.symm)).1 := by
  rw [b_after8_6]; obtain ⟨n, hn⟩ := t; dsimp only at h; subst h; rfl
theorem after8_7 (c : Dev nD) (t : Fin cfg8.N) (h : t.val = 4) : (dat8 V c).after 7 t = (scr8 V c 5 (le_of_eq N_8.symm)).2 := by
  rw [b_after8_7]; obtain ⟨n, hn⟩ := t; dsimp only at h; subst h; rfl

/-! ## What the inputs' staging buffers hold -/

theorem b_before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem b_before8_0 (c : Dev nD) (t : Fin cfg8.N) (d) : (dat8 V c).before 0 t d = iblk8 V c 0 t :=
  b_before8_0_of V (dat8 V c) (A_eq8 V c 0) (after8_0 V c) t d

theorem b_before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem b_before8_1 (c : Dev nD) (t : Fin cfg8.N) (d) : (dat8 V c).before 1 t d = iblk8 V c 1 t :=
  b_before8_1_of V (dat8 V c) (A_eq8 V c 1) (after8_1 V c) t d

theorem b_before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem b_before8_2 (c : Dev nD) (t : Fin cfg8.N) (d) : (dat8 V c).before 2 t d = iblk8 V c 2 t :=
  b_before8_2_of V (dat8 V c) (A_eq8 V c 2) (after8_2 V c) t d

theorem b_before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem b_before8_3 (c : Dev nD) (t : Fin cfg8.N) (d) : (dat8 V c).before 3 t d = iblk8 V c 3 t :=
  b_before8_3_of V (dat8 V c) (A_eq8 V c 3) (after8_3 V c) t d

theorem b_before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem b_before8_4 (c : Dev nD) (t : Fin cfg8.N) (d) : (dat8 V c).before 4 t d = iblk8 V c 4 t :=
  b_before8_4_of V (dat8 V c) (A_eq8 V c 4) (after8_4 V c) t d

/-! ## The region invariant, opened -/

/-- The class's invariant with the two accumulators as memrefs owned at some contents, the other scoped buffers unopened. -/
theorem b_PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

theorem b_PhiS8_zero (c : Dev nD) (n : ℕ) (h : n ≤ cfg8.N) (hz : n = 0) : b_PhiS8 V c n h = Pipeline.ΦA spec8 c := by
  subst hz; rfl

/-- Before a point that is not the first: the accumulators at what the points before left. -/
theorem b_PhiS8_pos (c : Dev nD) (n : ℕ) (h : n ≤ cfg8.N) (hz : n ≠ 0) :
    b_PhiS8 V c n h = iprop(iprop(iprop(owns (c : Thread nD τ) scM8_0 fullShare (scr8 V c n h).1 ∗ owns (c : Thread nD τ) scM8_1 fullShare (scr8 V c n h).2)
        ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-- After point `n` (before point `n + 1`): the accumulators at that point's contents. -/
theorem b_PhiS8_succ (c : Dev nD) (n : ℕ) (hn : n + 1 ≤ cfg8.N) :
    b_PhiS8 V c (n + 1) hn = iprop(iprop(iprop(owns (c : Thread nD τ) scM8_0 fullShare (scr8 V c (n + 1) hn).1 ∗ owns (c : Thread nD τ) scM8_1 fullShare (scr8 V c (n + 1) hn).2)
        ∗ Pipeline.scopedRestBut (Ix := Unit) (Name := ℕ) (U := UR sig nD τ) (Lvl := ℕ) (Val := Elt F) spec8 c [cc8_scratch0, cc8_scratch1]) ∗ (∃ r, prngReg c r)) := rfl

theorem b_PhiS8_castSucc (c : Dev nD) (t : Fin cfg8.N) :
    (dat8 V c).Φ t.castSucc = b_PhiS8 V c t.val (Nat.le_of_lt t.isLt) := by
  dsimp only [dat8]; simp only [Fin.coe_castSucc]

/-- The accumulators after point `t`, from what they held before it. -/
theorem b_scr8_at (c : Dev nD) (t : Fin cfg8.N) :
    scr8 V c (t.val + 1) t.isLt
      = (k8_pay5 (iblk8 V c 0 t) (iblk8 V c 1 t) (iblk8 V c 2 t) (iblk8 V c 3 t) (iblk8 V c 4 t) (scr8 V c t.val (Nat.le_of_lt t.isLt)).1,
         k8_pay1 (k8_pay4 (iblk8 V c 0 t) (iblk8 V c 1 t) (iblk8 V c 2 t) (iblk8 V c 3 t) (iblk8 V c 4 t)) (scr8 V c t.val (Nat.le_of_lt t.isLt)).2) := rfl

/-- After the first point: from zero. -/
theorem b_scr8_at_first (c : Dev nD) (t : Fin cfg8.N) (h0 : t.val = 0) :
    scr8 V c (t.val + 1) t.isLt
      = (k8_pay5 (iblk8 V c 0 t) (iblk8 V c 1 t) (iblk8 V c 2 t) (iblk8 V c 3 t) (iblk8 V c 4 t) k8_pay2, k8_pay1 (k8_pay4 (iblk8 V c 0 t) (iblk8 V c 1 t) (iblk8 V c 2 t) (iblk8 V c 3 t) (iblk8 V c 4 t)) k8_pay3) := by
  obtain ⟨n, hn⟩ := t; dsimp only at h0; subst h0; rfl

/-! ## The body obligation, at a generic point -/

/-- What the body is called with at point `t`, -/
def b_bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d)))

/-- and what it returns. -/
def b_bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t
    ∗ (dat8 V c).leavesExact 7 t)

set_option maxHeartbeats 4800000 in
/-- The body at any point: the inputs' memrefs hold their blocks; the closed forms say which of the three cases the point is
    in; the invariant hands the body the accumulators at what the points before left (at anything at the first point) and
    takes them back at this point's contents; outputs 6 and 7 are handed back untouched except at the last point. -/
theorem b_sound_body8 (c : Dev nD) (t : Fin cfg8.N) :
    b_bodyPre8 V c t ⊢ wp frame (wpE (defs₀ (F := F)) Variants.none c none) Set.univ (bodyAt8 t) (fun _ => b_bodyPost8 V c t) := by
  unfold b_bodyPre8 b_bodyPost8 bodyAt8
  simp only [b_before8_0, b_before8_1, b_before8_2, b_before8_3, b_before8_4]
  rw [show (dat8 V c).owesAt () t.succ = (dat8 V c).owesAt () t.castSucc from rfl]
  rw [show (dat8 V c).Φ t.succ = b_PhiS8 V c (t.val + 1) t.isLt from rfl, b_PhiS8_succ]
  rw [show (dat8 V c).leavesExact 0 t = owns (c : Thread nD τ) (st8_0 t) fullShare ((dat8 V c).after 0 t) from by
    unfold Dat.leavesExact; rw [b_live8_0 t], after8_0]
  rw [show (dat8 V c).leavesExact 1 t = owns (c : Thread nD τ) (st8_1 t) fullShare ((dat8 V c).after 1 t) from by
    unfold Dat.leavesExact; rw [b_live8_1 t], after8_1]
  rw [show (dat8 V c).leavesExact 2 t = owns (c : Thread nD τ) (st8_2 t) fullShare ((dat8 V c).after 2 t) from by
    unfold Dat.leavesExact; rw [b_live8_2 t], after8_2]
  rw [show (dat8 V c).leavesExact 3 t = owns (c : Thread nD τ) (st8_3 t) fullShare ((dat8 V c).after 3 t) from by
    unfold Dat.leavesExact; rw [b_live8_3 t], after8_3]
  rw [show (dat8 V c).leavesExact 4 t = owns (c : Thread nD τ) (st8_4 t) fullShare ((dat8 V c).after 4 t) from by
    unfold Dat.leavesExact; rw [b_live8_4 t], after8_4]
  rw [show (dat8 V c).leavesExact 5 t = owns (c : Thread nD τ) (st8_5 t) fullShare ((dat8 V c).after 5 t) from by
    unfold Dat.leavesExact; rw [b_live8_5 t], after8_5]
  by_cases h0 : t.val = 0
  · have h1 : ¬t.val = 4 := by omega
    rw [Dat.leavesExact_idle (dat8 V c) 6 t (b_idle8_6 t (fun h => h1 ((b_hcond8_1 t).mp h))) (b_noFlush8_6 t (fun h => h1 ((b_hcond8_1 t).mp h)))]
    rw [Dat.leavesExact_idle (dat8 V c) 7 t (b_idle8_7 t (fun h => h1 ((b_hcond8_1 t).mp h))) (b_noFlush8_7 t (fun h => h1 ((b_hcond8_1 t).mp h)))]
    rw [b_scr8_at_first V c t h0]; (try dsimp only)
    rw [b_PhiS8_castSucc V c t, b_PhiS8_zero V c _ _ h0, b_PhiA8_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
    iapply (b_run8_first c Set.univ (grid8.coords t) _ _ _ _ _ _ _ _ _ _ _ _ _ _ _ _ _ _ _ _ ((b_hcond8_0 t).mpr h0) (fun h => h1 ((b_hcond8_1 t).mp h))
      (iblk8 V c 0 t) (iblk8 V c 1 t) (iblk8 V c 2 t) (iblk8 V c 3 t) (iblk8 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val = 4
    · rw [show (dat8 V c).leavesExact 6 t = owns (c : Thread nD τ) (st8_6 t) fullShare ((dat8 V c).after 6 t) from by
        unfold Dat.leavesExact; rw [b_live8_6 t ((b_hcond8_1 t).mpr h1)], b_after8_6]
      rw [show (dat8 V c).leavesExact 7 t = owns (c : Thread nD τ) (st8_7 t) fullShare ((dat8 V c).after 7 t) from by
        unfold Dat.leavesExact; rw [b_live8_7 t ((b_hcond8_1 t).mpr h1)], b_after8_7]
      rw [b_scr8_at V c t]; (try dsimp only)
      rw [b_PhiS8_castSucc V c t, b_PhiS8_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (b_run8_last c Set.univ (grid8.coords t) _ _ _ _ _ _ _ _ _ _ _ _ _ _ _ _ _ _ _ _ (fun h => h0 ((b_hcond8_0 t).mp h)) ((b_hcond8_1 t).mpr h1)
        (iblk8 V c 0 t) (iblk8 V c 1 t) (iblk8 V c 2 t) (iblk8 V c 3 t) (iblk8 V c 4 t) (scr8 V c t.val (Nat.le_of_lt t.isLt)).1 (scr8 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat8 V c) 6 t (b_idle8_6 t (fun h => h1 ((b_hcond8_1 t).mp h))) (b_noFlush8_6 t (fun h => h1 ((b_hcond8_1 t).mp h)))]
      rw [Dat.leavesExact_idle (dat8 V c) 7 t (b_idle8_7 t (fun h => h1 ((b_hcond8_1 t).mp h))) (b_noFlush8_7 t (fun h => h1 ((b_hcond8_1 t).mp h)))]
      rw [b_scr8_at V c t]; (try dsimp only)
      rw [b_PhiS8_castSucc V c t, b_PhiS8_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, H6, H7⟩
      iapply (b_run8_mid c Set.univ (grid8.coords t) _ _ _ _ _ _ _ _ _ _ _ _ _ _ _ _ _ _ _ _ (fun h => h0 ((b_hcond8_0 t).mp h)) (fun h => h1 ((b_hcond8_1 t).mp h))
        (iblk8 V c 0 t) (iblk8 V c 1 t) (iblk8 V c 2 t) (iblk8 V c 3 t) (iblk8 V c 4 t) (scr8 V c t.val (Nat.le_of_lt t.isLt)).1 (scr8 V c t.val (Nat.le_of_lt t.isLt)).2 _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation8 (c : Dev nD) : BodyObligation (dat8 (F := F) V c) (defs₀ (F := F)) Variants.none () Set.univ := fun t => by
  rw [bigSep_W8, bigSep_W8]
  exact b_sound_body8 V c t

/-- What the launch hands the region is the invariant before the first point. -/
theorem enter8 (c : Dev nD) : Pipeline.ΦA spec8 c ⊢ (dat8 V c).Φ 0 := by
  rw [show (dat8 V c).Φ 0 = b_PhiS8 V c 0 (Nat.zero_le _) from rfl, b_PhiS8_zero V c 0 _ rfl]
  try exact Idealize.SL.BI.Entails.refl _

/-- After the last point the invariant gives the class's back: the accumulators' named contents are forgotten. -/
theorem leave8 (c : Dev nD) : (dat8 V c).Φ (Fin.last cfg8.N) ⊢ Pipeline.ΦA spec8 c := by
  rw [show (dat8 V c).Φ (Fin.last cfg8.N) = b_PhiS8 V c (Fin.last cfg8.N).val (Nat.le_of_lt_succ (Fin.last cfg8.N).isLt) from rfl,
    b_PhiS8_pos V c _ _ (by rw [Fin.val_last]; have : cfg8.N = 5 := N_8; omega), b_PhiA8_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Cert.Kernel.Hand

end
-- ==== Proof.KBodyA9.lean ====
/- The class-A half of region 9 of @main, the batch-normalisation kernel `cc9__bn_act_kernel`, at a PARAMETER `V` — the TensorCore's buffer contents when the
   region is entered —, generic in the float model: each window's block at a point (`iblk9`), the output buffer after
   the body as the canonical contents of its one whole-block store (`out9_5`), the body's triple (`sound_kernel9`),
   the proof data (`dat9`) and the body obligation (`body_obligation9`). The 5 inputs are read whole; inputs 1..4
   have a constant block index, so their buffers hold at every point the block fetched at the first. -/
import proofs.«172917_j75840532513057_2_alg».proof.Proof.Gen.Kernel.Launch
import proofs.«172917_j75840532513057_2_alg».proof.Proof.Gen.Kernel.Skeleton
import proofs.«172917_j75840532513057_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # Region 9 of @main: the batch-normalisation kernel `cc9__bn_act_kernel` (pipeline 9), at the entry contents `V` -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The body's accesses: each staging buffer is read, and the output's stored, whole -/
abbrev r9_0 : Rect S10000x64 := Rect.unit (s := S10000x64) ![0, 0] S10000x64.size inb_S10000x64_S10000x64_0_0
abbrev r9_1 : Rect S1x64 := Rect.unit (s := S1x64) ![0, 0] S1x64.size inb_S1x64_S1x64_0_0
abbrev r9_2 : Rect S1x64 := Rect.unit (s := S1x64) ![0, 0] S1x64.size inb_S1x64_S1x64_0_0
abbrev r9_3 : Rect S1x64 := Rect.unit (s := S1x64) ![0, 0] S1x64.size inb_S1x64_S1x64_0_0
abbrev r9_4 : Rect S1x64 := Rect.unit (s := S1x64) ![0, 0] S1x64.size inb_S1x64_S1x64_0_0
abbrev r9_5 : Rect S10000x64 := Rect.unit (s := S10000x64) ![0, 0] S10000x64.size inb_S10000x64_S10000x64_0_0

/-- Window 5's staging buffer after the body, from the input windows' blocks: its one store, of the whole block. -/
def out9_5 (x0 : Vec F S10000x64 .f32) (x1 : Vec F S1x64 .f32) (x2 : Vec F S1x64 .f32) (x3 : Vec F S1x64 .f32) (x4 : Vec F S1x64 .f32) : Vec F S10000x64 .f32 :=
  View.canon [⟨r9_5, k9_pay1 (View.ld x0 r9_0) (View.ld x1 r9_1) (View.ld x2 r9_2) (View.ld x3 r9_3) (View.ld x4 r9_4)⟩]

/-! ## What the body finds in each input window's buffer -/

/-- Input window 0's current staging buffer holds its block at every point, fetched there or not, for any proof data
    whose array is `V`'s (`hA`) and whose body leaves the block in place (`hafter`): unfetched, the block index has
    not moved; the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not, for any proof data
    whose array is `V`'s (`hA`) and whose body leaves the block in place (`hafter`): unfetched, the block index has
    not moved; the window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not, for any proof data
    whose array is `V`'s (`hA`) and whose body leaves the block in place (`hafter`): unfetched, the block index has
    not moved; the window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not, for any proof data
    whose array is `V`'s (`hA`) and whose body leaves the block in place (`hafter`): unfetched, the block index has
    not moved; the window is uncut and never idle. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not, for any proof data
    whose array is `V`'s (`hA`) and whose body leaves the block in place (`hafter`): unfetched, the block index has
    not moved; the window is uncut and never idle. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Its one store is of the whole buffer, so it covers it (checked by evaluation). -/
theorem cover9_5 (p0 : Vec F S10000x64 .f32) (y : S10000x64.Idx) :
    ∃ pc ∈ ([⟨r9_5, p0⟩] : List (View.Piece (Elt F) S10000x64 .f32)), y ∈ pc.1.set :=
  View.cover_of_tiled [⟨r9_5, p0⟩] S10000x64.size (by rfl) y

/-! ## The body's triple -/

set_option maxHeartbeats 1000000 in
/-- The kernel body on whole staging memrefs, the inputs' at read contents `xW` and the output's at anything, runs to
    the continuation holding the inputs' as they were and the output's at `out9_5` of the inputs': the printed function
    is its skeleton, which runs load by load (the output's buffer is loaded once, the value unused) to the one store. -/
theorem sound_kernel9 (c : Dev nD) (E : Set ℕ) (i : grid9.Coords) (arg1 : Memref sig .tc .vmem S10000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out9_5 x0 x1 x2 x3 x4)) -∗ K ⟨⟩))
      ⊢ wp frame (wpE (defs₀ (F := F)) Variants.none c none) E (cc9__bn_act_kernel i arg1 harg1 arg2 harg2 arg3 harg3 arg4 harg4 arg5 harg5 arg6 harg6) K := by
  simp only [cc9__bn_act_kernel_eq_skeleton]; unfold cc9__bn_act_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-! ## The pipeline's proof data -/

/-- The proof data of pipeline 9 on core `c`: the arrays as the region finds them (`V`); after the body at point `t`
    each input's buffer at its block and the output's at `out9_5` of the input blocks; the invariant is the scoped
    rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = out9_5 (iblk9 V c 0 t) (iblk9 V c 1 t) (iblk9 V c 2 t) (iblk9 V c 3 t) (iblk9 V c 4 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-! ## The body obligation, at a generic point -/

/-- What the body is called with at point `t` (the windows one by one), -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _ (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Regions

end Cert.Kernel.Hand
-- ==== Proof.KRunW3.lean ====
/- The buffer contents at the boundaries W15..W21 of @main's items, at any float model: a fold from the launch memory
   (a host stretch's `StableHlo.after`; a region's arrays at what its write-backs leave, every other buffer as
   entered), the two facts per region the exit rule takes, and what each item keeps. -/
import proofs.«172917_j75840532513057_2_alg».proof.Proof.KRunW2
import proofs.«172917_j75840532513057_2_alg».proof.Proof.KBodyA7
import proofs.«172917_j75840532513057_2_alg».proof.Proof.KBodyR8
import proofs.«172917_j75840532513057_2_alg».proof.Proof.KBodyA9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- After `hostOps7` (region 7's entry). -/
abbrev W15 : Dev nD → Valuation τ sig (Elt F) := fun c => StableHlo.after hostOps7 (W14 m ρ c)
/-- The same read at the TensorCore's references (what region 7's proof data take). -/
abbrev WV15 : (c : Dev nD) → (b : Ref sig .tc) → Buf (Elt F) ((c : Thread nD τ).loc b) := fun c b => W15 m ρ c b
/-- At region 7's exit: its arrays at what the pipeline leaves (the inputs as entered, each output's write-backs
    folded), every other buffer as entered. -/
def W16 (c : Dev nD) : Valuation τ sig (Elt F) :=
  Pipeline.withArrays spec7 c (W15 m ρ c) fun w => (dat7 (WV15 m ρ) c).arrAt w cfg7.N
theorem W16_arr (c : Dev nD) (w : Fin cfg7.W) :
    W16 m ρ c (Proc.devRef .tc (Pipeline.arrRef spec7 w)) = (dat7 (WV15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
/-- The same read at the TensorCore's references (region 7's exit contents). -/
abbrev WV16 : (c : Dev nD) → (b : Ref sig .tc) → Buf (Elt F) ((c : Thread nD τ).loc b) := fun c b => W16 m ρ c b
/-- At region 7's exit each of its arrays holds what the pipeline leaves and every other buffer what it held at entry. -/
theorem hF7 (c : Dev nD) (w : Fin cfg7.W) : (dat7 (WV15 m ρ) c).arrAt w cfg7.N = WV16 m ρ c (Pipeline.arrRef spec7 w) :=
  (W16_arr m ρ c w).symm
theorem hrest7 (c : Dev nD) : ∀ b, b ∉ Finset.univ.image (Pipeline.arrRef spec7) → WV16 m ρ c b = WV15 m ρ c b :=
  fun b hb => W16_of_ne m ρ c b fun w e => hb (Finset.mem_image.mpr ⟨w, Finset.mem_univ _, e⟩)

/-- After `hostOps8` (region 8's entry). -/
abbrev W17 : Dev nD → Valuation τ sig (Elt F) := fun c => StableHlo.after hostOps8 (W16 m ρ c)
/-- The same read at the TensorCore's references (what region 8's proof data take). -/
abbrev WV17 : (c : Dev nD) → (b : Ref sig .tc) → Buf (Elt F) ((c : Thread nD τ).loc b) := fun c b => W17 m ρ c b
/-- At region 8's exit: its arrays at what the pipeline leaves (the inputs as entered, each output's write-backs
    folded), every other buffer as entered. -/
def W18 (c : Dev nD) : Valuation τ sig (Elt F) :=
  Pipeline.withArrays spec8 c (W17 m ρ c) fun w => (dat8 (WV17 m ρ) c).arrAt w cfg8.N
theorem W18_arr (c : Dev nD) (w : Fin cfg8.W) :
    W18 m ρ c (Proc.devRef .tc (Pipeline.arrRef spec8 w)) = (dat8 (WV17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
/-- The same read at the TensorCore's references (region 8's exit contents). -/
abbrev WV18 : (c : Dev nD) → (b : Ref sig .tc) → Buf (Elt F) ((c : Thread nD τ).loc b) := fun c b => W18 m ρ c b
/-- At region 8's exit each of its arrays holds what the pipeline leaves and every other buffer what it held at entry. -/
theorem hF8 (c : Dev nD) (w : Fin cfg8.W) : (dat8 (WV17 m ρ) c).arrAt w cfg8.N = WV18 m ρ c (Pipeline.arrRef spec8 w) :=
  (W18_arr m ρ c w).symm
theorem hrest8 (c : Dev nD) : ∀ b, b ∉ Finset.univ.image (Pipeline.arrRef spec8) → WV18 m ρ c b = WV17 m ρ c b :=
  fun b hb => W18_of_ne m ρ c b fun w e => hb (Finset.mem_image.mpr ⟨w, Finset.mem_univ _, e⟩)

/-- After `hostOps9` (region 9's entry). -/
abbrev W19 : Dev nD → Valuation τ sig (Elt F) := fun c => StableHlo.after hostOps9 (W18 m ρ c)
/-- The same read at the TensorCore's references (what region 9's proof data take). -/
abbrev WV19 : (c : Dev nD) → (b : Ref sig .tc) → Buf (Elt F) ((c : Thread nD τ).loc b) := fun c b => W19 m ρ c b
/-- At region 9's exit: its arrays at what the pipeline leaves (the inputs as entered, each output's write-backs
    folded), every other buffer as entered. -/
def W20 (c : Dev nD) : Valuation τ sig (Elt F) :=
  Pipeline.withArrays spec9 c (W19 m ρ c) fun w => (dat9 (WV19 m ρ) c).arrAt w cfg9.N
theorem W20_arr (c : Dev nD) (w : Fin cfg9.W) :
    W20 m ρ c (Proc.devRef .tc (Pipeline.arrRef spec9 w)) = (dat9 (WV19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
/-- The same read at the TensorCore's references (region 9's exit contents). -/
abbrev WV20 : (c : Dev nD) → (b : Ref sig .tc) → Buf (Elt F) ((c : Thread nD τ).loc b) := fun c b => W20 m ρ c b
/-- At region 9's exit each of its arrays holds what the pipeline leaves and every other buffer what it held at entry. -/
theorem hF9 (c : Dev nD) (w : Fin cfg9.W) : (dat9 (WV19 m ρ) c).arrAt w cfg9.N = WV20 m ρ c (Pipeline.arrRef spec9 w) :=
  (W20_arr m ρ c w).symm
theorem hrest9 (c : Dev nD) : ∀ b, b ∉ Finset.univ.image (Pipeline.arrRef spec9) → WV20 m ρ c b = WV19 m ρ c b :=
  fun b hb => W20_of_ne m ρ c b fun w e => hb (Finset.mem_image.mpr ⟨w, Finset.mem_univ _, e⟩)

/-- After `hostOps10` (the return). -/
abbrev W21 : Dev nD → Valuation τ sig (Elt F) := fun c => StableHlo.after hostOps10 (W20 m ρ c)

/-! ## What each item keeps: a buffer a host stretch does not write, an input array of a region (a buffer that is no
    array of a region: `W_of_ne` above) -/

/-- `hostOps7` keeps every buffer outside the list of those it writes. -/
theorem W15_keep (c : Dev nD) (r : Ref sig .tc) (h : r ∉ hostOps7_W) :
    W15 m ρ c (Proc.devRef .tc r) = W14 m ρ c (Proc.devRef .tc r) :=
  StableHlo.after_of_writes_sub hostOps7 _ hostOps7_writes h
/-- Region 7 keeps each of its input arrays. -/
theorem W16_in (c : Dev nD) (w : Fin cfg7.W) (hin : (cfg7.win w).isOut = false) :
    W16 m ρ c (Proc.devRef .tc (Pipeline.arrRef spec7 w)) = W15 m ρ c (Proc.devRef .tc (Pipeline.arrRef spec7 w)) :=
  (W16_arr m ρ c w).trans (((dat7 (WV15 m ρ) c).arrAt_in w hin _).trans (A_eq7 (WV15 m ρ) c w))

/-- `hostOps8` keeps every buffer outside the list of those it writes. -/
theorem W17_keep (c : Dev nD) (r : Ref sig .tc) (h : r ∉ hostOps8_W) :
    W17 m ρ c (Proc.devRef .tc r) = W16 m ρ c (Proc.devRef .tc r) :=
  StableHlo.after_of_writes_sub hostOps8 _ hostOps8_writes h
/-- Region 8 keeps each of its input arrays. -/
theorem W18_in (c : Dev nD) (w : Fin cfg8.W) (hin : (cfg8.win w).isOut = false) :
    W18 m ρ c (Proc.devRef .tc (Pipeline.arrRef spec8 w)) = W17 m ρ c (Proc.devRef .tc (Pipeline.arrRef spec8 w)) :=
  (W18_arr m ρ c w).trans (((dat8 (WV17 m ρ) c).arrAt_in w hin _).trans (A_eq8 (WV17 m ρ) c w))

/-- `hostOps9` keeps every buffer outside the list of those it writes. -/
theorem W19_keep (c : Dev nD) (r : Ref sig .tc) (h : r ∉ hostOps9_W) :
    W19 m ρ c (Proc.devRef .tc r) = W18 m ρ c (Proc.devRef .tc r) :=
  StableHlo.after_of_writes_sub hostOps9 _ hostOps9_writes h
/-- Region 9 keeps each of its input arrays. -/
theorem W20_in (c : Dev nD) (w : Fin cfg9.W) (hin : (cfg9.win w).isOut = false) :
    W20 m ρ c (Proc.devRef .tc (Pipeline.arrRef spec9 w)) = W19 m ρ c (Proc.devRef .tc (Pipeline.arrRef spec9 w)) :=
  (W20_arr m ρ c w).trans (((dat9 (WV19 m ρ) c).arrAt_in w hin _).trans (A_eq9 (WV19 m ρ) c w))

/-- `hostOps10` keeps every buffer outside the list of those it writes. -/
theorem W21_keep (c : Dev nD) (r : Ref sig .tc) (h : r ∉ hostOps10_W) :
    W21 m ρ c (Proc.devRef .tc r) = W20 m ρ c (Proc.devRef .tc r) :=
  StableHlo.after_of_writes_sub hostOps10 _ hostOps10_writes h

end Cert.Kernel.Hand

end
-- ==== Proof.KRunK.lean ====
/- The run of @main over its 21 items, at any float model: every pipeline's proof data at its region's entry contents,
   each region as a segment between two boundaries of the fold, a host segment per stretch, and the whole run: every
   fair execution terminates and ends with every unscoped buffer at the last boundary's contents. -/
import proofs.«172917_j75840532513057_2_alg».proof.Proof.KRunW3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The proof data family and the thread state -/

/-- Every pipeline's proof data, each at its region's entry contents: a literal `match`, so that the family at a
    numeral reduces to the region's own data. -/
def pdats : (p : Fin 10) → (c : Dev nD) → Dat τ (Elt F) Unit ℕ (UR sig nD τ) ℕ (Pipeline.pin (pcfgs (F := F)) adm p) c
  | ⟨0, _⟩ => fun c => dat0 (WV1 m ρ) c
  | ⟨1, _⟩ => fun c => dat1 (WV3 m ρ) c
  | ⟨2, _⟩ => fun c => dat2 (WV5 m ρ) c
  | ⟨3, _⟩ => fun c => dat3 (WV7 m ρ) c
  | ⟨4, _⟩ => fun c => dat4 (WV9 m ρ) c
  | ⟨5, _⟩ => fun c => dat5 (WV11 m ρ) c
  | ⟨6, _⟩ => fun c => dat6 (WV13 m ρ) c
  | ⟨7, _⟩ => fun c => dat7 (WV15 m ρ) c
  | ⟨8, _⟩ => fun c => dat8 (WV17 m ρ) c
  | ⟨9, _⟩ => fun c => dat9 (WV19 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W21`, the
    generator register at some state. -/
abbrev Tₙ (c : Dev nD) : sProp 𝕄 := iprop(StableHlo.held (c : Thread nD τ) (Pipeline.ucRefs τ sig) (W21 m ρ c) ∗ ∃ r, prngReg c r)

/-- The last host stretch's thread state is the last thread state beside the core owing nothing (the same parts, regrouped). -/
theorem c_last (c : Dev nD) :
    iprop(StableHlo.held (c : Thread nD τ) (Pipeline.ucRefs τ sig) (W21 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The class invariant, in and out -/

/-- The class invariant from the generator register and the scoped rest (whatever else is offered is dropped). -/
theorem c_ΦA_in {gr W : Nat} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ (Pipeline.ΦA win c : sProp 𝕄) := by
  unfold Pipeline.ΦA
  iintro ⟨Hp, -, Hr⟩
  isplitl [Hr]; · iexact Hr
  iexact Hp
/-- The class invariant gives back the generator register and the scoped rest. -/
theorem c_ΦA_out {gr W : Nat} (win : Fin W → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- REGION 0 over the thread state: entered from every unscoped buffer at `W1`, left at `W2`. Its arrays
    split out of the unscoped buffers and put back at the exit contents; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (WV1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (WV1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (WV1 m ρ c) fun w => A_eq0 (WV1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]
    exact c_ΦA_in spec0 c _
  hout c := by
    rw [Pipeline.ownSems0_none, show (pdats m ρ 0 c).Φ (Fin.last _) = Pipeline.ΦA spec0 c from rfl]
    exact c_ΦA_out spec0 c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (WV1 m ρ c) (WV2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays
    split out of the unscoped buffers and put back at the exit contents; the generator register into the invariant
    and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (WV3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (WV3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (WV3 m ρ c) fun w => A_eq1 (WV3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    exact c_ΦA_in spec1 c _
  hout c := by
    rw [Pipeline.ownSems0_none, show (pdats m ρ 1 c).Φ (Fin.last _) = Pipeline.ΦA spec1 c from rfl]
    exact c_ΦA_out spec1 c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (WV3 m ρ c) (WV4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays
    split out of the unscoped buffers and put back at the exit contents; the generator register into the invariant
    and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (WV5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (WV5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (WV5 m ρ c) fun w => A_eq2 (WV5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (c_ΦA_in spec2 c _).trans (enter2 (WV5 m ρ) c)
  hout c := by
    rw [Pipeline.ownSems0_none]
    exact (leave2 (WV5 m ρ) c).trans (c_ΦA_out spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (WV5 m ρ c) (WV6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays
    split out of the unscoped buffers and put back at the exit contents; the generator register into the invariant
    and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (WV7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (WV7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (WV7 m ρ c) fun w => A_eq3 (WV7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]
    exact c_ΦA_in spec3 c _
  hout c := by
    rw [Pipeline.ownSems0_none, show (pdats m ρ 3 c).Φ (Fin.last _) = Pipeline.ΦA spec3 c from rfl]
    exact c_ΦA_out spec3 c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (WV7 m ρ c) (WV8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays
    split out of the unscoped buffers and put back at the exit contents; the generator register into the invariant
    and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (WV9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (WV9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (WV9 m ρ c) fun w => A_eq4 (WV9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]
    exact c_ΦA_in spec4 c _
  hout c := by
    rw [Pipeline.ownSems0_none, show (pdats m ρ 4 c).Φ (Fin.last _) = Pipeline.ΦA spec4 c from rfl]
    exact c_ΦA_out spec4 c
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (WV9 m ρ c) (WV10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W11`, left at `W12`. Its arrays
    split out of the unscoped buffers and put back at the exit contents; the generator register into the invariant
    and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (WV11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (WV11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (WV11 m ρ c) fun w => A_eq5 (WV11 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (c_ΦA_in spec5 c _).trans (enter5 (WV11 m ρ) c)
  hout c := by
    rw [Pipeline.ownSems0_none]
    exact (leave5 (WV11 m ρ) c).trans (c_ΦA_out spec5 c)
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (WV11 m ρ c) (WV12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W13`, left at `W14`. Its arrays
    split out of the unscoped buffers and put back at the exit contents; the generator register into the invariant
    and out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (WV13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (WV13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (WV13 m ρ c) fun w => A_eq6 (WV13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]
    exact c_ΦA_in spec6 c _
  hout c := by
    rw [Pipeline.ownSems0_none, show (pdats m ρ 6 c).Φ (Fin.last _) = Pipeline.ΦA spec6 c from rfl]
    exact c_ΦA_out spec6 c
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (WV13 m ρ c) (WV14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W15`, left at `W16`. Its arrays
    split out of the unscoped buffers and put back at the exit contents; the generator register into the invariant
    and out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (WV15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (WV15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (WV15 m ρ c) fun w => A_eq7 (WV15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]
    exact c_ΦA_in spec7 c _
  hout c := by
    rw [Pipeline.ownSems0_none, show (pdats m ρ 7 c).Φ (Fin.last _) = Pipeline.ΦA spec7 c from rfl]
    exact c_ΦA_out spec7 c
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (WV15 m ρ c) (WV16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W17`, left at `W18`. Its arrays
    split out of the unscoped buffers and put back at the exit contents; the generator register into the invariant
    and out; nothing owed; no semaphore of the kernel's own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (WV17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (WV17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (WV17 m ρ c) fun w => A_eq8 (WV17 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (c_ΦA_in spec8 c _).trans (enter8 (WV17 m ρ) c)
  hout c := by
    rw [Pipeline.ownSems0_none]
    exact (leave8 (WV17 m ρ) c).trans (c_ΦA_out spec8 c)
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (WV17 m ρ c) (WV18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W19`, left at `W20`. Its arrays
    split out of the unscoped buffers and put back at the exit contents; the generator register into the invariant
    and out; nothing owed; no semaphore of the kernel's own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (WV19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (WV19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (WV19 m ρ c) fun w => A_eq9 (WV19 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]
    exact c_ΦA_in spec9 c _
  hout c := by
    rw [Pipeline.ownSems0_none, show (pdats m ρ 9 c).Φ (Fin.last _) = Pipeline.ΦA spec9 c from rfl]
    exact c_ΦA_out spec9 c
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (WV19 m ρ c) (WV20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # @main as segments, and the launch -/

/-- @main's 21 segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)) ]

/-- @main is the run of the segments: both are the chain of the same 21 fragments. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3,
      Prog.lift (.customCall (Pipeline.entry 3) ()),
      StableHlo.seq hostOps4,
      Prog.lift (.customCall (Pipeline.entry 4) ()),
      StableHlo.seq hostOps5,
      Prog.lift (.customCall (Pipeline.entry 5) ()),
      StableHlo.seq hostOps6,
      Prog.lift (.customCall (Pipeline.entry 6) ()),
      StableHlo.seq hostOps7,
      Prog.lift (.customCall (Pipeline.entry 7) ()),
      StableHlo.seq hostOps8,
      Prog.lift (.customCall (Pipeline.entry 8) ()),
      StableHlo.seq hostOps9,
      Prog.lift (.customCall (Pipeline.entry 9) ()),
      StableHlo.seq hostOps10 ] from rfl]
  rfl

set_option backward.isDefEq.respectTransparency.types false in
/-- THE RUN: from any memory with zero counters, every weakly fair execution of @main on the TensorCores terminates,
    nothing faulting, and every final state holds every unscoped buffer at the last boundary's contents `W21`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => c_last m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun _ h => h)

/-- info: 'Cert.Kernel.Hand.run_all' depends on axioms: [propext, Classical.choice, Quot.sound] -/
#guard_msgs in #print axioms run_all

end Cert.Kernel.Hand

end
-- ==== Proof.KRunArgs.lean ====
/-
  Every argument array is read by no host operation's write set and is at most an input window of a region, so each
  boundary's contents at an argument walk back to the launch memory.
-/
import proofs.«172917_j75840532513057_2_alg».proof.Proof.KRunW3

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ) (ρ : Dev nD → PrngReg) (c : Dev nD)

theorem kW21_arg0 : W21 m ρ c (Proc.devRef .tc main_arg0) = m ((c.tc : Thread nD τ).loc main_arg0) :=
  (((W21_keep m ρ c main_arg0 (by decide)).trans ((W20_of_ne m ρ c main_arg0 (by decide)).trans ((W19_keep m ρ c main_arg0 (by decide)).trans ((W18_of_ne m ρ c main_arg0 (by decide)).trans ((W17_keep m ρ c main_arg0 (by decide)).trans ((W16_of_ne m ρ c main_arg0 (by decide)).trans ((W15_keep m ρ c main_arg0 (by decide)).trans ((W14_of_ne m ρ c main_arg0 (by decide)).trans ((W13_keep m ρ c main_arg0 (by decide)).trans ((W12_of_ne m ρ c main_arg0 (by decide)).trans ((W11_keep m ρ c main_arg0 (by decide)).trans ((W10_of_ne m ρ c main_arg0 (by decide)).trans ((W9_keep m ρ c main_arg0 (by decide)).trans ((W8_of_ne m ρ c main_arg0 (by decide)).trans ((W7_keep m ρ c main_arg0 (by decide)).trans ((W6_of_ne m ρ c main_arg0 (by decide)).trans ((W5_keep m ρ c main_arg0 (by decide)).trans ((W4_of_ne m ρ c main_arg0 (by decide)).trans ((W3_keep m ρ c main_arg0 (by decide)).trans ((W2_in m ρ c 0 rfl).trans (W1_keep m ρ c main_arg0 (by decide))))))))))))))))))))))).trans rfl
theorem kW21_arg1 : W21 m ρ c (Proc.devRef .tc main_arg1) = m ((c.tc : Thread nD τ).loc main_arg1) :=
  (((W21_keep m ρ c main_arg1 (by decide)).trans ((W20_of_ne m ρ c main_arg1 (by decide)).trans ((W19_keep m ρ c main_arg1 (by decide)).trans ((W18_of_ne m ρ c main_arg1 (by decide)).trans ((W17_keep m ρ c main_arg1 (by decide)).trans ((W16_of_ne m ρ c main_arg1 (by decide)).trans ((W15_keep m ρ c main_arg1 (by decide)).trans ((W14_of_ne m ρ c main_arg1 (by decide)).trans ((W13_keep m ρ c main_arg1 (by decide)).trans ((W12_of_ne m ρ c main_arg1 (by decide)).trans ((W11_keep m ρ c main_arg1 (by decide)).trans ((W10_of_ne m ρ c main_arg1 (by decide)).trans ((W9_keep m ρ c main_arg1 (by decide)).trans ((W8_of_ne m ρ c main_arg1 (by decide)).trans ((W7_keep m ρ c main_arg1 (by decide)).trans ((W6_of_ne m ρ c main_arg1 (by decide)).trans ((W5_keep m ρ c main_arg1 (by decide)).trans ((W4_of_ne m ρ c main_arg1 (by decide)).trans ((W3_keep m ρ c main_arg1 (by decide)).trans ((W2_of_ne m ρ c main_arg1 (by decide)).trans (W1_keep m ρ c main_arg1 (by decide))))))))))))))))))))))).trans rfl
theorem kW21_arg2 : W21 m ρ c (Proc.devRef .tc main_arg2) = m ((c.tc : Thread nD τ).loc main_arg2) :=
  (((W21_keep m ρ c main_arg2 (by decide)).trans ((W20_of_ne m ρ c main_arg2 (by decide)).trans ((W19_keep m ρ c main_arg2 (by decide)).trans ((W18_of_ne m ρ c main_arg2 (by decide)).trans ((W17_keep m ρ c main_arg2 (by decide)).trans ((W16_of_ne m ρ c main_arg2 (by decide)).trans ((W15_keep m ρ c main_arg2 (by decide)).trans ((W14_of_ne m ρ c main_arg2 (by decide)).trans ((W13_keep m ρ c main_arg2 (by decide)).trans ((W12_of_ne m ρ c main_arg2 (by decide)).trans ((W11_keep m ρ c main_arg2 (by decide)).trans ((W10_of_ne m ρ c main_arg2 (by decide)).trans ((W9_keep m ρ c main_arg2 (by decide)).trans ((W8_of_ne m ρ c main_arg2 (by decide)).trans ((W7_keep m ρ c main_arg2 (by decide)).trans ((W6_of_ne m ρ c main_arg2 (by decide)).trans ((W5_keep m ρ c main_arg2 (by decide)).trans ((W4_of_ne m ρ c main_arg2 (by decide)).trans ((W3_keep m ρ c main_arg2 (by decide)).trans ((W2_of_ne m ρ c main_arg2 (by decide)).trans (W1_keep m ρ c main_arg2 (by decide))))))))))))))))))))))).trans rfl
theorem kW21_arg3 : W21 m ρ c (Proc.devRef .tc main_arg3) = m ((c.tc : Thread nD τ).loc main_arg3) :=
  (((W21_keep m ρ c main_arg3 (by decide)).trans ((W20_of_ne m ρ c main_arg3 (by decide)).trans ((W19_keep m ρ c main_arg3 (by decide)).trans ((W18_of_ne m ρ c main_arg3 (by decide)).trans ((W17_keep m ρ c main_arg3 (by decide)).trans ((W16_of_ne m ρ c main_arg3 (by decide)).trans ((W15_keep m ρ c main_arg3 (by decide)).trans ((W14_of_ne m ρ c main_arg3 (by decide)).trans ((W13_keep m ρ c main_arg3 (by decide)).trans ((W12_of_ne m ρ c main_arg3 (by decide)).trans ((W11_keep m ρ c main_arg3 (by decide)).trans ((W10_of_ne m ρ c main_arg3 (by decide)).trans ((W9_keep m ρ c main_arg3 (by decide)).trans ((W8_of_ne m ρ c main_arg3 (by decide)).trans ((W7_keep m ρ c main_arg3 (by decide)).trans ((W6_of_ne m ρ c main_arg3 (by decide)).trans ((W5_keep m ρ c main_arg3 (by decide)).trans ((W4_of_ne m ρ c main_arg3 (by decide)).trans ((W3_keep m ρ c main_arg3 (by decide)).trans ((W2_of_ne m ρ c main_arg3 (by decide)).trans (W1_keep m ρ c main_arg3 (by decide))))))))))))))))))))))).trans rfl
theorem kW21_arg4 : W21 m ρ c (Proc.devRef .tc main_arg4) = m ((c.tc : Thread nD τ).loc main_arg4) :=
  (((W21_keep m ρ c main_arg4 (by decide)).trans ((W20_of_ne m ρ c main_arg4 (by decide)).trans ((W19_keep m ρ c main_arg4 (by decide)).trans ((W18_of_ne m ρ c main_arg4 (by decide)).trans ((W17_keep m ρ c main_arg4 (by decide)).trans ((W16_of_ne m ρ c main_arg4 (by decide)).trans ((W15_keep m ρ c main_arg4 (by decide)).trans ((W14_of_ne m ρ c main_arg4 (by decide)).trans ((W13_keep m ρ c main_arg4 (by decide)).trans ((W12_of_ne m ρ c main_arg4 (by decide)).trans ((W11_keep m ρ c main_arg4 (by decide)).trans ((W10_of_ne m ρ c main_arg4 (by decide)).trans ((W9_keep m ρ c main_arg4 (by decide)).trans ((W8_of_ne m ρ c main_arg4 (by decide)).trans ((W7_keep m ρ c main_arg4 (by decide)).trans ((W6_of_ne m ρ c main_arg4 (by decide)).trans ((W5_keep m ρ c main_arg4 (by decide)).trans ((W4_of_ne m ρ c main_arg4 (by decide)).trans ((W3_keep m ρ c main_arg4 (by decide)).trans ((W2_in m ρ c 1 rfl).trans (W1_keep m ρ c main_arg4 (by decide))))))))))))))))))))))).trans rfl
theorem kW21_arg5 : W21 m ρ c (Proc.devRef .tc main_arg5) = m ((c.tc : Thread nD τ).loc main_arg5) :=
  (((W21_keep m ρ c main_arg5 (by decide)).trans ((W20_of_ne m ρ c main_arg5 (by decide)).trans ((W19_keep m ρ c main_arg5 (by decide)).trans ((W18_of_ne m ρ c main_arg5 (by decide)).trans ((W17_keep m ρ c main_arg5 (by decide)).trans ((W16_of_ne m ρ c main_arg5 (by decide)).trans ((W15_keep m ρ c main_arg5 (by decide)).trans ((W14_of_ne m ρ c main_arg5 (by decide)).trans ((W13_keep m ρ c main_arg5 (by decide)).trans ((W12_of_ne m ρ c main_arg5 (by decide)).trans ((W11_keep m ρ c main_arg5 (by decide)).trans ((W10_of_ne m ρ c main_arg5 (by decide)).trans ((W9_keep m ρ c main_arg5 (by decide)).trans ((W8_of_ne m ρ c main_arg5 (by decide)).trans ((W7_keep m ρ c main_arg5 (by decide)).trans ((W6_of_ne m ρ c main_arg5 (by decide)).trans ((W5_keep m ρ c main_arg5 (by decide)).trans ((W4_of_ne m ρ c main_arg5 (by decide)).trans ((W3_keep m ρ c main_arg5 (by decide)).trans ((W2_of_ne m ρ c main_arg5 (by decide)).trans (W1_keep m ρ c main_arg5 (by decide))))))))))))))))))))))).trans rfl
theorem kW21_arg6 : W21 m ρ c (Proc.devRef .tc main_arg6) = m ((c.tc : Thread nD τ).loc main_arg6) :=
  (((W21_keep m ρ c main_arg6 (by decide)).trans ((W20_of_ne m ρ c main_arg6 (by decide)).trans ((W19_keep m ρ c main_arg6 (by decide)).trans ((W18_of_ne m ρ c main_arg6 (by decide)).trans ((W17_keep m ρ c main_arg6 (by decide)).trans ((W16_of_ne m ρ c main_arg6 (by decide)).trans ((W15_keep m ρ c main_arg6 (by decide)).trans ((W14_of_ne m ρ c main_arg6 (by decide)).trans ((W13_keep m ρ c main_arg6 (by decide)).trans ((W12_of_ne m ρ c main_arg6 (by decide)).trans ((W11_keep m ρ c main_arg6 (by decide)).trans ((W10_of_ne m ρ c main_arg6 (by decide)).trans ((W9_keep m ρ c main_arg6 (by decide)).trans ((W8_of_ne m ρ c main_arg6 (by decide)).trans ((W7_keep m ρ c main_arg6 (by decide)).trans ((W6_of_ne m ρ c main_arg6 (by decide)).trans ((W5_keep m ρ c main_arg6 (by decide)).trans ((W4_of_ne m ρ c main_arg6 (by decide)).trans ((W3_keep m ρ c main_arg6 (by decide)).trans ((W2_of_ne m ρ c main_arg6 (by decide)).trans (W1_keep m ρ c main_arg6 (by decide))))))))))))))))))))))).trans rfl
theorem kW21_arg7 : W21 m ρ c (Proc.devRef .tc main_arg7) = m ((c.tc : Thread nD τ).loc main_arg7) :=
  (((W21_keep m ρ c main_arg7 (by decide)).trans ((W20_of_ne m ρ c main_arg7 (by decide)).trans ((W19_keep m ρ c main_arg7 (by decide)).trans ((W18_of_ne m ρ c main_arg7 (by decide)).trans ((W17_keep m ρ c main_arg7 (by decide)).trans ((W16_of_ne m ρ c main_arg7 (by decide)).trans ((W15_keep m ρ c main_arg7 (by decide)).trans ((W14_of_ne m ρ c main_arg7 (by decide)).trans ((W13_keep m ρ c main_arg7 (by decide)).trans ((W12_of_ne m ρ c main_arg7 (by decide)).trans ((W11_keep m ρ c main_arg7 (by decide)).trans ((W10_of_ne m ρ c main_arg7 (by decide)).trans ((W9_keep m ρ c main_arg7 (by decide)).trans ((W8_of_ne m ρ c main_arg7 (by decide)).trans ((W7_keep m ρ c main_arg7 (by decide)).trans ((W6_of_ne m ρ c main_arg7 (by decide)).trans ((W5_keep m ρ c main_arg7 (by decide)).trans ((W4_of_ne m ρ c main_arg7 (by decide)).trans ((W3_keep m ρ c main_arg7 (by decide)).trans ((W2_of_ne m ρ c main_arg7 (by decide)).trans (W1_keep m ρ c main_arg7 (by decide))))))))))))))))))))))).trans rfl
theorem kW21_arg8 : W21 m ρ c (Proc.devRef .tc main_arg8) = m ((c.tc : Thread nD τ).loc main_arg8) :=
  (((W21_keep m ρ c main_arg8 (by decide)).trans ((W20_of_ne m ρ c main_arg8 (by decide)).trans ((W19_keep m ρ c main_arg8 (by decide)).trans ((W18_of_ne m ρ c main_arg8 (by decide)).trans ((W17_keep m ρ c main_arg8 (by decide)).trans ((W16_of_ne m ρ c main_arg8 (by decide)).trans ((W15_keep m ρ c main_arg8 (by decide)).trans ((W14_of_ne m ρ c main_arg8 (by decide)).trans ((W13_keep m ρ c main_arg8 (by decide)).trans ((W12_of_ne m ρ c main_arg8 (by decide)).trans ((W11_keep m ρ c main_arg8 (by decide)).trans ((W10_of_ne m ρ c main_arg8 (by decide)).trans ((W9_keep m ρ c main_arg8 (by decide)).trans ((W8_of_ne m ρ c main_arg8 (by decide)).trans ((W7_keep m ρ c main_arg8 (by decide)).trans ((W6_of_ne m ρ c main_arg8 (by decide)).trans ((W5_keep m ρ c main_arg8 (by decide)).trans ((W4_of_ne m ρ c main_arg8 (by decide)).trans ((W3_keep m ρ c main_arg8 (by decide)).trans ((W2_of_ne m ρ c main_arg8 (by decide)).trans (W1_keep m ρ c main_arg8 (by decide))))))))))))))))))))))).trans rfl
theorem kW21_arg9 : W21 m ρ c (Proc.devRef .tc main_arg9) = m ((c.tc : Thread nD τ).loc main_arg9) :=
  (((W21_keep m ρ c main_arg9 (by decide)).trans ((W20_of_ne m ρ c main_arg9 (by decide)).trans ((W19_keep m ρ c main_arg9 (by decide)).trans ((W18_of_ne m ρ c main_arg9 (by decide)).trans ((W17_keep m ρ c main_arg9 (by decide)).trans ((W16_of_ne m ρ c main_arg9 (by decide)).trans ((W15_keep m ρ c main_arg9 (by decide)).trans ((W14_of_ne m ρ c main_arg9 (by decide)).trans ((W13_keep m ρ c main_arg9 (by decide)).trans ((W12_of_ne m ρ c main_arg9 (by decide)).trans ((W11_keep m ρ c main_arg9 (by decide)).trans ((W10_of_ne m ρ c main_arg9 (by decide)).trans ((W9_keep m ρ c main_arg9 (by decide)).trans ((W8_of_ne m ρ c main_arg9 (by decide)).trans ((W7_keep m ρ c main_arg9 (by decide)).trans ((W6_of_ne m ρ c main_arg9 (by decide)).trans ((W5_keep m ρ c main_arg9 (by decide)).trans ((W4_of_ne m ρ c main_arg9 (by decide)).trans ((W3_keep m ρ c main_arg9 (by decide)).trans ((W2_of_ne m ρ c main_arg9 (by decide)).trans (W1_keep m ρ c main_arg9 (by decide))))))))))))))))))))))).trans rfl
theorem kW21_arg10 : W21 m ρ c (Proc.devRef .tc main_arg10) = m ((c.tc : Thread nD τ).loc main_arg10) :=
  (((W21_keep m ρ c main_arg10 (by decide)).trans ((W20_of_ne m ρ c main_arg10 (by decide)).trans ((W19_keep m ρ c main_arg10 (by decide)).trans ((W18_of_ne m ρ c main_arg10 (by decide)).trans ((W17_keep m ρ c main_arg10 (by decide)).trans ((W16_of_ne m ρ c main_arg10 (by decide)).trans ((W15_keep m ρ c main_arg10 (by decide)).trans ((W14_of_ne m ρ c main_arg10 (by decide)).trans ((W13_keep m ρ c main_arg10 (by decide)).trans ((W12_of_ne m ρ c main_arg10 (by decide)).trans ((W11_keep m ρ c main_arg10 (by decide)).trans ((W10_of_ne m ρ c main_arg10 (by decide)).trans ((W9_keep m ρ c main_arg10 (by decide)).trans ((W8_of_ne m ρ c main_arg10 (by decide)).trans ((W7_keep m ρ c main_arg10 (by decide)).trans ((W6_of_ne m ρ c main_arg10 (by decide)).trans ((W5_keep m ρ c main_arg10 (by decide)).trans ((W4_of_ne m ρ c main_arg10 (by decide)).trans ((W3_keep m ρ c main_arg10 (by decide)).trans ((W2_of_ne m ρ c main_arg10 (by decide)).trans (W1_keep m ρ c main_arg10 (by decide))))))))))))))))))))))).trans rfl
theorem kW21_arg11 : W21 m ρ c (Proc.devRef .tc main_arg11) = m ((c.tc : Thread nD τ).loc main_arg11) :=
  (((W21_keep m ρ c main_arg11 (by decide)).trans ((W20_of_ne m ρ c main_arg11 (by decide)).trans ((W19_keep m ρ c main_arg11 (by decide)).trans ((W18_of_ne m ρ c main_arg11 (by decide)).trans ((W17_keep m ρ c main_arg11 (by decide)).trans ((W16_of_ne m ρ c main_arg11 (by decide)).trans ((W15_keep m ρ c main_arg11 (by decide)).trans ((W14_of_ne m ρ c main_arg11 (by decide)).trans ((W13_keep m ρ c main_arg11 (by decide)).trans ((W12_of_ne m ρ c main_arg11 (by decide)).trans ((W11_keep m ρ c main_arg11 (by decide)).trans ((W10_of_ne m ρ c main_arg11 (by decide)).trans ((W9_keep m ρ c main_arg11 (by decide)).trans ((W8_of_ne m ρ c main_arg11 (by decide)).trans ((W7_keep m ρ c main_arg11 (by decide)).trans ((W6_of_ne m ρ c main_arg11 (by decide)).trans ((W5_keep m ρ c main_arg11 (by decide)).trans ((W4_of_ne m ρ c main_arg11 (by decide)).trans ((W3_keep m ρ c main_arg11 (by decide)).trans ((W2_of_ne m ρ c main_arg11 (by decide)).trans (W1_keep m ρ c main_arg11 (by decide))))))))))))))))))))))).trans rfl
theorem kW21_arg12 : W21 m ρ c (Proc.devRef .tc main_arg12) = m ((c.tc : Thread nD τ).loc main_arg12) :=
  (((W21_keep m ρ c main_arg12 (by decide)).trans ((W20_of_ne m ρ c main_arg12 (by decide)).trans ((W19_keep m ρ c main_arg12 (by decide)).trans ((W18_of_ne m ρ c main_arg12 (by decide)).trans ((W17_keep m ρ c main_arg12 (by decide)).trans ((W16_of_ne m ρ c main_arg12 (by decide)).trans ((W15_keep m ρ c main_arg12 (by decide)).trans ((W14_of_ne m ρ c main_arg12 (by decide)).trans ((W13_keep m ρ c main_arg12 (by decide)).trans ((W12_of_ne m ρ c main_arg12 (by decide)).trans ((W11_keep m ρ c main_arg12 (by decide)).trans ((W10_of_ne m ρ c main_arg12 (by decide)).trans ((W9_keep m ρ c main_arg12 (by decide)).trans ((W8_of_ne m ρ c main_arg12 (by decide)).trans ((W7_keep m ρ c main_arg12 (by decide)).trans ((W6_of_ne m ρ c main_arg12 (by decide)).trans ((W5_keep m ρ c main_arg12 (by decide)).trans ((W4_of_ne m ρ c main_arg12 (by decide)).trans ((W3_keep m ρ c main_arg12 (by decide)).trans ((W2_of_ne m ρ c main_arg12 (by decide)).trans (W1_keep m ρ c main_arg12 (by decide))))))))))))))))))))))).trans rfl
theorem kW21_arg13 : W21 m ρ c (Proc.devRef .tc main_arg13) = m ((c.tc : Thread nD τ).loc main_arg13) :=
  (((W21_keep m ρ c main_arg13 (by decide)).trans ((W20_of_ne m ρ c main_arg13 (by decide)).trans ((W19_keep m ρ c main_arg13 (by decide)).trans ((W18_of_ne m ρ c main_arg13 (by decide)).trans ((W17_keep m ρ c main_arg13 (by decide)).trans ((W16_of_ne m ρ c main_arg13 (by decide)).trans ((W15_keep m ρ c main_arg13 (by decide)).trans ((W14_of_ne m ρ c main_arg13 (by decide)).trans ((W13_keep m ρ c main_arg13 (by decide)).trans ((W12_of_ne m ρ c main_arg13 (by decide)).trans ((W11_keep m ρ c main_arg13 (by decide)).trans ((W10_of_ne m ρ c main_arg13 (by decide)).trans ((W9_keep m ρ c main_arg13 (by decide)).trans ((W8_of_ne m ρ c main_arg13 (by decide)).trans ((W7_keep m ρ c main_arg13 (by decide)).trans ((W6_of_ne m ρ c main_arg13 (by decide)).trans ((W5_keep m ρ c main_arg13 (by decide)).trans ((W4_of_ne m ρ c main_arg13 (by decide)).trans ((W3_keep m ρ c main_arg13 (by decide)).trans ((W2_of_ne m ρ c main_arg13 (by decide)).trans (W1_keep m ρ c main_arg13 (by decide))))))))))))))))))))))).trans rfl

end Cert.Kernel.Hand

end
-- ==== Proof.RefOps0.lean ====
import proofs.«172917_j75840532513057_2_alg».proof.Proof.Gen.ReferenceIdeal
import Idealize.ShloMosaic.Lib.StableHlo.Run

/-! The reference's @main, statements 1 … 60 of 250, as the list of its 62 host operations in order. Each call's body is unfolded at the call over that call's record of buffers (@relu's three). -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60: 62 operations. -/
abbrev p0 : List (HloOp τ sig (Elt F)) :=
  [
    StableHlo.nullary main_cst (constant S_ .f32 0x00000000#32),
    StableHlo.unary main_cst main_v0 (broadcastInDim S50000x5 ![] bcast_S_S50000x5 : (⟨S_, .f32⟩ : BufTy).Contents (Elt F) → (⟨S50000x5, .f32⟩ : BufTy).Contents (Elt F)),
    StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.nullary main_cst_0 (constant S_ .f32 0x41000000#32),
    StableHlo.unary main_cst_0 main_v2 (broadcastInDim S50000 ![] bcast_S_S50000 : (⟨S_, .f32⟩ : BufTy).Contents (Elt F) → (⟨S50000, .f32⟩ : BufTy).Contents (Elt F)),
    StableHlo.ternary main_v0 main_v1 main_v2 main_v3 ((fun x i u => Host.scatter scatter_S50000x5_S1_S50000_0_1_1_0 (fun _ b => b) x i u) : (⟨S50000x5, .f32⟩ : BufTy).Contents (Elt F) → (⟨S1, .i32⟩ : BufTy).Contents (Elt F) → (⟨S50000, .f32⟩ : BufTy).Contents (Elt F) → (⟨S50000x5, .f32⟩ : BufTy).Contents (Elt F)),
    StableHlo.binary main_arg1 main_v3 main_v4 ((fun a b => concatenate S1050000x5 0 [⟨S1000000x5, a⟩, ⟨S50000x5, b⟩] concatenates_S1000000x5_S50000x5_S1050000x5_d0) : (⟨S1000000x5, .f32⟩ : BufTy).Contents (Elt F) → (⟨S50000x5, .f32⟩ : BufTy).Contents (Elt F) → (⟨S1050000x5, .f32⟩ : BufTy).Contents (Elt F)),
    StableHlo.nullary main_v5 (iotaInDim S50000 32 0),
    StableHlo.unary main_arg2 main_v6 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v6 main_v7 rfl shapeCasts_S1x1000000_S1000000,
    StableHlo.binary main_v7 main_v5 main_v8 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    StableHlo.unary main_arg2 main_v9 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v9 main_v10 rfl shapeCasts_S1x1000000_S1000000,
    StableHlo.binary main_v10 main_v5 main_v11 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    StableHlo.binary main_arg0 main_arg4 main_v12 ((fun l r => Host.dotGeneral dot_S50000x7_S7x64_S50000x64_1_0_0_1_n_n none l r) : (⟨S50000x7, .f32⟩ : BufTy).Contents (Elt F) → (⟨S7x64, .f32⟩ : BufTy).Contents (Elt F) → (⟨S50000x64, .f32⟩ : BufTy).Contents (Elt F)),
    StableHlo.unary main_arg5 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S50000x64 ![0, 1] bcast_S1x64_S50000x64_0_1 : (⟨S1x64, .f32⟩ : BufTy).Contents (Elt F) → (⟨S50000x64, .f32⟩ : BufTy).Contents (Elt F)),
    StableHlo.binary main_v12 main_v14 main_v15 (addf : (⟨S50000x64, .f32⟩ : BufTy).Contents (Elt F) → (⟨S50000x64, .f32⟩ : BufTy).Contents (Elt F) → (⟨S50000x64, .f32⟩ : BufTy).Contents (Elt F)),
    StableHlo.unary main_arg6 main_v16 ((extractStridedSlice S1x5x64 ![0, 0, 0] · slices_S3x5x64_S1x5x64_0_0_0) : (⟨S3x5x64, .f32⟩ : BufTy).Contents (Elt F) → (⟨S1x5x64, .f32⟩ : BufTy).Contents (Elt F)),
    StableHlo.reshape main_v16 main_v17 rfl shapeCasts_S1x5x64_S5x64,
    StableHlo.binary main_v4 main_v17 main_v18 ((fun l r => Host.dotGeneral dot_S1050000x5_S5x64_S1050000x64_1_0_0_1_n_n none l r) : (⟨S1050000x5, .f32⟩ : BufTy).Contents (Elt F) → (⟨S5x64, .f32⟩ : BufTy).Contents (Elt F) → (⟨S1050000x64, .f32⟩ : BufTy).Contents (Elt F)),
    StableHlo.unary main_arg7 main_v19 ((extractStridedSlice S1x64 ![0, 0] · slices_S3x64_S1x64_0_0) : (⟨S3x64, .f32⟩ : BufTy).Contents (Elt F) → (⟨S1x64, .f32⟩ : BufTy).Contents (Elt F)),
    StableHlo.reshape main_v19 main_v20 rfl shapeCasts_S1x64_S64,
    StableHlo.unary main_v20 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S1050000x64 ![0, 1] bcast_S1x64_S1050000x64_0_1 : (⟨S1x64, .f32⟩ : BufTy).Contents (Elt F) → (⟨S1050000x64, .f32⟩ : BufTy).Contents (Elt F)),
    StableHlo.binary main_v18 main_v22 main_v23 (addf : (⟨S1050000x64, .f32⟩ : BufTy).Contents (Elt F) → (⟨S1050000x64, .f32⟩ : BufTy).Contents (Elt F) → (⟨S1050000x64, .f32⟩ : BufTy).Contents (Elt F)),
    StableHlo.nullary main_c_1 (constantI S_ 32 0#32),
    StableHlo.unary main_c_1 main_v24 (broadcastInDim S1050000 ![] bcast_S_S1050000 : (⟨S_, .i32⟩ : BufTy).Contents (Elt F) → (⟨S1050000, .i32⟩ : BufTy).Contents (Elt F)),
    StableHlo.binary main_v8 main_v24 main_v25 (cmpi .slt : (⟨S1050000, .i32⟩ : BufTy).Contents (Elt F) → (⟨S1050000, .i32⟩ : BufTy).Contents (Elt F) → (⟨S1050000, .i1⟩ : BufTy).Contents (Elt F)),
    StableHlo.nullary main_c_2 (constantI S_ 32 50000#32),
    StableHlo.unary main_c_2 main_v26 (broadcastInDim S1050000 ![] bcast_S_S1050000 : (⟨S_, .i32⟩ : BufTy).Contents (Elt F) → (⟨S1050000, .i32⟩ : BufTy).Contents (Elt F)),
    StableHlo.binary main_v8 main_v26 main_v27 (addi : (⟨S1050000, .i32⟩ : BufTy).Contents (Elt F) → (⟨S1050000, .i32⟩ : BufTy).Contents (Elt F) → (⟨S1050000, .i32⟩ : BufTy).Contents (Elt F)),
    StableHlo.ternary main_v25 main_v27 main_v8 main_v28 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v28 main_v29 (broadcastInDim S1050000x1 ![0] bcast_S1050000_S1050000x1_0 : (⟨S1050000, .i32⟩ : BufTy).Contents (Elt F) → (⟨S1050000x1, .i32⟩ : BufTy).Contents (Elt F)),
    StableHlo.binary main_v15 main_v29 main_v30 ((fun x i => Host.gather gather_S50000x64_S1050000x1_S1050000x64_1_0_n_n_0_1_164 x i) : (⟨S50000x64, .f32⟩ : BufTy).Contents (Elt F) → (⟨S1050000x1, .i32⟩ : BufTy).Contents (Elt F) → (⟨S1050000x64, .f32⟩ : BufTy).Contents (Elt F)),
    StableHlo.binary main_v30 main_v23 main_v31 (addf : (⟨S1050000x64, .f32⟩ : BufTy).Contents (Elt F) → (⟨S1050000x64, .f32⟩ : BufTy).Contents (Elt F) → (⟨S1050000x64, .f32⟩ : BufTy).Contents (Elt F)),
    StableHlo.nullary main_cst_3 (constant S_ .f32 0x00000000#32),
    StableHlo.unary main_cst_3 main_v32 (broadcastInDim S50000x64 ![] bcast_S_S50000x64 : (⟨S_, .f32⟩ : BufTy).Contents (Elt F) → (⟨S50000x64, .f32⟩ : BufTy).Contents (Elt F)),
    StableHlo.unary main_v11 main_v33 (broadcastInDim S1050000x1 ![0] bcast_S1050000_S1050000x1_0 : (⟨S1050000, .i32⟩ : BufTy).Contents (Elt F) → (⟨S1050000x1, .i32⟩ : BufTy).Contents (Elt F)),
    StableHlo.ternary main_v32 main_v33 main_v31 main_v34 ((fun x i u => Host.scatterAdd scatter_S50000x64_S1050000x1_S1050000x64_1_0_0_1 x i u) : (⟨S50000x64, .f32⟩ : BufTy).Contents (Elt F) → (⟨S1050000x1, .i32⟩ : BufTy).Contents (Elt F) → (⟨S1050000x64, .f32⟩ : BufTy).Contents (Elt F) → (⟨S50000x64, .f32⟩ : BufTy).Contents (Elt F)),
    StableHlo.unary main_arg8 main_v35 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v35 main_v36 rfl shapeCasts_S1x64x128_S64x128,
    StableHlo.binary main_v34 main_v36 main_v37 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg9 main_v38 ((extractStridedSlice S1x128 ![0, 0] · slices_S3x128_S1x128_0_0) : (⟨S3x128, .f32⟩ : BufTy).Contents (Elt F) → (⟨S1x128, .f32⟩ : BufTy).Contents (Elt F)),
    StableHlo.reshape main_v38 main_v39 rfl shapeCasts_S1x128_S128,
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v41 main_v42 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v42) main_call0.v0 main_call0.v1 maximumf,
    StableHlo.unary main_arg10 main_v44 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v44 main_v45 rfl shapeCasts_S1x128x64_S128x64,
    StableHlo.binary main_v43 main_v45 main_v46 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v47 ((extractStridedSlice S1x64 ![0, 0] · slices_S3x64_S1x64_0_0) : (⟨S3x64, .f32⟩ : BufTy).Contents (Elt F) → (⟨S1x64, .f32⟩ : BufTy).Contents (Elt F)),
    StableHlo.reshape main_v47 main_v48 rfl shapeCasts_S1x64_S64,
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S50000x64 ![0, 1] bcast_S1x64_S50000x64_0_1 : (⟨S1x64, .f32⟩ : BufTy).Contents (Elt F) → (⟨S50000x64, .f32⟩ : BufTy).Contents (Elt F)),
    StableHlo.binary main_v46 main_v50 main_v51 (addf : (⟨S50000x64, .f32⟩ : BufTy).Contents (Elt F) → (⟨S50000x64, .f32⟩ : BufTy).Contents (Elt F) → (⟨S50000x64, .f32⟩ : BufTy).Contents (Elt F)),
    StableHlo.nullary main_cst_4 (constant S_ .f32 0x00000000#32),
    StableHlo.binary main_v51 main_cst_4 main_v52 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ]

set_option maxRecDepth 8192 in
/-- The printed part is that straight line: the called functions' definitions unfolded at their calls, both sides
    are one chain of `hlo` steps once sequencing is reassociated. -/
theorem main_part0_eq (c : Dev nD) : main_part0 (F := F) c = seq p0 := rfl

/-- Every operation touches TensorCore references only. -/
theorem d_p0_sub : (p0 : List (HloOp τ sig (Elt F))).Forall fun op => op.bufs ⊆ tcRefs τ sig :=
  ⟨
    nullary_bufs_sub .., unary_bufs_sub .., nullary_bufs_sub .., unary_bufs_sub .., nullary_bufs_sub .., unary_bufs_sub ..,
    ternary_bufs_sub .., binary_bufs_sub .., nullary_bufs_sub .., unary_bufs_sub .., reshape_bufs_sub .., binary_bufs_sub ..,
    unary_bufs_sub .., reshape_bufs_sub .., binary_bufs_sub .., binary_bufs_sub .., unary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., unary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., unary_bufs_sub .., reshape_bufs_sub ..,
    binary_bufs_sub .., unary_bufs_sub .., reshape_bufs_sub .., unary_bufs_sub .., unary_bufs_sub .., binary_bufs_sub ..,
    nullary_bufs_sub .., binary_bufs_sub ..⟩

set_option maxRecDepth 8192 in
/-- Every operation determines its results. -/
theorem d_p0_fresh : ∀ op ∈ (p0 : List (HloOp τ sig (Elt F))), op.fresh = ∅ := by
  intro _ h
  (repeat (cases h with | head => rfl | tail _ h => ?_))
  exact nomatch h

/-- The references the part writes, one per operation. -/
abbrev d_w0 : List (Ref sig .tc) :=
  [
    main_cst, main_v0, main_c, main_v1, main_cst_0, main_v2, main_v3, main_v4,
    main_v5, main_v6, main_v7, main_v8, main_v9, main_v10, main_v11, main_v12,
    main_v13, main_v14, main_v15, main_v16, main_v17, main_v18, main_v19, main_v20,
    main_v21, main_v22, main_v23, main_c_1, main_v24, main_v25, main_c_2, main_v26,
    main_v27, main_v28, main_v29, main_v30, main_v31, main_cst_3, main_v32, main_v33,
    main_v34, main_v35, main_v36, main_v37, main_v38, main_v39, main_v40, main_v41,
    main_v42, main_call0.cst.ref, main_call0.v0.ref, main_call0.v1.ref, main_v44, main_v45, main_v46, main_v47,
    main_v48, main_v49, main_v50, main_v51, main_cst_4, main_v52 ]

/-- The singleton of a listed reference lies among the list's device references. -/
private theorem d_sub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Each operation writes its own listed reference and nothing else. -/
theorem d_p0_writes : (p0 : List (HloOp τ sig (Elt F))).Forall fun op =>
    op.writes ⊆ (d_w0.map (Proc.devRef (τ := τ) .tc)).toFinset :=
  ⟨
    d_sub main_cst (by decide), d_sub main_v0 (by decide), d_sub main_c (by decide), d_sub main_v1 (by decide),
    d_sub main_cst_0 (by decide), d_sub main_v2 (by decide), d_sub main_v3 (by decide), d_sub main_v4 (by decide),
    d_sub main_v5 (by decide), d_sub main_v6 (by decide), d_sub main_v7 (by decide), d_sub main_v8 (by decide),
    d_sub main_v9 (by decide), d_sub main_v10 (by decide), d_sub main_v11 (by decide), d_sub main_v12 (by decide),
    d_sub main_v13 (by decide), d_sub main_v14 (by decide), d_sub main_v15 (by decide), d_sub main_v16 (by decide),
    d_sub main_v17 (by decide), d_sub main_v18 (by decide), d_sub main_v19 (by decide), d_sub main_v20 (by decide),
    d_sub main_v21 (by decide), d_sub main_v22 (by decide), d_sub main_v23 (by decide), d_sub main_c_1 (by decide),
    d_sub main_v24 (by decide), d_sub main_v25 (by decide), d_sub main_c_2 (by decide), d_sub main_v26 (by decide),
    d_sub main_v27 (by decide), d_sub main_v28 (by decide), d_sub main_v29 (by decide), d_sub main_v30 (by decide),
    d_sub main_v31 (by decide), d_sub main_cst_3 (by decide), d_sub main_v32 (by decide), d_sub main_v33 (by decide),
    d_sub main_v34 (by decide), d_sub main_v35 (by decide), d_sub main_v36 (by decide), d_sub main_v37 (by decide),
    d_sub main_v38 (by decide), d_sub main_v39 (by decide), d_sub main_v40 (by decide), d_sub main_v41 (by decide),
    d_sub main_v42 (by decide), d_sub (main_call0.cst.ref) (by decide), d_sub (main_call0.v0.ref) (by decide), d_sub (main_call0.v1.ref) (by decide),
    d_sub main_v44 (by decide), d_sub main_v45 (by decide), d_sub main_v46 (by decide), d_sub main_v47 (by decide),
    d_sub main_v48 (by decide), d_sub main_v49 (by decide), d_sub main_v50 (by decide), d_sub main_v51 (by decide),
    d_sub main_cst_4 (by decide), d_sub main_v52 (by decide)⟩

/-- A reference the part does not write keeps its contents through the part. -/
theorem d_p0_keep (V : Valuation τ sig (Elt F)) {r : Ref sig .tc} (hr : r ∉ d_w0) :
    after p0 V (Proc.devRef .tc r) = V (Proc.devRef .tc r) :=
  after_of_writes_sub p0 V d_p0_writes hr

end Cert.ReferenceIdeal.Hand

end
-- ==== Proof.RefOps1.lean ====
import proofs.«172917_j75840532513057_2_alg».proof.Proof.Gen.ReferenceIdeal
import Idealize.ShloMosaic.Lib.StableHlo.Run

/-! The reference's @main, statements 61 … 120 of 250, as the list of its 74 host operations in order. Each call's body is unfolded at the call over that call's record of buffers (@elu's fifteen: its own eleven, @_where's three after the seventh, @_where_0's select last). -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 61 … 120: 74 operations. -/
abbrev p1 : List (HloOp τ sig (Elt F)) :=
  [
    StableHlo.nullary main_cst_5 (constant S_ .f32 0x47435000#32),
    StableHlo.unary main_cst_5 main_v53 (broadcastInDim S64 ![] bcast_S_S64 : (⟨S_, .f32⟩ : BufTy).Contents (Elt F) → (⟨S64, .f32⟩ : BufTy).Contents (Elt F)),
    StableHlo.binary main_v52 main_v53 main_v54 (Host.divf : (⟨S64, .f32⟩ : BufTy).Contents (Elt F) → (⟨S64, .f32⟩ : BufTy).Contents (Elt F) → (⟨S64, .f32⟩ : BufTy).Contents (Elt F)),
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v56 main_v57 (subf : (⟨S50000x64, .f32⟩ : BufTy).Contents (Elt F) → (⟨S50000x64, .f32⟩ : BufTy).Contents (Elt F) → (⟨S50000x64, .f32⟩ : BufTy).Contents (Elt F)),
    StableHlo.binary main_v57 main_v57 main_v58 (mulf : (⟨S50000x64, .f32⟩ : BufTy).Contents (Elt F) → (⟨S50000x64, .f32⟩ : BufTy).Contents (Elt F) → (⟨S50000x64, .f32⟩ : BufTy).Contents (Elt F)),
    StableHlo.nullary main_cst_6 (constant S_ .f32 0x00000000#32),
    StableHlo.binary main_v58 main_cst_6 main_v59 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_7 (constant S_ .f32 0x47435000#32),
    StableHlo.unary main_cst_7 main_v60 (broadcastInDim S64 ![] bcast_S_S64 : (⟨S_, .f32⟩ : BufTy).Contents (Elt F) → (⟨S64, .f32⟩ : BufTy).Contents (Elt F)),
    StableHlo.binary main_v59 main_v60 main_v61 (Host.divf : (⟨S64, .f32⟩ : BufTy).Contents (Elt F) → (⟨S64, .f32⟩ : BufTy).Contents (Elt F) → (⟨S64, .f32⟩ : BufTy).Contents (Elt F)),
    StableHlo.unary main_v54 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v63 main_v64 (subf : (⟨S50000x64, .f32⟩ : BufTy).Contents (Elt F) → (⟨S50000x64, .f32⟩ : BufTy).Contents (Elt F) → (⟨S50000x64, .f32⟩ : BufTy).Contents (Elt F)),
    StableHlo.nullary main_cst_8 (constant S_ .f32 0x3727C5AC#32),
    StableHlo.unary main_cst_8 main_v65 (broadcastInDim S64 ![] bcast_S_S64 : (⟨S_, .f32⟩ : BufTy).Contents (Elt F) → (⟨S64, .f32⟩ : BufTy).Contents (Elt F)),
    StableHlo.binary main_v61 main_v65 main_v66 (addf : (⟨S64, .f32⟩ : BufTy).Contents (Elt F) → (⟨S64, .f32⟩ : BufTy).Contents (Elt F) → (⟨S64, .f32⟩ : BufTy).Contents (Elt F)),
    StableHlo.unary main_v66 main_v67 (Host.rsqrt : (⟨S64, .f32⟩ : BufTy).Contents (Elt F) → (⟨S64, .f32⟩ : BufTy).Contents (Elt F)),
    StableHlo.unary main_v67 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S50000x64 ![0, 1] bcast_S1x64_S50000x64_0_1 : (⟨S1x64, .f32⟩ : BufTy).Contents (Elt F) → (⟨S50000x64, .f32⟩ : BufTy).Contents (Elt F)),
    StableHlo.binary main_v64 main_v69 main_v70 (mulf : (⟨S50000x64, .f32⟩ : BufTy).Contents (Elt F) → (⟨S50000x64, .f32⟩ : BufTy).Contents (Elt F) → (⟨S50000x64, .f32⟩ : BufTy).Contents (Elt F)),
    StableHlo.unary main_arg12 main_v71 ((extractStridedSlice S1x64 ![0, 0] · slices_S3x64_S1x64_0_0) : (⟨S3x64, .f32⟩ : BufTy).Contents (Elt F) → (⟨S1x64, .f32⟩ : BufTy).Contents (Elt F)),
    StableHlo.reshape main_v71 main_v72 rfl shapeCasts_S1x64_S64,
    StableHlo.unary main_v72 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S50000x64 ![0, 1] bcast_S1x64_S50000x64_0_1 : (⟨S1x64, .f32⟩ : BufTy).Contents (Elt F) → (⟨S50000x64, .f32⟩ : BufTy).Contents (Elt F)),
    StableHlo.binary main_v70 main_v74 main_v75 (mulf : (⟨S50000x64, .f32⟩ : BufTy).Contents (Elt F) → (⟨S50000x64, .f32⟩ : BufTy).Contents (Elt F) → (⟨S50000x64, .f32⟩ : BufTy).Contents (Elt F)),
    StableHlo.unary main_arg13 main_v76 ((extractStridedSlice S1x64 ![0, 0] · slices_S3x64_S1x64_0_0) : (⟨S3x64, .f32⟩ : BufTy).Contents (Elt F) → (⟨S1x64, .f32⟩ : BufTy).Contents (Elt F)),
    StableHlo.reshape main_v76 main_v77 rfl shapeCasts_S1x64_S64,
    StableHlo.unary main_v77 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S50000x64 ![0, 1] bcast_S1x64_S50000x64_0_1 : (⟨S1x64, .f32⟩ : BufTy).Contents (Elt F) → (⟨S50000x64, .f32⟩ : BufTy).Contents (Elt F)),
    StableHlo.binary main_v75 main_v79 main_v80 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v80) main_call1.v0 main_call1.v1 (cmpf .ogt),
    StableHlo.TRef.nullary main_call1.cst_0 (constant S_ .f32 0x00000000#32),
    StableHlo.TRef.unary main_call1.cst_0 main_call1.v2 (broadcastInDim S50000x64 ![] bcast_S_S50000x64),
    StableHlo.TRef.binary (.of main_v80) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x64 ![] bcast_S_S50000x64),
    StableHlo.TRef.ternary main_call1.v3 main_call1.call0.v1 (.of main_v80) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x64 ![] bcast_S_S50000x64),
    StableHlo.TRef.binary main_call1.v6 main_call1.v5 main_call1.v7 mulf,
    StableHlo.TRef.ternary main_call1.v1 (.of main_v80) main_call1.v7 main_call1.call1.v0 select,
    StableHlo.unary main_arg6 main_v82 ((extractStridedSlice S1x5x64 ![1, 0, 0] · slices_S3x5x64_S1x5x64_1_0_0) : (⟨S3x5x64, .f32⟩ : BufTy).Contents (Elt F) → (⟨S1x5x64, .f32⟩ : BufTy).Contents (Elt F)),
    StableHlo.reshape main_v82 main_v83 rfl shapeCasts_S1x5x64_S5x64,
    StableHlo.binary main_v4 main_v83 main_v84 ((fun l r => Host.dotGeneral dot_S1050000x5_S5x64_S1050000x64_1_0_0_1_n_n none l r) : (⟨S1050000x5, .f32⟩ : BufTy).Contents (Elt F) → (⟨S5x64, .f32⟩ : BufTy).Contents (Elt F) → (⟨S1050000x64, .f32⟩ : BufTy).Contents (Elt F)),
    StableHlo.unary main_arg7 main_v85 ((extractStridedSlice S1x64 ![1, 0] · slices_S3x64_S1x64_1_0) : (⟨S3x64, .f32⟩ : BufTy).Contents (Elt F) → (⟨S1x64, .f32⟩ : BufTy).Contents (Elt F)),
    StableHlo.reshape main_v85 main_v86 rfl shapeCasts_S1x64_S64,
    StableHlo.unary main_v86 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S1050000x64 ![0, 1] bcast_S1x64_S1050000x64_0_1 : (⟨S1x64, .f32⟩ : BufTy).Contents (Elt F) → (⟨S1050000x64, .f32⟩ : BufTy).Contents (Elt F)),
    StableHlo.binary main_v84 main_v88 main_v89 (addf : (⟨S1050000x64, .f32⟩ : BufTy).Contents (Elt F) → (⟨S1050000x64, .f32⟩ : BufTy).Contents (Elt F) → (⟨S1050000x64, .f32⟩ : BufTy).Contents (Elt F)),
    StableHlo.nullary main_c_9 (constantI S_ 32 0#32),
    StableHlo.unary main_c_9 main_v90 (broadcastInDim S1050000 ![] bcast_S_S1050000 : (⟨S_, .i32⟩ : BufTy).Contents (Elt F) → (⟨S1050000, .i32⟩ : BufTy).Contents (Elt F)),
    StableHlo.binary main_v8 main_v90 main_v91 (cmpi .slt : (⟨S1050000, .i32⟩ : BufTy).Contents (Elt F) → (⟨S1050000, .i32⟩ : BufTy).Contents (Elt F) → (⟨S1050000, .i1⟩ : BufTy).Contents (Elt F)),
    StableHlo.nullary main_c_10 (constantI S_ 32 50000#32),
    StableHlo.unary main_c_10 main_v92 (broadcastInDim S1050000 ![] bcast_S_S1050000 : (⟨S_, .i32⟩ : BufTy).Contents (Elt F) → (⟨S1050000, .i32⟩ : BufTy).Contents (Elt F)),
    StableHlo.binary main_v8 main_v92 main_v93 (addi : (⟨S1050000, .i32⟩ : BufTy).Contents (Elt F) → (⟨S1050000, .i32⟩ : BufTy).Contents (Elt F) → (⟨S1050000, .i32⟩ : BufTy).Contents (Elt F)),
    StableHlo.ternary main_v91 main_v93 main_v8 main_v94 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v94 main_v95 (broadcastInDim S1050000x1 ![0] bcast_S1050000_S1050000x1_0 : (⟨S1050000, .i32⟩ : BufTy).Contents (Elt F) → (⟨S1050000x1, .i32⟩ : BufTy).Contents (Elt F)),
    StableHlo.binary main_v81 main_v95 main_v96 ((fun x i => Host.gather gather_S50000x64_S1050000x1_S1050000x64_1_0_n_n_0_1_164 x i) : (⟨S50000x64, .f32⟩ : BufTy).Contents (Elt F) → (⟨S1050000x1, .i32⟩ : BufTy).Contents (Elt F) → (⟨S1050000x64, .f32⟩ : BufTy).Contents (Elt F)),
    StableHlo.binary main_v96 main_v89 main_v97 (addf : (⟨S1050000x64, .f32⟩ : BufTy).Contents (Elt F) → (⟨S1050000x64, .f32⟩ : BufTy).Contents (Elt F) → (⟨S1050000x64, .f32⟩ : BufTy).Contents (Elt F)),
    StableHlo.nullary main_cst_11 (constant S_ .f32 0x00000000#32),
    StableHlo.unary main_cst_11 main_v98 (broadcastInDim S50000x64 ![] bcast_S_S50000x64 : (⟨S_, .f32⟩ : BufTy).Contents (Elt F) → (⟨S50000x64, .f32⟩ : BufTy).Contents (Elt F)),
    StableHlo.unary main_v11 main_v99 (broadcastInDim S1050000x1 ![0] bcast_S1050000_S1050000x1_0 : (⟨S1050000, .i32⟩ : BufTy).Contents (Elt F) → (⟨S1050000x1, .i32⟩ : BufTy).Contents (Elt F)),
    StableHlo.ternary main_v98 main_v99 main_v97 main_v100 ((fun x i u => Host.scatterAdd scatter_S50000x64_S1050000x1_S1050000x64_1_0_0_1 x i u) : (⟨S50000x64, .f32⟩ : BufTy).Contents (Elt F) → (⟨S1050000x1, .i32⟩ : BufTy).Contents (Elt F) → (⟨S1050000x64, .f32⟩ : BufTy).Contents (Elt F) → (⟨S50000x64, .f32⟩ : BufTy).Contents (Elt F)),
    StableHlo.unary main_arg8 main_v101 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v101 main_v102 rfl shapeCasts_S1x64x128_S64x128,
    StableHlo.binary main_v100 main_v102 main_v103 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg9 main_v104 ((extractStridedSlice S1x128 ![1, 0] · slices_S3x128_S1x128_1_0) : (⟨S3x128, .f32⟩ : BufTy).Contents (Elt F) → (⟨S1x128, .f32⟩ : BufTy).Contents (Elt F)),
    StableHlo.reshape main_v104 main_v105 rfl shapeCasts_S1x128_S128 ]

set_option maxRecDepth 8192 in
/-- The printed part is that straight line: the called functions' definitions unfolded at their calls, both sides
    are one chain of `hlo` steps once sequencing is reassociated. -/
theorem main_part1_eq (c : Dev nD) : main_part1 (F := F) c = seq p1 := rfl

/-- Every operation touches TensorCore references only. -/
theorem d_p1_sub : (p1 : List (HloOp τ sig (Elt F))).Forall fun op => op.bufs ⊆ tcRefs τ sig :=
  ⟨
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub .., unary_bufs_sub ..,
    reshape_bufs_sub .., binary_bufs_sub .., unary_bufs_sub .., reshape_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., unary_bufs_sub .., ternary_bufs_sub .., unary_bufs_sub .., reshape_bufs_sub .., binary_bufs_sub ..,
    unary_bufs_sub .., reshape_bufs_sub ..⟩

set_option maxRecDepth 8192 in
/-- Every operation determines its results. -/
theorem d_p1_fresh : ∀ op ∈ (p1 : List (HloOp τ sig (Elt F))), op.fresh = ∅ := by
  intro _ h
  (repeat (cases h with | head => rfl | tail _ h => ?_))
  exact nomatch h

/-- The references the part writes, one per operation. -/
abbrev d_w1 : List (Ref sig .tc) :=
  [
    main_cst_5, main_v53, main_v54, main_v55, main_v56, main_v57, main_v58, main_cst_6,
    main_v59, main_cst_7, main_v60, main_v61, main_v62, main_v63, main_v64, main_cst_8,
    main_v65, main_v66, main_v67, main_v68, main_v69, main_v70, main_v71, main_v72,
    main_v73, main_v74, main_v75, main_v76, main_v77, main_v78, main_v79, main_v80,
    main_call1.cst.ref, main_call1.v0.ref, main_call1.v1.ref, main_call1.cst_0.ref, main_call1.v2.ref, main_call1.v3.ref, main_call1.cst_1.ref, main_call1.call0.v0.ref,
    main_call1.call0.v1.ref, main_call1.call0.v2.ref, main_call1.v5.ref, main_call1.cst_2.ref, main_call1.v6.ref, main_call1.v7.ref, main_call1.call1.v0.ref, main_v82,
    main_v83, main_v84, main_v85, main_v86, main_v87, main_v88, main_v89, main_c_9,
    main_v90, main_v91, main_c_10, main_v92, main_v93, main_v94, main_v95, main_v96,
    main_v97, main_cst_11, main_v98, main_v99, main_v100, main_v101, main_v102, main_v103,
    main_v104, main_v105 ]

/-- The singleton of a listed reference lies among the list's device references. -/
private theorem d_sub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Each operation writes its own listed reference and nothing else. -/
theorem d_p1_writes : (p1 : List (HloOp τ sig (Elt F))).Forall fun op =>
    op.writes ⊆ (d_w1.map (Proc.devRef (τ := τ) .tc)).toFinset :=
  ⟨
    d_sub main_cst_5 (by decide), d_sub main_v53 (by decide), d_sub main_v54 (by decide), d_sub main_v55 (by decide),
    d_sub main_v56 (by decide), d_sub main_v57 (by decide), d_sub main_v58 (by decide), d_sub main_cst_6 (by decide),
    d_sub main_v59 (by decide), d_sub main_cst_7 (by decide), d_sub main_v60 (by decide), d_sub main_v61 (by decide),
    d_sub main_v62 (by decide), d_sub main_v63 (by decide), d_sub main_v64 (by decide), d_sub main_cst_8 (by decide),
    d_sub main_v65 (by decide), d_sub main_v66 (by decide), d_sub main_v67 (by decide), d_sub main_v68 (by decide),
    d_sub main_v69 (by decide), d_sub main_v70 (by decide), d_sub main_v71 (by decide), d_sub main_v72 (by decide),
    d_sub main_v73 (by decide), d_sub main_v74 (by decide), d_sub main_v75 (by decide), d_sub main_v76 (by decide),
    d_sub main_v77 (by decide), d_sub main_v78 (by decide), d_sub main_v79 (by decide), d_sub main_v80 (by decide),
    d_sub (main_call1.cst.ref) (by decide), d_sub (main_call1.v0.ref) (by decide), d_sub (main_call1.v1.ref) (by decide), d_sub (main_call1.cst_0.ref) (by decide),
    d_sub (main_call1.v2.ref) (by decide), d_sub (main_call1.v3.ref) (by decide), d_sub (main_call1.cst_1.ref) (by decide), d_sub (main_call1.call0.v0.ref) (by decide),
    d_sub (main_call1.call0.v1.ref) (by decide), d_sub (main_call1.call0.v2.ref) (by decide), d_sub (main_call1.v5.ref) (by decide), d_sub (main_call1.cst_2.ref) (by decide),
    d_sub (main_call1.v6.ref) (by decide), d_sub (main_call1.v7.ref) (by decide), d_sub (main_call1.call1.v0.ref) (by decide), d_sub main_v82 (by decide),
    d_sub main_v83 (by decide), d_sub main_v84 (by decide), d_sub main_v85 (by decide), d_sub main_v86 (by decide),
    d_sub main_v87 (by decide), d_sub main_v88 (by decide), d_sub main_v89 (by decide), d_sub main_c_9 (by decide),
    d_sub main_v90 (by decide), d_sub main_v91 (by decide), d_sub main_c_10 (by decide), d_sub main_v92 (by decide),
    d_sub main_v93 (by decide), d_sub main_v94 (by decide), d_sub main_v95 (by decide), d_sub main_v96 (by decide),
    d_sub main_v97 (by decide), d_sub main_cst_11 (by decide), d_sub main_v98 (by decide), d_sub main_v99 (by decide),
    d_sub main_v100 (by decide), d_sub main_v101 (by decide), d_sub main_v102 (by decide), d_sub main_v103 (by decide),
    d_sub main_v104 (by decide), d_sub main_v105 (by decide)⟩

/-- A reference the part does not write keeps its contents through the part. -/
theorem d_p1_keep (V : Valuation τ sig (Elt F)) {r : Ref sig .tc} (hr : r ∉ d_w1) :
    after p1 V (Proc.devRef .tc r) = V (Proc.devRef .tc r) :=
  after_of_writes_sub p1 V d_p1_writes hr

end Cert.ReferenceIdeal.Hand

end
-- ==== Proof.RefOps2.lean ====
import proofs.«172917_j75840532513057_2_alg».proof.Proof.Gen.ReferenceIdeal
import Idealize.ShloMosaic.Lib.StableHlo.Run

/-! The reference's @main, statements 121 … 180 of 250, as the list of its 76 host operations in order. Each call's body is unfolded at the call over that call's record of buffers (@elu's fifteen: its own eleven, @_where's three after the seventh, @_where_0's select last; @relu's three). -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 121 … 180: 76 operations. -/
abbrev p2 : List (HloOp τ sig (Elt F)) :=
  [
    StableHlo.unary main_v105 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v107 main_v108 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v108) main_call2.v0 main_call2.v1 maximumf,
    StableHlo.unary main_arg10 main_v110 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v110 main_v111 rfl shapeCasts_S1x128x64_S128x64,
    StableHlo.binary main_v109 main_v111 main_v112 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v113 ((extractStridedSlice S1x64 ![1, 0] · slices_S3x64_S1x64_1_0) : (⟨S3x64, .f32⟩ : BufTy).Contents (Elt F) → (⟨S1x64, .f32⟩ : BufTy).Contents (Elt F)),
    StableHlo.reshape main_v113 main_v114 rfl shapeCasts_S1x64_S64,
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S50000x64 ![0, 1] bcast_S1x64_S50000x64_0_1 : (⟨S1x64, .f32⟩ : BufTy).Contents (Elt F) → (⟨S50000x64, .f32⟩ : BufTy).Contents (Elt F)),
    StableHlo.binary main_v112 main_v116 main_v117 (addf : (⟨S50000x64, .f32⟩ : BufTy).Contents (Elt F) → (⟨S50000x64, .f32⟩ : BufTy).Contents (Elt F) → (⟨S50000x64, .f32⟩ : BufTy).Contents (Elt F)),
    StableHlo.nullary main_cst_12 (constant S_ .f32 0x00000000#32),
    StableHlo.binary main_v117 main_cst_12 main_v118 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_13 (constant S_ .f32 0x47435000#32),
    StableHlo.unary main_cst_13 main_v119 (broadcastInDim S64 ![] bcast_S_S64 : (⟨S_, .f32⟩ : BufTy).Contents (Elt F) → (⟨S64, .f32⟩ : BufTy).Contents (Elt F)),
    StableHlo.binary main_v118 main_v119 main_v120 (Host.divf : (⟨S64, .f32⟩ : BufTy).Contents (Elt F) → (⟨S64, .f32⟩ : BufTy).Contents (Elt F) → (⟨S64, .f32⟩ : BufTy).Contents (Elt F)),
    StableHlo.unary main_v120 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S50000x64 ![0, 1] bcast_S1x64_S50000x64_0_1 : (⟨S1x64, .f32⟩ : BufTy).Contents (Elt F) → (⟨S50000x64, .f32⟩ : BufTy).Contents (Elt F)),
    StableHlo.binary main_v117 main_v122 main_v123 (subf : (⟨S50000x64, .f32⟩ : BufTy).Contents (Elt F) → (⟨S50000x64, .f32⟩ : BufTy).Contents (Elt F) → (⟨S50000x64, .f32⟩ : BufTy).Contents (Elt F)),
    StableHlo.binary main_v123 main_v123 main_v124 (mulf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x00000000#32),
    StableHlo.binary main_v124 main_cst_14 main_v125 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_15 (constant S_ .f32 0x47435000#32),
    StableHlo.unary main_cst_15 main_v126 (broadcastInDim S64 ![] bcast_S_S64 : (⟨S_, .f32⟩ : BufTy).Contents (Elt F) → (⟨S64, .f32⟩ : BufTy).Contents (Elt F)),
    StableHlo.binary main_v125 main_v126 main_v127 (Host.divf : (⟨S64, .f32⟩ : BufTy).Contents (Elt F) → (⟨S64, .f32⟩ : BufTy).Contents (Elt F) → (⟨S64, .f32⟩ : BufTy).Contents (Elt F)),
    StableHlo.unary main_v120 main_v128 (broadcastInDim S1x64 ![1] bcast_S64_S1x64_1 : (⟨S64, .f32⟩ : BufTy).Contents (Elt F) → (⟨S1x64, .f32⟩ : BufTy).Contents (Elt F)),
    StableHlo.unary main_v128 main_v129 (broadcastInDim S50000x64 ![0, 1] bcast_S1x64_S50000x64_0_1 : (⟨S1x64, .f32⟩ : BufTy).Contents (Elt F) → (⟨S50000x64, .f32⟩ : BufTy).Contents (Elt F)),
    StableHlo.binary main_v117 main_v129 main_v130 (subf : (⟨S50000x64, .f32⟩ : BufTy).Contents (Elt F) → (⟨S50000x64, .f32⟩ : BufTy).Contents (Elt F) → (⟨S50000x64, .f32⟩ : BufTy).Contents (Elt F)),
    StableHlo.nullary main_cst_16 (constant S_ .f32 0x3727C5AC#32),
    StableHlo.unary main_cst_16 main_v131 (broadcastInDim S64 ![] bcast_S_S64 : (⟨S_, .f32⟩ : BufTy).Contents (Elt F) → (⟨S64, .f32⟩ : BufTy).Contents (Elt F)),
    StableHlo.binary main_v127 main_v131 main_v132 (addf : (⟨S64, .f32⟩ : BufTy).Contents (Elt F) → (⟨S64, .f32⟩ : BufTy).Contents (Elt F) → (⟨S64, .f32⟩ : BufTy).Contents (Elt F)),
    StableHlo.unary main_v132 main_v133 (Host.rsqrt : (⟨S64, .f32⟩ : BufTy).Contents (Elt F) → (⟨S64, .f32⟩ : BufTy).Contents (Elt F)),
    StableHlo.unary main_v133 main_v134 (broadcastInDim S1x64 ![1] bcast_S64_S1x64_1 : (⟨S64, .f32⟩ : BufTy).Contents (Elt F) → (⟨S1x64, .f32⟩ : BufTy).Contents (Elt F)),
    StableHlo.unary main_v134 main_v135 (broadcastInDim S50000x64 ![0, 1] bcast_S1x64_S50000x64_0_1 : (⟨S1x64, .f32⟩ : BufTy).Contents (Elt F) → (⟨S50000x64, .f32⟩ : BufTy).Contents (Elt F)),
    StableHlo.binary main_v130 main_v135 main_v136 (mulf : (⟨S50000x64, .f32⟩ : BufTy).Contents (Elt F) → (⟨S50000x64, .f32⟩ : BufTy).Contents (Elt F) → (⟨S50000x64, .f32⟩ : BufTy).Contents (Elt F)),
    StableHlo.unary main_arg12 main_v137 ((extractStridedSlice S1x64 ![1, 0] · slices_S3x64_S1x64_1_0) : (⟨S3x64, .f32⟩ : BufTy).Contents (Elt F) → (⟨S1x64, .f32⟩ : BufTy).Contents (Elt F)),
    StableHlo.reshape main_v137 main_v138 rfl shapeCasts_S1x64_S64,
    StableHlo.unary main_v138 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S50000x64 ![0, 1] bcast_S1x64_S50000x64_0_1 : (⟨S1x64, .f32⟩ : BufTy).Contents (Elt F) → (⟨S50000x64, .f32⟩ : BufTy).Contents (Elt F)),
    StableHlo.binary main_v136 main_v140 main_v141 (mulf : (⟨S50000x64, .f32⟩ : BufTy).Contents (Elt F) → (⟨S50000x64, .f32⟩ : BufTy).Contents (Elt F) → (⟨S50000x64, .f32⟩ : BufTy).Contents (Elt F)),
    StableHlo.unary main_arg13 main_v142 ((extractStridedSlice S1x64 ![1, 0] · slices_S3x64_S1x64_1_0) : (⟨S3x64, .f32⟩ : BufTy).Contents (Elt F) → (⟨S1x64, .f32⟩ : BufTy).Contents (Elt F)),
    StableHlo.reshape main_v142 main_v143 rfl shapeCasts_S1x64_S64,
    StableHlo.unary main_v143 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S50000x64 ![0, 1] bcast_S1x64_S50000x64_0_1 : (⟨S1x64, .f32⟩ : BufTy).Contents (Elt F) → (⟨S50000x64, .f32⟩ : BufTy).Contents (Elt F)),
    StableHlo.binary main_v141 main_v145 main_v146 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v146) main_call3.v0 main_call3.v1 (cmpf .ogt),
    StableHlo.TRef.nullary main_call3.cst_0 (constant S_ .f32 0x00000000#32),
    StableHlo.TRef.unary main_call3.cst_0 main_call3.v2 (broadcastInDim S50000x64 ![] bcast_S_S50000x64),
    StableHlo.TRef.binary (.of main_v146) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x64 ![] bcast_S_S50000x64),
    StableHlo.TRef.ternary main_call3.v3 main_call3.call0.v1 (.of main_v146) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x64 ![] bcast_S_S50000x64),
    StableHlo.TRef.binary main_call3.v6 main_call3.v5 main_call3.v7 mulf,
    StableHlo.TRef.ternary main_call3.v1 (.of main_v146) main_call3.v7 main_call3.call1.v0 select,
    StableHlo.unary main_arg6 main_v148 ((extractStridedSlice S1x5x64 ![2, 0, 0] · slices_S3x5x64_S1x5x64_2_0_0) : (⟨S3x5x64, .f32⟩ : BufTy).Contents (Elt F) → (⟨S1x5x64, .f32⟩ : BufTy).Contents (Elt F)),
    StableHlo.reshape main_v148 main_v149 rfl shapeCasts_S1x5x64_S5x64,
    StableHlo.binary main_v4 main_v149 main_v150 ((fun l r => Host.dotGeneral dot_S1050000x5_S5x64_S1050000x64_1_0_0_1_n_n none l r) : (⟨S1050000x5, .f32⟩ : BufTy).Contents (Elt F) → (⟨S5x64, .f32⟩ : BufTy).Contents (Elt F) → (⟨S1050000x64, .f32⟩ : BufTy).Contents (Elt F)),
    StableHlo.unary main_arg7 main_v151 ((extractStridedSlice S1x64 ![2, 0] · slices_S3x64_S1x64_2_0) : (⟨S3x64, .f32⟩ : BufTy).Contents (Elt F) → (⟨S1x64, .f32⟩ : BufTy).Contents (Elt F)),
    StableHlo.reshape main_v151 main_v152 rfl shapeCasts_S1x64_S64,
    StableHlo.unary main_v152 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S1050000x64 ![0, 1] bcast_S1x64_S1050000x64_0_1 : (⟨S1x64, .f32⟩ : BufTy).Contents (Elt F) → (⟨S1050000x64, .f32⟩ : BufTy).Contents (Elt F)),
    StableHlo.binary main_v150 main_v154 main_v155 (addf : (⟨S1050000x64, .f32⟩ : BufTy).Contents (Elt F) → (⟨S1050000x64, .f32⟩ : BufTy).Contents (Elt F) → (⟨S1050000x64, .f32⟩ : BufTy).Contents (Elt F)),
    StableHlo.nullary main_c_17 (constantI S_ 32 0#32),
    StableHlo.unary main_c_17 main_v156 (broadcastInDim S1050000 ![] bcast_S_S1050000 : (⟨S_, .i32⟩ : BufTy).Contents (Elt F) → (⟨S1050000, .i32⟩ : BufTy).Contents (Elt F)),
    StableHlo.binary main_v8 main_v156 main_v157 (cmpi .slt : (⟨S1050000, .i32⟩ : BufTy).Contents (Elt F) → (⟨S1050000, .i32⟩ : BufTy).Contents (Elt F) → (⟨S1050000, .i1⟩ : BufTy).Contents (Elt F)),
    StableHlo.nullary main_c_18 (constantI S_ 32 50000#32),
    StableHlo.unary main_c_18 main_v158 (broadcastInDim S1050000 ![] bcast_S_S1050000 : (⟨S_, .i32⟩ : BufTy).Contents (Elt F) → (⟨S1050000, .i32⟩ : BufTy).Contents (Elt F)) ]

set_option maxRecDepth 8192 in
/-- The printed part is that straight line: the called functions' definitions unfolded at their calls, both sides
    are one chain of `hlo` steps once sequencing is reassociated. -/
theorem main_part2_eq (c : Dev nD) : main_part2 (F := F) c = seq p2 := rfl

/-- Every operation touches TensorCore references only. -/
theorem d_p2_sub : (p2 : List (HloOp τ sig (Elt F))).Forall fun op => op.bufs ⊆ tcRefs τ sig :=
  ⟨
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., reshape_bufs_sub .., unary_bufs_sub .., unary_bufs_sub ..,
    binary_bufs_sub .., unary_bufs_sub .., reshape_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub ..⟩

set_option maxRecDepth 8192 in
/-- Every operation determines its results. -/
theorem d_p2_fresh : ∀ op ∈ (p2 : List (HloOp τ sig (Elt F))), op.fresh = ∅ := by
  intro _ h
  (repeat (cases h with | head => rfl | tail _ h => ?_))
  exact nomatch h

/-- The references the part writes, one per operation. -/
abbrev d_w2 : List (Ref sig .tc) :=
  [
    main_v106, main_v107, main_v108, main_call2.cst.ref, main_call2.v0.ref, main_call2.v1.ref, main_v110, main_v111,
    main_v112, main_v113, main_v114, main_v115, main_v116, main_v117, main_cst_12, main_v118,
    main_cst_13, main_v119, main_v120, main_v121, main_v122, main_v123, main_v124, main_cst_14,
    main_v125, main_cst_15, main_v126, main_v127, main_v128, main_v129, main_v130, main_cst_16,
    main_v131, main_v132, main_v133, main_v134, main_v135, main_v136, main_v137, main_v138,
    main_v139, main_v140, main_v141, main_v142, main_v143, main_v144, main_v145, main_v146,
    main_call3.cst.ref, main_call3.v0.ref, main_call3.v1.ref, main_call3.cst_0.ref, main_call3.v2.ref, main_call3.v3.ref, main_call3.cst_1.ref, main_call3.call0.v0.ref,
    main_call3.call0.v1.ref, main_call3.call0.v2.ref, main_call3.v5.ref, main_call3.cst_2.ref, main_call3.v6.ref, main_call3.v7.ref, main_call3.call1.v0.ref, main_v148,
    main_v149, main_v150, main_v151, main_v152, main_v153, main_v154, main_v155, main_c_17,
    main_v156, main_v157, main_c_18, main_v158 ]

/-- The singleton of a listed reference lies among the list's device references. -/
private theorem d_sub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Each operation writes its own listed reference and nothing else. -/
theorem d_p2_writes : (p2 : List (HloOp τ sig (Elt F))).Forall fun op =>
    op.writes ⊆ (d_w2.map (Proc.devRef (τ := τ) .tc)).toFinset :=
  ⟨
    d_sub main_v106 (by decide), d_sub main_v107 (by decide), d_sub main_v108 (by decide), d_sub (main_call2.cst.ref) (by decide),
    d_sub (main_call2.v0.ref) (by decide), d_sub (main_call2.v1.ref) (by decide), d_sub main_v110 (by decide), d_sub main_v111 (by decide),
    d_sub main_v112 (by decide), d_sub main_v113 (by decide), d_sub main_v114 (by decide), d_sub main_v115 (by decide),
    d_sub main_v116 (by decide), d_sub main_v117 (by decide), d_sub main_cst_12 (by decide), d_sub main_v118 (by decide),
    d_sub main_cst_13 (by decide), d_sub main_v119 (by decide), d_sub main_v120 (by decide), d_sub main_v121 (by decide),
    d_sub main_v122 (by decide), d_sub main_v123 (by decide), d_sub main_v124 (by decide), d_sub main_cst_14 (by decide),
    d_sub main_v125 (by decide), d_sub main_cst_15 (by decide), d_sub main_v126 (by decide), d_sub main_v127 (by decide),
    d_sub main_v128 (by decide), d_sub main_v129 (by decide), d_sub main_v130 (by decide), d_sub main_cst_16 (by decide),
    d_sub main_v131 (by decide), d_sub main_v132 (by decide), d_sub main_v133 (by decide), d_sub main_v134 (by decide),
    d_sub main_v135 (by decide), d_sub main_v136 (by decide), d_sub main_v137 (by decide), d_sub main_v138 (by decide),
    d_sub main_v139 (by decide), d_sub main_v140 (by decide), d_sub main_v141 (by decide), d_sub main_v142 (by decide),
    d_sub main_v143 (by decide), d_sub main_v144 (by decide), d_sub main_v145 (by decide), d_sub main_v146 (by decide),
    d_sub (main_call3.cst.ref) (by decide), d_sub (main_call3.v0.ref) (by decide), d_sub (main_call3.v1.ref) (by decide), d_sub (main_call3.cst_0.ref) (by decide),
    d_sub (main_call3.v2.ref) (by decide), d_sub (main_call3.v3.ref) (by decide), d_sub (main_call3.cst_1.ref) (by decide), d_sub (main_call3.call0.v0.ref) (by decide),
    d_sub (main_call3.call0.v1.ref) (by decide), d_sub (main_call3.call0.v2.ref) (by decide), d_sub (main_call3.v5.ref) (by decide), d_sub (main_call3.cst_2.ref) (by decide),
    d_sub (main_call3.v6.ref) (by decide), d_sub (main_call3.v7.ref) (by decide), d_sub (main_call3.call1.v0.ref) (by decide), d_sub main_v148 (by decide),
    d_sub main_v149 (by decide), d_sub main_v150 (by decide), d_sub main_v151 (by decide), d_sub main_v152 (by decide),
    d_sub main_v153 (by decide), d_sub main_v154 (by decide), d_sub main_v155 (by decide), d_sub main_c_17 (by decide),
    d_sub main_v156 (by decide), d_sub main_v157 (by decide), d_sub main_c_18 (by decide), d_sub main_v158 (by decide)⟩

/-- A reference the part does not write keeps its contents through the part. -/
theorem d_p2_keep (V : Valuation τ sig (Elt F)) {r : Ref sig .tc} (hr : r ∉ d_w2) :
    after p2 V (Proc.devRef .tc r) = V (Proc.devRef .tc r) :=
  after_of_writes_sub p2 V d_p2_writes hr

end Cert.ReferenceIdeal.Hand

end
-- ==== Proof.RefOps3.lean ====
import proofs.«172917_j75840532513057_2_alg».proof.Proof.Gen.ReferenceIdeal
import Idealize.ShloMosaic.Lib.StableHlo.Run

/-! The reference's @main, statements 181 … 240 of 250, as the list of its 62 host operations in order. Each call's body is unfolded at the call over that call's record of buffers (@relu's three). -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 181 … 240: 62 operations. -/
abbrev p3 : List (HloOp τ sig (Elt F)) :=
  [
    StableHlo.binary main_v8 main_v158 main_v159 (addi : (⟨S1050000, .i32⟩ : BufTy).Contents (Elt F) → (⟨S1050000, .i32⟩ : BufTy).Contents (Elt F) → (⟨S1050000, .i32⟩ : BufTy).Contents (Elt F)),
    StableHlo.ternary main_v157 main_v159 main_v8 main_v160 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v160 main_v161 (broadcastInDim S1050000x1 ![0] bcast_S1050000_S1050000x1_0 : (⟨S1050000, .i32⟩ : BufTy).Contents (Elt F) → (⟨S1050000x1, .i32⟩ : BufTy).Contents (Elt F)),
    StableHlo.binary main_v147 main_v161 main_v162 ((fun x i => Host.gather gather_S50000x64_S1050000x1_S1050000x64_1_0_n_n_0_1_164 x i) : (⟨S50000x64, .f32⟩ : BufTy).Contents (Elt F) → (⟨S1050000x1, .i32⟩ : BufTy).Contents (Elt F) → (⟨S1050000x64, .f32⟩ : BufTy).Contents (Elt F)),
    StableHlo.binary main_v162 main_v155 main_v163 (addf : (⟨S1050000x64, .f32⟩ : BufTy).Contents (Elt F) → (⟨S1050000x64, .f32⟩ : BufTy).Contents (Elt F) → (⟨S1050000x64, .f32⟩ : BufTy).Contents (Elt F)),
    StableHlo.nullary main_cst_19 (constant S_ .f32 0x00000000#32),
    StableHlo.unary main_cst_19 main_v164 (broadcastInDim S50000x64 ![] bcast_S_S50000x64 : (⟨S_, .f32⟩ : BufTy).Contents (Elt F) → (⟨S50000x64, .f32⟩ : BufTy).Contents (Elt F)),
    StableHlo.unary main_v11 main_v165 (broadcastInDim S1050000x1 ![0] bcast_S1050000_S1050000x1_0 : (⟨S1050000, .i32⟩ : BufTy).Contents (Elt F) → (⟨S1050000x1, .i32⟩ : BufTy).Contents (Elt F)),
    StableHlo.ternary main_v164 main_v165 main_v163 main_v166 ((fun x i u => Host.scatterAdd scatter_S50000x64_S1050000x1_S1050000x64_1_0_0_1 x i u) : (⟨S50000x64, .f32⟩ : BufTy).Contents (Elt F) → (⟨S1050000x1, .i32⟩ : BufTy).Contents (Elt F) → (⟨S1050000x64, .f32⟩ : BufTy).Contents (Elt F) → (⟨S50000x64, .f32⟩ : BufTy).Contents (Elt F)),
    StableHlo.unary main_arg8 main_v167 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v167 main_v168 rfl shapeCasts_S1x64x128_S64x128,
    StableHlo.binary main_v166 main_v168 main_v169 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg9 main_v170 ((extractStridedSlice S1x128 ![2, 0] · slices_S3x128_S1x128_2_0) : (⟨S3x128, .f32⟩ : BufTy).Contents (Elt F) → (⟨S1x128, .f32⟩ : BufTy).Contents (Elt F)),
    StableHlo.reshape main_v170 main_v171 rfl shapeCasts_S1x128_S128,
    StableHlo.unary main_v171 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v169 main_v173 main_v174 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v174) main_call4.v0 main_call4.v1 maximumf,
    StableHlo.unary main_arg10 main_v176 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v176 main_v177 rfl shapeCasts_S1x128x64_S128x64,
    StableHlo.binary main_v175 main_v177 main_v178 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v179 ((extractStridedSlice S1x64 ![2, 0] · slices_S3x64_S1x64_2_0) : (⟨S3x64, .f32⟩ : BufTy).Contents (Elt F) → (⟨S1x64, .f32⟩ : BufTy).Contents (Elt F)),
    StableHlo.reshape main_v179 main_v180 rfl shapeCasts_S1x64_S64,
    StableHlo.unary main_v180 main_v181 (broadcastInDim S1x64 ![1] bcast_S64_S1x64_1 : (⟨S64, .f32⟩ : BufTy).Contents (Elt F) → (⟨S1x64, .f32⟩ : BufTy).Contents (Elt F)),
    StableHlo.unary main_v181 main_v182 (broadcastInDim S50000x64 ![0, 1] bcast_S1x64_S50000x64_0_1 : (⟨S1x64, .f32⟩ : BufTy).Contents (Elt F) → (⟨S50000x64, .f32⟩ : BufTy).Contents (Elt F)),
    StableHlo.binary main_v178 main_v182 main_v183 (addf : (⟨S50000x64, .f32⟩ : BufTy).Contents (Elt F) → (⟨S50000x64, .f32⟩ : BufTy).Contents (Elt F) → (⟨S50000x64, .f32⟩ : BufTy).Contents (Elt F)),
    StableHlo.nullary main_cst_20 (constant S_ .f32 0x00000000#32),
    StableHlo.binary main_v183 main_cst_20 main_v184 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_21 (constant S_ .f32 0x47435000#32),
    StableHlo.unary main_cst_21 main_v185 (broadcastInDim S64 ![] bcast_S_S64 : (⟨S_, .f32⟩ : BufTy).Contents (Elt F) → (⟨S64, .f32⟩ : BufTy).Contents (Elt F)),
    StableHlo.binary main_v184 main_v185 main_v186 (Host.divf : (⟨S64, .f32⟩ : BufTy).Contents (Elt F) → (⟨S64, .f32⟩ : BufTy).Contents (Elt F) → (⟨S64, .f32⟩ : BufTy).Contents (Elt F)),
    StableHlo.unary main_v186 main_v187 (broadcastInDim S1x64 ![1] bcast_S64_S1x64_1 : (⟨S64, .f32⟩ : BufTy).Contents (Elt F) → (⟨S1x64, .f32⟩ : BufTy).Contents (Elt F)),
    StableHlo.unary main_v187 main_v188 (broadcastInDim S50000x64 ![0, 1] bcast_S1x64_S50000x64_0_1 : (⟨S1x64, .f32⟩ : BufTy).Contents (Elt F) → (⟨S50000x64, .f32⟩ : BufTy).Contents (Elt F)),
    StableHlo.binary main_v183 main_v188 main_v189 (subf : (⟨S50000x64, .f32⟩ : BufTy).Contents (Elt F) → (⟨S50000x64, .f32⟩ : BufTy).Contents (Elt F) → (⟨S50000x64, .f32⟩ : BufTy).Contents (Elt F)),
    StableHlo.binary main_v189 main_v189 main_v190 (mulf : (⟨S50000x64, .f32⟩ : BufTy).Contents (Elt F) → (⟨S50000x64, .f32⟩ : BufTy).Contents (Elt F) → (⟨S50000x64, .f32⟩ : BufTy).Contents (Elt F)),
    StableHlo.nullary main_cst_22 (constant S_ .f32 0x00000000#32),
    StableHlo.binary main_v190 main_cst_22 main_v191 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_23 (constant S_ .f32 0x47435000#32),
    StableHlo.unary main_cst_23 main_v192 (broadcastInDim S64 ![] bcast_S_S64 : (⟨S_, .f32⟩ : BufTy).Contents (Elt F) → (⟨S64, .f32⟩ : BufTy).Contents (Elt F)),
    StableHlo.binary main_v191 main_v192 main_v193 (Host.divf : (⟨S64, .f32⟩ : BufTy).Contents (Elt F) → (⟨S64, .f32⟩ : BufTy).Contents (Elt F) → (⟨S64, .f32⟩ : BufTy).Contents (Elt F)),
    StableHlo.unary main_v186 main_v194 (broadcastInDim S1x64 ![1] bcast_S64_S1x64_1 : (⟨S64, .f32⟩ : BufTy).Contents (Elt F) → (⟨S1x64, .f32⟩ : BufTy).Contents (Elt F)),
    StableHlo.unary main_v194 main_v195 (broadcastInDim S50000x64 ![0, 1] bcast_S1x64_S50000x64_0_1 : (⟨S1x64, .f32⟩ : BufTy).Contents (Elt F) → (⟨S50000x64, .f32⟩ : BufTy).Contents (Elt F)),
    StableHlo.binary main_v183 main_v195 main_v196 (subf : (⟨S50000x64, .f32⟩ : BufTy).Contents (Elt F) → (⟨S50000x64, .f32⟩ : BufTy).Contents (Elt F) → (⟨S50000x64, .f32⟩ : BufTy).Contents (Elt F)),
    StableHlo.nullary main_cst_24 (constant S_ .f32 0x3727C5AC#32),
    StableHlo.unary main_cst_24 main_v197 (broadcastInDim S64 ![] bcast_S_S64 : (⟨S_, .f32⟩ : BufTy).Contents (Elt F) → (⟨S64, .f32⟩ : BufTy).Contents (Elt F)),
    StableHlo.binary main_v193 main_v197 main_v198 (addf : (⟨S64, .f32⟩ : BufTy).Contents (Elt F) → (⟨S64, .f32⟩ : BufTy).Contents (Elt F) → (⟨S64, .f32⟩ : BufTy).Contents (Elt F)),
    StableHlo.unary main_v198 main_v199 (Host.rsqrt : (⟨S64, .f32⟩ : BufTy).Contents (Elt F) → (⟨S64, .f32⟩ : BufTy).Contents (Elt F)),
    StableHlo.unary main_v199 main_v200 (broadcastInDim S1x64 ![1] bcast_S64_S1x64_1 : (⟨S64, .f32⟩ : BufTy).Contents (Elt F) → (⟨S1x64, .f32⟩ : BufTy).Contents (Elt F)),
    StableHlo.unary main_v200 main_v201 (broadcastInDim S50000x64 ![0, 1] bcast_S1x64_S50000x64_0_1 : (⟨S1x64, .f32⟩ : BufTy).Contents (Elt F) → (⟨S50000x64, .f32⟩ : BufTy).Contents (Elt F)),
    StableHlo.binary main_v196 main_v201 main_v202 (mulf : (⟨S50000x64, .f32⟩ : BufTy).Contents (Elt F) → (⟨S50000x64, .f32⟩ : BufTy).Contents (Elt F) → (⟨S50000x64, .f32⟩ : BufTy).Contents (Elt F)),
    StableHlo.unary main_arg12 main_v203 ((extractStridedSlice S1x64 ![2, 0] · slices_S3x64_S1x64_2_0) : (⟨S3x64, .f32⟩ : BufTy).Contents (Elt F) → (⟨S1x64, .f32⟩ : BufTy).Contents (Elt F)),
    StableHlo.reshape main_v203 main_v204 rfl shapeCasts_S1x64_S64,
    StableHlo.unary main_v204 main_v205 (broadcastInDim S1x64 ![1] bcast_S64_S1x64_1 : (⟨S64, .f32⟩ : BufTy).Contents (Elt F) → (⟨S1x64, .f32⟩ : BufTy).Contents (Elt F)),
    StableHlo.unary main_v205 main_v206 (broadcastInDim S50000x64 ![0, 1] bcast_S1x64_S50000x64_0_1 : (⟨S1x64, .f32⟩ : BufTy).Contents (Elt F) → (⟨S50000x64, .f32⟩ : BufTy).Contents (Elt F)),
    StableHlo.binary main_v202 main_v206 main_v207 (mulf : (⟨S50000x64, .f32⟩ : BufTy).Contents (Elt F) → (⟨S50000x64, .f32⟩ : BufTy).Contents (Elt F) → (⟨S50000x64, .f32⟩ : BufTy).Contents (Elt F)),
    StableHlo.unary main_arg13 main_v208 ((extractStridedSlice S1x64 ![2, 0] · slices_S3x64_S1x64_2_0) : (⟨S3x64, .f32⟩ : BufTy).Contents (Elt F) → (⟨S1x64, .f32⟩ : BufTy).Contents (Elt F)),
    StableHlo.reshape main_v208 main_v209 rfl shapeCasts_S1x64_S64,
    StableHlo.unary main_v209 main_v210 (broadcastInDim S1x64 ![1] bcast_S64_S1x64_1 : (⟨S64, .f32⟩ : BufTy).Contents (Elt F) → (⟨S1x64, .f32⟩ : BufTy).Contents (Elt F)),
    StableHlo.unary main_v210 main_v211 (broadcastInDim S50000x64 ![0, 1] bcast_S1x64_S50000x64_0_1 : (⟨S1x64, .f32⟩ : BufTy).Contents (Elt F) → (⟨S50000x64, .f32⟩ : BufTy).Contents (Elt F)),
    StableHlo.binary main_v207 main_v211 main_v212 (addf : (⟨S50000x64, .f32⟩ : BufTy).Contents (Elt F) → (⟨S50000x64, .f32⟩ : BufTy).Contents (Elt F) → (⟨S50000x64, .f32⟩ : BufTy).Contents (Elt F)) ]

set_option maxRecDepth 8192 in
/-- The printed part is that straight line: the called functions' definitions unfolded at their calls, both sides
    are one chain of `hlo` steps once sequencing is reassociated. -/
theorem main_part3_eq (c : Dev nD) : main_part3 (F := F) c = seq p3 := rfl

/-- Every operation touches TensorCore references only. -/
theorem d_p3_sub : (p3 : List (HloOp τ sig (Elt F))).Forall fun op => op.bufs ⊆ tcRefs τ sig :=
  ⟨
    binary_bufs_sub .., ternary_bufs_sub .., unary_bufs_sub .., binary_bufs_sub .., binary_bufs_sub .., nullary_bufs_sub ..,
    unary_bufs_sub .., unary_bufs_sub .., ternary_bufs_sub .., unary_bufs_sub .., reshape_bufs_sub .., binary_bufs_sub ..,
    unary_bufs_sub .., reshape_bufs_sub .., unary_bufs_sub .., unary_bufs_sub .., binary_bufs_sub .., nullary_bufs_sub ..,
    unary_bufs_sub .., binary_bufs_sub .., unary_bufs_sub .., reshape_bufs_sub .., binary_bufs_sub .., unary_bufs_sub ..,
    reshape_bufs_sub .., unary_bufs_sub .., unary_bufs_sub .., binary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub .., binary_bufs_sub ..⟩

set_option maxRecDepth 8192 in
/-- Every operation determines its results. -/
theorem d_p3_fresh : ∀ op ∈ (p3 : List (HloOp τ sig (Elt F))), op.fresh = ∅ := by
  intro _ h
  (repeat (cases h with | head => rfl | tail _ h => ?_))
  exact nomatch h

/-- The references the part writes, one per operation. -/
abbrev d_w3 : List (Ref sig .tc) :=
  [
    main_v159, main_v160, main_v161, main_v162, main_v163, main_cst_19, main_v164, main_v165,
    main_v166, main_v167, main_v168, main_v169, main_v170, main_v171, main_v172, main_v173,
    main_v174, main_call4.cst.ref, main_call4.v0.ref, main_call4.v1.ref, main_v176, main_v177, main_v178, main_v179,
    main_v180, main_v181, main_v182, main_v183, main_cst_20, main_v184, main_cst_21, main_v185,
    main_v186, main_v187, main_v188, main_v189, main_v190, main_cst_22, main_v191, main_cst_23,
    main_v192, main_v193, main_v194, main_v195, main_v196, main_cst_24, main_v197, main_v198,
    main_v199, main_v200, main_v201, main_v202, main_v203, main_v204, main_v205, main_v206,
    main_v207, main_v208, main_v209, main_v210, main_v211, main_v212 ]

/-- The singleton of a listed reference lies among the list's device references. -/
private theorem d_sub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Each operation writes its own listed reference and nothing else. -/
theorem d_p3_writes : (p3 : List (HloOp τ sig (Elt F))).Forall fun op =>
    op.writes ⊆ (d_w3.map (Proc.devRef (τ := τ) .tc)).toFinset :=
  ⟨
    d_sub main_v159 (by decide), d_sub main_v160 (by decide), d_sub main_v161 (by decide), d_sub main_v162 (by decide),
    d_sub main_v163 (by decide), d_sub main_cst_19 (by decide), d_sub main_v164 (by decide), d_sub main_v165 (by decide),
    d_sub main_v166 (by decide), d_sub main_v167 (by decide), d_sub main_v168 (by decide), d_sub main_v169 (by decide),
    d_sub main_v170 (by decide), d_sub main_v171 (by decide), d_sub main_v172 (by decide), d_sub main_v173 (by decide),
    d_sub main_v174 (by decide), d_sub (main_call4.cst.ref) (by decide), d_sub (main_call4.v0.ref) (by decide), d_sub (main_call4.v1.ref) (by decide),
    d_sub main_v176 (by decide), d_sub main_v177 (by decide), d_sub main_v178 (by decide), d_sub main_v179 (by decide),
    d_sub main_v180 (by decide), d_sub main_v181 (by decide), d_sub main_v182 (by decide), d_sub main_v183 (by decide),
    d_sub main_cst_20 (by decide), d_sub main_v184 (by decide), d_sub main_cst_21 (by decide), d_sub main_v185 (by decide),
    d_sub main_v186 (by decide), d_sub main_v187 (by decide), d_sub main_v188 (by decide), d_sub main_v189 (by decide),
    d_sub main_v190 (by decide), d_sub main_cst_22 (by decide), d_sub main_v191 (by decide), d_sub main_cst_23 (by decide),
    d_sub main_v192 (by decide), d_sub main_v193 (by decide), d_sub main_v194 (by decide), d_sub main_v195 (by decide),
    d_sub main_v196 (by decide), d_sub main_cst_24 (by decide), d_sub main_v197 (by decide), d_sub main_v198 (by decide),
    d_sub main_v199 (by decide), d_sub main_v200 (by decide), d_sub main_v201 (by decide), d_sub main_v202 (by decide),
    d_sub main_v203 (by decide), d_sub main_v204 (by decide), d_sub main_v205 (by decide), d_sub main_v206 (by decide),
    d_sub main_v207 (by decide), d_sub main_v208 (by decide), d_sub main_v209 (by decide), d_sub main_v210 (by decide),
    d_sub main_v211 (by decide), d_sub main_v212 (by decide)⟩

/-- A reference the part does not write keeps its contents through the part. -/
theorem d_p3_keep (V : Valuation τ sig (Elt F)) {r : Ref sig .tc} (hr : r ∉ d_w3) :
    after p3 V (Proc.devRef .tc r) = V (Proc.devRef .tc r) :=
  after_of_writes_sub p3 V d_p3_writes hr

end Cert.ReferenceIdeal.Hand

end
-- ==== Proof.RefOps4.lean ====
import proofs.«172917_j75840532513057_2_alg».proof.Proof.Gen.ReferenceIdeal
import Idealize.ShloMosaic.Lib.StableHlo.Run

/-! The reference's @main, statements 241 … 250 of 250, as the list of its 9 host operations in order. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 241 … 250: 9 operations. -/
abbrev p4 : List (HloOp τ sig (Elt F)) :=
  [
    StableHlo.nullary main_c_25 (constantI S_ 32 0#32),
    StableHlo.unary main_c_25 main_v213 (broadcastInDim S250 ![] bcast_S_S250 : (⟨S_, .i32⟩ : BufTy).Contents (Elt F) → (⟨S250, .i32⟩ : BufTy).Contents (Elt F)),
    StableHlo.binary main_arg3 main_v213 main_v214 (cmpi .slt : (⟨S250, .i32⟩ : BufTy).Contents (Elt F) → (⟨S250, .i32⟩ : BufTy).Contents (Elt F) → (⟨S250, .i1⟩ : BufTy).Contents (Elt F)),
    StableHlo.nullary main_c_26 (constantI S_ 32 50000#32),
    StableHlo.unary main_c_26 main_v215 (broadcastInDim S250 ![] bcast_S_S250 : (⟨S_, .i32⟩ : BufTy).Contents (Elt F) → (⟨S250, .i32⟩ : BufTy).Contents (Elt F)),
    StableHlo.binary main_arg3 main_v215 main_v216 (addi : (⟨S250, .i32⟩ : BufTy).Contents (Elt F) → (⟨S250, .i32⟩ : BufTy).Contents (Elt F) → (⟨S250, .i32⟩ : BufTy).Contents (Elt F)),
    StableHlo.ternary main_v214 main_v216 main_arg3 main_v217 (select : (⟨S250, .i1⟩ : BufTy).Contents (Elt F) → (⟨S250, .i32⟩ : BufTy).Contents (Elt F) → (⟨S250, .i32⟩ : BufTy).Contents (Elt F) → (⟨S250, .i32⟩ : BufTy).Contents (Elt F)),
    StableHlo.unary main_v217 main_v218 (broadcastInDim S250x1 ![0] bcast_S250_S250x1_0 : (⟨S250, .i32⟩ : BufTy).Contents (Elt F) → (⟨S250x1, .i32⟩ : BufTy).Contents (Elt F)),
    StableHlo.binary main_v212 main_v218 main_v219 ((fun x i => Host.gather gather_S50000x64_S250x1_S250x64_1_0_n_n_0_1_164 x i) : (⟨S50000x64, .f32⟩ : BufTy).Contents (Elt F) → (⟨S250x1, .i32⟩ : BufTy).Contents (Elt F) → (⟨S250x64, .f32⟩ : BufTy).Contents (Elt F)) ]

set_option maxRecDepth 8192 in
/-- The printed part is that straight line: the called functions' definitions unfolded at their calls, both sides
    are one chain of `hlo` steps once sequencing is reassociated. -/
theorem main_part4_eq (c : Dev nD) : main_part4 (F := F) c = seq p4 := rfl

/-- Every operation touches TensorCore references only. -/
theorem d_p4_sub : (p4 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub ..⟩

set_option maxRecDepth 8192 in
/-- Every operation determines its results. -/
theorem d_p4_fresh : ∀ op ∈ (p4 : List (HloOp τ sig (Elt F))), op.fresh = ∅ := by
  intro _ h
  (repeat (cases h with | head => rfl | tail _ h => ?_))
  exact nomatch h

/-- The references the part writes, one per operation. -/
abbrev d_w4 : List (Ref sig .tc) :=
  [
    main_c_25, main_v213, main_v214, main_c_26, main_v215, main_v216, main_v217, main_v218,
    main_v219 ]

/-- The singleton of a listed reference lies among the list's device references. -/
private theorem d_sub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Each operation writes its own listed reference and nothing else. -/
theorem d_p4_writes : (p4 : List (HloOp τ sig (Elt F))).Forall fun op =>
    op.writes ⊆ (d_w4.map (Proc.devRef (τ := τ) .tc)).toFinset :=
  ⟨
    d_sub main_c_25 (by decide), d_sub main_v213 (by decide), d_sub main_v214 (by decide), d_sub main_c_26 (by decide),
    d_sub main_v215 (by decide), d_sub main_v216 (by decide), d_sub main_v217 (by decide), d_sub main_v218 (by decide),
    d_sub main_v219 (by decide)⟩

/-- A reference the part does not write keeps its contents through the part. -/
theorem d_p4_keep (V : Valuation τ sig (Elt F)) {r : Ref sig .tc} (hr : r ∉ d_w4) :
    after p4 V (Proc.devRef .tc r) = V (Proc.devRef .tc r) :=
  after_of_writes_sub p4 V d_p4_writes hr

end Cert.ReferenceIdeal.Hand

end
-- ==== Proof.RefRun.lean ====
import proofs.«172917_j75840532513057_2_alg».proof.Proof.RefOps0
import proofs.«172917_j75840532513057_2_alg».proof.Proof.RefOps1
import proofs.«172917_j75840532513057_2_alg».proof.Proof.RefOps2
import proofs.«172917_j75840532513057_2_alg».proof.Proof.RefOps3
import proofs.«172917_j75840532513057_2_alg».proof.Proof.RefOps4

/-! The reference's run. @main is the straight line of its 283 host operations (the five printed parts in order, the
    calls unfolded); so every weakly fair execution terminates, the result buffer ends at the fold of the operations
    over the launch contents, and no operation writes an argument. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order: the five parts one after the other. -/
abbrev ops : List (HloOp τ sig (Elt F)) := p0 ++ (p1 ++ (p2 ++ (p3 ++ p4)))

/-- @main runs its parts in order, each part its line of operations, and lines run one after the other are their
    concatenation run as one. -/
theorem main_eq (c : Dev nD) : main (F := F) c = seq ops := by
  show main (F := F) c = seq (p0 ++ (p1 ++ (p2 ++ (p3 ++ p4))))
  rw [seq_append, seq_append, seq_append, seq_append, ← main_part0_eq c, ← main_part1_eq c, ← main_part2_eq c,
    ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.mpr ⟨d_p0_sub, List.forall_append.mpr ⟨d_p1_sub, List.forall_append.mpr ⟨d_p2_sub,
    List.forall_append.mpr ⟨d_p3_sub, d_p4_sub⟩⟩⟩⟩

/-- Every operation determines its results. -/
theorem d_ops_fresh : ∀ op ∈ (ops : List (HloOp τ sig (Elt F))), op.fresh = ∅ := by
  intro op h
  rcases List.mem_append.mp h with h | h
  · exact d_p0_fresh op h
  rcases List.mem_append.mp h with h | h
  · exact d_p1_fresh op h
  rcases List.mem_append.mp h with h | h
  · exact d_p2_fresh op h
  rcases List.mem_append.mp h with h | h
  · exact d_p3_fresh op h
  · exact d_p4_fresh op h

/-- The fold over two lines one after the other is the second's over the first's. -/
theorem d_after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, d_after_append l₁ l₂]

/-- A reference no part writes keeps its contents through the whole line. -/
theorem d_ops_keep (V : Valuation τ sig (Elt F)) {r : Ref sig .tc} (h0 : r ∉ d_w0) (h1 : r ∉ d_w1) (h2 : r ∉ d_w2)
    (h3 : r ∉ d_w3) (h4 : r ∉ d_w4) : after ops V (Proc.devRef .tc r) = V (Proc.devRef .tc r) := by
  show after (p0 ++ (p1 ++ (p2 ++ (p3 ++ p4)))) V (Proc.devRef .tc r) = _
  rw [d_after_append, d_after_append, d_after_append, d_after_append, d_p4_keep _ h4, d_p3_keep _ h3, d_p2_keep _ h2,
    d_p1_keep _ h1, d_p0_keep _ h0]

/-- On every device, for any float values, from any memory with zero counters: every weakly fair execution of @main
    terminates with the result buffer at the fold of the operations over the launch contents and every argument
    unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v219) = after ops (launchContents m c) (Proc.devRef .tc main_v219)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨h c main_v219,
      (h c main_arg0).trans (d_ops_keep _ (by decide) (by decide) (by decide) (by decide) (by decide)),
      (h c main_arg1).trans (d_ops_keep _ (by decide) (by decide) (by decide) (by decide) (by decide)),
      (h c main_arg2).trans (d_ops_keep _ (by decide) (by decide) (by decide) (by decide) (by decide)),
      (h c main_arg3).trans (d_ops_keep _ (by decide) (by decide) (by decide) (by decide) (by decide)),
      (h c main_arg4).trans (d_ops_keep _ (by decide) (by decide) (by decide) (by decide) (by decide)),
      (h c main_arg5).trans (d_ops_keep _ (by decide) (by decide) (by decide) (by decide) (by decide)),
      (h c main_arg6).trans (d_ops_keep _ (by decide) (by decide) (by decide) (by decide) (by decide)),
      (h c main_arg7).trans (d_ops_keep _ (by decide) (by decide) (by decide) (by decide) (by decide)),
      (h c main_arg8).trans (d_ops_keep _ (by decide) (by decide) (by decide) (by decide) (by decide)),
      (h c main_arg9).trans (d_ops_keep _ (by decide) (by decide) (by decide) (by decide) (by decide)),
      (h c main_arg10).trans (d_ops_keep _ (by decide) (by decide) (by decide) (by decide) (by decide)),
      (h c main_arg11).trans (d_ops_keep _ (by decide) (by decide) (by decide) (by decide) (by decide)),
      (h c main_arg12).trans (d_ops_keep _ (by decide) (by decide) (by decide) (by decide) (by decide)),
      (h c main_arg13).trans (d_ops_keep _ (by decide) (by decide) (by decide) (by decide) (by decide))⟩)
    (run_seq scopedRefs_eq scopedSems_eq defs main (fun _ => ops) main_eq (fun _ => ops_sub) m ρ (fun _ => d_ops_fresh))

end Cert.ReferenceIdeal.Hand

end
-- ==== Proof.RefFoldDefs.lean ====
import proofs.«172917_j75840532513057_2_alg».proof.Proof.Net

/-! The reference's stages, each named once as a function of the arrays it reads, for any float instance: the node
    embedding, a layer's edge embedding, perceptron and batch normalisation (each a core over one slice of the stacked
    weights, and the three layers' instances at slices 0, 1, 2), the ELU, and the whole result as their composition
    with the shared host computations. Each is the literal composition of the printed host operations. -/

noncomputable section

namespace Cert.ReferenceIdeal.Hand

open Idealize.ShloMosaic Cert.ReferenceIdeal Cert.ReferenceIdeal.Facts₀ Cert.ReferenceIdeal.Facts

variable {F : FTy → Type} [FloatOps F]

/-- A row of 64 repeated down 50000 rows. -/
def rows64 (b : FVec F S64 .f32) : FVec F S50000x64 .f32 :=
  broadcastInDim S50000x64 ![0, 1] bcast_S1x64_S50000x64_0_1 (broadcastInDim S1x64 ![1] bcast_S64_S1x64_1 b)

/-- The node embedding: `x · xW + xb`, the bias repeated down the rows. -/
def embed (x : FVec F S50000x7 .f32) (xW : FVec F S7x64 .f32) (xb : FVec F S64 .f32) : FVec F S50000x64 .f32 :=
  addf (Host.dotGeneral dot_S50000x7_S7x64_S50000x64_1_0_0_1_n_n none x xW) (rows64 xb)

/-- An edge embedding: `ea · w + b`, the bias repeated down the rows. -/
def edgeEmbOf (ea : FVec F S1050000x5 .f32) (w : FVec F S5x64 .f32) (b : FVec F S64 .f32) : FVec F S1050000x64 .f32 :=
  addf (Host.dotGeneral dot_S1050000x5_S5x64_S1050000x64_1_0_0_1_n_n none ea w)
    (broadcastInDim S1050000x64 ![0, 1] bcast_S1x64_S1050000x64_0_1 (broadcastInDim S1x64 ![1] bcast_S64_S1x64_1 b))

/-- A perceptron: `max(a · w1 + b1, 0) · w2 + b2`. -/
def mlpOf (a : FVec F S50000x64 .f32) (w1 : FVec F S64x128 .f32) (b1 : FVec F S128 .f32) (w2 : FVec F S128x64 .f32)
    (b2 : FVec F S64 .f32) : FVec F S50000x64 .f32 :=
  addf (Host.dotGeneral dot_S50000x128_S128x64_S50000x64_1_0_0_1_n_n none
      (maximumf
        (addf (Host.dotGeneral dot_S50000x64_S64x128_S50000x128_1_0_0_1_n_n none a w1)
          (broadcastInDim S50000x128 ![0, 1] bcast_S1x128_S50000x128_0_1 (broadcastInDim S1x128 ![1] bcast_S128_S1x128_1 b1)))
        (broadcastInDim S50000x128 ![] bcast_S_S50000x128 (constant S_ .f32 0x00000000#32)))
      w2)
    (rows64 b2)

/-- A column statistic: the column sums over the row count 5.0e4. -/
def colMean (h : FVec F S50000x64 .f32) : FVec F S64 .f32 :=
  Host.divf (Host.reduceAdd h (constant S_ .f32 0x00000000#32) reducesTo_S50000x64_S64_d0 h_S_)
    (broadcastInDim S64 ![] bcast_S_S64 (constant S_ .f32 0x47435000#32))

/-- A batch normalisation: the column means, the mean squared deviations from them, and
    `(h − mean) · rsqrt(var + 1e-5) · gamma + beta`. -/
def bnOf (h : FVec F S50000x64 .f32) (gamma : FVec F S64 .f32) (beta : FVec F S64 .f32) : FVec F S50000x64 .f32 :=
  addf
    (mulf
      (mulf (subf h (rows64 (colMean h)))
        (rows64 (Host.rsqrt (addf
          (colMean (mulf (subf h (rows64 (colMean h))) (subf h (rows64 (colMean h)))))
          (broadcastInDim S64 ![] bcast_S_S64 (constant S_ .f32 0x3727C5AC#32))))))
      (rows64 gamma))
    (rows64 beta)

/-- The ELU: `x` where `x > 0`, else `1 · expm1` of (0 where `x > 0`, else `x`). -/
def eluOf (x : FVec F S50000x64 .f32) : FVec F S50000x64 .f32 :=
  select (cmpf .ogt x (broadcastInDim S50000x64 ![] bcast_S_S50000x64 (constant S_ .f32 0x00000000#32))) x
    (mulf (broadcastInDim S50000x64 ![] bcast_S_S50000x64 (constant S_ .f32 0x3F800000#32))
      (Host.expm1
        (select (cmpf .ogt x (broadcastInDim S50000x64 ![] bcast_S_S50000x64 (constant S_ .f32 0x00000000#32)))
          (broadcastInDim S50000x64 ![] bcast_S_S50000x64 (id (constant S_ .f32 0x00000000#32))) x)))

/-- Layer 0's edge embedding: the affine map at slice 0 of the stacked edge weights and biases. -/
def edgeEmb0 (ea : FVec F S1050000x5 .f32) (eW : FVec F S3x5x64 .f32) (eb : FVec F S3x64 .f32) : FVec F S1050000x64 .f32 :=
  edgeEmbOf ea (shapeCast S5x64 (extractStridedSlice S1x5x64 ![0, 0, 0] eW slices_S3x5x64_S1x5x64_0_0_0) shapeCasts_S1x5x64_S5x64)
    (shapeCast S64 (extractStridedSlice S1x64 ![0, 0] eb slices_S3x64_S1x64_0_0) shapeCasts_S1x64_S64)

/-- Layer 0's perceptron: at slice 0 of the stacked weights and biases. -/
def mlpOf_0 (a : FVec F S50000x64 .f32) (W1 : FVec F S3x64x128 .f32) (b1 : FVec F S3x128 .f32) (W2 : FVec F S3x128x64 .f32)
    (b2 : FVec F S3x64 .f32) : FVec F S50000x64 .f32 :=
  mlpOf a (shapeCast S64x128 (extractStridedSlice S1x64x128 ![0, 0, 0] W1 slices_S3x64x128_S1x64x128_0_0_0) shapeCasts_S1x64x128_S64x128)
    (shapeCast S128 (extractStridedSlice S1x128 ![0, 0] b1 slices_S3x128_S1x128_0_0) shapeCasts_S1x128_S128)
    (shapeCast S128x64 (extractStridedSlice S1x128x64 ![0, 0, 0] W2 slices_S3x128x64_S1x128x64_0_0_0) shapeCasts_S1x128x64_S128x64)
    (shapeCast S64 (extractStridedSlice S1x64 ![0, 0] b2 slices_S3x64_S1x64_0_0) shapeCasts_S1x64_S64)

/-- Layer 0's batch normalisation: at slice 0 of the stacked scales and shifts. -/
def bnOf_0 (h : FVec F S50000x64 .f32) (gamma : FVec F S3x64 .f32) (beta : FVec F S3x64 .f32) : FVec F S50000x64 .f32 :=
  bnOf h (shapeCast S64 (extractStridedSlice S1x64 ![0, 0] gamma slices_S3x64_S1x64_0_0) shapeCasts_S1x64_S64)
    (shapeCast S64 (extractStridedSlice S1x64 ![0, 0] beta slices_S3x64_S1x64_0_0) shapeCasts_S1x64_S64)

/-- Layer 1's edge embedding: the affine map at slice 1 of the stacked edge weights and biases. -/
def edgeEmb1 (ea : FVec F S1050000x5 .f32) (eW : FVec F S3x5x64 .f32) (eb : FVec F S3x64 .f32) : FVec F S1050000x64 .f32 :=
  edgeEmbOf ea (shapeCast S5x64 (extractStridedSlice S1x5x64 ![1, 0, 0] eW slices_S3x5x64_S1x5x64_1_0_0) shapeCasts_S1x5x64_S5x64)
    (shapeCast S64 (extractStridedSlice S1x64 ![1, 0] eb slices_S3x64_S1x64_1_0) shapeCasts_S1x64_S64)

/-- Layer 1's perceptron: at slice 1 of the stacked weights and biases. -/
def mlpOf_1 (a : FVec F S50000x64 .f32) (W1 : FVec F S3x64x128 .f32) (b1 : FVec F S3x128 .f32) (W2 : FVec F S3x128x64 .f32)
    (b2 : FVec F S3x64 .f32) : FVec F S50000x64 .f32 :=
  mlpOf a (shapeCast S64x128 (extractStridedSlice S1x64x128 ![1, 0, 0] W1 slices_S3x64x128_S1x64x128_1_0_0) shapeCasts_S1x64x128_S64x128)
    (shapeCast S128 (extractStridedSlice S1x128 ![1, 0] b1 slices_S3x128_S1x128_1_0) shapeCasts_S1x128_S128)
    (shapeCast S128x64 (extractStridedSlice S1x128x64 ![1, 0, 0] W2 slices_S3x128x64_S1x128x64_1_0_0) shapeCasts_S1x128x64_S128x64)
    (shapeCast S64 (extractStridedSlice S1x64 ![1, 0] b2 slices_S3x64_S1x64_1_0) shapeCasts_S1x64_S64)

/-- Layer 1's batch normalisation: at slice 1 of the stacked scales and shifts. -/
def bnOf_1 (h : FVec F S50000x64 .f32) (gamma : FVec F S3x64 .f32) (beta : FVec F S3x64 .f32) : FVec F S50000x64 .f32 :=
  bnOf h (shapeCast S64 (extractStridedSlice S1x64 ![1, 0] gamma slices_S3x64_S1x64_1_0) shapeCasts_S1x64_S64)
    (shapeCast S64 (extractStridedSlice S1x64 ![1, 0] beta slices_S3x64_S1x64_1_0) shapeCasts_S1x64_S64)

/-- Layer 2's edge embedding: the affine map at slice 2 of the stacked edge weights and biases. -/
def edgeEmb2 (ea : FVec F S1050000x5 .f32) (eW : FVec F S3x5x64 .f32) (eb : FVec F S3x64 .f32) : FVec F S1050000x64 .f32 :=
  edgeEmbOf ea (shapeCast S5x64 (extractStridedSlice S1x5x64 ![2, 0, 0] eW slices_S3x5x64_S1x5x64_2_0_0) shapeCasts_S1x5x64_S5x64)
    (shapeCast S64 (extractStridedSlice S1x64 ![2, 0] eb slices_S3x64_S1x64_2_0) shapeCasts_S1x64_S64)

/-- Layer 2's perceptron: at slice 2 of the stacked weights and biases. -/
def mlpOf_2 (a : FVec F S50000x64 .f32) (W1 : FVec F S3x64x128 .f32) (b1 : FVec F S3x128 .f32) (W2 : FVec F S3x128x64 .f32)
    (b2 : FVec F S3x64 .f32) : FVec F S50000x64 .f32 :=
  mlpOf a (shapeCast S64x128 (extractStridedSlice S1x64x128 ![2, 0, 0] W1 slices_S3x64x128_S1x64x128_2_0_0) shapeCasts_S1x64x128_S64x128)
    (shapeCast S128 (extractStridedSlice S1x128 ![2, 0] b1 slices_S3x128_S1x128_2_0) shapeCasts_S1x128_S128)
    (shapeCast S128x64 (extractStridedSlice S1x128x64 ![2, 0, 0] W2 slices_S3x128x64_S1x128x64_2_0_0) shapeCasts_S1x128x64_S128x64)
    (shapeCast S64 (extractStridedSlice S1x64 ![2, 0] b2 slices_S3x64_S1x64_2_0) shapeCasts_S1x64_S64)

/-- Layer 2's batch normalisation: at slice 2 of the stacked scales and shifts. -/
def bnOf_2 (h : FVec F S50000x64 .f32) (gamma : FVec F S3x64 .f32) (beta : FVec F S3x64 .f32) : FVec F S50000x64 .f32 :=
  bnOf h (shapeCast S64 (extractStridedSlice S1x64 ![2, 0] gamma slices_S3x64_S1x64_2_0) shapeCasts_S1x64_S64)
    (shapeCast S64 (extractStridedSlice S1x64 ![2, 0] beta slices_S3x64_S1x64_2_0) shapeCasts_S1x64_S64)

/-- The reference's result as a function of its fourteen arguments: the embedding, three layers (aggregate, perceptron,
    normalise; ELU after the first two), the pick of the last nodes. -/
def refOut (a0 : FVec F S50000x7 .f32) (a1 : FVec F S1000000x5 .f32) (a2 : IVec S2x1000000 32) (a3 : IVec S250 32)
    (a4 : FVec F S7x64 .f32) (a5 : FVec F S64 .f32) (a6 : FVec F S3x5x64 .f32) (a7 : FVec F S3x64 .f32)
    (a8 : FVec F S3x64x128 .f32) (a9 : FVec F S3x128 .f32) (a10 : FVec F S3x128x64 .f32) (a11 : FVec F S3x64 .f32)
    (a12 : FVec F S3x64 .f32) (a13 : FVec F S3x64 .f32) : FVec F S250x64 .f32 :=
  Net.pick
    (bnOf_2 (mlpOf_2 (Net.agg
      (eluOf (bnOf_1 (mlpOf_1 (Net.agg
        (eluOf (bnOf_0 (mlpOf_0 (Net.agg (embed a0 a4 a5) (edgeEmb0 (Net.ea a1) a6 a7) (Net.srcOf a2) (Net.dstOf a2))
          a8 a9 a10 a11) a12 a13))
        (edgeEmb1 (Net.ea a1) a6 a7) (Net.srcOf a2) (Net.dstOf a2)) a8 a9 a10 a11) a12 a13))
      (edgeEmb2 (Net.ea a1) a6 a7) (Net.srcOf a2) (Net.dstOf a2)) a8 a9 a10 a11) a12 a13)
    a3

end Cert.ReferenceIdeal.Hand

end
-- ==== Proof.RefFoldA.lean ====
import proofs.«172917_j75840532513057_2_alg».proof.Proof.RefFoldDefs
import Idealize.ShloMosaic.Lib.StableHlo.Run

/-! The reference's prelude, node embedding and final pick read back over a variable valuation: the self-loops appended to
    the edge attributes and to the two node lists, the embedding of the node features, and the rows of the last layer
    picked at the last nodes — each stretch's result buffers at the shared host computations of the buffers it reads,
    every other reference unchanged. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The singleton of a listed reference lies among the list's device references. -/
private theorem d_sub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-! ### Stretch A: 15 operations, `main_cst` … `main_v11` -/

/-- The operations of the stretch, in order. -/
def sA : List (HloOp τ sig (Elt F)) :=
  [
    StableHlo.nullary main_cst (constant S_ .f32 0x00000000#32),
    StableHlo.unary main_cst main_v0 (broadcastInDim S50000x5 ![] bcast_S_S50000x5 : (⟨S_, .f32⟩ : BufTy).Contents (Elt F) → (⟨S50000x5, .f32⟩ : BufTy).Contents (Elt F)),
    StableHlo.nullary main_c (constantI S_ 32 0#32),
    StableHlo.unary main_c main_v1 (broadcastInDim S1 ![] bcast_S_S1 : (⟨S_, .i32⟩ : BufTy).Contents (Elt F) → (⟨S1, .i32⟩ : BufTy).Contents (Elt F)),
    StableHlo.nullary main_cst_0 (constant S_ .f32 0x41000000#32),
    StableHlo.unary main_cst_0 main_v2 (broadcastInDim S50000 ![] bcast_S_S50000 : (⟨S_, .f32⟩ : BufTy).Contents (Elt F) → (⟨S50000, .f32⟩ : BufTy).Contents (Elt F)),
    StableHlo.ternary main_v0 main_v1 main_v2 main_v3 ((fun x i u => Host.scatter scatter_S50000x5_S1_S50000_0_1_1_0 (fun _ b => b) x i u) : (⟨S50000x5, .f32⟩ : BufTy).Contents (Elt F) → (⟨S1, .i32⟩ : BufTy).Contents (Elt F) → (⟨S50000, .f32⟩ : BufTy).Contents (Elt F) → (⟨S50000x5, .f32⟩ : BufTy).Contents (Elt F)),
    StableHlo.binary main_arg1 main_v3 main_v4 ((fun a b => concatenate S1050000x5 0 [⟨S1000000x5, a⟩, ⟨S50000x5, b⟩] concatenates_S1000000x5_S50000x5_S1050000x5_d0) : (⟨S1000000x5, .f32⟩ : BufTy).Contents (Elt F) → (⟨S50000x5, .f32⟩ : BufTy).Contents (Elt F) → (⟨S1050000x5, .f32⟩ : BufTy).Contents (Elt F)),
    StableHlo.nullary main_v5 (iotaInDim S50000 32 0),
    StableHlo.unary main_arg2 main_v6 ((extractStridedSlice S1x1000000 ![0, 0] · slices_S2x1000000_S1x1000000_0_0) : (⟨S2x1000000, .i32⟩ : BufTy).Contents (Elt F) → (⟨S1x1000000, .i32⟩ : BufTy).Contents (Elt F)),
    StableHlo.reshape main_v6 main_v7 rfl shapeCasts_S1x1000000_S1000000,
    StableHlo.binary main_v7 main_v5 main_v8 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)),
    StableHlo.unary main_arg2 main_v9 ((extractStridedSlice S1x1000000 ![1, 0] · slices_S2x1000000_S1x1000000_1_0) : (⟨S2x1000000, .i32⟩ : BufTy).Contents (Elt F) → (⟨S1x1000000, .i32⟩ : BufTy).Contents (Elt F)),
    StableHlo.reshape main_v9 main_v10 rfl shapeCasts_S1x1000000_S1000000,
    StableHlo.binary main_v10 main_v5 main_v11 ((fun a b => concatenate S1050000 0 [⟨S1000000, a⟩, ⟨S50000, b⟩] concatenates_S1000000_S50000_S1050000_d0) : (⟨S1000000, .i32⟩ : BufTy).Contents (Elt F) → (⟨S50000, .i32⟩ : BufTy).Contents (Elt F) → (⟨S1050000, .i32⟩ : BufTy).Contents (Elt F)) ]

/-- The references the stretch writes, one per operation. -/
abbrev d_wA : List (Ref sig .tc) :=
  [
    main_cst, main_v0, main_c, main_v1, main_cst_0, main_v2, main_v3, main_v4,
    main_v5, main_v6, main_v7, main_v8, main_v9, main_v10, main_v11 ]

/-- Each operation writes its own listed reference and nothing else. -/
theorem d_sA_writes : (sA : List (HloOp τ sig (Elt F))).Forall fun op =>
    op.writes ⊆ (d_wA.map (Proc.devRef (τ := τ) .tc)).toFinset :=
  ⟨
    d_sub main_cst (by decide), d_sub main_v0 (by decide), d_sub main_c (by decide), d_sub main_v1 (by decide),
    d_sub main_cst_0 (by decide), d_sub main_v2 (by decide), d_sub main_v3 (by decide), d_sub main_v4 (by decide),
    d_sub main_v5 (by decide), d_sub main_v6 (by decide), d_sub main_v7 (by decide), d_sub main_v8 (by decide),
    d_sub main_v9 (by decide), d_sub main_v10 (by decide), d_sub main_v11 (by decide)⟩

/-- A reference the stretch does not write keeps its contents through it. -/
theorem d_sA_keep (V : Valuation τ sig (Elt F)) {r : Ref sig .tc} (hr : r ∉ d_wA) :
    after sA V (no_index (Proc.devRef .tc r)) = V (Proc.devRef .tc r) :=
  after_of_writes_sub sA V d_sA_writes hr

set_option maxRecDepth 8192 in
set_option maxHeartbeats 400000 in
/-- What the stretch leaves at `main_v4`: the fold unrolled, each operation's result read at its own buffer and
    passed over at the others, one rewrite at a time (the operands of the concatenation sit under a dependent pair,
    where a simplification pass does not rewrite). -/
theorem d_sA_out_ea (V : Valuation τ sig (Elt F)) :
    after sA V (no_index (Proc.devRef .tc main_v4))
      = Net.ea (V (Proc.devRef .tc main_arg1)) := by
  show after sA V (Proc.devRef .tc main_v4) = _
  unfold sA
  after_results
  rfl

set_option maxRecDepth 8192 in
set_option maxHeartbeats 400000 in
/-- What the stretch leaves at `main_v8`: the fold unrolled, each operation's result read at its own buffer and
    passed over at the others, the typed references' transports the identity at these literal references. -/
theorem d_sA_out_src (V : Valuation τ sig (Elt F)) :
    after sA V (no_index (Proc.devRef .tc main_v8))
      = Net.srcOf (V (Proc.devRef .tc main_arg2)) := by
  unfold sA
  after_results_simp
  rfl

set_option maxRecDepth 8192 in
set_option maxHeartbeats 400000 in
/-- What the stretch leaves at `main_v11`: the fold unrolled, each operation's result read at its own buffer and
    passed over at the others, the typed references' transports the identity at these literal references. -/
theorem d_sA_out_dst (V : Valuation τ sig (Elt F)) :
    after sA V (no_index (Proc.devRef .tc main_v11))
      = Net.dstOf (V (Proc.devRef .tc main_arg2)) := by
  unfold sA
  after_results_simp
  rfl

/-! ### Stretch B: 4 operations, `main_v12` … `main_v15` -/

/-- The operations of the stretch, in order. -/
def sB : List (HloOp τ sig (Elt F)) :=
  [
    StableHlo.binary main_arg0 main_arg4 main_v12 ((fun l r => Host.dotGeneral dot_S50000x7_S7x64_S50000x64_1_0_0_1_n_n none l r) : (⟨S50000x7, .f32⟩ : BufTy).Contents (Elt F) → (⟨S7x64, .f32⟩ : BufTy).Contents (Elt F) → (⟨S50000x64, .f32⟩ : BufTy).Contents (Elt F)),
    StableHlo.unary main_arg5 main_v13 (broadcastInDim S1x64 ![1] bcast_S64_S1x64_1 : (⟨S64, .f32⟩ : BufTy).Contents (Elt F) → (⟨S1x64, .f32⟩ : BufTy).Contents (Elt F)),
    StableHlo.unary main_v13 main_v14 (broadcastInDim S50000x64 ![0, 1] bcast_S1x64_S50000x64_0_1 : (⟨S1x64, .f32⟩ : BufTy).Contents (Elt F) → (⟨S50000x64, .f32⟩ : BufTy).Contents (Elt F)),
    StableHlo.binary main_v12 main_v14 main_v15 (addf : (⟨S50000x64, .f32⟩ : BufTy).Contents (Elt F) → (⟨S50000x64, .f32⟩ : BufTy).Contents (Elt F) → (⟨S50000x64, .f32⟩ : BufTy).Contents (Elt F)) ]

/-- The references the stretch writes, one per operation. -/
abbrev d_wB : List (Ref sig .tc) :=
  [
    main_v12, main_v13, main_v14, main_v15 ]

/-- Each operation writes its own listed reference and nothing else. -/
theorem d_sB_writes : (sB : List (HloOp τ sig (Elt F))).Forall fun op =>
    op.writes ⊆ (d_wB.map (Proc.devRef (τ := τ) .tc)).toFinset :=
  ⟨
    d_sub main_v12 (by decide), d_sub main_v13 (by decide), d_sub main_v14 (by decide), d_sub main_v15 (by decide)⟩

/-- A reference the stretch does not write keeps its contents through it. -/
theorem d_sB_keep (V : Valuation τ sig (Elt F)) {r : Ref sig .tc} (hr : r ∉ d_wB) :
    after sB V (no_index (Proc.devRef .tc r)) = V (Proc.devRef .tc r) :=
  after_of_writes_sub sB V d_sB_writes hr

set_option maxRecDepth 8192 in
set_option maxHeartbeats 400000 in
/-- What the stretch leaves at `main_v15`: the fold unrolled, each operation's result read at its own buffer and
    passed over at the others, the typed references' transports the identity at these literal references. -/
theorem d_sB_out (V : Valuation τ sig (Elt F)) :
    after sB V (no_index (Proc.devRef .tc main_v15))
      = embed (V (Proc.devRef .tc main_arg0)) (V (Proc.devRef .tc main_arg4)) (V (Proc.devRef .tc main_arg5)) := by
  unfold sB
  after_results_simp
  rfl

/-! ### Stretch P: 9 operations, `main_c_25` … `main_v219` -/

/-- The operations of the stretch, in order. -/
def sP : List (HloOp τ sig (Elt F)) :=
  [
    StableHlo.nullary main_c_25 (constantI S_ 32 0#32),
    StableHlo.unary main_c_25 main_v213 (broadcastInDim S250 ![] bcast_S_S250 : (⟨S_, .i32⟩ : BufTy).Contents (Elt F) → (⟨S250, .i32⟩ : BufTy).Contents (Elt F)),
    StableHlo.binary main_arg3 main_v213 main_v214 (cmpi .slt : (⟨S250, .i32⟩ : BufTy).Contents (Elt F) → (⟨S250, .i32⟩ : BufTy).Contents (Elt F) → (⟨S250, .i1⟩ : BufTy).Contents (Elt F)),
    StableHlo.nullary main_c_26 (constantI S_ 32 50000#32),
    StableHlo.unary main_c_26 main_v215 (broadcastInDim S250 ![] bcast_S_S250 : (⟨S_, .i32⟩ : BufTy).Contents (Elt F) → (⟨S250, .i32⟩ : BufTy).Contents (Elt F)),
    StableHlo.binary main_arg3 main_v215 main_v216 (addi : (⟨S250, .i32⟩ : BufTy).Contents (Elt F) → (⟨S250, .i32⟩ : BufTy).Contents (Elt F) → (⟨S250, .i32⟩ : BufTy).Contents (Elt F)),
    StableHlo.ternary main_v214 main_v216 main_arg3 main_v217 (select : (⟨S250, .i1⟩ : BufTy).Contents (Elt F) → (⟨S250, .i32⟩ : BufTy).Contents (Elt F) → (⟨S250, .i32⟩ : BufTy).Contents (Elt F) → (⟨S250, .i32⟩ : BufTy).Contents (Elt F)),
    StableHlo.unary main_v217 main_v218 (broadcastInDim S250x1 ![0] bcast_S250_S250x1_0 : (⟨S250, .i32⟩ : BufTy).Contents (Elt F) → (⟨S250x1, .i32⟩ : BufTy).Contents (Elt F)),
    StableHlo.binary main_v212 main_v218 main_v219 ((fun x i => Host.gather gather_S50000x64_S250x1_S250x64_1_0_n_n_0_1_164 x i) : (⟨S50000x64, .f32⟩ : BufTy).Contents (Elt F) → (⟨S250x1, .i32⟩ : BufTy).Contents (Elt F) → (⟨S250x64, .f32⟩ : BufTy).Contents (Elt F)) ]

/-- The references the stretch writes, one per operation. -/
abbrev d_wP : List (Ref sig .tc) :=
  [
    main_c_25, main_v213, main_v214, main_c_26, main_v215, main_v216, main_v217, main_v218,
    main_v219 ]

/-- Each operation writes its own listed reference and nothing else. -/
theorem d_sP_writes : (sP : List (HloOp τ sig (Elt F))).Forall fun op =>
    op.writes ⊆ (d_wP.map (Proc.devRef (τ := τ) .tc)).toFinset :=
  ⟨
    d_sub main_c_25 (by decide), d_sub main_v213 (by decide), d_sub main_v214 (by decide), d_sub main_c_26 (by decide),
    d_sub main_v215 (by decide), d_sub main_v216 (by decide), d_sub main_v217 (by decide), d_sub main_v218 (by decide),
    d_sub main_v219 (by decide)⟩

/-- A reference the stretch does not write keeps its contents through it. -/
theorem d_sP_keep (V : Valuation τ sig (Elt F)) {r : Ref sig .tc} (hr : r ∉ d_wP) :
    after sP V (no_index (Proc.devRef .tc r)) = V (Proc.devRef .tc r) :=
  after_of_writes_sub sP V d_sP_writes hr

set_option maxRecDepth 8192 in
set_option maxHeartbeats 400000 in
/-- What the stretch leaves at `main_v219`: the fold unrolled, each operation's result read at its own buffer and
    passed over at the others, the typed references' transports the identity at these literal references. -/
theorem d_sP_out (V : Valuation τ sig (Elt F)) :
    after sP V (no_index (Proc.devRef .tc main_v219))
      = Net.pick (V (Proc.devRef .tc main_v212)) (V (Proc.devRef .tc main_arg3)) := by
  unfold sP
  after_results_simp
  rfl

end Cert.ReferenceIdeal.Hand

end
-- ==== Proof.RefFoldL0.lean ====
import proofs.«172917_j75840532513057_2_alg».proof.Proof.RefFoldDefs
import Idealize.ShloMosaic.Lib.StableHlo.Run

/-! Layer 0 of the reference read back stretch by stretch over a variable valuation: the edge embedding, the
    aggregation, the perceptron (its @relu unfolded), the batch normalisation, the ELU (its @_where and @_where_0 unfolded) —
    each stretch's result buffer at its stage function of the buffers it reads, every other reference unchanged. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The singleton of a listed reference lies among the list's device references. -/
private theorem d_sub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-! ### Stretch C0: 8 operations, `main_v16` … `main_v23` -/

/-- The operations of the stretch, in order. -/
def sC0 : List (HloOp τ sig (Elt F)) :=
  [
    StableHlo.unary main_arg6 main_v16 ((extractStridedSlice S1x5x64 ![0, 0, 0] · slices_S3x5x64_S1x5x64_0_0_0) : (⟨S3x5x64, .f32⟩ : BufTy).Contents (Elt F) → (⟨S1x5x64, .f32⟩ : BufTy).Contents (Elt F)),
    StableHlo.reshape main_v16 main_v17 rfl shapeCasts_S1x5x64_S5x64,
    StableHlo.binary main_v4 main_v17 main_v18 ((fun l r => Host.dotGeneral dot_S1050000x5_S5x64_S1050000x64_1_0_0_1_n_n none l r) : (⟨S1050000x5, .f32⟩ : BufTy).Contents (Elt F) → (⟨S5x64, .f32⟩ : BufTy).Contents (Elt F) → (⟨S1050000x64, .f32⟩ : BufTy).Contents (Elt F)),
    StableHlo.unary main_arg7 main_v19 ((extractStridedSlice S1x64 ![0, 0] · slices_S3x64_S1x64_0_0) : (⟨S3x64, .f32⟩ : BufTy).Contents (Elt F) → (⟨S1x64, .f32⟩ : BufTy).Contents (Elt F)),
    StableHlo.reshape main_v19 main_v20 rfl shapeCasts_S1x64_S64,
    StableHlo.unary main_v20 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S1050000x64 ![0, 1] bcast_S1x64_S1050000x64_0_1 : (⟨S1x64, .f32⟩ : BufTy).Contents (Elt F) → (⟨S1050000x64, .f32⟩ : BufTy).Contents (Elt F)),
    StableHlo.binary main_v18 main_v22 main_v23 (addf : (⟨S1050000x64, .f32⟩ : BufTy).Contents (Elt F) → (⟨S1050000x64, .f32⟩ : BufTy).Contents (Elt F) → (⟨S1050000x64, .f32⟩ : BufTy).Contents (Elt F)) ]

/-- The references the stretch writes, one per operation. -/
abbrev d_wC0 : List (Ref sig .tc) :=
  [
    main_v16, main_v17, main_v18, main_v19, main_v20, main_v21, main_v22, main_v23 ]

/-- Each operation writes its own listed reference and nothing else. -/
theorem d_sC0_writes : (sC0 : List (HloOp τ sig (Elt F))).Forall fun op =>
    op.writes ⊆ (d_wC0.map (Proc.devRef (τ := τ) .tc)).toFinset :=
  ⟨
    d_sub main_v16 (by decide), d_sub main_v17 (by decide), d_sub main_v18 (by decide), d_sub main_v19 (by decide),
    d_sub main_v20 (by decide), d_sub main_v21 (by decide), d_sub main_v22 (by decide), d_sub main_v23 (by decide)⟩

/-- A reference the stretch does not write keeps its contents through it. -/
theorem d_sC0_keep (V : Valuation τ sig (Elt F)) {r : Ref sig .tc} (hr : r ∉ d_wC0) :
    after sC0 V (no_index (Proc.devRef .tc r)) = V (Proc.devRef .tc r) :=
  after_of_writes_sub sC0 V d_sC0_writes hr

set_option maxRecDepth 8192 in
set_option maxHeartbeats 400000 in
/-- What the stretch leaves at `main_v23`: the fold unrolled, each operation's result read at its own buffer and
    passed over at the others, the typed references' transports the identity at these literal references. -/
theorem d_sC0_out (V : Valuation τ sig (Elt F)) :
    after sC0 V (no_index (Proc.devRef .tc main_v23))
      = edgeEmb0 (V (Proc.devRef .tc main_v4)) (V (Proc.devRef .tc main_arg6)) (V (Proc.devRef .tc main_arg7)) := by
  unfold sC0
  after_results_simp
  rfl

/-! ### Stretch D0: 14 operations, `main_c_1` … `main_v34` -/

/-- The operations of the stretch, in order. -/
def sD0 : List (HloOp τ sig (Elt F)) :=
  [
    StableHlo.nullary main_c_1 (constantI S_ 32 0#32),
    StableHlo.unary main_c_1 main_v24 (broadcastInDim S1050000 ![] bcast_S_S1050000 : (⟨S_, .i32⟩ : BufTy).Contents (Elt F) → (⟨S1050000, .i32⟩ : BufTy).Contents (Elt F)),
    StableHlo.binary main_v8 main_v24 main_v25 (cmpi .slt : (⟨S1050000, .i32⟩ : BufTy).Contents (Elt F) → (⟨S1050000, .i32⟩ : BufTy).Contents (Elt F) → (⟨S1050000, .i1⟩ : BufTy).Contents (Elt F)),
    StableHlo.nullary main_c_2 (constantI S_ 32 50000#32),
    StableHlo.unary main_c_2 main_v26 (broadcastInDim S1050000 ![] bcast_S_S1050000 : (⟨S_, .i32⟩ : BufTy).Contents (Elt F) → (⟨S1050000, .i32⟩ : BufTy).Contents (Elt F)),
    StableHlo.binary main_v8 main_v26 main_v27 (addi : (⟨S1050000, .i32⟩ : BufTy).Contents (Elt F) → (⟨S1050000, .i32⟩ : BufTy).Contents (Elt F) → (⟨S1050000, .i32⟩ : BufTy).Contents (Elt F)),
    StableHlo.ternary main_v25 main_v27 main_v8 main_v28 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v28 main_v29 (broadcastInDim S1050000x1 ![0] bcast_S1050000_S1050000x1_0 : (⟨S1050000, .i32⟩ : BufTy).Contents (Elt F) → (⟨S1050000x1, .i32⟩ : BufTy).Contents (Elt F)),
    StableHlo.binary main_v15 main_v29 main_v30 ((fun x i => Host.gather gather_S50000x64_S1050000x1_S1050000x64_1_0_n_n_0_1_164 x i) : (⟨S50000x64, .f32⟩ : BufTy).Contents (Elt F) → (⟨S1050000x1, .i32⟩ : BufTy).Contents (Elt F) → (⟨S1050000x64, .f32⟩ : BufTy).Contents (Elt F)),
    StableHlo.binary main_v30 main_v23 main_v31 (addf : (⟨S1050000x64, .f32⟩ : BufTy).Contents (Elt F) → (⟨S1050000x64, .f32⟩ : BufTy).Contents (Elt F) → (⟨S1050000x64, .f32⟩ : BufTy).Contents (Elt F)),
    StableHlo.nullary main_cst_3 (constant S_ .f32 0x00000000#32),
    StableHlo.unary main_cst_3 main_v32 (broadcastInDim S50000x64 ![] bcast_S_S50000x64 : (⟨S_, .f32⟩ : BufTy).Contents (Elt F) → (⟨S50000x64, .f32⟩ : BufTy).Contents (Elt F)),
    StableHlo.unary main_v11 main_v33 (broadcastInDim S1050000x1 ![0] bcast_S1050000_S1050000x1_0 : (⟨S1050000, .i32⟩ : BufTy).Contents (Elt F) → (⟨S1050000x1, .i32⟩ : BufTy).Contents (Elt F)),
    StableHlo.ternary main_v32 main_v33 main_v31 main_v34 ((fun x i u => Host.scatterAdd scatter_S50000x64_S1050000x1_S1050000x64_1_0_0_1 x i u) : (⟨S50000x64, .f32⟩ : BufTy).Contents (Elt F) → (⟨S1050000x1, .i32⟩ : BufTy).Contents (Elt F) → (⟨S1050000x64, .f32⟩ : BufTy).Contents (Elt F) → (⟨S50000x64, .f32⟩ : BufTy).Contents (Elt F)) ]

/-- The references the stretch writes, one per operation. -/
abbrev d_wD0 : List (Ref sig .tc) :=
  [
    main_c_1, main_v24, main_v25, main_c_2, main_v26, main_v27, main_v28, main_v29,
    main_v30, main_v31, main_cst_3, main_v32, main_v33, main_v34 ]

/-- Each operation writes its own listed reference and nothing else. -/
theorem d_sD0_writes : (sD0 : List (HloOp τ sig (Elt F))).Forall fun op =>
    op.writes ⊆ (d_wD0.map (Proc.devRef (τ := τ) .tc)).toFinset :=
  ⟨
    d_sub main_c_1 (by decide), d_sub main_v24 (by decide), d_sub main_v25 (by decide), d_sub main_c_2 (by decide),
    d_sub main_v26 (by decide), d_sub main_v27 (by decide), d_sub main_v28 (by decide), d_sub main_v29 (by decide),
    d_sub main_v30 (by decide), d_sub main_v31 (by decide), d_sub main_cst_3 (by decide), d_sub main_v32 (by decide),
    d_sub main_v33 (by decide), d_sub main_v34 (by decide)⟩

/-- A reference the stretch does not write keeps its contents through it. -/
theorem d_sD0_keep (V : Valuation τ sig (Elt F)) {r : Ref sig .tc} (hr : r ∉ d_wD0) :
    after sD0 V (no_index (Proc.devRef .tc r)) = V (Proc.devRef .tc r) :=
  after_of_writes_sub sD0 V d_sD0_writes hr

set_option maxRecDepth 8192 in
set_option maxHeartbeats 400000 in
/-- What the stretch leaves at `main_v34`: the fold unrolled, each operation's result read at its own buffer and
    passed over at the others, the typed references' transports the identity at these literal references. -/
theorem d_sD0_out (V : Valuation τ sig (Elt F)) :
    after sD0 V (no_index (Proc.devRef .tc main_v34))
      = Net.agg (V (Proc.devRef .tc main_v15)) (V (Proc.devRef .tc main_v23)) (V (Proc.devRef .tc main_v8)) (V (Proc.devRef .tc main_v11)) := by
  unfold sD0
  after_results_simp
  rfl

/-! ### Stretch E0: 19 operations, `main_v35` … `main_v51` -/

/-- The operations of the stretch, in order. -/
def sE0 : List (HloOp τ sig (Elt F)) :=
  [
    StableHlo.unary main_arg8 main_v35 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v35 main_v36 rfl shapeCasts_S1x64x128_S64x128,
    StableHlo.binary main_v34 main_v36 main_v37 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg9 main_v38 ((extractStridedSlice S1x128 ![0, 0] · slices_S3x128_S1x128_0_0) : (⟨S3x128, .f32⟩ : BufTy).Contents (Elt F) → (⟨S1x128, .f32⟩ : BufTy).Contents (Elt F)),
    StableHlo.reshape main_v38 main_v39 rfl shapeCasts_S1x128_S128,
    StableHlo.unary main_v39 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v37 main_v41 main_v42 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v42) main_call0.v0 main_call0.v1 maximumf,
    StableHlo.unary main_arg10 main_v44 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v44 main_v45 rfl shapeCasts_S1x128x64_S128x64,
    StableHlo.binary main_v43 main_v45 main_v46 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v47 ((extractStridedSlice S1x64 ![0, 0] · slices_S3x64_S1x64_0_0) : (⟨S3x64, .f32⟩ : BufTy).Contents (Elt F) → (⟨S1x64, .f32⟩ : BufTy).Contents (Elt F)),
    StableHlo.reshape main_v47 main_v48 rfl shapeCasts_S1x64_S64,
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S50000x64 ![0, 1] bcast_S1x64_S50000x64_0_1 : (⟨S1x64, .f32⟩ : BufTy).Contents (Elt F) → (⟨S50000x64, .f32⟩ : BufTy).Contents (Elt F)),
    StableHlo.binary main_v46 main_v50 main_v51 (addf : (⟨S50000x64, .f32⟩ : BufTy).Contents (Elt F) → (⟨S50000x64, .f32⟩ : BufTy).Contents (Elt F) → (⟨S50000x64, .f32⟩ : BufTy).Contents (Elt F)) ]

/-- The references the stretch writes, one per operation. -/
abbrev d_wE0 : List (Ref sig .tc) :=
  [
    main_v35, main_v36, main_v37, main_v38, main_v39, main_v40, main_v41, main_v42,
    main_call0.cst.ref, main_call0.v0.ref, main_call0.v1.ref, main_v44, main_v45, main_v46, main_v47, main_v48,
    main_v49, main_v50, main_v51 ]

/-- Each operation writes its own listed reference and nothing else. -/
theorem d_sE0_writes : (sE0 : List (HloOp τ sig (Elt F))).Forall fun op =>
    op.writes ⊆ (d_wE0.map (Proc.devRef (τ := τ) .tc)).toFinset :=
  ⟨
    d_sub main_v35 (by decide), d_sub main_v36 (by decide), d_sub main_v37 (by decide), d_sub main_v38 (by decide),
    d_sub main_v39 (by decide), d_sub main_v40 (by decide), d_sub main_v41 (by decide), d_sub main_v42 (by decide),
    d_sub (main_call0.cst.ref) (by decide), d_sub (main_call0.v0.ref) (by decide), d_sub (main_call0.v1.ref) (by decide), d_sub main_v44 (by decide),
    d_sub main_v45 (by decide), d_sub main_v46 (by decide), d_sub main_v47 (by decide), d_sub main_v48 (by decide),
    d_sub main_v49 (by decide), d_sub main_v50 (by decide), d_sub main_v51 (by decide)⟩

/-- A reference the stretch does not write keeps its contents through it. -/
theorem d_sE0_keep (V : Valuation τ sig (Elt F)) {r : Ref sig .tc} (hr : r ∉ d_wE0) :
    after sE0 V (no_index (Proc.devRef .tc r)) = V (Proc.devRef .tc r) :=
  after_of_writes_sub sE0 V d_sE0_writes hr

set_option maxRecDepth 8192 in
set_option maxHeartbeats 400000 in
/-- What the stretch leaves at `main_v51`: the fold unrolled, each operation's result read at its own buffer and
    passed over at the others, the typed references' transports the identity at these literal references. -/
theorem d_sE0_out (V : Valuation τ sig (Elt F)) :
    after sE0 V (no_index (Proc.devRef .tc main_v51))
      = mlpOf_0 (V (Proc.devRef .tc main_v34)) (V (Proc.devRef .tc main_arg8)) (V (Proc.devRef .tc main_arg9)) (V (Proc.devRef .tc main_arg10)) (V (Proc.devRef .tc main_arg11)) := by
  unfold sE0
  after_results_simp
  rfl

/-! ### Stretch G0: 34 operations, `main_cst_4` … `main_v80` -/

/-- The operations of the stretch, in order. -/
def sG0 : List (HloOp τ sig (Elt F)) :=
  [
    StableHlo.nullary main_cst_4 (constant S_ .f32 0x00000000#32),
    StableHlo.binary main_v51 main_cst_4 main_v52 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_5 (constant S_ .f32 0x47435000#32),
    StableHlo.unary main_cst_5 main_v53 (broadcastInDim S64 ![] bcast_S_S64 : (⟨S_, .f32⟩ : BufTy).Contents (Elt F) → (⟨S64, .f32⟩ : BufTy).Contents (Elt F)),
    StableHlo.binary main_v52 main_v53 main_v54 (Host.divf : (⟨S64, .f32⟩ : BufTy).Contents (Elt F) → (⟨S64, .f32⟩ : BufTy).Contents (Elt F) → (⟨S64, .f32⟩ : BufTy).Contents (Elt F)),
    StableHlo.unary main_v54 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v56 main_v57 (subf : (⟨S50000x64, .f32⟩ : BufTy).Contents (Elt F) → (⟨S50000x64, .f32⟩ : BufTy).Contents (Elt F) → (⟨S50000x64, .f32⟩ : BufTy).Contents (Elt F)),
    StableHlo.binary main_v57 main_v57 main_v58 (mulf : (⟨S50000x64, .f32⟩ : BufTy).Contents (Elt F) → (⟨S50000x64, .f32⟩ : BufTy).Contents (Elt F) → (⟨S50000x64, .f32⟩ : BufTy).Contents (Elt F)),
    StableHlo.nullary main_cst_6 (constant S_ .f32 0x00000000#32),
    StableHlo.binary main_v58 main_cst_6 main_v59 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_7 (constant S_ .f32 0x47435000#32),
    StableHlo.unary main_cst_7 main_v60 (broadcastInDim S64 ![] bcast_S_S64 : (⟨S_, .f32⟩ : BufTy).Contents (Elt F) → (⟨S64, .f32⟩ : BufTy).Contents (Elt F)),
    StableHlo.binary main_v59 main_v60 main_v61 (Host.divf : (⟨S64, .f32⟩ : BufTy).Contents (Elt F) → (⟨S64, .f32⟩ : BufTy).Contents (Elt F) → (⟨S64, .f32⟩ : BufTy).Contents (Elt F)),
    StableHlo.unary main_v54 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v51 main_v63 main_v64 (subf : (⟨S50000x64, .f32⟩ : BufTy).Contents (Elt F) → (⟨S50000x64, .f32⟩ : BufTy).Contents (Elt F) → (⟨S50000x64, .f32⟩ : BufTy).Contents (Elt F)),
    StableHlo.nullary main_cst_8 (constant S_ .f32 0x3727C5AC#32),
    StableHlo.unary main_cst_8 main_v65 (broadcastInDim S64 ![] bcast_S_S64 : (⟨S_, .f32⟩ : BufTy).Contents (Elt F) → (⟨S64, .f32⟩ : BufTy).Contents (Elt F)),
    StableHlo.binary main_v61 main_v65 main_v66 (addf : (⟨S64, .f32⟩ : BufTy).Contents (Elt F) → (⟨S64, .f32⟩ : BufTy).Contents (Elt F) → (⟨S64, .f32⟩ : BufTy).Contents (Elt F)),
    StableHlo.unary main_v66 main_v67 (Host.rsqrt : (⟨S64, .f32⟩ : BufTy).Contents (Elt F) → (⟨S64, .f32⟩ : BufTy).Contents (Elt F)),
    StableHlo.unary main_v67 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S50000x64 ![0, 1] bcast_S1x64_S50000x64_0_1 : (⟨S1x64, .f32⟩ : BufTy).Contents (Elt F) → (⟨S50000x64, .f32⟩ : BufTy).Contents (Elt F)),
    StableHlo.binary main_v64 main_v69 main_v70 (mulf : (⟨S50000x64, .f32⟩ : BufTy).Contents (Elt F) → (⟨S50000x64, .f32⟩ : BufTy).Contents (Elt F) → (⟨S50000x64, .f32⟩ : BufTy).Contents (Elt F)),
    StableHlo.unary main_arg12 main_v71 ((extractStridedSlice S1x64 ![0, 0] · slices_S3x64_S1x64_0_0) : (⟨S3x64, .f32⟩ : BufTy).Contents (Elt F) → (⟨S1x64, .f32⟩ : BufTy).Contents (Elt F)),
    StableHlo.reshape main_v71 main_v72 rfl shapeCasts_S1x64_S64,
    StableHlo.unary main_v72 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S50000x64 ![0, 1] bcast_S1x64_S50000x64_0_1 : (⟨S1x64, .f32⟩ : BufTy).Contents (Elt F) → (⟨S50000x64, .f32⟩ : BufTy).Contents (Elt F)),
    StableHlo.binary main_v70 main_v74 main_v75 (mulf : (⟨S50000x64, .f32⟩ : BufTy).Contents (Elt F) → (⟨S50000x64, .f32⟩ : BufTy).Contents (Elt F) → (⟨S50000x64, .f32⟩ : BufTy).Contents (Elt F)),
    StableHlo.unary main_arg13 main_v76 ((extractStridedSlice S1x64 ![0, 0] · slices_S3x64_S1x64_0_0) : (⟨S3x64, .f32⟩ : BufTy).Contents (Elt F) → (⟨S1x64, .f32⟩ : BufTy).Contents (Elt F)),
    StableHlo.reshape main_v76 main_v77 rfl shapeCasts_S1x64_S64,
    StableHlo.unary main_v77 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S50000x64 ![0, 1] bcast_S1x64_S50000x64_0_1 : (⟨S1x64, .f32⟩ : BufTy).Contents (Elt F) → (⟨S50000x64, .f32⟩ : BufTy).Contents (Elt F)),
    StableHlo.binary main_v75 main_v79 main_v80 (addf : (⟨S50000x64, .f32⟩ : BufTy).Contents (Elt F) → (⟨S50000x64, .f32⟩ : BufTy).Contents (Elt F) → (⟨S50000x64, .f32⟩ : BufTy).Contents (Elt F)) ]

/-- The references the stretch writes, one per operation. -/
abbrev d_wG0 : List (Ref sig .tc) :=
  [
    main_cst_4, main_v52, main_cst_5, main_v53, main_v54, main_v55, main_v56, main_v57,
    main_v58, main_cst_6, main_v59, main_cst_7, main_v60, main_v61, main_v62, main_v63,
    main_v64, main_cst_8, main_v65, main_v66, main_v67, main_v68, main_v69, main_v70,
    main_v71, main_v72, main_v73, main_v74, main_v75, main_v76, main_v77, main_v78,
    main_v79, main_v80 ]

/-- Each operation writes its own listed reference and nothing else. -/
theorem d_sG0_writes : (sG0 : List (HloOp τ sig (Elt F))).Forall fun op =>
    op.writes ⊆ (d_wG0.map (Proc.devRef (τ := τ) .tc)).toFinset :=
  ⟨
    d_sub main_cst_4 (by decide), d_sub main_v52 (by decide), d_sub main_cst_5 (by decide), d_sub main_v53 (by decide),
    d_sub main_v54 (by decide), d_sub main_v55 (by decide), d_sub main_v56 (by decide), d_sub main_v57 (by decide),
    d_sub main_v58 (by decide), d_sub main_cst_6 (by decide), d_sub main_v59 (by decide), d_sub main_cst_7 (by decide),
    d_sub main_v60 (by decide), d_sub main_v61 (by decide), d_sub main_v62 (by decide), d_sub main_v63 (by decide),
    d_sub main_v64 (by decide), d_sub main_cst_8 (by decide), d_sub main_v65 (by decide), d_sub main_v66 (by decide),
    d_sub main_v67 (by decide), d_sub main_v68 (by decide), d_sub main_v69 (by decide), d_sub main_v70 (by decide),
    d_sub main_v71 (by decide), d_sub main_v72 (by decide), d_sub main_v73 (by decide), d_sub main_v74 (by decide),
    d_sub main_v75 (by decide), d_sub main_v76 (by decide), d_sub main_v77 (by decide), d_sub main_v78 (by decide),
    d_sub main_v79 (by decide), d_sub main_v80 (by decide)⟩

/-- A reference the stretch does not write keeps its contents through it. -/
theorem d_sG0_keep (V : Valuation τ sig (Elt F)) {r : Ref sig .tc} (hr : r ∉ d_wG0) :
    after sG0 V (no_index (Proc.devRef .tc r)) = V (Proc.devRef .tc r) :=
  after_of_writes_sub sG0 V d_sG0_writes hr

set_option maxRecDepth 8192 in
set_option maxHeartbeats 400000 in
/-- What the stretch leaves at `main_v80`: the fold unrolled, each operation's result read at its own buffer and
    passed over at the others, the typed references' transports the identity at these literal references. -/
theorem d_sG0_out (V : Valuation τ sig (Elt F)) :
    after sG0 V (no_index (Proc.devRef .tc main_v80))
      = bnOf_0 (V (Proc.devRef .tc main_v51)) (V (Proc.devRef .tc main_arg12)) (V (Proc.devRef .tc main_arg13)) := by
  unfold sG0
  after_results_simp
  rfl

/-! ### Stretch H0: 15 operations, `main_call1.cst.ref` … `main_call1.call1.v0.ref` -/

/-- The operations of the stretch, in order. -/
def sH0 : List (HloOp τ sig (Elt F)) :=
  [
    StableHlo.TRef.nullary main_call1.cst (constant S_ .f32 0x00000000#32),
    StableHlo.TRef.unary main_call1.cst main_call1.v0 (broadcastInDim S50000x64 ![] bcast_S_S50000x64),
    StableHlo.TRef.binary (.of main_v80) main_call1.v0 main_call1.v1 (cmpf .ogt),
    StableHlo.TRef.nullary main_call1.cst_0 (constant S_ .f32 0x00000000#32),
    StableHlo.TRef.unary main_call1.cst_0 main_call1.v2 (broadcastInDim S50000x64 ![] bcast_S_S50000x64),
    StableHlo.TRef.binary (.of main_v80) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x64 ![] bcast_S_S50000x64),
    StableHlo.TRef.ternary main_call1.v3 main_call1.call0.v1 (.of main_v80) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x64 ![] bcast_S_S50000x64),
    StableHlo.TRef.binary main_call1.v6 main_call1.v5 main_call1.v7 mulf,
    StableHlo.TRef.ternary main_call1.v1 (.of main_v80) main_call1.v7 main_call1.call1.v0 select ]

/-- The references the stretch writes, one per operation. -/
abbrev d_wH0 : List (Ref sig .tc) :=
  [
    main_call1.cst.ref, main_call1.v0.ref, main_call1.v1.ref, main_call1.cst_0.ref, main_call1.v2.ref, main_call1.v3.ref, main_call1.cst_1.ref, main_call1.call0.v0.ref,
    main_call1.call0.v1.ref, main_call1.call0.v2.ref, main_call1.v5.ref, main_call1.cst_2.ref, main_call1.v6.ref, main_call1.v7.ref, main_call1.call1.v0.ref ]

/-- Each operation writes its own listed reference and nothing else. -/
theorem d_sH0_writes : (sH0 : List (HloOp τ sig (Elt F))).Forall fun op =>
    op.writes ⊆ (d_wH0.map (Proc.devRef (τ := τ) .tc)).toFinset :=
  ⟨
    d_sub (main_call1.cst.ref) (by decide), d_sub (main_call1.v0.ref) (by decide), d_sub (main_call1.v1.ref) (by decide), d_sub (main_call1.cst_0.ref) (by decide),
    d_sub (main_call1.v2.ref) (by decide), d_sub (main_call1.v3.ref) (by decide), d_sub (main_call1.cst_1.ref) (by decide), d_sub (main_call1.call0.v0.ref) (by decide),
    d_sub (main_call1.call0.v1.ref) (by decide), d_sub (main_call1.call0.v2.ref) (by decide), d_sub (main_call1.v5.ref) (by decide), d_sub (main_call1.cst_2.ref) (by decide),
    d_sub (main_call1.v6.ref) (by decide), d_sub (main_call1.v7.ref) (by decide), d_sub (main_call1.call1.v0.ref) (by decide)⟩

/-- A reference the stretch does not write keeps its contents through it. -/
theorem d_sH0_keep (V : Valuation τ sig (Elt F)) {r : Ref sig .tc} (hr : r ∉ d_wH0) :
    after sH0 V (no_index (Proc.devRef .tc r)) = V (Proc.devRef .tc r) :=
  after_of_writes_sub sH0 V d_sH0_writes hr

set_option maxRecDepth 8192 in
set_option maxHeartbeats 400000 in
/-- What the stretch leaves at `main_v81`: the fold unrolled, each operation's result read at its own buffer and
    passed over at the others, the typed references' transports the identity at these literal references. -/
theorem d_sH0_out (V : Valuation τ sig (Elt F)) :
    after sH0 V (no_index (Proc.devRef .tc main_v81))
      = eluOf (V (Proc.devRef .tc main_v80)) := by
  unfold sH0
  after_results_simp
  rfl

end Cert.ReferenceIdeal.Hand

end
-- ==== Proof.RefFoldL1.lean ====
import proofs.«172917_j75840532513057_2_alg».proof.Proof.RefFoldDefs
import Idealize.ShloMosaic.Lib.StableHlo.Run

/-! Layer 1 of the reference read back stretch by stretch over a variable valuation: the edge embedding, the
    aggregation, the perceptron (its @relu unfolded), the batch normalisation, the ELU (its @_where and @_where_0 unfolded) —
    each stretch's result buffer at its stage function of the buffers it reads, every other reference unchanged. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The singleton of a listed reference lies among the list's device references. -/
private theorem d_sub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-! ### Stretch C1: 8 operations, `main_v82` … `main_v89` -/

/-- The operations of the stretch, in order. -/
def sC1 : List (HloOp τ sig (Elt F)) :=
  [
    StableHlo.unary main_arg6 main_v82 ((extractStridedSlice S1x5x64 ![1, 0, 0] · slices_S3x5x64_S1x5x64_1_0_0) : (⟨S3x5x64, .f32⟩ : BufTy).Contents (Elt F) → (⟨S1x5x64, .f32⟩ : BufTy).Contents (Elt F)),
    StableHlo.reshape main_v82 main_v83 rfl shapeCasts_S1x5x64_S5x64,
    StableHlo.binary main_v4 main_v83 main_v84 ((fun l r => Host.dotGeneral dot_S1050000x5_S5x64_S1050000x64_1_0_0_1_n_n none l r) : (⟨S1050000x5, .f32⟩ : BufTy).Contents (Elt F) → (⟨S5x64, .f32⟩ : BufTy).Contents (Elt F) → (⟨S1050000x64, .f32⟩ : BufTy).Contents (Elt F)),
    StableHlo.unary main_arg7 main_v85 ((extractStridedSlice S1x64 ![1, 0] · slices_S3x64_S1x64_1_0) : (⟨S3x64, .f32⟩ : BufTy).Contents (Elt F) → (⟨S1x64, .f32⟩ : BufTy).Contents (Elt F)),
    StableHlo.reshape main_v85 main_v86 rfl shapeCasts_S1x64_S64,
    StableHlo.unary main_v86 main_v87 (broadcastInDim S1x64 ![1] bcast_S64_S1x64_1 : (⟨S64, .f32⟩ : BufTy).Contents (Elt F) → (⟨S1x64, .f32⟩ : BufTy).Contents (Elt F)),
    StableHlo.unary main_v87 main_v88 (broadcastInDim S1050000x64 ![0, 1] bcast_S1x64_S1050000x64_0_1 : (⟨S1x64, .f32⟩ : BufTy).Contents (Elt F) → (⟨S1050000x64, .f32⟩ : BufTy).Contents (Elt F)),
    StableHlo.binary main_v84 main_v88 main_v89 (addf : (⟨S1050000x64, .f32⟩ : BufTy).Contents (Elt F) → (⟨S1050000x64, .f32⟩ : BufTy).Contents (Elt F) → (⟨S1050000x64, .f32⟩ : BufTy).Contents (Elt F)) ]

/-- The references the stretch writes, one per operation. -/
abbrev d_wC1 : List (Ref sig .tc) :=
  [
    main_v82, main_v83, main_v84, main_v85, main_v86, main_v87, main_v88, main_v89 ]

/-- Each operation writes its own listed reference and nothing else. -/
theorem d_sC1_writes : (sC1 : List (HloOp τ sig (Elt F))).Forall fun op =>
    op.writes ⊆ (d_wC1.map (Proc.devRef (τ := τ) .tc)).toFinset :=
  ⟨
    d_sub main_v82 (by decide), d_sub main_v83 (by decide), d_sub main_v84 (by decide), d_sub main_v85 (by decide),
    d_sub main_v86 (by decide), d_sub main_v87 (by decide), d_sub main_v88 (by decide), d_sub main_v89 (by decide)⟩

/-- A reference the stretch does not write keeps its contents through it. -/
theorem d_sC1_keep (V : Valuation τ sig (Elt F)) {r : Ref sig .tc} (hr : r ∉ d_wC1) :
    after sC1 V (no_index (Proc.devRef .tc r)) = V (Proc.devRef .tc r) :=
  after_of_writes_sub sC1 V d_sC1_writes hr

set_option maxRecDepth 8192 in
set_option maxHeartbeats 400000 in
/-- What the stretch leaves at `main_v89`: the fold unrolled, each operation's result read at its own buffer and
    passed over at the others, the typed references' transports the identity at these literal references. -/
theorem d_sC1_out (V : Valuation τ sig (Elt F)) :
    after sC1 V (no_index (Proc.devRef .tc main_v89))
      = edgeEmb1 (V (Proc.devRef .tc main_v4)) (V (Proc.devRef .tc main_arg6)) (V (Proc.devRef .tc main_arg7)) := by
  unfold sC1
  after_results_simp
  rfl

/-! ### Stretch D1: 14 operations, `main_c_9` … `main_v100` -/

/-- The operations of the stretch, in order. -/
def sD1 : List (HloOp τ sig (Elt F)) :=
  [
    StableHlo.nullary main_c_9 (constantI S_ 32 0#32),
    StableHlo.unary main_c_9 main_v90 (broadcastInDim S1050000 ![] bcast_S_S1050000 : (⟨S_, .i32⟩ : BufTy).Contents (Elt F) → (⟨S1050000, .i32⟩ : BufTy).Contents (Elt F)),
    StableHlo.binary main_v8 main_v90 main_v91 (cmpi .slt : (⟨S1050000, .i32⟩ : BufTy).Contents (Elt F) → (⟨S1050000, .i32⟩ : BufTy).Contents (Elt F) → (⟨S1050000, .i1⟩ : BufTy).Contents (Elt F)),
    StableHlo.nullary main_c_10 (constantI S_ 32 50000#32),
    StableHlo.unary main_c_10 main_v92 (broadcastInDim S1050000 ![] bcast_S_S1050000 : (⟨S_, .i32⟩ : BufTy).Contents (Elt F) → (⟨S1050000, .i32⟩ : BufTy).Contents (Elt F)),
    StableHlo.binary main_v8 main_v92 main_v93 (addi : (⟨S1050000, .i32⟩ : BufTy).Contents (Elt F) → (⟨S1050000, .i32⟩ : BufTy).Contents (Elt F) → (⟨S1050000, .i32⟩ : BufTy).Contents (Elt F)),
    StableHlo.ternary main_v91 main_v93 main_v8 main_v94 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v94 main_v95 (broadcastInDim S1050000x1 ![0] bcast_S1050000_S1050000x1_0 : (⟨S1050000, .i32⟩ : BufTy).Contents (Elt F) → (⟨S1050000x1, .i32⟩ : BufTy).Contents (Elt F)),
    StableHlo.binary main_v81 main_v95 main_v96 ((fun x i => Host.gather gather_S50000x64_S1050000x1_S1050000x64_1_0_n_n_0_1_164 x i) : (⟨S50000x64, .f32⟩ : BufTy).Contents (Elt F) → (⟨S1050000x1, .i32⟩ : BufTy).Contents (Elt F) → (⟨S1050000x64, .f32⟩ : BufTy).Contents (Elt F)),
    StableHlo.binary main_v96 main_v89 main_v97 (addf : (⟨S1050000x64, .f32⟩ : BufTy).Contents (Elt F) → (⟨S1050000x64, .f32⟩ : BufTy).Contents (Elt F) → (⟨S1050000x64, .f32⟩ : BufTy).Contents (Elt F)),
    StableHlo.nullary main_cst_11 (constant S_ .f32 0x00000000#32),
    StableHlo.unary main_cst_11 main_v98 (broadcastInDim S50000x64 ![] bcast_S_S50000x64 : (⟨S_, .f32⟩ : BufTy).Contents (Elt F) → (⟨S50000x64, .f32⟩ : BufTy).Contents (Elt F)),
    StableHlo.unary main_v11 main_v99 (broadcastInDim S1050000x1 ![0] bcast_S1050000_S1050000x1_0 : (⟨S1050000, .i32⟩ : BufTy).Contents (Elt F) → (⟨S1050000x1, .i32⟩ : BufTy).Contents (Elt F)),
    StableHlo.ternary main_v98 main_v99 main_v97 main_v100 ((fun x i u => Host.scatterAdd scatter_S50000x64_S1050000x1_S1050000x64_1_0_0_1 x i u) : (⟨S50000x64, .f32⟩ : BufTy).Contents (Elt F) → (⟨S1050000x1, .i32⟩ : BufTy).Contents (Elt F) → (⟨S1050000x64, .f32⟩ : BufTy).Contents (Elt F) → (⟨S50000x64, .f32⟩ : BufTy).Contents (Elt F)) ]

/-- The references the stretch writes, one per operation. -/
abbrev d_wD1 : List (Ref sig .tc) :=
  [
    main_c_9, main_v90, main_v91, main_c_10, main_v92, main_v93, main_v94, main_v95,
    main_v96, main_v97, main_cst_11, main_v98, main_v99, main_v100 ]

/-- Each operation writes its own listed reference and nothing else. -/
theorem d_sD1_writes : (sD1 : List (HloOp τ sig (Elt F))).Forall fun op =>
    op.writes ⊆ (d_wD1.map (Proc.devRef (τ := τ) .tc)).toFinset :=
  ⟨
    d_sub main_c_9 (by decide), d_sub main_v90 (by decide), d_sub main_v91 (by decide), d_sub main_c_10 (by decide),
    d_sub main_v92 (by decide), d_sub main_v93 (by decide), d_sub main_v94 (by decide), d_sub main_v95 (by decide),
    d_sub main_v96 (by decide), d_sub main_v97 (by decide), d_sub main_cst_11 (by decide), d_sub main_v98 (by decide),
    d_sub main_v99 (by decide), d_sub main_v100 (by decide)⟩

/-- A reference the stretch does not write keeps its contents through it. -/
theorem d_sD1_keep (V : Valuation τ sig (Elt F)) {r : Ref sig .tc} (hr : r ∉ d_wD1) :
    after sD1 V (no_index (Proc.devRef .tc r)) = V (Proc.devRef .tc r) :=
  after_of_writes_sub sD1 V d_sD1_writes hr

set_option maxRecDepth 8192 in
set_option maxHeartbeats 400000 in
/-- What the stretch leaves at `main_v100`: the fold unrolled, each operation's result read at its own buffer and
    passed over at the others, the typed references' transports the identity at these literal references. -/
theorem d_sD1_out (V : Valuation τ sig (Elt F)) :
    after sD1 V (no_index (Proc.devRef .tc main_v100))
      = Net.agg (V (Proc.devRef .tc main_v81)) (V (Proc.devRef .tc main_v89)) (V (Proc.devRef .tc main_v8)) (V (Proc.devRef .tc main_v11)) := by
  unfold sD1
  after_results_simp
  rfl

/-! ### Stretch E1: 19 operations, `main_v101` … `main_v117` -/

/-- The operations of the stretch, in order. -/
def sE1 : List (HloOp τ sig (Elt F)) :=
  [
    StableHlo.unary main_arg8 main_v101 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v101 main_v102 rfl shapeCasts_S1x64x128_S64x128,
    StableHlo.binary main_v100 main_v102 main_v103 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg9 main_v104 ((extractStridedSlice S1x128 ![1, 0] · slices_S3x128_S1x128_1_0) : (⟨S3x128, .f32⟩ : BufTy).Contents (Elt F) → (⟨S1x128, .f32⟩ : BufTy).Contents (Elt F)),
    StableHlo.reshape main_v104 main_v105 rfl shapeCasts_S1x128_S128,
    StableHlo.unary main_v105 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v103 main_v107 main_v108 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v108) main_call2.v0 main_call2.v1 maximumf,
    StableHlo.unary main_arg10 main_v110 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v110 main_v111 rfl shapeCasts_S1x128x64_S128x64,
    StableHlo.binary main_v109 main_v111 main_v112 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v113 ((extractStridedSlice S1x64 ![1, 0] · slices_S3x64_S1x64_1_0) : (⟨S3x64, .f32⟩ : BufTy).Contents (Elt F) → (⟨S1x64, .f32⟩ : BufTy).Contents (Elt F)),
    StableHlo.reshape main_v113 main_v114 rfl shapeCasts_S1x64_S64,
    StableHlo.unary main_v114 main_v115 (broadcastInDim S1x64 ![1] bcast_S64_S1x64_1 : (⟨S64, .f32⟩ : BufTy).Contents (Elt F) → (⟨S1x64, .f32⟩ : BufTy).Contents (Elt F)),
    StableHlo.unary main_v115 main_v116 (broadcastInDim S50000x64 ![0, 1] bcast_S1x64_S50000x64_0_1 : (⟨S1x64, .f32⟩ : BufTy).Contents (Elt F) → (⟨S50000x64, .f32⟩ : BufTy).Contents (Elt F)),
    StableHlo.binary main_v112 main_v116 main_v117 (addf : (⟨S50000x64, .f32⟩ : BufTy).Contents (Elt F) → (⟨S50000x64, .f32⟩ : BufTy).Contents (Elt F) → (⟨S50000x64, .f32⟩ : BufTy).Contents (Elt F)) ]

/-- The references the stretch writes, one per operation. -/
abbrev d_wE1 : List (Ref sig .tc) :=
  [
    main_v101, main_v102, main_v103, main_v104, main_v105, main_v106, main_v107, main_v108,
    main_call2.cst.ref, main_call2.v0.ref, main_call2.v1.ref, main_v110, main_v111, main_v112, main_v113, main_v114,
    main_v115, main_v116, main_v117 ]

/-- Each operation writes its own listed reference and nothing else. -/
theorem d_sE1_writes : (sE1 : List (HloOp τ sig (Elt F))).Forall fun op =>
    op.writes ⊆ (d_wE1.map (Proc.devRef (τ := τ) .tc)).toFinset :=
  ⟨
    d_sub main_v101 (by decide), d_sub main_v102 (by decide), d_sub main_v103 (by decide), d_sub main_v104 (by decide),
    d_sub main_v105 (by decide), d_sub main_v106 (by decide), d_sub main_v107 (by decide), d_sub main_v108 (by decide),
    d_sub (main_call2.cst.ref) (by decide), d_sub (main_call2.v0.ref) (by decide), d_sub (main_call2.v1.ref) (by decide), d_sub main_v110 (by decide),
    d_sub main_v111 (by decide), d_sub main_v112 (by decide), d_sub main_v113 (by decide), d_sub main_v114 (by decide),
    d_sub main_v115 (by decide), d_sub main_v116 (by decide), d_sub main_v117 (by decide)⟩

/-- A reference the stretch does not write keeps its contents through it. -/
theorem d_sE1_keep (V : Valuation τ sig (Elt F)) {r : Ref sig .tc} (hr : r ∉ d_wE1) :
    after sE1 V (no_index (Proc.devRef .tc r)) = V (Proc.devRef .tc r) :=
  after_of_writes_sub sE1 V d_sE1_writes hr

set_option maxRecDepth 8192 in
set_option maxHeartbeats 400000 in
/-- What the stretch leaves at `main_v117`: the fold unrolled, each operation's result read at its own buffer and
    passed over at the others, the typed references' transports the identity at these literal references. -/
theorem d_sE1_out (V : Valuation τ sig (Elt F)) :
    after sE1 V (no_index (Proc.devRef .tc main_v117))
      = mlpOf_1 (V (Proc.devRef .tc main_v100)) (V (Proc.devRef .tc main_arg8)) (V (Proc.devRef .tc main_arg9)) (V (Proc.devRef .tc main_arg10)) (V (Proc.devRef .tc main_arg11)) := by
  unfold sE1
  after_results_simp
  rfl

/-! ### Stretch G1: 34 operations, `main_cst_12` … `main_v146` -/

/-- The operations of the stretch, in order. -/
def sG1 : List (HloOp τ sig (Elt F)) :=
  [
    StableHlo.nullary main_cst_12 (constant S_ .f32 0x00000000#32),
    StableHlo.binary main_v117 main_cst_12 main_v118 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_13 (constant S_ .f32 0x47435000#32),
    StableHlo.unary main_cst_13 main_v119 (broadcastInDim S64 ![] bcast_S_S64 : (⟨S_, .f32⟩ : BufTy).Contents (Elt F) → (⟨S64, .f32⟩ : BufTy).Contents (Elt F)),
    StableHlo.binary main_v118 main_v119 main_v120 (Host.divf : (⟨S64, .f32⟩ : BufTy).Contents (Elt F) → (⟨S64, .f32⟩ : BufTy).Contents (Elt F) → (⟨S64, .f32⟩ : BufTy).Contents (Elt F)),
    StableHlo.unary main_v120 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S50000x64 ![0, 1] bcast_S1x64_S50000x64_0_1 : (⟨S1x64, .f32⟩ : BufTy).Contents (Elt F) → (⟨S50000x64, .f32⟩ : BufTy).Contents (Elt F)),
    StableHlo.binary main_v117 main_v122 main_v123 (subf : (⟨S50000x64, .f32⟩ : BufTy).Contents (Elt F) → (⟨S50000x64, .f32⟩ : BufTy).Contents (Elt F) → (⟨S50000x64, .f32⟩ : BufTy).Contents (Elt F)),
    StableHlo.binary main_v123 main_v123 main_v124 (mulf : (⟨S50000x64, .f32⟩ : BufTy).Contents (Elt F) → (⟨S50000x64, .f32⟩ : BufTy).Contents (Elt F) → (⟨S50000x64, .f32⟩ : BufTy).Contents (Elt F)),
    StableHlo.nullary main_cst_14 (constant S_ .f32 0x00000000#32),
    StableHlo.binary main_v124 main_cst_14 main_v125 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_15 (constant S_ .f32 0x47435000#32),
    StableHlo.unary main_cst_15 main_v126 (broadcastInDim S64 ![] bcast_S_S64 : (⟨S_, .f32⟩ : BufTy).Contents (Elt F) → (⟨S64, .f32⟩ : BufTy).Contents (Elt F)),
    StableHlo.binary main_v125 main_v126 main_v127 (Host.divf : (⟨S64, .f32⟩ : BufTy).Contents (Elt F) → (⟨S64, .f32⟩ : BufTy).Contents (Elt F) → (⟨S64, .f32⟩ : BufTy).Contents (Elt F)),
    StableHlo.unary main_v120 main_v128 (broadcastInDim S1x64 ![1] bcast_S64_S1x64_1 : (⟨S64, .f32⟩ : BufTy).Contents (Elt F) → (⟨S1x64, .f32⟩ : BufTy).Contents (Elt F)),
    StableHlo.unary main_v128 main_v129 (broadcastInDim S50000x64 ![0, 1] bcast_S1x64_S50000x64_0_1 : (⟨S1x64, .f32⟩ : BufTy).Contents (Elt F) → (⟨S50000x64, .f32⟩ : BufTy).Contents (Elt F)),
    StableHlo.binary main_v117 main_v129 main_v130 (subf : (⟨S50000x64, .f32⟩ : BufTy).Contents (Elt F) → (⟨S50000x64, .f32⟩ : BufTy).Contents (Elt F) → (⟨S50000x64, .f32⟩ : BufTy).Contents (Elt F)),
    StableHlo.nullary main_cst_16 (constant S_ .f32 0x3727C5AC#32),
    StableHlo.unary main_cst_16 main_v131 (broadcastInDim S64 ![] bcast_S_S64 : (⟨S_, .f32⟩ : BufTy).Contents (Elt F) → (⟨S64, .f32⟩ : BufTy).Contents (Elt F)),
    StableHlo.binary main_v127 main_v131 main_v132 (addf : (⟨S64, .f32⟩ : BufTy).Contents (Elt F) → (⟨S64, .f32⟩ : BufTy).Contents (Elt F) → (⟨S64, .f32⟩ : BufTy).Contents (Elt F)),
    StableHlo.unary main_v132 main_v133 (Host.rsqrt : (⟨S64, .f32⟩ : BufTy).Contents (Elt F) → (⟨S64, .f32⟩ : BufTy).Contents (Elt F)),
    StableHlo.unary main_v133 main_v134 (broadcastInDim S1x64 ![1] bcast_S64_S1x64_1 : (⟨S64, .f32⟩ : BufTy).Contents (Elt F) → (⟨S1x64, .f32⟩ : BufTy).Contents (Elt F)),
    StableHlo.unary main_v134 main_v135 (broadcastInDim S50000x64 ![0, 1] bcast_S1x64_S50000x64_0_1 : (⟨S1x64, .f32⟩ : BufTy).Contents (Elt F) → (⟨S50000x64, .f32⟩ : BufTy).Contents (Elt F)),
    StableHlo.binary main_v130 main_v135 main_v136 (mulf : (⟨S50000x64, .f32⟩ : BufTy).Contents (Elt F) → (⟨S50000x64, .f32⟩ : BufTy).Contents (Elt F) → (⟨S50000x64, .f32⟩ : BufTy).Contents (Elt F)),
    StableHlo.unary main_arg12 main_v137 ((extractStridedSlice S1x64 ![1, 0] · slices_S3x64_S1x64_1_0) : (⟨S3x64, .f32⟩ : BufTy).Contents (Elt F) → (⟨S1x64, .f32⟩ : BufTy).Contents (Elt F)),
    StableHlo.reshape main_v137 main_v138 rfl shapeCasts_S1x64_S64,
    StableHlo.unary main_v138 main_v139 (broadcastInDim S1x64 ![1] bcast_S64_S1x64_1 : (⟨S64, .f32⟩ : BufTy).Contents (Elt F) → (⟨S1x64, .f32⟩ : BufTy).Contents (Elt F)),
    StableHlo.unary main_v139 main_v140 (broadcastInDim S50000x64 ![0, 1] bcast_S1x64_S50000x64_0_1 : (⟨S1x64, .f32⟩ : BufTy).Contents (Elt F) → (⟨S50000x64, .f32⟩ : BufTy).Contents (Elt F)),
    StableHlo.binary main_v136 main_v140 main_v141 (mulf : (⟨S50000x64, .f32⟩ : BufTy).Contents (Elt F) → (⟨S50000x64, .f32⟩ : BufTy).Contents (Elt F) → (⟨S50000x64, .f32⟩ : BufTy).Contents (Elt F)),
    StableHlo.unary main_arg13 main_v142 ((extractStridedSlice S1x64 ![1, 0] · slices_S3x64_S1x64_1_0) : (⟨S3x64, .f32⟩ : BufTy).Contents (Elt F) → (⟨S1x64, .f32⟩ : BufTy).Contents (Elt F)),
    StableHlo.reshape main_v142 main_v143 rfl shapeCasts_S1x64_S64,
    StableHlo.unary main_v143 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S50000x64 ![0, 1] bcast_S1x64_S50000x64_0_1 : (⟨S1x64, .f32⟩ : BufTy).Contents (Elt F) → (⟨S50000x64, .f32⟩ : BufTy).Contents (Elt F)),
    StableHlo.binary main_v141 main_v145 main_v146 (addf : (⟨S50000x64, .f32⟩ : BufTy).Contents (Elt F) → (⟨S50000x64, .f32⟩ : BufTy).Contents (Elt F) → (⟨S50000x64, .f32⟩ : BufTy).Contents (Elt F)) ]

/-- The references the stretch writes, one per operation. -/
abbrev d_wG1 : List (Ref sig .tc) :=
  [
    main_cst_12, main_v118, main_cst_13, main_v119, main_v120, main_v121, main_v122, main_v123,
    main_v124, main_cst_14, main_v125, main_cst_15, main_v126, main_v127, main_v128, main_v129,
    main_v130, main_cst_16, main_v131, main_v132, main_v133, main_v134, main_v135, main_v136,
    main_v137, main_v138, main_v139, main_v140, main_v141, main_v142, main_v143, main_v144,
    main_v145, main_v146 ]

/-- Each operation writes its own listed reference and nothing else. -/
theorem d_sG1_writes : (sG1 : List (HloOp τ sig (Elt F))).Forall fun op =>
    op.writes ⊆ (d_wG1.map (Proc.devRef (τ := τ) .tc)).toFinset :=
  ⟨
    d_sub main_cst_12 (by decide), d_sub main_v118 (by decide), d_sub main_cst_13 (by decide), d_sub main_v119 (by decide),
    d_sub main_v120 (by decide), d_sub main_v121 (by decide), d_sub main_v122 (by decide), d_sub main_v123 (by decide),
    d_sub main_v124 (by decide), d_sub main_cst_14 (by decide), d_sub main_v125 (by decide), d_sub main_cst_15 (by decide),
    d_sub main_v126 (by decide), d_sub main_v127 (by decide), d_sub main_v128 (by decide), d_sub main_v129 (by decide),
    d_sub main_v130 (by decide), d_sub main_cst_16 (by decide), d_sub main_v131 (by decide), d_sub main_v132 (by decide),
    d_sub main_v133 (by decide), d_sub main_v134 (by decide), d_sub main_v135 (by decide), d_sub main_v136 (by decide),
    d_sub main_v137 (by decide), d_sub main_v138 (by decide), d_sub main_v139 (by decide), d_sub main_v140 (by decide),
    d_sub main_v141 (by decide), d_sub main_v142 (by decide), d_sub main_v143 (by decide), d_sub main_v144 (by decide),
    d_sub main_v145 (by decide), d_sub main_v146 (by decide)⟩

/-- A reference the stretch does not write keeps its contents through it. -/
theorem d_sG1_keep (V : Valuation τ sig (Elt F)) {r : Ref sig .tc} (hr : r ∉ d_wG1) :
    after sG1 V (no_index (Proc.devRef .tc r)) = V (Proc.devRef .tc r) :=
  after_of_writes_sub sG1 V d_sG1_writes hr

set_option maxRecDepth 8192 in
set_option maxHeartbeats 400000 in
/-- What the stretch leaves at `main_v146`: the fold unrolled, each operation's result read at its own buffer and
    passed over at the others, the typed references' transports the identity at these literal references. -/
theorem d_sG1_out (V : Valuation τ sig (Elt F)) :
    after sG1 V (no_index (Proc.devRef .tc main_v146))
      = bnOf_1 (V (Proc.devRef .tc main_v117)) (V (Proc.devRef .tc main_arg12)) (V (Proc.devRef .tc main_arg13)) := by
  unfold sG1
  after_results_simp
  rfl

/-! ### Stretch H1: 15 operations, `main_call3.cst.ref` … `main_call3.call1.v0.ref` -/

/-- The operations of the stretch, in order. -/
def sH1 : List (HloOp τ sig (Elt F)) :=
  [
    StableHlo.TRef.nullary main_call3.cst (constant S_ .f32 0x00000000#32),
    StableHlo.TRef.unary main_call3.cst main_call3.v0 (broadcastInDim S50000x64 ![] bcast_S_S50000x64),
    StableHlo.TRef.binary (.of main_v146) main_call3.v0 main_call3.v1 (cmpf .ogt),
    StableHlo.TRef.nullary main_call3.cst_0 (constant S_ .f32 0x00000000#32),
    StableHlo.TRef.unary main_call3.cst_0 main_call3.v2 (broadcastInDim S50000x64 ![] bcast_S_S50000x64),
    StableHlo.TRef.binary (.of main_v146) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S50000x64 ![] bcast_S_S50000x64),
    StableHlo.TRef.ternary main_call3.v3 main_call3.call0.v1 (.of main_v146) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S50000x64 ![] bcast_S_S50000x64),
    StableHlo.TRef.binary main_call3.v6 main_call3.v5 main_call3.v7 mulf,
    StableHlo.TRef.ternary main_call3.v1 (.of main_v146) main_call3.v7 main_call3.call1.v0 select ]

/-- The references the stretch writes, one per operation. -/
abbrev d_wH1 : List (Ref sig .tc) :=
  [
    main_call3.cst.ref, main_call3.v0.ref, main_call3.v1.ref, main_call3.cst_0.ref, main_call3.v2.ref, main_call3.v3.ref, main_call3.cst_1.ref, main_call3.call0.v0.ref,
    main_call3.call0.v1.ref, main_call3.call0.v2.ref, main_call3.v5.ref, main_call3.cst_2.ref, main_call3.v6.ref, main_call3.v7.ref, main_call3.call1.v0.ref ]

/-- Each operation writes its own listed reference and nothing else. -/
theorem d_sH1_writes : (sH1 : List (HloOp τ sig (Elt F))).Forall fun op =>
    op.writes ⊆ (d_wH1.map (Proc.devRef (τ := τ) .tc)).toFinset :=
  ⟨
    d_sub (main_call3.cst.ref) (by decide), d_sub (main_call3.v0.ref) (by decide), d_sub (main_call3.v1.ref) (by decide), d_sub (main_call3.cst_0.ref) (by decide),
    d_sub (main_call3.v2.ref) (by decide), d_sub (main_call3.v3.ref) (by decide), d_sub (main_call3.cst_1.ref) (by decide), d_sub (main_call3.call0.v0.ref) (by decide),
    d_sub (main_call3.call0.v1.ref) (by decide), d_sub (main_call3.call0.v2.ref) (by decide), d_sub (main_call3.v5.ref) (by decide), d_sub (main_call3.cst_2.ref) (by decide),
    d_sub (main_call3.v6.ref) (by decide), d_sub (main_call3.v7.ref) (by decide), d_sub (main_call3.call1.v0.ref) (by decide)⟩

/-- A reference the stretch does not write keeps its contents through it. -/
theorem d_sH1_keep (V : Valuation τ sig (Elt F)) {r : Ref sig .tc} (hr : r ∉ d_wH1) :
    after sH1 V (no_index (Proc.devRef .tc r)) = V (Proc.devRef .tc r) :=
  after_of_writes_sub sH1 V d_sH1_writes hr

set_option maxRecDepth 8192 in
set_option maxHeartbeats 400000 in
/-- What the stretch leaves at `main_v147`: the fold unrolled, each operation's result read at its own buffer and
    passed over at the others, the typed references' transports the identity at these literal references. -/
theorem d_sH1_out (V : Valuation τ sig (Elt F)) :
    after sH1 V (no_index (Proc.devRef .tc main_v147))
      = eluOf (V (Proc.devRef .tc main_v146)) := by
  unfold sH1
  after_results_simp
  rfl

end Cert.ReferenceIdeal.Hand

end
-- ==== Proof.RefFoldL2.lean ====
import proofs.«172917_j75840532513057_2_alg».proof.Proof.RefFoldDefs
import Idealize.ShloMosaic.Lib.StableHlo.Run

/-! Layer 2 of the reference read back stretch by stretch over a variable valuation: the edge embedding, the
    aggregation, the perceptron (its @relu unfolded), the batch normalisation —
    each stretch's result buffer at its stage function of the buffers it reads, every other reference unchanged. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The singleton of a listed reference lies among the list's device references. -/
private theorem d_sub {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-! ### Stretch C2: 8 operations, `main_v148` … `main_v155` -/

/-- The operations of the stretch, in order. -/
def sC2 : List (HloOp τ sig (Elt F)) :=
  [
    StableHlo.unary main_arg6 main_v148 ((extractStridedSlice S1x5x64 ![2, 0, 0] · slices_S3x5x64_S1x5x64_2_0_0) : (⟨S3x5x64, .f32⟩ : BufTy).Contents (Elt F) → (⟨S1x5x64, .f32⟩ : BufTy).Contents (Elt F)),
    StableHlo.reshape main_v148 main_v149 rfl shapeCasts_S1x5x64_S5x64,
    StableHlo.binary main_v4 main_v149 main_v150 ((fun l r => Host.dotGeneral dot_S1050000x5_S5x64_S1050000x64_1_0_0_1_n_n none l r) : (⟨S1050000x5, .f32⟩ : BufTy).Contents (Elt F) → (⟨S5x64, .f32⟩ : BufTy).Contents (Elt F) → (⟨S1050000x64, .f32⟩ : BufTy).Contents (Elt F)),
    StableHlo.unary main_arg7 main_v151 ((extractStridedSlice S1x64 ![2, 0] · slices_S3x64_S1x64_2_0) : (⟨S3x64, .f32⟩ : BufTy).Contents (Elt F) → (⟨S1x64, .f32⟩ : BufTy).Contents (Elt F)),
    StableHlo.reshape main_v151 main_v152 rfl shapeCasts_S1x64_S64,
    StableHlo.unary main_v152 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S1050000x64 ![0, 1] bcast_S1x64_S1050000x64_0_1 : (⟨S1x64, .f32⟩ : BufTy).Contents (Elt F) → (⟨S1050000x64, .f32⟩ : BufTy).Contents (Elt F)),
    StableHlo.binary main_v150 main_v154 main_v155 (addf : (⟨S1050000x64, .f32⟩ : BufTy).Contents (Elt F) → (⟨S1050000x64, .f32⟩ : BufTy).Contents (Elt F) → (⟨S1050000x64, .f32⟩ : BufTy).Contents (Elt F)) ]

/-- The references the stretch writes, one per operation. -/
abbrev d_wC2 : List (Ref sig .tc) :=
  [
    main_v148, main_v149, main_v150, main_v151, main_v152, main_v153, main_v154, main_v155 ]

/-- Each operation writes its own listed reference and nothing else. -/
theorem d_sC2_writes : (sC2 : List (HloOp τ sig (Elt F))).Forall fun op =>
    op.writes ⊆ (d_wC2.map (Proc.devRef (τ := τ) .tc)).toFinset :=
  ⟨
    d_sub main_v148 (by decide), d_sub main_v149 (by decide), d_sub main_v150 (by decide), d_sub main_v151 (by decide),
    d_sub main_v152 (by decide), d_sub main_v153 (by decide), d_sub main_v154 (by decide), d_sub main_v155 (by decide)⟩

/-- A reference the stretch does not write keeps its contents through it. -/
theorem d_sC2_keep (V : Valuation τ sig (Elt F)) {r : Ref sig .tc} (hr : r ∉ d_wC2) :
    after sC2 V (no_index (Proc.devRef .tc r)) = V (Proc.devRef .tc r) :=
  after_of_writes_sub sC2 V d_sC2_writes hr

set_option maxRecDepth 8192 in
set_option maxHeartbeats 400000 in
/-- What the stretch leaves at `main_v155`: the fold unrolled, each operation's result read at its own buffer and
    passed over at the others, the typed references' transports the identity at these literal references. -/
theorem d_sC2_out (V : Valuation τ sig (Elt F)) :
    after sC2 V (no_index (Proc.devRef .tc main_v155))
      = edgeEmb2 (V (Proc.devRef .tc main_v4)) (V (Proc.devRef .tc main_arg6)) (V (Proc.devRef .tc main_arg7)) := by
  unfold sC2
  after_results_simp
  rfl

/-! ### Stretch D2: 14 operations, `main_c_17` … `main_v166` -/

/-- The operations of the stretch, in order. -/
def sD2 : List (HloOp τ sig (Elt F)) :=
  [
    StableHlo.nullary main_c_17 (constantI S_ 32 0#32),
    StableHlo.unary main_c_17 main_v156 (broadcastInDim S1050000 ![] bcast_S_S1050000 : (⟨S_, .i32⟩ : BufTy).Contents (Elt F) → (⟨S1050000, .i32⟩ : BufTy).Contents (Elt F)),
    StableHlo.binary main_v8 main_v156 main_v157 (cmpi .slt : (⟨S1050000, .i32⟩ : BufTy).Contents (Elt F) → (⟨S1050000, .i32⟩ : BufTy).Contents (Elt F) → (⟨S1050000, .i1⟩ : BufTy).Contents (Elt F)),
    StableHlo.nullary main_c_18 (constantI S_ 32 50000#32),
    StableHlo.unary main_c_18 main_v158 (broadcastInDim S1050000 ![] bcast_S_S1050000 : (⟨S_, .i32⟩ : BufTy).Contents (Elt F) → (⟨S1050000, .i32⟩ : BufTy).Contents (Elt F)),
    StableHlo.binary main_v8 main_v158 main_v159 (addi : (⟨S1050000, .i32⟩ : BufTy).Contents (Elt F) → (⟨S1050000, .i32⟩ : BufTy).Contents (Elt F) → (⟨S1050000, .i32⟩ : BufTy).Contents (Elt F)),
    StableHlo.ternary main_v157 main_v159 main_v8 main_v160 (select : (⟨S1050000, .i1⟩ : BufTy).Contents (Elt F) → (⟨S1050000, .i32⟩ : BufTy).Contents (Elt F) → (⟨S1050000, .i32⟩ : BufTy).Contents (Elt F) → (⟨S1050000, .i32⟩ : BufTy).Contents (Elt F)),
    StableHlo.unary main_v160 main_v161 (broadcastInDim S1050000x1 ![0] bcast_S1050000_S1050000x1_0 : (⟨S1050000, .i32⟩ : BufTy).Contents (Elt F) → (⟨S1050000x1, .i32⟩ : BufTy).Contents (Elt F)),
    StableHlo.binary main_v147 main_v161 main_v162 ((fun x i => Host.gather gather_S50000x64_S1050000x1_S1050000x64_1_0_n_n_0_1_164 x i) : (⟨S50000x64, .f32⟩ : BufTy).Contents (Elt F) → (⟨S1050000x1, .i32⟩ : BufTy).Contents (Elt F) → (⟨S1050000x64, .f32⟩ : BufTy).Contents (Elt F)),
    StableHlo.binary main_v162 main_v155 main_v163 (addf : (⟨S1050000x64, .f32⟩ : BufTy).Contents (Elt F) → (⟨S1050000x64, .f32⟩ : BufTy).Contents (Elt F) → (⟨S1050000x64, .f32⟩ : BufTy).Contents (Elt F)),
    StableHlo.nullary main_cst_19 (constant S_ .f32 0x00000000#32),
    StableHlo.unary main_cst_19 main_v164 (broadcastInDim S50000x64 ![] bcast_S_S50000x64 : (⟨S_, .f32⟩ : BufTy).Contents (Elt F) → (⟨S50000x64, .f32⟩ : BufTy).Contents (Elt F)),
    StableHlo.unary main_v11 main_v165 (broadcastInDim S1050000x1 ![0] bcast_S1050000_S1050000x1_0 : (⟨S1050000, .i32⟩ : BufTy).Contents (Elt F) → (⟨S1050000x1, .i32⟩ : BufTy).Contents (Elt F)),
    StableHlo.ternary main_v164 main_v165 main_v163 main_v166 ((fun x i u => Host.scatterAdd scatter_S50000x64_S1050000x1_S1050000x64_1_0_0_1 x i u) : (⟨S50000x64, .f32⟩ : BufTy).Contents (Elt F) → (⟨S1050000x1, .i32⟩ : BufTy).Contents (Elt F) → (⟨S1050000x64, .f32⟩ : BufTy).Contents (Elt F) → (⟨S50000x64, .f32⟩ : BufTy).Contents (Elt F)) ]

/-- The references the stretch writes, one per operation. -/
abbrev d_wD2 : List (Ref sig .tc) :=
  [
    main_c_17, main_v156, main_v157, main_c_18, main_v158, main_v159, main_v160, main_v161,
    main_v162, main_v163, main_cst_19, main_v164, main_v165, main_v166 ]

/-- Each operation writes its own listed reference and nothing else. -/
theorem d_sD2_writes : (sD2 : List (HloOp τ sig (Elt F))).Forall fun op =>
    op.writes ⊆ (d_wD2.map (Proc.devRef (τ := τ) .tc)).toFinset :=
  ⟨
    d_sub main_c_17 (by decide), d_sub main_v156 (by decide), d_sub main_v157 (by decide), d_sub main_c_18 (by decide),
    d_sub main_v158 (by decide), d_sub main_v159 (by decide), d_sub main_v160 (by decide), d_sub main_v161 (by decide),
    d_sub main_v162 (by decide), d_sub main_v163 (by decide), d_sub main_cst_19 (by decide), d_sub main_v164 (by decide),
    d_sub main_v165 (by decide), d_sub main_v166 (by decide)⟩

/-- A reference the stretch does not write keeps its contents through it. -/
theorem d_sD2_keep (V : Valuation τ sig (Elt F)) {r : Ref sig .tc} (hr : r ∉ d_wD2) :
    after sD2 V (no_index (Proc.devRef .tc r)) = V (Proc.devRef .tc r) :=
  after_of_writes_sub sD2 V d_sD2_writes hr

set_option maxRecDepth 8192 in
set_option maxHeartbeats 400000 in
/-- What the stretch leaves at `main_v166`: the fold unrolled, each operation's result read at its own buffer and
    passed over at the others, the typed references' transports the identity at these literal references. -/
theorem d_sD2_out (V : Valuation τ sig (Elt F)) :
    after sD2 V (no_index (Proc.devRef .tc main_v166))
      = Net.agg (V (Proc.devRef .tc main_v147)) (V (Proc.devRef .tc main_v155)) (V (Proc.devRef .tc main_v8)) (V (Proc.devRef .tc main_v11)) := by
  unfold sD2
  after_results_simp
  rfl

/-! ### Stretch E2: 19 operations, `main_v167` … `main_v183` -/

/-- The operations of the stretch, in order. -/
def sE2 : List (HloOp τ sig (Elt F)) :=
  [
    StableHlo.unary main_arg8 main_v167 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v167 main_v168 rfl shapeCasts_S1x64x128_S64x128,
    StableHlo.binary main_v166 main_v168 main_v169 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg9 main_v170 ((extractStridedSlice S1x128 ![2, 0] · slices_S3x128_S1x128_2_0) : (⟨S3x128, .f32⟩ : BufTy).Contents (Elt F) → (⟨S1x128, .f32⟩ : BufTy).Contents (Elt F)),
    StableHlo.reshape main_v170 main_v171 rfl shapeCasts_S1x128_S128,
    StableHlo.unary main_v171 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v169 main_v173 main_v174 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v174) main_call4.v0 main_call4.v1 maximumf,
    StableHlo.unary main_arg10 main_v176 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v176 main_v177 rfl shapeCasts_S1x128x64_S128x64,
    StableHlo.binary main_v175 main_v177 main_v178 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v179 ((extractStridedSlice S1x64 ![2, 0] · slices_S3x64_S1x64_2_0) : (⟨S3x64, .f32⟩ : BufTy).Contents (Elt F) → (⟨S1x64, .f32⟩ : BufTy).Contents (Elt F)),
    StableHlo.reshape main_v179 main_v180 rfl shapeCasts_S1x64_S64,
    StableHlo.unary main_v180 main_v181 (broadcastInDim S1x64 ![1] bcast_S64_S1x64_1 : (⟨S64, .f32⟩ : BufTy).Contents (Elt F) → (⟨S1x64, .f32⟩ : BufTy).Contents (Elt F)),
    StableHlo.unary main_v181 main_v182 (broadcastInDim S50000x64 ![0, 1] bcast_S1x64_S50000x64_0_1 : (⟨S1x64, .f32⟩ : BufTy).Contents (Elt F) → (⟨S50000x64, .f32⟩ : BufTy).Contents (Elt F)),
    StableHlo.binary main_v178 main_v182 main_v183 (addf : (⟨S50000x64, .f32⟩ : BufTy).Contents (Elt F) → (⟨S50000x64, .f32⟩ : BufTy).Contents (Elt F) → (⟨S50000x64, .f32⟩ : BufTy).Contents (Elt F)) ]

/-- The references the stretch writes, one per operation. -/
abbrev d_wE2 : List (Ref sig .tc) :=
  [
    main_v167, main_v168, main_v169, main_v170, main_v171, main_v172, main_v173, main_v174,
    main_call4.cst.ref, main_call4.v0.ref, main_call4.v1.ref, main_v176, main_v177, main_v178, main_v179, main_v180,
    main_v181, main_v182, main_v183 ]

/-- Each operation writes its own listed reference and nothing else. -/
theorem d_sE2_writes : (sE2 : List (HloOp τ sig (Elt F))).Forall fun op =>
    op.writes ⊆ (d_wE2.map (Proc.devRef (τ := τ) .tc)).toFinset :=
  ⟨
    d_sub main_v167 (by decide), d_sub main_v168 (by decide), d_sub main_v169 (by decide), d_sub main_v170 (by decide),
    d_sub main_v171 (by decide), d_sub main_v172 (by decide), d_sub main_v173 (by decide), d_sub main_v174 (by decide),
    d_sub (main_call4.cst.ref) (by decide), d_sub (main_call4.v0.ref) (by decide), d_sub (main_call4.v1.ref) (by decide), d_sub main_v176 (by decide),
    d_sub main_v177 (by decide), d_sub main_v178 (by decide), d_sub main_v179 (by decide), d_sub main_v180 (by decide),
    d_sub main_v181 (by decide), d_sub main_v182 (by decide), d_sub main_v183 (by decide)⟩

/-- A reference the stretch does not write keeps its contents through it. -/
theorem d_sE2_keep (V : Valuation τ sig (Elt F)) {r : Ref sig .tc} (hr : r ∉ d_wE2) :
    after sE2 V (no_index (Proc.devRef .tc r)) = V (Proc.devRef .tc r) :=
  after_of_writes_sub sE2 V d_sE2_writes hr

set_option maxRecDepth 8192 in
set_option maxHeartbeats 400000 in
/-- What the stretch leaves at `main_v183`: the fold unrolled, each operation's result read at its own buffer and
    passed over at the others, the typed references' transports the identity at these literal references. -/
theorem d_sE2_out (V : Valuation τ sig (Elt F)) :
    after sE2 V (no_index (Proc.devRef .tc main_v183))
      = mlpOf_2 (V (Proc.devRef .tc main_v166)) (V (Proc.devRef .tc main_arg8)) (V (Proc.devRef .tc main_arg9)) (V (Proc.devRef .tc main_arg10)) (V (Proc.devRef .tc main_arg11)) := by
  unfold sE2
  after_results_simp
  rfl

/-! ### Stretch G2: 34 operations, `main_cst_20` … `main_v212` -/

/-- The operations of the stretch, in order. -/
def sG2 : List (HloOp τ sig (Elt F)) :=
  [
    StableHlo.nullary main_cst_20 (constant S_ .f32 0x00000000#32),
    StableHlo.binary main_v183 main_cst_20 main_v184 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_21 (constant S_ .f32 0x47435000#32),
    StableHlo.unary main_cst_21 main_v185 (broadcastInDim S64 ![] bcast_S_S64 : (⟨S_, .f32⟩ : BufTy).Contents (Elt F) → (⟨S64, .f32⟩ : BufTy).Contents (Elt F)),
    StableHlo.binary main_v184 main_v185 main_v186 (Host.divf : (⟨S64, .f32⟩ : BufTy).Contents (Elt F) → (⟨S64, .f32⟩ : BufTy).Contents (Elt F) → (⟨S64, .f32⟩ : BufTy).Contents (Elt F)),
    StableHlo.unary main_v186 main_v187 (broadcastInDim S1x64 ![1] bcast_S64_S1x64_1 : (⟨S64, .f32⟩ : BufTy).Contents (Elt F) → (⟨S1x64, .f32⟩ : BufTy).Contents (Elt F)),
    StableHlo.unary main_v187 main_v188 (broadcastInDim S50000x64 ![0, 1] bcast_S1x64_S50000x64_0_1 : (⟨S1x64, .f32⟩ : BufTy).Contents (Elt F) → (⟨S50000x64, .f32⟩ : BufTy).Contents (Elt F)),
    StableHlo.binary main_v183 main_v188 main_v189 (subf : (⟨S50000x64, .f32⟩ : BufTy).Contents (Elt F) → (⟨S50000x64, .f32⟩ : BufTy).Contents (Elt F) → (⟨S50000x64, .f32⟩ : BufTy).Contents (Elt F)),
    StableHlo.binary main_v189 main_v189 main_v190 (mulf : (⟨S50000x64, .f32⟩ : BufTy).Contents (Elt F) → (⟨S50000x64, .f32⟩ : BufTy).Contents (Elt F) → (⟨S50000x64, .f32⟩ : BufTy).Contents (Elt F)),
    StableHlo.nullary main_cst_22 (constant S_ .f32 0x00000000#32),
    StableHlo.binary main_v190 main_cst_22 main_v191 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_23 (constant S_ .f32 0x47435000#32),
    StableHlo.unary main_cst_23 main_v192 (broadcastInDim S64 ![] bcast_S_S64 : (⟨S_, .f32⟩ : BufTy).Contents (Elt F) → (⟨S64, .f32⟩ : BufTy).Contents (Elt F)),
    StableHlo.binary main_v191 main_v192 main_v193 (Host.divf : (⟨S64, .f32⟩ : BufTy).Contents (Elt F) → (⟨S64, .f32⟩ : BufTy).Contents (Elt F) → (⟨S64, .f32⟩ : BufTy).Contents (Elt F)),
    StableHlo.unary main_v186 main_v194 (broadcastInDim S1x64 ![1] bcast_S64_S1x64_1 : (⟨S64, .f32⟩ : BufTy).Contents (Elt F) → (⟨S1x64, .f32⟩ : BufTy).Contents (Elt F)),
    StableHlo.unary main_v194 main_v195 (broadcastInDim S50000x64 ![0, 1] bcast_S1x64_S50000x64_0_1 : (⟨S1x64, .f32⟩ : BufTy).Contents (Elt F) → (⟨S50000x64, .f32⟩ : BufTy).Contents (Elt F)),
    StableHlo.binary main_v183 main_v195 main_v196 (subf : (⟨S50000x64, .f32⟩ : BufTy).Contents (Elt F) → (⟨S50000x64, .f32⟩ : BufTy).Contents (Elt F) → (⟨S50000x64, .f32⟩ : BufTy).Contents (Elt F)),
    StableHlo.nullary main_cst_24 (constant S_ .f32 0x3727C5AC#32),
    StableHlo.unary main_cst_24 main_v197 (broadcastInDim S64 ![] bcast_S_S64 : (⟨S_, .f32⟩ : BufTy).Contents (Elt F) → (⟨S64, .f32⟩ : BufTy).Contents (Elt F)),
    StableHlo.binary main_v193 main_v197 main_v198 (addf : (⟨S64, .f32⟩ : BufTy).Contents (Elt F) → (⟨S64, .f32⟩ : BufTy).Contents (Elt F) → (⟨S64, .f32⟩ : BufTy).Contents (Elt F)),
    StableHlo.unary main_v198 main_v199 (Host.rsqrt : (⟨S64, .f32⟩ : BufTy).Contents (Elt F) → (⟨S64, .f32⟩ : BufTy).Contents (Elt F)),
    StableHlo.unary main_v199 main_v200 (broadcastInDim S1x64 ![1] bcast_S64_S1x64_1 : (⟨S64, .f32⟩ : BufTy).Contents (Elt F) → (⟨S1x64, .f32⟩ : BufTy).Contents (Elt F)),
    StableHlo.unary main_v200 main_v201 (broadcastInDim S50000x64 ![0, 1] bcast_S1x64_S50000x64_0_1 : (⟨S1x64, .f32⟩ : BufTy).Contents (Elt F) → (⟨S50000x64, .f32⟩ : BufTy).Contents (Elt F)),
    StableHlo.binary main_v196 main_v201 main_v202 (mulf : (⟨S50000x64, .f32⟩ : BufTy).Contents (Elt F) → (⟨S50000x64, .f32⟩ : BufTy).Contents (Elt F) → (⟨S50000x64, .f32⟩ : BufTy).Contents (Elt F)),
    StableHlo.unary main_arg12 main_v203 ((extractStridedSlice S1x64 ![2, 0] · slices_S3x64_S1x64_2_0) : (⟨S3x64, .f32⟩ : BufTy).Contents (Elt F) → (⟨S1x64, .f32⟩ : BufTy).Contents (Elt F)),
    StableHlo.reshape main_v203 main_v204 rfl shapeCasts_S1x64_S64,
    StableHlo.unary main_v204 main_v205 (broadcastInDim S1x64 ![1] bcast_S64_S1x64_1 : (⟨S64, .f32⟩ : BufTy).Contents (Elt F) → (⟨S1x64, .f32⟩ : BufTy).Contents (Elt F)),
    StableHlo.unary main_v205 main_v206 (broadcastInDim S50000x64 ![0, 1] bcast_S1x64_S50000x64_0_1 : (⟨S1x64, .f32⟩ : BufTy).Contents (Elt F) → (⟨S50000x64, .f32⟩ : BufTy).Contents (Elt F)),
    StableHlo.binary main_v202 main_v206 main_v207 (mulf : (⟨S50000x64, .f32⟩ : BufTy).Contents (Elt F) → (⟨S50000x64, .f32⟩ : BufTy).Contents (Elt F) → (⟨S50000x64, .f32⟩ : BufTy).Contents (Elt F)),
    StableHlo.unary main_arg13 main_v208 ((extractStridedSlice S1x64 ![2, 0] · slices_S3x64_S1x64_2_0) : (⟨S3x64, .f32⟩ : BufTy).Contents (Elt F) → (⟨S1x64, .f32⟩ : BufTy).Contents (Elt F)),
    StableHlo.reshape main_v208 main_v209 rfl shapeCasts_S1x64_S64,
    StableHlo.unary main_v209 main_v210 (broadcastInDim S1x64 ![1] bcast_S64_S1x64_1 : (⟨S64, .f32⟩ : BufTy).Contents (Elt F) → (⟨S1x64, .f32⟩ : BufTy).Contents (Elt F)),
    StableHlo.unary main_v210 main_v211 (broadcastInDim S50000x64 ![0, 1] bcast_S1x64_S50000x64_0_1 : (⟨S1x64, .f32⟩ : BufTy).Contents (Elt F) → (⟨S50000x64, .f32⟩ : BufTy).Contents (Elt F)),
    StableHlo.binary main_v207 main_v211 main_v212 (addf : (⟨S50000x64, .f32⟩ : BufTy).Contents (Elt F) → (⟨S50000x64, .f32⟩ : BufTy).Contents (Elt F) → (⟨S50000x64, .f32⟩ : BufTy).Contents (Elt F)) ]

/-- The references the stretch writes, one per operation. -/
abbrev d_wG2 : List (Ref sig .tc) :=
  [
    main_cst_20, main_v184, main_cst_21, main_v185, main_v186, main_v187, main_v188, main_v189,
    main_v190, main_cst_22, main_v191, main_cst_23, main_v192, main_v193, main_v194, main_v195,
    main_v196, main_cst_24, main_v197, main_v198, main_v199, main_v200, main_v201, main_v202,
    main_v203, main_v204, main_v205, main_v206, main_v207, main_v208, main_v209, main_v210,
    main_v211, main_v212 ]

/-- Each operation writes its own listed reference and nothing else. -/
theorem d_sG2_writes : (sG2 : List (HloOp τ sig (Elt F))).Forall fun op =>
    op.writes ⊆ (d_wG2.map (Proc.devRef (τ := τ) .tc)).toFinset :=
  ⟨
    d_sub main_cst_20 (by decide), d_sub main_v184 (by decide), d_sub main_cst_21 (by decide), d_sub main_v185 (by decide),
    d_sub main_v186 (by decide), d_sub main_v187 (by decide), d_sub main_v188 (by decide), d_sub main_v189 (by decide),
    d_sub main_v190 (by decide), d_sub main_cst_22 (by decide), d_sub main_v191 (by decide), d_sub main_cst_23 (by decide),
    d_sub main_v192 (by decide), d_sub main_v193 (by decide), d_sub main_v194 (by decide), d_sub main_v195 (by decide),
    d_sub main_v196 (by decide), d_sub main_cst_24 (by decide), d_sub main_v197 (by decide), d_sub main_v198 (by decide),
    d_sub main_v199 (by decide), d_sub main_v200 (by decide), d_sub main_v201 (by decide), d_sub main_v202 (by decide),
    d_sub main_v203 (by decide), d_sub main_v204 (by decide), d_sub main_v205 (by decide), d_sub main_v206 (by decide),
    d_sub main_v207 (by decide), d_sub main_v208 (by decide), d_sub main_v209 (by decide), d_sub main_v210 (by decide),
    d_sub main_v211 (by decide), d_sub main_v212 (by decide)⟩

/-- A reference the stretch does not write keeps its contents through it. -/
theorem d_sG2_keep (V : Valuation τ sig (Elt F)) {r : Ref sig .tc} (hr : r ∉ d_wG2) :
    after sG2 V (no_index (Proc.devRef .tc r)) = V (Proc.devRef .tc r) :=
  after_of_writes_sub sG2 V d_sG2_writes hr

set_option maxRecDepth 8192 in
set_option maxHeartbeats 400000 in
/-- What the stretch leaves at `main_v212`: the fold unrolled, each operation's result read at its own buffer and
    passed over at the others, the typed references' transports the identity at these literal references. -/
theorem d_sG2_out (V : Valuation τ sig (Elt F)) :
    after sG2 V (no_index (Proc.devRef .tc main_v212))
      = bnOf_2 (V (Proc.devRef .tc main_v183)) (V (Proc.devRef .tc main_arg12)) (V (Proc.devRef .tc main_arg13)) := by
  unfold sG2
  after_results_simp
  rfl

end Cert.ReferenceIdeal.Hand

end
-- ==== Proof.RefFold.lean ====
import proofs.«172917_j75840532513057_2_alg».proof.Proof.RefRun
import proofs.«172917_j75840532513057_2_alg».proof.Proof.RefFoldA
import proofs.«172917_j75840532513057_2_alg».proof.Proof.RefFoldL0
import proofs.«172917_j75840532513057_2_alg».proof.Proof.RefFoldL1
import proofs.«172917_j75840532513057_2_alg».proof.Proof.RefFoldL2

/-! The reference's fold at its result buffer, read back: @main's operations cut into their seventeen stretches, each
    stretch's result at its stage function of what it reads, every read of an earlier value passed back through the
    stretches that do not write it. The result is one function of the fourteen arguments' contents. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- The five printed parts one after the other are the seventeen stretches one after the other: the same 283 operations. -/
theorem d_ops_cut : (ops : List (HloOp τ sig (Elt F)))
    = sA ++ (sB ++ (sC0 ++ (sD0 ++ (sE0 ++ (sG0 ++ (sH0 ++ (sC1 ++ (sD1 ++ (sE1 ++ (sG1 ++ (sH1 ++ (sC2 ++ (sD2 ++ (sE2 ++ (sG2 ++ (sP)))))))))))))))) := rfl

set_option maxRecDepth 8192 in
set_option maxHeartbeats 1000000 in
/-- The fold of @main's operations at the result buffer, from any contents, is `refOut` of the arguments' contents. -/
theorem d_ref_fold (V : Valuation τ sig (Elt F)) :
    after ops V (Proc.devRef .tc main_v219)
      = refOut (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg9))
          (V (Proc.devRef .tc main_arg10)) (V (Proc.devRef .tc main_arg11)) (V (Proc.devRef .tc main_arg12)) (V (Proc.devRef .tc main_arg13)) := by
  rw [d_ops_cut]
  simp (disch := decide) only [d_after_append, refOut,
    d_sA_out_ea, d_sA_out_src, d_sA_out_dst, d_sB_out, d_sP_out, d_sC0_out,
    d_sD0_out, d_sE0_out, d_sG0_out, d_sH0_out, d_sC1_out, d_sD1_out,
    d_sE1_out, d_sG1_out, d_sH1_out, d_sC2_out, d_sD2_out, d_sE2_out,
    d_sG2_out,
    d_sA_keep, d_sB_keep, d_sC0_keep, d_sD0_keep, d_sE0_keep, d_sG0_keep,
    d_sH0_keep, d_sC1_keep, d_sD1_keep, d_sE1_keep, d_sG1_keep, d_sH1_keep,
    d_sC2_keep, d_sD2_keep, d_sE2_keep, d_sG2_keep, d_sP_keep]

/-- From the launch contents of device `c`: the fold at the result buffer is `refOut` of the launch memory at the
    arguments' locations. -/
theorem ref_fold (m : (ℓ : Loc nD τ sig) → Buf (Elt F) ℓ) (c : Dev nD) :
    after ops (launchContents m c) (Proc.devRef .tc main_v219)
      = refOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) :=
  d_ref_fold (launchContents m c)

/-- The reference's run with its result read back: every weakly fair execution of @main terminates with the result buffer
    at `refOut` of the arguments' launch contents and every argument unchanged. -/
theorem ref_run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v219)
        = refOut (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
            (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (ref_fold m c), (h c).2⟩) (ref_run m ρ)

end Cert.ReferenceIdeal.Hand

end
-- ==== Proof.RefValLib.lean ====
/-
  Host operations of the reference read at an index given by coordinates, at the ideal values: a matrix product as
  the sum over the contracted coordinate; a row repeated down the rows of a matrix; a scalar repeated everywhere;
  the column sums of a matrix; one slice of a stack of matrices or of rows, with its leading unit axis dropped;
  and a select on a strict comparison as the `if` on the order.
-/
import Idealize.ShloMosaic.Lib.StackMember
import Idealize.ShloMosaic.Lib.IdealHost
import Idealize.ShloMosaic.Lib.ValueLayout

noncomputable section

open scoped BigOperators

namespace Cert.ReferenceIdeal.Hand

open Idealize.ShloMosaic Idealize.ShloMosaic.ValueIdx

section Layout
variable {α : Type}

/-- A row laid as a one-row matrix reads, at `(0, t)`, its entry `t`. -/
theorem f_bcast_row1_apply {n : Nat} (h : (⟨1, ![n]⟩ : Shape).BroadcastsInDim ⟨2, ![1, n]⟩ ![1])
    (x : (⟨1, ![n]⟩ : Shape).Idx → α) (r : Fin 1) (t : Fin n) :
    broadcastInDim ⟨2, ![1, n]⟩ ![1] h x (ix2 r t) = x (ix1 t) := by
  refine broadcastInDim_apply ![1] h x (ix2 r t) (ix1 t) ?_
  intro a
  match a with
  | ⟨0, _⟩ =>
    show t.val = if n = 1 then 0 else t.val
    split
    · have := t.isLt; omega
    · rfl

/-- A row repeated down `m` rows reads, at `(i, j)`, the row's entry `j`. -/
theorem f_rows_apply {m n : Nat} (h1 : (⟨1, ![n]⟩ : Shape).BroadcastsInDim ⟨2, ![1, n]⟩ ![1])
    (h2 : (⟨2, ![1, n]⟩ : Shape).BroadcastsInDim ⟨2, ![m, n]⟩ ![0, 1])
    (x : (⟨1, ![n]⟩ : Shape).Idx → α) (i : Fin m) (j : Fin n) :
    broadcastInDim ⟨2, ![m, n]⟩ ![0, 1] h2 (broadcastInDim ⟨2, ![1, n]⟩ ![1] h1 x) (ix2 i j) = x (ix1 j) :=
  (broadcastInDim_oneRow_apply h2 _ i j).trans (f_bcast_row1_apply h1 x 0 j)

/-- Slice `l` of a stack of matrices, its leading unit axis dropped, reads at `(k, j)` the stack at `(l, k, j)`. -/
theorem f_slice3_cast_apply {n0 a b : Nat} (o : Nat) (X : (⟨3, ![n0, a, b]⟩ : Shape).Idx → α)
    (hs : (⟨3, ![n0, a, b]⟩ : Shape).Slices ![o, 0, 0] ⟨3, ![1, a, b]⟩)
    (hc : (⟨3, ![1, a, b]⟩ : Shape).ShapeCasts ⟨2, ![a, b]⟩) (l : Fin n0) (hl : l.val = o) (k : Fin a) (j : Fin b) :
    shapeCast ⟨2, ![a, b]⟩ (extractStridedSlice ⟨3, ![1, a, b]⟩ ![o, 0, 0] X hs) hc (ix2 k j) = X (ix3 l k j) :=
  (shapeCast_1ab_ab_apply _ hc k j).trans
    (extractStridedSlice_apply _ _ _ _ _ (fun ax => by
      match ax with
      | ⟨0, _⟩ => exact hl
      | ⟨1, _⟩ => exact (Nat.zero_add _).symm
      | ⟨2, _⟩ => exact (Nat.zero_add _).symm))

/-- Slice `l` of a stack of rows, its leading unit axis dropped, reads at `j` the stack at `(l, j)`. -/
theorem f_slice2_cast_apply {n0 a : Nat} (o : Nat) (X : (⟨2, ![n0, a]⟩ : Shape).Idx → α)
    (hs : (⟨2, ![n0, a]⟩ : Shape).Slices ![o, 0] ⟨2, ![1, a]⟩)
    (hc : (⟨2, ![1, a]⟩ : Shape).ShapeCasts ⟨1, ![a]⟩) (l : Fin n0) (hl : l.val = o) (j : Fin a) :
    shapeCast ⟨1, ![a]⟩ (extractStridedSlice ⟨2, ![1, a]⟩ ![o, 0] X hs) hc (ix1 j) = X (ix2 l j) :=
  (shapeCast_1a_a_apply _ hc j).trans
    (slice2_axis0_apply o X hs (0 : Fin 1) j l (show l.val = o + 0 from hl))

end Layout

/-- A scalar constant repeated over any shape reads the extended real its word denotes. -/
theorem f_splat_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w :=
  broadcastInDim_scalar_apply h _ j

/-- A matrix product read at `(a, b)`: the sum over the contracted coordinate of the products of the entries. -/
theorem f_dot_apply {m k n : Nat} {φ₁ φ₂ : FTy} (D : DotDims ⟨2, ![m, k]⟩ ⟨2, ![k, n]⟩ ⟨2, ![m, n]⟩)
    (hD : D = DotDims.plain m k n) (prec : Option ContractPrecision)
    (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The column sums of a matrix read at `j`: the initial value plus the sum of column `j`. -/
theorem f_colsum_apply {m n : Nat} {u : Shape} {φ : FTy} (X : FVec Ideal ⟨2, ![m, n]⟩ φ) (init : u.Idx → Ideal φ)
    (h' : (⟨2, ![m, n]⟩ : Shape).ReducesTo [0] ⟨1, ![n]⟩) (hu : 0 < u.numel) (j : Fin n) :
    Host.reduceAdd X init h' hu (ix1 j) = init (Shape.Idx.first hu) + ∑ i : Fin m, X (ix2 i j) := by
  have h : (⟨2, ![m, n]⟩ : Shape).Reduces [0] ⟨1, ![n]⟩ := ⟨h'.1, Nat.one_pos, h'.2⟩
  refine (hostReduceAdd_apply X init h' hu (ix1 j)).trans ?_
  rw [Ideal.hostReduceAdd_single h' h]
  refine congrArg (_ + ·) (Finset.sum_congr rfl fun k _ => congrArg X (funext fun a => Fin.ext ?_))
  match a with
  | ⟨0, _⟩ => rfl
  | ⟨1, _⟩ => rfl

/-- A select on "`x` is greater than `z`" is the `if` on the strict order. -/
theorem f_select_ogt {α : Type} {φ : FTy} (x z : Ideal φ) (a b : α) :
    Scalar.select (FloatOps.cmpf (F := Ideal) .ogt x z) a b = if z < x then a else b := by
  show Scalar.select (Ideal.cmp .ogt x z) a b = _
  unfold Ideal.cmp Scalar.select
  by_cases h : z < x <;> simp [h]

end Cert.ReferenceIdeal.Hand

end
-- ==== Proof.RefValLin.lean ====
/-
  The reference's affine stages at the ideal values, index by index: the node embedding, an edge embedding and a
  perceptron are the specification's `lin` and `mlp` of their arrays read by coordinates (a matrix product is the
  sum over the contracted coordinate; a bias repeated down the rows reads its entry; the zero word is `0`), and a
  layer's instance reads its weights at that layer's slice of the stacked arrays.
-/
import proofs.«172917_j75840532513057_2_alg».proof.Proof.RefFoldDefs
import proofs.«172917_j75840532513057_2_alg».proof.Proof.Spec
import proofs.«172917_j75840532513057_2_alg».proof.Proof.RefValLib

noncomputable section

open scoped BigOperators

namespace Cert.ReferenceIdeal.Hand

open Idealize.ShloMosaic Idealize.ShloMosaic.ValueIdx Cert.ReferenceIdeal Cert.ReferenceIdeal.Facts₀ Cert.ReferenceIdeal.Facts

/-- A row of 64 repeated down the rows reads its entry. -/
theorem f_rows64_apply (b : FVec Ideal S64 .f32) (i : Fin 50000) (j : Fin 64) : rows64 b (ix2 i j) = b (ix1 j) :=
  f_rows_apply bcast_S64_S1x64_1 bcast_S1x64_S50000x64_0_1 b i j

/-- Slice `l` of a stack of matrices as a function of two coordinates. -/
theorem f_sl3 {n0 a b : Nat} (o : Nat) (X : FVec Ideal ⟨3, ![n0, a, b]⟩ .f32)
    (hs : (⟨3, ![n0, a, b]⟩ : Shape).Slices ![o, 0, 0] ⟨3, ![1, a, b]⟩)
    (hc : (⟨3, ![1, a, b]⟩ : Shape).ShapeCasts ⟨2, ![a, b]⟩) (l : Fin n0) (hl : l.val = o) :
    Spec.ofVec2 (shapeCast ⟨2, ![a, b]⟩ (extractStridedSlice ⟨3, ![1, a, b]⟩ ![o, 0, 0] X hs) hc)
      = fun k j => X (ix3 l k j) :=
  funext fun k => funext fun j => f_slice3_cast_apply o X hs hc l hl k j

/-- Slice `l` of a stack of rows as a function of one coordinate. -/
theorem f_sl2 {n0 a : Nat} (o : Nat) (X : FVec Ideal ⟨2, ![n0, a]⟩ .f32)
    (hs : (⟨2, ![n0, a]⟩ : Shape).Slices ![o, 0] ⟨2, ![1, a]⟩)
    (hc : (⟨2, ![1, a]⟩ : Shape).ShapeCasts ⟨1, ![a]⟩) (l : Fin n0) (hl : l.val = o) :
    Spec.ofVec1 (shapeCast ⟨1, ![a]⟩ (extractStridedSlice ⟨2, ![1, a]⟩ ![o, 0] X hs) hc) = fun j => X (ix2 l j) :=
  funext fun j => f_slice2_cast_apply o X hs hc l hl j

/-- The node embedding is `x · xW + xb`. -/
theorem embed_val (x : FVec Ideal S50000x7 .f32) (xW : FVec Ideal S7x64 .f32) (xb : FVec Ideal S64 .f32) :
    embed x xW xb = Spec.toVec2 (Spec.lin (Spec.ofVec2 x) (Spec.ofVec2 xW) (Spec.ofVec1 xb)) := by
  funext y
  obtain ⟨i, j, rfl⟩ : ∃ (i : Fin 50000) (j : Fin 64), y = ix2 i j := ⟨y 0, y 1, eq_ix2 y⟩
  show Host.dotGeneral dot_S50000x7_S7x64_S50000x64_1_0_0_1_n_n none x xW (ix2 i j) + rows64 xb (ix2 i j)
    = (∑ k : Fin 7, x (ix2 i k) * xW (ix2 k j)) + xb (ix1 j)
  rw [f_dot_apply dot_S50000x7_S7x64_S50000x64_1_0_0_1_n_n rfl none x xW i j, f_rows64_apply]

/-- An edge embedding is `ea · w + b`. -/
theorem edgeEmbOf_val (ea : FVec Ideal S1050000x5 .f32) (w : FVec Ideal S5x64 .f32) (b : FVec Ideal S64 .f32) :
    edgeEmbOf ea w b = Spec.toVec2 (Spec.lin (Spec.ofVec2 ea) (Spec.ofVec2 w) (Spec.ofVec1 b)) := by
  funext y
  obtain ⟨i, j, rfl⟩ : ∃ (i : Fin 1050000) (j : Fin 64), y = ix2 i j := ⟨y 0, y 1, eq_ix2 y⟩
  show Host.dotGeneral dot_S1050000x5_S5x64_S1050000x64_1_0_0_1_n_n none ea w (ix2 i j)
      + broadcastInDim S1050000x64 ![0, 1] bcast_S1x64_S1050000x64_0_1 (broadcastInDim S1x64 ![1] bcast_S64_S1x64_1 b) (ix2 i j)
    = (∑ k : Fin 5, ea (ix2 i k) * w (ix2 k j)) + b (ix1 j)
  rw [f_dot_apply dot_S1050000x5_S5x64_S1050000x64_1_0_0_1_n_n rfl none ea w i j,
    f_rows_apply bcast_S64_S1x64_1 bcast_S1x64_S1050000x64_0_1 b i j]

/-- A perceptron is `max(a · w1 + b1, 0) · w2 + b2`. -/
theorem mlpOf_val (a : FVec Ideal S50000x64 .f32) (w1 : FVec Ideal S64x128 .f32) (b1 : FVec Ideal S128 .f32)
    (w2 : FVec Ideal S128x64 .f32) (b2 : FVec Ideal S64 .f32) :
    mlpOf a w1 b1 w2 b2
      = Spec.toVec2 (Spec.mlp (Spec.ofVec2 a) (Spec.ofVec2 w1) (Spec.ofVec1 b1) (Spec.ofVec2 w2) (Spec.ofVec1 b2)) := by
  funext y
  obtain ⟨i, j, rfl⟩ : ∃ (i : Fin 50000) (j : Fin 64), y = ix2 i j := ⟨y 0, y 1, eq_ix2 y⟩
  show Host.dotGeneral dot_S50000x128_S128x64_S50000x64_1_0_0_1_n_n none
        (maximumf
          (addf (Host.dotGeneral dot_S50000x64_S64x128_S50000x128_1_0_0_1_n_n none a w1)
            (broadcastInDim S50000x128 ![0, 1] bcast_S1x128_S50000x128_0_1 (broadcastInDim S1x128 ![1] bcast_S128_S1x128_1 b1)))
          (broadcastInDim S50000x128 ![] bcast_S_S50000x128 (constant S_ .f32 0x00000000#32)))
        w2 (ix2 i j)
      + rows64 b2 (ix2 i j)
    = (∑ k : Fin 128, max ((∑ k' : Fin 64, a (ix2 i k') * w1 (ix2 k' k)) + b1 (ix1 k)) 0 * w2 (ix2 k j)) + b2 (ix1 j)
  rw [f_dot_apply dot_S50000x128_S128x64_S50000x64_1_0_0_1_n_n rfl none _ w2 i j, f_rows64_apply]
  refine congrArg (· + _) (Finset.sum_congr rfl fun k _ => congrArg (· * _) ?_)
  show max (Host.dotGeneral dot_S50000x64_S64x128_S50000x128_1_0_0_1_n_n none a w1 (ix2 i k)
        + broadcastInDim S50000x128 ![0, 1] bcast_S1x128_S50000x128_0_1 (broadcastInDim S1x128 ![1] bcast_S128_S1x128_1 b1) (ix2 i k))
      (broadcastInDim S50000x128 ![] bcast_S_S50000x128 (constant S_ .f32 0x00000000#32) (ix2 i k))
    = max ((∑ k' : Fin 64, a (ix2 i k') * w1 (ix2 k' k)) + b1 (ix1 k)) 0
  rw [f_dot_apply dot_S50000x64_S64x128_S50000x128_1_0_0_1_n_n rfl none a w1 i k,
    f_rows_apply bcast_S128_S1x128_1 bcast_S1x128_S50000x128_0_1 b1 i k,
    f_splat_apply bcast_S_S50000x128 0x00000000#32 (ix2 i k), Ideal.ofBits_zero_f32]

/-! ## The three layers' instances: the weights at that layer's slice -/

theorem edgeEmb0_val (ea : FVec Ideal S1050000x5 .f32) (eW : FVec Ideal S3x5x64 .f32) (eb : FVec Ideal S3x64 .f32) :
    edgeEmb0 ea eW eb
      = Spec.toVec2 (Spec.lin (Spec.ofVec2 ea) (fun k j => eW (ix3 (0 : Fin 3) k j)) (fun j => eb (ix2 (0 : Fin 3) j))) := by
  unfold edgeEmb0
  rw [edgeEmbOf_val, f_sl3 0 eW _ _ (0 : Fin 3) rfl, f_sl2 0 eb _ _ (0 : Fin 3) rfl]

theorem edgeEmb1_val (ea : FVec Ideal S1050000x5 .f32) (eW : FVec Ideal S3x5x64 .f32) (eb : FVec Ideal S3x64 .f32) :
    edgeEmb1 ea eW eb
      = Spec.toVec2 (Spec.lin (Spec.ofVec2 ea) (fun k j => eW (ix3 (1 : Fin 3) k j)) (fun j => eb (ix2 (1 : Fin 3) j))) := by
  unfold edgeEmb1
  rw [edgeEmbOf_val, f_sl3 1 eW _ _ (1 : Fin 3) rfl, f_sl2 1 eb _ _ (1 : Fin 3) rfl]

theorem edgeEmb2_val (ea : FVec Ideal S1050000x5 .f32) (eW : FVec Ideal S3x5x64 .f32) (eb : FVec Ideal S3x64 .f32) :
    edgeEmb2 ea eW eb
      = Spec.toVec2 (Spec.lin (Spec.ofVec2 ea) (fun k j => eW (ix3 (2 : Fin 3) k j)) (fun j => eb (ix2 (2 : Fin 3) j))) := by
  unfold edgeEmb2
  rw [edgeEmbOf_val, f_sl3 2 eW _ _ (2 : Fin 3) rfl, f_sl2 2 eb _ _ (2 : Fin 3) rfl]

theorem mlpOf_0_val (a : FVec Ideal S50000x64 .f32) (W1 : FVec Ideal S3x64x128 .f32) (b1 : FVec Ideal S3x128 .f32)
    (W2 : FVec Ideal S3x128x64 .f32) (b2 : FVec Ideal S3x64 .f32) :
    mlpOf_0 a W1 b1 W2 b2
      = Spec.toVec2 (Spec.mlp (Spec.ofVec2 a) (fun k j => W1 (ix3 (0 : Fin 3) k j)) (fun j => b1 (ix2 (0 : Fin 3) j))
          (fun k j => W2 (ix3 (0 : Fin 3) k j)) (fun j => b2 (ix2 (0 : Fin 3) j))) := by
  unfold mlpOf_0
  rw [mlpOf_val, f_sl3 0 W1 _ _ (0 : Fin 3) rfl, f_sl2 0 b1 _ _ (0 : Fin 3) rfl, f_sl3 0 W2 _ _ (0 : Fin 3) rfl,
    f_sl2 0 b2 _ _ (0 : Fin 3) rfl]

theorem mlpOf_1_val (a : FVec Ideal S50000x64 .f32) (W1 : FVec Ideal S3x64x128 .f32) (b1 : FVec Ideal S3x128 .f32)
    (W2 : FVec Ideal S3x128x64 .f32) (b2 : FVec Ideal S3x64 .f32) :
    mlpOf_1 a W1 b1 W2 b2
      = Spec.toVec2 (Spec.mlp (Spec.ofVec2 a) (fun k j => W1 (ix3 (1 : Fin 3) k j)) (fun j => b1 (ix2 (1 : Fin 3) j))
          (fun k j => W2 (ix3 (1 : Fin 3) k j)) (fun j => b2 (ix2 (1 : Fin 3) j))) := by
  unfold mlpOf_1
  rw [mlpOf_val, f_sl3 1 W1 _ _ (1 : Fin 3) rfl, f_sl2 1 b1 _ _ (1 : Fin 3) rfl, f_sl3 1 W2 _ _ (1 : Fin 3) rfl,
    f_sl2 1 b2 _ _ (1 : Fin 3) rfl]

theorem mlpOf_2_val (a : FVec Ideal S50000x64 .f32) (W1 : FVec Ideal S3x64x128 .f32) (b1 : FVec Ideal S3x128 .f32)
    (W2 : FVec Ideal S3x128x64 .f32) (b2 : FVec Ideal S3x64 .f32) :
    mlpOf_2 a W1 b1 W2 b2
      = Spec.toVec2 (Spec.mlp (Spec.ofVec2 a) (fun k j => W1 (ix3 (2 : Fin 3) k j)) (fun j => b1 (ix2 (2 : Fin 3) j))
          (fun k j => W2 (ix3 (2 : Fin 3) k j)) (fun j => b2 (ix2 (2 : Fin 3) j))) := by
  unfold mlpOf_2
  rw [mlpOf_val, f_sl3 2 W1 _ _ (2 : Fin 3) rfl, f_sl2 2 b1 _ _ (2 : Fin 3) rfl, f_sl3 2 W2 _ _ (2 : Fin 3) rfl,
    f_sl2 2 b2 _ _ (2 : Fin 3) rfl]

end Cert.ReferenceIdeal.Hand

end
-- ==== Proof.RefValBn.lean ====
/-
  The reference's batch normalisation at the ideal values, index by index: the column means are the column sums
  over the row count (the host sum over the rows starts from the zero word, which is `0`), the variance is the mean of
  the squared deviations from them, and every entry is `(h − mean) · rsqrt(var + ε) · γ + β` with each row of
  statistics repeated down the rows: the specification's `bnOfDev`.
-/
import proofs.«172917_j75840532513057_2_alg».proof.Proof.RefFoldDefs
import proofs.«172917_j75840532513057_2_alg».proof.Proof.Spec
import proofs.«172917_j75840532513057_2_alg».proof.Proof.RefValLib

noncomputable section

open scoped BigOperators

namespace Cert.ReferenceIdeal.Hand

open Idealize.ShloMosaic Idealize.ShloMosaic.ValueIdx Cert.ReferenceIdeal Cert.ReferenceIdeal.Facts₀ Cert.ReferenceIdeal.Facts

/-- A row of 64 repeated down the rows reads its entry. -/
theorem f_rows64_apply' (b : FVec Ideal S64 .f32) (i : Fin 50000) (j : Fin 64) : rows64 b (ix2 i j) = b (ix1 j) :=
  f_rows_apply bcast_S64_S1x64_1 bcast_S1x64_S50000x64_0_1 b i j

/-- Slice `l` of a stack of rows as a function of one coordinate. -/
theorem f_sl2' {n0 a : Nat} (o : Nat) (X : FVec Ideal ⟨2, ![n0, a]⟩ .f32)
    (hs : (⟨2, ![n0, a]⟩ : Shape).Slices ![o, 0] ⟨2, ![1, a]⟩)
    (hc : (⟨2, ![1, a]⟩ : Shape).ShapeCasts ⟨1, ![a]⟩) (l : Fin n0) (hl : l.val = o) :
    Spec.ofVec1 (shapeCast ⟨1, ![a]⟩ (extractStridedSlice ⟨2, ![1, a]⟩ ![o, 0] X hs) hc) = fun j => X (ix2 l j) :=
  funext fun j => f_slice2_cast_apply o X hs hc l hl j

/-- A column mean: the column's sum over the row count. -/
theorem f_colMean_apply (h : FVec Ideal S50000x64 .f32) (j : Fin 64) :
    colMean h (ix1 j) = Ideal.div (∑ i : Fin 50000, h (ix2 i j)) (Ideal.ofBits .f32 0x47435000#32) := by
  show Ideal.div (Host.reduceAdd h (constant (F := Ideal) S_ .f32 0x00000000#32) reducesTo_S50000x64_S64_d0 h_S_ (ix1 j))
      (broadcastInDim S64 ![] bcast_S_S64 (constant (F := Ideal) S_ .f32 0x47435000#32) (ix1 j)) = _
  rw [f_colsum_apply h _ reducesTo_S50000x64_S64_d0 h_S_ j, f_splat_apply bcast_S_S64 0x47435000#32 (ix1 j)]
  show Ideal.div (Ideal.ofBits .f32 0x00000000#32 + _) _ = _
  rw [Ideal.ofBits_zero_f32, zero_add]

/-- The column means are the specification's. -/
theorem f_mean_apply (h : FVec Ideal S50000x64 .f32) (j : Fin 64) :
    colMean h (ix1 j) = Cert.Spec.over (Ideal.ofBits .f32 0x47435000#32) (Spec.colsum (Spec.ofVec2 h)) j :=
  f_colMean_apply h j

/-- The column means of the squared deviations are the specification's variance. -/
theorem f_var_apply (h : FVec Ideal S50000x64 .f32) (j : Fin 64) :
    colMean (mulf (subf h (rows64 (colMean h))) (subf h (rows64 (colMean h)))) (ix1 j)
      = Spec.varOfDev (Ideal.ofBits .f32 0x47435000#32) (Spec.ofVec2 h) j := by
  have hd : ∀ i : Fin 50000, mulf (subf h (rows64 (colMean h))) (subf h (rows64 (colMean h))) (ix2 i j)
      = (Spec.ofVec2 h i j - Cert.Spec.over (Ideal.ofBits .f32 0x47435000#32) (Spec.colsum (Spec.ofVec2 h)) j)
        * (Spec.ofVec2 h i j - Cert.Spec.over (Ideal.ofBits .f32 0x47435000#32) (Spec.colsum (Spec.ofVec2 h)) j) := fun i => by
    show (h (ix2 i j) - rows64 (colMean h) (ix2 i j)) * (h (ix2 i j) - rows64 (colMean h) (ix2 i j)) = _
    rw [f_rows64_apply', f_mean_apply]
    rfl
  rw [f_colMean_apply, Finset.sum_congr rfl fun i _ => hd i]
  rfl

/-- A batch normalisation is the specification's, with the variance as the mean squared deviation. -/
theorem bnOf_val (h : FVec Ideal S50000x64 .f32) (gamma beta : FVec Ideal S64 .f32) :
    bnOf h gamma beta
      = Spec.toVec2 (Spec.bnOfDev (Ideal.ofBits .f32 0x47435000#32) (Ideal.ofBits .f32 0x3727C5AC#32)
          (Spec.ofVec2 h) (Spec.ofVec1 gamma) (Spec.ofVec1 beta)) := by
  funext y
  obtain ⟨i, j, rfl⟩ : ∃ (i : Fin 50000) (j : Fin 64), y = ix2 i j := ⟨y 0, y 1, eq_ix2 y⟩
  show (h (ix2 i j) - rows64 (colMean h) (ix2 i j))
        * rows64 (Host.rsqrt (addf (colMean (mulf (subf h (rows64 (colMean h))) (subf h (rows64 (colMean h)))))
            (broadcastInDim S64 ![] bcast_S_S64 (constant (F := Ideal) S_ .f32 0x3727C5AC#32)))) (ix2 i j)
        * rows64 gamma (ix2 i j) + rows64 beta (ix2 i j)
    = (h (ix2 i j) - Cert.Spec.over (Ideal.ofBits .f32 0x47435000#32) (Spec.colsum (Spec.ofVec2 h)) j)
        * Ideal.rsqrt (Spec.varOfDev (Ideal.ofBits .f32 0x47435000#32) (Spec.ofVec2 h) j + Ideal.ofBits .f32 0x3727C5AC#32)
        * gamma (ix1 j) + beta (ix1 j)
  rw [f_rows64_apply' (colMean h), f_rows64_apply' gamma, f_rows64_apply' beta, f_rows64_apply' (Host.rsqrt _),
    f_mean_apply h j]
  show _ * Ideal.rsqrt (colMean (mulf (subf h (rows64 (colMean h))) (subf h (rows64 (colMean h)))) (ix1 j)
      + broadcastInDim S64 ![] bcast_S_S64 (constant (F := Ideal) S_ .f32 0x3727C5AC#32) (ix1 j)) * _ + _ = _
  rw [f_var_apply h j, f_splat_apply bcast_S_S64 0x3727C5AC#32 (ix1 j)]

/-! ## The three layers' instances: the scale and shift at that layer's slice -/

theorem bnOf_0_val (h : FVec Ideal S50000x64 .f32) (gamma beta : FVec Ideal S3x64 .f32) :
    bnOf_0 h gamma beta
      = Spec.toVec2 (Spec.bnOfDev (Ideal.ofBits .f32 0x47435000#32) (Ideal.ofBits .f32 0x3727C5AC#32)
          (Spec.ofVec2 h) (fun j => gamma (ix2 (0 : Fin 3) j)) (fun j => beta (ix2 (0 : Fin 3) j))) := by
  unfold bnOf_0
  rw [bnOf_val, f_sl2' 0 gamma _ _ (0 : Fin 3) rfl, f_sl2' 0 beta _ _ (0 : Fin 3) rfl]

theorem bnOf_1_val (h : FVec Ideal S50000x64 .f32) (gamma beta : FVec Ideal S3x64 .f32) :
    bnOf_1 h gamma beta
      = Spec.toVec2 (Spec.bnOfDev (Ideal.ofBits .f32 0x47435000#32) (Ideal.ofBits .f32 0x3727C5AC#32)
          (Spec.ofVec2 h) (fun j => gamma (ix2 (1 : Fin 3) j)) (fun j => beta (ix2 (1 : Fin 3) j))) := by
  unfold bnOf_1
  rw [bnOf_val, f_sl2' 1 gamma _ _ (1 : Fin 3) rfl, f_sl2' 1 beta _ _ (1 : Fin 3) rfl]

theorem bnOf_2_val (h : FVec Ideal S50000x64 .f32) (gamma beta : FVec Ideal S3x64 .f32) :
    bnOf_2 h gamma beta
      = Spec.toVec2 (Spec.bnOfDev (Ideal.ofBits .f32 0x47435000#32) (Ideal.ofBits .f32 0x3727C5AC#32)
          (Spec.ofVec2 h) (fun j => gamma (ix2 (2 : Fin 3) j)) (fun j => beta (ix2 (2 : Fin 3) j))) := by
  unfold bnOf_2
  rw [bnOf_val, f_sl2' 2 gamma _ _ (2 : Fin 3) rfl, f_sl2' 2 beta _ _ (2 : Fin 3) rfl]

end Cert.ReferenceIdeal.Hand

end
-- ==== Proof.RefValElu.lean ====
/-
  The reference's ELU at the ideal values, index by index: where `x > 0` it is `x`; elsewhere it is
  `1 · (exp(x') − 1)` with `x'` chosen as `0` where `x > 0` and `x` elsewhere: the specification's `eluSel`
  (the comparison against the zero word is the strict order against `0`; the word of `1.0` is `1`).
-/
import proofs.«172917_j75840532513057_2_alg».proof.Proof.RefFoldDefs
import proofs.«172917_j75840532513057_2_alg».proof.Proof.Spec
import proofs.«172917_j75840532513057_2_alg».proof.Proof.RefValLib

noncomputable section

open scoped BigOperators

namespace Cert.ReferenceIdeal.Hand

open Idealize.ShloMosaic Idealize.ShloMosaic.ValueIdx Cert.ReferenceIdeal Cert.ReferenceIdeal.Facts₀ Cert.ReferenceIdeal.Facts

/-- The ELU of one extended real, as the reference's operations spell it. -/
theorem f_elu_scalar (X : EReal) :
    Scalar.select (FloatOps.cmpf (F := Ideal) (φ := .f32) .ogt X 0) X
        (1 * (Ideal.exp (Scalar.select (FloatOps.cmpf (F := Ideal) (φ := .f32) .ogt X 0) (0 : EReal) X) - 1))
      = Spec.eluSel X := by
  rw [f_select_ogt (φ := .f32) X 0 X _, f_select_ogt (φ := .f32) X 0 (0 : EReal) X, one_mul]
  rfl

/-- The ELU is the specification's, entry by entry. -/
theorem eluOf_val (x : FVec Ideal S50000x64 .f32) :
    eluOf x = Spec.toVec2 (fun i j => Spec.eluSel (Spec.ofVec2 x i j)) := by
  funext y
  obtain ⟨i, j, rfl⟩ : ∃ (i : Fin 50000) (j : Fin 64), y = ix2 i j := ⟨y 0, y 1, eq_ix2 y⟩
  show Scalar.select (FloatOps.cmpf (F := Ideal) (φ := .f32) .ogt (x (ix2 i j))
          (broadcastInDim S50000x64 ![] bcast_S_S50000x64 (constant (F := Ideal) S_ .f32 0x00000000#32) (ix2 i j)))
        (x (ix2 i j))
        (broadcastInDim S50000x64 ![] bcast_S_S50000x64 (constant (F := Ideal) S_ .f32 0x3F800000#32) (ix2 i j)
          * (Ideal.exp (Scalar.select (FloatOps.cmpf (F := Ideal) (φ := .f32) .ogt (x (ix2 i j))
                (broadcastInDim S50000x64 ![] bcast_S_S50000x64 (constant (F := Ideal) S_ .f32 0x00000000#32) (ix2 i j)))
              (broadcastInDim S50000x64 ![] bcast_S_S50000x64 (constant (F := Ideal) S_ .f32 0x00000000#32) (ix2 i j))
              (x (ix2 i j))) - 1))
      = Spec.eluSel (x (ix2 i j))
  rw [f_splat_apply bcast_S_S50000x64 0x00000000#32 (ix2 i j), f_splat_apply bcast_S_S50000x64 0x3F800000#32 (ix2 i j),
    Ideal.ofBits_zero_f32, Ideal.ofBits_one_f32]
  exact f_elu_scalar (x (ix2 i j))

end Cert.ReferenceIdeal.Hand

end
-- ==== Proof.RefVal.lean ====
/-
  The reference's result at the ideal values is the network of NetSpec in the reference's spelling: the node
  embedding is an affine map; each layer aggregates the neighbours' features with the layer's edge embedding (the
  shared host computation, carried whole and never opened), applies the perceptron and the batch normalisation with
  the variance as the mean squared deviation, and — on the first two layers — the ELU; each stage is the
  specification's function of that layer's slice of the stacked weights.
-/
import proofs.«172917_j75840532513057_2_alg».proof.Proof.RefFoldDefs
import proofs.«172917_j75840532513057_2_alg».proof.Proof.NetSpec
import proofs.«172917_j75840532513057_2_alg».proof.Proof.RefValLin
import proofs.«172917_j75840532513057_2_alg».proof.Proof.RefValBn
import proofs.«172917_j75840532513057_2_alg».proof.Proof.RefValElu

noncomputable section

open scoped BigOperators

namespace Cert.ReferenceIdeal.Hand

open Idealize.ShloMosaic Idealize.ShloMosaic.ValueIdx Cert.ReferenceIdeal Cert.ReferenceIdeal.Facts₀ Cert.ReferenceIdeal.Facts

section
variable (ea : FVec Ideal S1050000x5 .f32) (src dst : IVec S1050000 32)
  (a6 : FVec Ideal S3x5x64 .f32) (a7 : FVec Ideal S3x64 .f32) (a8 : FVec Ideal S3x64x128 .f32) (a9 : FVec Ideal S3x128 .f32)
  (a10 : FVec Ideal S3x128x64 .f32) (a11 a12 a13 : FVec Ideal S3x64 .f32) (H : FVec Ideal S50000x64 .f32)

/-- Layer 0 of the reference, from the features going in, is the specification's layer with the ELU. -/
theorem f_layer0 :
    eluOf (bnOf_0 (mlpOf_0 (Net.agg H (edgeEmb0 ea a6 a7) src dst) a8 a9 a10 a11) a12 a13)
      = NetSpec.layerR ea src dst Spec.eluSel (NetSpec.layerW 0 a6 a7 a8 a9 a10 a11 a12 a13) H := by
  have hE : edgeEmb0 ea a6 a7 = NetSpec.emb ea (NetSpec.layerW 0 a6 a7 a8 a9 a10 a11 a12 a13) :=
    (edgeEmb0_val ea a6 a7).trans rfl
  unfold NetSpec.layerR NetSpec.pre
  rw [hE]
  generalize Net.agg H (NetSpec.emb ea (NetSpec.layerW 0 a6 a7 a8 a9 a10 a11 a12 a13)) src dst = A
  rw [mlpOf_0_val, bnOf_0_val, eluOf_val, Spec.ofVec2_toVec2, Spec.ofVec2_toVec2]
  rfl

/-- Layer 1 likewise. -/
theorem f_layer1 :
    eluOf (bnOf_1 (mlpOf_1 (Net.agg H (edgeEmb1 ea a6 a7) src dst) a8 a9 a10 a11) a12 a13)
      = NetSpec.layerR ea src dst Spec.eluSel (NetSpec.layerW 1 a6 a7 a8 a9 a10 a11 a12 a13) H := by
  have hE : edgeEmb1 ea a6 a7 = NetSpec.emb ea (NetSpec.layerW 1 a6 a7 a8 a9 a10 a11 a12 a13) :=
    (edgeEmb1_val ea a6 a7).trans rfl
  unfold NetSpec.layerR NetSpec.pre
  rw [hE]
  generalize Net.agg H (NetSpec.emb ea (NetSpec.layerW 1 a6 a7 a8 a9 a10 a11 a12 a13)) src dst = A
  rw [mlpOf_1_val, bnOf_1_val, eluOf_val, Spec.ofVec2_toVec2, Spec.ofVec2_toVec2]
  rfl

/-- The identity applied entry by entry changes nothing. -/
theorem f_toVec2_id (B : Fin 50000 → Fin 64 → EReal) : Spec.toVec2 (fun i j => id (B i j)) = Spec.toVec2 B := rfl

/-- Layer 2, which has no ELU. -/
theorem f_layer2 :
    bnOf_2 (mlpOf_2 (Net.agg H (edgeEmb2 ea a6 a7) src dst) a8 a9 a10 a11) a12 a13
      = NetSpec.layerR ea src dst id (NetSpec.layerW 2 a6 a7 a8 a9 a10 a11 a12 a13) H := by
  have hE : edgeEmb2 ea a6 a7 = NetSpec.emb ea (NetSpec.layerW 2 a6 a7 a8 a9 a10 a11 a12 a13) :=
    (edgeEmb2_val ea a6 a7).trans rfl
  unfold NetSpec.layerR NetSpec.pre
  rw [hE, f_toVec2_id]
  generalize Net.agg H (NetSpec.emb ea (NetSpec.layerW 2 a6 a7 a8 a9 a10 a11 a12 a13)) src dst = A
  rw [mlpOf_2_val, bnOf_2_val, Spec.ofVec2_toVec2]
  rfl

end

/-- The reference's result is the network in the reference's spelling. -/
theorem refOut_val (a0 : FVec Ideal S50000x7 .f32) (a1 : FVec Ideal S1000000x5 .f32) (a2 : IVec S2x1000000 32) (a3 : IVec S250 32)
    (a4 : FVec Ideal S7x64 .f32) (a5 : FVec Ideal S64 .f32) (a6 : FVec Ideal S3x5x64 .f32) (a7 : FVec Ideal S3x64 .f32)
    (a8 : FVec Ideal S3x64x128 .f32) (a9 : FVec Ideal S3x128 .f32) (a10 : FVec Ideal S3x128x64 .f32) (a11 a12 a13 : FVec Ideal S3x64 .f32) :
    refOut (F := Ideal) a0 a1 a2 a3 a4 a5 a6 a7 a8 a9 a10 a11 a12 a13
      = Cert.ReferenceIdeal.NetSpec.netOfR a0 a1 a2 a3 a4 a5 a6 a7 a8 a9 a10 a11 a12 a13 := by
  -- the three layers in turn, each applied to the previous layer's result
  have e0 := congrArg (NetSpec.layerR (Net.ea a1) (Net.srcOf a2) (Net.dstOf a2) Spec.eluSel
    (NetSpec.layerW 0 a6 a7 a8 a9 a10 a11 a12 a13)) (embed_val a0 a4 a5)
  have hA := (f_layer0 (Net.ea a1) (Net.srcOf a2) (Net.dstOf a2) a6 a7 a8 a9 a10 a11 a12 a13 (embed a0 a4 a5)).trans e0
  have hB := (congrArg (fun X => eluOf (bnOf_1 (mlpOf_1 (Net.agg X (edgeEmb1 (Net.ea a1) a6 a7) (Net.srcOf a2) (Net.dstOf a2))
        a8 a9 a10 a11) a12 a13)) hA).trans
      (f_layer1 (Net.ea a1) (Net.srcOf a2) (Net.dstOf a2) a6 a7 a8 a9 a10 a11 a12 a13 _)
  have hC := (congrArg (fun X => bnOf_2 (mlpOf_2 (Net.agg X (edgeEmb2 (Net.ea a1) a6 a7) (Net.srcOf a2) (Net.dstOf a2))
        a8 a9 a10 a11) a12 a13) hB).trans
      (f_layer2 (Net.ea a1) (Net.srcOf a2) (Net.dstOf a2) a6 a7 a8 a9 a10 a11 a12 a13 _)
  have hD := congrArg (fun X => Net.pick X a3) hC
  unfold refOut NetSpec.netOfR NetSpec.netR NetSpec.h0Of
  exact hD

end Cert.ReferenceIdeal.Hand

end
-- ==== Proof.PreReal.lean ====
/-
  The precondition decoded.  The precondition and-s, over the twelve float arguments, the reduction by "and" of
  the entrywise test |x| < +∞.  An extended real whose absolute value max(x, −x) lies below +∞ is neither
  infinity, so it is a real number.  Hence, under the precondition, every entry of every float argument is real.
-/
import proofs.«172917_j75840532513057_2_alg».proof.Proof.Spec
import proofs.«172917_j75840532513057_2_alg».proof.Proof.Gen.Pre_finite_inputs
import Idealize.ShloMosaic.Lib.ReduceAll

noncomputable section

open Idealize.ShloMosaic

namespace Cert.Spec

open Cert.Pre_finite_inputs

/-- The rank-0 shape has one index. -/
instance h_subsingleton_S_ : Subsingleton S_.Idx := ⟨fun _ _ => funext fun d => d.elim0⟩

/-- The pattern 0x7F800000 denotes +∞. -/
theorem h_inf_bits : Ideal.ofBits .f32 0x7F800000#32 = (⊤ : EReal) := by
  simp [Ideal.ofBits, Ideal.ieee]

/-- An extended real with max(x, −x) < +∞ is a real number. -/
theorem h_real_of_abs_lt_top (x : EReal) (h : max x (-x) < (⊤ : EReal)) : IsReal x := by
  induction x using EReal.rec with
  | bot => exact absurd h (by simp)
  | coe r => exact ⟨r, rfl⟩
  | top => exact absurd h (by simp)

/-- The entrywise test of the precondition, passed, gives a real number. -/
theorem h_real_of_test (x : EReal)
    (h : Ideal.cmp .olt (max x (-x)) (Ideal.ofBits .f32 0x7F800000#32) = 1#1) : IsReal x := by
  rw [h_inf_bits] at h
  unfold Ideal.cmp at h
  refine h_real_of_abs_lt_top x ?_
  by_contra hn
  simp [hn] at h

/-- One conjunct of the precondition: the reduction by "and" of the entrywise test is 1, so every entry is real. -/
theorem h_all_real {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) : ∀ i, IsReal (x i) := by
  intro i
  exact h_real_of_test (x i) (Host.reduce_andi_all _ _ hr hu j e i)

/-- The precondition decoded: every entry of every float argument is a real number. -/
theorem args_real
    (a0 : FVec Ideal S50000x7 .f32) (a1 : FVec Ideal S1000000x5 .f32)
    (a2 : IVec S2x1000000 32) (a3 : IVec S250 32)
    (a4 : FVec Ideal S7x64 .f32) (a5 : FVec Ideal S64 .f32)
    (a6 : FVec Ideal S3x5x64 .f32) (a7 : FVec Ideal S3x64 .f32)
    (a8 : FVec Ideal S3x64x128 .f32) (a9 : FVec Ideal S3x128 .f32)
    (a10 : FVec Ideal S3x128x64 .f32) (a11 : FVec Ideal S3x64 .f32)
    (a12 : FVec Ideal S3x64 .f32) (a13 : FVec Ideal S3x64 .f32)
    (h : Cert.Pre_finite_inputs.fn (F := Ideal) a0 a1 a2 a3 a4 a5 a6 a7 a8 a9 a10 a11 a12 a13 = (fun _ => 1#1)) :
    (∀ i, IsReal (a0 i)) ∧ (∀ i, IsReal (a1 i)) ∧ (∀ i, IsReal (a4 i)) ∧ (∀ i, IsReal (a5 i)) ∧ (∀ i, IsReal (a6 i)) ∧
    (∀ i, IsReal (a7 i)) ∧ (∀ i, IsReal (a8 i)) ∧ (∀ i, IsReal (a9 i)) ∧ (∀ i, IsReal (a10 i)) ∧ (∀ i, IsReal (a11 i)) ∧
    (∀ i, IsReal (a12 i)) ∧ (∀ i, IsReal (a13 i)) := by
  have e := congrFun h ValueIdx.ix0
  dsimp only [Cert.Pre_finite_inputs.fn, fn_part1, fn_part2, fn_part3] at e
  obtain ⟨e, h13⟩ := IntOp.andi_eq_one.1 e
  obtain ⟨e, h12⟩ := IntOp.andi_eq_one.1 e
  obtain ⟨e, h11⟩ := IntOp.andi_eq_one.1 e
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨h0, h1⟩ := IntOp.andi_eq_one.1 e
  exact ⟨h_all_real a0 _ _ _ _ h0, h_all_real a1 _ _ _ _ h1, h_all_real a4 _ _ _ _ h4, h_all_real a5 _ _ _ _ h5,
    h_all_real a6 _ _ _ _ h6, h_all_real a7 _ _ _ _ h7, h_all_real a8 _ _ _ _ h8, h_all_real a9 _ _ _ _ h9,
    h_all_real a10 _ _ _ _ h10, h_all_real a11 _ _ _ _ h11, h_all_real a12 _ _ _ _ h12, h_all_real a13 _ _ _ _ h13⟩

end Cert.Spec

end
-- ==== Proof.Claims.lean ====
/-
  The five claims. The two kernel programs' frames are the run over all of @main's items with each argument read
  back through the boundaries to its launch contents; the reference's frame is its run with the result dropped.
  For the algebraic claim both programs are run from memories agreeing on the arguments: the kernel program's result
  buffer holds the network in its spelling (variance from the two column sums), the reference's in its own (mean
  squared deviation); the precondition makes every float argument real, under which the two spellings are one function.
-/
import proofs.«172917_j75840532513057_2_alg».proof.Defs
import proofs.«172917_j75840532513057_2_alg».proof.Proof.ChainK
import proofs.«172917_j75840532513057_2_alg».proof.Proof.RunK
import proofs.«172917_j75840532513057_2_alg».proof.Proof.RunArgs
import proofs.«172917_j75840532513057_2_alg».proof.Proof.KRunK
import proofs.«172917_j75840532513057_2_alg».proof.Proof.KRunArgs
import proofs.«172917_j75840532513057_2_alg».proof.Proof.RefRun
import proofs.«172917_j75840532513057_2_alg».proof.Proof.RefFold
import proofs.«172917_j75840532513057_2_alg».proof.Proof.RefVal
import proofs.«172917_j75840532513057_2_alg».proof.Proof.PreReal
import proofs.«172917_j75840532513057_2_alg».proof.Proof.Gen.Kernel
import proofs.«172917_j75840532513057_2_alg».proof.Proof.Gen.KernelIdeal
import proofs.«172917_j75840532513057_2_alg».proof.Proof.Gen.ReferenceIdeal
import proofs.«172917_j75840532513057_2_alg».proof.Proof.Gen.Pre_finite_inputs

noncomputable section

namespace Cert.Proof.Claims

open Idealize.ShloMosaic Idealize.ShloMosaic.TcCoe Idealize.SL.Sem

theorem frame_k : Cert.frame_Kernel := fun m ρ _ => (θ_run Cert.Kernel.defs _ _).mono (fun r h c =>
    ⟨(h c _ (Cert.Kernel.Hand.mem_uc Cert.Kernel.main_arg0 (by decide))).trans (Cert.Kernel.Hand.kW21_arg0 m ρ c),
     (h c _ (Cert.Kernel.Hand.mem_uc Cert.Kernel.main_arg1 (by decide))).trans (Cert.Kernel.Hand.kW21_arg1 m ρ c),
     (h c _ (Cert.Kernel.Hand.mem_uc Cert.Kernel.main_arg2 (by decide))).trans (Cert.Kernel.Hand.kW21_arg2 m ρ c),
     (h c _ (Cert.Kernel.Hand.mem_uc Cert.Kernel.main_arg3 (by decide))).trans (Cert.Kernel.Hand.kW21_arg3 m ρ c),
     (h c _ (Cert.Kernel.Hand.mem_uc Cert.Kernel.main_arg4 (by decide))).trans (Cert.Kernel.Hand.kW21_arg4 m ρ c),
     (h c _ (Cert.Kernel.Hand.mem_uc Cert.Kernel.main_arg5 (by decide))).trans (Cert.Kernel.Hand.kW21_arg5 m ρ c),
     (h c _ (Cert.Kernel.Hand.mem_uc Cert.Kernel.main_arg6 (by decide))).trans (Cert.Kernel.Hand.kW21_arg6 m ρ c),
     (h c _ (Cert.Kernel.Hand.mem_uc Cert.Kernel.main_arg7 (by decide))).trans (Cert.Kernel.Hand.kW21_arg7 m ρ c),
     (h c _ (Cert.Kernel.Hand.mem_uc Cert.Kernel.main_arg8 (by decide))).trans (Cert.Kernel.Hand.kW21_arg8 m ρ c),
     (h c _ (Cert.Kernel.Hand.mem_uc Cert.Kernel.main_arg9 (by decide))).trans (Cert.Kernel.Hand.kW21_arg9 m ρ c),
     (h c _ (Cert.Kernel.Hand.mem_uc Cert.Kernel.main_arg10 (by decide))).trans (Cert.Kernel.Hand.kW21_arg10 m ρ c),
     (h c _ (Cert.Kernel.Hand.mem_uc Cert.Kernel.main_arg11 (by decide))).trans (Cert.Kernel.Hand.kW21_arg11 m ρ c),
     (h c _ (Cert.Kernel.Hand.mem_uc Cert.Kernel.main_arg12 (by decide))).trans (Cert.Kernel.Hand.kW21_arg12 m ρ c),
     (h c _ (Cert.Kernel.Hand.mem_uc Cert.Kernel.main_arg13 (by decide))).trans (Cert.Kernel.Hand.kW21_arg13 m ρ c)⟩)
    (Cert.Kernel.Hand.run_all m ρ)

theorem frame_ki : Cert.frame_KernelIdeal := fun m ρ _ => (θ_run Cert.KernelIdeal.defs _ _).mono (fun r h c =>
    ⟨(h c _ (Cert.KernelIdeal.Hand.mem_uc Cert.KernelIdeal.main_arg0 (by decide))).trans (Cert.KernelIdeal.Hand.kW21_arg0 m ρ c),
     (h c _ (Cert.KernelIdeal.Hand.mem_uc Cert.KernelIdeal.main_arg1 (by decide))).trans (Cert.KernelIdeal.Hand.kW21_arg1 m ρ c),
     (h c _ (Cert.KernelIdeal.Hand.mem_uc Cert.KernelIdeal.main_arg2 (by decide))).trans (Cert.KernelIdeal.Hand.kW21_arg2 m ρ c),
     (h c _ (Cert.KernelIdeal.Hand.mem_uc Cert.KernelIdeal.main_arg3 (by decide))).trans (Cert.KernelIdeal.Hand.kW21_arg3 m ρ c),
     (h c _ (Cert.KernelIdeal.Hand.mem_uc Cert.KernelIdeal.main_arg4 (by decide))).trans (Cert.KernelIdeal.Hand.kW21_arg4 m ρ c),
     (h c _ (Cert.KernelIdeal.Hand.mem_uc Cert.KernelIdeal.main_arg5 (by decide))).trans (Cert.KernelIdeal.Hand.kW21_arg5 m ρ c),
     (h c _ (Cert.KernelIdeal.Hand.mem_uc Cert.KernelIdeal.main_arg6 (by decide))).trans (Cert.KernelIdeal.Hand.kW21_arg6 m ρ c),
     (h c _ (Cert.KernelIdeal.Hand.mem_uc Cert.KernelIdeal.main_arg7 (by decide))).trans (Cert.KernelIdeal.Hand.kW21_arg7 m ρ c),
     (h c _ (Cert.KernelIdeal.Hand.mem_uc Cert.KernelIdeal.main_arg8 (by decide))).trans (Cert.KernelIdeal.Hand.kW21_arg8 m ρ c),
     (h c _ (Cert.KernelIdeal.Hand.mem_uc Cert.KernelIdeal.main_arg9 (by decide))).trans (Cert.KernelIdeal.Hand.kW21_arg9 m ρ c),
     (h c _ (Cert.KernelIdeal.Hand.mem_uc Cert.KernelIdeal.main_arg10 (by decide))).trans (Cert.KernelIdeal.Hand.kW21_arg10 m ρ c),
     (h c _ (Cert.KernelIdeal.Hand.mem_uc Cert.KernelIdeal.main_arg11 (by decide))).trans (Cert.KernelIdeal.Hand.kW21_arg11 m ρ c),
     (h c _ (Cert.KernelIdeal.Hand.mem_uc Cert.KernelIdeal.main_arg12 (by decide))).trans (Cert.KernelIdeal.Hand.kW21_arg12 m ρ c),
     (h c _ (Cert.KernelIdeal.Hand.mem_uc Cert.KernelIdeal.main_arg13 (by decide))).trans (Cert.KernelIdeal.Hand.kW21_arg13 m ρ c)⟩)
    (Cert.KernelIdeal.Hand.run_all m ρ)

theorem frame_ri : Cert.frame_ReferenceIdeal := fun m ρ _ =>
  (θ_run Cert.ReferenceIdeal.defs _ _).mono (fun _ h c => (h c).2) (Cert.ReferenceIdeal.Hand.ref_run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Hand.W21 m ρ c (Proc.devRef .tc Cert.KernelIdeal.main_v149), ?_, ?_⟩
  · exact (θ_run Cert.KernelIdeal.defs _ _).mono (fun r h c =>
      ⟨h c _ (Cert.KernelIdeal.Hand.mem_uc Cert.KernelIdeal.main_v149 (by decide)),
       (h c _ (Cert.KernelIdeal.Hand.mem_uc Cert.KernelIdeal.main_arg0 (by decide))).trans (Cert.KernelIdeal.Hand.kW21_arg0 m ρ c),
       (h c _ (Cert.KernelIdeal.Hand.mem_uc Cert.KernelIdeal.main_arg1 (by decide))).trans (Cert.KernelIdeal.Hand.kW21_arg1 m ρ c),
       (h c _ (Cert.KernelIdeal.Hand.mem_uc Cert.KernelIdeal.main_arg2 (by decide))).trans (Cert.KernelIdeal.Hand.kW21_arg2 m ρ c),
       (h c _ (Cert.KernelIdeal.Hand.mem_uc Cert.KernelIdeal.main_arg3 (by decide))).trans (Cert.KernelIdeal.Hand.kW21_arg3 m ρ c),
       (h c _ (Cert.KernelIdeal.Hand.mem_uc Cert.KernelIdeal.main_arg4 (by decide))).trans (Cert.KernelIdeal.Hand.kW21_arg4 m ρ c),
       (h c _ (Cert.KernelIdeal.Hand.mem_uc Cert.KernelIdeal.main_arg5 (by decide))).trans (Cert.KernelIdeal.Hand.kW21_arg5 m ρ c),
       (h c _ (Cert.KernelIdeal.Hand.mem_uc Cert.KernelIdeal.main_arg6 (by decide))).trans (Cert.KernelIdeal.Hand.kW21_arg6 m ρ c),
       (h c _ (Cert.KernelIdeal.Hand.mem_uc Cert.KernelIdeal.main_arg7 (by decide))).trans (Cert.KernelIdeal.Hand.kW21_arg7 m ρ c),
       (h c _ (Cert.KernelIdeal.Hand.mem_uc Cert.KernelIdeal.main_arg8 (by decide))).trans (Cert.KernelIdeal.Hand.kW21_arg8 m ρ c),
       (h c _ (Cert.KernelIdeal.Hand.mem_uc Cert.KernelIdeal.main_arg9 (by decide))).trans (Cert.KernelIdeal.Hand.kW21_arg9 m ρ c),
       (h c _ (Cert.KernelIdeal.Hand.mem_uc Cert.KernelIdeal.main_arg10 (by decide))).trans (Cert.KernelIdeal.Hand.kW21_arg10 m ρ c),
       (h c _ (Cert.KernelIdeal.Hand.mem_uc Cert.KernelIdeal.main_arg11 (by decide))).trans (Cert.KernelIdeal.Hand.kW21_arg11 m ρ c),
       (h c _ (Cert.KernelIdeal.Hand.mem_uc Cert.KernelIdeal.main_arg12 (by decide))).trans (Cert.KernelIdeal.Hand.kW21_arg12 m ρ c),
       (h c _ (Cert.KernelIdeal.Hand.mem_uc Cert.KernelIdeal.main_arg13 (by decide))).trans (Cert.KernelIdeal.Hand.kW21_arg13 m ρ c)⟩)
      (Cert.KernelIdeal.Hand.run_all m ρ)
  · refine (θ_run Cert.ReferenceIdeal.defs _ _).mono (fun r h c => ⟨(h c).1.trans ?_, (h c).2⟩)
      (Cert.ReferenceIdeal.Hand.ref_run_out (F := Ideal) m' ρ')
    obtain ⟨r0, r1, r4, r5, r6, r7, r8, r9, r10, r11, r12, r13⟩ := Cert.Spec.args_real _ _ _ _ _ _ _ _ _ _ _ _ _ _ (hpre c)
    obtain ⟨e0, e1, e2, e3, e4, e5, e6, e7, e8, e9, e10, e11, e12, e13⟩ := hagree c
    rw [e0, e1, e2, e3, e4, e5, e6, e7, e8, e9, e10, e11, e12, e13]
    refine (Cert.ReferenceIdeal.Hand.refOut_val _ _ _ _ _ _ _ _ _ _ _ _ _ _).trans ?_
    refine Eq.trans ?_ (Cert.KernelIdeal.Hand.k21_net m ρ c).symm
    exact (Cert.ReferenceIdeal.NetSpec.netOfK_eq_netOfR _ _ _ _ _ _ _ _ _ _ _ _ _ _ r0 r1 r4 r5 r6 r7 r8 r9 r10 r11 r12 r13).symm

end Cert.Proof.Claims

end
-- ==== Proof.lean ====
/-
  The certificate's proof: the witnesses of the programs' stated side conditions (the generated instances), then the
  five claims of Proof/Claims.lean — the three frames, the (empty) idealization ledger, and the equality of the two
  idealized programs' results: a three-layer message-passing network whose batch-normalisation variance the kernel
  program takes from running column sums and the reference from squared deviations, equal on real inputs.
-/
import proofs.«172917_j75840532513057_2_alg».proof.Defs
import proofs.«172917_j75840532513057_2_alg».proof.Proof.Claims
import proofs.«172917_j75840532513057_2_alg».proof.Proof.Gen.Kernel
import proofs.«172917_j75840532513057_2_alg».proof.Proof.Gen.KernelIdeal
import proofs.«172917_j75840532513057_2_alg».proof.Proof.Gen.ReferenceIdeal
import proofs.«172917_j75840532513057_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
